-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v238)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v238) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v329) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x400000 : Shape := ⟨2, ![2, 400000]⟩
abbrev S400000x3 : Shape := ⟨2, ![400000, 3]⟩
abbrev S3x128 : Shape := ⟨2, ![3, 128]⟩
abbrev S128 : Shape := ⟨1, ![128]⟩
abbrev S5x3x128 : Shape := ⟨3, ![5, 3, 128]⟩
abbrev S5x128 : Shape := ⟨2, ![5, 128]⟩
abbrev S5x256x256 : Shape := ⟨3, ![5, 256, 256]⟩
abbrev S5x256 : Shape := ⟨2, ![5, 256]⟩
abbrev S5x256x128 : Shape := ⟨3, ![5, 256, 128]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S400000x3 : S_.BroadcastsInDim S400000x3 (![] : Fin 0 → Fin S400000x3.rank)
  reducesTo_S400000x3_S_d0_1 : S400000x3.ReducesTo [0, 1] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S5x3x128 : S_.BroadcastsInDim S5x3x128 (![] : Fin 0 → Fin S5x3x128.rank)
  reducesTo_S5x3x128_S_d0_1_2 : S5x3x128.ReducesTo [0, 1, 2] S_
  bcast_S_S5x128 : S_.BroadcastsInDim S5x128 (![] : Fin 0 → Fin S5x128.rank)
  reducesTo_S5x128_S_d0_1 : S5x128.ReducesTo [0, 1] S_
  bcast_S_S5x256x256 : S_.BroadcastsInDim S5x256x256 (![] : Fin 0 → Fin S5x256x256.rank)
  reducesTo_S5x256x256_S_d0_1_2 : S5x256x256.ReducesTo [0, 1, 2] S_
  bcast_S_S5x256 : S_.BroadcastsInDim S5x256 (![] : Fin 0 → Fin S5x256.rank)
  reducesTo_S5x256_S_d0_1 : S5x256.ReducesTo [0, 1] S_
  bcast_S_S5x256x128 : S_.BroadcastsInDim S5x256x128 (![] : Fin 0 → Fin S5x256x128.rank)
  reducesTo_S5x256x128_S_d0_1_2 : S5x256x128.ReducesTo [0, 1, 2] S_

variable [Facts]

def fn_part3 {F : FTy → Type} [FloatOps F] (main_arg12 : FVec F S5x128 .f32) (main_v48 : IVec S_ 1) (main_v49 : FVec F S5x256x128 .f32) (main_v50 : FVec F S5x256x128 .f32) : IVec S_ 1 :=
  let main_v51 : IVec S5x256x128 1 := cmpf .olt main_v49 main_v50
  let main_c_19 : IVec S_ 1 := constantI S_ 1 1#1
  let main_v52 : IVec S_ 1 := (fun x v => Host.reduce IntOp.andi x v reducesTo_S5x256x128_S_d0_1_2 h_S_) main_v51 main_c_19
  let main_v53 : IVec S_ 1 := andi main_v48 main_v52
  let main_v54 : FVec F S5x128 .f32 := Host.absf main_arg12
  let main_cst_20 : FVec F S_ .f32 := constant S_ .f32 0x7F800000#32
  let main_v55 : FVec F S5x128 .f32 := broadcastInDim S5x128 ![] bcast_S_S5x128 main_cst_20
  let main_v56 : IVec S5x128 1 := cmpf .olt main_v54 main_v55
  let main_c_21 : IVec S_ 1 := constantI S_ 1 1#1
  let main_v57 : IVec S_ 1 := (fun x v => Host.reduce IntOp.andi x v reducesTo_S5x128_S_d0_1 h_S_) main_v56 main_c_21
  let main_v58 : IVec S_ 1 := andi main_v53 main_v57
  main_v58

def fn_part2 {F : FTy → Type} [FloatOps F] (main_arg8 : FVec F S5x256 .f32) (main_arg9 : FVec F S5x256 .f32) (main_arg10 : FVec F S5x256 .f32) (main_arg11 : FVec F S5x256x128 .f32) (main_arg12 : FVec F S5x128 .f32) (main_v33 : IVec S_ 1) : IVec S_ 1 :=
  let main_v34 : FVec F S5x256 .f32 := Host.absf main_arg8
  let main_cst_12 : FVec F S_ .f32 := constant S_ .f32 0x7F800000#32
  let main_v35 : FVec F S5x256 .f32 := broadcastInDim S5x256 ![] bcast_S_S5x256 main_cst_12
  let main_v36 : IVec S5x256 1 := cmpf .olt main_v34 main_v35
  let main_c_13 : IVec S_ 1 := constantI S_ 1 1#1
  let main_v37 : IVec S_ 1 := (fun x v => Host.reduce IntOp.andi x v reducesTo_S5x256_S_d0_1 h_S_) main_v36 main_c_13
  let main_v38 : IVec S_ 1 := andi main_v33 main_v37
  let main_v39 : FVec F S5x256 .f32 := Host.absf main_arg9
  let main_cst_14 : FVec F S_ .f32 := constant S_ .f32 0x7F800000#32
  let main_v40 : FVec F S5x256 .f32 := broadcastInDim S5x256 ![] bcast_S_S5x256 main_cst_14
  let main_v41 : IVec S5x256 1 := cmpf .olt main_v39 main_v40
  let main_c_15 : IVec S_ 1 := constantI S_ 1 1#1
  let main_v42 : IVec S_ 1 := (fun x v => Host.reduce IntOp.andi x v reducesTo_S5x256_S_d0_1 h_S_) main_v41 main_c_15
  let main_v43 : IVec S_ 1 := andi main_v38 main_v42
  let main_v44 : FVec F S5x256 .f32 := Host.absf main_arg10
  let main_cst_16 : FVec F S_ .f32 := constant S_ .f32 0x7F800000#32
  let main_v45 : FVec F S5x256 .f32 := broadcastInDim S5x256 ![] bcast_S_S5x256 main_cst_16
  let main_v46 : IVec S5x256 1 := cmpf .olt main_v44 main_v45
  let main_c_17 : IVec S_ 1 := constantI S_ 1 1#1
  let main_v47 : IVec S_ 1 := (fun x v => Host.reduce IntOp.andi x v reducesTo_S5x256_S_d0_1 h_S_) main_v46 main_c_17
  let main_v48 : IVec S_ 1 := andi main_v43 main_v47
  let main_v49 : FVec F S5x256x128 .f32 := Host.absf main_arg11
  let main_cst_18 : FVec F S_ .f32 := constant S_ .f32 0x7F800000#32
  let main_v50 : FVec F S5x256x128 .f32 := broadcastInDim S5x256x128 ![] bcast_S_S5x256x128 main_cst_18
  fn_part3 (F := F) main_arg12 main_v48 main_v49 main_v50

def fn_part1 {F : FTy → Type} [FloatOps F] (main_arg5 : FVec F S5x3x128 .f32) (main_arg6 : FVec F S5x128 .f32) (main_arg7 : FVec F S5x256x256 .f32) (main_arg8 : FVec F S5x256 .f32) (main_arg9 : FVec F S5x256 .f32) (main_arg10 : FVec F S5x256 .f32) (main_arg11 : FVec F S5x256x128 .f32) (main_arg12 : FVec F S5x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S5x3x128 .f32 := Host.absf main_arg5
  let main_cst_6 : FVec F S_ .f32 := constant S_ .f32 0x7F800000#32
  let main_v20 : FVec F S5x3x128 .f32 := broadcastInDim S5x3x128 ![] bcast_S_S5x3x128 main_cst_6
  let main_v21 : IVec S5x3x128 1 := cmpf .olt main_v19 main_v20
  let main_c_7 : IVec S_ 1 := constantI S_ 1 1#1
  let main_v22 : IVec S_ 1 := (fun x v => Host.reduce IntOp.andi x v reducesTo_S5x3x128_S_d0_1_2 h_S_) main_v21 main_c_7
  let main_v23 : IVec S_ 1 := andi main_v18 main_v22
  let main_v24 : FVec F S5x128 .f32 := Host.absf main_arg6
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S5x256x256 .f32 := Host.absf main_arg7
  let main_cst_10 : FVec F S_ .f32 := constant S_ .f32 0x7F800000#32
  let main_v30 : FVec F S5x256x256 .f32 := broadcastInDim S5x256x256 ![] bcast_S_S5x256x256 main_cst_10
  let main_v31 : IVec S5x256x256 1 := cmpf .olt main_v29 main_v30
  let main_c_11 : IVec S_ 1 := constantI S_ 1 1#1
  let main_v32 : IVec S_ 1 := (fun x v => Host.reduce IntOp.andi x v reducesTo_S5x256x256_S_d0_1_2 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x3 .f32) (main_arg1 : IVec S2x400000 32) (main_arg2 : FVec F S400000x3 .f32) (main_arg3 : FVec F S3x128 .f32) (main_arg4 : FVec F S128 .f32) (main_arg5 : FVec F S5x3x128 .f32) (main_arg6 : FVec F S5x128 .f32) (main_arg7 : FVec F S5x256x256 .f32) (main_arg8 : FVec F S5x256 .f32) (main_arg9 : FVec F S5x256 .f32) (main_arg10 : FVec F S5x256 .f32) (main_arg11 : FVec F S5x256x128 .f32) (main_arg12 : FVec F S5x128 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S400000x3 .f32 := Host.absf main_arg2
  let main_cst_0 : FVec F S_ .f32 := constant S_ .f32 0x7F800000#32
  let main_v5 : FVec F S400000x3 .f32 := broadcastInDim S400000x3 ![] bcast_S_S400000x3 main_cst_0
  let main_v6 : IVec S400000x3 1 := cmpf .olt main_v4 main_v5
  let main_c_1 : IVec S_ 1 := constantI S_ 1 1#1
  let main_v7 : IVec S_ 1 := (fun x v => Host.reduce IntOp.andi x v reducesTo_S400000x3_S_d0_1 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x3 : Shape := ⟨2, ![50000, 3]⟩
abbrev S2x400000 : Shape := ⟨2, ![2, 400000]⟩
abbrev S400000x3 : Shape := ⟨2, ![400000, 3]⟩
abbrev S3x128 : Shape := ⟨2, ![3, 128]⟩
abbrev S128 : Shape := ⟨1, ![128]⟩
abbrev S5x3x128 : Shape := ⟨3, ![5, 3, 128]⟩
abbrev S5x128 : Shape := ⟨2, ![5, 128]⟩
abbrev S5x256x256 : Shape := ⟨3, ![5, 256, 256]⟩
abbrev S5x256 : Shape := ⟨2, ![5, 256]⟩
abbrev S5x256x128 : Shape := ⟨3, ![5, 256, 128]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S1 : Shape := ⟨1, ![1]⟩
abbrev S450000x3 : Shape := ⟨2, ![450000, 3]⟩
abbrev S1x3x128 : Shape := ⟨3, ![1, 3, 128]⟩
abbrev S1x128 : Shape := ⟨2, ![1, 128]⟩
abbrev S450000x128 : Shape := ⟨2, ![450000, 128]⟩
abbrev S9000x3 : Shape := ⟨2, ![9000, 3]⟩
abbrev S9000x128 : Shape := ⟨2, ![9000, 128]⟩
abbrev S50000x128 : Shape := ⟨2, ![50000, 128]⟩
abbrev S5000x3 : Shape := ⟨2, ![5000, 3]⟩
abbrev S5000x128 : Shape := ⟨2, ![5000, 128]⟩
abbrev S450000x1 : Shape := ⟨2, ![450000, 1]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S50000x256 : Shape := ⟨2, ![50000, 256]⟩
abbrev S5000x256 : Shape := ⟨2, ![5000, 256]⟩
abbrev S1x256x128 : Shape := ⟨3, ![1, 256, 128]⟩
abbrev S256x128 : Shape := ⟨2, ![256, 128]⟩

abbrev nBuf : Space → Nat
  | .hbm => 395
  | .vmem => 131
  | .smem => 0
  | _ => 0

abbrev hbmTy0_0 (i : Nat) : BufTy := match i % 128 with
  | 0 => ⟨S50000x3, .f32⟩
  | 1 => ⟨S2x400000, .i32⟩
  | 2 => ⟨S400000x3, .f32⟩
  | 3 => ⟨S3x128, .f32⟩
  | 4 => ⟨S128, .f32⟩
  | 5 => ⟨S5x3x128, .f32⟩
  | 6 => ⟨S5x128, .f32⟩
  | 7 => ⟨S5x256x256, .f32⟩
  | 8 => ⟨S5x256, .f32⟩
  | 9 => ⟨S5x256, .f32⟩
  | 10 => ⟨S5x256, .f32⟩
  | 11 => ⟨S5x256x128, .f32⟩
  | 12 => ⟨S5x128, .f32⟩
  | 13 => ⟨S50000, .i32⟩
  | 14 => ⟨S1x400000, .i32⟩
  | 15 => ⟨S400000, .i32⟩
  | 16 => ⟨S450000, .i32⟩
  | 17 => ⟨S1x400000, .i32⟩
  | 18 => ⟨S400000, .i32⟩
  | 19 => ⟨S450000, .i32⟩
  | 20 => ⟨S_, .f32⟩
  | 21 => ⟨S50000x3, .f32⟩
  | 22 => ⟨S_, .i32⟩
  | 23 => ⟨S1, .i32⟩
  | 24 => ⟨S_, .f32⟩
  | 25 => ⟨S50000, .f32⟩
  | 26 => ⟨S50000x3, .f32⟩
  | 27 => ⟨S450000x3, .f32⟩
  | 28 => ⟨S1x3x128, .f32⟩
  | 29 => ⟨S3x128, .f32⟩
  | 30 => ⟨S1x128, .f32⟩
  | 31 => ⟨S128, .f32⟩
  | 32 => ⟨S1x128, .f32⟩
  | 33 => ⟨S450000x128, .f32⟩
  | 34 => ⟨S1x128, .f32⟩
  | 35 => ⟨S50000x128, .f32⟩
  | 36 => ⟨S_, .i32⟩
  | 37 => ⟨S450000, .i32⟩
  | 38 => ⟨S450000, .i1⟩
  | 39 => ⟨S_, .i32⟩
  | 40 => ⟨S450000, .i32⟩
  | 41 => ⟨S450000, .i32⟩
  | 42 => ⟨S450000, .i32⟩
  | 43 => ⟨S450000x1, .i32⟩
  | 44 => ⟨S450000x128, .f32⟩
  | 45 => ⟨S_, .f32⟩
  | 46 => ⟨S50000x128, .f32⟩
  | 47 => ⟨S450000x1, .i32⟩
  | 48 => ⟨S50000x128, .f32⟩
  | 49 => ⟨S_, .f32⟩
  | 50 => ⟨S50000x128, .f32⟩
  | 51 => ⟨S450000x1, .i32⟩
  | 52 => ⟨S50000x128, .f32⟩
  | 53 => ⟨S1x128x256, .f32⟩
  | 54 => ⟨S128x256, .f32⟩
  | 55 => ⟨S1x128x256, .f32⟩
  | 56 => ⟨S128x256, .f32⟩
  | 57 => ⟨S1x256, .f32⟩
  | 58 => ⟨S256, .f32⟩
  | 59 => ⟨S1x256, .f32⟩
  | 60 => ⟨S50000x256, .f32⟩
  | 61 => ⟨S_, .f32⟩
  | 62 => ⟨S256, .f32⟩
  | 63 => ⟨S_, .f32⟩
  | 64 => ⟨S256, .f32⟩
  | 65 => ⟨S256, .f32⟩
  | 66 => ⟨S_, .i32⟩
  | 67 => ⟨S_, .f32⟩
  | 68 => ⟨S256, .f32⟩
  | 69 => ⟨S1x256, .f32⟩
  | 70 => ⟨S_, .f32⟩
  | 71 => ⟨S1x256, .f32⟩
  | 72 => ⟨S1x256, .f32⟩
  | 73 => ⟨S50000x256, .f32⟩
  | 74 => ⟨S50000x256, .f32⟩
  | 75 => ⟨S50000x256, .f32⟩
  | 76 => ⟨S_, .f32⟩
  | 77 => ⟨S_, .f32⟩
  | 78 => ⟨S_, .f32⟩
  | 79 => ⟨S_, .f32⟩
  | 80 => ⟨S256, .f32⟩
  | 81 => ⟨S256, .f32⟩
  | 82 => ⟨S256, .f32⟩
  | 83 => ⟨S_, .f32⟩
  | 84 => ⟨S_, .i1⟩
  | 85 => ⟨S_, .f32⟩
  | 86 => ⟨S_, .f32⟩
  | 87 => ⟨S256, .f32⟩
  | 88 => ⟨S256, .f32⟩
  | 89 => ⟨S1x256, .f32⟩
  | 90 => ⟨S256, .f32⟩
  | 91 => ⟨S1x256, .f32⟩
  | 92 => ⟨S256, .f32⟩
  | 93 => ⟨S1x256x128, .f32⟩
  | 94 => ⟨S256x128, .f32⟩
  | 95 => ⟨S1x128, .f32⟩
  | 96 => ⟨S128, .f32⟩
  | 97 => ⟨S1x256, .f32⟩
  | 98 => ⟨S1x256, .f32⟩
  | 99 => ⟨S1x256, .f32⟩
  | 100 => ⟨S1x256, .f32⟩
  | 101 => ⟨S1x128, .f32⟩
  | 102 => ⟨S50000x128, .f32⟩
  | 103 => ⟨S1x3x128, .f32⟩
  | 104 => ⟨S3x128, .f32⟩
  | 105 => ⟨S1x128, .f32⟩
  | 106 => ⟨S128, .f32⟩
  | 107 => ⟨S1x128, .f32⟩
  | 108 => ⟨S450000x128, .f32⟩
  | 109 => ⟨S_, .i32⟩
  | 110 => ⟨S450000, .i32⟩
  | 111 => ⟨S450000, .i1⟩
  | 112 => ⟨S_, .i32⟩
  | 113 => ⟨S450000, .i32⟩
  | 114 => ⟨S450000, .i32⟩
  | 115 => ⟨S450000, .i32⟩
  | 116 => ⟨S450000x1, .i32⟩
  | 117 => ⟨S450000x128, .f32⟩
  | 118 => ⟨S_, .f32⟩
  | 119 => ⟨S50000x128, .f32⟩
  | 120 => ⟨S450000x1, .i32⟩
  | 121 => ⟨S50000x128, .f32⟩
  | 122 => ⟨S_, .f32⟩
  | 123 => ⟨S50000x128, .f32⟩
  | 124 => ⟨S450000x1, .i32⟩
  | 125 => ⟨S50000x128, .f32⟩
  | 126 => ⟨S1x128x256, .f32⟩
  | 127 => ⟨S128x256, .f32⟩
  | _ => ⟨S50000x3, .f32⟩

abbrev hbmTy0_1 (i : Nat) : BufTy := match i % 128 with
  | 0 => ⟨S1x128x256, .f32⟩
  | 1 => ⟨S128x256, .f32⟩
  | 2 => ⟨S1x256, .f32⟩
  | 3 => ⟨S256, .f32⟩
  | 4 => ⟨S1x256, .f32⟩
  | 5 => ⟨S50000x256, .f32⟩
  | 6 => ⟨S_, .f32⟩
  | 7 => ⟨S256, .f32⟩
  | 8 => ⟨S_, .f32⟩
  | 9 => ⟨S256, .f32⟩
  | 10 => ⟨S256, .f32⟩
  | 11 => ⟨S_, .i32⟩
  | 12 => ⟨S_, .f32⟩
  | 13 => ⟨S256, .f32⟩
  | 14 => ⟨S1x256, .f32⟩
  | 15 => ⟨S_, .f32⟩
  | 16 => ⟨S1x256, .f32⟩
  | 17 => ⟨S1x256, .f32⟩
  | 18 => ⟨S50000x256, .f32⟩
  | 19 => ⟨S50000x256, .f32⟩
  | 20 => ⟨S50000x256, .f32⟩
  | 21 => ⟨S_, .f32⟩
  | 22 => ⟨S_, .f32⟩
  | 23 => ⟨S_, .f32⟩
  | 24 => ⟨S_, .f32⟩
  | 25 => ⟨S256, .f32⟩
  | 26 => ⟨S256, .f32⟩
  | 27 => ⟨S256, .f32⟩
  | 28 => ⟨S_, .f32⟩
  | 29 => ⟨S_, .i1⟩
  | 30 => ⟨S_, .f32⟩
  | 31 => ⟨S_, .f32⟩
  | 32 => ⟨S256, .f32⟩
  | 33 => ⟨S256, .f32⟩
  | 34 => ⟨S1x256, .f32⟩
  | 35 => ⟨S256, .f32⟩
  | 36 => ⟨S1x256, .f32⟩
  | 37 => ⟨S256, .f32⟩
  | 38 => ⟨S1x256x128, .f32⟩
  | 39 => ⟨S256x128, .f32⟩
  | 40 => ⟨S1x128, .f32⟩
  | 41 => ⟨S128, .f32⟩
  | 42 => ⟨S1x256, .f32⟩
  | 43 => ⟨S1x256, .f32⟩
  | 44 => ⟨S1x256, .f32⟩
  | 45 => ⟨S1x256, .f32⟩
  | 46 => ⟨S1x128, .f32⟩
  | 47 => ⟨S50000x128, .f32⟩
  | 48 => ⟨S1x3x128, .f32⟩
  | 49 => ⟨S3x128, .f32⟩
  | 50 => ⟨S1x128, .f32⟩
  | 51 => ⟨S128, .f32⟩
  | 52 => ⟨S1x128, .f32⟩
  | 53 => ⟨S450000x128, .f32⟩
  | 54 => ⟨S_, .i32⟩
  | 55 => ⟨S450000, .i32⟩
  | 56 => ⟨S450000, .i1⟩
  | 57 => ⟨S_, .i32⟩
  | 58 => ⟨S450000, .i32⟩
  | 59 => ⟨S450000, .i32⟩
  | 60 => ⟨S450000, .i32⟩
  | 61 => ⟨S450000x1, .i32⟩
  | 62 => ⟨S450000x128, .f32⟩
  | 63 => ⟨S_, .f32⟩
  | 64 => ⟨S50000x128, .f32⟩
  | 65 => ⟨S450000x1, .i32⟩
  | 66 => ⟨S50000x128, .f32⟩
  | 67 => ⟨S_, .f32⟩
  | 68 => ⟨S50000x128, .f32⟩
  | 69 => ⟨S450000x1, .i32⟩
  | 70 => ⟨S50000x128, .f32⟩
  | 71 => ⟨S1x128x256, .f32⟩
  | 72 => ⟨S128x256, .f32⟩
  | 73 => ⟨S1x128x256, .f32⟩
  | 74 => ⟨S128x256, .f32⟩
  | 75 => ⟨S1x256, .f32⟩
  | 76 => ⟨S256, .f32⟩
  | 77 => ⟨S1x256, .f32⟩
  | 78 => ⟨S50000x256, .f32⟩
  | 79 => ⟨S_, .f32⟩
  | 80 => ⟨S256, .f32⟩
  | 81 => ⟨S_, .f32⟩
  | 82 => ⟨S256, .f32⟩
  | 83 => ⟨S256, .f32⟩
  | 84 => ⟨S_, .i32⟩
  | 85 => ⟨S_, .f32⟩
  | 86 => ⟨S256, .f32⟩
  | 87 => ⟨S1x256, .f32⟩
  | 88 => ⟨S_, .f32⟩
  | 89 => ⟨S1x256, .f32⟩
  | 90 => ⟨S1x256, .f32⟩
  | 91 => ⟨S50000x256, .f32⟩
  | 92 => ⟨S50000x256, .f32⟩
  | 93 => ⟨S50000x256, .f32⟩
  | 94 => ⟨S_, .f32⟩
  | 95 => ⟨S_, .f32⟩
  | 96 => ⟨S_, .f32⟩
  | 97 => ⟨S_, .f32⟩
  | 98 => ⟨S256, .f32⟩
  | 99 => ⟨S256, .f32⟩
  | 100 => ⟨S256, .f32⟩
  | 101 => ⟨S_, .f32⟩
  | 102 => ⟨S_, .i1⟩
  | 103 => ⟨S_, .f32⟩
  | 104 => ⟨S_, .f32⟩
  | 105 => ⟨S256, .f32⟩
  | 106 => ⟨S256, .f32⟩
  | 107 => ⟨S1x256, .f32⟩
  | 108 => ⟨S256, .f32⟩
  | 109 => ⟨S1x256, .f32⟩
  | 110 => ⟨S256, .f32⟩
  | 111 => ⟨S1x256x128, .f32⟩
  | 112 => ⟨S256x128, .f32⟩
  | 113 => ⟨S1x128, .f32⟩
  | 114 => ⟨S128, .f32⟩
  | 115 => ⟨S1x256, .f32⟩
  | 116 => ⟨S1x256, .f32⟩
  | 117 => ⟨S1x256, .f32⟩
  | 118 => ⟨S1x256, .f32⟩
  | 119 => ⟨S1x128, .f32⟩
  | 120 => ⟨S50000x128, .f32⟩
  | 121 => ⟨S1x3x128, .f32⟩
  | 122 => ⟨S3x128, .f32⟩
  | 123 => ⟨S1x128, .f32⟩
  | 124 => ⟨S128, .f32⟩
  | 125 => ⟨S1x128, .f32⟩
  | 126 => ⟨S450000x128, .f32⟩
  | 127 => ⟨S_, .i32⟩
  | _ => ⟨S50000x3, .f32⟩

abbrev hbmTy0_2 (i : Nat) : BufTy := match i % 128 with
  | 0 => ⟨S450000, .i32⟩
  | 1 => ⟨S450000, .i1⟩
  | 2 => ⟨S_, .i32⟩
  | 3 => ⟨S450000, .i32⟩
  | 4 => ⟨S450000, .i32⟩
  | 5 => ⟨S450000, .i32⟩
  | 6 => ⟨S450000x1, .i32⟩
  | 7 => ⟨S450000x128, .f32⟩
  | 8 => ⟨S_, .f32⟩
  | 9 => ⟨S50000x128, .f32⟩
  | 10 => ⟨S450000x1, .i32⟩
  | 11 => ⟨S50000x128, .f32⟩
  | 12 => ⟨S_, .f32⟩
  | 13 => ⟨S50000x128, .f32⟩
  | 14 => ⟨S450000x1, .i32⟩
  | 15 => ⟨S50000x128, .f32⟩
  | 16 => ⟨S1x128x256, .f32⟩
  | 17 => ⟨S128x256, .f32⟩
  | 18 => ⟨S1x128x256, .f32⟩
  | 19 => ⟨S128x256, .f32⟩
  | 20 => ⟨S1x256, .f32⟩
  | 21 => ⟨S256, .f32⟩
  | 22 => ⟨S1x256, .f32⟩
  | 23 => ⟨S50000x256, .f32⟩
  | 24 => ⟨S_, .f32⟩
  | 25 => ⟨S256, .f32⟩
  | 26 => ⟨S_, .f32⟩
  | 27 => ⟨S256, .f32⟩
  | 28 => ⟨S256, .f32⟩
  | 29 => ⟨S_, .i32⟩
  | 30 => ⟨S_, .f32⟩
  | 31 => ⟨S256, .f32⟩
  | 32 => ⟨S1x256, .f32⟩
  | 33 => ⟨S_, .f32⟩
  | 34 => ⟨S1x256, .f32⟩
  | 35 => ⟨S1x256, .f32⟩
  | 36 => ⟨S50000x256, .f32⟩
  | 37 => ⟨S50000x256, .f32⟩
  | 38 => ⟨S50000x256, .f32⟩
  | 39 => ⟨S_, .f32⟩
  | 40 => ⟨S_, .f32⟩
  | 41 => ⟨S_, .f32⟩
  | 42 => ⟨S_, .f32⟩
  | 43 => ⟨S256, .f32⟩
  | 44 => ⟨S256, .f32⟩
  | 45 => ⟨S256, .f32⟩
  | 46 => ⟨S_, .f32⟩
  | 47 => ⟨S_, .i1⟩
  | 48 => ⟨S_, .f32⟩
  | 49 => ⟨S_, .f32⟩
  | 50 => ⟨S256, .f32⟩
  | 51 => ⟨S256, .f32⟩
  | 52 => ⟨S1x256, .f32⟩
  | 53 => ⟨S256, .f32⟩
  | 54 => ⟨S1x256, .f32⟩
  | 55 => ⟨S256, .f32⟩
  | 56 => ⟨S1x256x128, .f32⟩
  | 57 => ⟨S256x128, .f32⟩
  | 58 => ⟨S1x128, .f32⟩
  | 59 => ⟨S128, .f32⟩
  | 60 => ⟨S1x256, .f32⟩
  | 61 => ⟨S1x256, .f32⟩
  | 62 => ⟨S1x256, .f32⟩
  | 63 => ⟨S1x256, .f32⟩
  | 64 => ⟨S1x128, .f32⟩
  | 65 => ⟨S50000x128, .f32⟩
  | 66 => ⟨S1x3x128, .f32⟩
  | 67 => ⟨S3x128, .f32⟩
  | 68 => ⟨S1x128, .f32⟩
  | 69 => ⟨S128, .f32⟩
  | 70 => ⟨S1x128, .f32⟩
  | 71 => ⟨S450000x128, .f32⟩
  | 72 => ⟨S_, .i32⟩
  | 73 => ⟨S450000, .i32⟩
  | 74 => ⟨S450000, .i1⟩
  | 75 => ⟨S_, .i32⟩
  | 76 => ⟨S450000, .i32⟩
  | 77 => ⟨S450000, .i32⟩
  | 78 => ⟨S450000, .i32⟩
  | 79 => ⟨S450000x1, .i32⟩
  | 80 => ⟨S450000x128, .f32⟩
  | 81 => ⟨S_, .f32⟩
  | 82 => ⟨S50000x128, .f32⟩
  | 83 => ⟨S450000x1, .i32⟩
  | 84 => ⟨S50000x128, .f32⟩
  | 85 => ⟨S_, .f32⟩
  | 86 => ⟨S50000x128, .f32⟩
  | 87 => ⟨S450000x1, .i32⟩
  | 88 => ⟨S50000x128, .f32⟩
  | 89 => ⟨S1x128x256, .f32⟩
  | 90 => ⟨S128x256, .f32⟩
  | 91 => ⟨S1x128x256, .f32⟩
  | 92 => ⟨S128x256, .f32⟩
  | 93 => ⟨S1x256, .f32⟩
  | 94 => ⟨S256, .f32⟩
  | 95 => ⟨S1x256, .f32⟩
  | 96 => ⟨S50000x256, .f32⟩
  | 97 => ⟨S_, .f32⟩
  | 98 => ⟨S256, .f32⟩
  | 99 => ⟨S_, .f32⟩
  | 100 => ⟨S256, .f32⟩
  | 101 => ⟨S256, .f32⟩
  | 102 => ⟨S_, .i32⟩
  | 103 => ⟨S_, .f32⟩
  | 104 => ⟨S256, .f32⟩
  | 105 => ⟨S1x256, .f32⟩
  | 106 => ⟨S_, .f32⟩
  | 107 => ⟨S1x256, .f32⟩
  | 108 => ⟨S1x256, .f32⟩
  | 109 => ⟨S50000x256, .f32⟩
  | 110 => ⟨S50000x256, .f32⟩
  | 111 => ⟨S50000x256, .f32⟩
  | 112 => ⟨S_, .f32⟩
  | 113 => ⟨S_, .f32⟩
  | 114 => ⟨S_, .f32⟩
  | 115 => ⟨S_, .f32⟩
  | 116 => ⟨S256, .f32⟩
  | 117 => ⟨S256, .f32⟩
  | 118 => ⟨S256, .f32⟩
  | 119 => ⟨S_, .f32⟩
  | 120 => ⟨S_, .i1⟩
  | 121 => ⟨S_, .f32⟩
  | 122 => ⟨S_, .f32⟩
  | 123 => ⟨S256, .f32⟩
  | 124 => ⟨S256, .f32⟩
  | 125 => ⟨S1x256, .f32⟩
  | 126 => ⟨S256, .f32⟩
  | 127 => ⟨S1x256, .f32⟩
  | _ => ⟨S50000x3, .f32⟩

abbrev hbmTy0_3 (i : Nat) : BufTy := match i % 128 with
  | 0 => ⟨S256, .f32⟩
  | 1 => ⟨S1x256x128, .f32⟩
  | 2 => ⟨S256x128, .f32⟩
  | 3 => ⟨S1x128, .f32⟩
  | 4 => ⟨S128, .f32⟩
  | 5 => ⟨S1x256, .f32⟩
  | 6 => ⟨S1x256, .f32⟩
  | 7 => ⟨S1x256, .f32⟩
  | 8 => ⟨S1x256, .f32⟩
  | 9 => ⟨S1x128, .f32⟩
  | 10 => ⟨S50000x128, .f32⟩
  | _ => ⟨S50000x3, .f32⟩

abbrev hbmTy (i : Nat) : BufTy := match i / 128 with
  | 0 => hbmTy0_0 i
  | 1 => hbmTy0_1 i
  | 2 => hbmTy0_2 i
  | 3 => hbmTy0_3 i
  | _ => ⟨S50000x3, .f32⟩

abbrev vmemTy0_0 (i : Nat) : BufTy := match i % 128 with
  | 0 => ⟨S9000x3, .f32⟩
  | 1 => ⟨S9000x3, .f32⟩
  | 2 => ⟨S3x128, .f32⟩
  | 3 => ⟨S1x128, .f32⟩
  | 4 => ⟨S9000x128, .f32⟩
  | 5 => ⟨S9000x128, .f32⟩
  | 6 => ⟨S5000x3, .f32⟩
  | 7 => ⟨S5000x3, .f32⟩
  | 8 => ⟨S3x128, .f32⟩
  | 9 => ⟨S1x128, .f32⟩
  | 10 => ⟨S5000x128, .f32⟩
  | 11 => ⟨S5000x128, .f32⟩
  | 12 => ⟨S5000x128, .f32⟩
  | 13 => ⟨S5000x128, .f32⟩
  | 14 => ⟨S5000x128, .f32⟩
  | 15 => ⟨S5000x128, .f32⟩
  | 16 => ⟨S128x256, .f32⟩
  | 17 => ⟨S128x256, .f32⟩
  | 18 => ⟨S1x256, .f32⟩
  | 19 => ⟨S5000x256, .f32⟩
  | 20 => ⟨S5000x256, .f32⟩
  | 21 => ⟨S5000x256, .f32⟩
  | 22 => ⟨S5000x256, .f32⟩
  | 23 => ⟨S1x256, .f32⟩
  | 24 => ⟨S1x256, .f32⟩
  | 25 => ⟨S1x256, .f32⟩
  | 26 => ⟨S1x256, .f32⟩
  | 27 => ⟨S256x128, .f32⟩
  | 28 => ⟨S1x128, .f32⟩
  | 29 => ⟨S5000x128, .f32⟩
  | 30 => ⟨S5000x128, .f32⟩
  | 31 => ⟨S9000x3, .f32⟩
  | 32 => ⟨S9000x3, .f32⟩
  | 33 => ⟨S3x128, .f32⟩
  | 34 => ⟨S1x128, .f32⟩
  | 35 => ⟨S9000x128, .f32⟩
  | 36 => ⟨S9000x128, .f32⟩
  | 37 => ⟨S5000x128, .f32⟩
  | 38 => ⟨S5000x128, .f32⟩
  | 39 => ⟨S5000x128, .f32⟩
  | 40 => ⟨S5000x128, .f32⟩
  | 41 => ⟨S128x256, .f32⟩
  | 42 => ⟨S128x256, .f32⟩
  | 43 => ⟨S1x256, .f32⟩
  | 44 => ⟨S5000x256, .f32⟩
  | 45 => ⟨S5000x256, .f32⟩
  | 46 => ⟨S5000x256, .f32⟩
  | 47 => ⟨S5000x256, .f32⟩
  | 48 => ⟨S1x256, .f32⟩
  | 49 => ⟨S1x256, .f32⟩
  | 50 => ⟨S1x256, .f32⟩
  | 51 => ⟨S1x256, .f32⟩
  | 52 => ⟨S256x128, .f32⟩
  | 53 => ⟨S1x128, .f32⟩
  | 54 => ⟨S5000x128, .f32⟩
  | 55 => ⟨S5000x128, .f32⟩
  | 56 => ⟨S9000x3, .f32⟩
  | 57 => ⟨S9000x3, .f32⟩
  | 58 => ⟨S3x128, .f32⟩
  | 59 => ⟨S1x128, .f32⟩
  | 60 => ⟨S9000x128, .f32⟩
  | 61 => ⟨S9000x128, .f32⟩
  | 62 => ⟨S5000x128, .f32⟩
  | 63 => ⟨S5000x128, .f32⟩
  | 64 => ⟨S5000x128, .f32⟩
  | 65 => ⟨S5000x128, .f32⟩
  | 66 => ⟨S128x256, .f32⟩
  | 67 => ⟨S128x256, .f32⟩
  | 68 => ⟨S1x256, .f32⟩
  | 69 => ⟨S5000x256, .f32⟩
  | 70 => ⟨S5000x256, .f32⟩
  | 71 => ⟨S5000x256, .f32⟩
  | 72 => ⟨S5000x256, .f32⟩
  | 73 => ⟨S1x256, .f32⟩
  | 74 => ⟨S1x256, .f32⟩
  | 75 => ⟨S1x256, .f32⟩
  | 76 => ⟨S1x256, .f32⟩
  | 77 => ⟨S256x128, .f32⟩
  | 78 => ⟨S1x128, .f32⟩
  | 79 => ⟨S5000x128, .f32⟩
  | 80 => ⟨S5000x128, .f32⟩
  | 81 => ⟨S9000x3, .f32⟩
  | 82 => ⟨S9000x3, .f32⟩
  | 83 => ⟨S3x128, .f32⟩
  | 84 => ⟨S1x128, .f32⟩
  | 85 => ⟨S9000x128, .f32⟩
  | 86 => ⟨S9000x128, .f32⟩
  | 87 => ⟨S5000x128, .f32⟩
  | 88 => ⟨S5000x128, .f32⟩
  | 89 => ⟨S5000x128, .f32⟩
  | 90 => ⟨S5000x128, .f32⟩
  | 91 => ⟨S128x256, .f32⟩
  | 92 => ⟨S128x256, .f32⟩
  | 93 => ⟨S1x256, .f32⟩
  | 94 => ⟨S5000x256, .f32⟩
  | 95 => ⟨S5000x256, .f32⟩
  | 96 => ⟨S5000x256, .f32⟩
  | 97 => ⟨S5000x256, .f32⟩
  | 98 => ⟨S1x256, .f32⟩
  | 99 => ⟨S1x256, .f32⟩
  | 100 => ⟨S1x256, .f32⟩
  | 101 => ⟨S1x256, .f32⟩
  | 102 => ⟨S256x128, .f32⟩
  | 103 => ⟨S1x128, .f32⟩
  | 104 => ⟨S5000x128, .f32⟩
  | 105 => ⟨S5000x128, .f32⟩
  | 106 => ⟨S9000x3, .f32⟩
  | 107 => ⟨S9000x3, .f32⟩
  | 108 => ⟨S3x128, .f32⟩
  | 109 => ⟨S1x128, .f32⟩
  | 110 => ⟨S9000x128, .f32⟩
  | 111 => ⟨S9000x128, .f32⟩
  | 112 => ⟨S5000x128, .f32⟩
  | 113 => ⟨S5000x128, .f32⟩
  | 114 => ⟨S5000x128, .f32⟩
  | 115 => ⟨S5000x128, .f32⟩
  | 116 => ⟨S128x256, .f32⟩
  | 117 => ⟨S128x256, .f32⟩
  | 118 => ⟨S1x256, .f32⟩
  | 119 => ⟨S5000x256, .f32⟩
  | 120 => ⟨S5000x256, .f32⟩
  | 121 => ⟨S5000x256, .f32⟩
  | 122 => ⟨S5000x256, .f32⟩
  | 123 => ⟨S1x256, .f32⟩
  | 124 => ⟨S1x256, .f32⟩
  | 125 => ⟨S1x256, .f32⟩
  | 126 => ⟨S1x256, .f32⟩
  | 127 => ⟨S256x128, .f32⟩
  | _ => ⟨S50000x3, .f32⟩

abbrev vmemTy0_1 (i : Nat) : BufTy := match i % 128 with
  | 0 => ⟨S1x128, .f32⟩
  | 1 => ⟨S5000x128, .f32⟩
  | 2 => ⟨S5000x128, .f32⟩
  | _ => ⟨S50000x3, .f32⟩

abbrev vmemTy (i : Nat) : BufTy := match i / 128 with
  | 0 => vmemTy0_0 i
  | 1 => vmemTy0_1 i
  | _ => ⟨S50000x3, .f32⟩

abbrev bufTy : (tb : Table) → Fin (tcTables nBuf tb) → BufTy
  | .hbm, ⟨i, _⟩ => hbmTy i
  | .local _ .vmem, ⟨i, _⟩ => vmemTy i
  | _, _ => ⟨S50000x3, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 131 → Bool
  | ⟨i, _⟩ => dmaSemScopedAt i

abbrev sig : RefSig :=
  ofTc nBuf bufTy 0 131 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_c_7 : Ref sig .tc := ⟨.hbm, 66, rfl⟩
abbrev main_call0_cst : Ref sig .tc := ⟨.hbm, 67, rfl⟩
abbrev main_call0_v0 : Ref sig .tc := ⟨.hbm, 68, rfl⟩
abbrev main_call0_v1 : Ref sig .tc := ⟨.hbm, 69, rfl⟩
abbrev main_call0_cst_0 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_cst_1 : Ref sig .tc := ⟨.hbm, 77, rfl⟩
abbrev main_call0_v8 : Ref sig .tc := ⟨.hbm, 78, rfl⟩
abbrev main_call0_cst_2 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_cst_3 : Ref sig .tc := ⟨.hbm, 83, rfl⟩
abbrev main_call0_v12 : Ref sig .tc := ⟨.hbm, 84, rfl⟩
abbrev main_call0_cst_4 : Ref sig .tc := ⟨.hbm, 85, rfl⟩
abbrev main_call0_call0_v0 : Ref sig .tc := ⟨.hbm, 86, rfl⟩
abbrev main_call0_call0_v1 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_c_8 : Ref sig .tc := ⟨.hbm, 109, rfl⟩
abbrev main_v65 : Ref sig .tc := ⟨.hbm, 110, rfl⟩
abbrev main_v66 : Ref sig .tc := ⟨.hbm, 111, rfl⟩
abbrev main_c_9 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_10 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_11 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_12 : Ref sig .tc := ⟨.hbm, 134, rfl⟩
abbrev main_v86 : Ref sig .tc := ⟨.hbm, 135, rfl⟩
abbrev main_cst_13 : Ref sig .tc := ⟨.hbm, 136, rfl⟩
abbrev main_v87 : Ref sig .tc := ⟨.hbm, 137, rfl⟩
abbrev main_v88 : Ref sig .tc := ⟨.hbm, 138, rfl⟩
abbrev main_c_14 : Ref sig .tc := ⟨.hbm, 139, rfl⟩
abbrev main_call1_cst : Ref sig .tc := ⟨.hbm, 140, rfl⟩
abbrev main_call1_v0 : Ref sig .tc := ⟨.hbm, 141, rfl⟩
abbrev main_call1_v1 : Ref sig .tc := ⟨.hbm, 142, rfl⟩
abbrev main_call1_cst_0 : Ref sig .tc := ⟨.hbm, 143, rfl⟩
abbrev main_call1_v2 : Ref sig .tc := ⟨.hbm, 144, rfl⟩
abbrev main_call1_v3 : Ref sig .tc := ⟨.hbm, 145, rfl⟩
abbrev main_call1_v4 : Ref sig .tc := ⟨.hbm, 146, rfl⟩
abbrev main_call1_v5 : Ref sig .tc := ⟨.hbm, 147, rfl⟩
abbrev main_call1_v6 : Ref sig .tc := ⟨.hbm, 148, rfl⟩
abbrev main_call1_v7 : Ref sig .tc := ⟨.hbm, 149, rfl⟩
abbrev main_call1_cst_1 : Ref sig .tc := ⟨.hbm, 150, rfl⟩
abbrev main_call1_v8 : Ref sig .tc := ⟨.hbm, 151, rfl⟩
abbrev main_call1_cst_2 : Ref sig .tc := ⟨.hbm, 152, rfl⟩
abbrev main_call1_v9 : Ref sig .tc := ⟨.hbm, 153, rfl⟩
abbrev main_call1_v10 : Ref sig .tc := ⟨.hbm, 154, rfl⟩
abbrev main_call1_v11 : Ref sig .tc := ⟨.hbm, 155, rfl⟩
abbrev main_call1_cst_3 : Ref sig .tc := ⟨.hbm, 156, rfl⟩
abbrev main_call1_v12 : Ref sig .tc := ⟨.hbm, 157, rfl⟩
abbrev main_call1_cst_4 : Ref sig .tc := ⟨.hbm, 158, rfl⟩
abbrev main_call1_call0_v0 : Ref sig .tc := ⟨.hbm, 159, rfl⟩
abbrev main_call1_call0_v1 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_c_15 : Ref sig .tc := ⟨.hbm, 182, rfl⟩
abbrev main_v110 : Ref sig .tc := ⟨.hbm, 183, rfl⟩
abbrev main_v111 : Ref sig .tc := ⟨.hbm, 184, rfl⟩
abbrev main_c_16 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_cst_17 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_cst_18 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_cst_19 : Ref sig .tc := ⟨.hbm, 207, rfl⟩
abbrev main_v131 : Ref sig .tc := ⟨.hbm, 208, rfl⟩
abbrev main_cst_20 : Ref sig .tc := ⟨.hbm, 209, rfl⟩
abbrev main_v132 : Ref sig .tc := ⟨.hbm, 210, rfl⟩
abbrev main_v133 : Ref sig .tc := ⟨.hbm, 211, rfl⟩
abbrev main_c_21 : Ref sig .tc := ⟨.hbm, 212, rfl⟩
abbrev main_call2_cst : Ref sig .tc := ⟨.hbm, 213, rfl⟩
abbrev main_call2_v0 : Ref sig .tc := ⟨.hbm, 214, rfl⟩
abbrev main_call2_v1 : Ref sig .tc := ⟨.hbm, 215, rfl⟩
abbrev main_call2_cst_0 : Ref sig .tc := ⟨.hbm, 216, rfl⟩
abbrev main_call2_v2 : Ref sig .tc := ⟨.hbm, 217, rfl⟩
abbrev main_call2_v3 : Ref sig .tc := ⟨.hbm, 218, rfl⟩
abbrev main_call2_v4 : Ref sig .tc := ⟨.hbm, 219, rfl⟩
abbrev main_call2_v5 : Ref sig .tc := ⟨.hbm, 220, rfl⟩
abbrev main_call2_v6 : Ref sig .tc := ⟨.hbm, 221, rfl⟩
abbrev main_call2_v7 : Ref sig .tc := ⟨.hbm, 222, rfl⟩
abbrev main_call2_cst_1 : Ref sig .tc := ⟨.hbm, 223, rfl⟩
abbrev main_call2_v8 : Ref sig .tc := ⟨.hbm, 224, rfl⟩
abbrev main_call2_cst_2 : Ref sig .tc := ⟨.hbm, 225, rfl⟩
abbrev main_call2_v9 : Ref sig .tc := ⟨.hbm, 226, rfl⟩
abbrev main_call2_v10 : Ref sig .tc := ⟨.hbm, 227, rfl⟩
abbrev main_call2_v11 : Ref sig .tc := ⟨.hbm, 228, rfl⟩
abbrev main_call2_cst_3 : Ref sig .tc := ⟨.hbm, 229, rfl⟩
abbrev main_call2_v12 : Ref sig .tc := ⟨.hbm, 230, rfl⟩
abbrev main_call2_cst_4 : Ref sig .tc := ⟨.hbm, 231, rfl⟩
abbrev main_call2_call0_v0 : Ref sig .tc := ⟨.hbm, 232, rfl⟩
abbrev main_call2_call0_v1 : Ref sig .tc := ⟨.hbm, 233, rfl⟩
abbrev main_v134 : Ref sig .tc := ⟨.hbm, 234, rfl⟩
abbrev main_v135 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_c_22 : Ref sig .tc := ⟨.hbm, 255, rfl⟩
abbrev main_v155 : Ref sig .tc := ⟨.hbm, 256, rfl⟩
abbrev main_v156 : Ref sig .tc := ⟨.hbm, 257, rfl⟩
abbrev main_c_23 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_cst_24 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_cst_25 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_cst_26 : Ref sig .tc := ⟨.hbm, 280, rfl⟩
abbrev main_v176 : Ref sig .tc := ⟨.hbm, 281, rfl⟩
abbrev main_cst_27 : Ref sig .tc := ⟨.hbm, 282, rfl⟩
abbrev main_v177 : Ref sig .tc := ⟨.hbm, 283, rfl⟩
abbrev main_v178 : Ref sig .tc := ⟨.hbm, 284, rfl⟩
abbrev main_c_28 : Ref sig .tc := ⟨.hbm, 285, rfl⟩
abbrev main_call3_cst : Ref sig .tc := ⟨.hbm, 286, rfl⟩
abbrev main_call3_v0 : Ref sig .tc := ⟨.hbm, 287, rfl⟩
abbrev main_call3_v1 : Ref sig .tc := ⟨.hbm, 288, rfl⟩
abbrev main_call3_cst_0 : Ref sig .tc := ⟨.hbm, 289, rfl⟩
abbrev main_call3_v2 : Ref sig .tc := ⟨.hbm, 290, rfl⟩
abbrev main_call3_v3 : Ref sig .tc := ⟨.hbm, 291, rfl⟩
abbrev main_call3_v4 : Ref sig .tc := ⟨.hbm, 292, rfl⟩
abbrev main_call3_v5 : Ref sig .tc := ⟨.hbm, 293, rfl⟩
abbrev main_call3_v6 : Ref sig .tc := ⟨.hbm, 294, rfl⟩
abbrev main_call3_v7 : Ref sig .tc := ⟨.hbm, 295, rfl⟩
abbrev main_call3_cst_1 : Ref sig .tc := ⟨.hbm, 296, rfl⟩
abbrev main_call3_v8 : Ref sig .tc := ⟨.hbm, 297, rfl⟩
abbrev main_call3_cst_2 : Ref sig .tc := ⟨.hbm, 298, rfl⟩
abbrev main_call3_v9 : Ref sig .tc := ⟨.hbm, 299, rfl⟩
abbrev main_call3_v10 : Ref sig .tc := ⟨.hbm, 300, rfl⟩
abbrev main_call3_v11 : Ref sig .tc := ⟨.hbm, 301, rfl⟩
abbrev main_call3_cst_3 : Ref sig .tc := ⟨.hbm, 302, rfl⟩
abbrev main_call3_v12 : Ref sig .tc := ⟨.hbm, 303, rfl⟩
abbrev main_call3_cst_4 : Ref sig .tc := ⟨.hbm, 304, rfl⟩
abbrev main_call3_call0_v0 : Ref sig .tc := ⟨.hbm, 305, rfl⟩
abbrev main_call3_call0_v1 : Ref sig .tc := ⟨.hbm, 306, rfl⟩
abbrev main_v179 : Ref sig .tc := ⟨.hbm, 307, rfl⟩
abbrev main_v180 : Ref sig .tc := ⟨.hbm, 308, rfl⟩
abbrev main_v181 : Ref sig .tc := ⟨.hbm, 309, rfl⟩
abbrev main_v182 : Ref sig .tc := ⟨.hbm, 310, rfl⟩
abbrev main_v183 : Ref sig .tc := ⟨.hbm, 311, rfl⟩
abbrev main_v184 : Ref sig .tc := ⟨.hbm, 312, rfl⟩
abbrev main_v185 : Ref sig .tc := ⟨.hbm, 313, rfl⟩
abbrev main_v186 : Ref sig .tc := ⟨.hbm, 314, rfl⟩
abbrev main_v187 : Ref sig .tc := ⟨.hbm, 315, rfl⟩
abbrev main_v188 : Ref sig .tc := ⟨.hbm, 316, rfl⟩
abbrev main_v189 : Ref sig .tc := ⟨.hbm, 317, rfl⟩
abbrev main_v190 : Ref sig .tc := ⟨.hbm, 318, rfl⟩
abbrev main_v191 : Ref sig .tc := ⟨.hbm, 319, rfl⟩
abbrev main_v192 : Ref sig .tc := ⟨.hbm, 320, rfl⟩
abbrev main_v193 : Ref sig .tc := ⟨.hbm, 321, rfl⟩
abbrev main_v194 : Ref sig .tc := ⟨.hbm, 322, rfl⟩
abbrev main_v195 : Ref sig .tc := ⟨.hbm, 323, rfl⟩
abbrev main_v196 : Ref sig .tc := ⟨.hbm, 324, rfl⟩
abbrev main_v197 : Ref sig .tc := ⟨.hbm, 325, rfl⟩
abbrev main_v198 : Ref sig .tc := ⟨.hbm, 326, rfl⟩
abbrev main_v199 : Ref sig .tc := ⟨.hbm, 327, rfl⟩
abbrev main_c_29 : Ref sig .tc := ⟨.hbm, 328, rfl⟩
abbrev main_v200 : Ref sig .tc := ⟨.hbm, 329, rfl⟩
abbrev main_v201 : Ref sig .tc := ⟨.hbm, 330, rfl⟩
abbrev main_c_30 : Ref sig .tc := ⟨.hbm, 331, rfl⟩
abbrev main_v202 : Ref sig .tc := ⟨.hbm, 332, rfl⟩
abbrev main_v203 : Ref sig .tc := ⟨.hbm, 333, rfl⟩
abbrev main_v204 : Ref sig .tc := ⟨.hbm, 334, rfl⟩
abbrev main_v205 : Ref sig .tc := ⟨.hbm, 335, rfl⟩
abbrev main_v206 : Ref sig .tc := ⟨.hbm, 336, rfl⟩
abbrev main_cst_31 : Ref sig .tc := ⟨.hbm, 337, rfl⟩
abbrev main_v207 : Ref sig .tc := ⟨.hbm, 338, rfl⟩
abbrev main_v208 : Ref sig .tc := ⟨.hbm, 339, rfl⟩
abbrev main_v209 : Ref sig .tc := ⟨.hbm, 340, rfl⟩
abbrev main_cst_32 : Ref sig .tc := ⟨.hbm, 341, rfl⟩
abbrev main_v210 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_v214 : Ref sig .tc := ⟨.hbm, 346, rfl⟩
abbrev main_v215 : Ref sig .tc := ⟨.hbm, 347, rfl⟩
abbrev main_v216 : Ref sig .tc := ⟨.hbm, 348, rfl⟩
abbrev main_v217 : Ref sig .tc := ⟨.hbm, 349, rfl⟩
abbrev main_v218 : Ref sig .tc := ⟨.hbm, 350, rfl⟩
abbrev main_v219 : Ref sig .tc := ⟨.hbm, 351, rfl⟩
abbrev main_v220 : Ref sig .tc := ⟨.hbm, 352, rfl⟩
abbrev main_cst_33 : Ref sig .tc := ⟨.hbm, 353, rfl⟩
abbrev main_v221 : Ref sig .tc := ⟨.hbm, 354, rfl⟩
abbrev main_cst_34 : Ref sig .tc := ⟨.hbm, 355, rfl⟩
abbrev main_v222 : Ref sig .tc := ⟨.hbm, 356, rfl⟩
abbrev main_v223 : Ref sig .tc := ⟨.hbm, 357, rfl⟩
abbrev main_c_35 : Ref sig .tc := ⟨.hbm, 358, rfl⟩
abbrev main_call4_cst : Ref sig .tc := ⟨.hbm, 359, rfl⟩
abbrev main_call4_v0 : Ref sig .tc := ⟨.hbm, 360, rfl⟩
abbrev main_call4_v1 : Ref sig .tc := ⟨.hbm, 361, rfl⟩
abbrev main_call4_cst_0 : Ref sig .tc := ⟨.hbm, 362, rfl⟩
abbrev main_call4_v2 : Ref sig .tc := ⟨.hbm, 363, rfl⟩
abbrev main_call4_v3 : Ref sig .tc := ⟨.hbm, 364, rfl⟩
abbrev main_call4_v4 : Ref sig .tc := ⟨.hbm, 365, rfl⟩
abbrev main_call4_v5 : Ref sig .tc := ⟨.hbm, 366, rfl⟩
abbrev main_call4_v6 : Ref sig .tc := ⟨.hbm, 367, rfl⟩
abbrev main_call4_v7 : Ref sig .tc := ⟨.hbm, 368, rfl⟩
abbrev main_call4_cst_1 : Ref sig .tc := ⟨.hbm, 369, rfl⟩
abbrev main_call4_v8 : Ref sig .tc := ⟨.hbm, 370, rfl⟩
abbrev main_call4_cst_2 : Ref sig .tc := ⟨.hbm, 371, rfl⟩
abbrev main_call4_v9 : Ref sig .tc := ⟨.hbm, 372, rfl⟩
abbrev main_call4_v10 : Ref sig .tc := ⟨.hbm, 373, rfl⟩
abbrev main_call4_v11 : Ref sig .tc := ⟨.hbm, 374, rfl⟩
abbrev main_call4_cst_3 : Ref sig .tc := ⟨.hbm, 375, rfl⟩
abbrev main_call4_v12 : Ref sig .tc := ⟨.hbm, 376, rfl⟩
abbrev main_call4_cst_4 : Ref sig .tc := ⟨.hbm, 377, rfl⟩
abbrev main_call4_call0_v0 : Ref sig .tc := ⟨.hbm, 378, rfl⟩
abbrev main_call4_call0_v1 : Ref sig .tc := ⟨.hbm, 379, rfl⟩
abbrev main_v224 : Ref sig .tc := ⟨.hbm, 380, rfl⟩
abbrev main_v225 : Ref sig .tc := ⟨.hbm, 381, rfl⟩
abbrev main_v226 : Ref sig .tc := ⟨.hbm, 382, rfl⟩
abbrev main_v227 : Ref sig .tc := ⟨.hbm, 383, rfl⟩
abbrev main_v228 : Ref sig .tc := ⟨.hbm, 384, rfl⟩
abbrev main_v229 : Ref sig .tc := ⟨.hbm, 385, rfl⟩
abbrev main_v230 : Ref sig .tc := ⟨.hbm, 386, rfl⟩
abbrev main_v231 : Ref sig .tc := ⟨.hbm, 387, rfl⟩
abbrev main_v232 : Ref sig .tc := ⟨.hbm, 388, rfl⟩
abbrev main_v233 : Ref sig .tc := ⟨.hbm, 389, rfl⟩
abbrev main_v234 : Ref sig .tc := ⟨.hbm, 390, rfl⟩
abbrev main_v235 : Ref sig .tc := ⟨.hbm, 391, rfl⟩
abbrev main_v236 : Ref sig .tc := ⟨.hbm, 392, rfl⟩
abbrev main_v237 : Ref sig .tc := ⟨.hbm, 393, rfl⟩
abbrev main_v238 : Ref sig .tc := ⟨.hbm, 394, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg7_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg6_0 : Ref sig .tc := ⟨.vmem, 53, rfl⟩
abbrev cc6_stg7_0 : Ref sig .tc := ⟨.vmem, 54, rfl⟩
abbrev cc6_stg7_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg3_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg1_1 : Ref sig .tc := ⟨.vmem, 65, rfl⟩
abbrev cc8_stg2_0 : Ref sig .tc := ⟨.vmem, 66, rfl⟩
abbrev cc8_stg3_0 : Ref sig .tc := ⟨.vmem, 67, rfl⟩
abbrev cc8_stg4_0 : Ref sig .tc := ⟨.vmem, 68, rfl⟩
abbrev cc8_stg5_0 : Ref sig .tc := ⟨.vmem, 69, rfl⟩
abbrev cc8_stg5_1 : Ref sig .tc := ⟨.vmem, 70, rfl⟩
abbrev cc9_stg0_0 : Ref sig .tc := ⟨.vmem, 71, rfl⟩
abbrev cc9_stg0_1 : Ref sig .tc := ⟨.vmem, 72, rfl⟩
abbrev cc9_stg1_0 : Ref sig .tc := ⟨.vmem, 73, rfl⟩
abbrev cc9_stg2_0 : Ref sig .tc := ⟨.vmem, 74, rfl⟩
abbrev cc9_stg3_0 : Ref sig .tc := ⟨.vmem, 75, rfl⟩
abbrev cc9_stg4_0 : Ref sig .tc := ⟨.vmem, 76, rfl⟩
abbrev cc9_stg5_0 : Ref sig .tc := ⟨.vmem, 77, rfl⟩
abbrev cc9_stg6_0 : Ref sig .tc := ⟨.vmem, 78, rfl⟩
abbrev cc9_stg7_0 : Ref sig .tc := ⟨.vmem, 79, rfl⟩
abbrev cc9_stg7_1 : Ref sig .tc := ⟨.vmem, 80, rfl⟩
abbrev cc10_stg0_0 : Ref sig .tc := ⟨.vmem, 81, rfl⟩
abbrev cc10_stg0_1 : Ref sig .tc := ⟨.vmem, 82, rfl⟩
abbrev cc10_stg1_0 : Ref sig .tc := ⟨.vmem, 83, rfl⟩
abbrev cc10_stg2_0 : Ref sig .tc := ⟨.vmem, 84, rfl⟩
abbrev cc10_stg3_0 : Ref sig .tc := ⟨.vmem, 85, rfl⟩
abbrev cc10_stg3_1 : Ref sig .tc := ⟨.vmem, 86, rfl⟩
abbrev cc11_stg0_0 : Ref sig .tc := ⟨.vmem, 87, rfl⟩
abbrev cc11_stg0_1 : Ref sig .tc := ⟨.vmem, 88, rfl⟩
abbrev cc11_stg1_0 : Ref sig .tc := ⟨.vmem, 89, rfl⟩
abbrev cc11_stg1_1 : Ref sig .tc := ⟨.vmem, 90, rfl⟩
abbrev cc11_stg2_0 : Ref sig .tc := ⟨.vmem, 91, rfl⟩
abbrev cc11_stg3_0 : Ref sig .tc := ⟨.vmem, 92, rfl⟩
abbrev cc11_stg4_0 : Ref sig .tc := ⟨.vmem, 93, rfl⟩
abbrev cc11_stg5_0 : Ref sig .tc := ⟨.vmem, 94, rfl⟩
abbrev cc11_stg5_1 : Ref sig .tc := ⟨.vmem, 95, rfl⟩
abbrev cc12_stg0_0 : Ref sig .tc := ⟨.vmem, 96, rfl⟩
abbrev cc12_stg0_1 : Ref sig .tc := ⟨.vmem, 97, rfl⟩
abbrev cc12_stg1_0 : Ref sig .tc := ⟨.vmem, 98, rfl⟩
abbrev cc12_stg2_0 : Ref sig .tc := ⟨.vmem, 99, rfl⟩
abbrev cc12_stg3_0 : Ref sig .tc := ⟨.vmem, 100, rfl⟩
abbrev cc12_stg4_0 : Ref sig .tc := ⟨.vmem, 101, rfl⟩
abbrev cc12_stg5_0 : Ref sig .tc := ⟨.vmem, 102, rfl⟩
abbrev cc12_stg6_0 : Ref sig .tc := ⟨.vmem, 103, rfl⟩
abbrev cc12_stg7_0 : Ref sig .tc := ⟨.vmem, 104, rfl⟩
abbrev cc12_stg7_1 : Ref sig .tc := ⟨.vmem, 105, rfl⟩
abbrev cc13_stg0_0 : Ref sig .tc := ⟨.vmem, 106, rfl⟩
abbrev cc13_stg0_1 : Ref sig .tc := ⟨.vmem, 107, rfl⟩
abbrev cc13_stg1_0 : Ref sig .tc := ⟨.vmem, 108, rfl⟩
abbrev cc13_stg2_0 : Ref sig .tc := ⟨.vmem, 109, rfl⟩
abbrev cc13_stg3_0 : Ref sig .tc := ⟨.vmem, 110, rfl⟩
abbrev cc13_stg3_1 : Ref sig .tc := ⟨.vmem, 111, rfl⟩
abbrev cc14_stg0_0 : Ref sig .tc := ⟨.vmem, 112, rfl⟩
abbrev cc14_stg0_1 : Ref sig .tc := ⟨.vmem, 113, rfl⟩
abbrev cc14_stg1_0 : Ref sig .tc := ⟨.vmem, 114, rfl⟩
abbrev cc14_stg1_1 : Ref sig .tc := ⟨.vmem, 115, rfl⟩
abbrev cc14_stg2_0 : Ref sig .tc := ⟨.vmem, 116, rfl⟩
abbrev cc14_stg3_0 : Ref sig .tc := ⟨.vmem, 117, rfl⟩
abbrev cc14_stg4_0 : Ref sig .tc := ⟨.vmem, 118, rfl⟩
abbrev cc14_stg5_0 : Ref sig .tc := ⟨.vmem, 119, rfl⟩
abbrev cc14_stg5_1 : Ref sig .tc := ⟨.vmem, 120, rfl⟩
abbrev cc15_stg0_0 : Ref sig .tc := ⟨.vmem, 121, rfl⟩
abbrev cc15_stg0_1 : Ref sig .tc := ⟨.vmem, 122, rfl⟩
abbrev cc15_stg1_0 : Ref sig .tc := ⟨.vmem, 123, rfl⟩
abbrev cc15_stg2_0 : Ref sig .tc := ⟨.vmem, 124, rfl⟩
abbrev cc15_stg3_0 : Ref sig .tc := ⟨.vmem, 125, rfl⟩
abbrev cc15_stg4_0 : Ref sig .tc := ⟨.vmem, 126, rfl⟩
abbrev cc15_stg5_0 : Ref sig .tc := ⟨.vmem, 127, rfl⟩
abbrev cc15_stg6_0 : Ref sig .tc := ⟨.vmem, 128, rfl⟩
abbrev cc15_stg7_0 : Ref sig .tc := ⟨.vmem, 129, rfl⟩
abbrev cc15_stg7_1 : Ref sig .tc := ⟨.vmem, 130, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem7_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem4_0 : DmaSem sig := 51
abbrev cc6_sem5_0 : DmaSem sig := 52
abbrev cc6_sem6_0 : DmaSem sig := 53
abbrev cc6_sem7_0 : DmaSem sig := 54
abbrev cc6_sem7_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem3_1 : DmaSem sig := 61
abbrev cc8_sem0_0 : DmaSem sig := 62
abbrev cc8_sem0_1 : DmaSem sig := 63
abbrev cc8_sem1_0 : DmaSem sig := 64
abbrev cc8_sem1_1 : DmaSem sig := 65
abbrev cc8_sem2_0 : DmaSem sig := 66
abbrev cc8_sem3_0 : DmaSem sig := 67
abbrev cc8_sem4_0 : DmaSem sig := 68
abbrev cc8_sem5_0 : DmaSem sig := 69
abbrev cc8_sem5_1 : DmaSem sig := 70
abbrev cc9_sem0_0 : DmaSem sig := 71
abbrev cc9_sem0_1 : DmaSem sig := 72
abbrev cc9_sem1_0 : DmaSem sig := 73
abbrev cc9_sem2_0 : DmaSem sig := 74
abbrev cc9_sem3_0 : DmaSem sig := 75
abbrev cc9_sem4_0 : DmaSem sig := 76
abbrev cc9_sem5_0 : DmaSem sig := 77
abbrev cc9_sem6_0 : DmaSem sig := 78
abbrev cc9_sem7_0 : DmaSem sig := 79
abbrev cc9_sem7_1 : DmaSem sig := 80
abbrev cc10_sem0_0 : DmaSem sig := 81
abbrev cc10_sem0_1 : DmaSem sig := 82
abbrev cc10_sem1_0 : DmaSem sig := 83
abbrev cc10_sem2_0 : DmaSem sig := 84
abbrev cc10_sem3_0 : DmaSem sig := 85
abbrev cc10_sem3_1 : DmaSem sig := 86
abbrev cc11_sem0_0 : DmaSem sig := 87
abbrev cc11_sem0_1 : DmaSem sig := 88
abbrev cc11_sem1_0 : DmaSem sig := 89
abbrev cc11_sem1_1 : DmaSem sig := 90
abbrev cc11_sem2_0 : DmaSem sig := 91
abbrev cc11_sem3_0 : DmaSem sig := 92
abbrev cc11_sem4_0 : DmaSem sig := 93
abbrev cc11_sem5_0 : DmaSem sig := 94
abbrev cc11_sem5_1 : DmaSem sig := 95
abbrev cc12_sem0_0 : DmaSem sig := 96
abbrev cc12_sem0_1 : DmaSem sig := 97
abbrev cc12_sem1_0 : DmaSem sig := 98
abbrev cc12_sem2_0 : DmaSem sig := 99
abbrev cc12_sem3_0 : DmaSem sig := 100
abbrev cc12_sem4_0 : DmaSem sig := 101
abbrev cc12_sem5_0 : DmaSem sig := 102
abbrev cc12_sem6_0 : DmaSem sig := 103
abbrev cc12_sem7_0 : DmaSem sig := 104
abbrev cc12_sem7_1 : DmaSem sig := 105
abbrev cc13_sem0_0 : DmaSem sig := 106
abbrev cc13_sem0_1 : DmaSem sig := 107
abbrev cc13_sem1_0 : DmaSem sig := 108
abbrev cc13_sem2_0 : DmaSem sig := 109
abbrev cc13_sem3_0 : DmaSem sig := 110
abbrev cc13_sem3_1 : DmaSem sig := 111
abbrev cc14_sem0_0 : DmaSem sig := 112
abbrev cc14_sem0_1 : DmaSem sig := 113
abbrev cc14_sem1_0 : DmaSem sig := 114
abbrev cc14_sem1_1 : DmaSem sig := 115
abbrev cc14_sem2_0 : DmaSem sig := 116
abbrev cc14_sem3_0 : DmaSem sig := 117
abbrev cc14_sem4_0 : DmaSem sig := 118
abbrev cc14_sem5_0 : DmaSem sig := 119
abbrev cc14_sem5_1 : DmaSem sig := 120
abbrev cc15_sem0_0 : DmaSem sig := 121
abbrev cc15_sem0_1 : DmaSem sig := 122
abbrev cc15_sem1_0 : DmaSem sig := 123
abbrev cc15_sem2_0 : DmaSem sig := 124
abbrev cc15_sem3_0 : DmaSem sig := 125
abbrev cc15_sem4_0 : DmaSem sig := 126
abbrev cc15_sem5_0 : DmaSem sig := 127
abbrev cc15_sem6_0 : DmaSem sig := 128
abbrev cc15_sem7_0 : DmaSem sig := 129
abbrev cc15_sem7_1 : DmaSem sig := 130

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S9000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S9000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S9000x3 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S3x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S9000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S9000x3 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S3x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S9000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S256x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S5000x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S9000x3 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S3x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S9000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S128x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S128x256 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x256 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x256 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x256 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x256 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x256 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S256x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x128 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 2 → Memref sig .tc .vmem S5000x128 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S9000x3 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S3x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S9000x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S128x256 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S128x256 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x256 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S5000x256 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_7 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x256 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x256 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x256 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x256 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x256 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S256x128 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 1 → Memref sig .tc .vmem S1x128 .f32 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))
abbrev reads15_6 : Fin grid15.rank → Bool := ![false]

abbrev stage15_7 : Fin 2 → Memref sig .tc .vmem S5000x128 .f32 := fun | 0 => Memref.whole cc15_stg7_0 | 1 => Memref.whole cc15_stg7_1 | ⟨_ + 2, h⟩ => absurd h (Nat.not_lt.2 (Nat.le_add_left _ _))
abbrev sem15_7 : Fin 2 → DmaSem sig := fun | 0 => cc15_sem7_0 | 1 => cc15_sem7_1 | ⟨_ + 2, h⟩ => absurd h (Nat.not_lt.2 (Nat.le_add_left _ _))
abbrev reads15_7 : Fin grid15.rank → Bool := ![true]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S50000x3 : S_.BroadcastsInDim S50000x3 (![] : Fin 0 → Fin S50000x3.rank)
  bcast_S_S1 : S_.BroadcastsInDim S1 (![] : Fin 0 → Fin S1.rank)
  bcast_S_S50000 : S_.BroadcastsInDim S50000 (![] : Fin 0 → Fin S50000.rank)
  concatenates_S400000x3_S50000x3_S450000x3_d0 : Shape.Concatenates [S400000x3, S50000x3] S450000x3 0
  slices_S5x3x128_S1x3x128_0_0_0 : S5x3x128.Slices ![0, 0, 0] S1x3x128
  shapeCasts_S1x3x128_S3x128 : S1x3x128.ShapeCasts S3x128
  slices_S5x128_S1x128_0_0 : S5x128.Slices ![0, 0] S1x128
  shapeCasts_S1x128_S128 : S1x128.ShapeCasts S128
  shapeCasts_S128_S1x128 : S128.ShapeCasts S1x128
  inb_S9000x3_S9000x3_0_0 : ∀ a, (![0, 0] : Fin 2 → Nat) a + S9000x3.size a ≤ S9000x3.size a
  h_S9000x3 : 0 < S9000x3.numel
  shapeCasts_S9000x3_S9000x3 : S9000x3.ShapeCasts S9000x3
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S9000x128 : S1x128.Broadcasts S9000x128
  inb_S9000x128_S9000x128_0_0 : ∀ a, (![0, 0] : Fin 2 → Nat) a + S9000x128.size a ≤ S9000x128.size a
  h_S9000x128 : 0 < S9000x128.numel
  inb_S5000x3_S5000x3_0_0 : ∀ a, (![0, 0] : Fin 2 → Nat) a + S5000x3.size a ≤ S5000x3.size a
  h_S5000x3 : 0 < S5000x3.numel
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S450000 : S_.BroadcastsInDim S450000 (![] : Fin 0 → Fin S450000.rank)
  bcast_S450000_S450000x1_0 : S450000.BroadcastsInDim S450000x1 (![0] : Fin 1 → Fin S450000x1.rank)
  bcast_S_S50000x128 : S_.BroadcastsInDim S50000x128 (![] : Fin 0 → Fin S50000x128.rank)
  slices_S5x256x256_S1x128x256_0_0_0 : S5x256x256.Slices ![0, 0, 0] S1x128x256
  shapeCasts_S1x128x256_S128x256 : S1x128x256.ShapeCasts S128x256
  slices_S5x256x256_S1x128x256_0_128_0 : S5x256x256.Slices ![0, 128, 0] S1x128x256
  slices_S5x256_S1x256_0_0 : S5x256.Slices ![0, 0] S1x256
  shapeCasts_S1x256_S256 : S1x256.ShapeCasts S256
  shapeCasts_S256_S1x256 : S256.ShapeCasts S1x256
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  slices_S5x256x128_S1x256x128_0_0_0 : S5x256x128.Slices ![0, 0, 0] S1x256x128
  shapeCasts_S1x256x128_S256x128 : S1x256x128.ShapeCasts S256x128
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S5x3x128_S1x3x128_1_0_0 : S5x3x128.Slices ![1, 0, 0] S1x3x128
  slices_S5x128_S1x128_1_0 : S5x128.Slices ![1, 0] S1x128
  slices_S5x256x256_S1x128x256_1_0_0 : S5x256x256.Slices ![1, 0, 0] S1x128x256
  slices_S5x256x256_S1x128x256_1_128_0 : S5x256x256.Slices ![1, 128, 0] S1x128x256
  slices_S5x256_S1x256_1_0 : S5x256.Slices ![1, 0] S1x256
  slices_S5x256x128_S1x256x128_1_0_0 : S5x256x128.Slices ![1, 0, 0] S1x256x128
  slices_S5x3x128_S1x3x128_2_0_0 : S5x3x128.Slices ![2, 0, 0] S1x3x128
  slices_S5x128_S1x128_2_0 : S5x128.Slices ![2, 0] S1x128
  slices_S5x256x256_S1x128x256_2_0_0 : S5x256x256.Slices ![2, 0, 0] S1x128x256
  slices_S5x256x256_S1x128x256_2_128_0 : S5x256x256.Slices ![2, 128, 0] S1x128x256
  slices_S5x256_S1x256_2_0 : S5x256.Slices ![2, 0] S1x256
  slices_S5x256x128_S1x256x128_2_0_0 : S5x256x128.Slices ![2, 0, 0] S1x256x128
  slices_S5x3x128_S1x3x128_3_0_0 : S5x3x128.Slices ![3, 0, 0] S1x3x128
  slices_S5x128_S1x128_3_0 : S5x128.Slices ![3, 0] S1x128
  slices_S5x256x256_S1x128x256_3_0_0 : S5x256x256.Slices ![3, 0, 0] S1x128x256
  slices_S5x256x256_S1x128x256_3_128_0 : S5x256x256.Slices ![3, 128, 0] S1x128x256
  slices_S5x256_S1x256_3_0 : S5x256.Slices ![3, 0] S1x256
  slices_S5x256x128_S1x256x128_3_0_0 : S5x256x128.Slices ![3, 0, 0] S1x256x128
  slices_S5x3x128_S1x3x128_4_0_0 : S5x3x128.Slices ![4, 0, 0] S1x3x128
  slices_S5x128_S1x128_4_0 : S5x128.Slices ![4, 0] S1x128
  slices_S5x256x256_S1x128x256_4_0_0 : S5x256x256.Slices ![4, 0, 0] S1x128x256
  slices_S5x256x256_S1x128x256_4_128_0 : S5x256x256.Slices ![4, 128, 0] S1x128x256
  slices_S5x256_S1x256_4_0 : S5x256.Slices ![4, 0] S1x256
  slices_S5x256x128_S1x256x128_4_0_0 : S5x256x128.Slices ![4, 0, 0] S1x256x128
  scatter_S50000x3_S1_S50000_0_1_1_0_wf : ScatterDims.WF S50000x3 S1 S50000 [0] [1] [1] 0
  dot_S9000x3_S3x128_S9000x128_1_0_0_1_n_n_wf : DotDims.WF S9000x3 S3x128 S9000x128 [1] [0] [0] [1] [] []
  dot_S5000x3_S3x128_S5000x128_1_0_0_1_n_n_wf : DotDims.WF S5000x3 S3x128 S5000x128 [1] [0] [0] [1] [] []
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S9000x3.size a ≤ S450000x3.size a
  hwx0_0 : ∀ i : grid0.Coords, EltTy.bits .f32 = 32 ∨ (Rect.block (s := S450000x3) S9000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S9000x128.size a ≤ S450000x128.size a
  hwx0_3 : ∀ i : grid0.Coords, EltTy.bits .f32 = 32 ∨ (Rect.block (s := S450000x128) S9000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x3.size a ≤ S50000x3.size a
  hwx1_0 : ∀ i : grid1.Coords, EltTy.bits .f32 = 32 ∨ (Rect.block (s := S50000x3) S5000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x128.size a ≤ S3x128.size a
  hwx1_1 : ∀ i : grid1.Coords, EltTy.bits .f32 = 32 ∨ (Rect.block (s := S3x128) S3x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x256.size a ≤ S50000x256.size a
  hwx2_5 : ∀ i : grid2.Coords, EltTy.bits .f32 = 32 ∨ (Rect.block (s := S50000x256) S5000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S256x128.size a
  hwx3_5 : ∀ i : grid3.Coords, EltTy.bits .f32 = 32 ∨ (Rect.block (s := S256x128) S256x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S9000x3.size a ≤ S450000x3.size a
  hwx4_0 : ∀ i : grid4.Coords, EltTy.bits .f32 = 32 ∨ (Rect.block (s := S450000x3) S9000x3.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S3x128.size a ≤ S3x128.size a
  hwx4_1 : ∀ i : grid4.Coords, EltTy.bits .f32 = 32 ∨ (Rect.block (s := S3x128) S3x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S9000x128.size a ≤ S450000x128.size a
  hwx4_3 : ∀ i : grid4.Coords, EltTy.bits .f32 = 32 ∨ (Rect.block (s := S450000x128) S9000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x256.size a ≤ S128x256.size a
  hwx5_2 : ∀ i : grid5.Coords, EltTy.bits .f32 = 32 ∨ (Rect.block (s := S128x256) S128x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x256.size a ≤ S128x256.size a
  hwx5_3 : ∀ i : grid5.Coords, EltTy.bits .f32 = 32 ∨ (Rect.block (s := S128x256) S128x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x256.size a ≤ S50000x256.size a
  hwx5_5 : ∀ i : grid5.Coords, EltTy.bits .f32 = 32 ∨ (Rect.block (s := S50000x256) S5000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x256.size a ≤ S50000x256.size a
  hwx6_0 : ∀ i : grid6.Coords, EltTy.bits .f32 = 32 ∨ (Rect.block (s := S50000x256) S5000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x128.size a ≤ S256x128.size a
  hwx6_5 : ∀ i : grid6.Coords, EltTy.bits .f32 = 32 ∨ (Rect.block (s := S256x128) S256x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S50000x128.size a
  hwx6_7 : ∀ i : grid6.Coords, EltTy.bits .f32 = 32 ∨ (Rect.block (s := S50000x128) S5000x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S9000x3.size a ≤ S450000x3.size a
  hwx7_0 : ∀ i : grid7.Coords, EltTy.bits .f32 = 32 ∨ (Rect.block (s := S450000x3) S9000x3.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S3x128.size a ≤ S3x128.size a
  hwx7_1 : ∀ i : grid7.Coords, EltTy.bits .f32 = 32 ∨ (Rect.block (s := S3x128) S3x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S9000x128.size a ≤ S450000x128.size a
  hwx7_3 : ∀ i : grid7.Coords, EltTy.bits .f32 = 32 ∨ (Rect.block (s := S450000x128) S9000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x256.size a ≤ S128x256.size a
  hwx8_2 : ∀ i : grid8.Coords, EltTy.bits .f32 = 32 ∨ (Rect.block (s := S128x256) S128x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x256.size a ≤ S128x256.size a
  hwx8_3 : ∀ i : grid8.Coords, EltTy.bits .f32 = 32 ∨ (Rect.block (s := S128x256) S128x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x256.size a ≤ S50000x256.size a
  hwx8_5 : ∀ i : grid8.Coords, EltTy.bits .f32 = 32 ∨ (Rect.block (s := S50000x256) S5000x256.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x256.size a ≤ S50000x256.size a
  hwx9_0 : ∀ i : grid9.Coords, EltTy.bits .f32 = 32 ∨ (Rect.block (s := S50000x256) S5000x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x256.size a ≤ S1x256.size a
  hwx9_1 : ∀ i : grid9.Coords, EltTy.bits .f32 = 32 ∨ (Rect.block (s := S1x256) S1x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x256.size a ≤ S1x256.size a
  hwx9_3 : ∀ i : grid9.Coords, EltTy.bits .f32 = 32 ∨ (Rect.block (s := S1x256) S1x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x256.size a ≤ S1x256.size a
  hwx9_4 : ∀ i : grid9.Coords, EltTy.bits .f32 = 32 ∨ (Rect.block (s := S1x256) S1x256.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S256x128.size a ≤ S256x128.size a
  hwx9_5 : ∀ i : grid9.Coords, EltTy.bits .f32 = 32 ∨ (Rect.block (s := S256x128) S256x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S5000x128.size a ≤ S50000x128.size a
  hwx9_7 : ∀ i : grid9.Coords, EltTy.bits .f32 = 32 ∨ (Rect.block (s := S50000x128) S5000x128.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S9000x3.size a ≤ S450000x3.size a
  hwx10_0 : ∀ i : grid10.Coords, EltTy.bits .f32 = 32 ∨ (Rect.block (s := S450000x3) S9000x3.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S3x128.size a ≤ S3x128.size a
  hwx10_1 : ∀ i : grid10.Coords, EltTy.bits .f32 = 32 ∨ (Rect.block (s := S3x128) S3x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S9000x128.size a ≤ S450000x128.size a
  hwx10_3 : ∀ i : grid10.Coords, EltTy.bits .f32 = 32 ∨ (Rect.block (s := S450000x128) S9000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x128.size a ≤ S50000x128.size a
  hwx11_1 : ∀ i : grid11.Coords, EltTy.bits .f32 = 32 ∨ (Rect.block (s := S50000x128) S5000x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x256.size a ≤ S128x256.size a
  hwx11_2 : ∀ i : grid11.Coords, EltTy.bits .f32 = 32 ∨ (Rect.block (s := S128x256) S128x256.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128x256.size a ≤ S128x256.size a
  hwx11_3 : ∀ i : grid11.Coords, EltTy.bits .f32 = 32 ∨ (Rect.block (s := S128x256) S128x256.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x256.size a ≤ S1x256.size a
  hwx11_4 : ∀ i : grid11.Coords, EltTy.bits .f32 = 32 ∨ (Rect.block (s := S1x256) S1x256.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x256.size a ≤ S50000x256.size a
  hwx11_5 : ∀ i : grid11.Coords, EltTy.bits .f32 = 32 ∨ (Rect.block (s := S50000x256) S5000x256.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x256.size a ≤ S50000x256.size a
  hwx12_0 : ∀ i : grid12.Coords, EltTy.bits .f32 = 32 ∨ (Rect.block (s := S50000x256) S5000x256.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x256.size a ≤ S1x256.size a
  hwx12_1 : ∀ i : grid12.Coords, EltTy.bits .f32 = 32 ∨ (Rect.block (s := S1x256) S1x256.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x256.size a ≤ S1x256.size a
  hwx12_2 : ∀ i : grid12.Coords, EltTy.bits .f32 = 32 ∨ (Rect.block (s := S1x256) S1x256.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x256.size a ≤ S1x256.size a
  hwx12_3 : ∀ i : grid12.Coords, EltTy.bits .f32 = 32 ∨ (Rect.block (s := S1x256) S1x256.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x256.size a ≤ S1x256.size a
  hwx12_4 : ∀ i : grid12.Coords, EltTy.bits .f32 = 32 ∨ (Rect.block (s := S1x256) S1x256.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S256x128.size a ≤ S256x128.size a
  hwx12_5 : ∀ i : grid12.Coords, EltTy.bits .f32 = 32 ∨ (Rect.block (s := S256x128) S256x128.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x128.size a ≤ S1x128.size a
  hwx12_6 : ∀ i : grid12.Coords, EltTy.bits .f32 = 32 ∨ (Rect.block (s := S1x128) S1x128.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S5000x128.size a ≤ S50000x128.size a
  hwx12_7 : ∀ i : grid12.Coords, EltTy.bits .f32 = 32 ∨ (Rect.block (s := S50000x128) S5000x128.size (cc12_transform_7 i) (hinb12_7 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S9000x3.size a ≤ S450000x3.size a
  hwx13_0 : ∀ i : grid13.Coords, EltTy.bits .f32 = 32 ∨ (Rect.block (s := S450000x3) S9000x3.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S3x128.size a ≤ S3x128.size a
  hwx13_1 : ∀ i : grid13.Coords, EltTy.bits .f32 = 32 ∨ (Rect.block (s := S3x128) S3x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S9000x128.size a ≤ S450000x128.size a
  hwx13_3 : ∀ i : grid13.Coords, EltTy.bits .f32 = 32 ∨ (Rect.block (s := S450000x128) S9000x128.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .f32 = 32 ∨ (Rect.block (s := S50000x128) S5000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x128.size a ≤ S50000x128.size a
  hwx14_1 : ∀ i : grid14.Coords, EltTy.bits .f32 = 32 ∨ (Rect.block (s := S50000x128) S5000x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S128x256.size a ≤ S128x256.size a
  hwx14_2 : ∀ i : grid14.Coords, EltTy.bits .f32 = 32 ∨ (Rect.block (s := S128x256) S128x256.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S128x256.size a ≤ S128x256.size a
  hwx14_3 : ∀ i : grid14.Coords, EltTy.bits .f32 = 32 ∨ (Rect.block (s := S128x256) S128x256.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x256.size a ≤ S1x256.size a
  hwx14_4 : ∀ i : grid14.Coords, EltTy.bits .f32 = 32 ∨ (Rect.block (s := S1x256) S1x256.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S5000x256.size a ≤ S50000x256.size a
  hwx14_5 : ∀ i : grid14.Coords, EltTy.bits .f32 = 32 ∨ (Rect.block (s := S50000x256) S5000x256.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x256.size a ≤ S50000x256.size a
  hwx15_0 : ∀ i : grid15.Coords, EltTy.bits .f32 = 32 ∨ (Rect.block (s := S50000x256) S5000x256.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x256.size a ≤ S1x256.size a
  hwx15_1 : ∀ i : grid15.Coords, EltTy.bits .f32 = 32 ∨ (Rect.block (s := S1x256) S1x256.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x256.size a ≤ S1x256.size a
  hwx15_2 : ∀ i : grid15.Coords, EltTy.bits .f32 = 32 ∨ (Rect.block (s := S1x256) S1x256.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x256.size a ≤ S1x256.size a
  hwx15_3 : ∀ i : grid15.Coords, EltTy.bits .f32 = 32 ∨ (Rect.block (s := S1x256) S1x256.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x256.size a ≤ S1x256.size a
  hwx15_4 : ∀ i : grid15.Coords, EltTy.bits .f32 = 32 ∨ (Rect.block (s := S1x256) S1x256.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S256x128.size a ≤ S256x128.size a
  hwx15_5 : ∀ i : grid15.Coords, EltTy.bits .f32 = 32 ∨ (Rect.block (s := S256x128) S256x128.size (cc15_transform_5 i) (hinb15_5 i)).WholeWords (EltTy.packing .f32)
  hstage15_6 : ∀ j, (stage15_6 j).IsWhole
  nbuf15_6 : grid15.bufCount reads15_6 true = 1
  hreads15_6 : ∀ i i' : grid15.Coords, (∀ a, reads15_6 a = true → i a = i' a) → cc15_transform_6 i = cc15_transform_6 i'
  hinb15_6 : ∀ (i : grid15.Coords) a, (cc15_transform_6 i a + 1) * S1x128.size a ≤ S1x128.size a
  hwx15_6 : ∀ i : grid15.Coords, EltTy.bits .f32 = 32 ∨ (Rect.block (s := S1x128) S1x128.size (cc15_transform_6 i) (hinb15_6 i)).WholeWords (EltTy.packing .f32)
  hstage15_7 : ∀ j, (stage15_7 j).IsWhole
  nbuf15_7 : grid15.bufCount reads15_7 false = 2
  hreads15_7 : ∀ i i' : grid15.Coords, (∀ a, reads15_7 a = true → i a = i' a) → cc15_transform_7 i = cc15_transform_7 i'
  hinb15_7 : ∀ (i : grid15.Coords) a, (cc15_transform_7 i a + 1) * S5000x128.size a ≤ S50000x128.size a
  hwx15_7 : ∀ i : grid15.Coords, EltTy.bits .f32 = 32 ∨ (Rect.block (s := S50000x128) S5000x128.size (cc15_transform_7 i) (hinb15_7 i)).WholeWords (EltTy.packing .f32)

variable [Facts₀]

def scatter_S50000x3_S1_S50000_0_1_1_0 : ScatterDims S50000x3 S1 S50000 where
  updateWindowDims := [0]
  insertedWindowDims := [1]
  scatterDimsToOperandDims := [1]
  indexVectorDim := 0
  wf := scatter_S50000x3_S1_S50000_0_1_1_0_wf
def dot_S9000x3_S3x128_S9000x128_1_0_0_1_n_n : DotDims S9000x3 S3x128 S9000x128 where
  lhsContracting := [1]
  rhsContracting := [0]
  lhsNonContracting := [0]
  rhsNonContracting := [1]
  lhsBatch := []
  rhsBatch := []
  wf := dot_S9000x3_S3x128_S9000x128_1_0_0_1_n_n_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v11) S9000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S9000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S3x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S5000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v40) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S256x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v57) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v58) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v11) S9000x3.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S3x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S9000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v74) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v79) S128x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S128x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v85) S5000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v85) S5000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v98) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v99) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v100) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v101) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v95) S256x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v102) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v103) S5000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v11) S9000x3.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v105) S3x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v108) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v109) S9000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v119) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v122) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v124) S128x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v126) S128x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v129) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v130) S5000x256.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v130) S5000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v143) S1x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v144) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v145) S1x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v146) S1x256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v140) S256x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v147) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v148) S5000x128.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v11) S9000x3.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v150) S3x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v153) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v154) S9000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v164) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v167) S5000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v169) S128x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v171) S128x256.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v174) S1x256.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v175) S5000x256.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v175) S5000x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v188) S1x256.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v189) S1x256.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v190) S1x256.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v191) S1x256.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v185) S256x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v192) S1x128.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v193) S5000x128.size cc12_transform_7 reads12_7 true false 2 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

abbrev win13_0 : Pipeline.Window sig grid13 :=
  Pipeline.Window.ofSpec (Memref.whole main_v11) S9000x3.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v195) S3x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v198) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v199) S9000x128.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v209) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v212) S5000x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v214) S128x256.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v216) S128x256.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v219) S1x256.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v220) S5000x256.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v220) S5000x256.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v233) S1x256.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v234) S1x256.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v235) S1x256.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v236) S1x256.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v230) S256x128.size cc15_transform_5 reads15_5 false true 1 stage15_5 sem15_5
    hrank15 hreads15_5 hinb15_5 nbuf15_5 (Memref.isWhole_whole _) hwx15_5 hstage15_5

abbrev win15_6 : Pipeline.Window sig grid15 :=
  Pipeline.Window.ofSpec (Memref.whole main_v237) S1x128.size cc15_transform_6 reads15_6 false true 1 stage15_6 sem15_6
    hrank15 hreads15_6 hinb15_6 nbuf15_6 (Memref.isWhole_whole _) hwx15_6 hstage15_6

abbrev win15_7 : Pipeline.Window sig grid15 :=
  Pipeline.Window.ofSpec (Memref.whole main_v238) S5000x128.size cc15_transform_7 reads15_7 true false 2 stage15_7 sem15_7
    hrank15 hreads15_7 hinb15_7 nbuf15_7 (Memref.isWhole_whole _) hwx15_7 hstage15_7

abbrev win15 : Fin 8 → Pipeline.Window sig grid15 := fun | 0 => win15_0 | 1 => win15_1 | 2 => win15_2 | 3 => win15_3 | 4 => win15_4 | 5 => win15_5 | 6 => win15_6 | 7 => win15_7 | ⟨_ + 8, h⟩ => absurd h (Nat.not_lt.2 (Nat.le_add_left _ _))
abbrev spec15 : Fin 8 → Pipeline.WinSpec sig grid15.rank := fun w => (win15 w).toWinSpec

class Facts : Prop extends Facts₀ where

variable [Facts]
-- ==== ReferenceIdeal.lean ====
abbrev S50000x3 : Shape := ⟨2, ![50000, 3]⟩
abbrev S2x400000 : Shape := ⟨2, ![2, 400000]⟩
abbrev S400000x3 : Shape := ⟨2, ![400000, 3]⟩
abbrev S3x128 : Shape := ⟨2, ![3, 128]⟩
abbrev S128 : Shape := ⟨1, ![128]⟩
abbrev S5x3x128 : Shape := ⟨3, ![5, 3, 128]⟩
abbrev S5x128 : Shape := ⟨2, ![5, 128]⟩
abbrev S5x256x256 : Shape := ⟨3, ![5, 256, 256]⟩
abbrev S5x256 : Shape := ⟨2, ![5, 256]⟩
abbrev S5x256x128 : Shape := ⟨3, ![5, 256, 128]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S1 : Shape := ⟨1, ![1]⟩
abbrev S450000x3 : Shape := ⟨2, ![450000, 3]⟩
abbrev S1x3x128 : Shape := ⟨3, ![1, 3, 128]⟩
abbrev S450000x128 : Shape := ⟨2, ![450000, 128]⟩
abbrev S1x128 : Shape := ⟨2, ![1, 128]⟩
abbrev S50000x128 : Shape := ⟨2, ![50000, 128]⟩
abbrev S450000x1 : Shape := ⟨2, ![450000, 1]⟩
abbrev S50000x256 : Shape := ⟨2, ![50000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩

abbrev nBuf : Space → Nat
  | .hbm => 509
  | .vmem => 0
  | .smem => 0
  | _ => 0

abbrev hbmTy0_0 (i : Nat) : BufTy := match i % 128 with
  | 0 => ⟨S50000x3, .f32⟩
  | 1 => ⟨S2x400000, .i32⟩
  | 2 => ⟨S400000x3, .f32⟩
  | 3 => ⟨S3x128, .f32⟩
  | 4 => ⟨S128, .f32⟩
  | 5 => ⟨S5x3x128, .f32⟩
  | 6 => ⟨S5x128, .f32⟩
  | 7 => ⟨S5x256x256, .f32⟩
  | 8 => ⟨S5x256, .f32⟩
  | 9 => ⟨S5x256, .f32⟩
  | 10 => ⟨S5x256, .f32⟩
  | 11 => ⟨S5x256x128, .f32⟩
  | 12 => ⟨S5x128, .f32⟩
  | 13 => ⟨S50000, .i32⟩
  | 14 => ⟨S1x400000, .i32⟩
  | 15 => ⟨S400000, .i32⟩
  | 16 => ⟨S450000, .i32⟩
  | 17 => ⟨S1x400000, .i32⟩
  | 18 => ⟨S400000, .i32⟩
  | 19 => ⟨S450000, .i32⟩
  | 20 => ⟨S_, .f32⟩
  | 21 => ⟨S50000x3, .f32⟩
  | 22 => ⟨S_, .i32⟩
  | 23 => ⟨S1, .i32⟩
  | 24 => ⟨S_, .f32⟩
  | 25 => ⟨S50000, .f32⟩
  | 26 => ⟨S50000x3, .f32⟩
  | 27 => ⟨S450000x3, .f32⟩
  | 28 => ⟨S1x3x128, .f32⟩
  | 29 => ⟨S3x128, .f32⟩
  | 30 => ⟨S450000x128, .f32⟩
  | 31 => ⟨S1x128, .f32⟩
  | 32 => ⟨S128, .f32⟩
  | 33 => ⟨S1x128, .f32⟩
  | 34 => ⟨S450000x128, .f32⟩
  | 35 => ⟨S450000x128, .f32⟩
  | 36 => ⟨S50000x128, .f32⟩
  | 37 => ⟨S1x128, .f32⟩
  | 38 => ⟨S50000x128, .f32⟩
  | 39 => ⟨S50000x128, .f32⟩
  | 40 => ⟨S_, .i32⟩
  | 41 => ⟨S450000, .i32⟩
  | 42 => ⟨S450000, .i1⟩
  | 43 => ⟨S_, .i32⟩
  | 44 => ⟨S450000, .i32⟩
  | 45 => ⟨S450000, .i32⟩
  | 46 => ⟨S450000, .i32⟩
  | 47 => ⟨S450000x1, .i32⟩
  | 48 => ⟨S450000x128, .f32⟩
  | 49 => ⟨S_, .f32⟩
  | 50 => ⟨S50000x128, .f32⟩
  | 51 => ⟨S450000x1, .i32⟩
  | 52 => ⟨S50000x128, .f32⟩
  | 53 => ⟨S_, .f32⟩
  | 54 => ⟨S50000x128, .f32⟩
  | 55 => ⟨S450000x1, .i32⟩
  | 56 => ⟨S50000x128, .f32⟩
  | 57 => ⟨S50000x256, .f32⟩
  | 58 => ⟨S1x256x256, .f32⟩
  | 59 => ⟨S256x256, .f32⟩
  | 60 => ⟨S50000x256, .f32⟩
  | 61 => ⟨S1x256, .f32⟩
  | 62 => ⟨S256, .f32⟩
  | 63 => ⟨S1x256, .f32⟩
  | 64 => ⟨S50000x256, .f32⟩
  | 65 => ⟨S50000x256, .f32⟩
  | 66 => ⟨S_, .f32⟩
  | 67 => ⟨S256, .f32⟩
  | 68 => ⟨S_, .f32⟩
  | 69 => ⟨S256, .f32⟩
  | 70 => ⟨S256, .f32⟩
  | 71 => ⟨S_, .i32⟩
  | 72 => ⟨S_, .f32⟩
  | 73 => ⟨S256, .f32⟩
  | 74 => ⟨S1x256, .f32⟩
  | 75 => ⟨S_, .f32⟩
  | 76 => ⟨S1x256, .f32⟩
  | 77 => ⟨S1x256, .f32⟩
  | 78 => ⟨S50000x256, .f32⟩
  | 79 => ⟨S50000x256, .f32⟩
  | 80 => ⟨S50000x256, .f32⟩
  | 81 => ⟨S_, .f32⟩
  | 82 => ⟨S_, .f32⟩
  | 83 => ⟨S_, .f32⟩
  | 84 => ⟨S_, .f32⟩
  | 85 => ⟨S256, .f32⟩
  | 86 => ⟨S256, .f32⟩
  | 87 => ⟨S256, .f32⟩
  | 88 => ⟨S_, .f32⟩
  | 89 => ⟨S_, .i1⟩
  | 90 => ⟨S_, .f32⟩
  | 91 => ⟨S_, .f32⟩
  | 92 => ⟨S256, .f32⟩
  | 93 => ⟨S256, .f32⟩
  | 94 => ⟨S1x256, .f32⟩
  | 95 => ⟨S256, .f32⟩
  | 96 => ⟨S1x256, .f32⟩
  | 97 => ⟨S50000x256, .f32⟩
  | 98 => ⟨S50000x256, .f32⟩
  | 99 => ⟨S1x256, .f32⟩
  | 100 => ⟨S50000x256, .f32⟩
  | 101 => ⟨S50000x256, .f32⟩
  | 102 => ⟨S_, .f32⟩
  | 103 => ⟨S256, .f32⟩
  | 104 => ⟨S256, .f32⟩
  | 105 => ⟨S256, .f32⟩
  | 106 => ⟨S1x256, .f32⟩
  | 107 => ⟨S50000x256, .f32⟩
  | 108 => ⟨S50000x256, .f32⟩
  | 109 => ⟨S1x256, .f32⟩
  | 110 => ⟨S256, .f32⟩
  | 111 => ⟨S1x256, .f32⟩
  | 112 => ⟨S50000x256, .f32⟩
  | 113 => ⟨S50000x256, .f32⟩
  | 114 => ⟨S_, .f32⟩
  | 115 => ⟨S50000x256, .f32⟩
  | 116 => ⟨S50000x256, .f32⟩
  | 117 => ⟨S1x256x128, .f32⟩
  | 118 => ⟨S256x128, .f32⟩
  | 119 => ⟨S50000x128, .f32⟩
  | 120 => ⟨S1x128, .f32⟩
  | 121 => ⟨S128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x3, .f32⟩

abbrev hbmTy0_1 (i : Nat) : BufTy := match i % 128 with
  | 0 => ⟨S1x3x128, .f32⟩
  | 1 => ⟨S3x128, .f32⟩
  | 2 => ⟨S450000x128, .f32⟩
  | 3 => ⟨S1x128, .f32⟩
  | 4 => ⟨S128, .f32⟩
  | 5 => ⟨S1x128, .f32⟩
  | 6 => ⟨S450000x128, .f32⟩
  | 7 => ⟨S450000x128, .f32⟩
  | 8 => ⟨S_, .i32⟩
  | 9 => ⟨S450000, .i32⟩
  | 10 => ⟨S450000, .i1⟩
  | 11 => ⟨S_, .i32⟩
  | 12 => ⟨S450000, .i32⟩
  | 13 => ⟨S450000, .i32⟩
  | 14 => ⟨S450000, .i32⟩
  | 15 => ⟨S450000x1, .i32⟩
  | 16 => ⟨S450000x128, .f32⟩
  | 17 => ⟨S_, .f32⟩
  | 18 => ⟨S50000x128, .f32⟩
  | 19 => ⟨S450000x1, .i32⟩
  | 20 => ⟨S50000x128, .f32⟩
  | 21 => ⟨S_, .f32⟩
  | 22 => ⟨S50000x128, .f32⟩
  | 23 => ⟨S450000x1, .i32⟩
  | 24 => ⟨S50000x128, .f32⟩
  | 25 => ⟨S50000x256, .f32⟩
  | 26 => ⟨S1x256x256, .f32⟩
  | 27 => ⟨S256x256, .f32⟩
  | 28 => ⟨S50000x256, .f32⟩
  | 29 => ⟨S1x256, .f32⟩
  | 30 => ⟨S256, .f32⟩
  | 31 => ⟨S1x256, .f32⟩
  | 32 => ⟨S50000x256, .f32⟩
  | 33 => ⟨S50000x256, .f32⟩
  | 34 => ⟨S_, .f32⟩
  | 35 => ⟨S256, .f32⟩
  | 36 => ⟨S_, .f32⟩
  | 37 => ⟨S256, .f32⟩
  | 38 => ⟨S256, .f32⟩
  | 39 => ⟨S_, .i32⟩
  | 40 => ⟨S_, .f32⟩
  | 41 => ⟨S256, .f32⟩
  | 42 => ⟨S1x256, .f32⟩
  | 43 => ⟨S_, .f32⟩
  | 44 => ⟨S1x256, .f32⟩
  | 45 => ⟨S1x256, .f32⟩
  | 46 => ⟨S50000x256, .f32⟩
  | 47 => ⟨S50000x256, .f32⟩
  | 48 => ⟨S50000x256, .f32⟩
  | 49 => ⟨S_, .f32⟩
  | 50 => ⟨S_, .f32⟩
  | 51 => ⟨S_, .f32⟩
  | 52 => ⟨S_, .f32⟩
  | 53 => ⟨S256, .f32⟩
  | 54 => ⟨S256, .f32⟩
  | 55 => ⟨S256, .f32⟩
  | 56 => ⟨S_, .f32⟩
  | 57 => ⟨S_, .i1⟩
  | 58 => ⟨S_, .f32⟩
  | 59 => ⟨S_, .f32⟩
  | 60 => ⟨S256, .f32⟩
  | 61 => ⟨S256, .f32⟩
  | 62 => ⟨S1x256, .f32⟩
  | 63 => ⟨S256, .f32⟩
  | 64 => ⟨S1x256, .f32⟩
  | 65 => ⟨S50000x256, .f32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S256, .f32⟩
  | 72 => ⟨S256, .f32⟩
  | 73 => ⟨S256, .f32⟩
  | 74 => ⟨S1x256, .f32⟩
  | 75 => ⟨S50000x256, .f32⟩
  | 76 => ⟨S50000x256, .f32⟩
  | 77 => ⟨S1x256, .f32⟩
  | 78 => ⟨S256, .f32⟩
  | 79 => ⟨S1x256, .f32⟩
  | 80 => ⟨S50000x256, .f32⟩
  | 81 => ⟨S50000x256, .f32⟩
  | 82 => ⟨S_, .f32⟩
  | 83 => ⟨S50000x256, .f32⟩
  | 84 => ⟨S50000x256, .f32⟩
  | 85 => ⟨S1x256x128, .f32⟩
  | 86 => ⟨S256x128, .f32⟩
  | 87 => ⟨S50000x128, .f32⟩
  | 88 => ⟨S1x128, .f32⟩
  | 89 => ⟨S128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S1x3x128, .f32⟩
  | 97 => ⟨S3x128, .f32⟩
  | 98 => ⟨S450000x128, .f32⟩
  | 99 => ⟨S1x128, .f32⟩
  | 100 => ⟨S128, .f32⟩
  | 101 => ⟨S1x128, .f32⟩
  | 102 => ⟨S450000x128, .f32⟩
  | 103 => ⟨S450000x128, .f32⟩
  | 104 => ⟨S_, .i32⟩
  | 105 => ⟨S450000, .i32⟩
  | 106 => ⟨S450000, .i1⟩
  | 107 => ⟨S_, .i32⟩
  | 108 => ⟨S450000, .i32⟩
  | 109 => ⟨S450000, .i32⟩
  | 110 => ⟨S450000, .i32⟩
  | 111 => ⟨S450000x1, .i32⟩
  | 112 => ⟨S450000x128, .f32⟩
  | 113 => ⟨S_, .f32⟩
  | 114 => ⟨S50000x128, .f32⟩
  | 115 => ⟨S450000x1, .i32⟩
  | 116 => ⟨S50000x128, .f32⟩
  | 117 => ⟨S_, .f32⟩
  | 118 => ⟨S50000x128, .f32⟩
  | 119 => ⟨S450000x1, .i32⟩
  | 120 => ⟨S50000x128, .f32⟩
  | 121 => ⟨S50000x256, .f32⟩
  | 122 => ⟨S1x256x256, .f32⟩
  | 123 => ⟨S256x256, .f32⟩
  | 124 => ⟨S50000x256, .f32⟩
  | 125 => ⟨S1x256, .f32⟩
  | 126 => ⟨S256, .f32⟩
  | 127 => ⟨S1x256, .f32⟩
  | _ => ⟨S50000x3, .f32⟩

abbrev hbmTy0_2 (i : Nat) : BufTy := match i % 128 with
  | 0 => ⟨S50000x256, .f32⟩
  | 1 => ⟨S50000x256, .f32⟩
  | 2 => ⟨S_, .f32⟩
  | 3 => ⟨S256, .f32⟩
  | 4 => ⟨S_, .f32⟩
  | 5 => ⟨S256, .f32⟩
  | 6 => ⟨S256, .f32⟩
  | 7 => ⟨S_, .i32⟩
  | 8 => ⟨S_, .f32⟩
  | 9 => ⟨S256, .f32⟩
  | 10 => ⟨S1x256, .f32⟩
  | 11 => ⟨S_, .f32⟩
  | 12 => ⟨S1x256, .f32⟩
  | 13 => ⟨S1x256, .f32⟩
  | 14 => ⟨S50000x256, .f32⟩
  | 15 => ⟨S50000x256, .f32⟩
  | 16 => ⟨S50000x256, .f32⟩
  | 17 => ⟨S_, .f32⟩
  | 18 => ⟨S_, .f32⟩
  | 19 => ⟨S_, .f32⟩
  | 20 => ⟨S_, .f32⟩
  | 21 => ⟨S256, .f32⟩
  | 22 => ⟨S256, .f32⟩
  | 23 => ⟨S256, .f32⟩
  | 24 => ⟨S_, .f32⟩
  | 25 => ⟨S_, .i1⟩
  | 26 => ⟨S_, .f32⟩
  | 27 => ⟨S_, .f32⟩
  | 28 => ⟨S256, .f32⟩
  | 29 => ⟨S256, .f32⟩
  | 30 => ⟨S1x256, .f32⟩
  | 31 => ⟨S256, .f32⟩
  | 32 => ⟨S1x256, .f32⟩
  | 33 => ⟨S50000x256, .f32⟩
  | 34 => ⟨S50000x256, .f32⟩
  | 35 => ⟨S1x256, .f32⟩
  | 36 => ⟨S50000x256, .f32⟩
  | 37 => ⟨S50000x256, .f32⟩
  | 38 => ⟨S_, .f32⟩
  | 39 => ⟨S256, .f32⟩
  | 40 => ⟨S256, .f32⟩
  | 41 => ⟨S256, .f32⟩
  | 42 => ⟨S1x256, .f32⟩
  | 43 => ⟨S50000x256, .f32⟩
  | 44 => ⟨S50000x256, .f32⟩
  | 45 => ⟨S1x256, .f32⟩
  | 46 => ⟨S256, .f32⟩
  | 47 => ⟨S1x256, .f32⟩
  | 48 => ⟨S50000x256, .f32⟩
  | 49 => ⟨S50000x256, .f32⟩
  | 50 => ⟨S_, .f32⟩
  | 51 => ⟨S50000x256, .f32⟩
  | 52 => ⟨S50000x256, .f32⟩
  | 53 => ⟨S1x256x128, .f32⟩
  | 54 => ⟨S256x128, .f32⟩
  | 55 => ⟨S50000x128, .f32⟩
  | 56 => ⟨S1x128, .f32⟩
  | 57 => ⟨S128, .f32⟩
  | 58 => ⟨S1x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S1x3x128, .f32⟩
  | 65 => ⟨S3x128, .f32⟩
  | 66 => ⟨S450000x128, .f32⟩
  | 67 => ⟨S1x128, .f32⟩
  | 68 => ⟨S128, .f32⟩
  | 69 => ⟨S1x128, .f32⟩
  | 70 => ⟨S450000x128, .f32⟩
  | 71 => ⟨S450000x128, .f32⟩
  | 72 => ⟨S_, .i32⟩
  | 73 => ⟨S450000, .i32⟩
  | 74 => ⟨S450000, .i1⟩
  | 75 => ⟨S_, .i32⟩
  | 76 => ⟨S450000, .i32⟩
  | 77 => ⟨S450000, .i32⟩
  | 78 => ⟨S450000, .i32⟩
  | 79 => ⟨S450000x1, .i32⟩
  | 80 => ⟨S450000x128, .f32⟩
  | 81 => ⟨S_, .f32⟩
  | 82 => ⟨S50000x128, .f32⟩
  | 83 => ⟨S450000x1, .i32⟩
  | 84 => ⟨S50000x128, .f32⟩
  | 85 => ⟨S_, .f32⟩
  | 86 => ⟨S50000x128, .f32⟩
  | 87 => ⟨S450000x1, .i32⟩
  | 88 => ⟨S50000x128, .f32⟩
  | 89 => ⟨S50000x256, .f32⟩
  | 90 => ⟨S1x256x256, .f32⟩
  | 91 => ⟨S256x256, .f32⟩
  | 92 => ⟨S50000x256, .f32⟩
  | 93 => ⟨S1x256, .f32⟩
  | 94 => ⟨S256, .f32⟩
  | 95 => ⟨S1x256, .f32⟩
  | 96 => ⟨S50000x256, .f32⟩
  | 97 => ⟨S50000x256, .f32⟩
  | 98 => ⟨S_, .f32⟩
  | 99 => ⟨S256, .f32⟩
  | 100 => ⟨S_, .f32⟩
  | 101 => ⟨S256, .f32⟩
  | 102 => ⟨S256, .f32⟩
  | 103 => ⟨S_, .i32⟩
  | 104 => ⟨S_, .f32⟩
  | 105 => ⟨S256, .f32⟩
  | 106 => ⟨S1x256, .f32⟩
  | 107 => ⟨S_, .f32⟩
  | 108 => ⟨S1x256, .f32⟩
  | 109 => ⟨S1x256, .f32⟩
  | 110 => ⟨S50000x256, .f32⟩
  | 111 => ⟨S50000x256, .f32⟩
  | 112 => ⟨S50000x256, .f32⟩
  | 113 => ⟨S_, .f32⟩
  | 114 => ⟨S_, .f32⟩
  | 115 => ⟨S_, .f32⟩
  | 116 => ⟨S_, .f32⟩
  | 117 => ⟨S256, .f32⟩
  | 118 => ⟨S256, .f32⟩
  | 119 => ⟨S256, .f32⟩
  | 120 => ⟨S_, .f32⟩
  | 121 => ⟨S_, .i1⟩
  | 122 => ⟨S_, .f32⟩
  | 123 => ⟨S_, .f32⟩
  | 124 => ⟨S256, .f32⟩
  | 125 => ⟨S256, .f32⟩
  | 126 => ⟨S1x256, .f32⟩
  | 127 => ⟨S256, .f32⟩
  | _ => ⟨S50000x3, .f32⟩

abbrev hbmTy0_3 (i : Nat) : BufTy := match i % 128 with
  | 0 => ⟨S1x256, .f32⟩
  | 1 => ⟨S50000x256, .f32⟩
  | 2 => ⟨S50000x256, .f32⟩
  | 3 => ⟨S1x256, .f32⟩
  | 4 => ⟨S50000x256, .f32⟩
  | 5 => ⟨S50000x256, .f32⟩
  | 6 => ⟨S_, .f32⟩
  | 7 => ⟨S256, .f32⟩
  | 8 => ⟨S256, .f32⟩
  | 9 => ⟨S256, .f32⟩
  | 10 => ⟨S1x256, .f32⟩
  | 11 => ⟨S50000x256, .f32⟩
  | 12 => ⟨S50000x256, .f32⟩
  | 13 => ⟨S1x256, .f32⟩
  | 14 => ⟨S256, .f32⟩
  | 15 => ⟨S1x256, .f32⟩
  | 16 => ⟨S50000x256, .f32⟩
  | 17 => ⟨S50000x256, .f32⟩
  | 18 => ⟨S_, .f32⟩
  | 19 => ⟨S50000x256, .f32⟩
  | 20 => ⟨S50000x256, .f32⟩
  | 21 => ⟨S1x256x128, .f32⟩
  | 22 => ⟨S256x128, .f32⟩
  | 23 => ⟨S50000x128, .f32⟩
  | 24 => ⟨S1x128, .f32⟩
  | 25 => ⟨S128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S1x3x128, .f32⟩
  | 33 => ⟨S3x128, .f32⟩
  | 34 => ⟨S450000x128, .f32⟩
  | 35 => ⟨S1x128, .f32⟩
  | 36 => ⟨S128, .f32⟩
  | 37 => ⟨S1x128, .f32⟩
  | 38 => ⟨S450000x128, .f32⟩
  | 39 => ⟨S450000x128, .f32⟩
  | 40 => ⟨S_, .i32⟩
  | 41 => ⟨S450000, .i32⟩
  | 42 => ⟨S450000, .i1⟩
  | 43 => ⟨S_, .i32⟩
  | 44 => ⟨S450000, .i32⟩
  | 45 => ⟨S450000, .i32⟩
  | 46 => ⟨S450000, .i32⟩
  | 47 => ⟨S450000x1, .i32⟩
  | 48 => ⟨S450000x128, .f32⟩
  | 49 => ⟨S_, .f32⟩
  | 50 => ⟨S50000x128, .f32⟩
  | 51 => ⟨S450000x1, .i32⟩
  | 52 => ⟨S50000x128, .f32⟩
  | 53 => ⟨S_, .f32⟩
  | 54 => ⟨S50000x128, .f32⟩
  | 55 => ⟨S450000x1, .i32⟩
  | 56 => ⟨S50000x128, .f32⟩
  | 57 => ⟨S50000x256, .f32⟩
  | 58 => ⟨S1x256x256, .f32⟩
  | 59 => ⟨S256x256, .f32⟩
  | 60 => ⟨S50000x256, .f32⟩
  | 61 => ⟨S1x256, .f32⟩
  | 62 => ⟨S256, .f32⟩
  | 63 => ⟨S1x256, .f32⟩
  | 64 => ⟨S50000x256, .f32⟩
  | 65 => ⟨S50000x256, .f32⟩
  | 66 => ⟨S_, .f32⟩
  | 67 => ⟨S256, .f32⟩
  | 68 => ⟨S_, .f32⟩
  | 69 => ⟨S256, .f32⟩
  | 70 => ⟨S256, .f32⟩
  | 71 => ⟨S_, .i32⟩
  | 72 => ⟨S_, .f32⟩
  | 73 => ⟨S256, .f32⟩
  | 74 => ⟨S1x256, .f32⟩
  | 75 => ⟨S_, .f32⟩
  | 76 => ⟨S1x256, .f32⟩
  | 77 => ⟨S1x256, .f32⟩
  | 78 => ⟨S50000x256, .f32⟩
  | 79 => ⟨S50000x256, .f32⟩
  | 80 => ⟨S50000x256, .f32⟩
  | 81 => ⟨S_, .f32⟩
  | 82 => ⟨S_, .f32⟩
  | 83 => ⟨S_, .f32⟩
  | 84 => ⟨S_, .f32⟩
  | 85 => ⟨S256, .f32⟩
  | 86 => ⟨S256, .f32⟩
  | 87 => ⟨S256, .f32⟩
  | 88 => ⟨S_, .f32⟩
  | 89 => ⟨S_, .i1⟩
  | 90 => ⟨S_, .f32⟩
  | 91 => ⟨S_, .f32⟩
  | 92 => ⟨S256, .f32⟩
  | 93 => ⟨S256, .f32⟩
  | 94 => ⟨S1x256, .f32⟩
  | 95 => ⟨S256, .f32⟩
  | 96 => ⟨S1x256, .f32⟩
  | 97 => ⟨S50000x256, .f32⟩
  | 98 => ⟨S50000x256, .f32⟩
  | 99 => ⟨S1x256, .f32⟩
  | 100 => ⟨S50000x256, .f32⟩
  | 101 => ⟨S50000x256, .f32⟩
  | 102 => ⟨S_, .f32⟩
  | 103 => ⟨S256, .f32⟩
  | 104 => ⟨S256, .f32⟩
  | 105 => ⟨S256, .f32⟩
  | 106 => ⟨S1x256, .f32⟩
  | 107 => ⟨S50000x256, .f32⟩
  | 108 => ⟨S50000x256, .f32⟩
  | 109 => ⟨S1x256, .f32⟩
  | 110 => ⟨S256, .f32⟩
  | 111 => ⟨S1x256, .f32⟩
  | 112 => ⟨S50000x256, .f32⟩
  | 113 => ⟨S50000x256, .f32⟩
  | 114 => ⟨S_, .f32⟩
  | 115 => ⟨S50000x256, .f32⟩
  | 116 => ⟨S50000x256, .f32⟩
  | 117 => ⟨S1x256x128, .f32⟩
  | 118 => ⟨S256x128, .f32⟩
  | 119 => ⟨S50000x128, .f32⟩
  | 120 => ⟨S1x128, .f32⟩
  | 121 => ⟨S128, .f32⟩
  | 122 => ⟨S1x128, .f32⟩
  | 123 => ⟨S50000x128, .f32⟩
  | 124 => ⟨S50000x128, .f32⟩
  | _ => ⟨S50000x3, .f32⟩

abbrev hbmTy (i : Nat) : BufTy := match i / 128 with
  | 0 => hbmTy0_0 i
  | 1 => hbmTy0_1 i
  | 2 => hbmTy0_2 i
  | 3 => hbmTy0_3 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_1 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_c_7 : Ref sig .tc := ⟨.hbm, 71, rfl⟩
abbrev main_call0_cst : Ref sig .tc := ⟨.hbm, 72, rfl⟩
abbrev main_call0_v0 : Ref sig .tc := ⟨.hbm, 73, rfl⟩
abbrev main_call0_v1 : Ref sig .tc := ⟨.hbm, 74, rfl⟩
abbrev main_call0_cst_0 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_cst_1 : Ref sig .tc := ⟨.hbm, 82, rfl⟩
abbrev main_call0_v8 : Ref sig .tc := ⟨.hbm, 83, rfl⟩
abbrev main_call0_cst_2 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_call0_cst_3 : Ref sig .tc := ⟨.hbm, 88, rfl⟩
abbrev main_call0_v12 : Ref sig .tc := ⟨.hbm, 89, rfl⟩
abbrev main_call0_cst_4 : Ref sig .tc := ⟨.hbm, 90, rfl⟩
abbrev main_call0_call0_v0 : Ref sig .tc := ⟨.hbm, 91, rfl⟩
abbrev main_call0_call0_v1 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_8 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_call1_cst : Ref sig .tc := ⟨.hbm, 114, rfl⟩
abbrev main_call1_v0 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_call2_cst : Ref sig .tc := ⟨.hbm, 125, rfl⟩
abbrev main_call2_v0 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_c_9 : Ref sig .tc := ⟨.hbm, 136, rfl⟩
abbrev main_v87 : Ref sig .tc := ⟨.hbm, 137, rfl⟩
abbrev main_v88 : Ref sig .tc := ⟨.hbm, 138, rfl⟩
abbrev main_c_10 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_11 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_12 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_13 : Ref sig .tc := ⟨.hbm, 162, rfl⟩
abbrev main_v109 : Ref sig .tc := ⟨.hbm, 163, rfl⟩
abbrev main_cst_14 : Ref sig .tc := ⟨.hbm, 164, rfl⟩
abbrev main_v110 : Ref sig .tc := ⟨.hbm, 165, rfl⟩
abbrev main_v111 : Ref sig .tc := ⟨.hbm, 166, rfl⟩
abbrev main_c_15 : Ref sig .tc := ⟨.hbm, 167, rfl⟩
abbrev main_call3_cst : Ref sig .tc := ⟨.hbm, 168, rfl⟩
abbrev main_call3_v0 : Ref sig .tc := ⟨.hbm, 169, rfl⟩
abbrev main_call3_v1 : Ref sig .tc := ⟨.hbm, 170, rfl⟩
abbrev main_call3_cst_0 : Ref sig .tc := ⟨.hbm, 171, rfl⟩
abbrev main_call3_v2 : Ref sig .tc := ⟨.hbm, 172, rfl⟩
abbrev main_call3_v3 : Ref sig .tc := ⟨.hbm, 173, rfl⟩
abbrev main_call3_v4 : Ref sig .tc := ⟨.hbm, 174, rfl⟩
abbrev main_call3_v5 : Ref sig .tc := ⟨.hbm, 175, rfl⟩
abbrev main_call3_v6 : Ref sig .tc := ⟨.hbm, 176, rfl⟩
abbrev main_call3_v7 : Ref sig .tc := ⟨.hbm, 177, rfl⟩
abbrev main_call3_cst_1 : Ref sig .tc := ⟨.hbm, 178, rfl⟩
abbrev main_call3_v8 : Ref sig .tc := ⟨.hbm, 179, rfl⟩
abbrev main_call3_cst_2 : Ref sig .tc := ⟨.hbm, 180, rfl⟩
abbrev main_call3_v9 : Ref sig .tc := ⟨.hbm, 181, rfl⟩
abbrev main_call3_v10 : Ref sig .tc := ⟨.hbm, 182, rfl⟩
abbrev main_call3_v11 : Ref sig .tc := ⟨.hbm, 183, rfl⟩
abbrev main_call3_cst_3 : Ref sig .tc := ⟨.hbm, 184, rfl⟩
abbrev main_call3_v12 : Ref sig .tc := ⟨.hbm, 185, rfl⟩
abbrev main_call3_cst_4 : Ref sig .tc := ⟨.hbm, 186, rfl⟩
abbrev main_call3_call0_v0 : Ref sig .tc := ⟨.hbm, 187, rfl⟩
abbrev main_call3_call0_v1 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_cst_16 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_call4_cst : Ref sig .tc := ⟨.hbm, 210, rfl⟩
abbrev main_call4_v0 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_call5_cst : Ref sig .tc := ⟨.hbm, 221, rfl⟩
abbrev main_call5_v0 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_c_17 : Ref sig .tc := ⟨.hbm, 232, rfl⟩
abbrev main_v150 : Ref sig .tc := ⟨.hbm, 233, rfl⟩
abbrev main_v151 : Ref sig .tc := ⟨.hbm, 234, rfl⟩
abbrev main_c_18 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_cst_19 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_cst_20 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_cst_21 : Ref sig .tc := ⟨.hbm, 258, rfl⟩
abbrev main_v172 : Ref sig .tc := ⟨.hbm, 259, rfl⟩
abbrev main_cst_22 : Ref sig .tc := ⟨.hbm, 260, rfl⟩
abbrev main_v173 : Ref sig .tc := ⟨.hbm, 261, rfl⟩
abbrev main_v174 : Ref sig .tc := ⟨.hbm, 262, rfl⟩
abbrev main_c_23 : Ref sig .tc := ⟨.hbm, 263, rfl⟩
abbrev main_call6_cst : Ref sig .tc := ⟨.hbm, 264, rfl⟩
abbrev main_call6_v0 : Ref sig .tc := ⟨.hbm, 265, rfl⟩
abbrev main_call6_v1 : Ref sig .tc := ⟨.hbm, 266, rfl⟩
abbrev main_call6_cst_0 : Ref sig .tc := ⟨.hbm, 267, rfl⟩
abbrev main_call6_v2 : Ref sig .tc := ⟨.hbm, 268, rfl⟩
abbrev main_call6_v3 : Ref sig .tc := ⟨.hbm, 269, rfl⟩
abbrev main_call6_v4 : Ref sig .tc := ⟨.hbm, 270, rfl⟩
abbrev main_call6_v5 : Ref sig .tc := ⟨.hbm, 271, rfl⟩
abbrev main_call6_v6 : Ref sig .tc := ⟨.hbm, 272, rfl⟩
abbrev main_call6_v7 : Ref sig .tc := ⟨.hbm, 273, rfl⟩
abbrev main_call6_cst_1 : Ref sig .tc := ⟨.hbm, 274, rfl⟩
abbrev main_call6_v8 : Ref sig .tc := ⟨.hbm, 275, rfl⟩
abbrev main_call6_cst_2 : Ref sig .tc := ⟨.hbm, 276, rfl⟩
abbrev main_call6_v9 : Ref sig .tc := ⟨.hbm, 277, rfl⟩
abbrev main_call6_v10 : Ref sig .tc := ⟨.hbm, 278, rfl⟩
abbrev main_call6_v11 : Ref sig .tc := ⟨.hbm, 279, rfl⟩
abbrev main_call6_cst_3 : Ref sig .tc := ⟨.hbm, 280, rfl⟩
abbrev main_call6_v12 : Ref sig .tc := ⟨.hbm, 281, rfl⟩
abbrev main_call6_cst_4 : Ref sig .tc := ⟨.hbm, 282, rfl⟩
abbrev main_call6_call0_v0 : Ref sig .tc := ⟨.hbm, 283, rfl⟩
abbrev main_call6_call0_v1 : Ref sig .tc := ⟨.hbm, 284, rfl⟩
abbrev main_v175 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_cst_24 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_v190 : Ref sig .tc := ⟨.hbm, 301, rfl⟩
abbrev main_v191 : Ref sig .tc := ⟨.hbm, 302, rfl⟩
abbrev main_v192 : Ref sig .tc := ⟨.hbm, 303, rfl⟩
abbrev main_v193 : Ref sig .tc := ⟨.hbm, 304, rfl⟩
abbrev main_v194 : Ref sig .tc := ⟨.hbm, 305, rfl⟩
abbrev main_call7_cst : Ref sig .tc := ⟨.hbm, 306, rfl⟩
abbrev main_call7_v0 : Ref sig .tc := ⟨.hbm, 307, rfl⟩
abbrev main_v195 : Ref sig .tc := ⟨.hbm, 308, rfl⟩
abbrev main_v196 : Ref sig .tc := ⟨.hbm, 309, rfl⟩
abbrev main_v197 : Ref sig .tc := ⟨.hbm, 310, rfl⟩
abbrev main_v198 : Ref sig .tc := ⟨.hbm, 311, rfl⟩
abbrev main_v199 : Ref sig .tc := ⟨.hbm, 312, rfl⟩
abbrev main_v200 : Ref sig .tc := ⟨.hbm, 313, rfl⟩
abbrev main_v201 : Ref sig .tc := ⟨.hbm, 314, rfl⟩
abbrev main_v202 : Ref sig .tc := ⟨.hbm, 315, rfl⟩
abbrev main_v203 : Ref sig .tc := ⟨.hbm, 316, rfl⟩
abbrev main_call8_cst : Ref sig .tc := ⟨.hbm, 317, rfl⟩
abbrev main_call8_v0 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_c_25 : Ref sig .tc := ⟨.hbm, 328, rfl⟩
abbrev main_v213 : Ref sig .tc := ⟨.hbm, 329, rfl⟩
abbrev main_v214 : Ref sig .tc := ⟨.hbm, 330, rfl⟩
abbrev main_c_26 : Ref sig .tc := ⟨.hbm, 331, rfl⟩
abbrev main_v215 : Ref sig .tc := ⟨.hbm, 332, rfl⟩
abbrev main_v216 : Ref sig .tc := ⟨.hbm, 333, rfl⟩
abbrev main_v217 : Ref sig .tc := ⟨.hbm, 334, rfl⟩
abbrev main_v218 : Ref sig .tc := ⟨.hbm, 335, rfl⟩
abbrev main_v219 : Ref sig .tc := ⟨.hbm, 336, rfl⟩
abbrev main_cst_27 : Ref sig .tc := ⟨.hbm, 337, rfl⟩
abbrev main_v220 : Ref sig .tc := ⟨.hbm, 338, rfl⟩
abbrev main_v221 : Ref sig .tc := ⟨.hbm, 339, rfl⟩
abbrev main_v222 : Ref sig .tc := ⟨.hbm, 340, rfl⟩
abbrev main_cst_28 : Ref sig .tc := ⟨.hbm, 341, rfl⟩
abbrev main_v223 : Ref sig .tc := ⟨.hbm, 342, rfl⟩
abbrev main_v224 : Ref sig .tc := ⟨.hbm, 343, rfl⟩
abbrev main_v225 : Ref sig .tc := ⟨.hbm, 344, rfl⟩
abbrev main_v226 : Ref sig .tc := ⟨.hbm, 345, rfl⟩
abbrev main_v227 : Ref sig .tc := ⟨.hbm, 346, rfl⟩
abbrev main_v228 : Ref sig .tc := ⟨.hbm, 347, rfl⟩
abbrev main_v229 : Ref sig .tc := ⟨.hbm, 348, rfl⟩
abbrev main_v230 : Ref sig .tc := ⟨.hbm, 349, rfl⟩
abbrev main_v231 : Ref sig .tc := ⟨.hbm, 350, rfl⟩
abbrev main_v232 : Ref sig .tc := ⟨.hbm, 351, rfl⟩
abbrev main_v233 : Ref sig .tc := ⟨.hbm, 352, rfl⟩
abbrev main_v234 : Ref sig .tc := ⟨.hbm, 353, rfl⟩
abbrev main_cst_29 : Ref sig .tc := ⟨.hbm, 354, rfl⟩
abbrev main_v235 : Ref sig .tc := ⟨.hbm, 355, rfl⟩
abbrev main_cst_30 : Ref sig .tc := ⟨.hbm, 356, rfl⟩
abbrev main_v236 : Ref sig .tc := ⟨.hbm, 357, rfl⟩
abbrev main_v237 : Ref sig .tc := ⟨.hbm, 358, rfl⟩
abbrev main_c_31 : Ref sig .tc := ⟨.hbm, 359, rfl⟩
abbrev main_call9_cst : Ref sig .tc := ⟨.hbm, 360, rfl⟩
abbrev main_call9_v0 : Ref sig .tc := ⟨.hbm, 361, rfl⟩
abbrev main_call9_v1 : Ref sig .tc := ⟨.hbm, 362, rfl⟩
abbrev main_call9_cst_0 : Ref sig .tc := ⟨.hbm, 363, rfl⟩
abbrev main_call9_v2 : Ref sig .tc := ⟨.hbm, 364, rfl⟩
abbrev main_call9_v3 : Ref sig .tc := ⟨.hbm, 365, rfl⟩
abbrev main_call9_v4 : Ref sig .tc := ⟨.hbm, 366, rfl⟩
abbrev main_call9_v5 : Ref sig .tc := ⟨.hbm, 367, rfl⟩
abbrev main_call9_v6 : Ref sig .tc := ⟨.hbm, 368, rfl⟩
abbrev main_call9_v7 : Ref sig .tc := ⟨.hbm, 369, rfl⟩
abbrev main_call9_cst_1 : Ref sig .tc := ⟨.hbm, 370, rfl⟩
abbrev main_call9_v8 : Ref sig .tc := ⟨.hbm, 371, rfl⟩
abbrev main_call9_cst_2 : Ref sig .tc := ⟨.hbm, 372, rfl⟩
abbrev main_call9_v9 : Ref sig .tc := ⟨.hbm, 373, rfl⟩
abbrev main_call9_v10 : Ref sig .tc := ⟨.hbm, 374, rfl⟩
abbrev main_call9_v11 : Ref sig .tc := ⟨.hbm, 375, rfl⟩
abbrev main_call9_cst_3 : Ref sig .tc := ⟨.hbm, 376, rfl⟩
abbrev main_call9_v12 : Ref sig .tc := ⟨.hbm, 377, rfl⟩
abbrev main_call9_cst_4 : Ref sig .tc := ⟨.hbm, 378, rfl⟩
abbrev main_call9_call0_v0 : Ref sig .tc := ⟨.hbm, 379, rfl⟩
abbrev main_call9_call0_v1 : Ref sig .tc := ⟨.hbm, 380, rfl⟩
abbrev main_v238 : Ref sig .tc := ⟨.hbm, 381, rfl⟩
abbrev main_v239 : Ref sig .tc := ⟨.hbm, 382, rfl⟩
abbrev main_v240 : Ref sig .tc := ⟨.hbm, 383, rfl⟩
abbrev main_v241 : Ref sig .tc := ⟨.hbm, 384, rfl⟩
abbrev main_v242 : Ref sig .tc := ⟨.hbm, 385, rfl⟩
abbrev main_v243 : Ref sig .tc := ⟨.hbm, 386, rfl⟩
abbrev main_v244 : Ref sig .tc := ⟨.hbm, 387, rfl⟩
abbrev main_v245 : Ref sig .tc := ⟨.hbm, 388, rfl⟩
abbrev main_v246 : Ref sig .tc := ⟨.hbm, 389, rfl⟩
abbrev main_cst_32 : Ref sig .tc := ⟨.hbm, 390, rfl⟩
abbrev main_v247 : Ref sig .tc := ⟨.hbm, 391, rfl⟩
abbrev main_v248 : Ref sig .tc := ⟨.hbm, 392, rfl⟩
abbrev main_v249 : Ref sig .tc := ⟨.hbm, 393, rfl⟩
abbrev main_v250 : Ref sig .tc := ⟨.hbm, 394, rfl⟩
abbrev main_v251 : Ref sig .tc := ⟨.hbm, 395, rfl⟩
abbrev main_v252 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_v256 : Ref sig .tc := ⟨.hbm, 400, rfl⟩
abbrev main_v257 : Ref sig .tc := ⟨.hbm, 401, rfl⟩
abbrev main_call10_cst : Ref sig .tc := ⟨.hbm, 402, rfl⟩
abbrev main_call10_v0 : Ref sig .tc := ⟨.hbm, 403, rfl⟩
abbrev main_v258 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_v262 : Ref sig .tc := ⟨.hbm, 408, rfl⟩
abbrev main_v263 : Ref sig .tc := ⟨.hbm, 409, rfl⟩
abbrev main_v264 : Ref sig .tc := ⟨.hbm, 410, rfl⟩
abbrev main_v265 : Ref sig .tc := ⟨.hbm, 411, rfl⟩
abbrev main_v266 : Ref sig .tc := ⟨.hbm, 412, rfl⟩
abbrev main_call11_cst : Ref sig .tc := ⟨.hbm, 413, rfl⟩
abbrev main_call11_v0 : Ref sig .tc := ⟨.hbm, 414, rfl⟩
abbrev main_v267 : Ref sig .tc := ⟨.hbm, 415, rfl⟩
abbrev main_v268 : Ref sig .tc := ⟨.hbm, 416, rfl⟩
abbrev main_v269 : Ref sig .tc := ⟨.hbm, 417, rfl⟩
abbrev main_v270 : Ref sig .tc := ⟨.hbm, 418, rfl⟩
abbrev main_v271 : Ref sig .tc := ⟨.hbm, 419, rfl⟩
abbrev main_v272 : Ref sig .tc := ⟨.hbm, 420, rfl⟩
abbrev main_v273 : Ref sig .tc := ⟨.hbm, 421, rfl⟩
abbrev main_v274 : Ref sig .tc := ⟨.hbm, 422, rfl⟩
abbrev main_v275 : Ref sig .tc := ⟨.hbm, 423, rfl⟩
abbrev main_c_33 : Ref sig .tc := ⟨.hbm, 424, rfl⟩
abbrev main_v276 : Ref sig .tc := ⟨.hbm, 425, rfl⟩
abbrev main_v277 : Ref sig .tc := ⟨.hbm, 426, rfl⟩
abbrev main_c_34 : Ref sig .tc := ⟨.hbm, 427, rfl⟩
abbrev main_v278 : Ref sig .tc := ⟨.hbm, 428, rfl⟩
abbrev main_v279 : Ref sig .tc := ⟨.hbm, 429, rfl⟩
abbrev main_v280 : Ref sig .tc := ⟨.hbm, 430, rfl⟩
abbrev main_v281 : Ref sig .tc := ⟨.hbm, 431, rfl⟩
abbrev main_v282 : Ref sig .tc := ⟨.hbm, 432, rfl⟩
abbrev main_cst_35 : Ref sig .tc := ⟨.hbm, 433, rfl⟩
abbrev main_v283 : Ref sig .tc := ⟨.hbm, 434, rfl⟩
abbrev main_v284 : Ref sig .tc := ⟨.hbm, 435, rfl⟩
abbrev main_v285 : Ref sig .tc := ⟨.hbm, 436, rfl⟩
abbrev main_cst_36 : Ref sig .tc := ⟨.hbm, 437, rfl⟩
abbrev main_v286 : Ref sig .tc := ⟨.hbm, 438, rfl⟩
abbrev main_v287 : Ref sig .tc := ⟨.hbm, 439, rfl⟩
abbrev main_v288 : Ref sig .tc := ⟨.hbm, 440, rfl⟩
abbrev main_v289 : Ref sig .tc := ⟨.hbm, 441, rfl⟩
abbrev main_v290 : Ref sig .tc := ⟨.hbm, 442, rfl⟩
abbrev main_v291 : Ref sig .tc := ⟨.hbm, 443, rfl⟩
abbrev main_v292 : Ref sig .tc := ⟨.hbm, 444, rfl⟩
abbrev main_v293 : Ref sig .tc := ⟨.hbm, 445, rfl⟩
abbrev main_v294 : Ref sig .tc := ⟨.hbm, 446, rfl⟩
abbrev main_v295 : Ref sig .tc := ⟨.hbm, 447, rfl⟩
abbrev main_v296 : Ref sig .tc := ⟨.hbm, 448, rfl⟩
abbrev main_v297 : Ref sig .tc := ⟨.hbm, 449, rfl⟩
abbrev main_cst_37 : Ref sig .tc := ⟨.hbm, 450, rfl⟩
abbrev main_v298 : Ref sig .tc := ⟨.hbm, 451, rfl⟩
abbrev main_cst_38 : Ref sig .tc := ⟨.hbm, 452, rfl⟩
abbrev main_v299 : Ref sig .tc := ⟨.hbm, 453, rfl⟩
abbrev main_v300 : Ref sig .tc := ⟨.hbm, 454, rfl⟩
abbrev main_c_39 : Ref sig .tc := ⟨.hbm, 455, rfl⟩
abbrev main_call12_cst : Ref sig .tc := ⟨.hbm, 456, rfl⟩
abbrev main_call12_v0 : Ref sig .tc := ⟨.hbm, 457, rfl⟩
abbrev main_call12_v1 : Ref sig .tc := ⟨.hbm, 458, rfl⟩
abbrev main_call12_cst_0 : Ref sig .tc := ⟨.hbm, 459, rfl⟩
abbrev main_call12_v2 : Ref sig .tc := ⟨.hbm, 460, rfl⟩
abbrev main_call12_v3 : Ref sig .tc := ⟨.hbm, 461, rfl⟩
abbrev main_call12_v4 : Ref sig .tc := ⟨.hbm, 462, rfl⟩
abbrev main_call12_v5 : Ref sig .tc := ⟨.hbm, 463, rfl⟩
abbrev main_call12_v6 : Ref sig .tc := ⟨.hbm, 464, rfl⟩
abbrev main_call12_v7 : Ref sig .tc := ⟨.hbm, 465, rfl⟩
abbrev main_call12_cst_1 : Ref sig .tc := ⟨.hbm, 466, rfl⟩
abbrev main_call12_v8 : Ref sig .tc := ⟨.hbm, 467, rfl⟩
abbrev main_call12_cst_2 : Ref sig .tc := ⟨.hbm, 468, rfl⟩
abbrev main_call12_v9 : Ref sig .tc := ⟨.hbm, 469, rfl⟩
abbrev main_call12_v10 : Ref sig .tc := ⟨.hbm, 470, rfl⟩
abbrev main_call12_v11 : Ref sig .tc := ⟨.hbm, 471, rfl⟩
abbrev main_call12_cst_3 : Ref sig .tc := ⟨.hbm, 472, rfl⟩
abbrev main_call12_v12 : Ref sig .tc := ⟨.hbm, 473, rfl⟩
abbrev main_call12_cst_4 : Ref sig .tc := ⟨.hbm, 474, rfl⟩
abbrev main_call12_call0_v0 : Ref sig .tc := ⟨.hbm, 475, rfl⟩
abbrev main_call12_call0_v1 : Ref sig .tc := ⟨.hbm, 476, rfl⟩
abbrev main_v301 : Ref sig .tc := ⟨.hbm, 477, rfl⟩
abbrev main_v302 : Ref sig .tc := ⟨.hbm, 478, rfl⟩
abbrev main_v303 : Ref sig .tc := ⟨.hbm, 479, rfl⟩
abbrev main_v304 : Ref sig .tc := ⟨.hbm, 480, rfl⟩
abbrev main_v305 : Ref sig .tc := ⟨.hbm, 481, rfl⟩
abbrev main_v306 : Ref sig .tc := ⟨.hbm, 482, rfl⟩
abbrev main_v307 : Ref sig .tc := ⟨.hbm, 483, rfl⟩
abbrev main_v308 : Ref sig .tc := ⟨.hbm, 484, rfl⟩
abbrev main_v309 : Ref sig .tc := ⟨.hbm, 485, rfl⟩
abbrev main_cst_40 : Ref sig .tc := ⟨.hbm, 486, rfl⟩
abbrev main_v310 : Ref sig .tc := ⟨.hbm, 487, rfl⟩
abbrev main_v311 : Ref sig .tc := ⟨.hbm, 488, rfl⟩
abbrev main_v312 : Ref sig .tc := ⟨.hbm, 489, rfl⟩
abbrev main_v313 : Ref sig .tc := ⟨.hbm, 490, rfl⟩
abbrev main_v314 : Ref sig .tc := ⟨.hbm, 491, rfl⟩
abbrev main_v315 : Ref sig .tc := ⟨.hbm, 492, rfl⟩
abbrev main_v316 : Ref sig .tc := ⟨.hbm, 493, rfl⟩
abbrev main_v317 : Ref sig .tc := ⟨.hbm, 494, rfl⟩
abbrev main_v318 : Ref sig .tc := ⟨.hbm, 495, rfl⟩
abbrev main_v319 : Ref sig .tc := ⟨.hbm, 496, rfl⟩
abbrev main_v320 : Ref sig .tc := ⟨.hbm, 497, rfl⟩
abbrev main_call13_cst : Ref sig .tc := ⟨.hbm, 498, rfl⟩
abbrev main_call13_v0 : Ref sig .tc := ⟨.hbm, 499, rfl⟩
abbrev main_v321 : Ref sig .tc := ⟨.hbm, 500, rfl⟩
abbrev main_v322 : Ref sig .tc := ⟨.hbm, 501, rfl⟩
abbrev main_v323 : Ref sig .tc := ⟨.hbm, 502, rfl⟩
abbrev main_v324 : Ref sig .tc := ⟨.hbm, 503, rfl⟩
abbrev main_v325 : Ref sig .tc := ⟨.hbm, 504, rfl⟩
abbrev main_v326 : Ref sig .tc := ⟨.hbm, 505, rfl⟩
abbrev main_v327 : Ref sig .tc := ⟨.hbm, 506, rfl⟩
abbrev main_v328 : Ref sig .tc := ⟨.hbm, 507, rfl⟩
abbrev main_v329 : Ref sig .tc := ⟨.hbm, 508, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S50000x3 : S_.BroadcastsInDim S50000x3 (![] : Fin 0 → Fin S50000x3.rank)
  bcast_S_S1 : S_.BroadcastsInDim S1 (![] : Fin 0 → Fin S1.rank)
  bcast_S_S50000 : S_.BroadcastsInDim S50000 (![] : Fin 0 → Fin S50000.rank)
  concatenates_S400000x3_S50000x3_S450000x3_d0 : Shape.Concatenates [S400000x3, S50000x3] S450000x3 0
  slices_S5x3x128_S1x3x128_0_0_0 : S5x3x128.Slices ![0, 0, 0] S1x3x128
  shapeCasts_S1x3x128_S3x128 : S1x3x128.ShapeCasts S3x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S450000x128_0_1 : S1x128.BroadcastsInDim S450000x128 (![0, 1] : Fin 2 → Fin S450000x128.rank)
  bcast_S1x128_S50000x128_0_1 : S1x128.BroadcastsInDim S50000x128 (![0, 1] : Fin 2 → Fin S50000x128.rank)
  bcast_S_S450000 : S_.BroadcastsInDim S450000 (![] : Fin 0 → Fin S450000.rank)
  bcast_S450000_S450000x1_0 : S450000.BroadcastsInDim S450000x1 (![0] : Fin 1 → Fin S450000x1.rank)
  bcast_S_S50000x128 : S_.BroadcastsInDim S50000x128 (![] : Fin 0 → Fin S50000x128.rank)
  concatenates_S50000x128_S50000x128_S50000x256_d1 : Shape.Concatenates [S50000x128, S50000x128] S50000x256 1
  slices_S5x256x256_S1x256x256_0_0_0 : S5x256x256.Slices ![0, 0, 0] S1x256x256
  shapeCasts_S1x256x256_S256x256 : S1x256x256.ShapeCasts S256x256
  slices_S5x256_S1x256_0_0 : S5x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S50000x256 : S_.BroadcastsInDim S50000x256 (![] : Fin 0 → Fin S50000x256.rank)
  slices_S5x256x128_S1x256x128_0_0_0 : S5x256x128.Slices ![0, 0, 0] S1x256x128
  shapeCasts_S1x256x128_S256x128 : S1x256x128.ShapeCasts S256x128
  slices_S5x3x128_S1x3x128_1_0_0 : S5x3x128.Slices ![1, 0, 0] S1x3x128
  slices_S5x128_S1x128_1_0 : S5x128.Slices ![1, 0] S1x128
  slices_S5x256x256_S1x256x256_1_0_0 : S5x256x256.Slices ![1, 0, 0] S1x256x256
  slices_S5x256_S1x256_1_0 : S5x256.Slices ![1, 0] S1x256
  slices_S5x256x128_S1x256x128_1_0_0 : S5x256x128.Slices ![1, 0, 0] S1x256x128
  slices_S5x3x128_S1x3x128_2_0_0 : S5x3x128.Slices ![2, 0, 0] S1x3x128
  slices_S5x128_S1x128_2_0 : S5x128.Slices ![2, 0] S1x128
  slices_S5x256x256_S1x256x256_2_0_0 : S5x256x256.Slices ![2, 0, 0] S1x256x256
  slices_S5x256_S1x256_2_0 : S5x256.Slices ![2, 0] S1x256
  slices_S5x256x128_S1x256x128_2_0_0 : S5x256x128.Slices ![2, 0, 0] S1x256x128
  slices_S5x3x128_S1x3x128_3_0_0 : S5x3x128.Slices ![3, 0, 0] S1x3x128
  slices_S5x128_S1x128_3_0 : S5x128.Slices ![3, 0] S1x128
  slices_S5x256x256_S1x256x256_3_0_0 : S5x256x256.Slices ![3, 0, 0] S1x256x256
  slices_S5x256_S1x256_3_0 : S5x256.Slices ![3, 0] S1x256
  slices_S5x256x128_S1x256x128_3_0_0 : S5x256x128.Slices ![3, 0, 0] S1x256x128
  slices_S5x3x128_S1x3x128_4_0_0 : S5x3x128.Slices ![4, 0, 0] S1x3x128
  slices_S5x128_S1x128_4_0 : S5x128.Slices ![4, 0] S1x128
  slices_S5x256x256_S1x256x256_4_0_0 : S5x256x256.Slices ![4, 0, 0] S1x256x256
  slices_S5x256_S1x256_4_0 : S5x256.Slices ![4, 0] S1x256
  slices_S5x256x128_S1x256x128_4_0_0 : S5x256x128.Slices ![4, 0, 0] S1x256x128
  scatter_S50000x3_S1_S50000_0_1_1_0_wf : ScatterDims.WF S50000x3 S1 S50000 [0] [1] [1] 0
  dot_S450000x3_S3x128_S450000x128_1_0_0_1_n_n_wf : DotDims.WF S450000x3 S3x128 S450000x128 [1] [0] [0] [1] [] []
  dot_S50000x3_S3x128_S50000x128_1_0_0_1_n_n_wf : DotDims.WF S50000x3 S3x128 S50000x128 [1] [0] [0] [1] [] []
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def scatter_S50000x3_S1_S50000_0_1_1_0 : ScatterDims S50000x3 S1 S50000 where
  updateWindowDims := [0]
  insertedWindowDims := [1]
  scatterDimsToOperandDims := [1]
  indexVectorDim := 0
  wf := scatter_S50000x3_S1_S50000_0_1_1_0_wf
def dot_S450000x3_S3x128_S450000x128_1_0_0_1_n_n : DotDims S450000x3 S3x128 S450000x128 where
  lhsContracting := [1]
  rhsContracting := [0]
  lhsNonContracting := [0]
  rhsNonContracting := [1]
  lhsBatch := []
  rhsBatch := []
  wf := dot_S450000x3_S3x128_S450000x128_1_0_0_1_n_n_wf
def dot_S50000x3_S3x128_S50000x128_1_0_0_1_n_n : DotDims S50000x3 S3x128 S50000x128 where
  lhsContracting := [1]
  rhsContracting := [0]
  lhsNonContracting := [0]
  rhsNonContracting := [1]
  lhsBatch := []
  rhsBatch := []
  wf := dot_S50000x3_S3x128_S50000x128_1_0_0_1_n_n_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The kernel program's run with its RESULT named.

  The program is sixteen regions among stretches of host operations. Its run from any launch memory terminates
  without a fault, and at the end every unscoped buffer holds what the fold of the stretches and of the regions'
  write-backs leaves of the launch memory. The frame statement keeps of this only that the argument arrays are
  unchanged; here the same run is stated keeping also the result array, at the fold's contents of its buffer.
-/
import proofs.«132731_j31379031065008_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the fold's
    contents of its buffer and the argument arrays end as launched. -/
theorem run_result : θ_run defs (onTc (τ := τ) (main (F := F))) ⟨m, fun _ => 0, ρ⟩ (fun r => ∀ c : Dev nD,
      r.2.mem ((c.tc : Thread nD τ).loc main_v238) = W42 m ρ c (Proc.devRef .tc main_v238)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W42 m ρ c b)
    (hfin := fun c s' => by
      iintro ⟨⟨Hh, -⟩, HSI⟩
      unfold StableHlo.held
      imodintro
      iapply (pointsTo_read_all (Pipeline.ucRefs τ sig) (fun b => (((c : Thread nD τ)).1, b)) (W42 m ρ c) s')
      isplitl [Hh] <;> iassumption)
    (hQ := fun s h c =>
      ⟨h c _ (mem_uc main_v238 (by decide)),
       (h c _ (mem_uc main_arg0 (by decide))).trans (W42_main_arg0 m ρ c),
       (h c _ (mem_uc main_arg1 (by decide))).trans (W42_main_arg1 m ρ c),
       (h c _ (mem_uc main_arg2 (by decide))).trans (W42_main_arg2 m ρ c),
       (h c _ (mem_uc main_arg3 (by decide))).trans (W42_main_arg3 m ρ c),
       (h c _ (mem_uc main_arg4 (by decide))).trans (W42_main_arg4 m ρ c),
       (h c _ (mem_uc main_arg5 (by decide))).trans (W42_main_arg5 m ρ c),
       (h c _ (mem_uc main_arg6 (by decide))).trans (W42_main_arg6 m ρ c),
       (h c _ (mem_uc main_arg7 (by decide))).trans (W42_main_arg7 m ρ c),
       (h c _ (mem_uc main_arg8 (by decide))).trans (W42_main_arg8 m ρ c),
       (h c _ (mem_uc main_arg9 (by decide))).trans (W42_main_arg9 m ρ c),
       (h c _ (mem_uc main_arg10 (by decide))).trans (W42_main_arg10 m ρ c),
       (h c _ (mem_uc main_arg11 (by decide))).trans (W42_main_arg11 m ρ c),
       (h c _ (mem_uc main_arg12 (by decide))).trans (W42_main_arg12 m ρ c)⟩)

end Cert.KernelIdeal.RunValue

end
-- ==== Proof.RefRun.lean ====
/- The reference program's @main as the list of its tensor operations, each called function's body written at its
   call over that call's own buffers, and its run: every weakly fair execution terminates with the result buffer
   at the operations' fold (kept folded) over the launch contents, the thirteen argument buffers unchanged. -/
import proofs.«132731_j31379031065008_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The operations

@main is the sequence of seven consecutive parts `main_partK`; its operations are listed here in twelve consecutive
segments, cut where a part ends and where a layer of the network ends. A call of `@_var` contributes its nineteen
operations and then `@_where`'s three, a call of `@relu` or `@relu_0` its three, each over the buffers of that
call's record; an argument passed to a call is the caller's buffer at the callee's declared tensor type. Layer `l` of
the network is the operations from the slice `[l]` of the edge weights to the value the next layer reads. -/

/-- Operations 0 … 14: the edge lists and the edge attributes with the self loops appended. -/
abbrev opsPre : List (HloOp τ sig (Elt F)) :=
  [ StableHlo.nullary main_v0 (iotaInDim S50000 32 0),
    StableHlo.unary main_arg1 main_v1 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v1 main_v2 rfl shapeCasts_S1x400000_S400000,
    StableHlo.binary main_v2 main_v0 main_v3 ((fun a b => concatenate S450000 0 [⟨S400000, a⟩, ⟨S50000, b⟩] concatenates_S400000_S50000_S450000_d0) : (⟨S400000, .i32⟩ : BufTy).Contents (Elt F) → (⟨S50000, .i32⟩ : BufTy).Contents (Elt F) → (⟨S450000, .i32⟩ : BufTy).Contents (Elt F)),
    StableHlo.unary main_arg1 main_v4 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v4 main_v5 rfl shapeCasts_S1x400000_S400000,
    StableHlo.binary main_v5 main_v0 main_v6 ((fun a b => concatenate S450000 0 [⟨S400000, a⟩, ⟨S50000, b⟩] concatenates_S400000_S50000_S450000_d0) : (⟨S400000, .i32⟩ : BufTy).Contents (Elt F) → (⟨S50000, .i32⟩ : BufTy).Contents (Elt F) → (⟨S450000, .i32⟩ : BufTy).Contents (Elt F)),
    StableHlo.nullary main_cst (constant S_ .f32 0x00000000#32),
    StableHlo.unary main_cst main_v7 (broadcastInDim S50000x3 ![] bcast_S_S50000x3 : (⟨S_, .f32⟩ : BufTy).Contents (Elt F) → (⟨S50000x3, .f32⟩ : BufTy).Contents (Elt F)),
    StableHlo.nullary main_c (constantI S_ 32 1#32),
    StableHlo.unary main_c main_v8 (broadcastInDim S1 ![] bcast_S_S1 : (⟨S_, .i32⟩ : BufTy).Contents (Elt F) → (⟨S1, .i32⟩ : BufTy).Contents (Elt F)),
    StableHlo.nullary main_cst_0 (constant S_ .f32 0x3F800000#32),
    StableHlo.unary main_cst_0 main_v9 (broadcastInDim S50000 ![] bcast_S_S50000 : (⟨S_, .f32⟩ : BufTy).Contents (Elt F) → (⟨S50000, .f32⟩ : BufTy).Contents (Elt F)),
    StableHlo.ternary main_v7 main_v8 main_v9 main_v10 ((fun x i u => Host.scatter scatter_S50000x3_S1_S50000_0_1_1_0 (fun _ b => b) x i u) : (⟨S50000x3, .f32⟩ : BufTy).Contents (Elt F) → (⟨S1, .i32⟩ : BufTy).Contents (Elt F) → (⟨S50000, .f32⟩ : BufTy).Contents (Elt F) → (⟨S50000x3, .f32⟩ : BufTy).Contents (Elt F)),
    StableHlo.binary main_arg2 main_v10 main_v11 ((fun a b => concatenate S450000x3 0 [⟨S400000x3, a⟩, ⟨S50000x3, b⟩] concatenates_S400000x3_S50000x3_S450000x3_d0) : (⟨S400000x3, .f32⟩ : BufTy).Contents (Elt F) → (⟨S50000x3, .f32⟩ : BufTy).Contents (Elt F) → (⟨S450000x3, .f32⟩ : BufTy).Contents (Elt F)) ]

/-- Operations 15 … 80, the start of layer 0 (part 0 of @main ends here). -/
abbrev l0a : List (HloOp τ sig (Elt F)) :=
  [ StableHlo.unary main_arg5 main_v12 ((extractStridedSlice S1x3x128 ![0, 0, 0] · slices_S5x3x128_S1x3x128_0_0_0) : (⟨S5x3x128, .f32⟩ : BufTy).Contents (Elt F) → (⟨S1x3x128, .f32⟩ : BufTy).Contents (Elt F)),
    StableHlo.reshape main_v12 main_v13 rfl shapeCasts_S1x3x128_S3x128,
    StableHlo.binary main_v11 main_v13 main_v14 ((fun l r => Host.dotGeneral dot_S450000x3_S3x128_S450000x128_1_0_0_1_n_n none l r) : (⟨S450000x3, .f32⟩ : BufTy).Contents (Elt F) → (⟨S3x128, .f32⟩ : BufTy).Contents (Elt F) → (⟨S450000x128, .f32⟩ : BufTy).Contents (Elt F)),
    StableHlo.unary main_arg6 main_v15 ((extractStridedSlice S1x128 ![0, 0] · slices_S5x128_S1x128_0_0) : (⟨S5x128, .f32⟩ : BufTy).Contents (Elt F) → (⟨S1x128, .f32⟩ : BufTy).Contents (Elt F)),
    StableHlo.reshape main_v15 main_v16 rfl shapeCasts_S1x128_S128,
    StableHlo.unary main_v16 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S450000x128 ![0, 1] bcast_S1x128_S450000x128_0_1 : (⟨S1x128, .f32⟩ : BufTy).Contents (Elt F) → (⟨S450000x128, .f32⟩ : BufTy).Contents (Elt F)),
    StableHlo.binary main_v14 main_v18 main_v19 (addf : (⟨S450000x128, .f32⟩ : BufTy).Contents (Elt F) → (⟨S450000x128, .f32⟩ : BufTy).Contents (Elt F) → (⟨S450000x128, .f32⟩ : BufTy).Contents (Elt F)),
    StableHlo.binary main_arg0 main_arg3 main_v20 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F)),
    StableHlo.unary main_arg4 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S50000x128 ![0, 1] bcast_S1x128_S50000x128_0_1 : (⟨S1x128, .f32⟩ : BufTy).Contents (Elt F) → (⟨S50000x128, .f32⟩ : BufTy).Contents (Elt F)),
    StableHlo.binary main_v20 main_v22 main_v23 (addf : (⟨S50000x128, .f32⟩ : BufTy).Contents (Elt F) → (⟨S50000x128, .f32⟩ : BufTy).Contents (Elt F) → (⟨S50000x128, .f32⟩ : BufTy).Contents (Elt F)),
    StableHlo.nullary main_c_1 (constantI S_ 32 0#32),
    StableHlo.unary main_c_1 main_v24 (broadcastInDim S450000 ![] bcast_S_S450000 : (⟨S_, .i32⟩ : BufTy).Contents (Elt F) → (⟨S450000, .i32⟩ : BufTy).Contents (Elt F)),
    StableHlo.binary main_v3 main_v24 main_v25 (cmpi .slt : (⟨S450000, .i32⟩ : BufTy).Contents (Elt F) → (⟨S450000, .i32⟩ : BufTy).Contents (Elt F) → (⟨S450000, .i1⟩ : BufTy).Contents (Elt F)),
    StableHlo.nullary main_c_2 (constantI S_ 32 50000#32),
    StableHlo.unary main_c_2 main_v26 (broadcastInDim S450000 ![] bcast_S_S450000 : (⟨S_, .i32⟩ : BufTy).Contents (Elt F) → (⟨S450000, .i32⟩ : BufTy).Contents (Elt F)),
    StableHlo.binary main_v3 main_v26 main_v27 (addi : (⟨S450000, .i32⟩ : BufTy).Contents (Elt F) → (⟨S450000, .i32⟩ : BufTy).Contents (Elt F) → (⟨S450000, .i32⟩ : BufTy).Contents (Elt F)),
    StableHlo.ternary main_v25 main_v27 main_v3 main_v28 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    StableHlo.unary main_v28 main_v29 (broadcastInDim S450000x1 ![0] bcast_S450000_S450000x1_0 : (⟨S450000, .i32⟩ : BufTy).Contents (Elt F) → (⟨S450000x1, .i32⟩ : BufTy).Contents (Elt F)),
    StableHlo.binary main_v23 main_v29 main_v30 ((fun x i => Host.gather gather_S50000x128_S450000x1_S450000x128_1_0_n_n_0_1_1128 x i) : (⟨S50000x128, .f32⟩ : BufTy).Contents (Elt F) → (⟨S450000x1, .i32⟩ : BufTy).Contents (Elt F) → (⟨S450000x128, .f32⟩ : BufTy).Contents (Elt F)),
    StableHlo.nullary main_cst_3 (constant S_ .f32 0x00000000#32),
    StableHlo.unary main_cst_3 main_v31 (broadcastInDim S50000x128 ![] bcast_S_S50000x128 : (⟨S_, .f32⟩ : BufTy).Contents (Elt F) → (⟨S50000x128, .f32⟩ : BufTy).Contents (Elt F)),
    StableHlo.unary main_v6 main_v32 (broadcastInDim S450000x1 ![0] bcast_S450000_S450000x1_0 : (⟨S450000, .i32⟩ : BufTy).Contents (Elt F) → (⟨S450000x1, .i32⟩ : BufTy).Contents (Elt F)),
    StableHlo.ternary main_v31 main_v32 main_v30 main_v33 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    StableHlo.nullary main_cst_4 (constant S_ .f32 0x00000000#32),
    StableHlo.unary main_cst_4 main_v34 (broadcastInDim S50000x128 ![] bcast_S_S50000x128 : (⟨S_, .f32⟩ : BufTy).Contents (Elt F) → (⟨S50000x128, .f32⟩ : BufTy).Contents (Elt F)),
    StableHlo.unary main_v6 main_v35 (broadcastInDim S450000x1 ![0] bcast_S450000_S450000x1_0 : (⟨S450000, .i32⟩ : BufTy).Contents (Elt F) → (⟨S450000x1, .i32⟩ : BufTy).Contents (Elt F)),
    StableHlo.ternary main_v34 main_v35 main_v19 main_v36 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    StableHlo.binary main_v33 main_v36 main_v37 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.unary main_arg7 main_v38 ((extractStridedSlice S1x256x256 ![0, 0, 0] · slices_S5x256x256_S1x256x256_0_0_0) : (⟨S5x256x256, .f32⟩ : BufTy).Contents (Elt F) → (⟨S1x256x256, .f32⟩ : BufTy).Contents (Elt F)),
    StableHlo.reshape main_v38 main_v39 rfl shapeCasts_S1x256x256_S256x256,
    StableHlo.binary main_v37 main_v39 main_v40 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg8 main_v41 ((extractStridedSlice S1x256 ![0, 0] · slices_S5x256_S1x256_0_0) : (⟨S5x256, .f32⟩ : BufTy).Contents (Elt F) → (⟨S1x256, .f32⟩ : BufTy).Contents (Elt F)),
    StableHlo.reshape main_v41 main_v42 rfl shapeCasts_S1x256_S256,
    StableHlo.unary main_v42 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S50000x256 ![0, 1] bcast_S1x256_S50000x256_0_1 : (⟨S1x256, .f32⟩ : BufTy).Contents (Elt F) → (⟨S50000x256, .f32⟩ : BufTy).Contents (Elt F)),
    StableHlo.binary main_v40 main_v44 main_v45 (addf : (⟨S50000x256, .f32⟩ : BufTy).Contents (Elt F) → (⟨S50000x256, .f32⟩ : BufTy).Contents (Elt F) → (⟨S50000x256, .f32⟩ : BufTy).Contents (Elt F)),
    StableHlo.nullary main_cst_5 (constant S_ .f32 0x00000000#32),
    StableHlo.binary main_v45 main_cst_5 main_v46 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_6 (constant S_ .f32 0x47435000#32),
    StableHlo.unary main_cst_6 main_v47 (broadcastInDim S256 ![] bcast_S_S256 : (⟨S_, .f32⟩ : BufTy).Contents (Elt F) → (⟨S256, .f32⟩ : BufTy).Contents (Elt F)),
    StableHlo.binary main_v46 main_v47 main_v48 (Host.divf : (⟨S256, .f32⟩ : BufTy).Contents (Elt F) → (⟨S256, .f32⟩ : BufTy).Contents (Elt F) → (⟨S256, .f32⟩ : BufTy).Contents (Elt F)),
    StableHlo.nullary main_c_7 (constantI S_ 32 0#32),
    StableHlo.TRef.nullary main_call0.cst (constant S_ .f32 0x00000000#32),
    StableHlo.TRef.binary (StableHlo.TRef.of main_v45 : StableHlo.TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (StableHlo.TRef.of main_v45 : StableHlo.TRef sig ⟨S50000x256, .f32⟩) main_call0.v4 main_call0.v5 subf,
    StableHlo.TRef.binary main_call0.v5 main_call0.v5 main_call0.v6 mulf,
    StableHlo.TRef.unary (StableHlo.TRef.of main_c_7 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b) ]

/-- Operations 81 … 114, the rest of layer 0. -/
abbrev l0b : List (HloOp τ sig (Elt F)) :=
  [ StableHlo.unary main_arg9 main_v50 ((extractStridedSlice S1x256 ![0, 0] · slices_S5x256_S1x256_0_0) : (⟨S5x256, .f32⟩ : BufTy).Contents (Elt F) → (⟨S1x256, .f32⟩ : BufTy).Contents (Elt F)),
    StableHlo.reshape main_v50 main_v51 rfl shapeCasts_S1x256_S256,
    StableHlo.unary main_v48 main_v52 (broadcastInDim S1x256 ![1] bcast_S256_S1x256_1 : (⟨S256, .f32⟩ : BufTy).Contents (Elt F) → (⟨S1x256, .f32⟩ : BufTy).Contents (Elt F)),
    StableHlo.unary main_v52 main_v53 (broadcastInDim S50000x256 ![0, 1] bcast_S1x256_S50000x256_0_1 : (⟨S1x256, .f32⟩ : BufTy).Contents (Elt F) → (⟨S50000x256, .f32⟩ : BufTy).Contents (Elt F)),
    StableHlo.binary main_v45 main_v53 main_v54 (subf : (⟨S50000x256, .f32⟩ : BufTy).Contents (Elt F) → (⟨S50000x256, .f32⟩ : BufTy).Contents (Elt F) → (⟨S50000x256, .f32⟩ : BufTy).Contents (Elt F)),
    StableHlo.unary main_v51 main_v55 (broadcastInDim S1x256 ![1] bcast_S256_S1x256_1 : (⟨S256, .f32⟩ : BufTy).Contents (Elt F) → (⟨S1x256, .f32⟩ : BufTy).Contents (Elt F)),
    StableHlo.unary main_v55 main_v56 (broadcastInDim S50000x256 ![0, 1] bcast_S1x256_S50000x256_0_1 : (⟨S1x256, .f32⟩ : BufTy).Contents (Elt F) → (⟨S50000x256, .f32⟩ : BufTy).Contents (Elt F)),
    StableHlo.binary main_v56 main_v54 main_v57 (mulf : (⟨S50000x256, .f32⟩ : BufTy).Contents (Elt F) → (⟨S50000x256, .f32⟩ : BufTy).Contents (Elt F) → (⟨S50000x256, .f32⟩ : BufTy).Contents (Elt F)),
    StableHlo.nullary main_cst_8 (constant S_ .f32 0x3727C5AC#32),
    StableHlo.unary main_cst_8 main_v58 (broadcastInDim S256 ![] bcast_S_S256 : (⟨S_, .f32⟩ : BufTy).Contents (Elt F) → (⟨S256, .f32⟩ : BufTy).Contents (Elt F)),
    StableHlo.binary main_v49 main_v58 main_v59 (addf : (⟨S256, .f32⟩ : BufTy).Contents (Elt F) → (⟨S256, .f32⟩ : BufTy).Contents (Elt F) → (⟨S256, .f32⟩ : BufTy).Contents (Elt F)),
    StableHlo.unary main_v59 main_v60 (Host.rsqrt : (⟨S256, .f32⟩ : BufTy).Contents (Elt F) → (⟨S256, .f32⟩ : BufTy).Contents (Elt F)),
    StableHlo.unary main_v60 main_v61 (broadcastInDim S1x256 ![1] bcast_S256_S1x256_1 : (⟨S256, .f32⟩ : BufTy).Contents (Elt F) → (⟨S1x256, .f32⟩ : BufTy).Contents (Elt F)),
    StableHlo.unary main_v61 main_v62 (broadcastInDim S50000x256 ![0, 1] bcast_S1x256_S50000x256_0_1 : (⟨S1x256, .f32⟩ : BufTy).Contents (Elt F) → (⟨S50000x256, .f32⟩ : BufTy).Contents (Elt F)),
    StableHlo.binary main_v57 main_v62 main_v63 (mulf : (⟨S50000x256, .f32⟩ : BufTy).Contents (Elt F) → (⟨S50000x256, .f32⟩ : BufTy).Contents (Elt F) → (⟨S50000x256, .f32⟩ : BufTy).Contents (Elt F)),
    StableHlo.unary main_arg10 main_v64 ((extractStridedSlice S1x256 ![0, 0] · slices_S5x256_S1x256_0_0) : (⟨S5x256, .f32⟩ : BufTy).Contents (Elt F) → (⟨S1x256, .f32⟩ : BufTy).Contents (Elt F)),
    StableHlo.reshape main_v64 main_v65 rfl shapeCasts_S1x256_S256,
    StableHlo.unary main_v65 main_v66 (broadcastInDim S1x256 ![1] bcast_S256_S1x256_1 : (⟨S256, .f32⟩ : BufTy).Contents (Elt F) → (⟨S1x256, .f32⟩ : BufTy).Contents (Elt F)),
    StableHlo.unary main_v66 main_v67 (broadcastInDim S50000x256 ![0, 1] bcast_S1x256_S50000x256_0_1 : (⟨S1x256, .f32⟩ : BufTy).Contents (Elt F) → (⟨S50000x256, .f32⟩ : BufTy).Contents (Elt F)),
    StableHlo.binary main_v63 main_v67 main_v68 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (StableHlo.TRef.of main_v68 : StableHlo.TRef sig ⟨S50000x256, .f32⟩) main_call1.v0 main_call1.v1 maximumf,
    StableHlo.unary main_arg11 main_v70 ((extractStridedSlice S1x256x128 ![0, 0, 0] · slices_S5x256x128_S1x256x128_0_0_0) : (⟨S5x256x128, .f32⟩ : BufTy).Contents (Elt F) → (⟨S1x256x128, .f32⟩ : BufTy).Contents (Elt F)),
    StableHlo.reshape main_v70 main_v71 rfl shapeCasts_S1x256x128_S256x128,
    StableHlo.binary main_v69 main_v71 main_v72 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg12 main_v73 ((extractStridedSlice S1x128 ![0, 0] · slices_S5x128_S1x128_0_0) : (⟨S5x128, .f32⟩ : BufTy).Contents (Elt F) → (⟨S1x128, .f32⟩ : BufTy).Contents (Elt F)),
    StableHlo.reshape main_v73 main_v74 rfl shapeCasts_S1x128_S128,
    StableHlo.unary main_v74 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v72 main_v76 main_v77 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (StableHlo.TRef.of main_v77 : StableHlo.TRef sig ⟨S50000x128, .f32⟩) main_call2.v0 main_call2.v1 maximumf ]

/-- Operations 115 … 144, the start of layer 1 (part 1 of @main ends here). -/
abbrev l1a : List (HloOp τ sig (Elt F)) :=
  [ StableHlo.unary main_arg5 main_v79 ((extractStridedSlice S1x3x128 ![1, 0, 0] · slices_S5x3x128_S1x3x128_1_0_0) : (⟨S5x3x128, .f32⟩ : BufTy).Contents (Elt F) → (⟨S1x3x128, .f32⟩ : BufTy).Contents (Elt F)),
    StableHlo.reshape main_v79 main_v80 rfl shapeCasts_S1x3x128_S3x128,
    StableHlo.binary main_v11 main_v80 main_v81 ((fun l r => Host.dotGeneral dot_S450000x3_S3x128_S450000x128_1_0_0_1_n_n none l r) : (⟨S450000x3, .f32⟩ : BufTy).Contents (Elt F) → (⟨S3x128, .f32⟩ : BufTy).Contents (Elt F) → (⟨S450000x128, .f32⟩ : BufTy).Contents (Elt F)),
    StableHlo.unary main_arg6 main_v82 ((extractStridedSlice S1x128 ![1, 0] · slices_S5x128_S1x128_1_0) : (⟨S5x128, .f32⟩ : BufTy).Contents (Elt F) → (⟨S1x128, .f32⟩ : BufTy).Contents (Elt F)),
    StableHlo.reshape main_v82 main_v83 rfl shapeCasts_S1x128_S128,
    StableHlo.unary main_v83 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S450000x128 ![0, 1] bcast_S1x128_S450000x128_0_1 : (⟨S1x128, .f32⟩ : BufTy).Contents (Elt F) → (⟨S450000x128, .f32⟩ : BufTy).Contents (Elt F)),
    StableHlo.binary main_v81 main_v85 main_v86 (addf : (⟨S450000x128, .f32⟩ : BufTy).Contents (Elt F) → (⟨S450000x128, .f32⟩ : BufTy).Contents (Elt F) → (⟨S450000x128, .f32⟩ : BufTy).Contents (Elt F)),
    StableHlo.nullary main_c_9 (constantI S_ 32 0#32),
    StableHlo.unary main_c_9 main_v87 (broadcastInDim S450000 ![] bcast_S_S450000 : (⟨S_, .i32⟩ : BufTy).Contents (Elt F) → (⟨S450000, .i32⟩ : BufTy).Contents (Elt F)),
    StableHlo.binary main_v3 main_v87 main_v88 (cmpi .slt : (⟨S450000, .i32⟩ : BufTy).Contents (Elt F) → (⟨S450000, .i32⟩ : BufTy).Contents (Elt F) → (⟨S450000, .i1⟩ : BufTy).Contents (Elt F)),
    StableHlo.nullary main_c_10 (constantI S_ 32 50000#32),
    StableHlo.unary main_c_10 main_v89 (broadcastInDim S450000 ![] bcast_S_S450000 : (⟨S_, .i32⟩ : BufTy).Contents (Elt F) → (⟨S450000, .i32⟩ : BufTy).Contents (Elt F)),
    StableHlo.binary main_v3 main_v89 main_v90 (addi : (⟨S450000, .i32⟩ : BufTy).Contents (Elt F) → (⟨S450000, .i32⟩ : BufTy).Contents (Elt F) → (⟨S450000, .i32⟩ : BufTy).Contents (Elt F)),
    StableHlo.ternary main_v88 main_v90 main_v3 main_v91 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    StableHlo.unary main_v91 main_v92 (broadcastInDim S450000x1 ![0] bcast_S450000_S450000x1_0 : (⟨S450000, .i32⟩ : BufTy).Contents (Elt F) → (⟨S450000x1, .i32⟩ : BufTy).Contents (Elt F)),
    StableHlo.binary main_v78 main_v92 main_v93 ((fun x i => Host.gather gather_S50000x128_S450000x1_S450000x128_1_0_n_n_0_1_1128 x i) : (⟨S50000x128, .f32⟩ : BufTy).Contents (Elt F) → (⟨S450000x1, .i32⟩ : BufTy).Contents (Elt F) → (⟨S450000x128, .f32⟩ : BufTy).Contents (Elt F)),
    StableHlo.nullary main_cst_11 (constant S_ .f32 0x00000000#32),
    StableHlo.unary main_cst_11 main_v94 (broadcastInDim S50000x128 ![] bcast_S_S50000x128 : (⟨S_, .f32⟩ : BufTy).Contents (Elt F) → (⟨S50000x128, .f32⟩ : BufTy).Contents (Elt F)),
    StableHlo.unary main_v6 main_v95 (broadcastInDim S450000x1 ![0] bcast_S450000_S450000x1_0 : (⟨S450000, .i32⟩ : BufTy).Contents (Elt F) → (⟨S450000x1, .i32⟩ : BufTy).Contents (Elt F)),
    StableHlo.ternary main_v94 main_v95 main_v93 main_v96 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    StableHlo.nullary main_cst_12 (constant S_ .f32 0x00000000#32),
    StableHlo.unary main_cst_12 main_v97 (broadcastInDim S50000x128 ![] bcast_S_S50000x128 : (⟨S_, .f32⟩ : BufTy).Contents (Elt F) → (⟨S50000x128, .f32⟩ : BufTy).Contents (Elt F)),
    StableHlo.unary main_v6 main_v98 (broadcastInDim S450000x1 ![0] bcast_S450000_S450000x1_0 : (⟨S450000, .i32⟩ : BufTy).Contents (Elt F) → (⟨S450000x1, .i32⟩ : BufTy).Contents (Elt F)),
    StableHlo.ternary main_v97 main_v98 main_v86 main_v99 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    StableHlo.binary main_v96 main_v99 main_v100 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.unary main_arg7 main_v101 ((extractStridedSlice S1x256x256 ![1, 0, 0] · slices_S5x256x256_S1x256x256_1_0_0) : (⟨S5x256x256, .f32⟩ : BufTy).Contents (Elt F) → (⟨S1x256x256, .f32⟩ : BufTy).Contents (Elt F)),
    StableHlo.reshape main_v101 main_v102 rfl shapeCasts_S1x256x256_S256x256,
    StableHlo.binary main_v100 main_v102 main_v103 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg8 main_v104 ((extractStridedSlice S1x256 ![1, 0] · slices_S5x256_S1x256_1_0) : (⟨S5x256, .f32⟩ : BufTy).Contents (Elt F) → (⟨S1x256, .f32⟩ : BufTy).Contents (Elt F)) ]

/-- Operations 145 … 210, the rest of layer 1. -/
abbrev l1b : List (HloOp τ sig (Elt F)) :=
  [ StableHlo.reshape main_v104 main_v105 rfl shapeCasts_S1x256_S256,
    StableHlo.unary main_v105 main_v106 (broadcastInDim S1x256 ![1] bcast_S256_S1x256_1 : (⟨S256, .f32⟩ : BufTy).Contents (Elt F) → (⟨S1x256, .f32⟩ : BufTy).Contents (Elt F)),
    StableHlo.unary main_v106 main_v107 (broadcastInDim S50000x256 ![0, 1] bcast_S1x256_S50000x256_0_1 : (⟨S1x256, .f32⟩ : BufTy).Contents (Elt F) → (⟨S50000x256, .f32⟩ : BufTy).Contents (Elt F)),
    StableHlo.binary main_v103 main_v107 main_v108 (addf : (⟨S50000x256, .f32⟩ : BufTy).Contents (Elt F) → (⟨S50000x256, .f32⟩ : BufTy).Contents (Elt F) → (⟨S50000x256, .f32⟩ : BufTy).Contents (Elt F)),
    StableHlo.nullary main_cst_13 (constant S_ .f32 0x00000000#32),
    StableHlo.binary main_v108 main_cst_13 main_v109 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_14 (constant S_ .f32 0x47435000#32),
    StableHlo.unary main_cst_14 main_v110 (broadcastInDim S256 ![] bcast_S_S256 : (⟨S_, .f32⟩ : BufTy).Contents (Elt F) → (⟨S256, .f32⟩ : BufTy).Contents (Elt F)),
    StableHlo.binary main_v109 main_v110 main_v111 (Host.divf : (⟨S256, .f32⟩ : BufTy).Contents (Elt F) → (⟨S256, .f32⟩ : BufTy).Contents (Elt F) → (⟨S256, .f32⟩ : BufTy).Contents (Elt F)),
    StableHlo.nullary main_c_15 (constantI S_ 32 0#32),
    StableHlo.TRef.nullary main_call3.cst (constant S_ .f32 0x00000000#32),
    StableHlo.TRef.binary (StableHlo.TRef.of main_v108 : StableHlo.TRef sig ⟨S50000x256, .f32⟩) main_call3.cst main_call3.v0 (fun x v => Host.reduceAdd x v reducesTo_S50000x256_S256_d0 h_S_),
    StableHlo.TRef.unary main_call3.v0 main_call3.v1 (broadcastInDim S1x256 ![1] bcast_S256_S1x256_1),
    StableHlo.TRef.nullary main_call3.cst_0 (constant S_ .f32 0x47435000#32),
    StableHlo.TRef.unary main_call3.cst_0 main_call3.v2 (broadcastInDim S1x256 ![] bcast_S_S1x256),
    StableHlo.TRef.binary main_call3.v1 main_call3.v2 main_call3.v3 Host.divf,
    StableHlo.TRef.unary main_call3.v3 main_call3.v4 (broadcastInDim S50000x256 ![0, 1] bcast_S1x256_S50000x256_0_1),
    StableHlo.TRef.binary (StableHlo.TRef.of main_v108 : StableHlo.TRef sig ⟨S50000x256, .f32⟩) main_call3.v4 main_call3.v5 subf,
    StableHlo.TRef.binary main_call3.v5 main_call3.v5 main_call3.v6 mulf,
    StableHlo.TRef.unary (StableHlo.TRef.of main_c_15 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x256_S256_d0 h_S_),
    StableHlo.TRef.unary main_call3.v8 main_call3.v10 (broadcastInDim S256 ![] bcast_S_S256),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S256 ![] bcast_S_S256),
    StableHlo.TRef.ternary main_call3.v12 main_call3.v11 main_call3.call0.v1 main_call3.call0.v2 (fun p a b => select (broadcastInDim S256 ![] bcast_S_S256 p) a b),
    StableHlo.unary main_arg9 main_v113 ((extractStridedSlice S1x256 ![1, 0] · slices_S5x256_S1x256_1_0) : (⟨S5x256, .f32⟩ : BufTy).Contents (Elt F) → (⟨S1x256, .f32⟩ : BufTy).Contents (Elt F)),
    StableHlo.reshape main_v113 main_v114 rfl shapeCasts_S1x256_S256,
    StableHlo.unary main_v111 main_v115 (broadcastInDim S1x256 ![1] bcast_S256_S1x256_1 : (⟨S256, .f32⟩ : BufTy).Contents (Elt F) → (⟨S1x256, .f32⟩ : BufTy).Contents (Elt F)),
    StableHlo.unary main_v115 main_v116 (broadcastInDim S50000x256 ![0, 1] bcast_S1x256_S50000x256_0_1 : (⟨S1x256, .f32⟩ : BufTy).Contents (Elt F) → (⟨S50000x256, .f32⟩ : BufTy).Contents (Elt F)),
    StableHlo.binary main_v108 main_v116 main_v117 (subf : (⟨S50000x256, .f32⟩ : BufTy).Contents (Elt F) → (⟨S50000x256, .f32⟩ : BufTy).Contents (Elt F) → (⟨S50000x256, .f32⟩ : BufTy).Contents (Elt F)),
    StableHlo.unary main_v114 main_v118 (broadcastInDim S1x256 ![1] bcast_S256_S1x256_1 : (⟨S256, .f32⟩ : BufTy).Contents (Elt F) → (⟨S1x256, .f32⟩ : BufTy).Contents (Elt F)),
    StableHlo.unary main_v118 main_v119 (broadcastInDim S50000x256 ![0, 1] bcast_S1x256_S50000x256_0_1 : (⟨S1x256, .f32⟩ : BufTy).Contents (Elt F) → (⟨S50000x256, .f32⟩ : BufTy).Contents (Elt F)),
    StableHlo.binary main_v119 main_v117 main_v120 (mulf : (⟨S50000x256, .f32⟩ : BufTy).Contents (Elt F) → (⟨S50000x256, .f32⟩ : BufTy).Contents (Elt F) → (⟨S50000x256, .f32⟩ : BufTy).Contents (Elt F)),
    StableHlo.nullary main_cst_16 (constant S_ .f32 0x3727C5AC#32),
    StableHlo.unary main_cst_16 main_v121 (broadcastInDim S256 ![] bcast_S_S256 : (⟨S_, .f32⟩ : BufTy).Contents (Elt F) → (⟨S256, .f32⟩ : BufTy).Contents (Elt F)),
    StableHlo.binary main_v112 main_v121 main_v122 (addf : (⟨S256, .f32⟩ : BufTy).Contents (Elt F) → (⟨S256, .f32⟩ : BufTy).Contents (Elt F) → (⟨S256, .f32⟩ : BufTy).Contents (Elt F)),
    StableHlo.unary main_v122 main_v123 (Host.rsqrt : (⟨S256, .f32⟩ : BufTy).Contents (Elt F) → (⟨S256, .f32⟩ : BufTy).Contents (Elt F)),
    StableHlo.unary main_v123 main_v124 (broadcastInDim S1x256 ![1] bcast_S256_S1x256_1 : (⟨S256, .f32⟩ : BufTy).Contents (Elt F) → (⟨S1x256, .f32⟩ : BufTy).Contents (Elt F)),
    StableHlo.unary main_v124 main_v125 (broadcastInDim S50000x256 ![0, 1] bcast_S1x256_S50000x256_0_1 : (⟨S1x256, .f32⟩ : BufTy).Contents (Elt F) → (⟨S50000x256, .f32⟩ : BufTy).Contents (Elt F)),
    StableHlo.binary main_v120 main_v125 main_v126 (mulf : (⟨S50000x256, .f32⟩ : BufTy).Contents (Elt F) → (⟨S50000x256, .f32⟩ : BufTy).Contents (Elt F) → (⟨S50000x256, .f32⟩ : BufTy).Contents (Elt F)),
    StableHlo.unary main_arg10 main_v127 ((extractStridedSlice S1x256 ![1, 0] · slices_S5x256_S1x256_1_0) : (⟨S5x256, .f32⟩ : BufTy).Contents (Elt F) → (⟨S1x256, .f32⟩ : BufTy).Contents (Elt F)),
    StableHlo.reshape main_v127 main_v128 rfl shapeCasts_S1x256_S256,
    StableHlo.unary main_v128 main_v129 (broadcastInDim S1x256 ![1] bcast_S256_S1x256_1 : (⟨S256, .f32⟩ : BufTy).Contents (Elt F) → (⟨S1x256, .f32⟩ : BufTy).Contents (Elt F)),
    StableHlo.unary main_v129 main_v130 (broadcastInDim S50000x256 ![0, 1] bcast_S1x256_S50000x256_0_1 : (⟨S1x256, .f32⟩ : BufTy).Contents (Elt F) → (⟨S50000x256, .f32⟩ : BufTy).Contents (Elt F)),
    StableHlo.binary main_v126 main_v130 main_v131 (addf : (⟨S50000x256, .f32⟩ : BufTy).Contents (Elt F) → (⟨S50000x256, .f32⟩ : BufTy).Contents (Elt F) → (⟨S50000x256, .f32⟩ : BufTy).Contents (Elt F)),
    StableHlo.TRef.nullary main_call4.cst (constant S_ .f32 0x00000000#32),
    StableHlo.TRef.unary main_call4.cst main_call4.v0 (broadcastInDim S50000x256 ![] bcast_S_S50000x256),
    StableHlo.TRef.binary (StableHlo.TRef.of main_v131 : StableHlo.TRef sig ⟨S50000x256, .f32⟩) main_call4.v0 main_call4.v1 maximumf,
    StableHlo.unary main_arg11 main_v133 ((extractStridedSlice S1x256x128 ![1, 0, 0] · slices_S5x256x128_S1x256x128_1_0_0) : (⟨S5x256x128, .f32⟩ : BufTy).Contents (Elt F) → (⟨S1x256x128, .f32⟩ : BufTy).Contents (Elt F)),
    StableHlo.reshape main_v133 main_v134 rfl shapeCasts_S1x256x128_S256x128,
    StableHlo.binary main_v132 main_v134 main_v135 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg12 main_v136 ((extractStridedSlice S1x128 ![1, 0] · slices_S5x128_S1x128_1_0) : (⟨S5x128, .f32⟩ : BufTy).Contents (Elt F) → (⟨S1x128, .f32⟩ : BufTy).Contents (Elt F)),
    StableHlo.reshape main_v136 main_v137 rfl shapeCasts_S1x128_S128,
    StableHlo.unary main_v137 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v135 main_v139 main_v140 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (StableHlo.TRef.of main_v140 : StableHlo.TRef sig ⟨S50000x128, .f32⟩) main_call5.v0 main_call5.v1 maximumf ]

/-- Operations 211 … 229, the start of layer 2 (part 2 of @main ends here). -/
abbrev l2a : List (HloOp τ sig (Elt F)) :=
  [ StableHlo.unary main_arg5 main_v142 ((extractStridedSlice S1x3x128 ![2, 0, 0] · slices_S5x3x128_S1x3x128_2_0_0) : (⟨S5x3x128, .f32⟩ : BufTy).Contents (Elt F) → (⟨S1x3x128, .f32⟩ : BufTy).Contents (Elt F)),
    StableHlo.reshape main_v142 main_v143 rfl shapeCasts_S1x3x128_S3x128,
    StableHlo.binary main_v11 main_v143 main_v144 ((fun l r => Host.dotGeneral dot_S450000x3_S3x128_S450000x128_1_0_0_1_n_n none l r) : (⟨S450000x3, .f32⟩ : BufTy).Contents (Elt F) → (⟨S3x128, .f32⟩ : BufTy).Contents (Elt F) → (⟨S450000x128, .f32⟩ : BufTy).Contents (Elt F)),
    StableHlo.unary main_arg6 main_v145 ((extractStridedSlice S1x128 ![2, 0] · slices_S5x128_S1x128_2_0) : (⟨S5x128, .f32⟩ : BufTy).Contents (Elt F) → (⟨S1x128, .f32⟩ : BufTy).Contents (Elt F)),
    StableHlo.reshape main_v145 main_v146 rfl shapeCasts_S1x128_S128,
    StableHlo.unary main_v146 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S450000x128 ![0, 1] bcast_S1x128_S450000x128_0_1 : (⟨S1x128, .f32⟩ : BufTy).Contents (Elt F) → (⟨S450000x128, .f32⟩ : BufTy).Contents (Elt F)),
    StableHlo.binary main_v144 main_v148 main_v149 (addf : (⟨S450000x128, .f32⟩ : BufTy).Contents (Elt F) → (⟨S450000x128, .f32⟩ : BufTy).Contents (Elt F) → (⟨S450000x128, .f32⟩ : BufTy).Contents (Elt F)),
    StableHlo.nullary main_c_17 (constantI S_ 32 0#32),
    StableHlo.unary main_c_17 main_v150 (broadcastInDim S450000 ![] bcast_S_S450000 : (⟨S_, .i32⟩ : BufTy).Contents (Elt F) → (⟨S450000, .i32⟩ : BufTy).Contents (Elt F)),
    StableHlo.binary main_v3 main_v150 main_v151 (cmpi .slt : (⟨S450000, .i32⟩ : BufTy).Contents (Elt F) → (⟨S450000, .i32⟩ : BufTy).Contents (Elt F) → (⟨S450000, .i1⟩ : BufTy).Contents (Elt F)),
    StableHlo.nullary main_c_18 (constantI S_ 32 50000#32),
    StableHlo.unary main_c_18 main_v152 (broadcastInDim S450000 ![] bcast_S_S450000 : (⟨S_, .i32⟩ : BufTy).Contents (Elt F) → (⟨S450000, .i32⟩ : BufTy).Contents (Elt F)),
    StableHlo.binary main_v3 main_v152 main_v153 (addi : (⟨S450000, .i32⟩ : BufTy).Contents (Elt F) → (⟨S450000, .i32⟩ : BufTy).Contents (Elt F) → (⟨S450000, .i32⟩ : BufTy).Contents (Elt F)),
    StableHlo.ternary main_v151 main_v153 main_v3 main_v154 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    StableHlo.unary main_v154 main_v155 (broadcastInDim S450000x1 ![0] bcast_S450000_S450000x1_0 : (⟨S450000, .i32⟩ : BufTy).Contents (Elt F) → (⟨S450000x1, .i32⟩ : BufTy).Contents (Elt F)),
    StableHlo.binary main_v141 main_v155 main_v156 ((fun x i => Host.gather gather_S50000x128_S450000x1_S450000x128_1_0_n_n_0_1_1128 x i) : (⟨S50000x128, .f32⟩ : BufTy).Contents (Elt F) → (⟨S450000x1, .i32⟩ : BufTy).Contents (Elt F) → (⟨S450000x128, .f32⟩ : BufTy).Contents (Elt F)),
    StableHlo.nullary main_cst_19 (constant S_ .f32 0x00000000#32),
    StableHlo.unary main_cst_19 main_v157 (broadcastInDim S50000x128 ![] bcast_S_S50000x128 : (⟨S_, .f32⟩ : BufTy).Contents (Elt F) → (⟨S50000x128, .f32⟩ : BufTy).Contents (Elt F)) ]

/-- Operations 230 … 306, the rest of layer 2. -/
abbrev l2b : List (HloOp τ sig (Elt F)) :=
  [ StableHlo.unary main_v6 main_v158 (broadcastInDim S450000x1 ![0] bcast_S450000_S450000x1_0 : (⟨S450000, .i32⟩ : BufTy).Contents (Elt F) → (⟨S450000x1, .i32⟩ : BufTy).Contents (Elt F)),
    StableHlo.ternary main_v157 main_v158 main_v156 main_v159 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    StableHlo.nullary main_cst_20 (constant S_ .f32 0x00000000#32),
    StableHlo.unary main_cst_20 main_v160 (broadcastInDim S50000x128 ![] bcast_S_S50000x128 : (⟨S_, .f32⟩ : BufTy).Contents (Elt F) → (⟨S50000x128, .f32⟩ : BufTy).Contents (Elt F)),
    StableHlo.unary main_v6 main_v161 (broadcastInDim S450000x1 ![0] bcast_S450000_S450000x1_0 : (⟨S450000, .i32⟩ : BufTy).Contents (Elt F) → (⟨S450000x1, .i32⟩ : BufTy).Contents (Elt F)),
    StableHlo.ternary main_v160 main_v161 main_v149 main_v162 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    StableHlo.binary main_v159 main_v162 main_v163 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.unary main_arg7 main_v164 ((extractStridedSlice S1x256x256 ![2, 0, 0] · slices_S5x256x256_S1x256x256_2_0_0) : (⟨S5x256x256, .f32⟩ : BufTy).Contents (Elt F) → (⟨S1x256x256, .f32⟩ : BufTy).Contents (Elt F)),
    StableHlo.reshape main_v164 main_v165 rfl shapeCasts_S1x256x256_S256x256,
    StableHlo.binary main_v163 main_v165 main_v166 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg8 main_v167 ((extractStridedSlice S1x256 ![2, 0] · slices_S5x256_S1x256_2_0) : (⟨S5x256, .f32⟩ : BufTy).Contents (Elt F) → (⟨S1x256, .f32⟩ : BufTy).Contents (Elt F)),
    StableHlo.reshape main_v167 main_v168 rfl shapeCasts_S1x256_S256,
    StableHlo.unary main_v168 main_v169 (broadcastInDim S1x256 ![1] bcast_S256_S1x256_1 : (⟨S256, .f32⟩ : BufTy).Contents (Elt F) → (⟨S1x256, .f32⟩ : BufTy).Contents (Elt F)),
    StableHlo.unary main_v169 main_v170 (broadcastInDim S50000x256 ![0, 1] bcast_S1x256_S50000x256_0_1 : (⟨S1x256, .f32⟩ : BufTy).Contents (Elt F) → (⟨S50000x256, .f32⟩ : BufTy).Contents (Elt F)),
    StableHlo.binary main_v166 main_v170 main_v171 (addf : (⟨S50000x256, .f32⟩ : BufTy).Contents (Elt F) → (⟨S50000x256, .f32⟩ : BufTy).Contents (Elt F) → (⟨S50000x256, .f32⟩ : BufTy).Contents (Elt F)),
    StableHlo.nullary main_cst_21 (constant S_ .f32 0x00000000#32),
    StableHlo.binary main_v171 main_cst_21 main_v172 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_22 (constant S_ .f32 0x47435000#32),
    StableHlo.unary main_cst_22 main_v173 (broadcastInDim S256 ![] bcast_S_S256 : (⟨S_, .f32⟩ : BufTy).Contents (Elt F) → (⟨S256, .f32⟩ : BufTy).Contents (Elt F)),
    StableHlo.binary main_v172 main_v173 main_v174 (Host.divf : (⟨S256, .f32⟩ : BufTy).Contents (Elt F) → (⟨S256, .f32⟩ : BufTy).Contents (Elt F) → (⟨S256, .f32⟩ : BufTy).Contents (Elt F)),
    StableHlo.nullary main_c_23 (constantI S_ 32 0#32),
    StableHlo.TRef.nullary main_call6.cst (constant S_ .f32 0x00000000#32),
    StableHlo.TRef.binary (StableHlo.TRef.of main_v171 : StableHlo.TRef sig ⟨S50000x256, .f32⟩) main_call6.cst main_call6.v0 (fun x v => Host.reduceAdd x v reducesTo_S50000x256_S256_d0 h_S_),
    StableHlo.TRef.unary main_call6.v0 main_call6.v1 (broadcastInDim S1x256 ![1] bcast_S256_S1x256_1),
    StableHlo.TRef.nullary main_call6.cst_0 (constant S_ .f32 0x47435000#32),
    StableHlo.TRef.unary main_call6.cst_0 main_call6.v2 (broadcastInDim S1x256 ![] bcast_S_S1x256),
    StableHlo.TRef.binary main_call6.v1 main_call6.v2 main_call6.v3 Host.divf,
    StableHlo.TRef.unary main_call6.v3 main_call6.v4 (broadcastInDim S50000x256 ![0, 1] bcast_S1x256_S50000x256_0_1),
    StableHlo.TRef.binary (StableHlo.TRef.of main_v171 : StableHlo.TRef sig ⟨S50000x256, .f32⟩) main_call6.v4 main_call6.v5 subf,
    StableHlo.TRef.binary main_call6.v5 main_call6.v5 main_call6.v6 mulf,
    StableHlo.TRef.unary (StableHlo.TRef.of main_c_23 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x256_S256_d0 h_S_),
    StableHlo.TRef.unary main_call6.v8 main_call6.v10 (broadcastInDim S256 ![] bcast_S_S256),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S256 ![] bcast_S_S256),
    StableHlo.TRef.ternary main_call6.v12 main_call6.v11 main_call6.call0.v1 main_call6.call0.v2 (fun p a b => select (broadcastInDim S256 ![] bcast_S_S256 p) a b),
    StableHlo.unary main_arg9 main_v176 ((extractStridedSlice S1x256 ![2, 0] · slices_S5x256_S1x256_2_0) : (⟨S5x256, .f32⟩ : BufTy).Contents (Elt F) → (⟨S1x256, .f32⟩ : BufTy).Contents (Elt F)),
    StableHlo.reshape main_v176 main_v177 rfl shapeCasts_S1x256_S256,
    StableHlo.unary main_v174 main_v178 (broadcastInDim S1x256 ![1] bcast_S256_S1x256_1 : (⟨S256, .f32⟩ : BufTy).Contents (Elt F) → (⟨S1x256, .f32⟩ : BufTy).Contents (Elt F)),
    StableHlo.unary main_v178 main_v179 (broadcastInDim S50000x256 ![0, 1] bcast_S1x256_S50000x256_0_1 : (⟨S1x256, .f32⟩ : BufTy).Contents (Elt F) → (⟨S50000x256, .f32⟩ : BufTy).Contents (Elt F)),
    StableHlo.binary main_v171 main_v179 main_v180 (subf : (⟨S50000x256, .f32⟩ : BufTy).Contents (Elt F) → (⟨S50000x256, .f32⟩ : BufTy).Contents (Elt F) → (⟨S50000x256, .f32⟩ : BufTy).Contents (Elt F)),
    StableHlo.unary main_v177 main_v181 (broadcastInDim S1x256 ![1] bcast_S256_S1x256_1 : (⟨S256, .f32⟩ : BufTy).Contents (Elt F) → (⟨S1x256, .f32⟩ : BufTy).Contents (Elt F)),
    StableHlo.unary main_v181 main_v182 (broadcastInDim S50000x256 ![0, 1] bcast_S1x256_S50000x256_0_1 : (⟨S1x256, .f32⟩ : BufTy).Contents (Elt F) → (⟨S50000x256, .f32⟩ : BufTy).Contents (Elt F)),
    StableHlo.binary main_v182 main_v180 main_v183 (mulf : (⟨S50000x256, .f32⟩ : BufTy).Contents (Elt F) → (⟨S50000x256, .f32⟩ : BufTy).Contents (Elt F) → (⟨S50000x256, .f32⟩ : BufTy).Contents (Elt F)),
    StableHlo.nullary main_cst_24 (constant S_ .f32 0x3727C5AC#32),
    StableHlo.unary main_cst_24 main_v184 (broadcastInDim S256 ![] bcast_S_S256 : (⟨S_, .f32⟩ : BufTy).Contents (Elt F) → (⟨S256, .f32⟩ : BufTy).Contents (Elt F)),
    StableHlo.binary main_v175 main_v184 main_v185 (addf : (⟨S256, .f32⟩ : BufTy).Contents (Elt F) → (⟨S256, .f32⟩ : BufTy).Contents (Elt F) → (⟨S256, .f32⟩ : BufTy).Contents (Elt F)),
    StableHlo.unary main_v185 main_v186 (Host.rsqrt : (⟨S256, .f32⟩ : BufTy).Contents (Elt F) → (⟨S256, .f32⟩ : BufTy).Contents (Elt F)),
    StableHlo.unary main_v186 main_v187 (broadcastInDim S1x256 ![1] bcast_S256_S1x256_1 : (⟨S256, .f32⟩ : BufTy).Contents (Elt F) → (⟨S1x256, .f32⟩ : BufTy).Contents (Elt F)),
    StableHlo.unary main_v187 main_v188 (broadcastInDim S50000x256 ![0, 1] bcast_S1x256_S50000x256_0_1 : (⟨S1x256, .f32⟩ : BufTy).Contents (Elt F) → (⟨S50000x256, .f32⟩ : BufTy).Contents (Elt F)),
    StableHlo.binary main_v183 main_v188 main_v189 (mulf : (⟨S50000x256, .f32⟩ : BufTy).Contents (Elt F) → (⟨S50000x256, .f32⟩ : BufTy).Contents (Elt F) → (⟨S50000x256, .f32⟩ : BufTy).Contents (Elt F)),
    StableHlo.unary main_arg10 main_v190 ((extractStridedSlice S1x256 ![2, 0] · slices_S5x256_S1x256_2_0) : (⟨S5x256, .f32⟩ : BufTy).Contents (Elt F) → (⟨S1x256, .f32⟩ : BufTy).Contents (Elt F)),
    StableHlo.reshape main_v190 main_v191 rfl shapeCasts_S1x256_S256,
    StableHlo.unary main_v191 main_v192 (broadcastInDim S1x256 ![1] bcast_S256_S1x256_1 : (⟨S256, .f32⟩ : BufTy).Contents (Elt F) → (⟨S1x256, .f32⟩ : BufTy).Contents (Elt F)),
    StableHlo.unary main_v192 main_v193 (broadcastInDim S50000x256 ![0, 1] bcast_S1x256_S50000x256_0_1 : (⟨S1x256, .f32⟩ : BufTy).Contents (Elt F) → (⟨S50000x256, .f32⟩ : BufTy).Contents (Elt F)),
    StableHlo.binary main_v189 main_v193 main_v194 (addf : (⟨S50000x256, .f32⟩ : BufTy).Contents (Elt F) → (⟨S50000x256, .f32⟩ : BufTy).Contents (Elt F) → (⟨S50000x256, .f32⟩ : BufTy).Contents (Elt F)),
    StableHlo.TRef.nullary main_call7.cst (constant S_ .f32 0x00000000#32),
    StableHlo.TRef.unary main_call7.cst main_call7.v0 (broadcastInDim S50000x256 ![] bcast_S_S50000x256),
    StableHlo.TRef.binary (StableHlo.TRef.of main_v194 : StableHlo.TRef sig ⟨S50000x256, .f32⟩) main_call7.v0 main_call7.v1 maximumf,
    StableHlo.unary main_arg11 main_v196 ((extractStridedSlice S1x256x128 ![2, 0, 0] · slices_S5x256x128_S1x256x128_2_0_0) : (⟨S5x256x128, .f32⟩ : BufTy).Contents (Elt F) → (⟨S1x256x128, .f32⟩ : BufTy).Contents (Elt F)),
    StableHlo.reshape main_v196 main_v197 rfl shapeCasts_S1x256x128_S256x128,
    StableHlo.binary main_v195 main_v197 main_v198 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg12 main_v199 ((extractStridedSlice S1x128 ![2, 0] · slices_S5x128_S1x128_2_0) : (⟨S5x128, .f32⟩ : BufTy).Contents (Elt F) → (⟨S1x128, .f32⟩ : BufTy).Contents (Elt F)),
    StableHlo.reshape main_v199 main_v200 rfl shapeCasts_S1x128_S128,
    StableHlo.unary main_v200 main_v201 (broadcastInDim S1x128 ![1] bcast_S128_S1x128_1 : (⟨S128, .f32⟩ : BufTy).Contents (Elt F) → (⟨S1x128, .f32⟩ : BufTy).Contents (Elt F)),
    StableHlo.unary main_v201 main_v202 (broadcastInDim S50000x128 ![0, 1] bcast_S1x128_S50000x128_0_1 : (⟨S1x128, .f32⟩ : BufTy).Contents (Elt F) → (⟨S50000x128, .f32⟩ : BufTy).Contents (Elt F)),
    StableHlo.binary main_v198 main_v202 main_v203 (addf : (⟨S50000x128, .f32⟩ : BufTy).Contents (Elt F) → (⟨S50000x128, .f32⟩ : BufTy).Contents (Elt F) → (⟨S50000x128, .f32⟩ : BufTy).Contents (Elt F)),
    StableHlo.TRef.nullary main_call8.cst (constant S_ .f32 0x00000000#32),
    StableHlo.TRef.unary main_call8.cst main_call8.v0 (broadcastInDim S50000x128 ![] bcast_S_S50000x128),
    StableHlo.TRef.binary (StableHlo.TRef.of main_v203 : StableHlo.TRef sig ⟨S50000x128, .f32⟩) main_call8.v0 main_call8.v1 maximumf ]

/-- Operations 307 … 314, the start of layer 3 (part 3 of @main ends here). -/
abbrev l3a : List (HloOp τ sig (Elt F)) :=
  [ StableHlo.unary main_arg5 main_v205 ((extractStridedSlice S1x3x128 ![3, 0, 0] · slices_S5x3x128_S1x3x128_3_0_0) : (⟨S5x3x128, .f32⟩ : BufTy).Contents (Elt F) → (⟨S1x3x128, .f32⟩ : BufTy).Contents (Elt F)),
    StableHlo.reshape main_v205 main_v206 rfl shapeCasts_S1x3x128_S3x128,
    StableHlo.binary main_v11 main_v206 main_v207 ((fun l r => Host.dotGeneral dot_S450000x3_S3x128_S450000x128_1_0_0_1_n_n none l r) : (⟨S450000x3, .f32⟩ : BufTy).Contents (Elt F) → (⟨S3x128, .f32⟩ : BufTy).Contents (Elt F) → (⟨S450000x128, .f32⟩ : BufTy).Contents (Elt F)),
    StableHlo.unary main_arg6 main_v208 ((extractStridedSlice S1x128 ![3, 0] · slices_S5x128_S1x128_3_0) : (⟨S5x128, .f32⟩ : BufTy).Contents (Elt F) → (⟨S1x128, .f32⟩ : BufTy).Contents (Elt F)),
    StableHlo.reshape main_v208 main_v209 rfl shapeCasts_S1x128_S128,
    StableHlo.unary main_v209 main_v210 (broadcastInDim S1x128 ![1] bcast_S128_S1x128_1 : (⟨S128, .f32⟩ : BufTy).Contents (Elt F) → (⟨S1x128, .f32⟩ : BufTy).Contents (Elt F)),
    StableHlo.unary main_v210 main_v211 (broadcastInDim S450000x128 ![0, 1] bcast_S1x128_S450000x128_0_1 : (⟨S1x128, .f32⟩ : BufTy).Contents (Elt F) → (⟨S450000x128, .f32⟩ : BufTy).Contents (Elt F)),
    StableHlo.binary main_v207 main_v211 main_v212 (addf : (⟨S450000x128, .f32⟩ : BufTy).Contents (Elt F) → (⟨S450000x128, .f32⟩ : BufTy).Contents (Elt F) → (⟨S450000x128, .f32⟩ : BufTy).Contents (Elt F)) ]

/-- Operations 315 … 397, inside layer 3: part 4 of @main. -/
abbrev l3b : List (HloOp τ sig (Elt F)) :=
  [ StableHlo.nullary main_c_25 (constantI S_ 32 0#32),
    StableHlo.unary main_c_25 main_v213 (broadcastInDim S450000 ![] bcast_S_S450000 : (⟨S_, .i32⟩ : BufTy).Contents (Elt F) → (⟨S450000, .i32⟩ : BufTy).Contents (Elt F)),
    StableHlo.binary main_v3 main_v213 main_v214 (cmpi .slt : (⟨S450000, .i32⟩ : BufTy).Contents (Elt F) → (⟨S450000, .i32⟩ : BufTy).Contents (Elt F) → (⟨S450000, .i1⟩ : BufTy).Contents (Elt F)),
    StableHlo.nullary main_c_26 (constantI S_ 32 50000#32),
    StableHlo.unary main_c_26 main_v215 (broadcastInDim S450000 ![] bcast_S_S450000 : (⟨S_, .i32⟩ : BufTy).Contents (Elt F) → (⟨S450000, .i32⟩ : BufTy).Contents (Elt F)),
    StableHlo.binary main_v3 main_v215 main_v216 (addi : (⟨S450000, .i32⟩ : BufTy).Contents (Elt F) → (⟨S450000, .i32⟩ : BufTy).Contents (Elt F) → (⟨S450000, .i32⟩ : BufTy).Contents (Elt F)),
    StableHlo.ternary main_v214 main_v216 main_v3 main_v217 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    StableHlo.unary main_v217 main_v218 (broadcastInDim S450000x1 ![0] bcast_S450000_S450000x1_0 : (⟨S450000, .i32⟩ : BufTy).Contents (Elt F) → (⟨S450000x1, .i32⟩ : BufTy).Contents (Elt F)),
    StableHlo.binary main_v204 main_v218 main_v219 ((fun x i => Host.gather gather_S50000x128_S450000x1_S450000x128_1_0_n_n_0_1_1128 x i) : (⟨S50000x128, .f32⟩ : BufTy).Contents (Elt F) → (⟨S450000x1, .i32⟩ : BufTy).Contents (Elt F) → (⟨S450000x128, .f32⟩ : BufTy).Contents (Elt F)),
    StableHlo.nullary main_cst_27 (constant S_ .f32 0x00000000#32),
    StableHlo.unary main_cst_27 main_v220 (broadcastInDim S50000x128 ![] bcast_S_S50000x128 : (⟨S_, .f32⟩ : BufTy).Contents (Elt F) → (⟨S50000x128, .f32⟩ : BufTy).Contents (Elt F)),
    StableHlo.unary main_v6 main_v221 (broadcastInDim S450000x1 ![0] bcast_S450000_S450000x1_0 : (⟨S450000, .i32⟩ : BufTy).Contents (Elt F) → (⟨S450000x1, .i32⟩ : BufTy).Contents (Elt F)),
    StableHlo.ternary main_v220 main_v221 main_v219 main_v222 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    StableHlo.nullary main_cst_28 (constant S_ .f32 0x00000000#32),
    StableHlo.unary main_cst_28 main_v223 (broadcastInDim S50000x128 ![] bcast_S_S50000x128 : (⟨S_, .f32⟩ : BufTy).Contents (Elt F) → (⟨S50000x128, .f32⟩ : BufTy).Contents (Elt F)),
    StableHlo.unary main_v6 main_v224 (broadcastInDim S450000x1 ![0] bcast_S450000_S450000x1_0 : (⟨S450000, .i32⟩ : BufTy).Contents (Elt F) → (⟨S450000x1, .i32⟩ : BufTy).Contents (Elt F)),
    StableHlo.ternary main_v223 main_v224 main_v212 main_v225 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    StableHlo.binary main_v222 main_v225 main_v226 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.unary main_arg7 main_v227 ((extractStridedSlice S1x256x256 ![3, 0, 0] · slices_S5x256x256_S1x256x256_3_0_0) : (⟨S5x256x256, .f32⟩ : BufTy).Contents (Elt F) → (⟨S1x256x256, .f32⟩ : BufTy).Contents (Elt F)),
    StableHlo.reshape main_v227 main_v228 rfl shapeCasts_S1x256x256_S256x256,
    StableHlo.binary main_v226 main_v228 main_v229 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg8 main_v230 ((extractStridedSlice S1x256 ![3, 0] · slices_S5x256_S1x256_3_0) : (⟨S5x256, .f32⟩ : BufTy).Contents (Elt F) → (⟨S1x256, .f32⟩ : BufTy).Contents (Elt F)),
    StableHlo.reshape main_v230 main_v231 rfl shapeCasts_S1x256_S256,
    StableHlo.unary main_v231 main_v232 (broadcastInDim S1x256 ![1] bcast_S256_S1x256_1 : (⟨S256, .f32⟩ : BufTy).Contents (Elt F) → (⟨S1x256, .f32⟩ : BufTy).Contents (Elt F)),
    StableHlo.unary main_v232 main_v233 (broadcastInDim S50000x256 ![0, 1] bcast_S1x256_S50000x256_0_1 : (⟨S1x256, .f32⟩ : BufTy).Contents (Elt F) → (⟨S50000x256, .f32⟩ : BufTy).Contents (Elt F)),
    StableHlo.binary main_v229 main_v233 main_v234 (addf : (⟨S50000x256, .f32⟩ : BufTy).Contents (Elt F) → (⟨S50000x256, .f32⟩ : BufTy).Contents (Elt F) → (⟨S50000x256, .f32⟩ : BufTy).Contents (Elt F)),
    StableHlo.nullary main_cst_29 (constant S_ .f32 0x00000000#32),
    StableHlo.binary main_v234 main_cst_29 main_v235 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_30 (constant S_ .f32 0x47435000#32),
    StableHlo.unary main_cst_30 main_v236 (broadcastInDim S256 ![] bcast_S_S256 : (⟨S_, .f32⟩ : BufTy).Contents (Elt F) → (⟨S256, .f32⟩ : BufTy).Contents (Elt F)),
    StableHlo.binary main_v235 main_v236 main_v237 (Host.divf : (⟨S256, .f32⟩ : BufTy).Contents (Elt F) → (⟨S256, .f32⟩ : BufTy).Contents (Elt F) → (⟨S256, .f32⟩ : BufTy).Contents (Elt F)),
    StableHlo.nullary main_c_31 (constantI S_ 32 0#32),
    StableHlo.TRef.nullary main_call9.cst (constant S_ .f32 0x00000000#32),
    StableHlo.TRef.binary (StableHlo.TRef.of main_v234 : StableHlo.TRef sig ⟨S50000x256, .f32⟩) main_call9.cst main_call9.v0 (fun x v => Host.reduceAdd x v reducesTo_S50000x256_S256_d0 h_S_),
    StableHlo.TRef.unary main_call9.v0 main_call9.v1 (broadcastInDim S1x256 ![1] bcast_S256_S1x256_1),
    StableHlo.TRef.nullary main_call9.cst_0 (constant S_ .f32 0x47435000#32),
    StableHlo.TRef.unary main_call9.cst_0 main_call9.v2 (broadcastInDim S1x256 ![] bcast_S_S1x256),
    StableHlo.TRef.binary main_call9.v1 main_call9.v2 main_call9.v3 Host.divf,
    StableHlo.TRef.unary main_call9.v3 main_call9.v4 (broadcastInDim S50000x256 ![0, 1] bcast_S1x256_S50000x256_0_1),
    StableHlo.TRef.binary (StableHlo.TRef.of main_v234 : StableHlo.TRef sig ⟨S50000x256, .f32⟩) main_call9.v4 main_call9.v5 subf,
    StableHlo.TRef.binary main_call9.v5 main_call9.v5 main_call9.v6 mulf,
    StableHlo.TRef.unary (StableHlo.TRef.of main_c_31 : StableHlo.TRef sig ⟨S_, .i32⟩) main_call9.v7 (sitofp .f32),
    StableHlo.TRef.nullary main_call9.cst_1 (constant S_ .f32 0x47435000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S50000x256_S256_d0 h_S_),
    StableHlo.TRef.unary main_call9.v8 main_call9.v10 (broadcastInDim S256 ![] bcast_S_S256),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S256 ![] bcast_S_S256),
    StableHlo.TRef.ternary main_call9.v12 main_call9.v11 main_call9.call0.v1 main_call9.call0.v2 (fun p a b => select (broadcastInDim S256 ![] bcast_S_S256 p) a b),
    StableHlo.unary main_arg9 main_v239 ((extractStridedSlice S1x256 ![3, 0] · slices_S5x256_S1x256_3_0) : (⟨S5x256, .f32⟩ : BufTy).Contents (Elt F) → (⟨S1x256, .f32⟩ : BufTy).Contents (Elt F)),
    StableHlo.reshape main_v239 main_v240 rfl shapeCasts_S1x256_S256,
    StableHlo.unary main_v237 main_v241 (broadcastInDim S1x256 ![1] bcast_S256_S1x256_1 : (⟨S256, .f32⟩ : BufTy).Contents (Elt F) → (⟨S1x256, .f32⟩ : BufTy).Contents (Elt F)),
    StableHlo.unary main_v241 main_v242 (broadcastInDim S50000x256 ![0, 1] bcast_S1x256_S50000x256_0_1 : (⟨S1x256, .f32⟩ : BufTy).Contents (Elt F) → (⟨S50000x256, .f32⟩ : BufTy).Contents (Elt F)),
    StableHlo.binary main_v234 main_v242 main_v243 (subf : (⟨S50000x256, .f32⟩ : BufTy).Contents (Elt F) → (⟨S50000x256, .f32⟩ : BufTy).Contents (Elt F) → (⟨S50000x256, .f32⟩ : BufTy).Contents (Elt F)),
    StableHlo.unary main_v240 main_v244 (broadcastInDim S1x256 ![1] bcast_S256_S1x256_1 : (⟨S256, .f32⟩ : BufTy).Contents (Elt F) → (⟨S1x256, .f32⟩ : BufTy).Contents (Elt F)),
    StableHlo.unary main_v244 main_v245 (broadcastInDim S50000x256 ![0, 1] bcast_S1x256_S50000x256_0_1 : (⟨S1x256, .f32⟩ : BufTy).Contents (Elt F) → (⟨S50000x256, .f32⟩ : BufTy).Contents (Elt F)),
    StableHlo.binary main_v245 main_v243 main_v246 (mulf : (⟨S50000x256, .f32⟩ : BufTy).Contents (Elt F) → (⟨S50000x256, .f32⟩ : BufTy).Contents (Elt F) → (⟨S50000x256, .f32⟩ : BufTy).Contents (Elt F)),
    StableHlo.nullary main_cst_32 (constant S_ .f32 0x3727C5AC#32),
    StableHlo.unary main_cst_32 main_v247 (broadcastInDim S256 ![] bcast_S_S256 : (⟨S_, .f32⟩ : BufTy).Contents (Elt F) → (⟨S256, .f32⟩ : BufTy).Contents (Elt F)),
    StableHlo.binary main_v238 main_v247 main_v248 (addf : (⟨S256, .f32⟩ : BufTy).Contents (Elt F) → (⟨S256, .f32⟩ : BufTy).Contents (Elt F) → (⟨S256, .f32⟩ : BufTy).Contents (Elt F)),
    StableHlo.unary main_v248 main_v249 (Host.rsqrt : (⟨S256, .f32⟩ : BufTy).Contents (Elt F) → (⟨S256, .f32⟩ : BufTy).Contents (Elt F)),
    StableHlo.unary main_v249 main_v250 (broadcastInDim S1x256 ![1] bcast_S256_S1x256_1 : (⟨S256, .f32⟩ : BufTy).Contents (Elt F) → (⟨S1x256, .f32⟩ : BufTy).Contents (Elt F)),
    StableHlo.unary main_v250 main_v251 (broadcastInDim S50000x256 ![0, 1] bcast_S1x256_S50000x256_0_1 : (⟨S1x256, .f32⟩ : BufTy).Contents (Elt F) → (⟨S50000x256, .f32⟩ : BufTy).Contents (Elt F)),
    StableHlo.binary main_v246 main_v251 main_v252 (mulf : (⟨S50000x256, .f32⟩ : BufTy).Contents (Elt F) → (⟨S50000x256, .f32⟩ : BufTy).Contents (Elt F) → (⟨S50000x256, .f32⟩ : BufTy).Contents (Elt F)),
    StableHlo.unary main_arg10 main_v253 ((extractStridedSlice S1x256 ![3, 0] · slices_S5x256_S1x256_3_0) : (⟨S5x256, .f32⟩ : BufTy).Contents (Elt F) → (⟨S1x256, .f32⟩ : BufTy).Contents (Elt F)),
    StableHlo.reshape main_v253 main_v254 rfl shapeCasts_S1x256_S256,
    StableHlo.unary main_v254 main_v255 (broadcastInDim S1x256 ![1] bcast_S256_S1x256_1 : (⟨S256, .f32⟩ : BufTy).Contents (Elt F) → (⟨S1x256, .f32⟩ : BufTy).Contents (Elt F)),
    StableHlo.unary main_v255 main_v256 (broadcastInDim S50000x256 ![0, 1] bcast_S1x256_S50000x256_0_1 : (⟨S1x256, .f32⟩ : BufTy).Contents (Elt F) → (⟨S50000x256, .f32⟩ : BufTy).Contents (Elt F)),
    StableHlo.binary main_v252 main_v256 main_v257 (addf : (⟨S50000x256, .f32⟩ : BufTy).Contents (Elt F) → (⟨S50000x256, .f32⟩ : BufTy).Contents (Elt F) → (⟨S50000x256, .f32⟩ : BufTy).Contents (Elt F)),
    StableHlo.TRef.nullary main_call10.cst (constant S_ .f32 0x00000000#32),
    StableHlo.TRef.unary main_call10.cst main_call10.v0 (broadcastInDim S50000x256 ![] bcast_S_S50000x256),
    StableHlo.TRef.binary (StableHlo.TRef.of main_v257 : StableHlo.TRef sig ⟨S50000x256, .f32⟩) main_call10.v0 main_call10.v1 maximumf,
    StableHlo.unary main_arg11 main_v259 ((extractStridedSlice S1x256x128 ![3, 0, 0] · slices_S5x256x128_S1x256x128_3_0_0) : (⟨S5x256x128, .f32⟩ : BufTy).Contents (Elt F) → (⟨S1x256x128, .f32⟩ : BufTy).Contents (Elt F)),
    StableHlo.reshape main_v259 main_v260 rfl shapeCasts_S1x256x128_S256x128,
    StableHlo.binary main_v258 main_v260 main_v261 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg12 main_v262 ((extractStridedSlice S1x128 ![3, 0] · slices_S5x128_S1x128_3_0) : (⟨S5x128, .f32⟩ : BufTy).Contents (Elt F) → (⟨S1x128, .f32⟩ : BufTy).Contents (Elt F)),
    StableHlo.reshape main_v262 main_v263 rfl shapeCasts_S1x128_S128,
    StableHlo.unary main_v263 main_v264 (broadcastInDim S1x128 ![1] bcast_S128_S1x128_1 : (⟨S128, .f32⟩ : BufTy).Contents (Elt F) → (⟨S1x128, .f32⟩ : BufTy).Contents (Elt F)) ]

/-- Operations 398 … 402, the end of layer 3. -/
abbrev l3c : List (HloOp τ sig (Elt F)) :=
  [ StableHlo.unary main_v264 main_v265 (broadcastInDim S50000x128 ![0, 1] bcast_S1x128_S50000x128_0_1 : (⟨S1x128, .f32⟩ : BufTy).Contents (Elt F) → (⟨S50000x128, .f32⟩ : BufTy).Contents (Elt F)),
    StableHlo.binary main_v261 main_v265 main_v266 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (StableHlo.TRef.of main_v266 : StableHlo.TRef sig ⟨S50000x128, .f32⟩) main_call11.v0 main_call11.v1 maximumf ]

/-- Operations 403 … 480, the start of layer 4 (part 5 of @main ends here). -/
abbrev l4a : List (HloOp τ sig (Elt F)) :=
  [ StableHlo.unary main_arg5 main_v268 ((extractStridedSlice S1x3x128 ![4, 0, 0] · slices_S5x3x128_S1x3x128_4_0_0) : (⟨S5x3x128, .f32⟩ : BufTy).Contents (Elt F) → (⟨S1x3x128, .f32⟩ : BufTy).Contents (Elt F)),
    StableHlo.reshape main_v268 main_v269 rfl shapeCasts_S1x3x128_S3x128,
    StableHlo.binary main_v11 main_v269 main_v270 ((fun l r => Host.dotGeneral dot_S450000x3_S3x128_S450000x128_1_0_0_1_n_n none l r) : (⟨S450000x3, .f32⟩ : BufTy).Contents (Elt F) → (⟨S3x128, .f32⟩ : BufTy).Contents (Elt F) → (⟨S450000x128, .f32⟩ : BufTy).Contents (Elt F)),
    StableHlo.unary main_arg6 main_v271 ((extractStridedSlice S1x128 ![4, 0] · slices_S5x128_S1x128_4_0) : (⟨S5x128, .f32⟩ : BufTy).Contents (Elt F) → (⟨S1x128, .f32⟩ : BufTy).Contents (Elt F)),
    StableHlo.reshape main_v271 main_v272 rfl shapeCasts_S1x128_S128,
    StableHlo.unary main_v272 main_v273 (broadcastInDim S1x128 ![1] bcast_S128_S1x128_1 : (⟨S128, .f32⟩ : BufTy).Contents (Elt F) → (⟨S1x128, .f32⟩ : BufTy).Contents (Elt F)),
    StableHlo.unary main_v273 main_v274 (broadcastInDim S450000x128 ![0, 1] bcast_S1x128_S450000x128_0_1 : (⟨S1x128, .f32⟩ : BufTy).Contents (Elt F) → (⟨S450000x128, .f32⟩ : BufTy).Contents (Elt F)),
    StableHlo.binary main_v270 main_v274 main_v275 (addf : (⟨S450000x128, .f32⟩ : BufTy).Contents (Elt F) → (⟨S450000x128, .f32⟩ : BufTy).Contents (Elt F) → (⟨S450000x128, .f32⟩ : BufTy).Contents (Elt F)),
    StableHlo.nullary main_c_33 (constantI S_ 32 0#32),
    StableHlo.unary main_c_33 main_v276 (broadcastInDim S450000 ![] bcast_S_S450000 : (⟨S_, .i32⟩ : BufTy).Contents (Elt F) → (⟨S450000, .i32⟩ : BufTy).Contents (Elt F)),
    StableHlo.binary main_v3 main_v276 main_v277 (cmpi .slt : (⟨S450000, .i32⟩ : BufTy).Contents (Elt F) → (⟨S450000, .i32⟩ : BufTy).Contents (Elt F) → (⟨S450000, .i1⟩ : BufTy).Contents (Elt F)),
    StableHlo.nullary main_c_34 (constantI S_ 32 50000#32),
    StableHlo.unary main_c_34 main_v278 (broadcastInDim S450000 ![] bcast_S_S450000 : (⟨S_, .i32⟩ : BufTy).Contents (Elt F) → (⟨S450000, .i32⟩ : BufTy).Contents (Elt F)),
    StableHlo.binary main_v3 main_v278 main_v279 (addi : (⟨S450000, .i32⟩ : BufTy).Contents (Elt F) → (⟨S450000, .i32⟩ : BufTy).Contents (Elt F) → (⟨S450000, .i32⟩ : BufTy).Contents (Elt F)),
    StableHlo.ternary main_v277 main_v279 main_v3 main_v280 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    StableHlo.unary main_v280 main_v281 (broadcastInDim S450000x1 ![0] bcast_S450000_S450000x1_0 : (⟨S450000, .i32⟩ : BufTy).Contents (Elt F) → (⟨S450000x1, .i32⟩ : BufTy).Contents (Elt F)),
    StableHlo.binary main_v267 main_v281 main_v282 ((fun x i => Host.gather gather_S50000x128_S450000x1_S450000x128_1_0_n_n_0_1_1128 x i) : (⟨S50000x128, .f32⟩ : BufTy).Contents (Elt F) → (⟨S450000x1, .i32⟩ : BufTy).Contents (Elt F) → (⟨S450000x128, .f32⟩ : BufTy).Contents (Elt F)),
    StableHlo.nullary main_cst_35 (constant S_ .f32 0x00000000#32),
    StableHlo.unary main_cst_35 main_v283 (broadcastInDim S50000x128 ![] bcast_S_S50000x128 : (⟨S_, .f32⟩ : BufTy).Contents (Elt F) → (⟨S50000x128, .f32⟩ : BufTy).Contents (Elt F)),
    StableHlo.unary main_v6 main_v284 (broadcastInDim S450000x1 ![0] bcast_S450000_S450000x1_0 : (⟨S450000, .i32⟩ : BufTy).Contents (Elt F) → (⟨S450000x1, .i32⟩ : BufTy).Contents (Elt F)),
    StableHlo.ternary main_v283 main_v284 main_v282 main_v285 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    StableHlo.nullary main_cst_36 (constant S_ .f32 0x00000000#32),
    StableHlo.unary main_cst_36 main_v286 (broadcastInDim S50000x128 ![] bcast_S_S50000x128 : (⟨S_, .f32⟩ : BufTy).Contents (Elt F) → (⟨S50000x128, .f32⟩ : BufTy).Contents (Elt F)),
    StableHlo.unary main_v6 main_v287 (broadcastInDim S450000x1 ![0] bcast_S450000_S450000x1_0 : (⟨S450000, .i32⟩ : BufTy).Contents (Elt F) → (⟨S450000x1, .i32⟩ : BufTy).Contents (Elt F)),
    StableHlo.ternary main_v286 main_v287 main_v275 main_v288 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    StableHlo.binary main_v285 main_v288 main_v289 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.unary main_arg7 main_v290 ((extractStridedSlice S1x256x256 ![4, 0, 0] · slices_S5x256x256_S1x256x256_4_0_0) : (⟨S5x256x256, .f32⟩ : BufTy).Contents (Elt F) → (⟨S1x256x256, .f32⟩ : BufTy).Contents (Elt F)),
    StableHlo.reshape main_v290 main_v291 rfl shapeCasts_S1x256x256_S256x256,
    StableHlo.binary main_v289 main_v291 main_v292 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg8 main_v293 ((extractStridedSlice S1x256 ![4, 0] · slices_S5x256_S1x256_4_0) : (⟨S5x256, .f32⟩ : BufTy).Contents (Elt F) → (⟨S1x256, .f32⟩ : BufTy).Contents (Elt F)),
    StableHlo.reshape main_v293 main_v294 rfl shapeCasts_S1x256_S256,
    StableHlo.unary main_v294 main_v295 (broadcastInDim S1x256 ![1] bcast_S256_S1x256_1 : (⟨S256, .f32⟩ : BufTy).Contents (Elt F) → (⟨S1x256, .f32⟩ : BufTy).Contents (Elt F)),
    StableHlo.unary main_v295 main_v296 (broadcastInDim S50000x256 ![0, 1] bcast_S1x256_S50000x256_0_1 : (⟨S1x256, .f32⟩ : BufTy).Contents (Elt F) → (⟨S50000x256, .f32⟩ : BufTy).Contents (Elt F)),
    StableHlo.binary main_v292 main_v296 main_v297 (addf : (⟨S50000x256, .f32⟩ : BufTy).Contents (Elt F) → (⟨S50000x256, .f32⟩ : BufTy).Contents (Elt F) → (⟨S50000x256, .f32⟩ : BufTy).Contents (Elt F)),
    StableHlo.nullary main_cst_37 (constant S_ .f32 0x00000000#32),
    StableHlo.binary main_v297 main_cst_37 main_v298 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_38 (constant S_ .f32 0x47435000#32),
    StableHlo.unary main_cst_38 main_v299 (broadcastInDim S256 ![] bcast_S_S256 : (⟨S_, .f32⟩ : BufTy).Contents (Elt F) → (⟨S256, .f32⟩ : BufTy).Contents (Elt F)),
    StableHlo.binary main_v298 main_v299 main_v300 (Host.divf : (⟨S256, .f32⟩ : BufTy).Contents (Elt F) → (⟨S256, .f32⟩ : BufTy).Contents (Elt F) → (⟨S256, .f32⟩ : BufTy).Contents (Elt F)),
    StableHlo.nullary main_c_39 (constantI S_ 32 0#32),
    StableHlo.TRef.nullary main_call12.cst (constant S_ .f32 0x00000000#32),
    StableHlo.TRef.binary (StableHlo.TRef.of main_v297 : StableHlo.TRef sig ⟨S50000x256, .f32⟩) main_call12.cst main_call12.v0 (fun x v => Host.reduceAdd x v reducesTo_S50000x256_S256_d0 h_S_),
    StableHlo.TRef.unary main_call12.v0 main_call12.v1 (broadcastInDim S1x256 ![1] bcast_S256_S1x256_1),
    StableHlo.TRef.nullary main_call12.cst_0 (constant S_ .f32 0x47435000#32),
    StableHlo.TRef.unary main_call12.cst_0 main_call12.v2 (broadcastInDim S1x256 ![] bcast_S_S1x256),
    StableHlo.TRef.binary main_call12.v1 main_call12.v2 main_call12.v3 Host.divf,
    StableHlo.TRef.unary main_call12.v3 main_call12.v4 (broadcastInDim S50000x256 ![0, 1] bcast_S1x256_S50000x256_0_1),
    StableHlo.TRef.binary (StableHlo.TRef.of main_v297 : StableHlo.TRef sig ⟨S50000x256, .f32⟩) main_call12.v4 main_call12.v5 subf,
    StableHlo.TRef.binary main_call12.v5 main_call12.v5 main_call12.v6 mulf,
    StableHlo.TRef.unary (StableHlo.TRef.of main_c_39 : StableHlo.TRef sig ⟨S_, .i32⟩) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x256_S256_d0 h_S_),
    StableHlo.TRef.unary main_call12.v8 main_call12.v10 (broadcastInDim S256 ![] bcast_S_S256),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S256 ![] bcast_S_S256),
    StableHlo.TRef.ternary main_call12.v12 main_call12.v11 main_call12.call0.v1 main_call12.call0.v2 (fun p a b => select (broadcastInDim S256 ![] bcast_S_S256 p) a b),
    StableHlo.unary main_arg9 main_v302 ((extractStridedSlice S1x256 ![4, 0] · slices_S5x256_S1x256_4_0) : (⟨S5x256, .f32⟩ : BufTy).Contents (Elt F) → (⟨S1x256, .f32⟩ : BufTy).Contents (Elt F)),
    StableHlo.reshape main_v302 main_v303 rfl shapeCasts_S1x256_S256,
    StableHlo.unary main_v300 main_v304 (broadcastInDim S1x256 ![1] bcast_S256_S1x256_1 : (⟨S256, .f32⟩ : BufTy).Contents (Elt F) → (⟨S1x256, .f32⟩ : BufTy).Contents (Elt F)),
    StableHlo.unary main_v304 main_v305 (broadcastInDim S50000x256 ![0, 1] bcast_S1x256_S50000x256_0_1 : (⟨S1x256, .f32⟩ : BufTy).Contents (Elt F) → (⟨S50000x256, .f32⟩ : BufTy).Contents (Elt F)),
    StableHlo.binary main_v297 main_v305 main_v306 (subf : (⟨S50000x256, .f32⟩ : BufTy).Contents (Elt F) → (⟨S50000x256, .f32⟩ : BufTy).Contents (Elt F) → (⟨S50000x256, .f32⟩ : BufTy).Contents (Elt F)),
    StableHlo.unary main_v303 main_v307 (broadcastInDim S1x256 ![1] bcast_S256_S1x256_1 : (⟨S256, .f32⟩ : BufTy).Contents (Elt F) → (⟨S1x256, .f32⟩ : BufTy).Contents (Elt F)),
    StableHlo.unary main_v307 main_v308 (broadcastInDim S50000x256 ![0, 1] bcast_S1x256_S50000x256_0_1 : (⟨S1x256, .f32⟩ : BufTy).Contents (Elt F) → (⟨S50000x256, .f32⟩ : BufTy).Contents (Elt F)),
    StableHlo.binary main_v308 main_v306 main_v309 (mulf : (⟨S50000x256, .f32⟩ : BufTy).Contents (Elt F) → (⟨S50000x256, .f32⟩ : BufTy).Contents (Elt F) → (⟨S50000x256, .f32⟩ : BufTy).Contents (Elt F)),
    StableHlo.nullary main_cst_40 (constant S_ .f32 0x3727C5AC#32),
    StableHlo.unary main_cst_40 main_v310 (broadcastInDim S256 ![] bcast_S_S256 : (⟨S_, .f32⟩ : BufTy).Contents (Elt F) → (⟨S256, .f32⟩ : BufTy).Contents (Elt F)),
    StableHlo.binary main_v301 main_v310 main_v311 (addf : (⟨S256, .f32⟩ : BufTy).Contents (Elt F) → (⟨S256, .f32⟩ : BufTy).Contents (Elt F) → (⟨S256, .f32⟩ : BufTy).Contents (Elt F)),
    StableHlo.unary main_v311 main_v312 (Host.rsqrt : (⟨S256, .f32⟩ : BufTy).Contents (Elt F) → (⟨S256, .f32⟩ : BufTy).Contents (Elt F)),
    StableHlo.unary main_v312 main_v313 (broadcastInDim S1x256 ![1] bcast_S256_S1x256_1 : (⟨S256, .f32⟩ : BufTy).Contents (Elt F) → (⟨S1x256, .f32⟩ : BufTy).Contents (Elt F)),
    StableHlo.unary main_v313 main_v314 (broadcastInDim S50000x256 ![0, 1] bcast_S1x256_S50000x256_0_1 : (⟨S1x256, .f32⟩ : BufTy).Contents (Elt F) → (⟨S50000x256, .f32⟩ : BufTy).Contents (Elt F)),
    StableHlo.binary main_v309 main_v314 main_v315 (mulf : (⟨S50000x256, .f32⟩ : BufTy).Contents (Elt F) → (⟨S50000x256, .f32⟩ : BufTy).Contents (Elt F) → (⟨S50000x256, .f32⟩ : BufTy).Contents (Elt F)),
    StableHlo.unary main_arg10 main_v316 ((extractStridedSlice S1x256 ![4, 0] · slices_S5x256_S1x256_4_0) : (⟨S5x256, .f32⟩ : BufTy).Contents (Elt F) → (⟨S1x256, .f32⟩ : BufTy).Contents (Elt F)) ]

/-- Operations 481 … 495, the end of layer 4: part 6 of @main, whose last operation writes the result. -/
abbrev l4b : List (HloOp τ sig (Elt F)) :=
  [ StableHlo.reshape main_v316 main_v317 rfl shapeCasts_S1x256_S256,
    StableHlo.unary main_v317 main_v318 (broadcastInDim S1x256 ![1] bcast_S256_S1x256_1 : (⟨S256, .f32⟩ : BufTy).Contents (Elt F) → (⟨S1x256, .f32⟩ : BufTy).Contents (Elt F)),
    StableHlo.unary main_v318 main_v319 (broadcastInDim S50000x256 ![0, 1] bcast_S1x256_S50000x256_0_1 : (⟨S1x256, .f32⟩ : BufTy).Contents (Elt F) → (⟨S50000x256, .f32⟩ : BufTy).Contents (Elt F)),
    StableHlo.binary main_v315 main_v319 main_v320 (addf : (⟨S50000x256, .f32⟩ : BufTy).Contents (Elt F) → (⟨S50000x256, .f32⟩ : BufTy).Contents (Elt F) → (⟨S50000x256, .f32⟩ : BufTy).Contents (Elt F)),
    StableHlo.TRef.nullary main_call13.cst (constant S_ .f32 0x00000000#32),
    StableHlo.TRef.unary main_call13.cst main_call13.v0 (broadcastInDim S50000x256 ![] bcast_S_S50000x256),
    StableHlo.TRef.binary (StableHlo.TRef.of main_v320 : StableHlo.TRef sig ⟨S50000x256, .f32⟩) main_call13.v0 main_call13.v1 maximumf,
    StableHlo.unary main_arg11 main_v322 ((extractStridedSlice S1x256x128 ![4, 0, 0] · slices_S5x256x128_S1x256x128_4_0_0) : (⟨S5x256x128, .f32⟩ : BufTy).Contents (Elt F) → (⟨S1x256x128, .f32⟩ : BufTy).Contents (Elt F)),
    StableHlo.reshape main_v322 main_v323 rfl shapeCasts_S1x256x128_S256x128,
    StableHlo.binary main_v321 main_v323 main_v324 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg12 main_v325 ((extractStridedSlice S1x128 ![4, 0] · slices_S5x128_S1x128_4_0) : (⟨S5x128, .f32⟩ : BufTy).Contents (Elt F) → (⟨S1x128, .f32⟩ : BufTy).Contents (Elt F)),
    StableHlo.reshape main_v325 main_v326 rfl shapeCasts_S1x128_S128,
    StableHlo.unary main_v326 main_v327 (broadcastInDim S1x128 ![1] bcast_S128_S1x128_1 : (⟨S128, .f32⟩ : BufTy).Contents (Elt F) → (⟨S1x128, .f32⟩ : BufTy).Contents (Elt F)),
    StableHlo.unary main_v327 main_v328 (broadcastInDim S50000x128 ![0, 1] bcast_S1x128_S50000x128_0_1 : (⟨S1x128, .f32⟩ : BufTy).Contents (Elt F) → (⟨S50000x128, .f32⟩ : BufTy).Contents (Elt F)),
    StableHlo.binary main_v324 main_v328 main_v329 (addf : (⟨S50000x128, .f32⟩ : BufTy).Contents (Elt F) → (⟨S50000x128, .f32⟩ : BufTy).Contents (Elt F) → (⟨S50000x128, .f32⟩ : BufTy).Contents (Elt F)) ]

/-- Layer 0: operations 15 … 114. It reads the self-loop-extended edge lists and attributes and the arguments. -/
abbrev layer0 : List (HloOp τ sig (Elt F)) := l0a ++ l0b
/-- Layer 1: operations 115 … 210. -/
abbrev layer1 : List (HloOp τ sig (Elt F)) := l1a ++ l1b
/-- Layer 2: operations 211 … 306. -/
abbrev layer2 : List (HloOp τ sig (Elt F)) := l2a ++ l2b
/-- Layer 3: operations 307 … 402. -/
abbrev layer3 : List (HloOp τ sig (Elt F)) := l3a ++ (l3b ++ l3c)
/-- Layer 4: operations 403 … 495. -/
abbrev layer4 : List (HloOp τ sig (Elt F)) := l4a ++ l4b

/-- @main's 496 operations, in order. -/
abbrev ops : List (HloOp τ sig (Elt F)) := opsPre ++ (layer0 ++ (layer1 ++ (layer2 ++ (layer3 ++ layer4))))

/-- The fold over two lines run one after the other is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The fold over @main's operations, layer by layer. -/
theorem after_ops (V : Valuation τ sig (Elt F)) :
    after ops V = after layer4 (after layer3 (after layer2 (after layer1 (after layer0 (after opsPre V))))) := by
  simp only [ops, after_append]

/-! ## @main is that line

Each part is its segments' concatenation by computation: a function's definition unfolds at its call, a record at its
fields, and sequencing reassociates definitionally (a program is a tree of steps; `bind` recurses on it). The parts in
order are then the whole line (`seq_append`, and `bind`'s associativity). -/

theorem part0_eq (c : Dev nD) : main_part0 (F := F) c = seq (opsPre ++ l0a) := rfl
theorem part1_eq (c : Dev nD) : main_part1 (F := F) c = seq (l0b ++ l1a) := rfl
theorem part2_eq (c : Dev nD) : main_part2 (F := F) c = seq (l1b ++ l2a) := rfl
theorem part3_eq (c : Dev nD) : main_part3 (F := F) c = seq (l2b ++ l3a) := rfl
theorem part4_eq (c : Dev nD) : main_part4 (F := F) c = seq (l3b) := rfl
theorem part5_eq (c : Dev nD) : main_part5 (F := F) c = seq (l3c ++ l4a) := rfl
theorem part6_eq (c : Dev nD) : main_part6 (F := F) c = seq (l4b) := rfl

theorem main_eq (c : Dev nD) : main (F := F) c = seq ops := by
  show (main_part0 (F := F) c >>= fun _ => main_part1 c >>= fun _ => main_part2 c >>= fun _ => main_part3 c >>= fun _ =>
      main_part4 c >>= fun _ => main_part5 c >>= fun _ => main_part6 c)
    = seq (opsPre ++ ((l0a ++ l0b) ++ ((l1a ++ l1b) ++ ((l2a ++ l2b) ++ ((l3a ++ (l3b ++ l3c)) ++ (l4a ++ l4b))))))
  rw [part0_eq, part1_eq, part2_eq, part3_eq, part4_eq, part5_eq, part6_eq]
  simp only [seq_append, bind_assoc]

/-! ## What the run asks of the operations -/

theorem scopedRefs_eq : (Finset.univ.filter fun b : Ref sig .tc => b.isScoped) = ∅ := by decide
theorem scopedSems_eq : (Finset.univ.filter fun sm : SemLoc sig => sm.isScoped .tc) = ∅ := by decide

/-- @main's thirteen arguments. -/
abbrev argRefs : List (Ref sig .tc) :=
  [main_arg0, main_arg1, main_arg2, main_arg3, main_arg4, main_arg5, main_arg6, main_arg7, main_arg8, main_arg9, main_arg10, main_arg11, main_arg12]

/-- An operation whose one written buffer is `y`, not an argument, writes no argument. -/
theorem nw {op : HloOp τ sig (Elt F)} (y : Ref sig .tc) (hw : op.writes = {Proc.devRef .tc y}) (hy : y ∉ argRefs) :
    ∀ r ∈ argRefs, Proc.devRef (τ := τ) .tc r ∉ op.writes := fun r hr hm => by
  rw [hw, Finset.mem_singleton] at hm
  exact hy (Proc.devRef_injective _ hm ▸ hr)

/-- What is used of each operation: it touches TensorCore references only, it determines its results, and it writes
    no argument of @main. -/
abbrev Good (op : HloOp τ sig (Elt F)) : Prop :=
  op.bufs ⊆ tcRefs τ sig ∧ op.fresh = ∅ ∧ ∀ r ∈ argRefs, Proc.devRef (τ := τ) .tc r ∉ op.writes

set_option maxRecDepth 8192 in
theorem good_opsPre : (opsPre : List (HloOp τ sig (Elt F))).Forall Good :=
  ⟨⟨nullary_bufs_sub .., rfl, nw main_v0 rfl (by decide)⟩, ⟨unary_bufs_sub .., rfl, nw main_v1 rfl (by decide)⟩, ⟨reshape_bufs_sub .., rfl, nw main_v2 rfl (by decide)⟩,
    ⟨binary_bufs_sub .., rfl, nw main_v3 rfl (by decide)⟩, ⟨unary_bufs_sub .., rfl, nw main_v4 rfl (by decide)⟩, ⟨reshape_bufs_sub .., rfl, nw main_v5 rfl (by decide)⟩,
    ⟨binary_bufs_sub .., rfl, nw main_v6 rfl (by decide)⟩, ⟨nullary_bufs_sub .., rfl, nw main_cst rfl (by decide)⟩, ⟨unary_bufs_sub .., rfl, nw main_v7 rfl (by decide)⟩,
    ⟨nullary_bufs_sub .., rfl, nw main_c rfl (by decide)⟩, ⟨unary_bufs_sub .., rfl, nw main_v8 rfl (by decide)⟩, ⟨nullary_bufs_sub .., rfl, nw main_cst_0 rfl (by decide)⟩,
    ⟨unary_bufs_sub .., rfl, nw main_v9 rfl (by decide)⟩, ⟨ternary_bufs_sub .., rfl, nw main_v10 rfl (by decide)⟩, ⟨binary_bufs_sub .., rfl, nw main_v11 rfl (by decide)⟩⟩

set_option maxRecDepth 8192 in
theorem good_l0a : (l0a : List (HloOp τ sig (Elt F))).Forall Good :=
  ⟨⟨unary_bufs_sub .., rfl, nw main_v12 rfl (by decide)⟩, ⟨reshape_bufs_sub .., rfl, nw main_v13 rfl (by decide)⟩, ⟨binary_bufs_sub .., rfl, nw main_v14 rfl (by decide)⟩,
    ⟨unary_bufs_sub .., rfl, nw main_v15 rfl (by decide)⟩, ⟨reshape_bufs_sub .., rfl, nw main_v16 rfl (by decide)⟩, ⟨unary_bufs_sub .., rfl, nw main_v17 rfl (by decide)⟩,
    ⟨unary_bufs_sub .., rfl, nw main_v18 rfl (by decide)⟩, ⟨binary_bufs_sub .., rfl, nw main_v19 rfl (by decide)⟩, ⟨binary_bufs_sub .., rfl, nw main_v20 rfl (by decide)⟩,
    ⟨unary_bufs_sub .., rfl, nw main_v21 rfl (by decide)⟩, ⟨unary_bufs_sub .., rfl, nw main_v22 rfl (by decide)⟩, ⟨binary_bufs_sub .., rfl, nw main_v23 rfl (by decide)⟩,
    ⟨nullary_bufs_sub .., rfl, nw main_c_1 rfl (by decide)⟩, ⟨unary_bufs_sub .., rfl, nw main_v24 rfl (by decide)⟩, ⟨binary_bufs_sub .., rfl, nw main_v25 rfl (by decide)⟩,
    ⟨nullary_bufs_sub .., rfl, nw main_c_2 rfl (by decide)⟩, ⟨unary_bufs_sub .., rfl, nw main_v26 rfl (by decide)⟩, ⟨binary_bufs_sub .., rfl, nw main_v27 rfl (by decide)⟩,
    ⟨ternary_bufs_sub .., rfl, nw main_v28 rfl (by decide)⟩, ⟨unary_bufs_sub .., rfl, nw main_v29 rfl (by decide)⟩, ⟨binary_bufs_sub .., rfl, nw main_v30 rfl (by decide)⟩,
    ⟨nullary_bufs_sub .., rfl, nw main_cst_3 rfl (by decide)⟩, ⟨unary_bufs_sub .., rfl, nw main_v31 rfl (by decide)⟩, ⟨unary_bufs_sub .., rfl, nw main_v32 rfl (by decide)⟩,
    ⟨ternary_bufs_sub .., rfl, nw main_v33 rfl (by decide)⟩, ⟨nullary_bufs_sub .., rfl, nw main_cst_4 rfl (by decide)⟩, ⟨unary_bufs_sub .., rfl, nw main_v34 rfl (by decide)⟩,
    ⟨unary_bufs_sub .., rfl, nw main_v35 rfl (by decide)⟩, ⟨ternary_bufs_sub .., rfl, nw main_v36 rfl (by decide)⟩, ⟨binary_bufs_sub .., rfl, nw main_v37 rfl (by decide)⟩,
    ⟨unary_bufs_sub .., rfl, nw main_v38 rfl (by decide)⟩, ⟨reshape_bufs_sub .., rfl, nw main_v39 rfl (by decide)⟩, ⟨binary_bufs_sub .., rfl, nw main_v40 rfl (by decide)⟩,
    ⟨unary_bufs_sub .., rfl, nw main_v41 rfl (by decide)⟩, ⟨reshape_bufs_sub .., rfl, nw main_v42 rfl (by decide)⟩, ⟨unary_bufs_sub .., rfl, nw main_v43 rfl (by decide)⟩,
    ⟨unary_bufs_sub .., rfl, nw main_v44 rfl (by decide)⟩, ⟨binary_bufs_sub .., rfl, nw main_v45 rfl (by decide)⟩, ⟨nullary_bufs_sub .., rfl, nw main_cst_5 rfl (by decide)⟩,
    ⟨binary_bufs_sub .., rfl, nw main_v46 rfl (by decide)⟩, ⟨nullary_bufs_sub .., rfl, nw main_cst_6 rfl (by decide)⟩, ⟨unary_bufs_sub .., rfl, nw main_v47 rfl (by decide)⟩,
    ⟨binary_bufs_sub .., rfl, nw main_v48 rfl (by decide)⟩, ⟨nullary_bufs_sub .., rfl, nw main_c_7 rfl (by decide)⟩, ⟨nullary_bufs_sub .., rfl, nw main_call0.cst.ref rfl (by decide)⟩,
    ⟨binary_bufs_sub .., rfl, nw main_call0.v0.ref rfl (by decide)⟩, ⟨unary_bufs_sub .., rfl, nw main_call0.v1.ref rfl (by decide)⟩, ⟨nullary_bufs_sub .., rfl, nw main_call0.cst_0.ref rfl (by decide)⟩,
    ⟨unary_bufs_sub .., rfl, nw main_call0.v2.ref rfl (by decide)⟩, ⟨binary_bufs_sub .., rfl, nw main_call0.v3.ref rfl (by decide)⟩, ⟨unary_bufs_sub .., rfl, nw main_call0.v4.ref rfl (by decide)⟩,
    ⟨binary_bufs_sub .., rfl, nw main_call0.v5.ref rfl (by decide)⟩, ⟨binary_bufs_sub .., rfl, nw main_call0.v6.ref rfl (by decide)⟩, ⟨unary_bufs_sub .., rfl, nw main_call0.v7.ref rfl (by decide)⟩,
    ⟨nullary_bufs_sub .., rfl, nw main_call0.cst_1.ref rfl (by decide)⟩, ⟨binary_bufs_sub .., rfl, nw main_call0.v8.ref rfl (by decide)⟩, ⟨nullary_bufs_sub .., rfl, nw main_call0.cst_2.ref rfl (by decide)⟩,
    ⟨binary_bufs_sub .., rfl, nw main_call0.v9.ref rfl (by decide)⟩, ⟨unary_bufs_sub .., rfl, nw main_call0.v10.ref rfl (by decide)⟩, ⟨binary_bufs_sub .., rfl, nw main_call0.v11.ref rfl (by decide)⟩,
    ⟨nullary_bufs_sub .., rfl, nw main_call0.cst_3.ref rfl (by decide)⟩, ⟨binary_bufs_sub .., rfl, nw main_call0.v12.ref rfl (by decide)⟩, ⟨nullary_bufs_sub .., rfl, nw main_call0.cst_4.ref rfl (by decide)⟩,
    ⟨unary_bufs_sub .., rfl, nw main_call0.call0.v0.ref rfl (by decide)⟩, ⟨unary_bufs_sub .., rfl, nw main_call0.call0.v1.ref rfl (by decide)⟩, ⟨ternary_bufs_sub .., rfl, nw main_call0.call0.v2.ref rfl (by decide)⟩⟩

set_option maxRecDepth 8192 in
theorem good_l0b : (l0b : List (HloOp τ sig (Elt F))).Forall Good :=
  ⟨⟨unary_bufs_sub .., rfl, nw main_v50 rfl (by decide)⟩, ⟨reshape_bufs_sub .., rfl, nw main_v51 rfl (by decide)⟩, ⟨unary_bufs_sub .., rfl, nw main_v52 rfl (by decide)⟩,
    ⟨unary_bufs_sub .., rfl, nw main_v53 rfl (by decide)⟩, ⟨binary_bufs_sub .., rfl, nw main_v54 rfl (by decide)⟩, ⟨unary_bufs_sub .., rfl, nw main_v55 rfl (by decide)⟩,
    ⟨unary_bufs_sub .., rfl, nw main_v56 rfl (by decide)⟩, ⟨binary_bufs_sub .., rfl, nw main_v57 rfl (by decide)⟩, ⟨nullary_bufs_sub .., rfl, nw main_cst_8 rfl (by decide)⟩,
    ⟨unary_bufs_sub .., rfl, nw main_v58 rfl (by decide)⟩, ⟨binary_bufs_sub .., rfl, nw main_v59 rfl (by decide)⟩, ⟨unary_bufs_sub .., rfl, nw main_v60 rfl (by decide)⟩,
    ⟨unary_bufs_sub .., rfl, nw main_v61 rfl (by decide)⟩, ⟨unary_bufs_sub .., rfl, nw main_v62 rfl (by decide)⟩, ⟨binary_bufs_sub .., rfl, nw main_v63 rfl (by decide)⟩,
    ⟨unary_bufs_sub .., rfl, nw main_v64 rfl (by decide)⟩, ⟨reshape_bufs_sub .., rfl, nw main_v65 rfl (by decide)⟩, ⟨unary_bufs_sub .., rfl, nw main_v66 rfl (by decide)⟩,
    ⟨unary_bufs_sub .., rfl, nw main_v67 rfl (by decide)⟩, ⟨binary_bufs_sub .., rfl, nw main_v68 rfl (by decide)⟩, ⟨nullary_bufs_sub .., rfl, nw main_call1.cst.ref rfl (by decide)⟩,
    ⟨unary_bufs_sub .., rfl, nw main_call1.v0.ref rfl (by decide)⟩, ⟨binary_bufs_sub .., rfl, nw main_call1.v1.ref rfl (by decide)⟩, ⟨unary_bufs_sub .., rfl, nw main_v70 rfl (by decide)⟩,
    ⟨reshape_bufs_sub .., rfl, nw main_v71 rfl (by decide)⟩, ⟨binary_bufs_sub .., rfl, nw main_v72 rfl (by decide)⟩, ⟨unary_bufs_sub .., rfl, nw main_v73 rfl (by decide)⟩,
    ⟨reshape_bufs_sub .., rfl, nw main_v74 rfl (by decide)⟩, ⟨unary_bufs_sub .., rfl, nw main_v75 rfl (by decide)⟩, ⟨unary_bufs_sub .., rfl, nw main_v76 rfl (by decide)⟩,
    ⟨binary_bufs_sub .., rfl, nw main_v77 rfl (by decide)⟩, ⟨nullary_bufs_sub .., rfl, nw main_call2.cst.ref rfl (by decide)⟩, ⟨unary_bufs_sub .., rfl, nw main_call2.v0.ref rfl (by decide)⟩,
    ⟨binary_bufs_sub .., rfl, nw main_call2.v1.ref rfl (by decide)⟩⟩

set_option maxRecDepth 8192 in
theorem good_l1a : (l1a : List (HloOp τ sig (Elt F))).Forall Good :=
  ⟨⟨unary_bufs_sub .., rfl, nw main_v79 rfl (by decide)⟩, ⟨reshape_bufs_sub .., rfl, nw main_v80 rfl (by decide)⟩, ⟨binary_bufs_sub .., rfl, nw main_v81 rfl (by decide)⟩,
    ⟨unary_bufs_sub .., rfl, nw main_v82 rfl (by decide)⟩, ⟨reshape_bufs_sub .., rfl, nw main_v83 rfl (by decide)⟩, ⟨unary_bufs_sub .., rfl, nw main_v84 rfl (by decide)⟩,
    ⟨unary_bufs_sub .., rfl, nw main_v85 rfl (by decide)⟩, ⟨binary_bufs_sub .., rfl, nw main_v86 rfl (by decide)⟩, ⟨nullary_bufs_sub .., rfl, nw main_c_9 rfl (by decide)⟩,
    ⟨unary_bufs_sub .., rfl, nw main_v87 rfl (by decide)⟩, ⟨binary_bufs_sub .., rfl, nw main_v88 rfl (by decide)⟩, ⟨nullary_bufs_sub .., rfl, nw main_c_10 rfl (by decide)⟩,
    ⟨unary_bufs_sub .., rfl, nw main_v89 rfl (by decide)⟩, ⟨binary_bufs_sub .., rfl, nw main_v90 rfl (by decide)⟩, ⟨ternary_bufs_sub .., rfl, nw main_v91 rfl (by decide)⟩,
    ⟨unary_bufs_sub .., rfl, nw main_v92 rfl (by decide)⟩, ⟨binary_bufs_sub .., rfl, nw main_v93 rfl (by decide)⟩, ⟨nullary_bufs_sub .., rfl, nw main_cst_11 rfl (by decide)⟩,
    ⟨unary_bufs_sub .., rfl, nw main_v94 rfl (by decide)⟩, ⟨unary_bufs_sub .., rfl, nw main_v95 rfl (by decide)⟩, ⟨ternary_bufs_sub .., rfl, nw main_v96 rfl (by decide)⟩,
    ⟨nullary_bufs_sub .., rfl, nw main_cst_12 rfl (by decide)⟩, ⟨unary_bufs_sub .., rfl, nw main_v97 rfl (by decide)⟩, ⟨unary_bufs_sub .., rfl, nw main_v98 rfl (by decide)⟩,
    ⟨ternary_bufs_sub .., rfl, nw main_v99 rfl (by decide)⟩, ⟨binary_bufs_sub .., rfl, nw main_v100 rfl (by decide)⟩, ⟨unary_bufs_sub .., rfl, nw main_v101 rfl (by decide)⟩,
    ⟨reshape_bufs_sub .., rfl, nw main_v102 rfl (by decide)⟩, ⟨binary_bufs_sub .., rfl, nw main_v103 rfl (by decide)⟩, ⟨unary_bufs_sub .., rfl, nw main_v104 rfl (by decide)⟩⟩

set_option maxRecDepth 8192 in
theorem good_l1b : (l1b : List (HloOp τ sig (Elt F))).Forall Good :=
  ⟨⟨reshape_bufs_sub .., rfl, nw main_v105 rfl (by decide)⟩, ⟨unary_bufs_sub .., rfl, nw main_v106 rfl (by decide)⟩, ⟨unary_bufs_sub .., rfl, nw main_v107 rfl (by decide)⟩,
    ⟨binary_bufs_sub .., rfl, nw main_v108 rfl (by decide)⟩, ⟨nullary_bufs_sub .., rfl, nw main_cst_13 rfl (by decide)⟩, ⟨binary_bufs_sub .., rfl, nw main_v109 rfl (by decide)⟩,
    ⟨nullary_bufs_sub .., rfl, nw main_cst_14 rfl (by decide)⟩, ⟨unary_bufs_sub .., rfl, nw main_v110 rfl (by decide)⟩, ⟨binary_bufs_sub .., rfl, nw main_v111 rfl (by decide)⟩,
    ⟨nullary_bufs_sub .., rfl, nw main_c_15 rfl (by decide)⟩, ⟨nullary_bufs_sub .., rfl, nw main_call3.cst.ref rfl (by decide)⟩, ⟨binary_bufs_sub .., rfl, nw main_call3.v0.ref rfl (by decide)⟩,
    ⟨unary_bufs_sub .., rfl, nw main_call3.v1.ref rfl (by decide)⟩, ⟨nullary_bufs_sub .., rfl, nw main_call3.cst_0.ref rfl (by decide)⟩, ⟨unary_bufs_sub .., rfl, nw main_call3.v2.ref rfl (by decide)⟩,
    ⟨binary_bufs_sub .., rfl, nw main_call3.v3.ref rfl (by decide)⟩, ⟨unary_bufs_sub .., rfl, nw main_call3.v4.ref rfl (by decide)⟩, ⟨binary_bufs_sub .., rfl, nw main_call3.v5.ref rfl (by decide)⟩,
    ⟨binary_bufs_sub .., rfl, nw main_call3.v6.ref rfl (by decide)⟩, ⟨unary_bufs_sub .., rfl, nw main_call3.v7.ref rfl (by decide)⟩, ⟨nullary_bufs_sub .., rfl, nw main_call3.cst_1.ref rfl (by decide)⟩,
    ⟨binary_bufs_sub .., rfl, nw main_call3.v8.ref rfl (by decide)⟩, ⟨nullary_bufs_sub .., rfl, nw main_call3.cst_2.ref rfl (by decide)⟩, ⟨binary_bufs_sub .., rfl, nw main_call3.v9.ref rfl (by decide)⟩,
    ⟨unary_bufs_sub .., rfl, nw main_call3.v10.ref rfl (by decide)⟩, ⟨binary_bufs_sub .., rfl, nw main_call3.v11.ref rfl (by decide)⟩, ⟨nullary_bufs_sub .., rfl, nw main_call3.cst_3.ref rfl (by decide)⟩,
    ⟨binary_bufs_sub .., rfl, nw main_call3.v12.ref rfl (by decide)⟩, ⟨nullary_bufs_sub .., rfl, nw main_call3.cst_4.ref rfl (by decide)⟩, ⟨unary_bufs_sub .., rfl, nw main_call3.call0.v0.ref rfl (by decide)⟩,
    ⟨unary_bufs_sub .., rfl, nw main_call3.call0.v1.ref rfl (by decide)⟩, ⟨ternary_bufs_sub .., rfl, nw main_call3.call0.v2.ref rfl (by decide)⟩, ⟨unary_bufs_sub .., rfl, nw main_v113 rfl (by decide)⟩,
    ⟨reshape_bufs_sub .., rfl, nw main_v114 rfl (by decide)⟩, ⟨unary_bufs_sub .., rfl, nw main_v115 rfl (by decide)⟩, ⟨unary_bufs_sub .., rfl, nw main_v116 rfl (by decide)⟩,
    ⟨binary_bufs_sub .., rfl, nw main_v117 rfl (by decide)⟩, ⟨unary_bufs_sub .., rfl, nw main_v118 rfl (by decide)⟩, ⟨unary_bufs_sub .., rfl, nw main_v119 rfl (by decide)⟩,
    ⟨binary_bufs_sub .., rfl, nw main_v120 rfl (by decide)⟩, ⟨nullary_bufs_sub .., rfl, nw main_cst_16 rfl (by decide)⟩, ⟨unary_bufs_sub .., rfl, nw main_v121 rfl (by decide)⟩,
    ⟨binary_bufs_sub .., rfl, nw main_v122 rfl (by decide)⟩, ⟨unary_bufs_sub .., rfl, nw main_v123 rfl (by decide)⟩, ⟨unary_bufs_sub .., rfl, nw main_v124 rfl (by decide)⟩,
    ⟨unary_bufs_sub .., rfl, nw main_v125 rfl (by decide)⟩, ⟨binary_bufs_sub .., rfl, nw main_v126 rfl (by decide)⟩, ⟨unary_bufs_sub .., rfl, nw main_v127 rfl (by decide)⟩,
    ⟨reshape_bufs_sub .., rfl, nw main_v128 rfl (by decide)⟩, ⟨unary_bufs_sub .., rfl, nw main_v129 rfl (by decide)⟩, ⟨unary_bufs_sub .., rfl, nw main_v130 rfl (by decide)⟩,
    ⟨binary_bufs_sub .., rfl, nw main_v131 rfl (by decide)⟩, ⟨nullary_bufs_sub .., rfl, nw main_call4.cst.ref rfl (by decide)⟩, ⟨unary_bufs_sub .., rfl, nw main_call4.v0.ref rfl (by decide)⟩,
    ⟨binary_bufs_sub .., rfl, nw main_call4.v1.ref rfl (by decide)⟩, ⟨unary_bufs_sub .., rfl, nw main_v133 rfl (by decide)⟩, ⟨reshape_bufs_sub .., rfl, nw main_v134 rfl (by decide)⟩,
    ⟨binary_bufs_sub .., rfl, nw main_v135 rfl (by decide)⟩, ⟨unary_bufs_sub .., rfl, nw main_v136 rfl (by decide)⟩, ⟨reshape_bufs_sub .., rfl, nw main_v137 rfl (by decide)⟩,
    ⟨unary_bufs_sub .., rfl, nw main_v138 rfl (by decide)⟩, ⟨unary_bufs_sub .., rfl, nw main_v139 rfl (by decide)⟩, ⟨binary_bufs_sub .., rfl, nw main_v140 rfl (by decide)⟩,
    ⟨nullary_bufs_sub .., rfl, nw main_call5.cst.ref rfl (by decide)⟩, ⟨unary_bufs_sub .., rfl, nw main_call5.v0.ref rfl (by decide)⟩, ⟨binary_bufs_sub .., rfl, nw main_call5.v1.ref rfl (by decide)⟩⟩

set_option maxRecDepth 8192 in
theorem good_l2a : (l2a : List (HloOp τ sig (Elt F))).Forall Good :=
  ⟨⟨unary_bufs_sub .., rfl, nw main_v142 rfl (by decide)⟩, ⟨reshape_bufs_sub .., rfl, nw main_v143 rfl (by decide)⟩, ⟨binary_bufs_sub .., rfl, nw main_v144 rfl (by decide)⟩,
    ⟨unary_bufs_sub .., rfl, nw main_v145 rfl (by decide)⟩, ⟨reshape_bufs_sub .., rfl, nw main_v146 rfl (by decide)⟩, ⟨unary_bufs_sub .., rfl, nw main_v147 rfl (by decide)⟩,
    ⟨unary_bufs_sub .., rfl, nw main_v148 rfl (by decide)⟩, ⟨binary_bufs_sub .., rfl, nw main_v149 rfl (by decide)⟩, ⟨nullary_bufs_sub .., rfl, nw main_c_17 rfl (by decide)⟩,
    ⟨unary_bufs_sub .., rfl, nw main_v150 rfl (by decide)⟩, ⟨binary_bufs_sub .., rfl, nw main_v151 rfl (by decide)⟩, ⟨nullary_bufs_sub .., rfl, nw main_c_18 rfl (by decide)⟩,
    ⟨unary_bufs_sub .., rfl, nw main_v152 rfl (by decide)⟩, ⟨binary_bufs_sub .., rfl, nw main_v153 rfl (by decide)⟩, ⟨ternary_bufs_sub .., rfl, nw main_v154 rfl (by decide)⟩,
    ⟨unary_bufs_sub .., rfl, nw main_v155 rfl (by decide)⟩, ⟨binary_bufs_sub .., rfl, nw main_v156 rfl (by decide)⟩, ⟨nullary_bufs_sub .., rfl, nw main_cst_19 rfl (by decide)⟩,
    ⟨unary_bufs_sub .., rfl, nw main_v157 rfl (by decide)⟩⟩

set_option maxRecDepth 8192 in
theorem good_l2b : (l2b : List (HloOp τ sig (Elt F))).Forall Good :=
  ⟨⟨unary_bufs_sub .., rfl, nw main_v158 rfl (by decide)⟩, ⟨ternary_bufs_sub .., rfl, nw main_v159 rfl (by decide)⟩, ⟨nullary_bufs_sub .., rfl, nw main_cst_20 rfl (by decide)⟩,
    ⟨unary_bufs_sub .., rfl, nw main_v160 rfl (by decide)⟩, ⟨unary_bufs_sub .., rfl, nw main_v161 rfl (by decide)⟩, ⟨ternary_bufs_sub .., rfl, nw main_v162 rfl (by decide)⟩,
    ⟨binary_bufs_sub .., rfl, nw main_v163 rfl (by decide)⟩, ⟨unary_bufs_sub .., rfl, nw main_v164 rfl (by decide)⟩, ⟨reshape_bufs_sub .., rfl, nw main_v165 rfl (by decide)⟩,
    ⟨binary_bufs_sub .., rfl, nw main_v166 rfl (by decide)⟩, ⟨unary_bufs_sub .., rfl, nw main_v167 rfl (by decide)⟩, ⟨reshape_bufs_sub .., rfl, nw main_v168 rfl (by decide)⟩,
    ⟨unary_bufs_sub .., rfl, nw main_v169 rfl (by decide)⟩, ⟨unary_bufs_sub .., rfl, nw main_v170 rfl (by decide)⟩, ⟨binary_bufs_sub .., rfl, nw main_v171 rfl (by decide)⟩,
    ⟨nullary_bufs_sub .., rfl, nw main_cst_21 rfl (by decide)⟩, ⟨binary_bufs_sub .., rfl, nw main_v172 rfl (by decide)⟩, ⟨nullary_bufs_sub .., rfl, nw main_cst_22 rfl (by decide)⟩,
    ⟨unary_bufs_sub .., rfl, nw main_v173 rfl (by decide)⟩, ⟨binary_bufs_sub .., rfl, nw main_v174 rfl (by decide)⟩, ⟨nullary_bufs_sub .., rfl, nw main_c_23 rfl (by decide)⟩,
    ⟨nullary_bufs_sub .., rfl, nw main_call6.cst.ref rfl (by decide)⟩, ⟨binary_bufs_sub .., rfl, nw main_call6.v0.ref rfl (by decide)⟩, ⟨unary_bufs_sub .., rfl, nw main_call6.v1.ref rfl (by decide)⟩,
    ⟨nullary_bufs_sub .., rfl, nw main_call6.cst_0.ref rfl (by decide)⟩, ⟨unary_bufs_sub .., rfl, nw main_call6.v2.ref rfl (by decide)⟩, ⟨binary_bufs_sub .., rfl, nw main_call6.v3.ref rfl (by decide)⟩,
    ⟨unary_bufs_sub .., rfl, nw main_call6.v4.ref rfl (by decide)⟩, ⟨binary_bufs_sub .., rfl, nw main_call6.v5.ref rfl (by decide)⟩, ⟨binary_bufs_sub .., rfl, nw main_call6.v6.ref rfl (by decide)⟩,
    ⟨unary_bufs_sub .., rfl, nw main_call6.v7.ref rfl (by decide)⟩, ⟨nullary_bufs_sub .., rfl, nw main_call6.cst_1.ref rfl (by decide)⟩, ⟨binary_bufs_sub .., rfl, nw main_call6.v8.ref rfl (by decide)⟩,
    ⟨nullary_bufs_sub .., rfl, nw main_call6.cst_2.ref rfl (by decide)⟩, ⟨binary_bufs_sub .., rfl, nw main_call6.v9.ref rfl (by decide)⟩, ⟨unary_bufs_sub .., rfl, nw main_call6.v10.ref rfl (by decide)⟩,
    ⟨binary_bufs_sub .., rfl, nw main_call6.v11.ref rfl (by decide)⟩, ⟨nullary_bufs_sub .., rfl, nw main_call6.cst_3.ref rfl (by decide)⟩, ⟨binary_bufs_sub .., rfl, nw main_call6.v12.ref rfl (by decide)⟩,
    ⟨nullary_bufs_sub .., rfl, nw main_call6.cst_4.ref rfl (by decide)⟩, ⟨unary_bufs_sub .., rfl, nw main_call6.call0.v0.ref rfl (by decide)⟩, ⟨unary_bufs_sub .., rfl, nw main_call6.call0.v1.ref rfl (by decide)⟩,
    ⟨ternary_bufs_sub .., rfl, nw main_call6.call0.v2.ref rfl (by decide)⟩, ⟨unary_bufs_sub .., rfl, nw main_v176 rfl (by decide)⟩, ⟨reshape_bufs_sub .., rfl, nw main_v177 rfl (by decide)⟩,
    ⟨unary_bufs_sub .., rfl, nw main_v178 rfl (by decide)⟩, ⟨unary_bufs_sub .., rfl, nw main_v179 rfl (by decide)⟩, ⟨binary_bufs_sub .., rfl, nw main_v180 rfl (by decide)⟩,
    ⟨unary_bufs_sub .., rfl, nw main_v181 rfl (by decide)⟩, ⟨unary_bufs_sub .., rfl, nw main_v182 rfl (by decide)⟩, ⟨binary_bufs_sub .., rfl, nw main_v183 rfl (by decide)⟩,
    ⟨nullary_bufs_sub .., rfl, nw main_cst_24 rfl (by decide)⟩, ⟨unary_bufs_sub .., rfl, nw main_v184 rfl (by decide)⟩, ⟨binary_bufs_sub .., rfl, nw main_v185 rfl (by decide)⟩,
    ⟨unary_bufs_sub .., rfl, nw main_v186 rfl (by decide)⟩, ⟨unary_bufs_sub .., rfl, nw main_v187 rfl (by decide)⟩, ⟨unary_bufs_sub .., rfl, nw main_v188 rfl (by decide)⟩,
    ⟨binary_bufs_sub .., rfl, nw main_v189 rfl (by decide)⟩, ⟨unary_bufs_sub .., rfl, nw main_v190 rfl (by decide)⟩, ⟨reshape_bufs_sub .., rfl, nw main_v191 rfl (by decide)⟩,
    ⟨unary_bufs_sub .., rfl, nw main_v192 rfl (by decide)⟩, ⟨unary_bufs_sub .., rfl, nw main_v193 rfl (by decide)⟩, ⟨binary_bufs_sub .., rfl, nw main_v194 rfl (by decide)⟩,
    ⟨nullary_bufs_sub .., rfl, nw main_call7.cst.ref rfl (by decide)⟩, ⟨unary_bufs_sub .., rfl, nw main_call7.v0.ref rfl (by decide)⟩, ⟨binary_bufs_sub .., rfl, nw main_call7.v1.ref rfl (by decide)⟩,
    ⟨unary_bufs_sub .., rfl, nw main_v196 rfl (by decide)⟩, ⟨reshape_bufs_sub .., rfl, nw main_v197 rfl (by decide)⟩, ⟨binary_bufs_sub .., rfl, nw main_v198 rfl (by decide)⟩,
    ⟨unary_bufs_sub .., rfl, nw main_v199 rfl (by decide)⟩, ⟨reshape_bufs_sub .., rfl, nw main_v200 rfl (by decide)⟩, ⟨unary_bufs_sub .., rfl, nw main_v201 rfl (by decide)⟩,
    ⟨unary_bufs_sub .., rfl, nw main_v202 rfl (by decide)⟩, ⟨binary_bufs_sub .., rfl, nw main_v203 rfl (by decide)⟩, ⟨nullary_bufs_sub .., rfl, nw main_call8.cst.ref rfl (by decide)⟩,
    ⟨unary_bufs_sub .., rfl, nw main_call8.v0.ref rfl (by decide)⟩, ⟨binary_bufs_sub .., rfl, nw main_call8.v1.ref rfl (by decide)⟩⟩

set_option maxRecDepth 8192 in
theorem good_l3a : (l3a : List (HloOp τ sig (Elt F))).Forall Good :=
  ⟨⟨unary_bufs_sub .., rfl, nw main_v205 rfl (by decide)⟩, ⟨reshape_bufs_sub .., rfl, nw main_v206 rfl (by decide)⟩, ⟨binary_bufs_sub .., rfl, nw main_v207 rfl (by decide)⟩,
    ⟨unary_bufs_sub .., rfl, nw main_v208 rfl (by decide)⟩, ⟨reshape_bufs_sub .., rfl, nw main_v209 rfl (by decide)⟩, ⟨unary_bufs_sub .., rfl, nw main_v210 rfl (by decide)⟩,
    ⟨unary_bufs_sub .., rfl, nw main_v211 rfl (by decide)⟩, ⟨binary_bufs_sub .., rfl, nw main_v212 rfl (by decide)⟩⟩

set_option maxRecDepth 8192 in
theorem good_l3b : (l3b : List (HloOp τ sig (Elt F))).Forall Good :=
  ⟨⟨nullary_bufs_sub .., rfl, nw main_c_25 rfl (by decide)⟩, ⟨unary_bufs_sub .., rfl, nw main_v213 rfl (by decide)⟩, ⟨binary_bufs_sub .., rfl, nw main_v214 rfl (by decide)⟩,
    ⟨nullary_bufs_sub .., rfl, nw main_c_26 rfl (by decide)⟩, ⟨unary_bufs_sub .., rfl, nw main_v215 rfl (by decide)⟩, ⟨binary_bufs_sub .., rfl, nw main_v216 rfl (by decide)⟩,
    ⟨ternary_bufs_sub .., rfl, nw main_v217 rfl (by decide)⟩, ⟨unary_bufs_sub .., rfl, nw main_v218 rfl (by decide)⟩, ⟨binary_bufs_sub .., rfl, nw main_v219 rfl (by decide)⟩,
    ⟨nullary_bufs_sub .., rfl, nw main_cst_27 rfl (by decide)⟩, ⟨unary_bufs_sub .., rfl, nw main_v220 rfl (by decide)⟩, ⟨unary_bufs_sub .., rfl, nw main_v221 rfl (by decide)⟩,
    ⟨ternary_bufs_sub .., rfl, nw main_v222 rfl (by decide)⟩, ⟨nullary_bufs_sub .., rfl, nw main_cst_28 rfl (by decide)⟩, ⟨unary_bufs_sub .., rfl, nw main_v223 rfl (by decide)⟩,
    ⟨unary_bufs_sub .., rfl, nw main_v224 rfl (by decide)⟩, ⟨ternary_bufs_sub .., rfl, nw main_v225 rfl (by decide)⟩, ⟨binary_bufs_sub .., rfl, nw main_v226 rfl (by decide)⟩,
    ⟨unary_bufs_sub .., rfl, nw main_v227 rfl (by decide)⟩, ⟨reshape_bufs_sub .., rfl, nw main_v228 rfl (by decide)⟩, ⟨binary_bufs_sub .., rfl, nw main_v229 rfl (by decide)⟩,
    ⟨unary_bufs_sub .., rfl, nw main_v230 rfl (by decide)⟩, ⟨reshape_bufs_sub .., rfl, nw main_v231 rfl (by decide)⟩, ⟨unary_bufs_sub .., rfl, nw main_v232 rfl (by decide)⟩,
    ⟨unary_bufs_sub .., rfl, nw main_v233 rfl (by decide)⟩, ⟨binary_bufs_sub .., rfl, nw main_v234 rfl (by decide)⟩, ⟨nullary_bufs_sub .., rfl, nw main_cst_29 rfl (by decide)⟩,
    ⟨binary_bufs_sub .., rfl, nw main_v235 rfl (by decide)⟩, ⟨nullary_bufs_sub .., rfl, nw main_cst_30 rfl (by decide)⟩, ⟨unary_bufs_sub .., rfl, nw main_v236 rfl (by decide)⟩,
    ⟨binary_bufs_sub .., rfl, nw main_v237 rfl (by decide)⟩, ⟨nullary_bufs_sub .., rfl, nw main_c_31 rfl (by decide)⟩, ⟨nullary_bufs_sub .., rfl, nw main_call9.cst.ref rfl (by decide)⟩,
    ⟨binary_bufs_sub .., rfl, nw main_call9.v0.ref rfl (by decide)⟩, ⟨unary_bufs_sub .., rfl, nw main_call9.v1.ref rfl (by decide)⟩, ⟨nullary_bufs_sub .., rfl, nw main_call9.cst_0.ref rfl (by decide)⟩,
    ⟨unary_bufs_sub .., rfl, nw main_call9.v2.ref rfl (by decide)⟩, ⟨binary_bufs_sub .., rfl, nw main_call9.v3.ref rfl (by decide)⟩, ⟨unary_bufs_sub .., rfl, nw main_call9.v4.ref rfl (by decide)⟩,
    ⟨binary_bufs_sub .., rfl, nw main_call9.v5.ref rfl (by decide)⟩, ⟨binary_bufs_sub .., rfl, nw main_call9.v6.ref rfl (by decide)⟩, ⟨unary_bufs_sub .., rfl, nw main_call9.v7.ref rfl (by decide)⟩,
    ⟨nullary_bufs_sub .., rfl, nw main_call9.cst_1.ref rfl (by decide)⟩, ⟨binary_bufs_sub .., rfl, nw main_call9.v8.ref rfl (by decide)⟩, ⟨nullary_bufs_sub .., rfl, nw main_call9.cst_2.ref rfl (by decide)⟩,
    ⟨binary_bufs_sub .., rfl, nw main_call9.v9.ref rfl (by decide)⟩, ⟨unary_bufs_sub .., rfl, nw main_call9.v10.ref rfl (by decide)⟩, ⟨binary_bufs_sub .., rfl, nw main_call9.v11.ref rfl (by decide)⟩,
    ⟨nullary_bufs_sub .., rfl, nw main_call9.cst_3.ref rfl (by decide)⟩, ⟨binary_bufs_sub .., rfl, nw main_call9.v12.ref rfl (by decide)⟩, ⟨nullary_bufs_sub .., rfl, nw main_call9.cst_4.ref rfl (by decide)⟩,
    ⟨unary_bufs_sub .., rfl, nw main_call9.call0.v0.ref rfl (by decide)⟩, ⟨unary_bufs_sub .., rfl, nw main_call9.call0.v1.ref rfl (by decide)⟩, ⟨ternary_bufs_sub .., rfl, nw main_call9.call0.v2.ref rfl (by decide)⟩,
    ⟨unary_bufs_sub .., rfl, nw main_v239 rfl (by decide)⟩, ⟨reshape_bufs_sub .., rfl, nw main_v240 rfl (by decide)⟩, ⟨unary_bufs_sub .., rfl, nw main_v241 rfl (by decide)⟩,
    ⟨unary_bufs_sub .., rfl, nw main_v242 rfl (by decide)⟩, ⟨binary_bufs_sub .., rfl, nw main_v243 rfl (by decide)⟩, ⟨unary_bufs_sub .., rfl, nw main_v244 rfl (by decide)⟩,
    ⟨unary_bufs_sub .., rfl, nw main_v245 rfl (by decide)⟩, ⟨binary_bufs_sub .., rfl, nw main_v246 rfl (by decide)⟩, ⟨nullary_bufs_sub .., rfl, nw main_cst_32 rfl (by decide)⟩,
    ⟨unary_bufs_sub .., rfl, nw main_v247 rfl (by decide)⟩, ⟨binary_bufs_sub .., rfl, nw main_v248 rfl (by decide)⟩, ⟨unary_bufs_sub .., rfl, nw main_v249 rfl (by decide)⟩,
    ⟨unary_bufs_sub .., rfl, nw main_v250 rfl (by decide)⟩, ⟨unary_bufs_sub .., rfl, nw main_v251 rfl (by decide)⟩, ⟨binary_bufs_sub .., rfl, nw main_v252 rfl (by decide)⟩,
    ⟨unary_bufs_sub .., rfl, nw main_v253 rfl (by decide)⟩, ⟨reshape_bufs_sub .., rfl, nw main_v254 rfl (by decide)⟩, ⟨unary_bufs_sub .., rfl, nw main_v255 rfl (by decide)⟩,
    ⟨unary_bufs_sub .., rfl, nw main_v256 rfl (by decide)⟩, ⟨binary_bufs_sub .., rfl, nw main_v257 rfl (by decide)⟩, ⟨nullary_bufs_sub .., rfl, nw main_call10.cst.ref rfl (by decide)⟩,
    ⟨unary_bufs_sub .., rfl, nw main_call10.v0.ref rfl (by decide)⟩, ⟨binary_bufs_sub .., rfl, nw main_call10.v1.ref rfl (by decide)⟩, ⟨unary_bufs_sub .., rfl, nw main_v259 rfl (by decide)⟩,
    ⟨reshape_bufs_sub .., rfl, nw main_v260 rfl (by decide)⟩, ⟨binary_bufs_sub .., rfl, nw main_v261 rfl (by decide)⟩, ⟨unary_bufs_sub .., rfl, nw main_v262 rfl (by decide)⟩,
    ⟨reshape_bufs_sub .., rfl, nw main_v263 rfl (by decide)⟩, ⟨unary_bufs_sub .., rfl, nw main_v264 rfl (by decide)⟩⟩

set_option maxRecDepth 8192 in
theorem good_l3c : (l3c : List (HloOp τ sig (Elt F))).Forall Good :=
  ⟨⟨unary_bufs_sub .., rfl, nw main_v265 rfl (by decide)⟩, ⟨binary_bufs_sub .., rfl, nw main_v266 rfl (by decide)⟩, ⟨nullary_bufs_sub .., rfl, nw main_call11.cst.ref rfl (by decide)⟩,
    ⟨unary_bufs_sub .., rfl, nw main_call11.v0.ref rfl (by decide)⟩, ⟨binary_bufs_sub .., rfl, nw main_call11.v1.ref rfl (by decide)⟩⟩

set_option maxRecDepth 8192 in
theorem good_l4a : (l4a : List (HloOp τ sig (Elt F))).Forall Good :=
  ⟨⟨unary_bufs_sub .., rfl, nw main_v268 rfl (by decide)⟩, ⟨reshape_bufs_sub .., rfl, nw main_v269 rfl (by decide)⟩, ⟨binary_bufs_sub .., rfl, nw main_v270 rfl (by decide)⟩,
    ⟨unary_bufs_sub .., rfl, nw main_v271 rfl (by decide)⟩, ⟨reshape_bufs_sub .., rfl, nw main_v272 rfl (by decide)⟩, ⟨unary_bufs_sub .., rfl, nw main_v273 rfl (by decide)⟩,
    ⟨unary_bufs_sub .., rfl, nw main_v274 rfl (by decide)⟩, ⟨binary_bufs_sub .., rfl, nw main_v275 rfl (by decide)⟩, ⟨nullary_bufs_sub .., rfl, nw main_c_33 rfl (by decide)⟩,
    ⟨unary_bufs_sub .., rfl, nw main_v276 rfl (by decide)⟩, ⟨binary_bufs_sub .., rfl, nw main_v277 rfl (by decide)⟩, ⟨nullary_bufs_sub .., rfl, nw main_c_34 rfl (by decide)⟩,
    ⟨unary_bufs_sub .., rfl, nw main_v278 rfl (by decide)⟩, ⟨binary_bufs_sub .., rfl, nw main_v279 rfl (by decide)⟩, ⟨ternary_bufs_sub .., rfl, nw main_v280 rfl (by decide)⟩,
    ⟨unary_bufs_sub .., rfl, nw main_v281 rfl (by decide)⟩, ⟨binary_bufs_sub .., rfl, nw main_v282 rfl (by decide)⟩, ⟨nullary_bufs_sub .., rfl, nw main_cst_35 rfl (by decide)⟩,
    ⟨unary_bufs_sub .., rfl, nw main_v283 rfl (by decide)⟩, ⟨unary_bufs_sub .., rfl, nw main_v284 rfl (by decide)⟩, ⟨ternary_bufs_sub .., rfl, nw main_v285 rfl (by decide)⟩,
    ⟨nullary_bufs_sub .., rfl, nw main_cst_36 rfl (by decide)⟩, ⟨unary_bufs_sub .., rfl, nw main_v286 rfl (by decide)⟩, ⟨unary_bufs_sub .., rfl, nw main_v287 rfl (by decide)⟩,
    ⟨ternary_bufs_sub .., rfl, nw main_v288 rfl (by decide)⟩, ⟨binary_bufs_sub .., rfl, nw main_v289 rfl (by decide)⟩, ⟨unary_bufs_sub .., rfl, nw main_v290 rfl (by decide)⟩,
    ⟨reshape_bufs_sub .., rfl, nw main_v291 rfl (by decide)⟩, ⟨binary_bufs_sub .., rfl, nw main_v292 rfl (by decide)⟩, ⟨unary_bufs_sub .., rfl, nw main_v293 rfl (by decide)⟩,
    ⟨reshape_bufs_sub .., rfl, nw main_v294 rfl (by decide)⟩, ⟨unary_bufs_sub .., rfl, nw main_v295 rfl (by decide)⟩, ⟨unary_bufs_sub .., rfl, nw main_v296 rfl (by decide)⟩,
    ⟨binary_bufs_sub .., rfl, nw main_v297 rfl (by decide)⟩, ⟨nullary_bufs_sub .., rfl, nw main_cst_37 rfl (by decide)⟩, ⟨binary_bufs_sub .., rfl, nw main_v298 rfl (by decide)⟩,
    ⟨nullary_bufs_sub .., rfl, nw main_cst_38 rfl (by decide)⟩, ⟨unary_bufs_sub .., rfl, nw main_v299 rfl (by decide)⟩, ⟨binary_bufs_sub .., rfl, nw main_v300 rfl (by decide)⟩,
    ⟨nullary_bufs_sub .., rfl, nw main_c_39 rfl (by decide)⟩, ⟨nullary_bufs_sub .., rfl, nw main_call12.cst.ref rfl (by decide)⟩, ⟨binary_bufs_sub .., rfl, nw main_call12.v0.ref rfl (by decide)⟩,
    ⟨unary_bufs_sub .., rfl, nw main_call12.v1.ref rfl (by decide)⟩, ⟨nullary_bufs_sub .., rfl, nw main_call12.cst_0.ref rfl (by decide)⟩, ⟨unary_bufs_sub .., rfl, nw main_call12.v2.ref rfl (by decide)⟩,
    ⟨binary_bufs_sub .., rfl, nw main_call12.v3.ref rfl (by decide)⟩, ⟨unary_bufs_sub .., rfl, nw main_call12.v4.ref rfl (by decide)⟩, ⟨binary_bufs_sub .., rfl, nw main_call12.v5.ref rfl (by decide)⟩,
    ⟨binary_bufs_sub .., rfl, nw main_call12.v6.ref rfl (by decide)⟩, ⟨unary_bufs_sub .., rfl, nw main_call12.v7.ref rfl (by decide)⟩, ⟨nullary_bufs_sub .., rfl, nw main_call12.cst_1.ref rfl (by decide)⟩,
    ⟨binary_bufs_sub .., rfl, nw main_call12.v8.ref rfl (by decide)⟩, ⟨nullary_bufs_sub .., rfl, nw main_call12.cst_2.ref rfl (by decide)⟩, ⟨binary_bufs_sub .., rfl, nw main_call12.v9.ref rfl (by decide)⟩,
    ⟨unary_bufs_sub .., rfl, nw main_call12.v10.ref rfl (by decide)⟩, ⟨binary_bufs_sub .., rfl, nw main_call12.v11.ref rfl (by decide)⟩, ⟨nullary_bufs_sub .., rfl, nw main_call12.cst_3.ref rfl (by decide)⟩,
    ⟨binary_bufs_sub .., rfl, nw main_call12.v12.ref rfl (by decide)⟩, ⟨nullary_bufs_sub .., rfl, nw main_call12.cst_4.ref rfl (by decide)⟩, ⟨unary_bufs_sub .., rfl, nw main_call12.call0.v0.ref rfl (by decide)⟩,
    ⟨unary_bufs_sub .., rfl, nw main_call12.call0.v1.ref rfl (by decide)⟩, ⟨ternary_bufs_sub .., rfl, nw main_call12.call0.v2.ref rfl (by decide)⟩, ⟨unary_bufs_sub .., rfl, nw main_v302 rfl (by decide)⟩,
    ⟨reshape_bufs_sub .., rfl, nw main_v303 rfl (by decide)⟩, ⟨unary_bufs_sub .., rfl, nw main_v304 rfl (by decide)⟩, ⟨unary_bufs_sub .., rfl, nw main_v305 rfl (by decide)⟩,
    ⟨binary_bufs_sub .., rfl, nw main_v306 rfl (by decide)⟩, ⟨unary_bufs_sub .., rfl, nw main_v307 rfl (by decide)⟩, ⟨unary_bufs_sub .., rfl, nw main_v308 rfl (by decide)⟩,
    ⟨binary_bufs_sub .., rfl, nw main_v309 rfl (by decide)⟩, ⟨nullary_bufs_sub .., rfl, nw main_cst_40 rfl (by decide)⟩, ⟨unary_bufs_sub .., rfl, nw main_v310 rfl (by decide)⟩,
    ⟨binary_bufs_sub .., rfl, nw main_v311 rfl (by decide)⟩, ⟨unary_bufs_sub .., rfl, nw main_v312 rfl (by decide)⟩, ⟨unary_bufs_sub .., rfl, nw main_v313 rfl (by decide)⟩,
    ⟨unary_bufs_sub .., rfl, nw main_v314 rfl (by decide)⟩, ⟨binary_bufs_sub .., rfl, nw main_v315 rfl (by decide)⟩, ⟨unary_bufs_sub .., rfl, nw main_v316 rfl (by decide)⟩⟩

set_option maxRecDepth 8192 in
theorem good_l4b : (l4b : List (HloOp τ sig (Elt F))).Forall Good :=
  ⟨⟨reshape_bufs_sub .., rfl, nw main_v317 rfl (by decide)⟩, ⟨unary_bufs_sub .., rfl, nw main_v318 rfl (by decide)⟩, ⟨unary_bufs_sub .., rfl, nw main_v319 rfl (by decide)⟩,
    ⟨binary_bufs_sub .., rfl, nw main_v320 rfl (by decide)⟩, ⟨nullary_bufs_sub .., rfl, nw main_call13.cst.ref rfl (by decide)⟩, ⟨unary_bufs_sub .., rfl, nw main_call13.v0.ref rfl (by decide)⟩,
    ⟨binary_bufs_sub .., rfl, nw main_call13.v1.ref rfl (by decide)⟩, ⟨unary_bufs_sub .., rfl, nw main_v322 rfl (by decide)⟩, ⟨reshape_bufs_sub .., rfl, nw main_v323 rfl (by decide)⟩,
    ⟨binary_bufs_sub .., rfl, nw main_v324 rfl (by decide)⟩, ⟨unary_bufs_sub .., rfl, nw main_v325 rfl (by decide)⟩, ⟨reshape_bufs_sub .., rfl, nw main_v326 rfl (by decide)⟩,
    ⟨unary_bufs_sub .., rfl, nw main_v327 rfl (by decide)⟩, ⟨unary_bufs_sub .., rfl, nw main_v328 rfl (by decide)⟩, ⟨binary_bufs_sub .., rfl, nw main_v329 rfl (by decide)⟩⟩

theorem good : (ops : List (HloOp τ sig (Elt F))).Forall Good :=
  List.forall_append.2 ⟨good_opsPre,
    List.forall_append.2 ⟨List.forall_append.2 ⟨good_l0a, good_l0b⟩,
    List.forall_append.2 ⟨List.forall_append.2 ⟨good_l1a, good_l1b⟩,
    List.forall_append.2 ⟨List.forall_append.2 ⟨good_l2a, good_l2b⟩,
    List.forall_append.2 ⟨List.forall_append.2 ⟨good_l3a, List.forall_append.2 ⟨good_l3b, good_l3c⟩⟩,
      List.forall_append.2 ⟨good_l4a, good_l4b⟩⟩⟩⟩⟩⟩

theorem ops_sub : (ops : List (HloOp τ sig (Elt F))).Forall fun op => op.bufs ⊆ tcRefs τ sig :=
  good.imp fun _ h => h.1

theorem ops_fresh : ∀ op ∈ (ops : List (HloOp τ sig (Elt F))), op.fresh = ∅ :=
  List.forall_iff_forall_mem.1 (good.imp fun _ h => h.2.1)

/-- No operation writes an argument: the fold leaves it at its launch contents. -/
theorem after_arg (V : Valuation τ sig (Elt F)) {r : Ref sig .tc} (hr : r ∈ argRefs) :
    after ops V (Proc.devRef .tc r) = V (Proc.devRef .tc r) :=
  after_of_forall_not_mem ops V (List.forall_iff_forall_mem.1 (good.imp fun _ h => h.2.2 r hr))

/-! ## The run -/

/-- On every device, for any float values, from any memory with zero counters: every weakly fair execution of
    @main terminates with the result buffer at the operations' fold over the launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v329) = after ops (launchContents m c) (Proc.devRef .tc main_v329)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨h c main_v329,
      (h c main_arg0).trans (after_arg _ (by decide)),
      (h c main_arg1).trans (after_arg _ (by decide)),
      (h c main_arg2).trans (after_arg _ (by decide)),
      (h c main_arg3).trans (after_arg _ (by decide)),
      (h c main_arg4).trans (after_arg _ (by decide)),
      (h c main_arg5).trans (after_arg _ (by decide)),
      (h c main_arg6).trans (after_arg _ (by decide)),
      (h c main_arg7).trans (after_arg _ (by decide)),
      (h c main_arg8).trans (after_arg _ (by decide)),
      (h c main_arg9).trans (after_arg _ (by decide)),
      (h c main_arg10).trans (after_arg _ (by decide)),
      (h c main_arg11).trans (after_arg _ (by decide)),
      (h c main_arg12).trans (after_arg _ (by decide))⟩)
    (run_seq scopedRefs_eq scopedSems_eq defs main (fun _ => ops) main_eq (fun _ => ops_sub) m ρ (fun _ => ops_fresh))

end Cert.ReferenceIdeal.RefValue

end
-- ==== Proof.Spec.lean ====
/-
  The four dense stages of one message-passing layer, each as ONE function of whole arrays over the extended reals,
  index by index, and the one law of sums the comparison needs.

  * `affine a w b`  : row `r`, column `c`  ↦  (∑ k, a[r,k] · w[k,c]) + b[0,c]   — a linear map with a row of biases;
  * `twoProducts ax ae wa wb b` : ↦ (∑ k, ax[r,k] · wa[k,c]) + (∑ k, ae[r,k] · wb[k,c]) + b[0,c]
      — the first linear map of the node update applied to the two halves of the concatenated aggregate separately;
  * `normProduct z mean var g β w b` : the batch normalisation of `z` by the given column statistics, the positive
      part, the second linear map and its bias; `normProductPos` takes the positive part of that once more.

  The law: a sum over 256 consecutive positions is the sum over the first 128 plus the sum over the last 128. It uses only
  that addition of extended reals is commutative and associative, so it holds at the infinities too.
-/
import Idealize.ShloMosaic.PureOps.Ideal
import Idealize.ShloMosaic.Lib.ValueIdx

noncomputable section

namespace Cert.Spec

open Idealize.ShloMosaic Idealize.ShloMosaic.ValueIdx

/-- A matrix of extended reals of literal extents. -/
abbrev Mat (n0 n1 : Nat) := (⟨2, ![n0, n1]⟩ : Shape).Idx → EReal

/-- Rows of `a` through the linear map `w`, plus the row of biases `b`. -/
def affine {M K D : Nat} (a : Mat M K) (w : Mat K D) (b : Mat 1 D) : Mat M D :=
  fun i => (∑ k : Fin K, a (ix2 (i 0) k) * w (ix2 k (i 1))) + b (ix2 0 (i 1))

/-- The two halves of a concatenated row through the two halves of a linear map, added, plus the biases. -/
def twoProducts {M K D : Nat} (ax ae : Mat M K) (wa wb : Mat K D) (b : Mat 1 D) : Mat M D :=
  fun i => ((∑ k : Fin K, ax (ix2 (i 0) k) * wa (ix2 k (i 1))) + (∑ k : Fin K, ae (ix2 (i 0) k) * wb (ix2 k (i 1))))
    + b (ix2 0 (i 1))

/-- One entry of the normalised, rectified activations: `max (g · (z − mean) · rsqrt (var + ε) + β) 0`. -/
def normAct {M K : Nat} (eps zero : EReal) (z : Mat M K) (mean var g β : Mat 1 K) (r : Fin M) (k : Fin K) : EReal :=
  max (g (ix2 0 k) * (z (ix2 r k) - mean (ix2 0 k)) * FloatOps.rsqrt (F := Ideal) (φ := .f32) (var (ix2 0 k) + eps) + β (ix2 0 k)) zero

/-- Normalise, rectify, apply the second linear map and add its biases. -/
def normProduct {M K D : Nat} (eps zero : EReal) (z : Mat M K) (mean var g β : Mat 1 K) (w : Mat K D) (b : Mat 1 D) : Mat M D :=
  fun i => (∑ k : Fin K, normAct eps zero z mean var g β (i 0) k * w (ix2 k (i 1))) + b (ix2 0 (i 1))

/-- The same with the positive part taken of the result. -/
def normProductPos {M K D : Nat} (eps zero : EReal) (z : Mat M K) (mean var g β : Mat 1 K) (w : Mat K D) (b : Mat 1 D) : Mat M D :=
  fun i => max (normProduct eps zero z mean var g β w b i) zero

/-- The normalisation's ε as both programs spell it (the same float pattern), read as an extended real. -/
abbrev eps : Ideal .f32 := Scalar.ofBits .f32 0x3727C5AC#32
/-- The zero the positive parts are taken against. -/
abbrev zero : Ideal .f32 := Scalar.ofBits .f32 0x00000000#32

/-! ### The layers' parameters, cut out of the stacked arguments -/

/-- Layer `l`'s matrix out of a stack of matrices. -/
def layerMat {L R C : Nat} (a : (⟨3, ![L, R, C]⟩ : Shape).Idx → EReal) (l : Fin L) : Mat R C :=
  fun i => a (ix3 l (i 0) (i 1))
/-- The upper half (rows 0 … R−1) of layer `l`'s matrix of 2R rows. -/
def layerMatTop {L R C : Nat} (a : (⟨3, ![L, R + R, C]⟩ : Shape).Idx → EReal) (l : Fin L) : Mat R C :=
  fun i => a (ix3 l (Fin.castAdd R (i 0)) (i 1))
/-- The lower half (rows R … 2R−1) of layer `l`'s matrix of 2R rows. -/
def layerMatBot {L R C : Nat} (a : (⟨3, ![L, R + R, C]⟩ : Shape).Idx → EReal) (l : Fin L) : Mat R C :=
  fun i => a (ix3 l (Fin.natAdd R (i 0)) (i 1))
/-- Layer `l`'s vector out of a stack of vectors, as a one-row matrix. -/
def layerRow {L C : Nat} (a : (⟨2, ![L, C]⟩ : Shape).Idx → EReal) (l : Fin L) : Mat 1 C :=
  fun i => a (ix2 l (i 1))
/-- A vector as a one-row matrix. -/
def asRow {C : Nat} (a : (⟨1, ![C]⟩ : Shape).Idx → EReal) : Mat 1 C :=
  fun i => a (ix1 (i 1))

/-! ### Equal arguments give equal stages -/

theorem affine_congr {M K D : Nat} {a a' : Mat M K} {w w' : Mat K D} {b b' : Mat 1 D} (ha : a = a') (hw : w = w') (hb : b = b') :
    affine a w b = affine a' w' b' := by subst ha hw hb; rfl

theorem twoProducts_congr {M K D : Nat} {ax ax' ae ae' : Mat M K} {wa wa' wb wb' : Mat K D} {b b' : Mat 1 D}
    (h1 : ax = ax') (h2 : ae = ae') (h3 : wa = wa') (h4 : wb = wb') (h5 : b = b') :
    twoProducts ax ae wa wb b = twoProducts ax' ae' wa' wb' b' := by subst h1 h2 h3 h4 h5; rfl

theorem normProduct_congr {M K D : Nat} {e z0 : EReal} {z z' : Mat M K} {mn mn' vr vr' g g' β β' : Mat 1 K} {w w' : Mat K D} {b b' : Mat 1 D}
    (h1 : z = z') (h2 : mn = mn') (h3 : vr = vr') (h4 : g = g') (h5 : β = β') (h6 : w = w') (h7 : b = b') :
    normProduct e z0 z mn vr g β w b = normProduct e z0 z' mn' vr' g' β' w' b' := by subst h1 h2 h3 h4 h5 h6 h7; rfl

theorem normProductPos_congr {M K D : Nat} {e z0 : EReal} {z z' : Mat M K} {mn mn' vr vr' g g' β β' : Mat 1 K} {w w' : Mat K D} {b b' : Mat 1 D}
    (h1 : z = z') (h2 : mn = mn') (h3 : vr = vr') (h4 : g = g') (h5 : β = β') (h6 : w = w') (h7 : b = b') :
    normProductPos e z0 z mn vr g β w b = normProductPos e z0 z' mn' vr' g' β' w' b' := by subst h1 h2 h3 h4 h5 h6 h7; rfl

/-- A sum over `n + n` positions is the sum over the first `n` plus the sum over the last `n`. -/
theorem sum_halves {A : Type} [AddCommMonoid A] (n : Nat) (f : Fin (n + n) → A) :
    ∑ k : Fin (n + n), f k = (∑ k : Fin n, f (Fin.castAdd n k)) + ∑ k : Fin n, f (Fin.natAdd n k) :=
  Fin.sum_univ_add f

end Cert.Spec

end
-- ==== Proof.AffineBody.lean ====
/-
  The affine regions' body at an entry of its block, over the extended reals: the product of the block of rows with
  the 3 × 128 map, accumulated into zeros, plus the row of biases broadcast down the block, is
  (∑ k, a[p,k] · w[k,q]) + b[0,q]. The conversions to the narrower float format before the product are the identity
  on extended reals. Stated once for blocks of 9000 rows (the edge stage, once per layer: the five copies of the body
  are one term) and once for blocks of 5000 rows (the node input stage).
-/
import proofs.«132731_j31379031065008_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-- A 9000 × 3 block times a 3 × 128 map, into zeros, at an entry: the sum over the 3 contracted positions. -/
theorem matmul_9000x3 (l : FVec Ideal S9000x3 .bf16) (r : FVec Ideal S3x128 .bf16) (p : Fin 9000) (q : Fin 128) :
    FloatOps.matmul dot_S9000x3_S3x128_S9000x128_1_0_0_1_n_n none l r (constant S9000x128 .f32 0x00000000#32) (ix2 p q)
      = ∑ k : Fin 3, l (ix2 p k) * r (ix2 k q) := by
  rw [Ideal.matmul_constant_zero_apply]
  rw [← Equiv.sum_comp (contrEquiv1 dot_S9000x3_S3x128_S9000x128_1_0_0_1_n_n 3 rfl rfl).symm]
  refine Finset.sum_congr rfl fun k _ => ?_
  have hl : dot_S9000x3_S3x128_S9000x128_1_0_0_1_n_n.lhsIdx (ix2 p q) ((contrEquiv1 dot_S9000x3_S3x128_S9000x128_1_0_0_1_n_n 3 rfl rfl).symm k) = ix2 p k := by
    funext a; apply Fin.ext
    match a with
    | ⟨0, _⟩ => rfl
    | ⟨1, _⟩ => rfl
  have hr : dot_S9000x3_S3x128_S9000x128_1_0_0_1_n_n.rhsIdx (ix2 p q) ((contrEquiv1 dot_S9000x3_S3x128_S9000x128_1_0_0_1_n_n 3 rfl rfl).symm k) = ix2 k q := by
    funext a; apply Fin.ext
    match a with
    | ⟨0, _⟩ => rfl
    | ⟨1, _⟩ => rfl
  rw [hl, hr]

/-- A 5000 × 3 block times a 3 × 128 map, into zeros, at an entry: the sum over the 3 contracted positions. -/
theorem matmul_5000x3 (l : FVec Ideal S5000x3 .bf16) (r : FVec Ideal S3x128 .bf16) (p : Fin 5000) (q : Fin 128) :
    FloatOps.matmul dot_S5000x3_S3x128_S5000x128_1_0_0_1_n_n none l r (constant S5000x128 .f32 0x00000000#32) (ix2 p q)
      = ∑ k : Fin 3, l (ix2 p k) * r (ix2 k q) := by
  rw [Ideal.matmul_constant_zero_apply]
  rw [← Equiv.sum_comp (contrEquiv1 dot_S5000x3_S3x128_S5000x128_1_0_0_1_n_n 3 rfl rfl).symm]
  refine Finset.sum_congr rfl fun k _ => ?_
  have hl : dot_S5000x3_S3x128_S5000x128_1_0_0_1_n_n.lhsIdx (ix2 p q) ((contrEquiv1 dot_S5000x3_S3x128_S5000x128_1_0_0_1_n_n 3 rfl rfl).symm k) = ix2 p k := by
    funext a; apply Fin.ext
    match a with
    | ⟨0, _⟩ => rfl
    | ⟨1, _⟩ => rfl
  have hr : dot_S5000x3_S3x128_S5000x128_1_0_0_1_n_n.rhsIdx (ix2 p q) ((contrEquiv1 dot_S5000x3_S3x128_S5000x128_1_0_0_1_n_n 3 rfl rfl).symm k) = ix2 k q := by
    funext a; apply Fin.ext
    match a with
    | ⟨0, _⟩ => rfl
    | ⟨1, _⟩ => rfl
  rw [hl, hr]

/-- The edge stage's stored value at entry (p, q) of the block. -/
theorem affine9000_pay (x0 : Vec Ideal S9000x3 .f32) (x1 : Vec Ideal S3x128 .f32) (x2 : Vec Ideal S1x128 .f32)
    (p : Fin 9000) (q : Fin 128) :
    k0_pay1 (F := Ideal) x0 x1 x2 (ix2 p q) = (∑ k : Fin 3, x0 (ix2 p k) * x1 (ix2 k q)) + x2 (ix2 0 q) := by
  unfold k0_pay1
  rw [addf_apply]
  refine congrArg₂ (· + ·) ?_ ?_
  · refine (matmul_9000x3 _ _ p q).trans ?_
    simp only [truncf_apply, shapeCast_self]
  · rw [shapeCast_self]
    exact broadcastTo_1b_ab_apply _ _ p q

/-- The later layers' edge stages have the same body. -/
theorem k4_eq (x0 : Vec Ideal S9000x3 .f32) (x1 : Vec Ideal S3x128 .f32) (x2 : Vec Ideal S1x128 .f32) :
    k4_pay1 (F := Ideal) x0 x1 x2 = k0_pay1 x0 x1 x2 := rfl
theorem k7_eq (x0 : Vec Ideal S9000x3 .f32) (x1 : Vec Ideal S3x128 .f32) (x2 : Vec Ideal S1x128 .f32) :
    k7_pay1 (F := Ideal) x0 x1 x2 = k0_pay1 x0 x1 x2 := rfl
theorem k10_eq (x0 : Vec Ideal S9000x3 .f32) (x1 : Vec Ideal S3x128 .f32) (x2 : Vec Ideal S1x128 .f32) :
    k10_pay1 (F := Ideal) x0 x1 x2 = k0_pay1 x0 x1 x2 := rfl
theorem k13_eq (x0 : Vec Ideal S9000x3 .f32) (x1 : Vec Ideal S3x128 .f32) (x2 : Vec Ideal S1x128 .f32) :
    k13_pay1 (F := Ideal) x0 x1 x2 = k0_pay1 x0 x1 x2 := rfl

/-- The node input stage's stored value at entry (p, q) of the block. -/
theorem affine5000_pay (x0 : Vec Ideal S5000x3 .f32) (x1 : Vec Ideal S3x128 .f32) (x2 : Vec Ideal S1x128 .f32)
    (p : Fin 5000) (q : Fin 128) :
    k1_pay1 (F := Ideal) x0 x1 x2 (ix2 p q) = (∑ k : Fin 3, x0 (ix2 p k) * x1 (ix2 k q)) + x2 (ix2 0 q) := by
  unfold k1_pay1
  rw [addf_apply]
  refine congrArg₂ (· + ·) ?_ ?_
  · refine (matmul_5000x3 _ _ p q).trans ?_
    simp only [truncf_apply]
  · rw [shapeCast_self]
    exact broadcastTo_1b_ab_apply _ _ p q

end Cert.KernelIdeal.Body

end
-- ==== Proof.LibRegionOp.lean ====
/-
  General facts about a kernel region read as ONE host operation.

  A region's run leaves its arrays at what the write-backs make of them and every other buffer as it was. When
  the region has one output array, whose final contents are a function of the entry contents of the input
  arrays, and its input arrays end as entered, this is exactly what a single host operation computing that
  function into the output array leaves: `withArrays_eq_result`. A run of host operations interleaved with
  regions is then one fold of operations, and a buffer's contents after it are read operation by operation.

  Also: the value an operation with a LITERAL family of five or of seven operands leaves in its result, with
  each operand's contents named at its own reference (the library states this for four operands), and operations of
  five and of seven operands with a curried function, whose result is the function of the operands' contents.
-/
import Idealize.ShloMosaic.Lib.StableHlo.Run
import Idealize.ShloMosaic.Lib.Pipeline.FrameSuffix
import Idealize.ShloMosaic.Lib.Pipeline.Value

noncomputable section

namespace Cert.Lib.RegionOp

open Idealize.ShloMosaic Idealize.ShloMosaic.TcCoe

variable {nD : Nat} {τ : Topo} {sig : RefSig} {Val : EltTy → Type}

/-- The contents a region leaves — its arrays at `A`, every other buffer at `V` — are what an operation `op`
    writing only the output array leaves of `V`, when the output array ends at the operation's value and every
    other array of the region ends as entered. -/
theorem withArrays_eq_result {gr W : Nat} (win : Fin W → Pipeline.WinSpec sig gr)
    (hinj : Function.Injective (Pipeline.arrRef win)) (c : Dev nD) (V : Valuation τ sig Val)
    (A : (w : Fin W) → Buf Val ((win w).arr.view.loc (c.tc : Thread nD τ)))
    (op : HloOp τ sig Val) (wo : Fin W)
    (hw : op.writes = {Proc.devRef .tc (Pipeline.arrRef win wo)})
    (hout : A wo = op.result V (Proc.devRef .tc (Pipeline.arrRef win wo)))
    (hin : ∀ w, w ≠ wo → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = wo
    · subst hwo; exact hout
    · rw [hin w hwo, op.result_of_not_mem V (by
        rw [hw, Finset.mem_singleton]; exact fun e => hwo (hinj (Proc.devRef_injective _ e)))]
  · unfold Pipeline.withArrays
    rw [dif_neg h, op.result_of_not_mem V (by
      rw [hw, Finset.mem_singleton]; exact fun e => h ⟨wo, e.symm⟩)]

section Families

variable {x0 x1 x2 x3 x4 x5 x6 y : Ref sig .tc}

/-- The result of an operation on a literal family of five operands, each operand's contents at its own reference. -/
theorem nary5_result'
    (f : ((k : Fin 5) → ((![x0, x1, x2, x3, x4] : Fin 5 → Ref sig .tc) k).ty.Contents Val) → y.ty.Contents Val) (hxs hy)
    (F : Valuation τ sig Val) :
    (StableHlo.nary (τ := τ) ![x0, x1, x2, x3, x4] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (fun i => i.elim0)))))) := by
  rw [StableHlo.nary_result']; congr 1; funext k; fin_cases k <;> rfl

/-- The result of an operation on a literal family of seven operands, each operand's contents at its own reference. -/
theorem nary7_result'
    (f : ((k : Fin 7) → ((![x0, x1, x2, x3, x4, x5, x6] : Fin 7 → Ref sig .tc) k).ty.Contents Val) → y.ty.Contents Val) (hxs hy)
    (F : Valuation τ sig Val) :
    (StableHlo.nary (τ := τ) ![x0, x1, x2, x3, x4, x5, x6] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (fun i => i.elim0)))))))) := by
  rw [StableHlo.nary_result']; congr 1; funext k; fin_cases k <;> rfl

end Families

section Curried

/-- An operation of 5 operands into `y`, its function curried: `y` takes `G` of the operands' contents. -/
def op5 (x0 x1 x2 x3 x4 y : Ref sig .tc) (G : x0.ty.Contents Val → x1.ty.Contents Val → x2.ty.Contents Val → x3.ty.Contents Val → x4.ty.Contents Val → y.ty.Contents Val)
    (hxs : ∀ k, ((![x0, x1, x2, x3, x4] : Fin 5 → Ref sig .tc) k).space ≠ .host ∧ (((![x0, x1, x2, x3, x4] : Fin 5 → Ref sig .tc) k : Ref sig .tc) : DevRef τ sig).isScoped = false)
    (hy : y.space ≠ .host ∧ (y : DevRef τ sig).isScoped = false) : HloOp τ sig Val :=
  StableHlo.nary ![x0, x1, x2, x3, x4] y (fun u => G (u 0) (u 1) (u 2) (u 3) (u 4)) hxs hy

/-- What it leaves in its result: `G` of the operands' contents, each at its own reference. -/
theorem op5_result' (x0 x1 x2 x3 x4 y : Ref sig .tc) (G : x0.ty.Contents Val → x1.ty.Contents Val → x2.ty.Contents Val → x3.ty.Contents Val → x4.ty.Contents Val → y.ty.Contents Val) (hxs) (hy) (F : Valuation τ sig Val) :
    (op5 (τ := τ) x0 x1 x2 x3 x4 y G hxs hy).result F (no_index (Proc.devRef .tc y)) = G (F (Proc.devRef .tc x0)) (F (Proc.devRef .tc x1)) (F (Proc.devRef .tc x2)) (F (Proc.devRef .tc x3)) (F (Proc.devRef .tc x4)) := by
  unfold op5
  rw [StableHlo.nary_result']
  rfl

/-- Every other buffer it leaves alone. -/
theorem op5_result_ne' (x0 x1 x2 x3 x4 y : Ref sig .tc) (G : x0.ty.Contents Val → x1.ty.Contents Val → x2.ty.Contents Val → x3.ty.Contents Val → x4.ty.Contents Val → y.ty.Contents Val) (hxs) (hy) (F : Valuation τ sig Val)
    {r : Ref sig .tc} (h : r ≠ y) :
    (op5 (τ := τ) x0 x1 x2 x3 x4 y G hxs hy).result F (no_index (Proc.devRef .tc r)) = F (Proc.devRef .tc r) := by
  unfold op5
  exact StableHlo.nary_result_ne' _ _ _ _ _ h

/-- It writes its result buffer only. -/
theorem op5_writes (x0 x1 x2 x3 x4 y : Ref sig .tc) (G : x0.ty.Contents Val → x1.ty.Contents Val → x2.ty.Contents Val → x3.ty.Contents Val → x4.ty.Contents Val → y.ty.Contents Val) (hxs) (hy) :
    (op5 (τ := τ) x0 x1 x2 x3 x4 y G hxs hy).writes = {Proc.devRef .tc y} := rfl

/-- An operation of 7 operands into `y`, its function curried: `y` takes `G` of the operands' contents. -/
def op7 (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val)
    (hxs : ∀ k, ((![x0, x1, x2, x3, x4, x5, x6] : Fin 7 → Ref sig .tc) k).space ≠ .host ∧ (((![x0, x1, x2, x3, x4, x5, x6] : Fin 7 → Ref sig .tc) k : Ref sig .tc) : DevRef τ sig).isScoped = false)
    (hy : y.space ≠ .host ∧ (y : DevRef τ sig).isScoped = false) : HloOp τ sig Val :=
  StableHlo.nary ![x0, x1, x2, x3, x4, x5, x6] y (fun u => G (u 0) (u 1) (u 2) (u 3) (u 4) (u 5) (u 6)) hxs hy

/-- What it leaves in its result: `G` of the operands' contents, each at its own reference. -/
theorem op7_result' (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val) (hxs) (hy) (F : Valuation τ sig Val) :
    (op7 (τ := τ) x0 x1 x2 x3 x4 x5 x6 y G hxs hy).result F (no_index (Proc.devRef .tc y)) = G (F (Proc.devRef .tc x0)) (F (Proc.devRef .tc x1)) (F (Proc.devRef .tc x2)) (F (Proc.devRef .tc x3)) (F (Proc.devRef .tc x4)) (F (Proc.devRef .tc x5)) (F (Proc.devRef .tc x6)) := by
  unfold op7
  rw [StableHlo.nary_result']
  rfl

/-- Every other buffer it leaves alone. -/
theorem op7_result_ne' (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val) (hxs) (hy) (F : Valuation τ sig Val)
    {r : Ref sig .tc} (h : r ≠ y) :
    (op7 (τ := τ) x0 x1 x2 x3 x4 x5 x6 y G hxs hy).result F (no_index (Proc.devRef .tc r)) = F (Proc.devRef .tc r) := by
  unfold op7
  exact StableHlo.nary_result_ne' _ _ _ _ _ h

/-- It writes its result buffer only. -/
theorem op7_writes (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val) (hxs) (hy) :
    (op7 (τ := τ) x0 x1 x2 x3 x4 x5 x6 y G hxs hy).writes = {Proc.devRef .tc y} := rfl

end Curried

end Cert.Lib.RegionOp

end
-- ==== Proof.Region0.lean ====
/-
  Region 0: the edge features through layer 0's edge map — an affine stage on 450000 rows, 9000 rows to a block.

  Point t of the grid reads rows 9000·t … 9000·t + 8999 of the left array, the whole 3 × 128 map and the whole row of biases, and
  writes the same rows of the result. Every row of the result lies in the block of the point row / 9000, so the blocks
  cover the array, and what a point writes is its block of ONE function of the whole arrays:
  entry (r, c) ↦ (∑ k, a[r,k] · w[k,c]) + b[0,c]. The input arrays are never written back. So the region leaves exactly
  what one host operation computing that function into the result array leaves.
-/
import proofs.«132731_j31379031065008_1_alg».proof.Proof.Gen.KernelIdeal.Frame
import proofs.«132731_j31379031065008_1_alg».proof.Proof.Spec
import proofs.«132731_j31379031065008_1_alg».proof.Proof.AffineBody
import proofs.«132731_j31379031065008_1_alg».proof.Proof.LibRegionOp
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the row-blocked windows move with the point, the others stay. -/
theorem index_maps : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Input array 0 as the region finds it. -/
abbrev in0 (c : Dev nD) : S450000x3.Idx → EReal := V c main_v11
/-- Input array 1 as the region finds it. -/
abbrev in1 (c : Dev nD) : S3x128.Idx → EReal := V c main_v13
/-- Input array 2 as the region finds it. -/
abbrev in2 (c : Dev nD) : S1x128.Idx → EReal := V c main_v16

/-- The whole-array function the region computes, of the arrays as the region finds them. -/
abbrev result (c : Dev nD) : S450000x128.Idx → EReal :=
  Cert.Spec.affine (M := 450000) (K := 3) (D := 128) (in0 V c) (in1 V c) (in2 V c)

/-- What point `t` writes back is its block of `result`. -/
theorem flushed_eq (c : Dev nD) (t : Fin cfg0.N) :
    (dat0 (F := Ideal) V c).flushed 3 t = ((cfg0.win 3).blk t).view.read (Elt Ideal) (result V c) := by
  show (cfg0.win 3).cut (grid0.coords t) ((dat0 V c).after 3 t) = _
  rw [after0_3]
  unfold out0_3
  rw [View.canon_unit_zero origin_zero]
  simp only [View.ld_unit_zero (S := S9000x3) origin_zero, View.ld_unit_zero (S := S3x128) origin_zero, View.ld_unit_zero (S := S1x128) origin_zero]
  obtain ⟨e0, e1, e2, e3, e4, e5, e6, e7⟩ := index_maps t
  have hN : grid0.N = 50 := N_0
  have ht : t.val < 50 := hN ▸ t.isLt
  funext j
  obtain ⟨p, q, rfl⟩ : ∃ (p : Fin 9000) (q : Fin 128), j = ix2 p q := ⟨j 0, j 1, eq_ix2 j⟩
  have hp : p.val < 9000 := p.isLt
  let r : Fin 450000 := ⟨t.val * 9000 + p.val, by omega⟩
  have emb_out : ((cfg0.win 3).blk t).view.emb (ix2 p q) = (ix2 r q : S450000x128.Idx) := by
    funext ax; apply Fin.ext
    match ax with
    | ⟨0, _⟩ => show win0_3.index t (0 : Fin 2) * 9000 + 1 * p.val = t.val * 9000 + p.val; omega
    | ⟨1, _⟩ => show win0_3.index t (1 : Fin 2) * 128 + 1 * q.val = q.val; omega
  have rd_0 : ∀ k : Fin 3, iblk0 V c 0 t (ix2 p k) = in0 V c (ix2 r k) := fun k => by
    show V c main_v11 (((cfg0.win 0).blk t).view.emb (ix2 p k)) = _
    refine congrArg (V c main_v11) (funext fun ax => Fin.ext ?_)
    match ax with
    | ⟨0, _⟩ => show win0_0.index t (0 : Fin 2) * 9000 + 1 * p.val = t.val * 9000 + p.val; omega
    | ⟨1, _⟩ => show win0_0.index t (1 : Fin 2) * 3 + 1 * k.val = k.val; omega
  have rd_1 : ∀ k : Fin 3, iblk0 V c 1 t (ix2 k q) = in1 V c (ix2 k q) := fun k => by
    show V c main_v13 (((cfg0.win 1).blk t).view.emb (ix2 k q)) = _
    refine congrArg (V c main_v13) (funext fun ax => Fin.ext ?_)
    match ax with
    | ⟨0, _⟩ => show win0_1.index t (0 : Fin 2) * 3 + 1 * k.val = k.val; omega
    | ⟨1, _⟩ => show win0_1.index t (1 : Fin 2) * 128 + 1 * q.val = q.val; omega
  have rd_2 : iblk0 V c 2 t (ix2 (0 : Fin 1) q) = V c main_v16 (ix2 (0 : Fin 1) q : S1x128.Idx) := by
    show V c main_v16 (((cfg0.win 2).blk t).view.emb (ix2 (0 : Fin 1) q)) = _
    refine congrArg (V c main_v16) (funext fun ax => Fin.ext ?_)
    match ax with
    | ⟨0, _⟩ => show win0_2.index t (0 : Fin 2) * 1 + 1 * 0 = 0; omega
    | ⟨1, _⟩ => show win0_2.index t (1 : Fin 2) * 128 + 1 * q.val = q.val; omega
  show k0_pay1 (iblk0 V c 0 t) (iblk0 V c 1 t) (iblk0 V c 2 t) (ix2 p q)
    = result V c (((cfg0.win 3).blk t).view.emb (ix2 p q))
  rw [emb_out, Body.affine9000_pay, rd_2]
  show _ = (∑ k : Fin 3, in0 V c (ix2 r k) * in1 V c (ix2 k q)) + in2 V c (ix2 0 q)
  exact congrArg (· + in2 V c (ix2 0 q)) (Finset.sum_congr rfl fun k _ => by rw [rd_0 k, rd_1 k])

/-- An index of the result array is in point `t`'s block iff each coordinate is in the block's range. -/
theorem mem_blk (t : Fin cfg0.N) (i : S450000x128.Idx) :
    i ∈ ((cfg0.win 3).blk t).view.set ↔ ∀ ax : Fin 2, win0_3.index t ax * S9000x128.size ax ≤ (i ax).val
      ∧ (i ax).val < win0_3.index t ax * S9000x128.size ax + S9000x128.size ax := by
  show i ∈ ((View.whole main_v17).slice (win0_3.rect t)).set ↔ _
  rw [View.set_slice_whole, Rect.mem_set_unit]
  exact Iff.rfl

/-- Every entry of the result array is in the block of the point its row falls to. -/
theorem cover (i : S450000x128.Idx) :
    ∃ t : Fin cfg0.N, (cfg0.win 3).flush t = true ∧ i ∈ ((cfg0.win 3).blk t).view.set := by
  have hi0 : (i 0).val < 450000 := (i 0).isLt
  have hi1 : (i 1).val < 128 := (i 1).isLt
  have hN : grid0.N = 50 := N_0
  have hlt : (i 0).val / 9000 < grid0.N := by rw [hN]; omega
  obtain ⟨e0, e1, e2, e3, e4, e5, e6, e7⟩ := index_maps ⟨(i 0).val / 9000, hlt⟩
  have e_row : win0_3.index ⟨(i 0).val / 9000, hlt⟩ (0 : Fin 2) = (i 0).val / 9000 := e6
  refine ⟨⟨(i 0).val / 9000, hlt⟩, flush0_3 _, ?_⟩
  rw [mem_blk]
  intro ax
  match ax with
  | ⟨0, _⟩ =>
    show win0_3.index ⟨(i 0).val / 9000, hlt⟩ (0 : Fin 2) * 9000 ≤ (i 0).val
      ∧ (i 0).val < win0_3.index ⟨(i 0).val / 9000, hlt⟩ (0 : Fin 2) * 9000 + 9000
    omega
  | ⟨1, _⟩ =>
    show win0_3.index ⟨(i 0).val / 9000, hlt⟩ (1 : Fin 2) * 128 ≤ (i 1).val
      ∧ (i 1).val < win0_3.index ⟨(i 0).val / 9000, hlt⟩ (1 : Fin 2) * 128 + 128
    omega

/-- The result array after the run is `result`. -/
theorem final (c : Dev nD) : (dat0 (F := Ideal) V c).arrAt 3 cfg0.N = result V c :=
  (dat0 V c).arrAt_eq_of_cover 3 (result V c) (fun t _ => flushed_eq V c t) cover

/-- The input arrays end as the region found them: no point writes one back. -/
theorem kept (c : Dev nD) (w : Fin cfg0.W) (hw : w ≠ 3) :
    (dat0 (F := Ideal) V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, hw => exact absurd rfl hw
  rw [(dat0 V c).arrAt_in w hin, A_eq0]

/-- The region as ONE host operation: `result`'s function of the input arrays into the result array. -/
def op : HloOp τ sig (Elt Ideal) :=
  StableHlo.ternary main_v11 main_v13 main_v16 main_v17
    (fun x y z => Cert.Spec.affine (M := 450000) (K := 3) (D := 128) x y z)

variable (m : (ℓ : Loc nD τ sig) → Buf (Elt Ideal) ℓ) (ρ : Dev nD → PrngReg)

/-- The buffer contents at the region's exit are the operation's result of the contents at its entry. -/
theorem exit_eq (c : Dev nD) : W2 (F := Ideal) m ρ c = op.result (W1 m ρ c) := by
  unfold W2
  refine Cert.Lib.RegionOp.withArrays_eq_result spec0 launch0.win.arr_inj c (W1 m ρ c) _ op 3 rfl ?_ ?_
  · show (dat0 (V1 m ρ) c).arrAt 3 cfg0.N = op.result (W1 m ρ c) (Proc.devRef .tc main_v17)
    refine (final (V1 m ρ) c).trans ?_
    unfold op
    exact (StableHlo.ternary_result main_v11 main_v13 main_v16 main_v17 _ _ _ _ _ _).symm
  · intro w hw
    exact kept (V1 m ρ) c w hw

end Cert.KernelIdeal.Region0

end
-- ==== Proof.Region1.lean ====
/-
  Region 1: the node features through the input map — an affine stage on 50000 rows, 5000 rows to a block.

  Point t of the grid reads rows 5000·t … 5000·t + 4999 of the left array, the whole 3 × 128 map and the whole row of biases, and
  writes the same rows of the result. Every row of the result lies in the block of the point row / 5000, so the blocks
  cover the array, and what a point writes is its block of ONE function of the whole arrays:
  entry (r, c) ↦ (∑ k, a[r,k] · w[k,c]) + b[0,c]. The input arrays are never written back. So the region leaves exactly
  what one host operation computing that function into the result array leaves.
-/
import proofs.«132731_j31379031065008_1_alg».proof.Proof.Gen.KernelIdeal.Frame
import proofs.«132731_j31379031065008_1_alg».proof.Proof.Spec
import proofs.«132731_j31379031065008_1_alg».proof.Proof.AffineBody
import proofs.«132731_j31379031065008_1_alg».proof.Proof.LibRegionOp
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the row-blocked windows move with the point, the others stay. -/
theorem index_maps : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- Input array 0 as the region finds it. -/
abbrev in0 (c : Dev nD) : S50000x3.Idx → EReal := V c main_arg0
/-- Input array 1 as the region finds it. -/
abbrev in1 (c : Dev nD) : S3x128.Idx → EReal := V c main_arg3
/-- Input array 2 as the region finds it. -/
abbrev in2 (c : Dev nD) : S1x128.Idx → EReal := V c main_v18

/-- The whole-array function the region computes, of the arrays as the region finds them. -/
abbrev result (c : Dev nD) : S50000x128.Idx → EReal :=
  Cert.Spec.affine (M := 50000) (K := 3) (D := 128) (in0 V c) (in1 V c) (in2 V c)

/-- What point `t` writes back is its block of `result`. -/
theorem flushed_eq (c : Dev nD) (t : Fin cfg1.N) :
    (dat1 (F := Ideal) V c).flushed 3 t = ((cfg1.win 3).blk t).view.read (Elt Ideal) (result V c) := by
  show (cfg1.win 3).cut (grid1.coords t) ((dat1 V c).after 3 t) = _
  rw [after1_3]
  unfold out1_3
  rw [View.canon_unit_zero origin_zero]
  simp only [View.ld_unit_zero (S := S5000x3) origin_zero, View.ld_unit_zero (S := S3x128) origin_zero, View.ld_unit_zero (S := S1x128) origin_zero]
  obtain ⟨e0, e1, e2, e3, e4, e5, e6, e7⟩ := index_maps t
  have hN : grid1.N = 10 := N_1
  have ht : t.val < 10 := hN ▸ t.isLt
  funext j
  obtain ⟨p, q, rfl⟩ : ∃ (p : Fin 5000) (q : Fin 128), j = ix2 p q := ⟨j 0, j 1, eq_ix2 j⟩
  have hp : p.val < 5000 := p.isLt
  let r : Fin 50000 := ⟨t.val * 5000 + p.val, by omega⟩
  have emb_out : ((cfg1.win 3).blk t).view.emb (ix2 p q) = (ix2 r q : S50000x128.Idx) := by
    funext ax; apply Fin.ext
    match ax with
    | ⟨0, _⟩ => show win1_3.index t (0 : Fin 2) * 5000 + 1 * p.val = t.val * 5000 + p.val; omega
    | ⟨1, _⟩ => show win1_3.index t (1 : Fin 2) * 128 + 1 * q.val = q.val; omega
  have rd_0 : ∀ k : Fin 3, iblk1 V c 0 t (ix2 p k) = in0 V c (ix2 r k) := fun k => by
    show V c main_arg0 (((cfg1.win 0).blk t).view.emb (ix2 p k)) = _
    refine congrArg (V c main_arg0) (funext fun ax => Fin.ext ?_)
    match ax with
    | ⟨0, _⟩ => show win1_0.index t (0 : Fin 2) * 5000 + 1 * p.val = t.val * 5000 + p.val; omega
    | ⟨1, _⟩ => show win1_0.index t (1 : Fin 2) * 3 + 1 * k.val = k.val; omega
  have rd_1 : ∀ k : Fin 3, iblk1 V c 1 t (ix2 k q) = in1 V c (ix2 k q) := fun k => by
    show V c main_arg3 (((cfg1.win 1).blk t).view.emb (ix2 k q)) = _
    refine congrArg (V c main_arg3) (funext fun ax => Fin.ext ?_)
    match ax with
    | ⟨0, _⟩ => show win1_1.index t (0 : Fin 2) * 3 + 1 * k.val = k.val; omega
    | ⟨1, _⟩ => show win1_1.index t (1 : Fin 2) * 128 + 1 * q.val = q.val; omega
  have rd_2 : iblk1 V c 2 t (ix2 (0 : Fin 1) q) = V c main_v18 (ix2 (0 : Fin 1) q : S1x128.Idx) := by
    show V c main_v18 (((cfg1.win 2).blk t).view.emb (ix2 (0 : Fin 1) q)) = _
    refine congrArg (V c main_v18) (funext fun ax => Fin.ext ?_)
    match ax with
    | ⟨0, _⟩ => show win1_2.index t (0 : Fin 2) * 1 + 1 * 0 = 0; omega
    | ⟨1, _⟩ => show win1_2.index t (1 : Fin 2) * 128 + 1 * q.val = q.val; omega
  show k1_pay1 (iblk1 V c 0 t) (iblk1 V c 1 t) (iblk1 V c 2 t) (ix2 p q)
    = result V c (((cfg1.win 3).blk t).view.emb (ix2 p q))
  rw [emb_out, Body.affine5000_pay, rd_2]
  show _ = (∑ k : Fin 3, in0 V c (ix2 r k) * in1 V c (ix2 k q)) + in2 V c (ix2 0 q)
  exact congrArg (· + in2 V c (ix2 0 q)) (Finset.sum_congr rfl fun k _ => by rw [rd_0 k, rd_1 k])

/-- An index of the result array is in point `t`'s block iff each coordinate is in the block's range. -/
theorem mem_blk (t : Fin cfg1.N) (i : S50000x128.Idx) :
    i ∈ ((cfg1.win 3).blk t).view.set ↔ ∀ ax : Fin 2, win1_3.index t ax * S5000x128.size ax ≤ (i ax).val
      ∧ (i ax).val < win1_3.index t ax * S5000x128.size ax + S5000x128.size ax := by
  show i ∈ ((View.whole main_v19).slice (win1_3.rect t)).set ↔ _
  rw [View.set_slice_whole, Rect.mem_set_unit]
  exact Iff.rfl

/-- Every entry of the result array is in the block of the point its row falls to. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  have hlt : (i 0).val / 5000 < grid1.N := by rw [hN]; omega
  obtain ⟨e0, e1, e2, e3, e4, e5, e6, e7⟩ := index_maps ⟨(i 0).val / 5000, hlt⟩
  have e_row : win1_3.index ⟨(i 0).val / 5000, hlt⟩ (0 : Fin 2) = (i 0).val / 5000 := e6
  refine ⟨⟨(i 0).val / 5000, hlt⟩, flush1_3 _, ?_⟩
  rw [mem_blk]
  intro ax
  match ax with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    omega
  | ⟨1, _⟩ =>
    show win1_3.index ⟨(i 0).val / 5000, hlt⟩ (1 : Fin 2) * 128 ≤ (i 1).val
      ∧ (i 1).val < win1_3.index ⟨(i 0).val / 5000, hlt⟩ (1 : Fin 2) * 128 + 128
    omega

/-- The result array after the run is `result`. -/
theorem final (c : Dev nD) : (dat1 (F := Ideal) V c).arrAt 3 cfg1.N = result V c :=
  (dat1 V c).arrAt_eq_of_cover 3 (result V c) (fun t _ => flushed_eq V c t) cover

/-- The input arrays end as the region found them: no point writes one back. -/
theorem kept (c : Dev nD) (w : Fin cfg1.W) (hw : w ≠ 3) :
    (dat1 (F := Ideal) V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, hw => exact absurd rfl hw
  rw [(dat1 V c).arrAt_in w hin, A_eq1]

/-- The region as ONE host operation: `result`'s function of the input arrays into the result array. -/
def op : HloOp τ sig (Elt Ideal) :=
  StableHlo.ternary main_arg0 main_arg3 main_v18 main_v19
    (fun x y z => Cert.Spec.affine (M := 50000) (K := 3) (D := 128) x y z)

variable (m : (ℓ : Loc nD τ sig) → Buf (Elt Ideal) ℓ) (ρ : Dev nD → PrngReg)

/-- The buffer contents at the region's exit are the operation's result of the contents at its entry. -/
theorem exit_eq (c : Dev nD) : W4 (F := Ideal) m ρ c = op.result (W3 m ρ c) := by
  unfold W4
  refine Cert.Lib.RegionOp.withArrays_eq_result spec1 launch1.win.arr_inj c (W3 m ρ c) _ op 3 rfl ?_ ?_
  · show (dat1 (V3 m ρ) c).arrAt 3 cfg1.N = op.result (W3 m ρ c) (Proc.devRef .tc main_v19)
    refine (final (V3 m ρ) c).trans ?_
    unfold op
    exact (StableHlo.ternary_result main_arg0 main_arg3 main_v18 main_v19 _ _ _ _ _ _).symm
  · intro w hw
    exact kept (V3 m ρ) c w hw

end Cert.KernelIdeal.Region1

end
-- ==== Proof.TwoProductsBody.lean ====
/-
  The node update's first stage at an entry of its block, over the extended reals: the block of aggregated
  neighbour features times the upper half of the first linear map, plus the block of aggregated edge features times
  the lower half, plus the row of biases: (∑ k, ax[p,k] · wa[k,q]) + (∑ k, ae[p,k] · wb[k,q]) + b[0,q].
-/
import proofs.«132731_j31379031065008_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body1

open Idealize.ShloMosaic Idealize.ShloMosaic.ValueIdx Cert.KernelIdeal Cert.KernelIdeal.Gen

/-- A 5000 × 128 block times a 128 × 256 map, into zeros, at an entry: the sum over the 128 contracted positions. -/
theorem matmul_5000x128 (l : FVec Ideal S5000x128 .bf16) (r : FVec Ideal S128x256 .bf16) (p : Fin 5000) (q : Fin 256) :
    FloatOps.matmul dot_S5000x128_S128x256_S5000x256_1_0_0_1_n_n none l r (constant S5000x256 .f32 0x00000000#32) (ix2 p q)
      = ∑ k : Fin 128, l (ix2 p k) * r (ix2 k q) := by
  rw [Ideal.matmul_constant_zero_apply]
  rw [← Equiv.sum_comp (contrEquiv1 dot_S5000x128_S128x256_S5000x256_1_0_0_1_n_n 128 rfl rfl).symm]
  refine Finset.sum_congr rfl fun k _ => ?_
  have hl : dot_S5000x128_S128x256_S5000x256_1_0_0_1_n_n.lhsIdx (ix2 p q) ((contrEquiv1 dot_S5000x128_S128x256_S5000x256_1_0_0_1_n_n 128 rfl rfl).symm k) = ix2 p k := by
    funext a; apply Fin.ext
    match a with
    | ⟨0, _⟩ => rfl
    | ⟨1, _⟩ => rfl
  have hr : dot_S5000x128_S128x256_S5000x256_1_0_0_1_n_n.rhsIdx (ix2 p q) ((contrEquiv1 dot_S5000x128_S128x256_S5000x256_1_0_0_1_n_n 128 rfl rfl).symm k) = ix2 k q := by
    funext a; apply Fin.ext
    match a with
    | ⟨0, _⟩ => rfl
    | ⟨1, _⟩ => rfl
  rw [hl, hr]

/-- The stored value at entry (p, q) of the block. -/
theorem twoProducts_pay (x0 x1 : Vec Ideal S5000x128 .f32) (x2 x3 : Vec Ideal S128x256 .f32) (x4 : Vec Ideal S1x256 .f32)
    (p : Fin 5000) (q : Fin 256) :
    k2_pay1 (F := Ideal) x0 x1 x2 x3 x4 (ix2 p q)
      = ((∑ k : Fin 128, x0 (ix2 p k) * x2 (ix2 k q)) + (∑ k : Fin 128, x1 (ix2 p k) * x3 (ix2 k q))) + x4 (ix2 0 q) := by
  unfold k2_pay1
  rw [addf_apply, addf_apply]
  refine congrArg₂ (· + ·) (congrArg₂ (· + ·) ?_ ?_) ?_
  · refine (matmul_5000x128 _ _ p q).trans ?_
    simp only [truncf_apply, shapeCast_self]
  · refine (matmul_5000x128 _ _ p q).trans ?_
    simp only [truncf_apply, shapeCast_self]
  · rw [shapeCast_self]
    exact broadcastTo_1b_ab_apply _ _ p q

/-- The later layers' copies of the body are the same term. -/
theorem k5_eq (x0 x1 : Vec Ideal S5000x128 .f32) (x2 x3 : Vec Ideal S128x256 .f32) (x4 : Vec Ideal S1x256 .f32) :
    k5_pay1 (F := Ideal) x0 x1 x2 x3 x4 = k2_pay1 x0 x1 x2 x3 x4 := rfl
theorem k8_eq (x0 x1 : Vec Ideal S5000x128 .f32) (x2 x3 : Vec Ideal S128x256 .f32) (x4 : Vec Ideal S1x256 .f32) :
    k8_pay1 (F := Ideal) x0 x1 x2 x3 x4 = k2_pay1 x0 x1 x2 x3 x4 := rfl
theorem k11_eq (x0 x1 : Vec Ideal S5000x128 .f32) (x2 x3 : Vec Ideal S128x256 .f32) (x4 : Vec Ideal S1x256 .f32) :
    k11_pay1 (F := Ideal) x0 x1 x2 x3 x4 = k2_pay1 x0 x1 x2 x3 x4 := rfl
theorem k14_eq (x0 x1 : Vec Ideal S5000x128 .f32) (x2 x3 : Vec Ideal S128x256 .f32) (x4 : Vec Ideal S1x256 .f32) :
    k14_pay1 (F := Ideal) x0 x1 x2 x3 x4 = k2_pay1 x0 x1 x2 x3 x4 := rfl

end Cert.KernelIdeal.Body1

end
-- ==== Proof.Region2.lean ====
/-
  Region 2: the first stage of layer 0's node update on 50000 rows, 5000 rows to a block.

  Point t reads rows 5000·t … of the aggregated neighbour features and of the aggregated edge features, the two
  128 × 256 halves of the first linear map and the row of biases, and writes the same rows of the result. The blocks
  cover the result array (row r lies in the block of point r / 5000), and what a point writes is its block of ONE
  function of the whole arrays: (r, c) ↦ (∑ k, ax[r,k] · wa[k,c]) + (∑ k, ae[r,k] · wb[k,c]) + b[0,c]. The input arrays
  are never written back; so the region leaves what one host operation computing that function leaves.
-/
import proofs.«132731_j31379031065008_1_alg».proof.Proof.Gen.KernelIdeal.Frame
import proofs.«132731_j31379031065008_1_alg».proof.Proof.Spec
import proofs.«132731_j31379031065008_1_alg».proof.Proof.TwoProductsBody
import proofs.«132731_j31379031065008_1_alg».proof.Proof.LibRegionOp
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the row-blocked windows move with the point, the others stay. -/
theorem index_maps : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- Input array 0 as the region finds it. -/
abbrev in0 (c : Dev nD) : S50000x128.Idx → EReal := V c main_v29
/-- Input array 1 as the region finds it. -/
abbrev in1 (c : Dev nD) : S50000x128.Idx → EReal := V c main_v32
/-- Input array 2 as the region finds it. -/
abbrev in2 (c : Dev nD) : S128x256.Idx → EReal := V c main_v34
/-- Input array 3 as the region finds it. -/
abbrev in3 (c : Dev nD) : S128x256.Idx → EReal := V c main_v36
/-- Input array 4 as the region finds it. -/
abbrev in4 (c : Dev nD) : S1x256.Idx → EReal := V c main_v39

/-- The whole-array function the region computes, of the arrays as the region finds them. -/
abbrev result (c : Dev nD) : S50000x256.Idx → EReal :=
  Cert.Spec.twoProducts (M := 50000) (K := 128) (D := 256) (in0 V c) (in1 V c) (in2 V c) (in3 V c) (in4 V c)

/-- What point `t` writes back is its block of `result`. -/
theorem flushed_eq (c : Dev nD) (t : Fin cfg2.N) :
    (dat2 (F := Ideal) V c).flushed 5 t = ((cfg2.win 5).blk t).view.read (Elt Ideal) (result V c) := by
  show (cfg2.win 5).cut (grid2.coords t) ((dat2 V c).after 5 t) = _
  rw [after2_5]
  unfold out2_5
  rw [View.canon_unit_zero origin_zero]
  simp only [View.ld_unit_zero (S := S5000x128) origin_zero, View.ld_unit_zero (S := S128x256) origin_zero, View.ld_unit_zero (S := S1x256) origin_zero]
  obtain ⟨e0, e1, e2, e3, e4, e5, e6, e7, e8, e9, e10, e11⟩ := index_maps t
  have hN : grid2.N = 10 := N_2
  have ht : t.val < 10 := hN ▸ t.isLt
  funext j
  obtain ⟨p, q, rfl⟩ : ∃ (p : Fin 5000) (q : Fin 256), j = ix2 p q := ⟨j 0, j 1, eq_ix2 j⟩
  have hp : p.val < 5000 := p.isLt
  let r : Fin 50000 := ⟨t.val * 5000 + p.val, by omega⟩
  have emb_out : ((cfg2.win 5).blk t).view.emb (ix2 p q) = (ix2 r q : S50000x256.Idx) := by
    funext ax; apply Fin.ext
    match ax with
    | ⟨0, _⟩ => show win2_5.index t (0 : Fin 2) * 5000 + 1 * p.val = t.val * 5000 + p.val; omega
    | ⟨1, _⟩ => show win2_5.index t (1 : Fin 2) * 256 + 1 * q.val = q.val; omega
  have rd_0 : ∀ k : Fin 128, iblk2 V c 0 t (ix2 p k) = in0 V c (ix2 r k) := fun k => by
    show V c main_v29 (((cfg2.win 0).blk t).view.emb (ix2 p k)) = _
    refine congrArg (V c main_v29) (funext fun ax => Fin.ext ?_)
    match ax with
    | ⟨0, _⟩ => show win2_0.index t (0 : Fin 2) * 5000 + 1 * p.val = t.val * 5000 + p.val; omega
    | ⟨1, _⟩ => show win2_0.index t (1 : Fin 2) * 128 + 1 * k.val = k.val; omega
  have rd_1 : ∀ k : Fin 128, iblk2 V c 1 t (ix2 p k) = in1 V c (ix2 r k) := fun k => by
    show V c main_v32 (((cfg2.win 1).blk t).view.emb (ix2 p k)) = _
    refine congrArg (V c main_v32) (funext fun ax => Fin.ext ?_)
    match ax with
    | ⟨0, _⟩ => show win2_1.index t (0 : Fin 2) * 5000 + 1 * p.val = t.val * 5000 + p.val; omega
    | ⟨1, _⟩ => show win2_1.index t (1 : Fin 2) * 128 + 1 * k.val = k.val; omega
  have rd_2 : ∀ k : Fin 128, iblk2 V c 2 t (ix2 k q) = in2 V c (ix2 k q) := fun k => by
    show V c main_v34 (((cfg2.win 2).blk t).view.emb (ix2 k q)) = _
    refine congrArg (V c main_v34) (funext fun ax => Fin.ext ?_)
    match ax with
    | ⟨0, _⟩ => show win2_2.index t (0 : Fin 2) * 128 + 1 * k.val = k.val; omega
    | ⟨1, _⟩ => show win2_2.index t (1 : Fin 2) * 256 + 1 * q.val = q.val; omega
  have rd_3 : ∀ k : Fin 128, iblk2 V c 3 t (ix2 k q) = in3 V c (ix2 k q) := fun k => by
    show V c main_v36 (((cfg2.win 3).blk t).view.emb (ix2 k q)) = _
    refine congrArg (V c main_v36) (funext fun ax => Fin.ext ?_)
    match ax with
    | ⟨0, _⟩ => show win2_3.index t (0 : Fin 2) * 128 + 1 * k.val = k.val; omega
    | ⟨1, _⟩ => show win2_3.index t (1 : Fin 2) * 256 + 1 * q.val = q.val; omega
  have rd_4 : iblk2 V c 4 t (ix2 (0 : Fin 1) q) = V c main_v39 (ix2 (0 : Fin 1) q : S1x256.Idx) := by
    show V c main_v39 (((cfg2.win 4).blk t).view.emb (ix2 (0 : Fin 1) q)) = _
    refine congrArg (V c main_v39) (funext fun ax => Fin.ext ?_)
    match ax with
    | ⟨0, _⟩ => show win2_4.index t (0 : Fin 2) * 1 + 1 * 0 = 0; omega
    | ⟨1, _⟩ => show win2_4.index t (1 : Fin 2) * 256 + 1 * q.val = q.val; omega
  show k2_pay1 (iblk2 V c 0 t) (iblk2 V c 1 t) (iblk2 V c 2 t) (iblk2 V c 3 t) (iblk2 V c 4 t) (ix2 p q)
    = result V c (((cfg2.win 5).blk t).view.emb (ix2 p q))
  rw [emb_out, Body1.twoProducts_pay, rd_4]
  show _ = ((∑ k : Fin 128, in0 V c (ix2 r k) * in2 V c (ix2 k q)) + (∑ k : Fin 128, in1 V c (ix2 r k) * in3 V c (ix2 k q)))
      + in4 V c (ix2 0 q)
  exact congrArg (· + in4 V c (ix2 0 q)) (congrArg₂ (· + ·) (Finset.sum_congr rfl fun k _ => by rw [rd_0 k, rd_2 k])
    (Finset.sum_congr rfl fun k _ => by rw [rd_1 k, rd_3 k]))

/-- An index of the result array is in point `t`'s block iff each coordinate is in the block's range. -/
theorem mem_blk (t : Fin cfg2.N) (i : S50000x256.Idx) :
    i ∈ ((cfg2.win 5).blk t).view.set ↔ ∀ ax : Fin 2, win2_5.index t ax * S5000x256.size ax ≤ (i ax).val
      ∧ (i ax).val < win2_5.index t ax * S5000x256.size ax + S5000x256.size ax := by
  show i ∈ ((View.whole main_v40).slice (win2_5.rect t)).set ↔ _
  rw [View.set_slice_whole, Rect.mem_set_unit]
  exact Iff.rfl

/-- Every entry of the result array is in the block of the point its row falls to. -/
theorem cover (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  have hN : grid2.N = 10 := N_2
  have hlt : (i 0).val / 5000 < grid2.N := by rw [hN]; omega
  obtain ⟨e0, e1, e2, e3, e4, e5, e6, e7, e8, e9, e10, e11⟩ := index_maps ⟨(i 0).val / 5000, hlt⟩
  have e_row : win2_5.index ⟨(i 0).val / 5000, hlt⟩ (0 : Fin 2) = (i 0).val / 5000 := e10
  refine ⟨⟨(i 0).val / 5000, hlt⟩, flush2_5 _, ?_⟩
  rw [mem_blk]
  intro ax
  match ax with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    omega
  | ⟨1, _⟩ =>
    show win2_5.index ⟨(i 0).val / 5000, hlt⟩ (1 : Fin 2) * 256 ≤ (i 1).val
      ∧ (i 1).val < win2_5.index ⟨(i 0).val / 5000, hlt⟩ (1 : Fin 2) * 256 + 256
    omega

/-- The result array after the run is `result`. -/
theorem final (c : Dev nD) : (dat2 (F := Ideal) V c).arrAt 5 cfg2.N = result V c :=
  (dat2 V c).arrAt_eq_of_cover 5 (result V c) (fun t _ => flushed_eq V c t) cover

/-- The input arrays end as the region found them: no point writes one back. -/
theorem kept (c : Dev nD) (w : Fin cfg2.W) (hw : w ≠ 5) :
    (dat2 (F := Ideal) V c).arrAt w cfg2.N = V c (Pipeline.arrRef spec2 w) := by
  have hin : (cfg2.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, hw => exact absurd rfl hw
  rw [(dat2 V c).arrAt_in w hin, A_eq2]

/-- The region as ONE host operation: `result`'s function of the input arrays into the result array. -/
def op : HloOp τ sig (Elt Ideal) :=
  Cert.Lib.RegionOp.op5 main_v29 main_v32 main_v34 main_v36 main_v39 main_v40
    (fun a b c d e => Cert.Spec.twoProducts (M := 50000) (K := 128) (D := 256) a b c d e) (by decide) ⟨by decide, rfl⟩

variable (m : (ℓ : Loc nD τ sig) → Buf (Elt Ideal) ℓ) (ρ : Dev nD → PrngReg)

/-- The buffer contents at the region's exit are the operation's result of the contents at its entry. -/
theorem exit_eq (c : Dev nD) : W6 (F := Ideal) m ρ c = op.result (W5 m ρ c) := by
  unfold W6
  refine Cert.Lib.RegionOp.withArrays_eq_result spec2 launch2.win.arr_inj c (W5 m ρ c) _ op 5 rfl ?_ ?_
  · show (dat2 (V5 m ρ) c).arrAt 5 cfg2.N = op.result (W5 m ρ c) (Proc.devRef .tc main_v40)
    refine (final (V5 m ρ) c).trans ?_
    unfold op
    rw [Cert.Lib.RegionOp.op5_result']
  · intro w hw
    exact kept (V5 m ρ) c w hw

end Cert.KernelIdeal.Region2

end
-- ==== Proof.NormProductBody.lean ====
/-
  The node update's second stage at an entry of its block, over the extended reals. With the column statistics
  given as rows, entry (p, k) of the normalised and rectified block is
      act[p,k] = max (g[0,k] · (z[p,k] − mean[0,k]) · rsqrt (var[0,k] + ε) + β[0,k]) 0,
  and the stored value is (∑ k, act[p,k] · w[k,q]) + b[0,q], of which the first four layers take the positive part
  once more and the last layer does not. ε and 0 are the float patterns the body splats, read as extended reals.
  The body's operands come in the order z, var, g, mean, β, w, b.
-/
import proofs.«132731_j31379031065008_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body2

open Idealize.ShloMosaic Idealize.ShloMosaic.ValueIdx Cert.KernelIdeal Cert.KernelIdeal.Gen

/-- The normalisation's ε, as the body spells it. -/
abbrev eps : Ideal .f32 := Scalar.ofBits .f32 0x3727C5AC#32
/-- The zero the positive parts are taken against, as the body spells it. -/
abbrev zero : Ideal .f32 := Scalar.ofBits .f32 0x00000000#32

/-- A 5000 × 256 block times a 256 × 128 map, into zeros, at an entry: the sum over the 256 contracted positions. -/
theorem matmul_5000x256 (l : FVec Ideal S5000x256 .bf16) (r : FVec Ideal S256x128 .bf16) (p : Fin 5000) (q : Fin 128) :
    FloatOps.matmul dot_S5000x256_S256x128_S5000x128_1_0_0_1_n_n none l r (constant S5000x128 .f32 0x00000000#32) (ix2 p q)
      = ∑ k : Fin 256, l (ix2 p k) * r (ix2 k q) := by
  rw [Ideal.matmul_constant_zero_apply]
  rw [← Equiv.sum_comp (contrEquiv1 dot_S5000x256_S256x128_S5000x128_1_0_0_1_n_n 256 rfl rfl).symm]
  refine Finset.sum_congr rfl fun k _ => ?_
  have hl : dot_S5000x256_S256x128_S5000x128_1_0_0_1_n_n.lhsIdx (ix2 p q) ((contrEquiv1 dot_S5000x256_S256x128_S5000x128_1_0_0_1_n_n 256 rfl rfl).symm k) = ix2 p k := by
    funext a; apply Fin.ext
    match a with
    | ⟨0, _⟩ => rfl
    | ⟨1, _⟩ => rfl
  have hr : dot_S5000x256_S256x128_S5000x128_1_0_0_1_n_n.rhsIdx (ix2 p q) ((contrEquiv1 dot_S5000x256_S256x128_S5000x128_1_0_0_1_n_n 256 rfl rfl).symm k) = ix2 k q := by
    funext a; apply Fin.ext
    match a with
    | ⟨0, _⟩ => rfl
    | ⟨1, _⟩ => rfl
  rw [hl, hr]

/-- Entry (p, k) of the normalised, rectified block. -/
def act (z : Vec Ideal S5000x256 .f32) (vr g mn bt : Vec Ideal S1x256 .f32) (p : Fin 5000) (k : Fin 256) : Ideal .f32 :=
  max (g (ix2 0 k) * (z (ix2 p k) - mn (ix2 0 k)) * FloatOps.rsqrt (F := Ideal) (φ := .f32) (vr (ix2 0 k) + eps) + bt (ix2 0 k)) zero

/-- The stored value at entry (p, q) of the block, layers 0 to 3. -/
theorem normProductPos_pay (z : Vec Ideal S5000x256 .f32) (vr g mn bt : Vec Ideal S1x256 .f32) (w : Vec Ideal S256x128 .f32)
    (b : Vec Ideal S1x128 .f32) (p : Fin 5000) (q : Fin 128) :
    k3_pay1 (F := Ideal) z vr g mn bt w b (ix2 p q)
      = max ((∑ k : Fin 256, act z vr g mn bt p k * w (ix2 k q)) + b (ix2 0 q)) zero := by
  unfold k3_pay1
  rw [maximumf_apply, addf_apply]
  refine congrArg₂ max (congrArg₂ (· + ·) ?_ ?_) rfl
  · refine (matmul_5000x256 _ _ p q).trans (Finset.sum_congr rfl fun k _ => ?_)
    simp only [truncf_apply, shapeCast_self]
    refine congrArg (· * w (ix2 k q)) ?_
    rw [maximumf_apply, addf_apply, mulf_apply, mulf_apply, subf_apply]
    simp only [broadcastTo_1b_ab_apply]
    rfl
  · rw [shapeCast_self]
    exact broadcastTo_1b_ab_apply _ _ p q

/-- The stored value at entry (p, q) of the block, the last layer. -/
theorem normProduct_pay (z : Vec Ideal S5000x256 .f32) (vr g mn bt : Vec Ideal S1x256 .f32) (w : Vec Ideal S256x128 .f32)
    (b : Vec Ideal S1x128 .f32) (p : Fin 5000) (q : Fin 128) :
    k15_pay1 (F := Ideal) z vr g mn bt w b (ix2 p q)
      = (∑ k : Fin 256, act z vr g mn bt p k * w (ix2 k q)) + b (ix2 0 q) := by
  unfold k15_pay1
  rw [addf_apply]
  refine congrArg₂ (· + ·) ?_ ?_
  · refine (matmul_5000x256 _ _ p q).trans (Finset.sum_congr rfl fun k _ => ?_)
    simp only [truncf_apply, shapeCast_self]
    refine congrArg (· * w (ix2 k q)) ?_
    rw [maximumf_apply, addf_apply, mulf_apply, mulf_apply, subf_apply]
    simp only [broadcastTo_1b_ab_apply]
    rfl
  · rw [shapeCast_self]
    exact broadcastTo_1b_ab_apply _ _ p q

/-- Layers 1 to 3 have layer 0's body. -/
theorem k6_eq (z : Vec Ideal S5000x256 .f32) (vr g mn bt : Vec Ideal S1x256 .f32) (w : Vec Ideal S256x128 .f32) (b : Vec Ideal S1x128 .f32) :
    k6_pay1 (F := Ideal) z vr g mn bt w b = k3_pay1 z vr g mn bt w b := rfl
theorem k9_eq (z : Vec Ideal S5000x256 .f32) (vr g mn bt : Vec Ideal S1x256 .f32) (w : Vec Ideal S256x128 .f32) (b : Vec Ideal S1x128 .f32) :
    k9_pay1 (F := Ideal) z vr g mn bt w b = k3_pay1 z vr g mn bt w b := rfl
theorem k12_eq (z : Vec Ideal S5000x256 .f32) (vr g mn bt : Vec Ideal S1x256 .f32) (w : Vec Ideal S256x128 .f32) (b : Vec Ideal S1x128 .f32) :
    k12_pay1 (F := Ideal) z vr g mn bt w b = k3_pay1 z vr g mn bt w b := rfl

end Cert.KernelIdeal.Body2

end
-- ==== Proof.Region3.lean ====
/-
  Region 3: the second stage of layer 0's node update on 50000 rows, 5000 rows to a block.

  Point t reads rows 5000·t … of the first stage's output z, the rows of column statistics (mean, variance), of scale
  and shift, the 256 × 128 second linear map and its row of biases, and writes the same rows of the result. The blocks
  cover the result array, and what a point writes is its block of ONE function of the whole arrays: with
  act[r,k] = max (g[0,k] · (z[r,k] − mean[0,k]) · rsqrt (var[0,k] + ε) + β[0,k]) 0, entry (r, c) ↦ max ((∑ k, act[r,k] · w[k,c]) + b[0,c]) 0.
  The input arrays are never written back; so the region leaves what one host operation computing that function leaves.
-/
import proofs.«132731_j31379031065008_1_alg».proof.Proof.Gen.KernelIdeal.Frame
import proofs.«132731_j31379031065008_1_alg».proof.Proof.Spec
import proofs.«132731_j31379031065008_1_alg».proof.Proof.NormProductBody
import proofs.«132731_j31379031065008_1_alg».proof.Proof.LibRegionOp
import Idealize.ShloMosaic.Lib.Pipeline.Value

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the row-blocked windows move with the point, the others stay. -/
theorem index_maps : ∀ t : Fin cfg3.N,
    win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = t.val
    ∧ win3_7.index t (1 : Fin 2) = 0 :=
  (by decide +kernel : ∀ t : Fin grid3.N, _)

/-- Input array 0 as the region finds it. -/
abbrev in0 (c : Dev nD) : S50000x256.Idx → EReal := V c main_v40
/-- Input array 1 as the region finds it. -/
abbrev in1 (c : Dev nD) : S1x256.Idx → EReal := V c main_v53
/-- Input array 2 as the region finds it. -/
abbrev in2 (c : Dev nD) : S1x256.Idx → EReal := V c main_v54
/-- Input array 3 as the region finds it. -/
abbrev in3 (c : Dev nD) : S1x256.Idx → EReal := V c main_v55
/-- Input array 4 as the region finds it. -/
abbrev in4 (c : Dev nD) : S1x256.Idx → EReal := V c main_v56
/-- Input array 5 as the region finds it. -/
abbrev in5 (c : Dev nD) : S256x128.Idx → EReal := V c main_v50
/-- Input array 6 as the region finds it. -/
abbrev in6 (c : Dev nD) : S1x128.Idx → EReal := V c main_v57

/-- The whole-array function the region computes, of the arrays as the region finds them. -/
abbrev result (c : Dev nD) : S50000x128.Idx → EReal :=
  Cert.Spec.normProductPos (M := 50000) (K := 256) (D := 128) Cert.Spec.eps Cert.Spec.zero (in0 V c) (in1 V c) (in2 V c) (in3 V c) (in4 V c) (in5 V c) (in6 V c)

/-- What point `t` writes back is its block of `result`. -/
theorem flushed_eq (c : Dev nD) (t : Fin cfg3.N) :
    (dat3 (F := Ideal) V c).flushed 7 t = ((cfg3.win 7).blk t).view.read (Elt Ideal) (result V c) := by
  show (cfg3.win 7).cut (grid3.coords t) ((dat3 V c).after 7 t) = _
  rw [after3_7]
  unfold out3_7
  rw [View.canon_unit_zero origin_zero]
  simp only [View.ld_unit_zero (S := S5000x256) origin_zero, View.ld_unit_zero (S := S1x256) origin_zero, View.ld_unit_zero (S := S256x128) origin_zero, View.ld_unit_zero (S := S1x128) origin_zero]
  obtain ⟨e0, e1, e2, e3, e4, e5, e6, e7, e8, e9, e10, e11, e12, e13, e14, e15⟩ := index_maps t
  have hN : grid3.N = 10 := N_3
  have ht : t.val < 10 := hN ▸ t.isLt
  funext j
  obtain ⟨p, q, rfl⟩ : ∃ (p : Fin 5000) (q : Fin 128), j = ix2 p q := ⟨j 0, j 1, eq_ix2 j⟩
  have hp : p.val < 5000 := p.isLt
  let r : Fin 50000 := ⟨t.val * 5000 + p.val, by omega⟩
  have emb_out : ((cfg3.win 7).blk t).view.emb (ix2 p q) = (ix2 r q : S50000x128.Idx) := by
    funext ax; apply Fin.ext
    match ax with
    | ⟨0, _⟩ => show win3_7.index t (0 : Fin 2) * 5000 + 1 * p.val = t.val * 5000 + p.val; omega
    | ⟨1, _⟩ => show win3_7.index t (1 : Fin 2) * 128 + 1 * q.val = q.val; omega
  have rd_0 : ∀ k : Fin 256, iblk3 V c 0 t (ix2 p k) = in0 V c (ix2 r k) := fun k => by
    show V c main_v40 (((cfg3.win 0).blk t).view.emb (ix2 p k)) = _
    refine congrArg (V c main_v40) (funext fun ax => Fin.ext ?_)
    match ax with
    | ⟨0, _⟩ => show win3_0.index t (0 : Fin 2) * 5000 + 1 * p.val = t.val * 5000 + p.val; omega
    | ⟨1, _⟩ => show win3_0.index t (1 : Fin 2) * 256 + 1 * k.val = k.val; omega
  have rd_1 : ∀ k : Fin 256, iblk3 V c 1 t (ix2 (0 : Fin 1) k) = V c main_v53 (ix2 (0 : Fin 1) k : S1x256.Idx) := fun k => by
    show V c main_v53 (((cfg3.win 1).blk t).view.emb (ix2 (0 : Fin 1) k)) = _
    refine congrArg (V c main_v53) (funext fun ax => Fin.ext ?_)
    match ax with
    | ⟨0, _⟩ => show win3_1.index t (0 : Fin 2) * 1 + 1 * 0 = 0; omega
    | ⟨1, _⟩ => show win3_1.index t (1 : Fin 2) * 256 + 1 * k.val = k.val; omega
  have rd_2 : ∀ k : Fin 256, iblk3 V c 2 t (ix2 (0 : Fin 1) k) = V c main_v54 (ix2 (0 : Fin 1) k : S1x256.Idx) := fun k => by
    show V c main_v54 (((cfg3.win 2).blk t).view.emb (ix2 (0 : Fin 1) k)) = _
    refine congrArg (V c main_v54) (funext fun ax => Fin.ext ?_)
    match ax with
    | ⟨0, _⟩ => show win3_2.index t (0 : Fin 2) * 1 + 1 * 0 = 0; omega
    | ⟨1, _⟩ => show win3_2.index t (1 : Fin 2) * 256 + 1 * k.val = k.val; omega
  have rd_3 : ∀ k : Fin 256, iblk3 V c 3 t (ix2 (0 : Fin 1) k) = V c main_v55 (ix2 (0 : Fin 1) k : S1x256.Idx) := fun k => by
    show V c main_v55 (((cfg3.win 3).blk t).view.emb (ix2 (0 : Fin 1) k)) = _
    refine congrArg (V c main_v55) (funext fun ax => Fin.ext ?_)
    match ax with
    | ⟨0, _⟩ => show win3_3.index t (0 : Fin 2) * 1 + 1 * 0 = 0; omega
    | ⟨1, _⟩ => show win3_3.index t (1 : Fin 2) * 256 + 1 * k.val = k.val; omega
  have rd_4 : ∀ k : Fin 256, iblk3 V c 4 t (ix2 (0 : Fin 1) k) = V c main_v56 (ix2 (0 : Fin 1) k : S1x256.Idx) := fun k => by
    show V c main_v56 (((cfg3.win 4).blk t).view.emb (ix2 (0 : Fin 1) k)) = _
    refine congrArg (V c main_v56) (funext fun ax => Fin.ext ?_)
    match ax with
    | ⟨0, _⟩ => show win3_4.index t (0 : Fin 2) * 1 + 1 * 0 = 0; omega
    | ⟨1, _⟩ => show win3_4.index t (1 : Fin 2) * 256 + 1 * k.val = k.val; omega
  have rd_5 : ∀ k : Fin 256, iblk3 V c 5 t (ix2 k q) = in5 V c (ix2 k q) := fun k => by
    show V c main_v50 (((cfg3.win 5).blk t).view.emb (ix2 k q)) = _
    refine congrArg (V c main_v50) (funext fun ax => Fin.ext ?_)
    match ax with
    | ⟨0, _⟩ => show win3_5.index t (0 : Fin 2) * 256 + 1 * k.val = k.val; omega
    | ⟨1, _⟩ => show win3_5.index t (1 : Fin 2) * 128 + 1 * q.val = q.val; omega
  have rd_6 : iblk3 V c 6 t (ix2 (0 : Fin 1) q) = V c main_v57 (ix2 (0 : Fin 1) q : S1x128.Idx) := by
    show V c main_v57 (((cfg3.win 6).blk t).view.emb (ix2 (0 : Fin 1) q)) = _
    refine congrArg (V c main_v57) (funext fun ax => Fin.ext ?_)
    match ax with
    | ⟨0, _⟩ => show win3_6.index t (0 : Fin 2) * 1 + 1 * 0 = 0; omega
    | ⟨1, _⟩ => show win3_6.index t (1 : Fin 2) * 128 + 1 * q.val = q.val; omega
  show k3_pay1 (iblk3 V c 0 t) (iblk3 V c 2 t) (iblk3 V c 3 t) (iblk3 V c 1 t) (iblk3 V c 4 t) (iblk3 V c 5 t) (iblk3 V c 6 t) (ix2 p q)
    = result V c (((cfg3.win 7).blk t).view.emb (ix2 p q))
  rw [emb_out, Body2.normProductPos_pay, rd_6]
  show _ = max ((∑ k : Fin 256, Cert.Spec.normAct Cert.Spec.eps Cert.Spec.zero (in0 V c) (in1 V c) (in2 V c) (in3 V c) (in4 V c) r k * in5 V c (ix2 k q)) + in6 V c (ix2 0 q)) Cert.Spec.zero
  refine congrArg (max · Cert.Spec.zero) (congrArg (· + in6 V c (ix2 0 q)) (Finset.sum_congr rfl fun k _ => ?_))
  unfold Body2.act Cert.Spec.normAct
  rw [rd_0 k, rd_1 k, rd_2 k, rd_3 k, rd_4 k, rd_5 k]

/-- An index of the result array is in point `t`'s block iff each coordinate is in the block's range. -/
theorem mem_blk (t : Fin cfg3.N) (i : S50000x128.Idx) :
    i ∈ ((cfg3.win 7).blk t).view.set ↔ ∀ ax : Fin 2, win3_7.index t ax * S5000x128.size ax ≤ (i ax).val
      ∧ (i ax).val < win3_7.index t ax * S5000x128.size ax + S5000x128.size ax := by
  show i ∈ ((View.whole main_v58).slice (win3_7.rect t)).set ↔ _
  rw [View.set_slice_whole, Rect.mem_set_unit]
  exact Iff.rfl

/-- Every entry of the result array is in the block of the point its row falls to. -/
theorem cover (i : S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  have hN : grid3.N = 10 := N_3
  have hlt : (i 0).val / 5000 < grid3.N := by rw [hN]; omega
  obtain ⟨e0, e1, e2, e3, e4, e5, e6, e7, e8, e9, e10, e11, e12, e13, e14, e15⟩ := index_maps ⟨(i 0).val / 5000, hlt⟩
  have e_row : win3_7.index ⟨(i 0).val / 5000, hlt⟩ (0 : Fin 2) = (i 0).val / 5000 := e14
  refine ⟨⟨(i 0).val / 5000, hlt⟩, flush3_7 _, ?_⟩
  rw [mem_blk]
  intro ax
  match ax with
  | ⟨0, _⟩ =>
    show win3_7.index ⟨(i 0).val / 5000, hlt⟩ (0 : Fin 2) * 5000 ≤ (i 0).val
      ∧ (i 0).val < win3_7.index ⟨(i 0).val / 5000, hlt⟩ (0 : Fin 2) * 5000 + 5000
    omega
  | ⟨1, _⟩ =>
    show win3_7.index ⟨(i 0).val / 5000, hlt⟩ (1 : Fin 2) * 128 ≤ (i 1).val
      ∧ (i 1).val < win3_7.index ⟨(i 0).val / 5000, hlt⟩ (1 : Fin 2) * 128 + 128
    omega

/-- The result array after the run is `result`. -/
theorem final (c : Dev nD) : (dat3 (F := Ideal) V c).arrAt 7 cfg3.N = result V c :=
  (dat3 V c).arrAt_eq_of_cover 7 (result V c) (fun t _ => flushed_eq V c t) cover

/-- The input arrays end as the region found them: no point writes one back. -/
theorem kept (c : Dev nD) (w : Fin cfg3.W) (hw : w ≠ 7) :
    (dat3 (F := Ideal) V c).arrAt w cfg3.N = V c (Pipeline.arrRef spec3 w) := by
  have hin : (cfg3.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, hw => exact absurd rfl hw
  rw [(dat3 V c).arrAt_in w hin, A_eq3]

/-- The region as ONE host operation: `result`'s function of the input arrays into the result array. -/
def op : HloOp τ sig (Elt Ideal) :=
  Cert.Lib.RegionOp.op7 main_v40 main_v53 main_v54 main_v55 main_v56 main_v50 main_v57 main_v58
    (fun z mn vr g β w b => Cert.Spec.normProductPos (M := 50000) (K := 256) (D := 128) Cert.Spec.eps Cert.Spec.zero z mn vr g β w b) (by decide) ⟨by decide, rfl⟩

variable (m : (ℓ : Loc nD τ sig) → Buf (Elt Ideal) ℓ) (ρ : Dev nD → PrngReg)

/-- The buffer contents at the region's exit are the operation's result of the contents at its entry. -/
theorem exit_eq (c : Dev nD) : W10 (F := Ideal) m ρ c = op.result (W9 m ρ c) := by
  unfold W10
  refine Cert.Lib.RegionOp.withArrays_eq_result spec3 launch3.win.arr_inj c (W9 m ρ c) _ op 7 rfl ?_ ?_
  · show (dat3 (V9 m ρ) c).arrAt 7 cfg3.N = op.result (W9 m ρ c) (Proc.devRef .tc main_v58)
    refine (final (V9 m ρ) c).trans ?_
    unfold op
    rw [Cert.Lib.RegionOp.op7_result']
  · intro w hw
    exact kept (V9 m ρ) c w hw

end Cert.KernelIdeal.Region3

end
-- ==== Proof.KShared.lean ====
/-
  The parts of a message-passing layer that both programs run as the same host operations, named once, and a layer's
  output as one term of its inputs.

  `gatherIdx src`  the source indices as a column, a negative one moved up by 50000 (the index fix-up of a gather);
  `aggX h src dst` the rows of `h` at the source indices, added into zeros at the destination indices;
  `aggE e dst`     the edge embeddings added into zeros at the destination indices;
  `colMean z`      the column sums over 50000;  `colVar z` the column sums of the squared deviations from the column
                    means over 50000 − 0, where that count is positive (and the not-a-number pattern otherwise).
  A layer: embed the edges (affine), aggregate both, apply the first linear map to the two aggregates, normalise by
  the column statistics, rectify, apply the second linear map (and rectify, except in the last layer).
-/
import proofs.«132731_j31379031065008_1_alg».proof.Proof.Gen.KernelIdeal
import proofs.«132731_j31379031065008_1_alg».proof.Proof.Spec

noncomputable section

namespace Cert.KernelIdeal.Shared

open Idealize.ShloMosaic Idealize.ShloMosaic.ValueIdx Cert.KernelIdeal
open Cert.KernelIdeal.Facts₀ Cert.KernelIdeal.Facts

/-- The source indices as a column, a negative one moved up by 50000. -/
def gatherIdx (src : IVec S450000 32) : IVec S450000x1 32 :=
  broadcastInDim S450000x1 ![0] bcast_S450000_S450000x1_0
    (select (cmpi .slt src (broadcastInDim S450000 ![] bcast_S_S450000 (constantI S_ 32 0#32)))
      (addi src (broadcastInDim S450000 ![] bcast_S_S450000 (constantI S_ 32 50000#32))) src)

/-- The rows of `h` at the source indices, added into zeros at the destination indices. -/
def aggX (h : FVec Ideal S50000x128 .f32) (src dst : IVec S450000 32) : FVec Ideal S50000x128 .f32 :=
  Host.scatterAdd (F := Ideal) scatter_S50000x128_S450000x1_S450000x128_1_0_0_1
    (broadcastInDim S50000x128 ![] bcast_S_S50000x128 (constant (F := Ideal) S_ .f32 0x00000000#32))
    (broadcastInDim S450000x1 ![0] bcast_S450000_S450000x1_0 dst)
    (Host.gather gather_S50000x128_S450000x1_S450000x128_1_0_n_n_0_1_1128 h (gatherIdx src))

/-- The edge embeddings added into zeros at the destination indices. -/
def aggE (e : FVec Ideal S450000x128 .f32) (dst : IVec S450000 32) : FVec Ideal S50000x128 .f32 :=
  Host.scatterAdd (F := Ideal) scatter_S50000x128_S450000x1_S450000x128_1_0_0_1
    (broadcastInDim S50000x128 ![] bcast_S_S50000x128 (constant (F := Ideal) S_ .f32 0x00000000#32))
    (broadcastInDim S450000x1 ![0] bcast_S450000_S450000x1_0 dst) e

/-- The column sums over 50000. -/
def colMean (z : FVec Ideal S50000x256 .f32) : FVec Ideal S256 .f32 :=
  Host.divf (F := Ideal) (Host.reduceAdd (F := Ideal) z (constant (F := Ideal) S_ .f32 0x00000000#32) reducesTo_S50000x256_S256_d0 h_S_)
    (broadcastInDim S256 ![] bcast_S_S256 (constant (F := Ideal) S_ .f32 0x47435000#32))

/-- The column variances: the column sums of the squared deviations from the column means, over `50000 − 0`, where
    that count is positive. -/
def colVar (z : FVec Ideal S50000x256 .f32) : FVec Ideal S256 .f32 :=
  select
    (broadcastInDim S256 ![] bcast_S_S256
      (cmpf (F := Ideal) .ogt (subf (constant (F := Ideal) S_ .f32 0x47435000#32) (sitofp (F := Ideal) .f32 (constantI S_ 32 0#32))) (constant (F := Ideal) S_ .f32 0x00000000#32)))
    (Host.divf (F := Ideal)
      (Host.reduceAdd
        (mulf
          (subf z (broadcastInDim S50000x256 ![0, 1] bcast_S1x256_S50000x256_0_1
            (Host.divf (F := Ideal) (broadcastInDim S1x256 ![1] bcast_S256_S1x256_1
                (Host.reduceAdd (F := Ideal) z (constant (F := Ideal) S_ .f32 0x00000000#32) reducesTo_S50000x256_S256_d0 h_S_))
              (broadcastInDim S1x256 ![] bcast_S_S1x256 (constant (F := Ideal) S_ .f32 0x47435000#32)))))
          (subf z (broadcastInDim S50000x256 ![0, 1] bcast_S1x256_S50000x256_0_1
            (Host.divf (F := Ideal) (broadcastInDim S1x256 ![1] bcast_S256_S1x256_1
                (Host.reduceAdd (F := Ideal) z (constant (F := Ideal) S_ .f32 0x00000000#32) reducesTo_S50000x256_S256_d0 h_S_))
              (broadcastInDim S1x256 ![] bcast_S_S1x256 (constant (F := Ideal) S_ .f32 0x47435000#32))))))
        (constant (F := Ideal) S_ .f32 0x00000000#32) reducesTo_S50000x256_S256_d0 h_S_)
      (broadcastInDim S256 ![] bcast_S_S256
        (subf (constant (F := Ideal) S_ .f32 0x47435000#32) (sitofp (F := Ideal) .f32 (constantI S_ 32 0#32)))))
    (broadcastInDim S256 ![] bcast_S_S256 (id (constant (F := Ideal) S_ .f32 0x7FC00000#32)))

/-- Layer `l`'s edge embeddings. -/
def eembTerm (l : Fin 5) (ea : FVec Ideal S450000x3 .f32) (a5 : FVec Ideal S5x3x128 .f32) (a6 : FVec Ideal S5x128 .f32) :
    FVec Ideal S450000x128 .f32 :=
  Cert.Spec.affine (M := 450000) (K := 3) (D := 128) ea (Cert.Spec.layerMat a5 l) (Cert.Spec.layerRow a6 l)

/-- Layer `l`'s first linear stage, of the layer's input `h`. -/
def zTerm (l : Fin 5) (h : FVec Ideal S50000x128 .f32) (src dst : IVec S450000 32) (ea : FVec Ideal S450000x3 .f32)
    (a5 : FVec Ideal S5x3x128 .f32) (a6 : FVec Ideal S5x128 .f32) (a7 : FVec Ideal S5x256x256 .f32) (a8 : FVec Ideal S5x256 .f32) :
    FVec Ideal S50000x256 .f32 :=
  Cert.Spec.twoProducts (M := 50000) (K := 128) (D := 256) (aggX h src dst) (aggE (eembTerm l ea a5 a6) dst)
    (Cert.Spec.layerMatTop a7 l) (Cert.Spec.layerMatBot a7 l) (Cert.Spec.layerRow a8 l)

/-- Layers 0 to 3: the layer's output of its first linear stage `z`. -/
def outPos (l : Fin 5) (z : FVec Ideal S50000x256 .f32) (a9 a10 : FVec Ideal S5x256 .f32) (a11 : FVec Ideal S5x256x128 .f32)
    (a12 : FVec Ideal S5x128 .f32) : FVec Ideal S50000x128 .f32 :=
  Cert.Spec.normProductPos (M := 50000) (K := 256) (D := 128) Cert.Spec.eps Cert.Spec.zero z (Cert.Spec.asRow (colMean z))
    (Cert.Spec.asRow (colVar z)) (Cert.Spec.layerRow a9 l) (Cert.Spec.layerRow a10 l) (Cert.Spec.layerMat a11 l) (Cert.Spec.layerRow a12 l)

/-- The last layer: no positive part at the end. -/
def outLast (l : Fin 5) (z : FVec Ideal S50000x256 .f32) (a9 a10 : FVec Ideal S5x256 .f32) (a11 : FVec Ideal S5x256x128 .f32)
    (a12 : FVec Ideal S5x128 .f32) : FVec Ideal S50000x128 .f32 :=
  Cert.Spec.normProduct (M := 50000) (K := 256) (D := 128) Cert.Spec.eps Cert.Spec.zero z (Cert.Spec.asRow (colMean z))
    (Cert.Spec.asRow (colVar z)) (Cert.Spec.layerRow a9 l) (Cert.Spec.layerRow a10 l) (Cert.Spec.layerMat a11 l) (Cert.Spec.layerRow a12 l)

end Cert.KernelIdeal.Shared

end
-- ==== Proof.KRead.lean ====
/-
  Reading a buffer after a run of host operations and regions-as-operations: one rewriting pass that replaces each
  operation's result by its function of the operands' contents and skips the operations that do not write the buffer
  (the references' inequalities are decided).
-/
import proofs.«132731_j31379031065008_1_alg».proof.Proof.LibRegionOp
import Idealize.ShloMosaic.Lib.StableHlo.Run

open Idealize.ShloMosaic in
/-- The rewriting pass. -/
macro "kernel_read" : tactic =>
  `(tactic| simp (disch := decide) only [StableHlo.after_cons, StableHlo.after_nil, List.flatten_cons, List.flatten_nil, List.append_nil, List.cons_append, List.nil_append,
    StableHlo.nullary_result', StableHlo.unary_result', StableHlo.binary_result', StableHlo.ternary_result', StableHlo.quaternary_result',
    StableHlo.reshape_result', StableHlo.nary4_result', Cert.Lib.RegionOp.op5_result', Cert.Lib.RegionOp.op7_result',
    StableHlo.unaryIndexed_result', StableHlo.binaryIndexed_result',
    StableHlo.nullary_result_ne', StableHlo.unary_result_ne', StableHlo.binary_result_ne', StableHlo.ternary_result_ne', StableHlo.quaternary_result_ne',
    StableHlo.reshape_result_ne', StableHlo.nary_result_ne', Cert.Lib.RegionOp.op5_result_ne', Cert.Lib.RegionOp.op7_result_ne',
    StableHlo.unaryIndexed_result_ne', StableHlo.binaryIndexed_result_ne'])
-- ==== Proof.Canon.lean ====
/-
  Readings of a layer's parameters out of the stacked arguments, each as an equation between whole arrays over the
  extended reals: a unit-offset slice of a stack followed by the change of shape that drops (or re-adds) the unit axis
  is the stack read at that layer's index. Every shape relation is a hypothesis, so the equations apply whatever
  proof of it a program carries.
-/
import proofs.«132731_j31379031065008_1_alg».proof.Proof.Spec
import Idealize.ShloMosaic.Lib.ValueIdx
import Idealize.ShloMosaic.Lib.Pipeline.Value

noncomputable section

namespace Cert.Canon

open Idealize.ShloMosaic Idealize.ShloMosaic.ValueIdx

variable {L R C : Nat}

/-- Layer `l`'s matrix: the slice `[l : l+1, 0 : R, 0 : C]` of the stack with its unit axis dropped. -/
theorem mat_of_slice (l : Fin L) (X : (⟨3, ![L, R, C]⟩ : Shape).Idx → EReal)
    (hs : (⟨3, ![L, R, C]⟩ : Shape).Slices ![l.val, 0, 0] ⟨3, ![1, R, C]⟩)
    (hc : (⟨3, ![1, R, C]⟩ : Shape).ShapeCasts ⟨2, ![R, C]⟩) :
    (fun i => shapeCast ⟨2, ![R, C]⟩ (extractStridedSlice ⟨3, ![1, R, C]⟩ ![l.val, 0, 0] X hs) hc i)
      = Cert.Spec.layerMat X l := by
  funext i
  obtain ⟨k, c, rfl⟩ : ∃ k c, i = ix2 k c := ⟨i 0, i 1, eq_ix2 i⟩
  refine (shapeCast_apply _ _ (ix2 k c) (ix3 (0 : Fin 1) k c) ?_).trans ?_
  · rw [Shape.rowMajor_val_three, Shape.rowMajor_val_two]
    show ((0 * R + k.val) * C + c.val) = k.val * C + c.val
    rw [Nat.zero_mul, Nat.zero_add]
  · refine (extractStridedSlice_apply _ _ _ (ix3 (0 : Fin 1) k c) (ix3 l k c) ?_).trans rfl
    intro d
    match d with
    | ⟨0, _⟩ => show l.val = l.val + 0; omega
    | ⟨1, _⟩ => show k.val = 0 + k.val; omega
    | ⟨2, _⟩ => show c.val = 0 + c.val; omega

/-- The upper half of layer `l`'s matrix of `R + R` rows: the slice `[l : l+1, 0 : R, 0 : C]`, unit axis dropped. -/
theorem matTop_of_slice (l : Fin L) (X : (⟨3, ![L, R + R, C]⟩ : Shape).Idx → EReal)
    (hs : (⟨3, ![L, R + R, C]⟩ : Shape).Slices ![l.val, 0, 0] ⟨3, ![1, R, C]⟩)
    (hc : (⟨3, ![1, R, C]⟩ : Shape).ShapeCasts ⟨2, ![R, C]⟩) :
    (fun i => shapeCast ⟨2, ![R, C]⟩ (extractStridedSlice ⟨3, ![1, R, C]⟩ ![l.val, 0, 0] X hs) hc i)
      = Cert.Spec.layerMatTop X l := by
  funext i
  obtain ⟨k, c, rfl⟩ : ∃ k c, i = ix2 k c := ⟨i 0, i 1, eq_ix2 i⟩
  refine (shapeCast_apply _ _ (ix2 k c) (ix3 (0 : Fin 1) k c) ?_).trans ?_
  · rw [Shape.rowMajor_val_three, Shape.rowMajor_val_two]
    show ((0 * R + k.val) * C + c.val) = k.val * C + c.val
    rw [Nat.zero_mul, Nat.zero_add]
  · refine (extractStridedSlice_apply _ _ _ (ix3 (0 : Fin 1) k c) (ix3 l (Fin.castAdd R k) c) ?_).trans rfl
    intro d
    match d with
    | ⟨0, _⟩ => show l.val = l.val + 0; omega
    | ⟨1, _⟩ => show k.val = 0 + k.val; omega
    | ⟨2, _⟩ => show c.val = 0 + c.val; omega

/-- The lower half of layer `l`'s matrix of `R + R` rows: the slice `[l : l+1, R : R+R, 0 : C]`, unit axis dropped. -/
theorem matBot_of_slice (l : Fin L) (X : (⟨3, ![L, R + R, C]⟩ : Shape).Idx → EReal)
    (hs : (⟨3, ![L, R + R, C]⟩ : Shape).Slices ![l.val, R, 0] ⟨3, ![1, R, C]⟩)
    (hc : (⟨3, ![1, R, C]⟩ : Shape).ShapeCasts ⟨2, ![R, C]⟩) :
    (fun i => shapeCast ⟨2, ![R, C]⟩ (extractStridedSlice ⟨3, ![1, R, C]⟩ ![l.val, R, 0] X hs) hc i)
      = Cert.Spec.layerMatBot X l := by
  funext i
  obtain ⟨k, c, rfl⟩ : ∃ k c, i = ix2 k c := ⟨i 0, i 1, eq_ix2 i⟩
  refine (shapeCast_apply _ _ (ix2 k c) (ix3 (0 : Fin 1) k c) ?_).trans ?_
  · rw [Shape.rowMajor_val_three, Shape.rowMajor_val_two]
    show ((0 * R + k.val) * C + c.val) = k.val * C + c.val
    rw [Nat.zero_mul, Nat.zero_add]
  · refine (extractStridedSlice_apply _ _ _ (ix3 (0 : Fin 1) k c) (ix3 l (Fin.natAdd R k) c) ?_).trans rfl
    intro d
    match d with
    | ⟨0, _⟩ => show l.val = l.val + 0; omega
    | ⟨1, _⟩ => show R + k.val = R + k.val; rfl
    | ⟨2, _⟩ => show c.val = 0 + c.val; omega

/-- Layer `l`'s vector as a one-row matrix: the slice `[l : l+1, 0 : C]` of the stack, flattened to a vector and
    given its unit axis back. -/
theorem row_of_slice (l : Fin L) (X : (⟨2, ![L, C]⟩ : Shape).Idx → EReal)
    (hs : (⟨2, ![L, C]⟩ : Shape).Slices ![l.val, 0] ⟨2, ![1, C]⟩)
    (hc1 : (⟨2, ![1, C]⟩ : Shape).ShapeCasts ⟨1, ![C]⟩) (hc2 : (⟨1, ![C]⟩ : Shape).ShapeCasts ⟨2, ![1, C]⟩) :
    (fun i => shapeCast ⟨2, ![1, C]⟩
        (fun j => shapeCast ⟨1, ![C]⟩ (extractStridedSlice ⟨2, ![1, C]⟩ ![l.val, 0] X hs) hc1 j) hc2 i)
      = Cert.Spec.layerRow X l := by
  funext i
  obtain ⟨r, c, rfl⟩ : ∃ r c, i = ix2 r c := ⟨i 0, i 1, eq_ix2 i⟩
  have hr0 : r.val = 0 := by have := r.isLt; omega
  refine (shapeCast_apply _ _ (ix2 r c) (ix1 c) ?_).trans ?_
  · rw [Shape.rowMajor_val_two, Shape.rowMajor_val_one]
    show c.val = r.val * C + c.val
    rw [hr0, Nat.zero_mul, Nat.zero_add]
  refine (shapeCast_apply _ _ (ix1 c) (ix2 (0 : Fin 1) c) ?_).trans ?_
  · rw [Shape.rowMajor_val_two, Shape.rowMajor_val_one]
    show 0 * C + c.val = c.val
    rw [Nat.zero_mul, Nat.zero_add]
  · refine (extractStridedSlice_apply _ _ _ (ix2 (0 : Fin 1) c) (ix2 l c) ?_).trans rfl
    intro d
    match d with
    | ⟨0, _⟩ => show l.val = l.val + 0; omega
    | ⟨1, _⟩ => show c.val = 0 + c.val; omega

/-- Layer `l`'s vector: the slice `[l : l+1, 0 : C]` of the stack flattened to a vector, read as a one-row matrix. -/
theorem row_of_slice_vec (l : Fin L) (X : (⟨2, ![L, C]⟩ : Shape).Idx → EReal)
    (hs : (⟨2, ![L, C]⟩ : Shape).Slices ![l.val, 0] ⟨2, ![1, C]⟩)
    (hc1 : (⟨2, ![1, C]⟩ : Shape).ShapeCasts ⟨1, ![C]⟩) :
    Cert.Spec.asRow (fun j => shapeCast ⟨1, ![C]⟩ (extractStridedSlice ⟨2, ![1, C]⟩ ![l.val, 0] X hs) hc1 j)
      = Cert.Spec.layerRow X l := by
  funext i
  obtain ⟨r, c, rfl⟩ : ∃ r c, i = ix2 r c := ⟨i 0, i 1, eq_ix2 i⟩
  show shapeCast ⟨1, ![C]⟩ (extractStridedSlice ⟨2, ![1, C]⟩ ![l.val, 0] X hs) hc1 (ix1 c) = X (ix2 l c)
  refine (shapeCast_apply _ _ (ix1 c) (ix2 (0 : Fin 1) c) ?_).trans ?_
  · rw [Shape.rowMajor_val_two, Shape.rowMajor_val_one]
    show 0 * C + c.val = c.val
    rw [Nat.zero_mul, Nat.zero_add]
  · refine (extractStridedSlice_apply _ _ _ (ix2 (0 : Fin 1) c) (ix2 l c) ?_).trans rfl
    intro d
    match d with
    | ⟨0, _⟩ => show l.val = l.val + 0; omega
    | ⟨1, _⟩ => show c.val = 0 + c.val; omega

/-- A vector given a leading unit axis is that vector as a one-row matrix. -/
theorem row_of_vec (v : (⟨1, ![C]⟩ : Shape).Idx → EReal) (hc : (⟨1, ![C]⟩ : Shape).ShapeCasts ⟨2, ![1, C]⟩) :
    (fun i => shapeCast ⟨2, ![1, C]⟩ v hc i) = Cert.Spec.asRow v := by
  funext i
  obtain ⟨r, c, rfl⟩ : ∃ r c, i = ix2 r c := ⟨i 0, i 1, eq_ix2 i⟩
  have hr0 : r.val = 0 := by have := r.isLt; omega
  refine (shapeCast_apply _ _ (ix2 r c) (ix1 c) ?_).trans rfl
  rw [Shape.rowMajor_val_two, Shape.rowMajor_val_one]
  show c.val = r.val * C + c.val
  rw [hr0, Nat.zero_mul, Nat.zero_add]

end Cert.Canon

end
-- ==== Proof.KLayer0.lean ====
/-
  Layer 0 of the kernel program, read off the fold of its host stretches and of its four regions taken as single
  operations. Before the first region the program builds, from the arguments, the source and destination index
  arrays with the self loops appended and the edge features with the self loops' features appended; these and the
  arguments are what the rest of the run reads, so everything is stated over the buffer contents after that first
  stretch. Then: the edge embeddings, the input projection of the node features, the first linear stage of the two
  aggregates, and the layer's output; and the buffers the layer leaves alone.
-/
import proofs.«132731_j31379031065008_1_alg».proof.Proof.Region0
import proofs.«132731_j31379031065008_1_alg».proof.Proof.Region1
import proofs.«132731_j31379031065008_1_alg».proof.Proof.Region2
import proofs.«132731_j31379031065008_1_alg».proof.Proof.Region3
import proofs.«132731_j31379031065008_1_alg».proof.Proof.KShared
import proofs.«132731_j31379031065008_1_alg».proof.Proof.KRead
import proofs.«132731_j31379031065008_1_alg».proof.Proof.Canon

set_option maxRecDepth 16384
set_option maxHeartbeats 4000000

noncomputable section

namespace Cert.KernelIdeal.Layer0

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The buffer contents after the first stretch of host operations, named so that readings stop there. -/
def U1 (c : Dev nD) : Valuation τ sig (Elt Ideal) := W1 m ρ c

theorem U1_eq (c : Dev nD) : W1 (F := Ideal) m ρ c = U1 m ρ c := rfl

/-- Two index vectors one after the other. -/
def catI (a : (⟨S400000, .i32⟩ : BufTy).Contents (Elt Ideal)) (b : (⟨S50000, .i32⟩ : BufTy).Contents (Elt Ideal)) :
    (⟨S450000, .i32⟩ : BufTy).Contents (Elt Ideal) :=
  concatenate S450000 0 [⟨S400000, a⟩, ⟨S50000, b⟩] Facts₀.concatenates_S400000_S50000_S450000_d0
theorem catI_eq (a : (⟨S400000, .i32⟩ : BufTy).Contents (Elt Ideal)) (b : (⟨S50000, .i32⟩ : BufTy).Contents (Elt Ideal)) :
    concatenate S450000 0 [⟨S400000, a⟩, ⟨S50000, b⟩] Facts₀.concatenates_S400000_S50000_S450000_d0 = catI a b := rfl
/-- Two blocks of feature rows one after the other. -/
def catF (a : (⟨S400000x3, .f32⟩ : BufTy).Contents (Elt Ideal)) (b : (⟨S50000x3, .f32⟩ : BufTy).Contents (Elt Ideal)) :
    (⟨S450000x3, .f32⟩ : BufTy).Contents (Elt Ideal) :=
  concatenate S450000x3 0 [⟨S400000x3, a⟩, ⟨S50000x3, b⟩] Facts₀.concatenates_S400000x3_S50000x3_S450000x3_d0
theorem catF_eq (a : (⟨S400000x3, .f32⟩ : BufTy).Contents (Elt Ideal)) (b : (⟨S50000x3, .f32⟩ : BufTy).Contents (Elt Ideal)) :
    concatenate S450000x3 0 [⟨S400000x3, a⟩, ⟨S50000x3, b⟩] Facts₀.concatenates_S400000x3_S50000x3_S450000x3_d0 = catF a b := rfl

/-- The first stretch writes no argument. -/
theorem pre_args (c : Dev nD) :
    U1 m ρ c (Proc.devRef .tc main_arg0) = m ((c.tc : Thread nD τ).loc main_arg0)
    ∧ U1 m ρ c (Proc.devRef .tc main_arg1) = m ((c.tc : Thread nD τ).loc main_arg1)
    ∧ U1 m ρ c (Proc.devRef .tc main_arg2) = m ((c.tc : Thread nD τ).loc main_arg2)
    ∧ U1 m ρ c (Proc.devRef .tc main_arg3) = m ((c.tc : Thread nD τ).loc main_arg3)
    ∧ U1 m ρ c (Proc.devRef .tc main_arg4) = m ((c.tc : Thread nD τ).loc main_arg4)
    ∧ U1 m ρ c (Proc.devRef .tc main_arg5) = m ((c.tc : Thread nD τ).loc main_arg5)
    ∧ U1 m ρ c (Proc.devRef .tc main_arg6) = m ((c.tc : Thread nD τ).loc main_arg6)
    ∧ U1 m ρ c (Proc.devRef .tc main_arg7) = m ((c.tc : Thread nD τ).loc main_arg7)
    ∧ U1 m ρ c (Proc.devRef .tc main_arg8) = m ((c.tc : Thread nD τ).loc main_arg8)
    ∧ U1 m ρ c (Proc.devRef .tc main_arg9) = m ((c.tc : Thread nD τ).loc main_arg9)
    ∧ U1 m ρ c (Proc.devRef .tc main_arg10) = m ((c.tc : Thread nD τ).loc main_arg10)
    ∧ U1 m ρ c (Proc.devRef .tc main_arg11) = m ((c.tc : Thread nD τ).loc main_arg11)
    ∧ U1 m ρ c (Proc.devRef .tc main_arg12) = m ((c.tc : Thread nD τ).loc main_arg12) := by
  unfold U1 W1
  simp only [hostOps0]
  refine ⟨?_, ?_, ?_, ?_, ?_, ?_, ?_, ?_, ?_, ?_, ?_, ?_, ?_⟩ <;> kernel_read

/-- The source indices: row 0 of the edge index, then 0 … 49999. -/
theorem pre_src (c : Dev nD) :
    U1 m ρ c (Proc.devRef .tc main_v3) = catI (fun i => shapeCast S400000 (extractStridedSlice S1x400000 ![0, 0] (m ((c.tc : Thread nD τ).loc main_arg1)) Facts₀.slices_S2x400000_S1x400000_0_0) Facts₀.shapeCasts_S1x400000_S400000 i) (iotaInDim S50000 32 0) := by
  unfold U1 W1
  simp only [hostOps0]
  after_results
  rfl

/-- The destination indices: row 1 of the edge index, then 0 … 49999. -/
theorem pre_dst (c : Dev nD) :
    U1 m ρ c (Proc.devRef .tc main_v6) = catI (fun i => shapeCast S400000 (extractStridedSlice S1x400000 ![1, 0] (m ((c.tc : Thread nD τ).loc main_arg1)) Facts₀.slices_S2x400000_S1x400000_1_0) Facts₀.shapeCasts_S1x400000_S400000 i) (iotaInDim S50000 32 0) := by
  unfold U1 W1
  simp only [hostOps0]
  after_results
  rfl

/-- The edge features, then one row (0, 1, 0) per node. -/
theorem pre_ea (c : Dev nD) :
    U1 m ρ c (Proc.devRef .tc main_v11) = catF (m ((c.tc : Thread nD τ).loc main_arg2))
      (Host.scatter scatter_S50000x3_S1_S50000_0_1_1_0 (fun _ b => b)
        (broadcastInDim S50000x3 ![] Facts₀.bcast_S_S50000x3 (constant (F := Ideal) S_ .f32 0x00000000#32))
        (broadcastInDim S1 ![] Facts₀.bcast_S_S1 (constantI S_ 32 1#32))
        (broadcastInDim S50000 ![] Facts₀.bcast_S_S50000 (constant (F := Ideal) S_ .f32 0x3F800000#32))) := by
  unfold U1 W1
  simp only [hostOps0]
  after_results
  rfl

/-- Layer 0's edge map and edge bias, cut out by the first stretch. -/
theorem pre_edge_params (c : Dev nD) :
    U1 m ρ c (Proc.devRef .tc main_v13) = Cert.Spec.layerMat (U1 m ρ c (Proc.devRef .tc main_arg5)) 0
    ∧ U1 m ρ c (Proc.devRef .tc main_v16) = Cert.Spec.layerRow (U1 m ρ c (Proc.devRef .tc main_arg6)) 0 := by
  obtain ⟨pa0, pa1, pa2, pa3, pa4, pa5, pa6, pa7, pa8, pa9, pa10, pa11, pa12⟩ := pre_args m ρ c
  rw [pa5, pa6]
  refine ⟨?_, ?_⟩
  · show W1 (F := Ideal) m ρ c (Proc.devRef .tc main_v13) = _
    unfold W1
    simp only [hostOps0]
    kernel_read
    exact Cert.Canon.mat_of_slice (0 : Fin 5) _ _ _
  · show W1 (F := Ideal) m ρ c (Proc.devRef .tc main_v16) = _
    unfold W1
    simp only [hostOps0]
    kernel_read
    exact Cert.Canon.row_of_slice (0 : Fin 5) _ _ _ _

/-- What the edge region leaves alone. -/
theorem keeps_edge (c : Dev nD) :
    W2 (F := Ideal) m ρ c (Proc.devRef .tc main_v3) = (U1 m ρ c (Proc.devRef .tc main_v3))
    ∧ W2 (F := Ideal) m ρ c (Proc.devRef .tc main_v6) = (U1 m ρ c (Proc.devRef .tc main_v6))
    ∧ W2 (F := Ideal) m ρ c (Proc.devRef .tc main_v11) = (U1 m ρ c (Proc.devRef .tc main_v11))
    ∧ W2 (F := Ideal) m ρ c (Proc.devRef .tc main_arg3) = (U1 m ρ c (Proc.devRef .tc main_arg3))
    ∧ W2 (F := Ideal) m ρ c (Proc.devRef .tc main_arg4) = (U1 m ρ c (Proc.devRef .tc main_arg4))
    ∧ W2 (F := Ideal) m ρ c (Proc.devRef .tc main_arg5) = (U1 m ρ c (Proc.devRef .tc main_arg5))
    ∧ W2 (F := Ideal) m ρ c (Proc.devRef .tc main_arg6) = (U1 m ρ c (Proc.devRef .tc main_arg6))
    ∧ W2 (F := Ideal) m ρ c (Proc.devRef .tc main_arg7) = (U1 m ρ c (Proc.devRef .tc main_arg7))
    ∧ W2 (F := Ideal) m ρ c (Proc.devRef .tc main_arg8) = (U1 m ρ c (Proc.devRef .tc main_arg8))
    ∧ W2 (F := Ideal) m ρ c (Proc.devRef .tc main_arg9) = (U1 m ρ c (Proc.devRef .tc main_arg9))
    ∧ W2 (F := Ideal) m ρ c (Proc.devRef .tc main_arg10) = (U1 m ρ c (Proc.devRef .tc main_arg10))
    ∧ W2 (F := Ideal) m ρ c (Proc.devRef .tc main_arg11) = (U1 m ρ c (Proc.devRef .tc main_arg11))
    ∧ W2 (F := Ideal) m ρ c (Proc.devRef .tc main_arg12) = (U1 m ρ c (Proc.devRef .tc main_arg12))
    ∧ W2 (F := Ideal) m ρ c (Proc.devRef .tc main_arg0) = (U1 m ρ c (Proc.devRef .tc main_arg0)) := by
  rw [Region0.exit_eq, U1_eq]
  unfold Region0.op
  refine ⟨?_, ?_, ?_, ?_, ?_, ?_, ?_, ?_, ?_, ?_, ?_, ?_, ?_, ?_⟩ <;> kernel_read

/-- The edge embeddings. -/
theorem eemb_val (c : Dev nD) :
    W2 (F := Ideal) m ρ c (Proc.devRef .tc main_v17) = Shared.eembTerm 0 (U1 m ρ c (Proc.devRef .tc main_v11)) (U1 m ρ c (Proc.devRef .tc main_arg5)) (U1 m ρ c (Proc.devRef .tc main_arg6)) := by
  rw [Region0.exit_eq, U1_eq]
  unfold Region0.op
  kernel_read
  obtain ⟨p1, p2⟩ := pre_edge_params m ρ c
  rw [p1, p2]
  rfl

/-- What the input projection (its bias reshaped, its region) leaves alone. -/
theorem keeps_in (c : Dev nD) :
    W4 (F := Ideal) m ρ c (Proc.devRef .tc main_v3) = W2 m ρ c (Proc.devRef .tc main_v3)
    ∧ W4 (F := Ideal) m ρ c (Proc.devRef .tc main_v6) = W2 m ρ c (Proc.devRef .tc main_v6)
    ∧ W4 (F := Ideal) m ρ c (Proc.devRef .tc main_v11) = W2 m ρ c (Proc.devRef .tc main_v11)
    ∧ W4 (F := Ideal) m ρ c (Proc.devRef .tc main_arg3) = W2 m ρ c (Proc.devRef .tc main_arg3)
    ∧ W4 (F := Ideal) m ρ c (Proc.devRef .tc main_arg4) = W2 m ρ c (Proc.devRef .tc main_arg4)
    ∧ W4 (F := Ideal) m ρ c (Proc.devRef .tc main_arg5) = W2 m ρ c (Proc.devRef .tc main_arg5)
    ∧ W4 (F := Ideal) m ρ c (Proc.devRef .tc main_arg6) = W2 m ρ c (Proc.devRef .tc main_arg6)
    ∧ W4 (F := Ideal) m ρ c (Proc.devRef .tc main_arg7) = W2 m ρ c (Proc.devRef .tc main_arg7)
    ∧ W4 (F := Ideal) m ρ c (Proc.devRef .tc main_arg8) = W2 m ρ c (Proc.devRef .tc main_arg8)
    ∧ W4 (F := Ideal) m ρ c (Proc.devRef .tc main_arg9) = W2 m ρ c (Proc.devRef .tc main_arg9)
    ∧ W4 (F := Ideal) m ρ c (Proc.devRef .tc main_arg10) = W2 m ρ c (Proc.devRef .tc main_arg10)
    ∧ W4 (F := Ideal) m ρ c (Proc.devRef .tc main_arg11) = W2 m ρ c (Proc.devRef .tc main_arg11)
    ∧ W4 (F := Ideal) m ρ c (Proc.devRef .tc main_arg12) = W2 m ρ c (Proc.devRef .tc main_arg12)
    ∧ W4 (F := Ideal) m ρ c (Proc.devRef .tc main_v17) = W2 m ρ c (Proc.devRef .tc main_v17) := by
  rw [Region1.exit_eq]
  unfold W3
  unfold Region1.op
  simp only [hostOps1]
  refine ⟨?_, ?_, ?_, ?_, ?_, ?_, ?_, ?_, ?_, ?_, ?_, ?_, ?_, ?_⟩ <;> kernel_read

/-- The node features through the input map. -/
theorem h0_val (c : Dev nD) :
    W4 (F := Ideal) m ρ c (Proc.devRef .tc main_v19) = (Cert.Spec.affine (M := 50000) (K := 3) (D := 128) (U1 m ρ c (Proc.devRef .tc main_arg0)) (U1 m ρ c (Proc.devRef .tc main_arg3)) (Cert.Spec.asRow (U1 m ρ c (Proc.devRef .tc main_arg4)))) := by
  rw [Region1.exit_eq]
  unfold W3
  unfold Region1.op
  simp only [hostOps1]
  kernel_read
  obtain ⟨e_v3, e_v6, e_v11, e_arg3, e_arg4, e_arg5, e_arg6, e_arg7, e_arg8, e_arg9, e_arg10, e_arg11, e_arg12, e_arg0⟩ := keeps_edge m ρ c
  rw [e_arg0, e_arg3, e_arg4]
  exact Cert.Spec.affine_congr rfl rfl (Cert.Canon.row_of_vec _ _)

/-- What the aggregation and the first linear stage leave alone. -/
theorem keeps_first (c : Dev nD) :
    W6 (F := Ideal) m ρ c (Proc.devRef .tc main_v3) = W4 m ρ c (Proc.devRef .tc main_v3)
    ∧ W6 (F := Ideal) m ρ c (Proc.devRef .tc main_v6) = W4 m ρ c (Proc.devRef .tc main_v6)
    ∧ W6 (F := Ideal) m ρ c (Proc.devRef .tc main_v11) = W4 m ρ c (Proc.devRef .tc main_v11)
    ∧ W6 (F := Ideal) m ρ c (Proc.devRef .tc main_arg3) = W4 m ρ c (Proc.devRef .tc main_arg3)
    ∧ W6 (F := Ideal) m ρ c (Proc.devRef .tc main_arg4) = W4 m ρ c (Proc.devRef .tc main_arg4)
    ∧ W6 (F := Ideal) m ρ c (Proc.devRef .tc main_arg5) = W4 m ρ c (Proc.devRef .tc main_arg5)
    ∧ W6 (F := Ideal) m ρ c (Proc.devRef .tc main_arg6) = W4 m ρ c (Proc.devRef .tc main_arg6)
    ∧ W6 (F := Ideal) m ρ c (Proc.devRef .tc main_arg7) = W4 m ρ c (Proc.devRef .tc main_arg7)
    ∧ W6 (F := Ideal) m ρ c (Proc.devRef .tc main_arg8) = W4 m ρ c (Proc.devRef .tc main_arg8)
    ∧ W6 (F := Ideal) m ρ c (Proc.devRef .tc main_arg9) = W4 m ρ c (Proc.devRef .tc main_arg9)
    ∧ W6 (F := Ideal) m ρ c (Proc.devRef .tc main_arg10) = W4 m ρ c (Proc.devRef .tc main_arg10)
    ∧ W6 (F := Ideal) m ρ c (Proc.devRef .tc main_arg11) = W4 m ρ c (Proc.devRef .tc main_arg11)
    ∧ W6 (F := Ideal) m ρ c (Proc.devRef .tc main_arg12) = W4 m ρ c (Proc.devRef .tc main_arg12) := by
  rw [Region2.exit_eq]
  unfold W5
  unfold Region2.op
  simp only [hostOps2]
  refine ⟨?_, ?_, ?_, ?_, ?_, ?_, ?_, ?_, ?_, ?_, ?_, ?_, ?_⟩ <;> kernel_read

/-- The first linear stage of the two aggregates. -/
theorem z_val (c : Dev nD) :
    W6 (F := Ideal) m ρ c (Proc.devRef .tc main_v40) = Shared.zTerm 0 (Cert.Spec.affine (M := 50000) (K := 3) (D := 128) (U1 m ρ c (Proc.devRef .tc main_arg0)) (U1 m ρ c (Proc.devRef .tc main_arg3)) (Cert.Spec.asRow (U1 m ρ c (Proc.devRef .tc main_arg4)))) (U1 m ρ c (Proc.devRef .tc main_v3)) (U1 m ρ c (Proc.devRef .tc main_v6)) (U1 m ρ c (Proc.devRef .tc main_v11)) (U1 m ρ c (Proc.devRef .tc main_arg5)) (U1 m ρ c (Proc.devRef .tc main_arg6)) (U1 m ρ c (Proc.devRef .tc main_arg7)) (U1 m ρ c (Proc.devRef .tc main_arg8)) := by
  rw [Region2.exit_eq]
  unfold W5
  unfold Region2.op
  simp only [hostOps2]
  kernel_read
  obtain ⟨e_v3, e_v6, e_v11, e_arg3, e_arg4, e_arg5, e_arg6, e_arg7, e_arg8, e_arg9, e_arg10, e_arg11, e_arg12, e_arg0⟩ := keeps_edge m ρ c
  obtain ⟨i_v3, i_v6, i_v11, i_arg3, i_arg4, i_arg5, i_arg6, i_arg7, i_arg8, i_arg9, i_arg10, i_arg11, i_arg12, i_v17⟩ := keeps_in m ρ c
  rw [h0_val m ρ c, i_v17, eemb_val m ρ c, i_v3, i_v6, i_arg7, i_arg8, e_v3, e_v6, e_arg7, e_arg8]
  unfold Shared.zTerm
  exact Cert.Spec.twoProducts_congr rfl rfl (Cert.Canon.matTop_of_slice (R := 128) (0 : Fin 5) _ _ _)
    (Cert.Canon.matBot_of_slice (R := 128) (0 : Fin 5) _ _ _) (Cert.Canon.row_of_slice (0 : Fin 5) _ _ _ _)

/-- What the statistics and the second stage leave alone. -/
theorem keeps_second (c : Dev nD) :
    W10 (F := Ideal) m ρ c (Proc.devRef .tc main_v3) = W6 m ρ c (Proc.devRef .tc main_v3)
    ∧ W10 (F := Ideal) m ρ c (Proc.devRef .tc main_v6) = W6 m ρ c (Proc.devRef .tc main_v6)
    ∧ W10 (F := Ideal) m ρ c (Proc.devRef .tc main_v11) = W6 m ρ c (Proc.devRef .tc main_v11)
    ∧ W10 (F := Ideal) m ρ c (Proc.devRef .tc main_arg3) = W6 m ρ c (Proc.devRef .tc main_arg3)
    ∧ W10 (F := Ideal) m ρ c (Proc.devRef .tc main_arg4) = W6 m ρ c (Proc.devRef .tc main_arg4)
    ∧ W10 (F := Ideal) m ρ c (Proc.devRef .tc main_arg5) = W6 m ρ c (Proc.devRef .tc main_arg5)
    ∧ W10 (F := Ideal) m ρ c (Proc.devRef .tc main_arg6) = W6 m ρ c (Proc.devRef .tc main_arg6)
    ∧ W10 (F := Ideal) m ρ c (Proc.devRef .tc main_arg7) = W6 m ρ c (Proc.devRef .tc main_arg7)
    ∧ W10 (F := Ideal) m ρ c (Proc.devRef .tc main_arg8) = W6 m ρ c (Proc.devRef .tc main_arg8)
    ∧ W10 (F := Ideal) m ρ c (Proc.devRef .tc main_arg9) = W6 m ρ c (Proc.devRef .tc main_arg9)
    ∧ W10 (F := Ideal) m ρ c (Proc.devRef .tc main_arg10) = W6 m ρ c (Proc.devRef .tc main_arg10)
    ∧ W10 (F := Ideal) m ρ c (Proc.devRef .tc main_arg11) = W6 m ρ c (Proc.devRef .tc main_arg11)
    ∧ W10 (F := Ideal) m ρ c (Proc.devRef .tc main_arg12) = W6 m ρ c (Proc.devRef .tc main_arg12) := by
  rw [Region3.exit_eq]
  unfold W9 W8 W7
  unfold Region3.op
  simp only [hostOps3, hostOps3_1, hostOps3_2]
  refine ⟨?_, ?_, ?_, ?_, ?_, ?_, ?_, ?_, ?_, ?_, ?_, ?_, ?_⟩ <;> kernel_read

/-- The layer's output. -/
theorem out_val (c : Dev nD) :
    W10 (F := Ideal) m ρ c (Proc.devRef .tc main_v58)
      = Shared.outPos 0 (Shared.zTerm 0 (Cert.Spec.affine (M := 50000) (K := 3) (D := 128) (U1 m ρ c (Proc.devRef .tc main_arg0)) (U1 m ρ c (Proc.devRef .tc main_arg3)) (Cert.Spec.asRow (U1 m ρ c (Proc.devRef .tc main_arg4)))) (U1 m ρ c (Proc.devRef .tc main_v3)) (U1 m ρ c (Proc.devRef .tc main_v6)) (U1 m ρ c (Proc.devRef .tc main_v11)) (U1 m ρ c (Proc.devRef .tc main_arg5)) (U1 m ρ c (Proc.devRef .tc main_arg6)) (U1 m ρ c (Proc.devRef .tc main_arg7)) (U1 m ρ c (Proc.devRef .tc main_arg8)))
          (U1 m ρ c (Proc.devRef .tc main_arg9)) (U1 m ρ c (Proc.devRef .tc main_arg10)) (U1 m ρ c (Proc.devRef .tc main_arg11)) (U1 m ρ c (Proc.devRef .tc main_arg12)) := by
  rw [Region3.exit_eq]
  unfold W9 W8 W7
  unfold Region3.op
  simp only [hostOps3, hostOps3_1, hostOps3_2]
  kernel_read
  obtain ⟨e_v3, e_v6, e_v11, e_arg3, e_arg4, e_arg5, e_arg6, e_arg7, e_arg8, e_arg9, e_arg10, e_arg11, e_arg12, e_arg0⟩ := keeps_edge m ρ c
  obtain ⟨i_v3, i_v6, i_v11, i_arg3, i_arg4, i_arg5, i_arg6, i_arg7, i_arg8, i_arg9, i_arg10, i_arg11, i_arg12, i_v17⟩ := keeps_in m ρ c
  obtain ⟨b_v3, b_v6, b_v11, b_arg3, b_arg4, b_arg5, b_arg6, b_arg7, b_arg8, b_arg9, b_arg10, b_arg11, b_arg12⟩ := keeps_first m ρ c
  rw [z_val m ρ c, b_arg9, b_arg10, b_arg11, b_arg12, i_arg9, i_arg10, i_arg11, i_arg12, e_arg9, e_arg10, e_arg11, e_arg12]
  unfold Shared.outPos
  exact Cert.Spec.normProductPos_congr rfl (Cert.Canon.row_of_vec _ _) (Cert.Canon.row_of_vec _ _) (Cert.Canon.row_of_slice (0 : Fin 5) _ _ _ _)
    (Cert.Canon.row_of_slice (0 : Fin 5) _ _ _ _) (Cert.Canon.mat_of_slice (0 : Fin 5) _ _ _) (Cert.Canon.row_of_slice (0 : Fin 5) _ _ _ _)

/-- What the whole layer leaves alone, from the contents after the first stretch. -/
theorem keeps (c : Dev nD) :
    W10 (F := Ideal) m ρ c (Proc.devRef .tc main_v3) = (U1 m ρ c (Proc.devRef .tc main_v3))
    ∧ W10 (F := Ideal) m ρ c (Proc.devRef .tc main_v6) = (U1 m ρ c (Proc.devRef .tc main_v6))
    ∧ W10 (F := Ideal) m ρ c (Proc.devRef .tc main_v11) = (U1 m ρ c (Proc.devRef .tc main_v11))
    ∧ W10 (F := Ideal) m ρ c (Proc.devRef .tc main_arg3) = (U1 m ρ c (Proc.devRef .tc main_arg3))
    ∧ W10 (F := Ideal) m ρ c (Proc.devRef .tc main_arg4) = (U1 m ρ c (Proc.devRef .tc main_arg4))
    ∧ W10 (F := Ideal) m ρ c (Proc.devRef .tc main_arg5) = (U1 m ρ c (Proc.devRef .tc main_arg5))
    ∧ W10 (F := Ideal) m ρ c (Proc.devRef .tc main_arg6) = (U1 m ρ c (Proc.devRef .tc main_arg6))
    ∧ W10 (F := Ideal) m ρ c (Proc.devRef .tc main_arg7) = (U1 m ρ c (Proc.devRef .tc main_arg7))
    ∧ W10 (F := Ideal) m ρ c (Proc.devRef .tc main_arg8) = (U1 m ρ c (Proc.devRef .tc main_arg8))
    ∧ W10 (F := Ideal) m ρ c (Proc.devRef .tc main_arg9) = (U1 m ρ c (Proc.devRef .tc main_arg9))
    ∧ W10 (F := Ideal) m ρ c (Proc.devRef .tc main_arg10) = (U1 m ρ c (Proc.devRef .tc main_arg10))
    ∧ W10 (F := Ideal) m ρ c (Proc.devRef .tc main_arg11) = (U1 m ρ c (Proc.devRef .tc main_arg11))
    ∧ W10 (F := Ideal) m ρ c (Proc.devRef .tc main_arg12) = (U1 m ρ c (Proc.devRef .tc main_arg12)) := by
  obtain ⟨e_v3, e_v6, e_v11, e_arg3, e_arg4, e_arg5, e_arg6, e_arg7, e_arg8, e_arg9, e_arg10, e_arg11, e_arg12, e_arg0⟩ := keeps_edge m ρ c
  obtain ⟨i_v3, i_v6, i_v11, i_arg3, i_arg4, i_arg5, i_arg6, i_arg7, i_arg8, i_arg9, i_arg10, i_arg11, i_arg12, i_v17⟩ := keeps_in m ρ c
  obtain ⟨b_v3, b_v6, b_v11, b_arg3, b_arg4, b_arg5, b_arg6, b_arg7, b_arg8, b_arg9, b_arg10, b_arg11, b_arg12⟩ := keeps_first m ρ c
  obtain ⟨d_v3, d_v6, d_v11, d_arg3, d_arg4, d_arg5, d_arg6, d_arg7, d_arg8, d_arg9, d_arg10, d_arg11, d_arg12⟩ := keeps_second m ρ c
  exact ⟨d_v3.trans (b_v3.trans (i_v3.trans e_v3)), d_v6.trans (b_v6.trans (i_v6.trans e_v6)), d_v11.trans (b_v11.trans (i_v11.trans e_v11)), d_arg3.trans (b_arg3.trans (i_arg3.trans e_arg3)), d_arg4.trans (b_arg4.trans (i_arg4.trans e_arg4)), d_arg5.trans (b_arg5.trans (i_arg5.trans e_arg5)), d_arg6.trans (b_arg6.trans (i_arg6.trans e_arg6)), d_arg7.trans (b_arg7.trans (i_arg7.trans e_arg7)), d_arg8.trans (b_arg8.trans (i_arg8.trans e_arg8)), d_arg9.trans (b_arg9.trans (i_arg9.trans e_arg9)), d_arg10.trans (b_arg10.trans (i_arg10.trans e_arg10)), d_arg11.trans (b_arg11.trans (i_arg11.trans e_arg11)), d_arg12.trans (b_arg12.trans (i_arg12.trans e_arg12))⟩

end Cert.KernelIdeal.Layer0

end
-- ==== Proof.Region4.lean ====
/-
  Region 4: the edge features through layer 1's edge map — an affine stage on 450000 rows, 9000 rows to a block.

  Point t of the grid reads rows 9000·t … 9000·t + 8999 of the left array, the whole 3 × 128 map and the whole row of biases, and
  writes the same rows of the result. Every row of the result lies in the block of the point row / 9000, so the blocks
  cover the array, and what a point writes is its block of ONE function of the whole arrays:
  entry (r, c) ↦ (∑ k, a[r,k] · w[k,c]) + b[0,c]. The input arrays are never written back. So the region leaves exactly
  what one host operation computing that function into the result array leaves.
-/
import proofs.«132731_j31379031065008_1_alg».proof.Proof.Gen.KernelIdeal.Frame
import proofs.«132731_j31379031065008_1_alg».proof.Proof.Spec
import proofs.«132731_j31379031065008_1_alg».proof.Proof.AffineBody
import proofs.«132731_j31379031065008_1_alg».proof.Proof.LibRegionOp
import Idealize.ShloMosaic.Lib.Pipeline.Value

set_option maxRecDepth 16384

noncomputable section

namespace Cert.KernelIdeal.Region4

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the row-blocked windows move with the point, the others stay. -/
theorem index_maps : ∀ t : Fin cfg4.N,
    win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- Input array 0 as the region finds it. -/
abbrev in0 (c : Dev nD) : S450000x3.Idx → EReal := V c main_v11
/-- Input array 1 as the region finds it. -/
abbrev in1 (c : Dev nD) : S3x128.Idx → EReal := V c main_v60
/-- Input array 2 as the region finds it. -/
abbrev in2 (c : Dev nD) : S1x128.Idx → EReal := V c main_v63

/-- The whole-array function the region computes, of the arrays as the region finds them. -/
abbrev result (c : Dev nD) : S450000x128.Idx → EReal :=
  Cert.Spec.affine (M := 450000) (K := 3) (D := 128) (in0 V c) (in1 V c) (in2 V c)

/-- What point `t` writes back is its block of `result`. -/
theorem flushed_eq (c : Dev nD) (t : Fin cfg4.N) :
    (dat4 (F := Ideal) V c).flushed 3 t = ((cfg4.win 3).blk t).view.read (Elt Ideal) (result V c) := by
  show (cfg4.win 3).cut (grid4.coords t) ((dat4 V c).after 3 t) = _
  rw [after4_3]
  unfold out4_3
  rw [View.canon_unit_zero origin_zero]
  simp only [View.ld_unit_zero (S := S9000x3) origin_zero, View.ld_unit_zero (S := S3x128) origin_zero, View.ld_unit_zero (S := S1x128) origin_zero]
  obtain ⟨e0, e1, e2, e3, e4, e5, e6, e7⟩ := index_maps t
  have hN : grid4.N = 50 := N_4
  have ht : t.val < 50 := hN ▸ t.isLt
  funext j
  obtain ⟨p, q, rfl⟩ : ∃ (p : Fin 9000) (q : Fin 128), j = ix2 p q := ⟨j 0, j 1, eq_ix2 j⟩
  have hp : p.val < 9000 := p.isLt
  let r : Fin 450000 := ⟨t.val * 9000 + p.val, by omega⟩
  have emb_out : ((cfg4.win 3).blk t).view.emb (ix2 p q) = (ix2 r q : S450000x128.Idx) := by
    funext ax; apply Fin.ext
    match ax with
    | ⟨0, _⟩ => show win4_3.index t (0 : Fin 2) * 9000 + 1 * p.val = t.val * 9000 + p.val; omega
    | ⟨1, _⟩ => show win4_3.index t (1 : Fin 2) * 128 + 1 * q.val = q.val; omega
  have rd_0 : ∀ k : Fin 3, iblk4 V c 0 t (ix2 p k) = in0 V c (ix2 r k) := fun k => by
    show V c main_v11 (((cfg4.win 0).blk t).view.emb (ix2 p k)) = _
    refine congrArg (V c main_v11) (funext fun ax => Fin.ext ?_)
    match ax with
    | ⟨0, _⟩ => show win4_0.index t (0 : Fin 2) * 9000 + 1 * p.val = t.val * 9000 + p.val; omega
    | ⟨1, _⟩ => show win4_0.index t (1 : Fin 2) * 3 + 1 * k.val = k.val; omega
  have rd_1 : ∀ k : Fin 3, iblk4 V c 1 t (ix2 k q) = in1 V c (ix2 k q) := fun k => by
    show V c main_v60 (((cfg4.win 1).blk t).view.emb (ix2 k q)) = _
    refine congrArg (V c main_v60) (funext fun ax => Fin.ext ?_)
    match ax with
    | ⟨0, _⟩ => show win4_1.index t (0 : Fin 2) * 3 + 1 * k.val = k.val; omega
    | ⟨1, _⟩ => show win4_1.index t (1 : Fin 2) * 128 + 1 * q.val = q.val; omega
  have rd_2 : iblk4 V c 2 t (ix2 (0 : Fin 1) q) = V c main_v63 (ix2 (0 : Fin 1) q : S1x128.Idx) := by
    show V c main_v63 (((cfg4.win 2).blk t).view.emb (ix2 (0 : Fin 1) q)) = _
    refine congrArg (V c main_v63) (funext fun ax => Fin.ext ?_)
    match ax with
    | ⟨0, _⟩ => show win4_2.index t (0 : Fin 2) * 1 + 1 * 0 = 0; omega
    | ⟨1, _⟩ => show win4_2.index t (1 : Fin 2) * 128 + 1 * q.val = q.val; omega
  show k4_pay1 (iblk4 V c 0 t) (iblk4 V c 1 t) (iblk4 V c 2 t) (ix2 p q)
    = result V c (((cfg4.win 3).blk t).view.emb (ix2 p q))
  rw [emb_out, Body.k4_eq, Body.affine9000_pay, rd_2]
  show _ = (∑ k : Fin 3, in0 V c (ix2 r k) * in1 V c (ix2 k q)) + in2 V c (ix2 0 q)
  exact congrArg (· + in2 V c (ix2 0 q)) (Finset.sum_congr rfl fun k _ => by rw [rd_0 k, rd_1 k])

/-- An index of the result array is in point `t`'s block iff each coordinate is in the block's range. -/
theorem mem_blk (t : Fin cfg4.N) (i : S450000x128.Idx) :
    i ∈ ((cfg4.win 3).blk t).view.set ↔ ∀ ax : Fin 2, win4_3.index t ax * S9000x128.size ax ≤ (i ax).val
      ∧ (i ax).val < win4_3.index t ax * S9000x128.size ax + S9000x128.size ax := by
  show i ∈ ((View.whole main_v64).slice (win4_3.rect t)).set ↔ _
  rw [View.set_slice_whole, Rect.mem_set_unit]
  exact Iff.rfl

/-- Every entry of the result array is in the block of the point its row falls to. -/
theorem cover (i : S450000x128.Idx) :
    ∃ t : Fin cfg4.N, (cfg4.win 3).flush t = true ∧ i ∈ ((cfg4.win 3).blk t).view.set := by
  have hi0 : (i 0).val < 450000 := (i 0).isLt
  have hi1 : (i 1).val < 128 := (i 1).isLt
  have hN : grid4.N = 50 := N_4
  have hlt : (i 0).val / 9000 < grid4.N := by rw [hN]; omega
  obtain ⟨e0, e1, e2, e3, e4, e5, e6, e7⟩ := index_maps ⟨(i 0).val / 9000, hlt⟩
  have e_row : win4_3.index ⟨(i 0).val / 9000, hlt⟩ (0 : Fin 2) = (i 0).val / 9000 := e6
  refine ⟨⟨(i 0).val / 9000, hlt⟩, flush4_3 _, ?_⟩
  rw [mem_blk]
  intro ax
  match ax with
  | ⟨0, _⟩ =>
    show win4_3.index ⟨(i 0).val / 9000, hlt⟩ (0 : Fin 2) * 9000 ≤ (i 0).val
      ∧ (i 0).val < win4_3.index ⟨(i 0).val / 9000, hlt⟩ (0 : Fin 2) * 9000 + 9000
    omega
  | ⟨1, _⟩ =>
    show win4_3.index ⟨(i 0).val / 9000, hlt⟩ (1 : Fin 2) * 128 ≤ (i 1).val
      ∧ (i 1).val < win4_3.index ⟨(i 0).val / 9000, hlt⟩ (1 : Fin 2) * 128 + 128
    omega

/-- The result array after the run is `result`. -/
theorem final (c : Dev nD) : (dat4 (F := Ideal) V c).arrAt 3 cfg4.N = result V c :=
  (dat4 V c).arrAt_eq_of_cover 3 (result V c) (fun t _ => flushed_eq V c t) cover

/-- The input arrays end as the region found them: no point writes one back. -/
theorem kept (c : Dev nD) (w : Fin cfg4.W) (hw : w ≠ 3) :
    (dat4 (F := Ideal) V c).arrAt w cfg4.N = V c (Pipeline.arrRef spec4 w) := by
  have hin : (cfg4.win w).isOut = false := by
    match w, hw with
    | ⟨0, _⟩, _ => rfl
    | ⟨1, _⟩, _ => rfl
    | ⟨2, _⟩, _ => rfl
    | ⟨3, _⟩, hw => exact absurd rfl hw
  rw [(dat4 V c).arrAt_in w hin, A_eq4]

/-- The region as ONE host operation: `result`'s function of the input arrays into the result array. -/
def op : HloOp τ sig (Elt Ideal) :=
  StableHlo.ternary main_v11 main_v60 main_v63 main_v64
    (fun x y z => Cert.Spec.affine (M := 450000) (K := 3) (D := 128) x y z)

variable (m : (ℓ : Loc nD τ sig) → Buf (Elt Ideal) ℓ) (ρ : Dev nD → PrngReg)

/-- The buffer contents at the region's exit are the operation's result of the contents at its entry. -/
theorem exit_eq (c : Dev nD) : W12 (F := Ideal) m ρ c = op.result (W11 m ρ c) := by
  unfold W12
  refine Cert.Lib.RegionOp.withArrays_eq_result spec4 launch4.win.arr_inj c (W11 m ρ c) _ op 3 rfl ?_ ?_
  · show (dat4 (V11 m ρ) c).arrAt 3 cfg4.N = op.result (W11 m ρ c) (Proc.devRef .tc main_v64)
    refine (final (V11 m ρ) c).trans ?_
    unfold op
    exact (StableHlo.ternary_result main_v11 main_v60 main_v63 main_v64 _ _ _ _ _ _).symm
  · intro w hw
    exact kept (V11 m ρ) c w hw

end Cert.KernelIdeal.Region4

end
-- ==== Proof.Region5.lean ====
/-
  Region 5: the first stage of layer 1's node update on 50000 rows, 5000 rows to a block.

  Point t reads rows 5000·t … of the aggregated neighbour features and of the aggregated edge features, the two
  128 × 256 halves of the first linear map and the row of biases, and writes the same rows of the result. The blocks
  cover the result array (row r lies in the block of point r / 5000), and what a point writes is its block of ONE
  function of the whole arrays: (r, c) ↦ (∑ k, ax[r,k] · wa[k,c]) + (∑ k, ae[r,k] · wb[k,c]) + b[0,c]. The input arrays
  are never written back; so the region leaves what one host operation computing that function leaves.
-/
import proofs.«132731_j31379031065008_1_alg».proof.Proof.Gen.KernelIdeal.Frame
import proofs.«132731_j31379031065008_1_alg».proof.Proof.Spec
import proofs.«132731_j31379031065008_1_alg».proof.Proof.TwoProductsBody
import proofs.«132731_j31379031065008_1_alg».proof.Proof.LibRegionOp
import Idealize.ShloMosaic.Lib.Pipeline.Value

set_option maxRecDepth 16384

noncomputable section

namespace Cert.KernelIdeal.Region5

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the row-blocked windows move with the point, the others stay. -/
theorem index_maps : ∀ t : Fin cfg5.N,
    win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = t.val
    ∧ win5_5.index t (1 : Fin 2) = 0 :=
  (by decide +kernel : ∀ t : Fin grid5.N, _)

/-- Input array 0 as the region finds it. -/
abbrev in0 (c : Dev nD) : S50000x128.Idx → EReal := V c main_v74
/-- Input array 1 as the region finds it. -/
abbrev in1 (c : Dev nD) : S50000x128.Idx → EReal := V c main_v77
/-- Input array 2 as the region finds it. -/
abbrev in2 (c : Dev nD) : S128x256.Idx → EReal := V c main_v79
/-- Input array 3 as the region finds it. -/
abbrev in3 (c : Dev nD) : S128x256.Idx → EReal := V c main_v81
/-- Input array 4 as the region finds it. -/
abbrev in4 (c : Dev nD) : S1x256.Idx → EReal := V c main_v84

/-- The whole-array function the region computes, of the arrays as the region finds them. -/
abbrev result (c : Dev nD) : S50000x256.Idx → EReal :=
  Cert.Spec.twoProducts (M := 50000) (K := 128) (D := 256) (in0 V c) (in1 V c) (in2 V c) (in3 V c) (in4 V c)

/-- What point `t` writes back is its block of `result`. -/
theorem flushed_eq (c : Dev nD) (t : Fin cfg5.N) :
    (dat5 (F := Ideal) V c).flushed 5 t = ((cfg5.win 5).blk t).view.read (Elt Ideal) (result V c) := by
  show (cfg5.win 5).cut (grid5.coords t) ((dat5 V c).after 5 t) = _
  rw [after5_5]
  unfold out5_5
  rw [View.canon_unit_zero origin_zero]
  simp only [View.ld_unit_zero (S := S5000x128) origin_zero, View.ld_unit_zero (S := S128x256) origin_zero, View.ld_unit_zero (S := S1x256) origin_zero]
  obtain ⟨e0, e1, e2, e3, e4, e5, e6, e7, e8, e9, e10, e11⟩ := index_maps t
  have hN : grid5.N = 10 := N_5
  have ht : t.val < 10 := hN ▸ t.isLt
  funext j
  obtain ⟨p, q, rfl⟩ : ∃ (p : Fin 5000) (q : Fin 256), j = ix2 p q := ⟨j 0, j 1, eq_ix2 j⟩
  have hp : p.val < 5000 := p.isLt
  let r : Fin 50000 := ⟨t.val * 5000 + p.val, by omega⟩
  have emb_out : ((cfg5.win 5).blk t).view.emb (ix2 p q) = (ix2 r q : S50000x256.Idx) := by
    funext ax; apply Fin.ext
    match ax with
    | ⟨0, _⟩ => show win5_5.index t (0 : Fin 2) * 5000 + 1 * p.val = t.val * 5000 + p.val; omega
    | ⟨1, _⟩ => show win5_5.index t (1 : Fin 2) * 256 + 1 * q.val = q.val; omega
  have rd_0 : ∀ k : Fin 128, iblk5 V c 0 t (ix2 p k) = in0 V c (ix2 r k) := fun k => by
    show V c main_v74 (((cfg5.win 0).blk t).view.emb (ix2 p k)) = _
    refine congrArg (V c main_v74) (funext fun ax => Fin.ext ?_)
    match ax with
    | ⟨0, _⟩ => show win5_0.index t (0 : Fin 2) * 5000 + 1 * p.val = t.val * 5000 + p.val; omega
    | ⟨1, _⟩ => show win5_0.index t (1 : Fin 2) * 128 + 1 * k.val = k.val; omega
  have rd_1 : ∀ k : Fin 128, iblk5 V c 1 t (ix2 p k) = in1 V c (ix2 r k) := fun k => by
    show V c main_v77 (((cfg5.win 1).blk t).view.emb (ix2 p k)) = _
    refine congrArg (V c main_v77) (funext fun ax => Fin.ext ?_)
    match ax with
    | ⟨0, _⟩ => show win5_1.index t (0 : Fin 2) * 5000 + 1 * p.val = t.val * 5000 + p.val; omega
    | ⟨1, _⟩ => show win5_1.index t (1 : Fin 2) * 128 + 1 * k.val = k.val; omega
  have rd_2 : ∀ k : Fin 128, iblk5 V c 2 t (ix2 k q) = in2 V c (ix2 k q) := fun k => by
    show V c main_v79 (((cfg5.win 2).blk t).view.emb (ix2 k q)) = _
    refine congrArg (V c main_v79) (funext fun ax => Fin.ext ?_)
    match ax with
    | ⟨0, _⟩ => show win5_2.index t (0 : Fin 2) * 128 + 1 * k.val = k.val; omega
    | ⟨1, _⟩ => show win5_2.index t (1 : Fin 2) * 256 + 1 * q.val = q.val; omega
  have rd_3 : ∀ k : Fin 128, iblk5 V c 3 t (ix2 k q) = in3 V c (ix2 k q) := fun k => by
    show V c main_v81 (((cfg5.win 3).blk t).view.emb (ix2 k q)) = _
    refine congrArg (V c main_v81) (funext fun ax => Fin.ext ?_)
    match ax with
    | ⟨0, _⟩ => show win5_3.index t (0 : Fin 2) * 128 + 1 * k.val = k.val; omega
    | ⟨1, _⟩ => show win5_3.index t (1 : Fin 2) * 256 + 1 * q.val = q.val; omega
  have rd_4 : iblk5 V c 4 t (ix2 (0 : Fin 1) q) = V c main_v84 (ix2 (0 : Fin 1) q : S1x256.Idx) := by
    show V c main_v84 (((cfg5.win 4).blk t).view.emb (ix2 (0 : Fin 1) q)) = _
    refine congrArg (V c main_v84) (funext fun ax => Fin.ext ?_)
    match ax with
    | ⟨0, _⟩ => show win5_4.index t (0 : Fin 2) * 1 + 1 * 0 = 0; omega
    | ⟨1, _⟩ => show win5_4.index t (1 : Fin 2) * 256 + 1 * q.val = q.val; omega
  show k5_pay1 (iblk5 V c 0 t) (iblk5 V c 1 t) (iblk5 V c 2 t) (iblk5 V c 3 t) (iblk5 V c 4 t) (ix2 p q)
    = result V c (((cfg5.win 5).blk t).view.emb (ix2 p q))
  rw [emb_out, Body1.k5_eq, Body1.twoProducts_pay, rd_4]
  show _ = ((∑ k : Fin 128, in0 V c (ix2 r k) * in2 V c (ix2 k q)) + (∑ k : Fin 128, in1 V c (ix2 r k) * in3 V c (ix2 k q)))
      + in4 V c (ix2 0 q)
  exact congrArg (· + in4 V c (ix2 0 q)) (congrArg₂ (· + ·) (Finset.sum_congr rfl fun k _ => by rw [rd_0 k, rd_2 k])
    (Finset.sum_congr rfl fun k _ => by rw [rd_1 k, rd_3 k]))

/-- An index of the result array is in point `t`'s block iff each coordinate is in the block's range. -/
theorem mem_blk (t : Fin cfg5.N) (i : S50000x256.Idx) :
    i ∈ ((cfg5.win 5).blk t).view.set ↔ ∀ ax : Fin 2, win5_5.index t ax * S5000x256.size ax ≤ (i ax).val
      ∧ (i ax).val < win5_5.index t ax * S5000x256.size ax + S5000x256.size ax := by
  show i ∈ ((View.whole main_v85).slice (win5_5.rect t)).set ↔ _
  rw [View.set_slice_whole, Rect.mem_set_unit]
  exact Iff.rfl

/-- Every entry of the result array is in the block of the point its row falls to. -/
theorem cover (i : S50000x256.Idx) :
    ∃ t : Fin cfg5.N, (cfg5.win 5).flush t = true ∧ i ∈ ((cfg5.win 5).blk t).view.set := by
  have hi0 : (i 0).val < 50000 := (i 0).isLt
  have hi1 : (i 1).val < 256 := (i 1).isLt
  have hN : grid5.N = 10 := N_5
  have hlt : (i 0).val / 5000 < grid5.N := by rw [hN]; omega
  obtain ⟨e0, e1, e2, e3, e4, e5, e6, e7, e8, e9, e10, e11⟩ := index_maps ⟨(i 0).val / 5000, hlt⟩
  have e_row : win5_5.index ⟨(i 0).val / 5000, hlt⟩ (0 : Fin 2) = (i 0).val / 5000 := e10
  refine ⟨⟨(i 0).val / 5000, hlt⟩, flush5_5 _, ?_⟩
  rw [mem_blk]
  intro ax
  match ax with
  | ⟨0, _⟩ =>
    show win5_5.index ⟨(i 0).val / 5000, hlt⟩ (0 : Fin 2) * 5000 ≤ (i 0).val
      ∧ (i 0).val < win5_5.index ⟨(i 0).val / 5000, hlt⟩ (0 : Fin 2) * 5000 + 5000
    omega
  | ⟨1, _⟩ =>
    show win5_5.index ⟨(i 0).val / 5000, hlt⟩ (1 : Fin 2) * 256 ≤ (i 1).val
      ∧ (i 1).val < win5_5.index ⟨(i 0).val / 5000, hlt⟩ (1 : Fin 2) * 256 + 256
    omega

/-- The result array after the run is `result`. -/
theorem final (c : Dev nD) : (dat5 (F := Ideal) V c).arrAt 5 cfg5.N = result V c :=
  (dat5 V c).arrAt_eq_of_cover 5 (result V c) (fun t _ => flushed_eq V c t) cover

/-- The input arrays end as the region found them: no point writes one back. -/
theorem kept (c : Dev nD) (w : Fin cfg5.W) (hw : w ≠ 5) :
    (dat5 (F := Ideal) V c).arrAt w cfg5.N = V c (Pipeline.arrRef spec5 w) := by
  have hin : (cfg5.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, hw => exact absurd rfl hw
  rw [(dat5 V c).arrAt_in w hin, A_eq5]

/-- The region as ONE host operation: `result`'s function of the input arrays into the result array. -/
def op : HloOp τ sig (Elt Ideal) :=
  Cert.Lib.RegionOp.op5 main_v74 main_v77 main_v79 main_v81 main_v84 main_v85
    (fun a b c d e => Cert.Spec.twoProducts (M := 50000) (K := 128) (D := 256) a b c d e) (by decide) ⟨by decide, rfl⟩

variable (m : (ℓ : Loc nD τ sig) → Buf (Elt Ideal) ℓ) (ρ : Dev nD → PrngReg)

/-- The buffer contents at the region's exit are the operation's result of the contents at its entry. -/
theorem exit_eq (c : Dev nD) : W14 (F := Ideal) m ρ c = op.result (W13 m ρ c) := by
  unfold W14
  refine Cert.Lib.RegionOp.withArrays_eq_result spec5 launch5.win.arr_inj c (W13 m ρ c) _ op 5 rfl ?_ ?_
  · show (dat5 (V13 m ρ) c).arrAt 5 cfg5.N = op.result (W13 m ρ c) (Proc.devRef .tc main_v85)
    refine (final (V13 m ρ) c).trans ?_
    unfold op
    rw [Cert.Lib.RegionOp.op5_result']
  · intro w hw
    exact kept (V13 m ρ) c w hw

end Cert.KernelIdeal.Region5

end
-- ==== Proof.Region6.lean ====
/-
  Region 6: the second stage of layer 1's node update on 50000 rows, 5000 rows to a block.

  Point t reads rows 5000·t … of the first stage's output z, the rows of column statistics (mean, variance), of scale
  and shift, the 256 × 128 second linear map and its row of biases, and writes the same rows of the result. The blocks
  cover the result array, and what a point writes is its block of ONE function of the whole arrays: with
  act[r,k] = max (g[0,k] · (z[r,k] − mean[0,k]) · rsqrt (var[0,k] + ε) + β[0,k]) 0, entry (r, c) ↦ max ((∑ k, act[r,k] · w[k,c]) + b[0,c]) 0.
  The input arrays are never written back; so the region leaves what one host operation computing that function leaves.
-/
import proofs.«132731_j31379031065008_1_alg».proof.Proof.Gen.KernelIdeal.Frame
import proofs.«132731_j31379031065008_1_alg».proof.Proof.Spec
import proofs.«132731_j31379031065008_1_alg».proof.Proof.NormProductBody
import proofs.«132731_j31379031065008_1_alg».proof.Proof.LibRegionOp
import Idealize.ShloMosaic.Lib.Pipeline.Value

set_option maxRecDepth 16384

noncomputable section

namespace Cert.KernelIdeal.Region6

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the row-blocked windows move with the point, the others stay. -/
theorem index_maps : ∀ t : Fin cfg6.N,
    win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0
    ∧ win6_7.index t (0 : Fin 2) = t.val
    ∧ win6_7.index t (1 : Fin 2) = 0 :=
  (by decide +kernel : ∀ t : Fin grid6.N, _)

/-- Input array 0 as the region finds it. -/
abbrev in0 (c : Dev nD) : S50000x256.Idx → EReal := V c main_v85
/-- Input array 1 as the region finds it. -/
abbrev in1 (c : Dev nD) : S1x256.Idx → EReal := V c main_v98
/-- Input array 2 as the region finds it. -/
abbrev in2 (c : Dev nD) : S1x256.Idx → EReal := V c main_v99
/-- Input array 3 as the region finds it. -/
abbrev in3 (c : Dev nD) : S1x256.Idx → EReal := V c main_v100
/-- Input array 4 as the region finds it. -/
abbrev in4 (c : Dev nD) : S1x256.Idx → EReal := V c main_v101
/-- Input array 5 as the region finds it. -/
abbrev in5 (c : Dev nD) : S256x128.Idx → EReal := V c main_v95
/-- Input array 6 as the region finds it. -/
abbrev in6 (c : Dev nD) : S1x128.Idx → EReal := V c main_v102

/-- The whole-array function the region computes, of the arrays as the region finds them. -/
abbrev result (c : Dev nD) : S50000x128.Idx → EReal :=
  Cert.Spec.normProductPos (M := 50000) (K := 256) (D := 128) Cert.Spec.eps Cert.Spec.zero (in0 V c) (in1 V c) (in2 V c) (in3 V c) (in4 V c) (in5 V c) (in6 V c)

/-- What point `t` writes back is its block of `result`. -/
theorem flushed_eq (c : Dev nD) (t : Fin cfg6.N) :
    (dat6 (F := Ideal) V c).flushed 7 t = ((cfg6.win 7).blk t).view.read (Elt Ideal) (result V c) := by
  show (cfg6.win 7).cut (grid6.coords t) ((dat6 V c).after 7 t) = _
  rw [after6_7]
  unfold out6_7
  rw [View.canon_unit_zero origin_zero]
  simp only [View.ld_unit_zero (S := S5000x256) origin_zero, View.ld_unit_zero (S := S1x256) origin_zero, View.ld_unit_zero (S := S256x128) origin_zero, View.ld_unit_zero (S := S1x128) origin_zero]
  obtain ⟨e0, e1, e2, e3, e4, e5, e6, e7, e8, e9, e10, e11, e12, e13, e14, e15⟩ := index_maps t
  have hN : grid6.N = 10 := N_6
  have ht : t.val < 10 := hN ▸ t.isLt
  funext j
  obtain ⟨p, q, rfl⟩ : ∃ (p : Fin 5000) (q : Fin 128), j = ix2 p q := ⟨j 0, j 1, eq_ix2 j⟩
  have hp : p.val < 5000 := p.isLt
  let r : Fin 50000 := ⟨t.val * 5000 + p.val, by omega⟩
  have emb_out : ((cfg6.win 7).blk t).view.emb (ix2 p q) = (ix2 r q : S50000x128.Idx) := by
    funext ax; apply Fin.ext
    match ax with
    | ⟨0, _⟩ => show win6_7.index t (0 : Fin 2) * 5000 + 1 * p.val = t.val * 5000 + p.val; omega
    | ⟨1, _⟩ => show win6_7.index t (1 : Fin 2) * 128 + 1 * q.val = q.val; omega
  have rd_0 : ∀ k : Fin 256, iblk6 V c 0 t (ix2 p k) = in0 V c (ix2 r k) := fun k => by
    show V c main_v85 (((cfg6.win 0).blk t).view.emb (ix2 p k)) = _
    refine congrArg (V c main_v85) (funext fun ax => Fin.ext ?_)
    match ax with
    | ⟨0, _⟩ => show win6_0.index t (0 : Fin 2) * 5000 + 1 * p.val = t.val * 5000 + p.val; omega
    | ⟨1, _⟩ => show win6_0.index t (1 : Fin 2) * 256 + 1 * k.val = k.val; omega
  have rd_1 : ∀ k : Fin 256, iblk6 V c 1 t (ix2 (0 : Fin 1) k) = V c main_v98 (ix2 (0 : Fin 1) k : S1x256.Idx) := fun k => by
    show V c main_v98 (((cfg6.win 1).blk t).view.emb (ix2 (0 : Fin 1) k)) = _
    refine congrArg (V c main_v98) (funext fun ax => Fin.ext ?_)
    match ax with
    | ⟨0, _⟩ => show win6_1.index t (0 : Fin 2) * 1 + 1 * 0 = 0; omega
    | ⟨1, _⟩ => show win6_1.index t (1 : Fin 2) * 256 + 1 * k.val = k.val; omega
  have rd_2 : ∀ k : Fin 256, iblk6 V c 2 t (ix2 (0 : Fin 1) k) = V c main_v99 (ix2 (0 : Fin 1) k : S1x256.Idx) := fun k => by
    show V c main_v99 (((cfg6.win 2).blk t).view.emb (ix2 (0 : Fin 1) k)) = _
    refine congrArg (V c main_v99) (funext fun ax => Fin.ext ?_)
    match ax with
    | ⟨0, _⟩ => show win6_2.index t (0 : Fin 2) * 1 + 1 * 0 = 0; omega
    | ⟨1, _⟩ => show win6_2.index t (1 : Fin 2) * 256 + 1 * k.val = k.val; omega
  have rd_3 : ∀ k : Fin 256, iblk6 V c 3 t (ix2 (0 : Fin 1) k) = V c main_v100 (ix2 (0 : Fin 1) k : S1x256.Idx) := fun k => by
    show V c main_v100 (((cfg6.win 3).blk t).view.emb (ix2 (0 : Fin 1) k)) = _
    refine congrArg (V c main_v100) (funext fun ax => Fin.ext ?_)
    match ax with
    | ⟨0, _⟩ => show win6_3.index t (0 : Fin 2) * 1 + 1 * 0 = 0; omega
    | ⟨1, _⟩ => show win6_3.index t (1 : Fin 2) * 256 + 1 * k.val = k.val; omega
  have rd_4 : ∀ k : Fin 256, iblk6 V c 4 t (ix2 (0 : Fin 1) k) = V c main_v101 (ix2 (0 : Fin 1) k : S1x256.Idx) := fun k => by
    show V c main_v101 (((cfg6.win 4).blk t).view.emb (ix2 (0 : Fin 1) k)) = _
    refine congrArg (V c main_v101) (funext fun ax => Fin.ext ?_)
    match ax with
    | ⟨0, _⟩ => show win6_4.index t (0 : Fin 2) * 1 + 1 * 0 = 0; omega
    | ⟨1, _⟩ => show win6_4.index t (1 : Fin 2) * 256 + 1 * k.val = k.val; omega
  have rd_5 : ∀ k : Fin 256, iblk6 V c 5 t (ix2 k q) = in5 V c (ix2 k q) := fun k => by
    show V c main_v95 (((cfg6.win 5).blk t).view.emb (ix2 k q)) = _
    refine congrArg (V c main_v95) (funext fun ax => Fin.ext ?_)
    match ax with
    | ⟨0, _⟩ => show win6_5.index t (0 : Fin 2) * 256 + 1 * k.val = k.val; omega
    | ⟨1, _⟩ => show win6_5.index t (1 : Fin 2) * 128 + 1 * q.val = q.val; omega
  have rd_6 : iblk6 V c 6 t (ix2 (0 : Fin 1) q) = V c main_v102 (ix2 (0 : Fin 1) q : S1x128.Idx) := by
    show V c main_v102 (((cfg6.win 6).blk t).view.emb (ix2 (0 : Fin 1) q)) = _
    refine congrArg (V c main_v102) (funext fun ax => Fin.ext ?_)
    match ax with
    | ⟨0, _⟩ => show win6_6.index t (0 : Fin 2) * 1 + 1 * 0 = 0; omega
    | ⟨1, _⟩ => show win6_6.index t (1 : Fin 2) * 128 + 1 * q.val = q.val; omega
  show k6_pay1 (iblk6 V c 0 t) (iblk6 V c 2 t) (iblk6 V c 3 t) (iblk6 V c 1 t) (iblk6 V c 4 t) (iblk6 V c 5 t) (iblk6 V c 6 t) (ix2 p q)
    = result V c (((cfg6.win 7).blk t).view.emb (ix2 p q))
  rw [emb_out, Body2.k6_eq, Body2.normProductPos_pay, rd_6]
  show _ = max ((∑ k : Fin 256, Cert.Spec.normAct Cert.Spec.eps Cert.Spec.zero (in0 V c) (in1 V c) (in2 V c) (in3 V c) (in4 V c) r k * in5 V c (ix2 k q)) + in6 V c (ix2 0 q)) Cert.Spec.zero
  refine congrArg (max · Cert.Spec.zero) (congrArg (· + in6 V c (ix2 0 q)) (Finset.sum_congr rfl fun k _ => ?_))
  unfold Body2.act Cert.Spec.normAct
  rw [rd_0 k, rd_1 k, rd_2 k, rd_3 k, rd_4 k, rd_5 k]

/-- An index of the result array is in point `t`'s block iff each coordinate is in the block's range. -/
theorem mem_blk (t : Fin cfg6.N) (i : S50000x128.Idx) :
    i ∈ ((cfg6.win 7).blk t).view.set ↔ ∀ ax : Fin 2, win6_7.index t ax * S5000x128.size ax ≤ (i ax).val
      ∧ (i ax).val < win6_7.index t ax * S5000x128.size ax + S5000x128.size ax := by
  show i ∈ ((View.whole main_v103).slice (win6_7.rect t)).set ↔ _
  rw [View.set_slice_whole, Rect.mem_set_unit]
  exact Iff.rfl

/-- Every entry of the result array is in the block of the point its row falls to. -/
theorem cover (i : S50000x128.Idx) :
    ∃ t : Fin cfg6.N, (cfg6.win 7).flush t = true ∧ i ∈ ((cfg6.win 7).blk t).view.set := by
  have hi0 : (i 0).val < 50000 := (i 0).isLt
  have hi1 : (i 1).val < 128 := (i 1).isLt
  have hN : grid6.N = 10 := N_6
  have hlt : (i 0).val / 5000 < grid6.N := by rw [hN]; omega
  obtain ⟨e0, e1, e2, e3, e4, e5, e6, e7, e8, e9, e10, e11, e12, e13, e14, e15⟩ := index_maps ⟨(i 0).val / 5000, hlt⟩
  have e_row : win6_7.index ⟨(i 0).val / 5000, hlt⟩ (0 : Fin 2) = (i 0).val / 5000 := e14
  refine ⟨⟨(i 0).val / 5000, hlt⟩, flush6_7 _, ?_⟩
  rw [mem_blk]
  intro ax
  match ax with
  | ⟨0, _⟩ =>
    show win6_7.index ⟨(i 0).val / 5000, hlt⟩ (0 : Fin 2) * 5000 ≤ (i 0).val
      ∧ (i 0).val < win6_7.index ⟨(i 0).val / 5000, hlt⟩ (0 : Fin 2) * 5000 + 5000
    omega
  | ⟨1, _⟩ =>
    show win6_7.index ⟨(i 0).val / 5000, hlt⟩ (1 : Fin 2) * 128 ≤ (i 1).val
      ∧ (i 1).val < win6_7.index ⟨(i 0).val / 5000, hlt⟩ (1 : Fin 2) * 128 + 128
    omega

/-- The result array after the run is `result`. -/
theorem final (c : Dev nD) : (dat6 (F := Ideal) V c).arrAt 7 cfg6.N = result V c :=
  (dat6 V c).arrAt_eq_of_cover 7 (result V c) (fun t _ => flushed_eq V c t) cover

/-- The input arrays end as the region found them: no point writes one back. -/
theorem kept (c : Dev nD) (w : Fin cfg6.W) (hw : w ≠ 7) :
    (dat6 (F := Ideal) V c).arrAt w cfg6.N = V c (Pipeline.arrRef spec6 w) := by
  have hin : (cfg6.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, hw => exact absurd rfl hw
  rw [(dat6 V c).arrAt_in w hin, A_eq6]

/-- The region as ONE host operation: `result`'s function of the input arrays into the result array. -/
def op : HloOp τ sig (Elt Ideal) :=
  Cert.Lib.RegionOp.op7 main_v85 main_v98 main_v99 main_v100 main_v101 main_v95 main_v102 main_v103
    (fun z mn vr g β w b => Cert.Spec.normProductPos (M := 50000) (K := 256) (D := 128) Cert.Spec.eps Cert.Spec.zero z mn vr g β w b) (by decide) ⟨by decide, rfl⟩

variable (m : (ℓ : Loc nD τ sig) → Buf (Elt Ideal) ℓ) (ρ : Dev nD → PrngReg)

/-- The buffer contents at the region's exit are the operation's result of the contents at its entry. -/
theorem exit_eq (c : Dev nD) : W18 (F := Ideal) m ρ c = op.result (W17 m ρ c) := by
  unfold W18
  refine Cert.Lib.RegionOp.withArrays_eq_result spec6 launch6.win.arr_inj c (W17 m ρ c) _ op 7 rfl ?_ ?_
  · show (dat6 (V17 m ρ) c).arrAt 7 cfg6.N = op.result (W17 m ρ c) (Proc.devRef .tc main_v103)
    refine (final (V17 m ρ) c).trans ?_
    unfold op
    rw [Cert.Lib.RegionOp.op7_result']
  · intro w hw
    exact kept (V17 m ρ) c w hw

end Cert.KernelIdeal.Region6

end
-- ==== Proof.KLayer1.lean ====
/-
  Layer 1 of the kernel program, read off the fold of its host stretches and of its three regions taken as single
  operations: the edge embeddings, the first linear stage of the aggregates, and the layer's output, each as the
  shared term of the buffers' contents when the layer is entered; and the buffers the layer leaves alone (the index
  arrays, the extended edge features and the parameters).
-/
import proofs.«132731_j31379031065008_1_alg».proof.Proof.Region4
import proofs.«132731_j31379031065008_1_alg».proof.Proof.Region5
import proofs.«132731_j31379031065008_1_alg».proof.Proof.Region6
import proofs.«132731_j31379031065008_1_alg».proof.Proof.KShared
import proofs.«132731_j31379031065008_1_alg».proof.Proof.KRead
import proofs.«132731_j31379031065008_1_alg».proof.Proof.Canon

set_option maxRecDepth 16384
set_option maxHeartbeats 4000000

noncomputable section

namespace Cert.KernelIdeal.Layer1

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- What the edge stage (its parameter slices and its region) leaves alone. -/
theorem keeps_edge (c : Dev nD) :
    W12 (F := Ideal) m ρ c (Proc.devRef .tc main_v58) = W10 m ρ c (Proc.devRef .tc main_v58)
    ∧ W12 (F := Ideal) m ρ c (Proc.devRef .tc main_v3) = W10 m ρ c (Proc.devRef .tc main_v3)
    ∧ W12 (F := Ideal) m ρ c (Proc.devRef .tc main_v6) = W10 m ρ c (Proc.devRef .tc main_v6)
    ∧ W12 (F := Ideal) m ρ c (Proc.devRef .tc main_v11) = W10 m ρ c (Proc.devRef .tc main_v11)
    ∧ W12 (F := Ideal) m ρ c (Proc.devRef .tc main_arg3) = W10 m ρ c (Proc.devRef .tc main_arg3)
    ∧ W12 (F := Ideal) m ρ c (Proc.devRef .tc main_arg4) = W10 m ρ c (Proc.devRef .tc main_arg4)
    ∧ W12 (F := Ideal) m ρ c (Proc.devRef .tc main_arg5) = W10 m ρ c (Proc.devRef .tc main_arg5)
    ∧ W12 (F := Ideal) m ρ c (Proc.devRef .tc main_arg6) = W10 m ρ c (Proc.devRef .tc main_arg6)
    ∧ W12 (F := Ideal) m ρ c (Proc.devRef .tc main_arg7) = W10 m ρ c (Proc.devRef .tc main_arg7)
    ∧ W12 (F := Ideal) m ρ c (Proc.devRef .tc main_arg8) = W10 m ρ c (Proc.devRef .tc main_arg8)
    ∧ W12 (F := Ideal) m ρ c (Proc.devRef .tc main_arg9) = W10 m ρ c (Proc.devRef .tc main_arg9)
    ∧ W12 (F := Ideal) m ρ c (Proc.devRef .tc main_arg10) = W10 m ρ c (Proc.devRef .tc main_arg10)
    ∧ W12 (F := Ideal) m ρ c (Proc.devRef .tc main_arg11) = W10 m ρ c (Proc.devRef .tc main_arg11)
    ∧ W12 (F := Ideal) m ρ c (Proc.devRef .tc main_arg12) = W10 m ρ c (Proc.devRef .tc main_arg12) := by
  rw [Region4.exit_eq]
  unfold W11
  unfold Region4.op
  simp only [hostOps4]
  refine ⟨?_, ?_, ?_, ?_, ?_, ?_, ?_, ?_, ?_, ?_, ?_, ?_, ?_, ?_⟩ <;> kernel_read

/-- The edge embeddings. -/
theorem eemb_val (c : Dev nD) :
    W12 (F := Ideal) m ρ c (Proc.devRef .tc main_v64) = Shared.eembTerm 1 (W10 m ρ c (Proc.devRef .tc main_v11)) (W10 m ρ c (Proc.devRef .tc main_arg5)) (W10 m ρ c (Proc.devRef .tc main_arg6)) := by
  rw [Region4.exit_eq]
  unfold W11
  unfold Region4.op
  simp only [hostOps4]
  kernel_read
  unfold Shared.eembTerm
  exact Cert.Spec.affine_congr rfl (Cert.Canon.mat_of_slice (1 : Fin 5) _ _ _) (Cert.Canon.row_of_slice (1 : Fin 5) _ _ _ _)

/-- What the aggregation and the first linear stage leave alone. -/
theorem keeps_first (c : Dev nD) :
    W14 (F := Ideal) m ρ c (Proc.devRef .tc main_v3) = W12 m ρ c (Proc.devRef .tc main_v3)
    ∧ W14 (F := Ideal) m ρ c (Proc.devRef .tc main_v6) = W12 m ρ c (Proc.devRef .tc main_v6)
    ∧ W14 (F := Ideal) m ρ c (Proc.devRef .tc main_v11) = W12 m ρ c (Proc.devRef .tc main_v11)
    ∧ W14 (F := Ideal) m ρ c (Proc.devRef .tc main_arg3) = W12 m ρ c (Proc.devRef .tc main_arg3)
    ∧ W14 (F := Ideal) m ρ c (Proc.devRef .tc main_arg4) = W12 m ρ c (Proc.devRef .tc main_arg4)
    ∧ W14 (F := Ideal) m ρ c (Proc.devRef .tc main_arg5) = W12 m ρ c (Proc.devRef .tc main_arg5)
    ∧ W14 (F := Ideal) m ρ c (Proc.devRef .tc main_arg6) = W12 m ρ c (Proc.devRef .tc main_arg6)
    ∧ W14 (F := Ideal) m ρ c (Proc.devRef .tc main_arg7) = W12 m ρ c (Proc.devRef .tc main_arg7)
    ∧ W14 (F := Ideal) m ρ c (Proc.devRef .tc main_arg8) = W12 m ρ c (Proc.devRef .tc main_arg8)
    ∧ W14 (F := Ideal) m ρ c (Proc.devRef .tc main_arg9) = W12 m ρ c (Proc.devRef .tc main_arg9)
    ∧ W14 (F := Ideal) m ρ c (Proc.devRef .tc main_arg10) = W12 m ρ c (Proc.devRef .tc main_arg10)
    ∧ W14 (F := Ideal) m ρ c (Proc.devRef .tc main_arg11) = W12 m ρ c (Proc.devRef .tc main_arg11)
    ∧ W14 (F := Ideal) m ρ c (Proc.devRef .tc main_arg12) = W12 m ρ c (Proc.devRef .tc main_arg12) := by
  rw [Region5.exit_eq]
  unfold W13
  unfold Region5.op
  simp only [hostOps5]
  refine ⟨?_, ?_, ?_, ?_, ?_, ?_, ?_, ?_, ?_, ?_, ?_, ?_, ?_⟩ <;> kernel_read

/-- The first linear stage of the two aggregates. -/
theorem z_val (c : Dev nD) :
    W14 (F := Ideal) m ρ c (Proc.devRef .tc main_v85) = Shared.zTerm 1 (W10 m ρ c (Proc.devRef .tc main_v58)) (W10 m ρ c (Proc.devRef .tc main_v3)) (W10 m ρ c (Proc.devRef .tc main_v6)) (W10 m ρ c (Proc.devRef .tc main_v11)) (W10 m ρ c (Proc.devRef .tc main_arg5)) (W10 m ρ c (Proc.devRef .tc main_arg6)) (W10 m ρ c (Proc.devRef .tc main_arg7)) (W10 m ρ c (Proc.devRef .tc main_arg8)) := by
  rw [Region5.exit_eq]
  unfold W13
  unfold Region5.op
  simp only [hostOps5]
  kernel_read
  obtain ⟨k_v58, k_v3, k_v6, k_v11, k_arg3, k_arg4, k_arg5, k_arg6, k_arg7, k_arg8, k_arg9, k_arg10, k_arg11, k_arg12⟩ := keeps_edge m ρ c
  rw [eemb_val m ρ c, k_v58, k_v3, k_v6, k_arg7, k_arg8]
  unfold Shared.zTerm
  exact Cert.Spec.twoProducts_congr rfl rfl (Cert.Canon.matTop_of_slice (R := 128) (1 : Fin 5) _ _ _) (Cert.Canon.matBot_of_slice (R := 128) (1 : Fin 5) _ _ _) (Cert.Canon.row_of_slice (1 : Fin 5) _ _ _ _)

/-- What the statistics and the second stage leave alone. -/
theorem keeps_second (c : Dev nD) :
    W18 (F := Ideal) m ρ c (Proc.devRef .tc main_v3) = W14 m ρ c (Proc.devRef .tc main_v3)
    ∧ W18 (F := Ideal) m ρ c (Proc.devRef .tc main_v6) = W14 m ρ c (Proc.devRef .tc main_v6)
    ∧ W18 (F := Ideal) m ρ c (Proc.devRef .tc main_v11) = W14 m ρ c (Proc.devRef .tc main_v11)
    ∧ W18 (F := Ideal) m ρ c (Proc.devRef .tc main_arg3) = W14 m ρ c (Proc.devRef .tc main_arg3)
    ∧ W18 (F := Ideal) m ρ c (Proc.devRef .tc main_arg4) = W14 m ρ c (Proc.devRef .tc main_arg4)
    ∧ W18 (F := Ideal) m ρ c (Proc.devRef .tc main_arg5) = W14 m ρ c (Proc.devRef .tc main_arg5)
    ∧ W18 (F := Ideal) m ρ c (Proc.devRef .tc main_arg6) = W14 m ρ c (Proc.devRef .tc main_arg6)
    ∧ W18 (F := Ideal) m ρ c (Proc.devRef .tc main_arg7) = W14 m ρ c (Proc.devRef .tc main_arg7)
    ∧ W18 (F := Ideal) m ρ c (Proc.devRef .tc main_arg8) = W14 m ρ c (Proc.devRef .tc main_arg8)
    ∧ W18 (F := Ideal) m ρ c (Proc.devRef .tc main_arg9) = W14 m ρ c (Proc.devRef .tc main_arg9)
    ∧ W18 (F := Ideal) m ρ c (Proc.devRef .tc main_arg10) = W14 m ρ c (Proc.devRef .tc main_arg10)
    ∧ W18 (F := Ideal) m ρ c (Proc.devRef .tc main_arg11) = W14 m ρ c (Proc.devRef .tc main_arg11)
    ∧ W18 (F := Ideal) m ρ c (Proc.devRef .tc main_arg12) = W14 m ρ c (Proc.devRef .tc main_arg12) := by
  rw [Region6.exit_eq]
  unfold W17 W16 W15
  unfold Region6.op
  simp only [hostOps6, hostOps6_1, hostOps6_2]
  refine ⟨?_, ?_, ?_, ?_, ?_, ?_, ?_, ?_, ?_, ?_, ?_, ?_, ?_⟩ <;> kernel_read

/-- The layer's output. -/
theorem out_val (c : Dev nD) :
    W18 (F := Ideal) m ρ c (Proc.devRef .tc main_v103)
      = Shared.outPos 1 (Shared.zTerm 1 (W10 m ρ c (Proc.devRef .tc main_v58)) (W10 m ρ c (Proc.devRef .tc main_v3)) (W10 m ρ c (Proc.devRef .tc main_v6)) (W10 m ρ c (Proc.devRef .tc main_v11)) (W10 m ρ c (Proc.devRef .tc main_arg5)) (W10 m ρ c (Proc.devRef .tc main_arg6)) (W10 m ρ c (Proc.devRef .tc main_arg7)) (W10 m ρ c (Proc.devRef .tc main_arg8)))
          (W10 m ρ c (Proc.devRef .tc main_arg9)) (W10 m ρ c (Proc.devRef .tc main_arg10)) (W10 m ρ c (Proc.devRef .tc main_arg11)) (W10 m ρ c (Proc.devRef .tc main_arg12)) := by
  rw [Region6.exit_eq]
  unfold W17 W16 W15
  unfold Region6.op
  simp only [hostOps6, hostOps6_1, hostOps6_2]
  kernel_read
  obtain ⟨a_v58, a_v3, a_v6, a_v11, a_arg3, a_arg4, a_arg5, a_arg6, a_arg7, a_arg8, a_arg9, a_arg10, a_arg11, a_arg12⟩ := keeps_edge m ρ c
  obtain ⟨b_v3, b_v6, b_v11, b_arg3, b_arg4, b_arg5, b_arg6, b_arg7, b_arg8, b_arg9, b_arg10, b_arg11, b_arg12⟩ := keeps_first m ρ c
  rw [z_val m ρ c, b_arg9, b_arg10, b_arg11, b_arg12, a_arg9, a_arg10, a_arg11, a_arg12]
  unfold Shared.outPos
  exact Cert.Spec.normProductPos_congr rfl (Cert.Canon.row_of_vec _ _) (Cert.Canon.row_of_vec _ _) (Cert.Canon.row_of_slice (1 : Fin 5) _ _ _ _) (Cert.Canon.row_of_slice (1 : Fin 5) _ _ _ _) (Cert.Canon.mat_of_slice (1 : Fin 5) _ _ _) (Cert.Canon.row_of_slice (1 : Fin 5) _ _ _ _)

/-- What the whole layer leaves alone. -/
theorem keeps (c : Dev nD) :
    W18 (F := Ideal) m ρ c (Proc.devRef .tc main_v3) = W10 m ρ c (Proc.devRef .tc main_v3)
    ∧ W18 (F := Ideal) m ρ c (Proc.devRef .tc main_v6) = W10 m ρ c (Proc.devRef .tc main_v6)
    ∧ W18 (F := Ideal) m ρ c (Proc.devRef .tc main_v11) = W10 m ρ c (Proc.devRef .tc main_v11)
    ∧ W18 (F := Ideal) m ρ c (Proc.devRef .tc main_arg3) = W10 m ρ c (Proc.devRef .tc main_arg3)
    ∧ W18 (F := Ideal) m ρ c (Proc.devRef .tc main_arg4) = W10 m ρ c (Proc.devRef .tc main_arg4)
    ∧ W18 (F := Ideal) m ρ c (Proc.devRef .tc main_arg5) = W10 m ρ c (Proc.devRef .tc main_arg5)
    ∧ W18 (F := Ideal) m ρ c (Proc.devRef .tc main_arg6) = W10 m ρ c (Proc.devRef .tc main_arg6)
    ∧ W18 (F := Ideal) m ρ c (Proc.devRef .tc main_arg7) = W10 m ρ c (Proc.devRef .tc main_arg7)
    ∧ W18 (F := Ideal) m ρ c (Proc.devRef .tc main_arg8) = W10 m ρ c (Proc.devRef .tc main_arg8)
    ∧ W18 (F := Ideal) m ρ c (Proc.devRef .tc main_arg9) = W10 m ρ c (Proc.devRef .tc main_arg9)
    ∧ W18 (F := Ideal) m ρ c (Proc.devRef .tc main_arg10) = W10 m ρ c (Proc.devRef .tc main_arg10)
    ∧ W18 (F := Ideal) m ρ c (Proc.devRef .tc main_arg11) = W10 m ρ c (Proc.devRef .tc main_arg11)
    ∧ W18 (F := Ideal) m ρ c (Proc.devRef .tc main_arg12) = W10 m ρ c (Proc.devRef .tc main_arg12) := by
  obtain ⟨a_v58, a_v3, a_v6, a_v11, a_arg3, a_arg4, a_arg5, a_arg6, a_arg7, a_arg8, a_arg9, a_arg10, a_arg11, a_arg12⟩ := keeps_edge m ρ c
  obtain ⟨b_v3, b_v6, b_v11, b_arg3, b_arg4, b_arg5, b_arg6, b_arg7, b_arg8, b_arg9, b_arg10, b_arg11, b_arg12⟩ := keeps_first m ρ c
  obtain ⟨d_v3, d_v6, d_v11, d_arg3, d_arg4, d_arg5, d_arg6, d_arg7, d_arg8, d_arg9, d_arg10, d_arg11, d_arg12⟩ := keeps_second m ρ c
  exact ⟨d_v3.trans (b_v3.trans a_v3), d_v6.trans (b_v6.trans a_v6), d_v11.trans (b_v11.trans a_v11), d_arg3.trans (b_arg3.trans a_arg3), d_arg4.trans (b_arg4.trans a_arg4), d_arg5.trans (b_arg5.trans a_arg5), d_arg6.trans (b_arg6.trans a_arg6), d_arg7.trans (b_arg7.trans a_arg7), d_arg8.trans (b_arg8.trans a_arg8), d_arg9.trans (b_arg9.trans a_arg9), d_arg10.trans (b_arg10.trans a_arg10), d_arg11.trans (b_arg11.trans a_arg11), d_arg12.trans (b_arg12.trans a_arg12)⟩

end Cert.KernelIdeal.Layer1

end
-- ==== Proof.Region7.lean ====
/-
  Region 7: the edge features through layer 2's edge map — an affine stage on 450000 rows, 9000 rows to a block.

  Point t of the grid reads rows 9000·t … 9000·t + 8999 of the left array, the whole 3 × 128 map and the whole row of biases, and
  writes the same rows of the result. Every row of the result lies in the block of the point row / 9000, so the blocks
  cover the array, and what a point writes is its block of ONE function of the whole arrays:
  entry (r, c) ↦ (∑ k, a[r,k] · w[k,c]) + b[0,c]. The input arrays are never written back. So the region leaves exactly
  what one host operation computing that function into the result array leaves.
-/
import proofs.«132731_j31379031065008_1_alg».proof.Proof.Gen.KernelIdeal.Frame
import proofs.«132731_j31379031065008_1_alg».proof.Proof.Spec
import proofs.«132731_j31379031065008_1_alg».proof.Proof.AffineBody
import proofs.«132731_j31379031065008_1_alg».proof.Proof.LibRegionOp
import Idealize.ShloMosaic.Lib.Pipeline.Value

set_option maxRecDepth 16384

noncomputable section

namespace Cert.KernelIdeal.Region7

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the row-blocked windows move with the point, the others stay. -/
theorem index_maps : ∀ t : Fin cfg7.N,
    win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

/-- Input array 0 as the region finds it. -/
abbrev in0 (c : Dev nD) : S450000x3.Idx → EReal := V c main_v11
/-- Input array 1 as the region finds it. -/
abbrev in1 (c : Dev nD) : S3x128.Idx → EReal := V c main_v105
/-- Input array 2 as the region finds it. -/
abbrev in2 (c : Dev nD) : S1x128.Idx → EReal := V c main_v108

/-- The whole-array function the region computes, of the arrays as the region finds them. -/
abbrev result (c : Dev nD) : S450000x128.Idx → EReal :=
  Cert.Spec.affine (M := 450000) (K := 3) (D := 128) (in0 V c) (in1 V c) (in2 V c)

/-- What point `t` writes back is its block of `result`. -/
theorem flushed_eq (c : Dev nD) (t : Fin cfg7.N) :
    (dat7 (F := Ideal) V c).flushed 3 t = ((cfg7.win 3).blk t).view.read (Elt Ideal) (result V c) := by
  show (cfg7.win 3).cut (grid7.coords t) ((dat7 V c).after 3 t) = _
  rw [after7_3]
  unfold out7_3
  rw [View.canon_unit_zero origin_zero]
  simp only [View.ld_unit_zero (S := S9000x3) origin_zero, View.ld_unit_zero (S := S3x128) origin_zero, View.ld_unit_zero (S := S1x128) origin_zero]
  obtain ⟨e0, e1, e2, e3, e4, e5, e6, e7⟩ := index_maps t
  have hN : grid7.N = 50 := N_7
  have ht : t.val < 50 := hN ▸ t.isLt
  funext j
  obtain ⟨p, q, rfl⟩ : ∃ (p : Fin 9000) (q : Fin 128), j = ix2 p q := ⟨j 0, j 1, eq_ix2 j⟩
  have hp : p.val < 9000 := p.isLt
  let r : Fin 450000 := ⟨t.val * 9000 + p.val, by omega⟩
  have emb_out : ((cfg7.win 3).blk t).view.emb (ix2 p q) = (ix2 r q : S450000x128.Idx) := by
    funext ax; apply Fin.ext
    match ax with
    | ⟨0, _⟩ => show win7_3.index t (0 : Fin 2) * 9000 + 1 * p.val = t.val * 9000 + p.val; omega
    | ⟨1, _⟩ => show win7_3.index t (1 : Fin 2) * 128 + 1 * q.val = q.val; omega
  have rd_0 : ∀ k : Fin 3, iblk7 V c 0 t (ix2 p k) = in0 V c (ix2 r k) := fun k => by
    show V c main_v11 (((cfg7.win 0).blk t).view.emb (ix2 p k)) = _
    refine congrArg (V c main_v11) (funext fun ax => Fin.ext ?_)
    match ax with
    | ⟨0, _⟩ => show win7_0.index t (0 : Fin 2) * 9000 + 1 * p.val = t.val * 9000 + p.val; omega
    | ⟨1, _⟩ => show win7_0.index t (1 : Fin 2) * 3 + 1 * k.val = k.val; omega
  have rd_1 : ∀ k : Fin 3, iblk7 V c 1 t (ix2 k q) = in1 V c (ix2 k q) := fun k => by
    show V c main_v105 (((cfg7.win 1).blk t).view.emb (ix2 k q)) = _
    refine congrArg (V c main_v105) (funext fun ax => Fin.ext ?_)
    match ax with
    | ⟨0, _⟩ => show win7_1.index t (0 : Fin 2) * 3 + 1 * k.val = k.val; omega
    | ⟨1, _⟩ => show win7_1.index t (1 : Fin 2) * 128 + 1 * q.val = q.val; omega
  have rd_2 : iblk7 V c 2 t (ix2 (0 : Fin 1) q) = V c main_v108 (ix2 (0 : Fin 1) q : S1x128.Idx) := by
    show V c main_v108 (((cfg7.win 2).blk t).view.emb (ix2 (0 : Fin 1) q)) = _
    refine congrArg (V c main_v108) (funext fun ax => Fin.ext ?_)
    match ax with
    | ⟨0, _⟩ => show win7_2.index t (0 : Fin 2) * 1 + 1 * 0 = 0; omega
    | ⟨1, _⟩ => show win7_2.index t (1 : Fin 2) * 128 + 1 * q.val = q.val; omega
  show k7_pay1 (iblk7 V c 0 t) (iblk7 V c 1 t) (iblk7 V c 2 t) (ix2 p q)
    = result V c (((cfg7.win 3).blk t).view.emb (ix2 p q))
  rw [emb_out, Body.k7_eq, Body.affine9000_pay, rd_2]
  show _ = (∑ k : Fin 3, in0 V c (ix2 r k) * in1 V c (ix2 k q)) + in2 V c (ix2 0 q)
  exact congrArg (· + in2 V c (ix2 0 q)) (Finset.sum_congr rfl fun k _ => by rw [rd_0 k, rd_1 k])

/-- An index of the result array is in point `t`'s block iff each coordinate is in the block's range. -/
theorem mem_blk (t : Fin cfg7.N) (i : S450000x128.Idx) :
    i ∈ ((cfg7.win 3).blk t).view.set ↔ ∀ ax : Fin 2, win7_3.index t ax * S9000x128.size ax ≤ (i ax).val
      ∧ (i ax).val < win7_3.index t ax * S9000x128.size ax + S9000x128.size ax := by
  show i ∈ ((View.whole main_v109).slice (win7_3.rect t)).set ↔ _
  rw [View.set_slice_whole, Rect.mem_set_unit]
  exact Iff.rfl

/-- Every entry of the result array is in the block of the point its row falls to. -/
theorem cover (i : S450000x128.Idx) :
    ∃ t : Fin cfg7.N, (cfg7.win 3).flush t = true ∧ i ∈ ((cfg7.win 3).blk t).view.set := by
  have hi0 : (i 0).val < 450000 := (i 0).isLt
  have hi1 : (i 1).val < 128 := (i 1).isLt
  have hN : grid7.N = 50 := N_7
  have hlt : (i 0).val / 9000 < grid7.N := by rw [hN]; omega
  obtain ⟨e0, e1, e2, e3, e4, e5, e6, e7⟩ := index_maps ⟨(i 0).val / 9000, hlt⟩
  have e_row : win7_3.index ⟨(i 0).val / 9000, hlt⟩ (0 : Fin 2) = (i 0).val / 9000 := e6
  refine ⟨⟨(i 0).val / 9000, hlt⟩, flush7_3 _, ?_⟩
  rw [mem_blk]
  intro ax
  match ax with
  | ⟨0, _⟩ =>
    show win7_3.index ⟨(i 0).val / 9000, hlt⟩ (0 : Fin 2) * 9000 ≤ (i 0).val
      ∧ (i 0).val < win7_3.index ⟨(i 0).val / 9000, hlt⟩ (0 : Fin 2) * 9000 + 9000
    omega
  | ⟨1, _⟩ =>
    show win7_3.index ⟨(i 0).val / 9000, hlt⟩ (1 : Fin 2) * 128 ≤ (i 1).val
      ∧ (i 1).val < win7_3.index ⟨(i 0).val / 9000, hlt⟩ (1 : Fin 2) * 128 + 128
    omega

/-- The result array after the run is `result`. -/
theorem final (c : Dev nD) : (dat7 (F := Ideal) V c).arrAt 3 cfg7.N = result V c :=
  (dat7 V c).arrAt_eq_of_cover 3 (result V c) (fun t _ => flushed_eq V c t) cover

/-- The input arrays end as the region found them: no point writes one back. -/
theorem kept (c : Dev nD) (w : Fin cfg7.W) (hw : w ≠ 3) :
    (dat7 (F := Ideal) V c).arrAt w cfg7.N = V c (Pipeline.arrRef spec7 w) := by
  have hin : (cfg7.win w).isOut = false := by
    match w, hw with
    | ⟨0, _⟩, _ => rfl
    | ⟨1, _⟩, _ => rfl
    | ⟨2, _⟩, _ => rfl
    | ⟨3, _⟩, hw => exact absurd rfl hw
  rw [(dat7 V c).arrAt_in w hin, A_eq7]

/-- The region as ONE host operation: `result`'s function of the input arrays into the result array. -/
def op : HloOp τ sig (Elt Ideal) :=
  StableHlo.ternary main_v11 main_v105 main_v108 main_v109
    (fun x y z => Cert.Spec.affine (M := 450000) (K := 3) (D := 128) x y z)

variable (m : (ℓ : Loc nD τ sig) → Buf (Elt Ideal) ℓ) (ρ : Dev nD → PrngReg)

/-- The buffer contents at the region's exit are the operation's result of the contents at its entry. -/
theorem exit_eq (c : Dev nD) : W20 (F := Ideal) m ρ c = op.result (W19 m ρ c) := by
  unfold W20
  refine Cert.Lib.RegionOp.withArrays_eq_result spec7 launch7.win.arr_inj c (W19 m ρ c) _ op 3 rfl ?_ ?_
  · show (dat7 (V19 m ρ) c).arrAt 3 cfg7.N = op.result (W19 m ρ c) (Proc.devRef .tc main_v109)
    refine (final (V19 m ρ) c).trans ?_
    unfold op
    exact (StableHlo.ternary_result main_v11 main_v105 main_v108 main_v109 _ _ _ _ _ _).symm
  · intro w hw
    exact kept (V19 m ρ) c w hw

end Cert.KernelIdeal.Region7

end
-- ==== Proof.Region8.lean ====
/-
  Region 8: the first stage of layer 2's node update on 50000 rows, 5000 rows to a block.

  Point t reads rows 5000·t … of the aggregated neighbour features and of the aggregated edge features, the two
  128 × 256 halves of the first linear map and the row of biases, and writes the same rows of the result. The blocks
  cover the result array (row r lies in the block of point r / 5000), and what a point writes is its block of ONE
  function of the whole arrays: (r, c) ↦ (∑ k, ax[r,k] · wa[k,c]) + (∑ k, ae[r,k] · wb[k,c]) + b[0,c]. The input arrays
  are never written back; so the region leaves what one host operation computing that function leaves.
-/
import proofs.«132731_j31379031065008_1_alg».proof.Proof.Gen.KernelIdeal.Frame
import proofs.«132731_j31379031065008_1_alg».proof.Proof.Spec
import proofs.«132731_j31379031065008_1_alg».proof.Proof.TwoProductsBody
import proofs.«132731_j31379031065008_1_alg».proof.Proof.LibRegionOp
import Idealize.ShloMosaic.Lib.Pipeline.Value

set_option maxRecDepth 16384

noncomputable section

namespace Cert.KernelIdeal.Region8

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the row-blocked windows move with the point, the others stay. -/
theorem index_maps : ∀ t : Fin cfg8.N,
    win8_0.index t (0 : Fin 2) = t.val
    ∧ win8_0.index t (1 : Fin 2) = 0
    ∧ win8_1.index t (0 : Fin 2) = t.val
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (0 : Fin 2) = t.val
    ∧ win8_5.index t (1 : Fin 2) = 0 :=
  (by decide +kernel : ∀ t : Fin grid8.N, _)

/-- Input array 0 as the region finds it. -/
abbrev in0 (c : Dev nD) : S50000x128.Idx → EReal := V c main_v119
/-- Input array 1 as the region finds it. -/
abbrev in1 (c : Dev nD) : S50000x128.Idx → EReal := V c main_v122
/-- Input array 2 as the region finds it. -/
abbrev in2 (c : Dev nD) : S128x256.Idx → EReal := V c main_v124
/-- Input array 3 as the region finds it. -/
abbrev in3 (c : Dev nD) : S128x256.Idx → EReal := V c main_v126
/-- Input array 4 as the region finds it. -/
abbrev in4 (c : Dev nD) : S1x256.Idx → EReal := V c main_v129

/-- The whole-array function the region computes, of the arrays as the region finds them. -/
abbrev result (c : Dev nD) : S50000x256.Idx → EReal :=
  Cert.Spec.twoProducts (M := 50000) (K := 128) (D := 256) (in0 V c) (in1 V c) (in2 V c) (in3 V c) (in4 V c)

/-- What point `t` writes back is its block of `result`. -/
theorem flushed_eq (c : Dev nD) (t : Fin cfg8.N) :
    (dat8 (F := Ideal) V c).flushed 5 t = ((cfg8.win 5).blk t).view.read (Elt Ideal) (result V c) := by
  show (cfg8.win 5).cut (grid8.coords t) ((dat8 V c).after 5 t) = _
  rw [after8_5]
  unfold out8_5
  rw [View.canon_unit_zero origin_zero]
  simp only [View.ld_unit_zero (S := S5000x128) origin_zero, View.ld_unit_zero (S := S128x256) origin_zero, View.ld_unit_zero (S := S1x256) origin_zero]
  obtain ⟨e0, e1, e2, e3, e4, e5, e6, e7, e8, e9, e10, e11⟩ := index_maps t
  have hN : grid8.N = 10 := N_8
  have ht : t.val < 10 := hN ▸ t.isLt
  funext j
  obtain ⟨p, q, rfl⟩ : ∃ (p : Fin 5000) (q : Fin 256), j = ix2 p q := ⟨j 0, j 1, eq_ix2 j⟩
  have hp : p.val < 5000 := p.isLt
  let r : Fin 50000 := ⟨t.val * 5000 + p.val, by omega⟩
  have emb_out : ((cfg8.win 5).blk t).view.emb (ix2 p q) = (ix2 r q : S50000x256.Idx) := by
    funext ax; apply Fin.ext
    match ax with
    | ⟨0, _⟩ => show win8_5.index t (0 : Fin 2) * 5000 + 1 * p.val = t.val * 5000 + p.val; omega
    | ⟨1, _⟩ => show win8_5.index t (1 : Fin 2) * 256 + 1 * q.val = q.val; omega
  have rd_0 : ∀ k : Fin 128, iblk8 V c 0 t (ix2 p k) = in0 V c (ix2 r k) := fun k => by
    show V c main_v119 (((cfg8.win 0).blk t).view.emb (ix2 p k)) = _
    refine congrArg (V c main_v119) (funext fun ax => Fin.ext ?_)
    match ax with
    | ⟨0, _⟩ => show win8_0.index t (0 : Fin 2) * 5000 + 1 * p.val = t.val * 5000 + p.val; omega
    | ⟨1, _⟩ => show win8_0.index t (1 : Fin 2) * 128 + 1 * k.val = k.val; omega
  have rd_1 : ∀ k : Fin 128, iblk8 V c 1 t (ix2 p k) = in1 V c (ix2 r k) := fun k => by
    show V c main_v122 (((cfg8.win 1).blk t).view.emb (ix2 p k)) = _
    refine congrArg (V c main_v122) (funext fun ax => Fin.ext ?_)
    match ax with
    | ⟨0, _⟩ => show win8_1.index t (0 : Fin 2) * 5000 + 1 * p.val = t.val * 5000 + p.val; omega
    | ⟨1, _⟩ => show win8_1.index t (1 : Fin 2) * 128 + 1 * k.val = k.val; omega
  have rd_2 : ∀ k : Fin 128, iblk8 V c 2 t (ix2 k q) = in2 V c (ix2 k q) := fun k => by
    show V c main_v124 (((cfg8.win 2).blk t).view.emb (ix2 k q)) = _
    refine congrArg (V c main_v124) (funext fun ax => Fin.ext ?_)
    match ax with
    | ⟨0, _⟩ => show win8_2.index t (0 : Fin 2) * 128 + 1 * k.val = k.val; omega
    | ⟨1, _⟩ => show win8_2.index t (1 : Fin 2) * 256 + 1 * q.val = q.val; omega
  have rd_3 : ∀ k : Fin 128, iblk8 V c 3 t (ix2 k q) = in3 V c (ix2 k q) := fun k => by
    show V c main_v126 (((cfg8.win 3).blk t).view.emb (ix2 k q)) = _
    refine congrArg (V c main_v126) (funext fun ax => Fin.ext ?_)
    match ax with
    | ⟨0, _⟩ => show win8_3.index t (0 : Fin 2) * 128 + 1 * k.val = k.val; omega
    | ⟨1, _⟩ => show win8_3.index t (1 : Fin 2) * 256 + 1 * q.val = q.val; omega
  have rd_4 : iblk8 V c 4 t (ix2 (0 : Fin 1) q) = V c main_v129 (ix2 (0 : Fin 1) q : S1x256.Idx) := by
    show V c main_v129 (((cfg8.win 4).blk t).view.emb (ix2 (0 : Fin 1) q)) = _
    refine congrArg (V c main_v129) (funext fun ax => Fin.ext ?_)
    match ax with
    | ⟨0, _⟩ => show win8_4.index t (0 : Fin 2) * 1 + 1 * 0 = 0; omega
    | ⟨1, _⟩ => show win8_4.index t (1 : Fin 2) * 256 + 1 * q.val = q.val; omega
  show k8_pay1 (iblk8 V c 0 t) (iblk8 V c 1 t) (iblk8 V c 2 t) (iblk8 V c 3 t) (iblk8 V c 4 t) (ix2 p q)
    = result V c (((cfg8.win 5).blk t).view.emb (ix2 p q))
  rw [emb_out, Body1.k8_eq, Body1.twoProducts_pay, rd_4]
  show _ = ((∑ k : Fin 128, in0 V c (ix2 r k) * in2 V c (ix2 k q)) + (∑ k : Fin 128, in1 V c (ix2 r k) * in3 V c (ix2 k q)))
      + in4 V c (ix2 0 q)
  exact congrArg (· + in4 V c (ix2 0 q)) (congrArg₂ (· + ·) (Finset.sum_congr rfl fun k _ => by rw [rd_0 k, rd_2 k])
    (Finset.sum_congr rfl fun k _ => by rw [rd_1 k, rd_3 k]))

/-- An index of the result array is in point `t`'s block iff each coordinate is in the block's range. -/
theorem mem_blk (t : Fin cfg8.N) (i : S50000x256.Idx) :
    i ∈ ((cfg8.win 5).blk t).view.set ↔ ∀ ax : Fin 2, win8_5.index t ax * S5000x256.size ax ≤ (i ax).val
      ∧ (i ax).val < win8_5.index t ax * S5000x256.size ax + S5000x256.size ax := by
  show i ∈ ((View.whole main_v130).slice (win8_5.rect t)).set ↔ _
  rw [View.set_slice_whole, Rect.mem_set_unit]
  exact Iff.rfl

/-- Every entry of the result array is in the block of the point its row falls to. -/
theorem cover (i : S50000x256.Idx) :
    ∃ t : Fin cfg8.N, (cfg8.win 5).flush t = true ∧ i ∈ ((cfg8.win 5).blk t).view.set := by
  have hi0 : (i 0).val < 50000 := (i 0).isLt
  have hi1 : (i 1).val < 256 := (i 1).isLt
  have hN : grid8.N = 10 := N_8
  have hlt : (i 0).val / 5000 < grid8.N := by rw [hN]; omega
  obtain ⟨e0, e1, e2, e3, e4, e5, e6, e7, e8, e9, e10, e11⟩ := index_maps ⟨(i 0).val / 5000, hlt⟩
  have e_row : win8_5.index ⟨(i 0).val / 5000, hlt⟩ (0 : Fin 2) = (i 0).val / 5000 := e10
  refine ⟨⟨(i 0).val / 5000, hlt⟩, flush8_5 _, ?_⟩
  rw [mem_blk]
  intro ax
  match ax with
  | ⟨0, _⟩ =>
    show win8_5.index ⟨(i 0).val / 5000, hlt⟩ (0 : Fin 2) * 5000 ≤ (i 0).val
      ∧ (i 0).val < win8_5.index ⟨(i 0).val / 5000, hlt⟩ (0 : Fin 2) * 5000 + 5000
    omega
  | ⟨1, _⟩ =>
    show win8_5.index ⟨(i 0).val / 5000, hlt⟩ (1 : Fin 2) * 256 ≤ (i 1).val
      ∧ (i 1).val < win8_5.index ⟨(i 0).val / 5000, hlt⟩ (1 : Fin 2) * 256 + 256
    omega

/-- The result array after the run is `result`. -/
theorem final (c : Dev nD) : (dat8 (F := Ideal) V c).arrAt 5 cfg8.N = result V c :=
  (dat8 V c).arrAt_eq_of_cover 5 (result V c) (fun t _ => flushed_eq V c t) cover

/-- The input arrays end as the region found them: no point writes one back. -/
theorem kept (c : Dev nD) (w : Fin cfg8.W) (hw : w ≠ 5) :
    (dat8 (F := Ideal) V c).arrAt w cfg8.N = V c (Pipeline.arrRef spec8 w) := by
  have hin : (cfg8.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, hw => exact absurd rfl hw
  rw [(dat8 V c).arrAt_in w hin, A_eq8]

/-- The region as ONE host operation: `result`'s function of the input arrays into the result array. -/
def op : HloOp τ sig (Elt Ideal) :=
  Cert.Lib.RegionOp.op5 main_v119 main_v122 main_v124 main_v126 main_v129 main_v130
    (fun a b c d e => Cert.Spec.twoProducts (M := 50000) (K := 128) (D := 256) a b c d e) (by decide) ⟨by decide, rfl⟩

variable (m : (ℓ : Loc nD τ sig) → Buf (Elt Ideal) ℓ) (ρ : Dev nD → PrngReg)

/-- The buffer contents at the region's exit are the operation's result of the contents at its entry. -/
theorem exit_eq (c : Dev nD) : W22 (F := Ideal) m ρ c = op.result (W21 m ρ c) := by
  unfold W22
  refine Cert.Lib.RegionOp.withArrays_eq_result spec8 launch8.win.arr_inj c (W21 m ρ c) _ op 5 rfl ?_ ?_
  · show (dat8 (V21 m ρ) c).arrAt 5 cfg8.N = op.result (W21 m ρ c) (Proc.devRef .tc main_v130)
    refine (final (V21 m ρ) c).trans ?_
    unfold op
    rw [Cert.Lib.RegionOp.op5_result']
  · intro w hw
    exact kept (V21 m ρ) c w hw

end Cert.KernelIdeal.Region8

end
-- ==== Proof.Region9.lean ====
/-
  Region 9: the second stage of layer 2's node update on 50000 rows, 5000 rows to a block.

  Point t reads rows 5000·t … of the first stage's output z, the rows of column statistics (mean, variance), of scale
  and shift, the 256 × 128 second linear map and its row of biases, and writes the same rows of the result. The blocks
  cover the result array, and what a point writes is its block of ONE function of the whole arrays: with
  act[r,k] = max (g[0,k] · (z[r,k] − mean[0,k]) · rsqrt (var[0,k] + ε) + β[0,k]) 0, entry (r, c) ↦ max ((∑ k, act[r,k] · w[k,c]) + b[0,c]) 0.
  The input arrays are never written back; so the region leaves what one host operation computing that function leaves.
-/
import proofs.«132731_j31379031065008_1_alg».proof.Proof.Gen.KernelIdeal.Frame
import proofs.«132731_j31379031065008_1_alg».proof.Proof.Spec
import proofs.«132731_j31379031065008_1_alg».proof.Proof.NormProductBody
import proofs.«132731_j31379031065008_1_alg».proof.Proof.LibRegionOp
import Idealize.ShloMosaic.Lib.Pipeline.Value

set_option maxRecDepth 16384

noncomputable section

namespace Cert.KernelIdeal.Region9

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the row-blocked windows move with the point, the others stay. -/
theorem index_maps : ∀ t : Fin cfg9.N,
    win9_0.index t (0 : Fin 2) = t.val
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = 0
    ∧ win9_3.index t (1 : Fin 2) = 0
    ∧ win9_4.index t (0 : Fin 2) = 0
    ∧ win9_4.index t (1 : Fin 2) = 0
    ∧ win9_5.index t (0 : Fin 2) = 0
    ∧ win9_5.index t (1 : Fin 2) = 0
    ∧ win9_6.index t (0 : Fin 2) = 0
    ∧ win9_6.index t (1 : Fin 2) = 0
    ∧ win9_7.index t (0 : Fin 2) = t.val
    ∧ win9_7.index t (1 : Fin 2) = 0 :=
  (by decide +kernel : ∀ t : Fin grid9.N, _)

/-- Input array 0 as the region finds it. -/
abbrev in0 (c : Dev nD) : S50000x256.Idx → EReal := V c main_v130
/-- Input array 1 as the region finds it. -/
abbrev in1 (c : Dev nD) : S1x256.Idx → EReal := V c main_v143
/-- Input array 2 as the region finds it. -/
abbrev in2 (c : Dev nD) : S1x256.Idx → EReal := V c main_v144
/-- Input array 3 as the region finds it. -/
abbrev in3 (c : Dev nD) : S1x256.Idx → EReal := V c main_v145
/-- Input array 4 as the region finds it. -/
abbrev in4 (c : Dev nD) : S1x256.Idx → EReal := V c main_v146
/-- Input array 5 as the region finds it. -/
abbrev in5 (c : Dev nD) : S256x128.Idx → EReal := V c main_v140
/-- Input array 6 as the region finds it. -/
abbrev in6 (c : Dev nD) : S1x128.Idx → EReal := V c main_v147

/-- The whole-array function the region computes, of the arrays as the region finds them. -/
abbrev result (c : Dev nD) : S50000x128.Idx → EReal :=
  Cert.Spec.normProductPos (M := 50000) (K := 256) (D := 128) Cert.Spec.eps Cert.Spec.zero (in0 V c) (in1 V c) (in2 V c) (in3 V c) (in4 V c) (in5 V c) (in6 V c)

/-- What point `t` writes back is its block of `result`. -/
theorem flushed_eq (c : Dev nD) (t : Fin cfg9.N) :
    (dat9 (F := Ideal) V c).flushed 7 t = ((cfg9.win 7).blk t).view.read (Elt Ideal) (result V c) := by
  show (cfg9.win 7).cut (grid9.coords t) ((dat9 V c).after 7 t) = _
  rw [after9_7]
  unfold out9_7
  rw [View.canon_unit_zero origin_zero]
  simp only [View.ld_unit_zero (S := S5000x256) origin_zero, View.ld_unit_zero (S := S1x256) origin_zero, View.ld_unit_zero (S := S256x128) origin_zero, View.ld_unit_zero (S := S1x128) origin_zero]
  obtain ⟨e0, e1, e2, e3, e4, e5, e6, e7, e8, e9, e10, e11, e12, e13, e14, e15⟩ := index_maps t
  have hN : grid9.N = 10 := N_9
  have ht : t.val < 10 := hN ▸ t.isLt
  funext j
  obtain ⟨p, q, rfl⟩ : ∃ (p : Fin 5000) (q : Fin 128), j = ix2 p q := ⟨j 0, j 1, eq_ix2 j⟩
  have hp : p.val < 5000 := p.isLt
  let r : Fin 50000 := ⟨t.val * 5000 + p.val, by omega⟩
  have emb_out : ((cfg9.win 7).blk t).view.emb (ix2 p q) = (ix2 r q : S50000x128.Idx) := by
    funext ax; apply Fin.ext
    match ax with
    | ⟨0, _⟩ => show win9_7.index t (0 : Fin 2) * 5000 + 1 * p.val = t.val * 5000 + p.val; omega
    | ⟨1, _⟩ => show win9_7.index t (1 : Fin 2) * 128 + 1 * q.val = q.val; omega
  have rd_0 : ∀ k : Fin 256, iblk9 V c 0 t (ix2 p k) = in0 V c (ix2 r k) := fun k => by
    show V c main_v130 (((cfg9.win 0).blk t).view.emb (ix2 p k)) = _
    refine congrArg (V c main_v130) (funext fun ax => Fin.ext ?_)
    match ax with
    | ⟨0, _⟩ => show win9_0.index t (0 : Fin 2) * 5000 + 1 * p.val = t.val * 5000 + p.val; omega
    | ⟨1, _⟩ => show win9_0.index t (1 : Fin 2) * 256 + 1 * k.val = k.val; omega
  have rd_1 : ∀ k : Fin 256, iblk9 V c 1 t (ix2 (0 : Fin 1) k) = V c main_v143 (ix2 (0 : Fin 1) k : S1x256.Idx) := fun k => by
    show V c main_v143 (((cfg9.win 1).blk t).view.emb (ix2 (0 : Fin 1) k)) = _
    refine congrArg (V c main_v143) (funext fun ax => Fin.ext ?_)
    match ax with
    | ⟨0, _⟩ => show win9_1.index t (0 : Fin 2) * 1 + 1 * 0 = 0; omega
    | ⟨1, _⟩ => show win9_1.index t (1 : Fin 2) * 256 + 1 * k.val = k.val; omega
  have rd_2 : ∀ k : Fin 256, iblk9 V c 2 t (ix2 (0 : Fin 1) k) = V c main_v144 (ix2 (0 : Fin 1) k : S1x256.Idx) := fun k => by
    show V c main_v144 (((cfg9.win 2).blk t).view.emb (ix2 (0 : Fin 1) k)) = _
    refine congrArg (V c main_v144) (funext fun ax => Fin.ext ?_)
    match ax with
    | ⟨0, _⟩ => show win9_2.index t (0 : Fin 2) * 1 + 1 * 0 = 0; omega
    | ⟨1, _⟩ => show win9_2.index t (1 : Fin 2) * 256 + 1 * k.val = k.val; omega
  have rd_3 : ∀ k : Fin 256, iblk9 V c 3 t (ix2 (0 : Fin 1) k) = V c main_v145 (ix2 (0 : Fin 1) k : S1x256.Idx) := fun k => by
    show V c main_v145 (((cfg9.win 3).blk t).view.emb (ix2 (0 : Fin 1) k)) = _
    refine congrArg (V c main_v145) (funext fun ax => Fin.ext ?_)
    match ax with
    | ⟨0, _⟩ => show win9_3.index t (0 : Fin 2) * 1 + 1 * 0 = 0; omega
    | ⟨1, _⟩ => show win9_3.index t (1 : Fin 2) * 256 + 1 * k.val = k.val; omega
  have rd_4 : ∀ k : Fin 256, iblk9 V c 4 t (ix2 (0 : Fin 1) k) = V c main_v146 (ix2 (0 : Fin 1) k : S1x256.Idx) := fun k => by
    show V c main_v146 (((cfg9.win 4).blk t).view.emb (ix2 (0 : Fin 1) k)) = _
    refine congrArg (V c main_v146) (funext fun ax => Fin.ext ?_)
    match ax with
    | ⟨0, _⟩ => show win9_4.index t (0 : Fin 2) * 1 + 1 * 0 = 0; omega
    | ⟨1, _⟩ => show win9_4.index t (1 : Fin 2) * 256 + 1 * k.val = k.val; omega
  have rd_5 : ∀ k : Fin 256, iblk9 V c 5 t (ix2 k q) = in5 V c (ix2 k q) := fun k => by
    show V c main_v140 (((cfg9.win 5).blk t).view.emb (ix2 k q)) = _
    refine congrArg (V c main_v140) (funext fun ax => Fin.ext ?_)
    match ax with
    | ⟨0, _⟩ => show win9_5.index t (0 : Fin 2) * 256 + 1 * k.val = k.val; omega
    | ⟨1, _⟩ => show win9_5.index t (1 : Fin 2) * 128 + 1 * q.val = q.val; omega
  have rd_6 : iblk9 V c 6 t (ix2 (0 : Fin 1) q) = V c main_v147 (ix2 (0 : Fin 1) q : S1x128.Idx) := by
    show V c main_v147 (((cfg9.win 6).blk t).view.emb (ix2 (0 : Fin 1) q)) = _
    refine congrArg (V c main_v147) (funext fun ax => Fin.ext ?_)
    match ax with
    | ⟨0, _⟩ => show win9_6.index t (0 : Fin 2) * 1 + 1 * 0 = 0; omega
    | ⟨1, _⟩ => show win9_6.index t (1 : Fin 2) * 128 + 1 * q.val = q.val; omega
  show k9_pay1 (iblk9 V c 0 t) (iblk9 V c 2 t) (iblk9 V c 3 t) (iblk9 V c 1 t) (iblk9 V c 4 t) (iblk9 V c 5 t) (iblk9 V c 6 t) (ix2 p q)
    = result V c (((cfg9.win 7).blk t).view.emb (ix2 p q))
  rw [emb_out, Body2.k9_eq, Body2.normProductPos_pay, rd_6]
  show _ = max ((∑ k : Fin 256, Cert.Spec.normAct Cert.Spec.eps Cert.Spec.zero (in0 V c) (in1 V c) (in2 V c) (in3 V c) (in4 V c) r k * in5 V c (ix2 k q)) + in6 V c (ix2 0 q)) Cert.Spec.zero
  refine congrArg (max · Cert.Spec.zero) (congrArg (· + in6 V c (ix2 0 q)) (Finset.sum_congr rfl fun k _ => ?_))
  unfold Body2.act Cert.Spec.normAct
  rw [rd_0 k, rd_1 k, rd_2 k, rd_3 k, rd_4 k, rd_5 k]

/-- An index of the result array is in point `t`'s block iff each coordinate is in the block's range. -/
theorem mem_blk (t : Fin cfg9.N) (i : S50000x128.Idx) :
    i ∈ ((cfg9.win 7).blk t).view.set ↔ ∀ ax : Fin 2, win9_7.index t ax * S5000x128.size ax ≤ (i ax).val
      ∧ (i ax).val < win9_7.index t ax * S5000x128.size ax + S5000x128.size ax := by
  show i ∈ ((View.whole main_v148).slice (win9_7.rect t)).set ↔ _
  rw [View.set_slice_whole, Rect.mem_set_unit]
  exact Iff.rfl

/-- Every entry of the result array is in the block of the point its row falls to. -/
theorem cover (i : S50000x128.Idx) :
    ∃ t : Fin cfg9.N, (cfg9.win 7).flush t = true ∧ i ∈ ((cfg9.win 7).blk t).view.set := by
  have hi0 : (i 0).val < 50000 := (i 0).isLt
  have hi1 : (i 1).val < 128 := (i 1).isLt
  have hN : grid9.N = 10 := N_9
  have hlt : (i 0).val / 5000 < grid9.N := by rw [hN]; omega
  obtain ⟨e0, e1, e2, e3, e4, e5, e6, e7, e8, e9, e10, e11, e12, e13, e14, e15⟩ := index_maps ⟨(i 0).val / 5000, hlt⟩
  have e_row : win9_7.index ⟨(i 0).val / 5000, hlt⟩ (0 : Fin 2) = (i 0).val / 5000 := e14
  refine ⟨⟨(i 0).val / 5000, hlt⟩, flush9_7 _, ?_⟩
  rw [mem_blk]
  intro ax
  match ax with
  | ⟨0, _⟩ =>
    show win9_7.index ⟨(i 0).val / 5000, hlt⟩ (0 : Fin 2) * 5000 ≤ (i 0).val
      ∧ (i 0).val < win9_7.index ⟨(i 0).val / 5000, hlt⟩ (0 : Fin 2) * 5000 + 5000
    omega
  | ⟨1, _⟩ =>
    show win9_7.index ⟨(i 0).val / 5000, hlt⟩ (1 : Fin 2) * 128 ≤ (i 1).val
      ∧ (i 1).val < win9_7.index ⟨(i 0).val / 5000, hlt⟩ (1 : Fin 2) * 128 + 128
    omega

/-- The result array after the run is `result`. -/
theorem final (c : Dev nD) : (dat9 (F := Ideal) V c).arrAt 7 cfg9.N = result V c :=
  (dat9 V c).arrAt_eq_of_cover 7 (result V c) (fun t _ => flushed_eq V c t) cover

/-- The input arrays end as the region found them: no point writes one back. -/
theorem kept (c : Dev nD) (w : Fin cfg9.W) (hw : w ≠ 7) :
    (dat9 (F := Ideal) V c).arrAt w cfg9.N = V c (Pipeline.arrRef spec9 w) := by
  have hin : (cfg9.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, hw => exact absurd rfl hw
  rw [(dat9 V c).arrAt_in w hin, A_eq9]

/-- The region as ONE host operation: `result`'s function of the input arrays into the result array. -/
def op : HloOp τ sig (Elt Ideal) :=
  Cert.Lib.RegionOp.op7 main_v130 main_v143 main_v144 main_v145 main_v146 main_v140 main_v147 main_v148
    (fun z mn vr g β w b => Cert.Spec.normProductPos (M := 50000) (K := 256) (D := 128) Cert.Spec.eps Cert.Spec.zero z mn vr g β w b) (by decide) ⟨by decide, rfl⟩

variable (m : (ℓ : Loc nD τ sig) → Buf (Elt Ideal) ℓ) (ρ : Dev nD → PrngReg)

/-- The buffer contents at the region's exit are the operation's result of the contents at its entry. -/
theorem exit_eq (c : Dev nD) : W26 (F := Ideal) m ρ c = op.result (W25 m ρ c) := by
  unfold W26
  refine Cert.Lib.RegionOp.withArrays_eq_result spec9 launch9.win.arr_inj c (W25 m ρ c) _ op 7 rfl ?_ ?_
  · show (dat9 (V25 m ρ) c).arrAt 7 cfg9.N = op.result (W25 m ρ c) (Proc.devRef .tc main_v148)
    refine (final (V25 m ρ) c).trans ?_
    unfold op
    rw [Cert.Lib.RegionOp.op7_result']
  · intro w hw
    exact kept (V25 m ρ) c w hw

end Cert.KernelIdeal.Region9

end
-- ==== Proof.KLayer2.lean ====
/-
  Layer 2 of the kernel program, read off the fold of its host stretches and of its three regions taken as single
  operations: the edge embeddings, the first linear stage of the aggregates, and the layer's output, each as the
  shared term of the buffers' contents when the layer is entered; and the buffers the layer leaves alone (the index
  arrays, the extended edge features and the parameters).
-/
import proofs.«132731_j31379031065008_1_alg».proof.Proof.Region7
import proofs.«132731_j31379031065008_1_alg».proof.Proof.Region8
import proofs.«132731_j31379031065008_1_alg».proof.Proof.Region9
import proofs.«132731_j31379031065008_1_alg».proof.Proof.KShared
import proofs.«132731_j31379031065008_1_alg».proof.Proof.KRead
import proofs.«132731_j31379031065008_1_alg».proof.Proof.Canon

set_option maxRecDepth 16384
set_option maxHeartbeats 4000000

noncomputable section

namespace Cert.KernelIdeal.Layer2

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- What the edge stage (its parameter slices and its region) leaves alone. -/
theorem keeps_edge (c : Dev nD) :
    W20 (F := Ideal) m ρ c (Proc.devRef .tc main_v103) = W18 m ρ c (Proc.devRef .tc main_v103)
    ∧ W20 (F := Ideal) m ρ c (Proc.devRef .tc main_v3) = W18 m ρ c (Proc.devRef .tc main_v3)
    ∧ W20 (F := Ideal) m ρ c (Proc.devRef .tc main_v6) = W18 m ρ c (Proc.devRef .tc main_v6)
    ∧ W20 (F := Ideal) m ρ c (Proc.devRef .tc main_v11) = W18 m ρ c (Proc.devRef .tc main_v11)
    ∧ W20 (F := Ideal) m ρ c (Proc.devRef .tc main_arg3) = W18 m ρ c (Proc.devRef .tc main_arg3)
    ∧ W20 (F := Ideal) m ρ c (Proc.devRef .tc main_arg4) = W18 m ρ c (Proc.devRef .tc main_arg4)
    ∧ W20 (F := Ideal) m ρ c (Proc.devRef .tc main_arg5) = W18 m ρ c (Proc.devRef .tc main_arg5)
    ∧ W20 (F := Ideal) m ρ c (Proc.devRef .tc main_arg6) = W18 m ρ c (Proc.devRef .tc main_arg6)
    ∧ W20 (F := Ideal) m ρ c (Proc.devRef .tc main_arg7) = W18 m ρ c (Proc.devRef .tc main_arg7)
    ∧ W20 (F := Ideal) m ρ c (Proc.devRef .tc main_arg8) = W18 m ρ c (Proc.devRef .tc main_arg8)
    ∧ W20 (F := Ideal) m ρ c (Proc.devRef .tc main_arg9) = W18 m ρ c (Proc.devRef .tc main_arg9)
    ∧ W20 (F := Ideal) m ρ c (Proc.devRef .tc main_arg10) = W18 m ρ c (Proc.devRef .tc main_arg10)
    ∧ W20 (F := Ideal) m ρ c (Proc.devRef .tc main_arg11) = W18 m ρ c (Proc.devRef .tc main_arg11)
    ∧ W20 (F := Ideal) m ρ c (Proc.devRef .tc main_arg12) = W18 m ρ c (Proc.devRef .tc main_arg12) := by
  rw [Region7.exit_eq]
  unfold W19
  unfold Region7.op
  simp only [hostOps7]
  refine ⟨?_, ?_, ?_, ?_, ?_, ?_, ?_, ?_, ?_, ?_, ?_, ?_, ?_, ?_⟩ <;> kernel_read

/-- The edge embeddings. -/
theorem eemb_val (c : Dev nD) :
    W20 (F := Ideal) m ρ c (Proc.devRef .tc main_v109) = Shared.eembTerm 2 (W18 m ρ c (Proc.devRef .tc main_v11)) (W18 m ρ c (Proc.devRef .tc main_arg5)) (W18 m ρ c (Proc.devRef .tc main_arg6)) := by
  rw [Region7.exit_eq]
  unfold W19
  unfold Region7.op
  simp only [hostOps7]
  kernel_read
  unfold Shared.eembTerm
  exact Cert.Spec.affine_congr rfl (Cert.Canon.mat_of_slice (2 : Fin 5) _ _ _) (Cert.Canon.row_of_slice (2 : Fin 5) _ _ _ _)

/-- What the aggregation and the first linear stage leave alone. -/
theorem keeps_first (c : Dev nD) :
    W22 (F := Ideal) m ρ c (Proc.devRef .tc main_v3) = W20 m ρ c (Proc.devRef .tc main_v3)
    ∧ W22 (F := Ideal) m ρ c (Proc.devRef .tc main_v6) = W20 m ρ c (Proc.devRef .tc main_v6)
    ∧ W22 (F := Ideal) m ρ c (Proc.devRef .tc main_v11) = W20 m ρ c (Proc.devRef .tc main_v11)
    ∧ W22 (F := Ideal) m ρ c (Proc.devRef .tc main_arg3) = W20 m ρ c (Proc.devRef .tc main_arg3)
    ∧ W22 (F := Ideal) m ρ c (Proc.devRef .tc main_arg4) = W20 m ρ c (Proc.devRef .tc main_arg4)
    ∧ W22 (F := Ideal) m ρ c (Proc.devRef .tc main_arg5) = W20 m ρ c (Proc.devRef .tc main_arg5)
    ∧ W22 (F := Ideal) m ρ c (Proc.devRef .tc main_arg6) = W20 m ρ c (Proc.devRef .tc main_arg6)
    ∧ W22 (F := Ideal) m ρ c (Proc.devRef .tc main_arg7) = W20 m ρ c (Proc.devRef .tc main_arg7)
    ∧ W22 (F := Ideal) m ρ c (Proc.devRef .tc main_arg8) = W20 m ρ c (Proc.devRef .tc main_arg8)
    ∧ W22 (F := Ideal) m ρ c (Proc.devRef .tc main_arg9) = W20 m ρ c (Proc.devRef .tc main_arg9)
    ∧ W22 (F := Ideal) m ρ c (Proc.devRef .tc main_arg10) = W20 m ρ c (Proc.devRef .tc main_arg10)
    ∧ W22 (F := Ideal) m ρ c (Proc.devRef .tc main_arg11) = W20 m ρ c (Proc.devRef .tc main_arg11)
    ∧ W22 (F := Ideal) m ρ c (Proc.devRef .tc main_arg12) = W20 m ρ c (Proc.devRef .tc main_arg12) := by
  rw [Region8.exit_eq]
  unfold W21
  unfold Region8.op
  simp only [hostOps8]
  refine ⟨?_, ?_, ?_, ?_, ?_, ?_, ?_, ?_, ?_, ?_, ?_, ?_, ?_⟩ <;> kernel_read

/-- The first linear stage of the two aggregates. -/
theorem z_val (c : Dev nD) :
    W22 (F := Ideal) m ρ c (Proc.devRef .tc main_v130) = Shared.zTerm 2 (W18 m ρ c (Proc.devRef .tc main_v103)) (W18 m ρ c (Proc.devRef .tc main_v3)) (W18 m ρ c (Proc.devRef .tc main_v6)) (W18 m ρ c (Proc.devRef .tc main_v11)) (W18 m ρ c (Proc.devRef .tc main_arg5)) (W18 m ρ c (Proc.devRef .tc main_arg6)) (W18 m ρ c (Proc.devRef .tc main_arg7)) (W18 m ρ c (Proc.devRef .tc main_arg8)) := by
  rw [Region8.exit_eq]
  unfold W21
  unfold Region8.op
  simp only [hostOps8]
  kernel_read
  obtain ⟨k_v103, k_v3, k_v6, k_v11, k_arg3, k_arg4, k_arg5, k_arg6, k_arg7, k_arg8, k_arg9, k_arg10, k_arg11, k_arg12⟩ := keeps_edge m ρ c
  rw [eemb_val m ρ c, k_v103, k_v3, k_v6, k_arg7, k_arg8]
  unfold Shared.zTerm
  exact Cert.Spec.twoProducts_congr rfl rfl (Cert.Canon.matTop_of_slice (R := 128) (2 : Fin 5) _ _ _) (Cert.Canon.matBot_of_slice (R := 128) (2 : Fin 5) _ _ _) (Cert.Canon.row_of_slice (2 : Fin 5) _ _ _ _)

/-- What the statistics and the second stage leave alone. -/
theorem keeps_second (c : Dev nD) :
    W26 (F := Ideal) m ρ c (Proc.devRef .tc main_v3) = W22 m ρ c (Proc.devRef .tc main_v3)
    ∧ W26 (F := Ideal) m ρ c (Proc.devRef .tc main_v6) = W22 m ρ c (Proc.devRef .tc main_v6)
    ∧ W26 (F := Ideal) m ρ c (Proc.devRef .tc main_v11) = W22 m ρ c (Proc.devRef .tc main_v11)
    ∧ W26 (F := Ideal) m ρ c (Proc.devRef .tc main_arg3) = W22 m ρ c (Proc.devRef .tc main_arg3)
    ∧ W26 (F := Ideal) m ρ c (Proc.devRef .tc main_arg4) = W22 m ρ c (Proc.devRef .tc main_arg4)
    ∧ W26 (F := Ideal) m ρ c (Proc.devRef .tc main_arg5) = W22 m ρ c (Proc.devRef .tc main_arg5)
    ∧ W26 (F := Ideal) m ρ c (Proc.devRef .tc main_arg6) = W22 m ρ c (Proc.devRef .tc main_arg6)
    ∧ W26 (F := Ideal) m ρ c (Proc.devRef .tc main_arg7) = W22 m ρ c (Proc.devRef .tc main_arg7)
    ∧ W26 (F := Ideal) m ρ c (Proc.devRef .tc main_arg8) = W22 m ρ c (Proc.devRef .tc main_arg8)
    ∧ W26 (F := Ideal) m ρ c (Proc.devRef .tc main_arg9) = W22 m ρ c (Proc.devRef .tc main_arg9)
    ∧ W26 (F := Ideal) m ρ c (Proc.devRef .tc main_arg10) = W22 m ρ c (Proc.devRef .tc main_arg10)
    ∧ W26 (F := Ideal) m ρ c (Proc.devRef .tc main_arg11) = W22 m ρ c (Proc.devRef .tc main_arg11)
    ∧ W26 (F := Ideal) m ρ c (Proc.devRef .tc main_arg12) = W22 m ρ c (Proc.devRef .tc main_arg12) := by
  rw [Region9.exit_eq]
  unfold W25 W24 W23
  unfold Region9.op
  simp only [hostOps9, hostOps9_1, hostOps9_2]
  refine ⟨?_, ?_, ?_, ?_, ?_, ?_, ?_, ?_, ?_, ?_, ?_, ?_, ?_⟩ <;> kernel_read

/-- The layer's output. -/
theorem out_val (c : Dev nD) :
    W26 (F := Ideal) m ρ c (Proc.devRef .tc main_v148)
      = Shared.outPos 2 (Shared.zTerm 2 (W18 m ρ c (Proc.devRef .tc main_v103)) (W18 m ρ c (Proc.devRef .tc main_v3)) (W18 m ρ c (Proc.devRef .tc main_v6)) (W18 m ρ c (Proc.devRef .tc main_v11)) (W18 m ρ c (Proc.devRef .tc main_arg5)) (W18 m ρ c (Proc.devRef .tc main_arg6)) (W18 m ρ c (Proc.devRef .tc main_arg7)) (W18 m ρ c (Proc.devRef .tc main_arg8)))
          (W18 m ρ c (Proc.devRef .tc main_arg9)) (W18 m ρ c (Proc.devRef .tc main_arg10)) (W18 m ρ c (Proc.devRef .tc main_arg11)) (W18 m ρ c (Proc.devRef .tc main_arg12)) := by
  rw [Region9.exit_eq]
  unfold W25 W24 W23
  unfold Region9.op
  simp only [hostOps9, hostOps9_1, hostOps9_2]
  kernel_read
  obtain ⟨a_v103, a_v3, a_v6, a_v11, a_arg3, a_arg4, a_arg5, a_arg6, a_arg7, a_arg8, a_arg9, a_arg10, a_arg11, a_arg12⟩ := keeps_edge m ρ c
  obtain ⟨b_v3, b_v6, b_v11, b_arg3, b_arg4, b_arg5, b_arg6, b_arg7, b_arg8, b_arg9, b_arg10, b_arg11, b_arg12⟩ := keeps_first m ρ c
  rw [z_val m ρ c, b_arg9, b_arg10, b_arg11, b_arg12, a_arg9, a_arg10, a_arg11, a_arg12]
  unfold Shared.outPos
  exact Cert.Spec.normProductPos_congr rfl (Cert.Canon.row_of_vec _ _) (Cert.Canon.row_of_vec _ _) (Cert.Canon.row_of_slice (2 : Fin 5) _ _ _ _) (Cert.Canon.row_of_slice (2 : Fin 5) _ _ _ _) (Cert.Canon.mat_of_slice (2 : Fin 5) _ _ _) (Cert.Canon.row_of_slice (2 : Fin 5) _ _ _ _)

/-- What the whole layer leaves alone. -/
theorem keeps (c : Dev nD) :
    W26 (F := Ideal) m ρ c (Proc.devRef .tc main_v3) = W18 m ρ c (Proc.devRef .tc main_v3)
    ∧ W26 (F := Ideal) m ρ c (Proc.devRef .tc main_v6) = W18 m ρ c (Proc.devRef .tc main_v6)
    ∧ W26 (F := Ideal) m ρ c (Proc.devRef .tc main_v11) = W18 m ρ c (Proc.devRef .tc main_v11)
    ∧ W26 (F := Ideal) m ρ c (Proc.devRef .tc main_arg3) = W18 m ρ c (Proc.devRef .tc main_arg3)
    ∧ W26 (F := Ideal) m ρ c (Proc.devRef .tc main_arg4) = W18 m ρ c (Proc.devRef .tc main_arg4)
    ∧ W26 (F := Ideal) m ρ c (Proc.devRef .tc main_arg5) = W18 m ρ c (Proc.devRef .tc main_arg5)
    ∧ W26 (F := Ideal) m ρ c (Proc.devRef .tc main_arg6) = W18 m ρ c (Proc.devRef .tc main_arg6)
    ∧ W26 (F := Ideal) m ρ c (Proc.devRef .tc main_arg7) = W18 m ρ c (Proc.devRef .tc main_arg7)
    ∧ W26 (F := Ideal) m ρ c (Proc.devRef .tc main_arg8) = W18 m ρ c (Proc.devRef .tc main_arg8)
    ∧ W26 (F := Ideal) m ρ c (Proc.devRef .tc main_arg9) = W18 m ρ c (Proc.devRef .tc main_arg9)
    ∧ W26 (F := Ideal) m ρ c (Proc.devRef .tc main_arg10) = W18 m ρ c (Proc.devRef .tc main_arg10)
    ∧ W26 (F := Ideal) m ρ c (Proc.devRef .tc main_arg11) = W18 m ρ c (Proc.devRef .tc main_arg11)
    ∧ W26 (F := Ideal) m ρ c (Proc.devRef .tc main_arg12) = W18 m ρ c (Proc.devRef .tc main_arg12) := by
  obtain ⟨a_v103, a_v3, a_v6, a_v11, a_arg3, a_arg4, a_arg5, a_arg6, a_arg7, a_arg8, a_arg9, a_arg10, a_arg11, a_arg12⟩ := keeps_edge m ρ c
  obtain ⟨b_v3, b_v6, b_v11, b_arg3, b_arg4, b_arg5, b_arg6, b_arg7, b_arg8, b_arg9, b_arg10, b_arg11, b_arg12⟩ := keeps_first m ρ c
  obtain ⟨d_v3, d_v6, d_v11, d_arg3, d_arg4, d_arg5, d_arg6, d_arg7, d_arg8, d_arg9, d_arg10, d_arg11, d_arg12⟩ := keeps_second m ρ c
  exact ⟨d_v3.trans (b_v3.trans a_v3), d_v6.trans (b_v6.trans a_v6), d_v11.trans (b_v11.trans a_v11), d_arg3.trans (b_arg3.trans a_arg3), d_arg4.trans (b_arg4.trans a_arg4), d_arg5.trans (b_arg5.trans a_arg5), d_arg6.trans (b_arg6.trans a_arg6), d_arg7.trans (b_arg7.trans a_arg7), d_arg8.trans (b_arg8.trans a_arg8), d_arg9.trans (b_arg9.trans a_arg9), d_arg10.trans (b_arg10.trans a_arg10), d_arg11.trans (b_arg11.trans a_arg11), d_arg12.trans (b_arg12.trans a_arg12)⟩

end Cert.KernelIdeal.Layer2

end
-- ==== Proof.Region10.lean ====
/-
  Region 10: the edge features through layer 3's edge map — an affine stage on 450000 rows, 9000 rows to a block.

  Point t of the grid reads rows 9000·t … 9000·t + 8999 of the left array, the whole 3 × 128 map and the whole row of biases, and
  writes the same rows of the result. Every row of the result lies in the block of the point row / 9000, so the blocks
  cover the array, and what a point writes is its block of ONE function of the whole arrays:
  entry (r, c) ↦ (∑ k, a[r,k] · w[k,c]) + b[0,c]. The input arrays are never written back. So the region leaves exactly
  what one host operation computing that function into the result array leaves.
-/
import proofs.«132731_j31379031065008_1_alg».proof.Proof.Gen.KernelIdeal.Frame
import proofs.«132731_j31379031065008_1_alg».proof.Proof.Spec
import proofs.«132731_j31379031065008_1_alg».proof.Proof.AffineBody
import proofs.«132731_j31379031065008_1_alg».proof.Proof.LibRegionOp
import Idealize.ShloMosaic.Lib.Pipeline.Value

set_option maxRecDepth 16384

noncomputable section

namespace Cert.KernelIdeal.Region10

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the row-blocked windows move with the point, the others stay. -/
theorem index_maps : ∀ t : Fin cfg10.N,
    win10_0.index t (0 : Fin 2) = t.val
    ∧ win10_0.index t (1 : Fin 2) = 0
    ∧ win10_1.index t (0 : Fin 2) = 0
    ∧ win10_1.index t (1 : Fin 2) = 0
    ∧ win10_2.index t (0 : Fin 2) = 0
    ∧ win10_2.index t (1 : Fin 2) = 0
    ∧ win10_3.index t (0 : Fin 2) = t.val
    ∧ win10_3.index t (1 : Fin 2) = 0 :=
  (by decide +kernel : ∀ t : Fin grid10.N, _)

/-- Input array 0 as the region finds it. -/
abbrev in0 (c : Dev nD) : S450000x3.Idx → EReal := V c main_v11
/-- Input array 1 as the region finds it. -/
abbrev in1 (c : Dev nD) : S3x128.Idx → EReal := V c main_v150
/-- Input array 2 as the region finds it. -/
abbrev in2 (c : Dev nD) : S1x128.Idx → EReal := V c main_v153

/-- The whole-array function the region computes, of the arrays as the region finds them. -/
abbrev result (c : Dev nD) : S450000x128.Idx → EReal :=
  Cert.Spec.affine (M := 450000) (K := 3) (D := 128) (in0 V c) (in1 V c) (in2 V c)

/-- What point `t` writes back is its block of `result`. -/
theorem flushed_eq (c : Dev nD) (t : Fin cfg10.N) :
    (dat10 (F := Ideal) V c).flushed 3 t = ((cfg10.win 3).blk t).view.read (Elt Ideal) (result V c) := by
  show (cfg10.win 3).cut (grid10.coords t) ((dat10 V c).after 3 t) = _
  rw [after10_3]
  unfold out10_3
  rw [View.canon_unit_zero origin_zero]
  simp only [View.ld_unit_zero (S := S9000x3) origin_zero, View.ld_unit_zero (S := S3x128) origin_zero, View.ld_unit_zero (S := S1x128) origin_zero]
  obtain ⟨e0, e1, e2, e3, e4, e5, e6, e7⟩ := index_maps t
  have hN : grid10.N = 50 := N_10
  have ht : t.val < 50 := hN ▸ t.isLt
  funext j
  obtain ⟨p, q, rfl⟩ : ∃ (p : Fin 9000) (q : Fin 128), j = ix2 p q := ⟨j 0, j 1, eq_ix2 j⟩
  have hp : p.val < 9000 := p.isLt
  let r : Fin 450000 := ⟨t.val * 9000 + p.val, by omega⟩
  have emb_out : ((cfg10.win 3).blk t).view.emb (ix2 p q) = (ix2 r q : S450000x128.Idx) := by
    funext ax; apply Fin.ext
    match ax with
    | ⟨0, _⟩ => show win10_3.index t (0 : Fin 2) * 9000 + 1 * p.val = t.val * 9000 + p.val; omega
    | ⟨1, _⟩ => show win10_3.index t (1 : Fin 2) * 128 + 1 * q.val = q.val; omega
  have rd_0 : ∀ k : Fin 3, iblk10 V c 0 t (ix2 p k) = in0 V c (ix2 r k) := fun k => by
    show V c main_v11 (((cfg10.win 0).blk t).view.emb (ix2 p k)) = _
    refine congrArg (V c main_v11) (funext fun ax => Fin.ext ?_)
    match ax with
    | ⟨0, _⟩ => show win10_0.index t (0 : Fin 2) * 9000 + 1 * p.val = t.val * 9000 + p.val; omega
    | ⟨1, _⟩ => show win10_0.index t (1 : Fin 2) * 3 + 1 * k.val = k.val; omega
  have rd_1 : ∀ k : Fin 3, iblk10 V c 1 t (ix2 k q) = in1 V c (ix2 k q) := fun k => by
    show V c main_v150 (((cfg10.win 1).blk t).view.emb (ix2 k q)) = _
    refine congrArg (V c main_v150) (funext fun ax => Fin.ext ?_)
    match ax with
    | ⟨0, _⟩ => show win10_1.index t (0 : Fin 2) * 3 + 1 * k.val = k.val; omega
    | ⟨1, _⟩ => show win10_1.index t (1 : Fin 2) * 128 + 1 * q.val = q.val; omega
  have rd_2 : iblk10 V c 2 t (ix2 (0 : Fin 1) q) = V c main_v153 (ix2 (0 : Fin 1) q : S1x128.Idx) := by
    show V c main_v153 (((cfg10.win 2).blk t).view.emb (ix2 (0 : Fin 1) q)) = _
    refine congrArg (V c main_v153) (funext fun ax => Fin.ext ?_)
    match ax with
    | ⟨0, _⟩ => show win10_2.index t (0 : Fin 2) * 1 + 1 * 0 = 0; omega
    | ⟨1, _⟩ => show win10_2.index t (1 : Fin 2) * 128 + 1 * q.val = q.val; omega
  show k10_pay1 (iblk10 V c 0 t) (iblk10 V c 1 t) (iblk10 V c 2 t) (ix2 p q)
    = result V c (((cfg10.win 3).blk t).view.emb (ix2 p q))
  rw [emb_out, Body.k10_eq, Body.affine9000_pay, rd_2]
  show _ = (∑ k : Fin 3, in0 V c (ix2 r k) * in1 V c (ix2 k q)) + in2 V c (ix2 0 q)
  exact congrArg (· + in2 V c (ix2 0 q)) (Finset.sum_congr rfl fun k _ => by rw [rd_0 k, rd_1 k])

/-- An index of the result array is in point `t`'s block iff each coordinate is in the block's range. -/
theorem mem_blk (t : Fin cfg10.N) (i : S450000x128.Idx) :
    i ∈ ((cfg10.win 3).blk t).view.set ↔ ∀ ax : Fin 2, win10_3.index t ax * S9000x128.size ax ≤ (i ax).val
      ∧ (i ax).val < win10_3.index t ax * S9000x128.size ax + S9000x128.size ax := by
  show i ∈ ((View.whole main_v154).slice (win10_3.rect t)).set ↔ _
  rw [View.set_slice_whole, Rect.mem_set_unit]
  exact Iff.rfl

/-- Every entry of the result array is in the block of the point its row falls to. -/
theorem cover (i : S450000x128.Idx) :
    ∃ t : Fin cfg10.N, (cfg10.win 3).flush t = true ∧ i ∈ ((cfg10.win 3).blk t).view.set := by
  have hi0 : (i 0).val < 450000 := (i 0).isLt
  have hi1 : (i 1).val < 128 := (i 1).isLt
  have hN : grid10.N = 50 := N_10
  have hlt : (i 0).val / 9000 < grid10.N := by rw [hN]; omega
  obtain ⟨e0, e1, e2, e3, e4, e5, e6, e7⟩ := index_maps ⟨(i 0).val / 9000, hlt⟩
  have e_row : win10_3.index ⟨(i 0).val / 9000, hlt⟩ (0 : Fin 2) = (i 0).val / 9000 := e6
  refine ⟨⟨(i 0).val / 9000, hlt⟩, flush10_3 _, ?_⟩
  rw [mem_blk]
  intro ax
  match ax with
  | ⟨0, _⟩ =>
    show win10_3.index ⟨(i 0).val / 9000, hlt⟩ (0 : Fin 2) * 9000 ≤ (i 0).val
      ∧ (i 0).val < win10_3.index ⟨(i 0).val / 9000, hlt⟩ (0 : Fin 2) * 9000 + 9000
    omega
  | ⟨1, _⟩ =>
    show win10_3.index ⟨(i 0).val / 9000, hlt⟩ (1 : Fin 2) * 128 ≤ (i 1).val
      ∧ (i 1).val < win10_3.index ⟨(i 0).val / 9000, hlt⟩ (1 : Fin 2) * 128 + 128
    omega

/-- The result array after the run is `result`. -/
theorem final (c : Dev nD) : (dat10 (F := Ideal) V c).arrAt 3 cfg10.N = result V c :=
  (dat10 V c).arrAt_eq_of_cover 3 (result V c) (fun t _ => flushed_eq V c t) cover

/-- The input arrays end as the region found them: no point writes one back. -/
theorem kept (c : Dev nD) (w : Fin cfg10.W) (hw : w ≠ 3) :
    (dat10 (F := Ideal) V c).arrAt w cfg10.N = V c (Pipeline.arrRef spec10 w) := by
  have hin : (cfg10.win w).isOut = false := by
    match w, hw with
    | ⟨0, _⟩, _ => rfl
    | ⟨1, _⟩, _ => rfl
    | ⟨2, _⟩, _ => rfl
    | ⟨3, _⟩, hw => exact absurd rfl hw
  rw [(dat10 V c).arrAt_in w hin, A_eq10]

/-- The region as ONE host operation: `result`'s function of the input arrays into the result array. -/
def op : HloOp τ sig (Elt Ideal) :=
  StableHlo.ternary main_v11 main_v150 main_v153 main_v154
    (fun x y z => Cert.Spec.affine (M := 450000) (K := 3) (D := 128) x y z)

variable (m : (ℓ : Loc nD τ sig) → Buf (Elt Ideal) ℓ) (ρ : Dev nD → PrngReg)

/-- The buffer contents at the region's exit are the operation's result of the contents at its entry. -/
theorem exit_eq (c : Dev nD) : W28 (F := Ideal) m ρ c = op.result (W27 m ρ c) := by
  unfold W28
  refine Cert.Lib.RegionOp.withArrays_eq_result spec10 launch10.win.arr_inj c (W27 m ρ c) _ op 3 rfl ?_ ?_
  · show (dat10 (V27 m ρ) c).arrAt 3 cfg10.N = op.result (W27 m ρ c) (Proc.devRef .tc main_v154)
    refine (final (V27 m ρ) c).trans ?_
    unfold op
    exact (StableHlo.ternary_result main_v11 main_v150 main_v153 main_v154 _ _ _ _ _ _).symm
  · intro w hw
    exact kept (V27 m ρ) c w hw

end Cert.KernelIdeal.Region10

end
-- ==== Proof.Region11.lean ====
/-
  Region 11: the first stage of layer 3's node update on 50000 rows, 5000 rows to a block.

  Point t reads rows 5000·t … of the aggregated neighbour features and of the aggregated edge features, the two
  128 × 256 halves of the first linear map and the row of biases, and writes the same rows of the result. The blocks
  cover the result array (row r lies in the block of point r / 5000), and what a point writes is its block of ONE
  function of the whole arrays: (r, c) ↦ (∑ k, ax[r,k] · wa[k,c]) + (∑ k, ae[r,k] · wb[k,c]) + b[0,c]. The input arrays
  are never written back; so the region leaves what one host operation computing that function leaves.
-/
import proofs.«132731_j31379031065008_1_alg».proof.Proof.Gen.KernelIdeal.Frame
import proofs.«132731_j31379031065008_1_alg».proof.Proof.Spec
import proofs.«132731_j31379031065008_1_alg».proof.Proof.TwoProductsBody
import proofs.«132731_j31379031065008_1_alg».proof.Proof.LibRegionOp
import Idealize.ShloMosaic.Lib.Pipeline.Value

set_option maxRecDepth 16384

noncomputable section

namespace Cert.KernelIdeal.Region11

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the row-blocked windows move with the point, the others stay. -/
theorem index_maps : ∀ t : Fin cfg11.N,
    win11_0.index t (0 : Fin 2) = t.val
    ∧ win11_0.index t (1 : Fin 2) = 0
    ∧ win11_1.index t (0 : Fin 2) = t.val
    ∧ win11_1.index t (1 : Fin 2) = 0
    ∧ win11_2.index t (0 : Fin 2) = 0
    ∧ win11_2.index t (1 : Fin 2) = 0
    ∧ win11_3.index t (0 : Fin 2) = 0
    ∧ win11_3.index t (1 : Fin 2) = 0
    ∧ win11_4.index t (0 : Fin 2) = 0
    ∧ win11_4.index t (1 : Fin 2) = 0
    ∧ win11_5.index t (0 : Fin 2) = t.val
    ∧ win11_5.index t (1 : Fin 2) = 0 :=
  (by decide +kernel : ∀ t : Fin grid11.N, _)

/-- Input array 0 as the region finds it. -/
abbrev in0 (c : Dev nD) : S50000x128.Idx → EReal := V c main_v164
/-- Input array 1 as the region finds it. -/
abbrev in1 (c : Dev nD) : S50000x128.Idx → EReal := V c main_v167
/-- Input array 2 as the region finds it. -/
abbrev in2 (c : Dev nD) : S128x256.Idx → EReal := V c main_v169
/-- Input array 3 as the region finds it. -/
abbrev in3 (c : Dev nD) : S128x256.Idx → EReal := V c main_v171
/-- Input array 4 as the region finds it. -/
abbrev in4 (c : Dev nD) : S1x256.Idx → EReal := V c main_v174

/-- The whole-array function the region computes, of the arrays as the region finds them. -/
abbrev result (c : Dev nD) : S50000x256.Idx → EReal :=
  Cert.Spec.twoProducts (M := 50000) (K := 128) (D := 256) (in0 V c) (in1 V c) (in2 V c) (in3 V c) (in4 V c)

/-- What point `t` writes back is its block of `result`. -/
theorem flushed_eq (c : Dev nD) (t : Fin cfg11.N) :
    (dat11 (F := Ideal) V c).flushed 5 t = ((cfg11.win 5).blk t).view.read (Elt Ideal) (result V c) := by
  show (cfg11.win 5).cut (grid11.coords t) ((dat11 V c).after 5 t) = _
  rw [after11_5]
  unfold out11_5
  rw [View.canon_unit_zero origin_zero]
  simp only [View.ld_unit_zero (S := S5000x128) origin_zero, View.ld_unit_zero (S := S128x256) origin_zero, View.ld_unit_zero (S := S1x256) origin_zero]
  obtain ⟨e0, e1, e2, e3, e4, e5, e6, e7, e8, e9, e10, e11⟩ := index_maps t
  have hN : grid11.N = 10 := N_11
  have ht : t.val < 10 := hN ▸ t.isLt
  funext j
  obtain ⟨p, q, rfl⟩ : ∃ (p : Fin 5000) (q : Fin 256), j = ix2 p q := ⟨j 0, j 1, eq_ix2 j⟩
  have hp : p.val < 5000 := p.isLt
  let r : Fin 50000 := ⟨t.val * 5000 + p.val, by omega⟩
  have emb_out : ((cfg11.win 5).blk t).view.emb (ix2 p q) = (ix2 r q : S50000x256.Idx) := by
    funext ax; apply Fin.ext
    match ax with
    | ⟨0, _⟩ => show win11_5.index t (0 : Fin 2) * 5000 + 1 * p.val = t.val * 5000 + p.val; omega
    | ⟨1, _⟩ => show win11_5.index t (1 : Fin 2) * 256 + 1 * q.val = q.val; omega
  have rd_0 : ∀ k : Fin 128, iblk11 V c 0 t (ix2 p k) = in0 V c (ix2 r k) := fun k => by
    show V c main_v164 (((cfg11.win 0).blk t).view.emb (ix2 p k)) = _
    refine congrArg (V c main_v164) (funext fun ax => Fin.ext ?_)
    match ax with
    | ⟨0, _⟩ => show win11_0.index t (0 : Fin 2) * 5000 + 1 * p.val = t.val * 5000 + p.val; omega
    | ⟨1, _⟩ => show win11_0.index t (1 : Fin 2) * 128 + 1 * k.val = k.val; omega
  have rd_1 : ∀ k : Fin 128, iblk11 V c 1 t (ix2 p k) = in1 V c (ix2 r k) := fun k => by
    show V c main_v167 (((cfg11.win 1).blk t).view.emb (ix2 p k)) = _
    refine congrArg (V c main_v167) (funext fun ax => Fin.ext ?_)
    match ax with
    | ⟨0, _⟩ => show win11_1.index t (0 : Fin 2) * 5000 + 1 * p.val = t.val * 5000 + p.val; omega
    | ⟨1, _⟩ => show win11_1.index t (1 : Fin 2) * 128 + 1 * k.val = k.val; omega
  have rd_2 : ∀ k : Fin 128, iblk11 V c 2 t (ix2 k q) = in2 V c (ix2 k q) := fun k => by
    show V c main_v169 (((cfg11.win 2).blk t).view.emb (ix2 k q)) = _
    refine congrArg (V c main_v169) (funext fun ax => Fin.ext ?_)
    match ax with
    | ⟨0, _⟩ => show win11_2.index t (0 : Fin 2) * 128 + 1 * k.val = k.val; omega
    | ⟨1, _⟩ => show win11_2.index t (1 : Fin 2) * 256 + 1 * q.val = q.val; omega
  have rd_3 : ∀ k : Fin 128, iblk11 V c 3 t (ix2 k q) = in3 V c (ix2 k q) := fun k => by
    show V c main_v171 (((cfg11.win 3).blk t).view.emb (ix2 k q)) = _
    refine congrArg (V c main_v171) (funext fun ax => Fin.ext ?_)
    match ax with
    | ⟨0, _⟩ => show win11_3.index t (0 : Fin 2) * 128 + 1 * k.val = k.val; omega
    | ⟨1, _⟩ => show win11_3.index t (1 : Fin 2) * 256 + 1 * q.val = q.val; omega
  have rd_4 : iblk11 V c 4 t (ix2 (0 : Fin 1) q) = V c main_v174 (ix2 (0 : Fin 1) q : S1x256.Idx) := by
    show V c main_v174 (((cfg11.win 4).blk t).view.emb (ix2 (0 : Fin 1) q)) = _
    refine congrArg (V c main_v174) (funext fun ax => Fin.ext ?_)
    match ax with
    | ⟨0, _⟩ => show win11_4.index t (0 : Fin 2) * 1 + 1 * 0 = 0; omega
    | ⟨1, _⟩ => show win11_4.index t (1 : Fin 2) * 256 + 1 * q.val = q.val; omega
  show k11_pay1 (iblk11 V c 0 t) (iblk11 V c 1 t) (iblk11 V c 2 t) (iblk11 V c 3 t) (iblk11 V c 4 t) (ix2 p q)
    = result V c (((cfg11.win 5).blk t).view.emb (ix2 p q))
  rw [emb_out, Body1.k11_eq, Body1.twoProducts_pay, rd_4]
  show _ = ((∑ k : Fin 128, in0 V c (ix2 r k) * in2 V c (ix2 k q)) + (∑ k : Fin 128, in1 V c (ix2 r k) * in3 V c (ix2 k q)))
      + in4 V c (ix2 0 q)
  exact congrArg (· + in4 V c (ix2 0 q)) (congrArg₂ (· + ·) (Finset.sum_congr rfl fun k _ => by rw [rd_0 k, rd_2 k])
    (Finset.sum_congr rfl fun k _ => by rw [rd_1 k, rd_3 k]))

/-- An index of the result array is in point `t`'s block iff each coordinate is in the block's range. -/
theorem mem_blk (t : Fin cfg11.N) (i : S50000x256.Idx) :
    i ∈ ((cfg11.win 5).blk t).view.set ↔ ∀ ax : Fin 2, win11_5.index t ax * S5000x256.size ax ≤ (i ax).val
      ∧ (i ax).val < win11_5.index t ax * S5000x256.size ax + S5000x256.size ax := by
  show i ∈ ((View.whole main_v175).slice (win11_5.rect t)).set ↔ _
  rw [View.set_slice_whole, Rect.mem_set_unit]
  exact Iff.rfl

/-- Every entry of the result array is in the block of the point its row falls to. -/
theorem cover (i : S50000x256.Idx) :
    ∃ t : Fin cfg11.N, (cfg11.win 5).flush t = true ∧ i ∈ ((cfg11.win 5).blk t).view.set := by
  have hi0 : (i 0).val < 50000 := (i 0).isLt
  have hi1 : (i 1).val < 256 := (i 1).isLt
  have hN : grid11.N = 10 := N_11
  have hlt : (i 0).val / 5000 < grid11.N := by rw [hN]; omega
  obtain ⟨e0, e1, e2, e3, e4, e5, e6, e7, e8, e9, e10, e11⟩ := index_maps ⟨(i 0).val / 5000, hlt⟩
  have e_row : win11_5.index ⟨(i 0).val / 5000, hlt⟩ (0 : Fin 2) = (i 0).val / 5000 := e10
  refine ⟨⟨(i 0).val / 5000, hlt⟩, flush11_5 _, ?_⟩
  rw [mem_blk]
  intro ax
  match ax with
  | ⟨0, _⟩ =>
    show win11_5.index ⟨(i 0).val / 5000, hlt⟩ (0 : Fin 2) * 5000 ≤ (i 0).val
      ∧ (i 0).val < win11_5.index ⟨(i 0).val / 5000, hlt⟩ (0 : Fin 2) * 5000 + 5000
    omega
  | ⟨1, _⟩ =>
    show win11_5.index ⟨(i 0).val / 5000, hlt⟩ (1 : Fin 2) * 256 ≤ (i 1).val
      ∧ (i 1).val < win11_5.index ⟨(i 0).val / 5000, hlt⟩ (1 : Fin 2) * 256 + 256
    omega

/-- The result array after the run is `result`. -/
theorem final (c : Dev nD) : (dat11 (F := Ideal) V c).arrAt 5 cfg11.N = result V c :=
  (dat11 V c).arrAt_eq_of_cover 5 (result V c) (fun t _ => flushed_eq V c t) cover

/-- The input arrays end as the region found them: no point writes one back. -/
theorem kept (c : Dev nD) (w : Fin cfg11.W) (hw : w ≠ 5) :
    (dat11 (F := Ideal) V c).arrAt w cfg11.N = V c (Pipeline.arrRef spec11 w) := by
  have hin : (cfg11.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, hw => exact absurd rfl hw
  rw [(dat11 V c).arrAt_in w hin, A_eq11]

/-- The region as ONE host operation: `result`'s function of the input arrays into the result array. -/
def op : HloOp τ sig (Elt Ideal) :=
  Cert.Lib.RegionOp.op5 main_v164 main_v167 main_v169 main_v171 main_v174 main_v175
    (fun a b c d e => Cert.Spec.twoProducts (M := 50000) (K := 128) (D := 256) a b c d e) (by decide) ⟨by decide, rfl⟩

variable (m : (ℓ : Loc nD τ sig) → Buf (Elt Ideal) ℓ) (ρ : Dev nD → PrngReg)

/-- The buffer contents at the region's exit are the operation's result of the contents at its entry. -/
theorem exit_eq (c : Dev nD) : W30 (F := Ideal) m ρ c = op.result (W29 m ρ c) := by
  unfold W30
  refine Cert.Lib.RegionOp.withArrays_eq_result spec11 launch11.win.arr_inj c (W29 m ρ c) _ op 5 rfl ?_ ?_
  · show (dat11 (V29 m ρ) c).arrAt 5 cfg11.N = op.result (W29 m ρ c) (Proc.devRef .tc main_v175)
    refine (final (V29 m ρ) c).trans ?_
    unfold op
    rw [Cert.Lib.RegionOp.op5_result']
  · intro w hw
    exact kept (V29 m ρ) c w hw

end Cert.KernelIdeal.Region11

end
-- ==== Proof.Region12.lean ====
/-
  Region 12: the second stage of layer 3's node update on 50000 rows, 5000 rows to a block.

  Point t reads rows 5000·t … of the first stage's output z, the rows of column statistics (mean, variance), of scale
  and shift, the 256 × 128 second linear map and its row of biases, and writes the same rows of the result. The blocks
  cover the result array, and what a point writes is its block of ONE function of the whole arrays: with
  act[r,k] = max (g[0,k] · (z[r,k] − mean[0,k]) · rsqrt (var[0,k] + ε) + β[0,k]) 0, entry (r, c) ↦ max ((∑ k, act[r,k] · w[k,c]) + b[0,c]) 0.
  The input arrays are never written back; so the region leaves what one host operation computing that function leaves.
-/
import proofs.«132731_j31379031065008_1_alg».proof.Proof.Gen.KernelIdeal.Frame
import proofs.«132731_j31379031065008_1_alg».proof.Proof.Spec
import proofs.«132731_j31379031065008_1_alg».proof.Proof.NormProductBody
import proofs.«132731_j31379031065008_1_alg».proof.Proof.LibRegionOp
import Idealize.ShloMosaic.Lib.Pipeline.Value

set_option maxRecDepth 16384

noncomputable section

namespace Cert.KernelIdeal.Region12

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the row-blocked windows move with the point, the others stay. -/
theorem index_maps : ∀ t : Fin cfg12.N,
    win12_0.index t (0 : Fin 2) = t.val
    ∧ win12_0.index t (1 : Fin 2) = 0
    ∧ win12_1.index t (0 : Fin 2) = 0
    ∧ win12_1.index t (1 : Fin 2) = 0
    ∧ win12_2.index t (0 : Fin 2) = 0
    ∧ win12_2.index t (1 : Fin 2) = 0
    ∧ win12_3.index t (0 : Fin 2) = 0
    ∧ win12_3.index t (1 : Fin 2) = 0
    ∧ win12_4.index t (0 : Fin 2) = 0
    ∧ win12_4.index t (1 : Fin 2) = 0
    ∧ win12_5.index t (0 : Fin 2) = 0
    ∧ win12_5.index t (1 : Fin 2) = 0
    ∧ win12_6.index t (0 : Fin 2) = 0
    ∧ win12_6.index t (1 : Fin 2) = 0
    ∧ win12_7.index t (0 : Fin 2) = t.val
    ∧ win12_7.index t (1 : Fin 2) = 0 :=
  (by decide +kernel : ∀ t : Fin grid12.N, _)

/-- Input array 0 as the region finds it. -/
abbrev in0 (c : Dev nD) : S50000x256.Idx → EReal := V c main_v175
/-- Input array 1 as the region finds it. -/
abbrev in1 (c : Dev nD) : S1x256.Idx → EReal := V c main_v188
/-- Input array 2 as the region finds it. -/
abbrev in2 (c : Dev nD) : S1x256.Idx → EReal := V c main_v189
/-- Input array 3 as the region finds it. -/
abbrev in3 (c : Dev nD) : S1x256.Idx → EReal := V c main_v190
/-- Input array 4 as the region finds it. -/
abbrev in4 (c : Dev nD) : S1x256.Idx → EReal := V c main_v191
/-- Input array 5 as the region finds it. -/
abbrev in5 (c : Dev nD) : S256x128.Idx → EReal := V c main_v185
/-- Input array 6 as the region finds it. -/
abbrev in6 (c : Dev nD) : S1x128.Idx → EReal := V c main_v192

/-- The whole-array function the region computes, of the arrays as the region finds them. -/
abbrev result (c : Dev nD) : S50000x128.Idx → EReal :=
  Cert.Spec.normProductPos (M := 50000) (K := 256) (D := 128) Cert.Spec.eps Cert.Spec.zero (in0 V c) (in1 V c) (in2 V c) (in3 V c) (in4 V c) (in5 V c) (in6 V c)

/-- What point `t` writes back is its block of `result`. -/
theorem flushed_eq (c : Dev nD) (t : Fin cfg12.N) :
    (dat12 (F := Ideal) V c).flushed 7 t = ((cfg12.win 7).blk t).view.read (Elt Ideal) (result V c) := by
  show (cfg12.win 7).cut (grid12.coords t) ((dat12 V c).after 7 t) = _
  rw [after12_7]
  unfold out12_7
  rw [View.canon_unit_zero origin_zero]
  simp only [View.ld_unit_zero (S := S5000x256) origin_zero, View.ld_unit_zero (S := S1x256) origin_zero, View.ld_unit_zero (S := S256x128) origin_zero, View.ld_unit_zero (S := S1x128) origin_zero]
  obtain ⟨e0, e1, e2, e3, e4, e5, e6, e7, e8, e9, e10, e11, e12, e13, e14, e15⟩ := index_maps t
  have hN : grid12.N = 10 := N_12
  have ht : t.val < 10 := hN ▸ t.isLt
  funext j
  obtain ⟨p, q, rfl⟩ : ∃ (p : Fin 5000) (q : Fin 128), j = ix2 p q := ⟨j 0, j 1, eq_ix2 j⟩
  have hp : p.val < 5000 := p.isLt
  let r : Fin 50000 := ⟨t.val * 5000 + p.val, by omega⟩
  have emb_out : ((cfg12.win 7).blk t).view.emb (ix2 p q) = (ix2 r q : S50000x128.Idx) := by
    funext ax; apply Fin.ext
    match ax with
    | ⟨0, _⟩ => show win12_7.index t (0 : Fin 2) * 5000 + 1 * p.val = t.val * 5000 + p.val; omega
    | ⟨1, _⟩ => show win12_7.index t (1 : Fin 2) * 128 + 1 * q.val = q.val; omega
  have rd_0 : ∀ k : Fin 256, iblk12 V c 0 t (ix2 p k) = in0 V c (ix2 r k) := fun k => by
    show V c main_v175 (((cfg12.win 0).blk t).view.emb (ix2 p k)) = _
    refine congrArg (V c main_v175) (funext fun ax => Fin.ext ?_)
    match ax with
    | ⟨0, _⟩ => show win12_0.index t (0 : Fin 2) * 5000 + 1 * p.val = t.val * 5000 + p.val; omega
    | ⟨1, _⟩ => show win12_0.index t (1 : Fin 2) * 256 + 1 * k.val = k.val; omega
  have rd_1 : ∀ k : Fin 256, iblk12 V c 1 t (ix2 (0 : Fin 1) k) = V c main_v188 (ix2 (0 : Fin 1) k : S1x256.Idx) := fun k => by
    show V c main_v188 (((cfg12.win 1).blk t).view.emb (ix2 (0 : Fin 1) k)) = _
    refine congrArg (V c main_v188) (funext fun ax => Fin.ext ?_)
    match ax with
    | ⟨0, _⟩ => show win12_1.index t (0 : Fin 2) * 1 + 1 * 0 = 0; omega
    | ⟨1, _⟩ => show win12_1.index t (1 : Fin 2) * 256 + 1 * k.val = k.val; omega
  have rd_2 : ∀ k : Fin 256, iblk12 V c 2 t (ix2 (0 : Fin 1) k) = V c main_v189 (ix2 (0 : Fin 1) k : S1x256.Idx) := fun k => by
    show V c main_v189 (((cfg12.win 2).blk t).view.emb (ix2 (0 : Fin 1) k)) = _
    refine congrArg (V c main_v189) (funext fun ax => Fin.ext ?_)
    match ax with
    | ⟨0, _⟩ => show win12_2.index t (0 : Fin 2) * 1 + 1 * 0 = 0; omega
    | ⟨1, _⟩ => show win12_2.index t (1 : Fin 2) * 256 + 1 * k.val = k.val; omega
  have rd_3 : ∀ k : Fin 256, iblk12 V c 3 t (ix2 (0 : Fin 1) k) = V c main_v190 (ix2 (0 : Fin 1) k : S1x256.Idx) := fun k => by
    show V c main_v190 (((cfg12.win 3).blk t).view.emb (ix2 (0 : Fin 1) k)) = _
    refine congrArg (V c main_v190) (funext fun ax => Fin.ext ?_)
    match ax with
    | ⟨0, _⟩ => show win12_3.index t (0 : Fin 2) * 1 + 1 * 0 = 0; omega
    | ⟨1, _⟩ => show win12_3.index t (1 : Fin 2) * 256 + 1 * k.val = k.val; omega
  have rd_4 : ∀ k : Fin 256, iblk12 V c 4 t (ix2 (0 : Fin 1) k) = V c main_v191 (ix2 (0 : Fin 1) k : S1x256.Idx) := fun k => by
    show V c main_v191 (((cfg12.win 4).blk t).view.emb (ix2 (0 : Fin 1) k)) = _
    refine congrArg (V c main_v191) (funext fun ax => Fin.ext ?_)
    match ax with
    | ⟨0, _⟩ => show win12_4.index t (0 : Fin 2) * 1 + 1 * 0 = 0; omega
    | ⟨1, _⟩ => show win12_4.index t (1 : Fin 2) * 256 + 1 * k.val = k.val; omega
  have rd_5 : ∀ k : Fin 256, iblk12 V c 5 t (ix2 k q) = in5 V c (ix2 k q) := fun k => by
    show V c main_v185 (((cfg12.win 5).blk t).view.emb (ix2 k q)) = _
    refine congrArg (V c main_v185) (funext fun ax => Fin.ext ?_)
    match ax with
    | ⟨0, _⟩ => show win12_5.index t (0 : Fin 2) * 256 + 1 * k.val = k.val; omega
    | ⟨1, _⟩ => show win12_5.index t (1 : Fin 2) * 128 + 1 * q.val = q.val; omega
  have rd_6 : iblk12 V c 6 t (ix2 (0 : Fin 1) q) = V c main_v192 (ix2 (0 : Fin 1) q : S1x128.Idx) := by
    show V c main_v192 (((cfg12.win 6).blk t).view.emb (ix2 (0 : Fin 1) q)) = _
    refine congrArg (V c main_v192) (funext fun ax => Fin.ext ?_)
    match ax with
    | ⟨0, _⟩ => show win12_6.index t (0 : Fin 2) * 1 + 1 * 0 = 0; omega
    | ⟨1, _⟩ => show win12_6.index t (1 : Fin 2) * 128 + 1 * q.val = q.val; omega
  show k12_pay1 (iblk12 V c 0 t) (iblk12 V c 2 t) (iblk12 V c 3 t) (iblk12 V c 1 t) (iblk12 V c 4 t) (iblk12 V c 5 t) (iblk12 V c 6 t) (ix2 p q)
    = result V c (((cfg12.win 7).blk t).view.emb (ix2 p q))
  rw [emb_out, Body2.k12_eq, Body2.normProductPos_pay, rd_6]
  show _ = max ((∑ k : Fin 256, Cert.Spec.normAct Cert.Spec.eps Cert.Spec.zero (in0 V c) (in1 V c) (in2 V c) (in3 V c) (in4 V c) r k * in5 V c (ix2 k q)) + in6 V c (ix2 0 q)) Cert.Spec.zero
  refine congrArg (max · Cert.Spec.zero) (congrArg (· + in6 V c (ix2 0 q)) (Finset.sum_congr rfl fun k _ => ?_))
  unfold Body2.act Cert.Spec.normAct
  rw [rd_0 k, rd_1 k, rd_2 k, rd_3 k, rd_4 k, rd_5 k]

/-- An index of the result array is in point `t`'s block iff each coordinate is in the block's range. -/
theorem mem_blk (t : Fin cfg12.N) (i : S50000x128.Idx) :
    i ∈ ((cfg12.win 7).blk t).view.set ↔ ∀ ax : Fin 2, win12_7.index t ax * S5000x128.size ax ≤ (i ax).val
      ∧ (i ax).val < win12_7.index t ax * S5000x128.size ax + S5000x128.size ax := by
  show i ∈ ((View.whole main_v193).slice (win12_7.rect t)).set ↔ _
  rw [View.set_slice_whole, Rect.mem_set_unit]
  exact Iff.rfl

/-- Every entry of the result array is in the block of the point its row falls to. -/
theorem cover (i : S50000x128.Idx) :
    ∃ t : Fin cfg12.N, (cfg12.win 7).flush t = true ∧ i ∈ ((cfg12.win 7).blk t).view.set := by
  have hi0 : (i 0).val < 50000 := (i 0).isLt
  have hi1 : (i 1).val < 128 := (i 1).isLt
  have hN : grid12.N = 10 := N_12
  have hlt : (i 0).val / 5000 < grid12.N := by rw [hN]; omega
  obtain ⟨e0, e1, e2, e3, e4, e5, e6, e7, e8, e9, e10, e11, e12, e13, e14, e15⟩ := index_maps ⟨(i 0).val / 5000, hlt⟩
  have e_row : win12_7.index ⟨(i 0).val / 5000, hlt⟩ (0 : Fin 2) = (i 0).val / 5000 := e14
  refine ⟨⟨(i 0).val / 5000, hlt⟩, flush12_7 _, ?_⟩
  rw [mem_blk]
  intro ax
  match ax with
  | ⟨0, _⟩ =>
    show win12_7.index ⟨(i 0).val / 5000, hlt⟩ (0 : Fin 2) * 5000 ≤ (i 0).val
      ∧ (i 0).val < win12_7.index ⟨(i 0).val / 5000, hlt⟩ (0 : Fin 2) * 5000 + 5000
    omega
  | ⟨1, _⟩ =>
    show win12_7.index ⟨(i 0).val / 5000, hlt⟩ (1 : Fin 2) * 128 ≤ (i 1).val
      ∧ (i 1).val < win12_7.index ⟨(i 0).val / 5000, hlt⟩ (1 : Fin 2) * 128 + 128
    omega

/-- The result array after the run is `result`. -/
theorem final (c : Dev nD) : (dat12 (F := Ideal) V c).arrAt 7 cfg12.N = result V c :=
  (dat12 V c).arrAt_eq_of_cover 7 (result V c) (fun t _ => flushed_eq V c t) cover

/-- The input arrays end as the region found them: no point writes one back. -/
theorem kept (c : Dev nD) (w : Fin cfg12.W) (hw : w ≠ 7) :
    (dat12 (F := Ideal) V c).arrAt w cfg12.N = V c (Pipeline.arrRef spec12 w) := by
  have hin : (cfg12.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, hw => exact absurd rfl hw
  rw [(dat12 V c).arrAt_in w hin, A_eq12]

/-- The region as ONE host operation: `result`'s function of the input arrays into the result array. -/
def op : HloOp τ sig (Elt Ideal) :=
  Cert.Lib.RegionOp.op7 main_v175 main_v188 main_v189 main_v190 main_v191 main_v185 main_v192 main_v193
    (fun z mn vr g β w b => Cert.Spec.normProductPos (M := 50000) (K := 256) (D := 128) Cert.Spec.eps Cert.Spec.zero z mn vr g β w b) (by decide) ⟨by decide, rfl⟩

variable (m : (ℓ : Loc nD τ sig) → Buf (Elt Ideal) ℓ) (ρ : Dev nD → PrngReg)

/-- The buffer contents at the region's exit are the operation's result of the contents at its entry. -/
theorem exit_eq (c : Dev nD) : W34 (F := Ideal) m ρ c = op.result (W33 m ρ c) := by
  unfold W34
  refine Cert.Lib.RegionOp.withArrays_eq_result spec12 launch12.win.arr_inj c (W33 m ρ c) _ op 7 rfl ?_ ?_
  · show (dat12 (V33 m ρ) c).arrAt 7 cfg12.N = op.result (W33 m ρ c) (Proc.devRef .tc main_v193)
    refine (final (V33 m ρ) c).trans ?_
    unfold op
    rw [Cert.Lib.RegionOp.op7_result']
  · intro w hw
    exact kept (V33 m ρ) c w hw

end Cert.KernelIdeal.Region12

end
-- ==== Proof.KLayer3.lean ====
/-
  Layer 3 of the kernel program, read off the fold of its host stretches and of its three regions taken as single
  operations: the edge embeddings, the first linear stage of the aggregates, and the layer's output, each as the
  shared term of the buffers' contents when the layer is entered; and the buffers the layer leaves alone (the index
  arrays, the extended edge features and the parameters).
-/
import proofs.«132731_j31379031065008_1_alg».proof.Proof.Region10
import proofs.«132731_j31379031065008_1_alg».proof.Proof.Region11
import proofs.«132731_j31379031065008_1_alg».proof.Proof.Region12
import proofs.«132731_j31379031065008_1_alg».proof.Proof.KShared
import proofs.«132731_j31379031065008_1_alg».proof.Proof.KRead
import proofs.«132731_j31379031065008_1_alg».proof.Proof.Canon

set_option maxRecDepth 16384
set_option maxHeartbeats 4000000

noncomputable section

namespace Cert.KernelIdeal.Layer3

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- What the edge stage (its parameter slices and its region) leaves alone. -/
theorem keeps_edge (c : Dev nD) :
    W28 (F := Ideal) m ρ c (Proc.devRef .tc main_v148) = W26 m ρ c (Proc.devRef .tc main_v148)
    ∧ W28 (F := Ideal) m ρ c (Proc.devRef .tc main_v3) = W26 m ρ c (Proc.devRef .tc main_v3)
    ∧ W28 (F := Ideal) m ρ c (Proc.devRef .tc main_v6) = W26 m ρ c (Proc.devRef .tc main_v6)
    ∧ W28 (F := Ideal) m ρ c (Proc.devRef .tc main_v11) = W26 m ρ c (Proc.devRef .tc main_v11)
    ∧ W28 (F := Ideal) m ρ c (Proc.devRef .tc main_arg3) = W26 m ρ c (Proc.devRef .tc main_arg3)
    ∧ W28 (F := Ideal) m ρ c (Proc.devRef .tc main_arg4) = W26 m ρ c (Proc.devRef .tc main_arg4)
    ∧ W28 (F := Ideal) m ρ c (Proc.devRef .tc main_arg5) = W26 m ρ c (Proc.devRef .tc main_arg5)
    ∧ W28 (F := Ideal) m ρ c (Proc.devRef .tc main_arg6) = W26 m ρ c (Proc.devRef .tc main_arg6)
    ∧ W28 (F := Ideal) m ρ c (Proc.devRef .tc main_arg7) = W26 m ρ c (Proc.devRef .tc main_arg7)
    ∧ W28 (F := Ideal) m ρ c (Proc.devRef .tc main_arg8) = W26 m ρ c (Proc.devRef .tc main_arg8)
    ∧ W28 (F := Ideal) m ρ c (Proc.devRef .tc main_arg9) = W26 m ρ c (Proc.devRef .tc main_arg9)
    ∧ W28 (F := Ideal) m ρ c (Proc.devRef .tc main_arg10) = W26 m ρ c (Proc.devRef .tc main_arg10)
    ∧ W28 (F := Ideal) m ρ c (Proc.devRef .tc main_arg11) = W26 m ρ c (Proc.devRef .tc main_arg11)
    ∧ W28 (F := Ideal) m ρ c (Proc.devRef .tc main_arg12) = W26 m ρ c (Proc.devRef .tc main_arg12) := by
  rw [Region10.exit_eq]
  unfold W27
  unfold Region10.op
  simp only [hostOps10]
  refine ⟨?_, ?_, ?_, ?_, ?_, ?_, ?_, ?_, ?_, ?_, ?_, ?_, ?_, ?_⟩ <;> kernel_read

/-- The edge embeddings. -/
theorem eemb_val (c : Dev nD) :
    W28 (F := Ideal) m ρ c (Proc.devRef .tc main_v154) = Shared.eembTerm 3 (W26 m ρ c (Proc.devRef .tc main_v11)) (W26 m ρ c (Proc.devRef .tc main_arg5)) (W26 m ρ c (Proc.devRef .tc main_arg6)) := by
  rw [Region10.exit_eq]
  unfold W27
  unfold Region10.op
  simp only [hostOps10]
  kernel_read
  unfold Shared.eembTerm
  exact Cert.Spec.affine_congr rfl (Cert.Canon.mat_of_slice (3 : Fin 5) _ _ _) (Cert.Canon.row_of_slice (3 : Fin 5) _ _ _ _)

/-- What the aggregation and the first linear stage leave alone. -/
theorem keeps_first (c : Dev nD) :
    W30 (F := Ideal) m ρ c (Proc.devRef .tc main_v3) = W28 m ρ c (Proc.devRef .tc main_v3)
    ∧ W30 (F := Ideal) m ρ c (Proc.devRef .tc main_v6) = W28 m ρ c (Proc.devRef .tc main_v6)
    ∧ W30 (F := Ideal) m ρ c (Proc.devRef .tc main_v11) = W28 m ρ c (Proc.devRef .tc main_v11)
    ∧ W30 (F := Ideal) m ρ c (Proc.devRef .tc main_arg3) = W28 m ρ c (Proc.devRef .tc main_arg3)
    ∧ W30 (F := Ideal) m ρ c (Proc.devRef .tc main_arg4) = W28 m ρ c (Proc.devRef .tc main_arg4)
    ∧ W30 (F := Ideal) m ρ c (Proc.devRef .tc main_arg5) = W28 m ρ c (Proc.devRef .tc main_arg5)
    ∧ W30 (F := Ideal) m ρ c (Proc.devRef .tc main_arg6) = W28 m ρ c (Proc.devRef .tc main_arg6)
    ∧ W30 (F := Ideal) m ρ c (Proc.devRef .tc main_arg7) = W28 m ρ c (Proc.devRef .tc main_arg7)
    ∧ W30 (F := Ideal) m ρ c (Proc.devRef .tc main_arg8) = W28 m ρ c (Proc.devRef .tc main_arg8)
    ∧ W30 (F := Ideal) m ρ c (Proc.devRef .tc main_arg9) = W28 m ρ c (Proc.devRef .tc main_arg9)
    ∧ W30 (F := Ideal) m ρ c (Proc.devRef .tc main_arg10) = W28 m ρ c (Proc.devRef .tc main_arg10)
    ∧ W30 (F := Ideal) m ρ c (Proc.devRef .tc main_arg11) = W28 m ρ c (Proc.devRef .tc main_arg11)
    ∧ W30 (F := Ideal) m ρ c (Proc.devRef .tc main_arg12) = W28 m ρ c (Proc.devRef .tc main_arg12) := by
  rw [Region11.exit_eq]
  unfold W29
  unfold Region11.op
  simp only [hostOps11]
  refine ⟨?_, ?_, ?_, ?_, ?_, ?_, ?_, ?_, ?_, ?_, ?_, ?_, ?_⟩ <;> kernel_read

/-- The first linear stage of the two aggregates. -/
theorem z_val (c : Dev nD) :
    W30 (F := Ideal) m ρ c (Proc.devRef .tc main_v175) = Shared.zTerm 3 (W26 m ρ c (Proc.devRef .tc main_v148)) (W26 m ρ c (Proc.devRef .tc main_v3)) (W26 m ρ c (Proc.devRef .tc main_v6)) (W26 m ρ c (Proc.devRef .tc main_v11)) (W26 m ρ c (Proc.devRef .tc main_arg5)) (W26 m ρ c (Proc.devRef .tc main_arg6)) (W26 m ρ c (Proc.devRef .tc main_arg7)) (W26 m ρ c (Proc.devRef .tc main_arg8)) := by
  rw [Region11.exit_eq]
  unfold W29
  unfold Region11.op
  simp only [hostOps11]
  kernel_read
  obtain ⟨k_v148, k_v3, k_v6, k_v11, k_arg3, k_arg4, k_arg5, k_arg6, k_arg7, k_arg8, k_arg9, k_arg10, k_arg11, k_arg12⟩ := keeps_edge m ρ c
  rw [eemb_val m ρ c, k_v148, k_v3, k_v6, k_arg7, k_arg8]
  unfold Shared.zTerm
  exact Cert.Spec.twoProducts_congr rfl rfl (Cert.Canon.matTop_of_slice (R := 128) (3 : Fin 5) _ _ _) (Cert.Canon.matBot_of_slice (R := 128) (3 : Fin 5) _ _ _) (Cert.Canon.row_of_slice (3 : Fin 5) _ _ _ _)

/-- What the statistics and the second stage leave alone. -/
theorem keeps_second (c : Dev nD) :
    W34 (F := Ideal) m ρ c (Proc.devRef .tc main_v3) = W30 m ρ c (Proc.devRef .tc main_v3)
    ∧ W34 (F := Ideal) m ρ c (Proc.devRef .tc main_v6) = W30 m ρ c (Proc.devRef .tc main_v6)
    ∧ W34 (F := Ideal) m ρ c (Proc.devRef .tc main_v11) = W30 m ρ c (Proc.devRef .tc main_v11)
    ∧ W34 (F := Ideal) m ρ c (Proc.devRef .tc main_arg3) = W30 m ρ c (Proc.devRef .tc main_arg3)
    ∧ W34 (F := Ideal) m ρ c (Proc.devRef .tc main_arg4) = W30 m ρ c (Proc.devRef .tc main_arg4)
    ∧ W34 (F := Ideal) m ρ c (Proc.devRef .tc main_arg5) = W30 m ρ c (Proc.devRef .tc main_arg5)
    ∧ W34 (F := Ideal) m ρ c (Proc.devRef .tc main_arg6) = W30 m ρ c (Proc.devRef .tc main_arg6)
    ∧ W34 (F := Ideal) m ρ c (Proc.devRef .tc main_arg7) = W30 m ρ c (Proc.devRef .tc main_arg7)
    ∧ W34 (F := Ideal) m ρ c (Proc.devRef .tc main_arg8) = W30 m ρ c (Proc.devRef .tc main_arg8)
    ∧ W34 (F := Ideal) m ρ c (Proc.devRef .tc main_arg9) = W30 m ρ c (Proc.devRef .tc main_arg9)
    ∧ W34 (F := Ideal) m ρ c (Proc.devRef .tc main_arg10) = W30 m ρ c (Proc.devRef .tc main_arg10)
    ∧ W34 (F := Ideal) m ρ c (Proc.devRef .tc main_arg11) = W30 m ρ c (Proc.devRef .tc main_arg11)
    ∧ W34 (F := Ideal) m ρ c (Proc.devRef .tc main_arg12) = W30 m ρ c (Proc.devRef .tc main_arg12) := by
  rw [Region12.exit_eq]
  unfold W33 W32 W31
  unfold Region12.op
  simp only [hostOps12, hostOps12_1, hostOps12_2]
  refine ⟨?_, ?_, ?_, ?_, ?_, ?_, ?_, ?_, ?_, ?_, ?_, ?_, ?_⟩ <;> kernel_read

/-- The layer's output. -/
theorem out_val (c : Dev nD) :
    W34 (F := Ideal) m ρ c (Proc.devRef .tc main_v193)
      = Shared.outPos 3 (Shared.zTerm 3 (W26 m ρ c (Proc.devRef .tc main_v148)) (W26 m ρ c (Proc.devRef .tc main_v3)) (W26 m ρ c (Proc.devRef .tc main_v6)) (W26 m ρ c (Proc.devRef .tc main_v11)) (W26 m ρ c (Proc.devRef .tc main_arg5)) (W26 m ρ c (Proc.devRef .tc main_arg6)) (W26 m ρ c (Proc.devRef .tc main_arg7)) (W26 m ρ c (Proc.devRef .tc main_arg8)))
          (W26 m ρ c (Proc.devRef .tc main_arg9)) (W26 m ρ c (Proc.devRef .tc main_arg10)) (W26 m ρ c (Proc.devRef .tc main_arg11)) (W26 m ρ c (Proc.devRef .tc main_arg12)) := by
  rw [Region12.exit_eq]
  unfold W33 W32 W31
  unfold Region12.op
  simp only [hostOps12, hostOps12_1, hostOps12_2]
  kernel_read
  obtain ⟨a_v148, a_v3, a_v6, a_v11, a_arg3, a_arg4, a_arg5, a_arg6, a_arg7, a_arg8, a_arg9, a_arg10, a_arg11, a_arg12⟩ := keeps_edge m ρ c
  obtain ⟨b_v3, b_v6, b_v11, b_arg3, b_arg4, b_arg5, b_arg6, b_arg7, b_arg8, b_arg9, b_arg10, b_arg11, b_arg12⟩ := keeps_first m ρ c
  rw [z_val m ρ c, b_arg9, b_arg10, b_arg11, b_arg12, a_arg9, a_arg10, a_arg11, a_arg12]
  unfold Shared.outPos
  exact Cert.Spec.normProductPos_congr rfl (Cert.Canon.row_of_vec _ _) (Cert.Canon.row_of_vec _ _) (Cert.Canon.row_of_slice (3 : Fin 5) _ _ _ _) (Cert.Canon.row_of_slice (3 : Fin 5) _ _ _ _) (Cert.Canon.mat_of_slice (3 : Fin 5) _ _ _) (Cert.Canon.row_of_slice (3 : Fin 5) _ _ _ _)

/-- What the whole layer leaves alone. -/
theorem keeps (c : Dev nD) :
    W34 (F := Ideal) m ρ c (Proc.devRef .tc main_v3) = W26 m ρ c (Proc.devRef .tc main_v3)
    ∧ W34 (F := Ideal) m ρ c (Proc.devRef .tc main_v6) = W26 m ρ c (Proc.devRef .tc main_v6)
    ∧ W34 (F := Ideal) m ρ c (Proc.devRef .tc main_v11) = W26 m ρ c (Proc.devRef .tc main_v11)
    ∧ W34 (F := Ideal) m ρ c (Proc.devRef .tc main_arg3) = W26 m ρ c (Proc.devRef .tc main_arg3)
    ∧ W34 (F := Ideal) m ρ c (Proc.devRef .tc main_arg4) = W26 m ρ c (Proc.devRef .tc main_arg4)
    ∧ W34 (F := Ideal) m ρ c (Proc.devRef .tc main_arg5) = W26 m ρ c (Proc.devRef .tc main_arg5)
    ∧ W34 (F := Ideal) m ρ c (Proc.devRef .tc main_arg6) = W26 m ρ c (Proc.devRef .tc main_arg6)
    ∧ W34 (F := Ideal) m ρ c (Proc.devRef .tc main_arg7) = W26 m ρ c (Proc.devRef .tc main_arg7)
    ∧ W34 (F := Ideal) m ρ c (Proc.devRef .tc main_arg8) = W26 m ρ c (Proc.devRef .tc main_arg8)
    ∧ W34 (F := Ideal) m ρ c (Proc.devRef .tc main_arg9) = W26 m ρ c (Proc.devRef .tc main_arg9)
    ∧ W34 (F := Ideal) m ρ c (Proc.devRef .tc main_arg10) = W26 m ρ c (Proc.devRef .tc main_arg10)
    ∧ W34 (F := Ideal) m ρ c (Proc.devRef .tc main_arg11) = W26 m ρ c (Proc.devRef .tc main_arg11)
    ∧ W34 (F := Ideal) m ρ c (Proc.devRef .tc main_arg12) = W26 m ρ c (Proc.devRef .tc main_arg12) := by
  obtain ⟨a_v148, a_v3, a_v6, a_v11, a_arg3, a_arg4, a_arg5, a_arg6, a_arg7, a_arg8, a_arg9, a_arg10, a_arg11, a_arg12⟩ := keeps_edge m ρ c
  obtain ⟨b_v3, b_v6, b_v11, b_arg3, b_arg4, b_arg5, b_arg6, b_arg7, b_arg8, b_arg9, b_arg10, b_arg11, b_arg12⟩ := keeps_first m ρ c
  obtain ⟨d_v3, d_v6, d_v11, d_arg3, d_arg4, d_arg5, d_arg6, d_arg7, d_arg8, d_arg9, d_arg10, d_arg11, d_arg12⟩ := keeps_second m ρ c
  exact ⟨d_v3.trans (b_v3.trans a_v3), d_v6.trans (b_v6.trans a_v6), d_v11.trans (b_v11.trans a_v11), d_arg3.trans (b_arg3.trans a_arg3), d_arg4.trans (b_arg4.trans a_arg4), d_arg5.trans (b_arg5.trans a_arg5), d_arg6.trans (b_arg6.trans a_arg6), d_arg7.trans (b_arg7.trans a_arg7), d_arg8.trans (b_arg8.trans a_arg8), d_arg9.trans (b_arg9.trans a_arg9), d_arg10.trans (b_arg10.trans a_arg10), d_arg11.trans (b_arg11.trans a_arg11), d_arg12.trans (b_arg12.trans a_arg12)⟩

end Cert.KernelIdeal.Layer3

end
-- ==== Proof.Region13.lean ====
/-
  Region 13: the edge features through layer 4's edge map — an affine stage on 450000 rows, 9000 rows to a block.

  Point t of the grid reads rows 9000·t … 9000·t + 8999 of the left array, the whole 3 × 128 map and the whole row of biases, and
  writes the same rows of the result. Every row of the result lies in the block of the point row / 9000, so the blocks
  cover the array, and what a point writes is its block of ONE function of the whole arrays:
  entry (r, c) ↦ (∑ k, a[r,k] · w[k,c]) + b[0,c]. The input arrays are never written back. So the region leaves exactly
  what one host operation computing that function into the result array leaves.
-/
import proofs.«132731_j31379031065008_1_alg».proof.Proof.Gen.KernelIdeal.Frame
import proofs.«132731_j31379031065008_1_alg».proof.Proof.Spec
import proofs.«132731_j31379031065008_1_alg».proof.Proof.AffineBody
import proofs.«132731_j31379031065008_1_alg».proof.Proof.LibRegionOp
import Idealize.ShloMosaic.Lib.Pipeline.Value

set_option maxRecDepth 16384

noncomputable section

namespace Cert.KernelIdeal.Region13

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the row-blocked windows move with the point, the others stay. -/
theorem index_maps : ∀ t : Fin cfg13.N,
    win13_0.index t (0 : Fin 2) = t.val
    ∧ win13_0.index t (1 : Fin 2) = 0
    ∧ win13_1.index t (0 : Fin 2) = 0
    ∧ win13_1.index t (1 : Fin 2) = 0
    ∧ win13_2.index t (0 : Fin 2) = 0
    ∧ win13_2.index t (1 : Fin 2) = 0
    ∧ win13_3.index t (0 : Fin 2) = t.val
    ∧ win13_3.index t (1 : Fin 2) = 0 :=
  (by decide +kernel : ∀ t : Fin grid13.N, _)

/-- Input array 0 as the region finds it. -/
abbrev in0 (c : Dev nD) : S450000x3.Idx → EReal := V c main_v11
/-- Input array 1 as the region finds it. -/
abbrev in1 (c : Dev nD) : S3x128.Idx → EReal := V c main_v195
/-- Input array 2 as the region finds it. -/
abbrev in2 (c : Dev nD) : S1x128.Idx → EReal := V c main_v198

/-- The whole-array function the region computes, of the arrays as the region finds them. -/
abbrev result (c : Dev nD) : S450000x128.Idx → EReal :=
  Cert.Spec.affine (M := 450000) (K := 3) (D := 128) (in0 V c) (in1 V c) (in2 V c)

/-- What point `t` writes back is its block of `result`. -/
theorem flushed_eq (c : Dev nD) (t : Fin cfg13.N) :
    (dat13 (F := Ideal) V c).flushed 3 t = ((cfg13.win 3).blk t).view.read (Elt Ideal) (result V c) := by
  show (cfg13.win 3).cut (grid13.coords t) ((dat13 V c).after 3 t) = _
  rw [after13_3]
  unfold out13_3
  rw [View.canon_unit_zero origin_zero]
  simp only [View.ld_unit_zero (S := S9000x3) origin_zero, View.ld_unit_zero (S := S3x128) origin_zero, View.ld_unit_zero (S := S1x128) origin_zero]
  obtain ⟨e0, e1, e2, e3, e4, e5, e6, e7⟩ := index_maps t
  have hN : grid13.N = 50 := N_13
  have ht : t.val < 50 := hN ▸ t.isLt
  funext j
  obtain ⟨p, q, rfl⟩ : ∃ (p : Fin 9000) (q : Fin 128), j = ix2 p q := ⟨j 0, j 1, eq_ix2 j⟩
  have hp : p.val < 9000 := p.isLt
  let r : Fin 450000 := ⟨t.val * 9000 + p.val, by omega⟩
  have emb_out : ((cfg13.win 3).blk t).view.emb (ix2 p q) = (ix2 r q : S450000x128.Idx) := by
    funext ax; apply Fin.ext
    match ax with
    | ⟨0, _⟩ => show win13_3.index t (0 : Fin 2) * 9000 + 1 * p.val = t.val * 9000 + p.val; omega
    | ⟨1, _⟩ => show win13_3.index t (1 : Fin 2) * 128 + 1 * q.val = q.val; omega
  have rd_0 : ∀ k : Fin 3, iblk13 V c 0 t (ix2 p k) = in0 V c (ix2 r k) := fun k => by
    show V c main_v11 (((cfg13.win 0).blk t).view.emb (ix2 p k)) = _
    refine congrArg (V c main_v11) (funext fun ax => Fin.ext ?_)
    match ax with
    | ⟨0, _⟩ => show win13_0.index t (0 : Fin 2) * 9000 + 1 * p.val = t.val * 9000 + p.val; omega
    | ⟨1, _⟩ => show win13_0.index t (1 : Fin 2) * 3 + 1 * k.val = k.val; omega
  have rd_1 : ∀ k : Fin 3, iblk13 V c 1 t (ix2 k q) = in1 V c (ix2 k q) := fun k => by
    show V c main_v195 (((cfg13.win 1).blk t).view.emb (ix2 k q)) = _
    refine congrArg (V c main_v195) (funext fun ax => Fin.ext ?_)
    match ax with
    | ⟨0, _⟩ => show win13_1.index t (0 : Fin 2) * 3 + 1 * k.val = k.val; omega
    | ⟨1, _⟩ => show win13_1.index t (1 : Fin 2) * 128 + 1 * q.val = q.val; omega
  have rd_2 : iblk13 V c 2 t (ix2 (0 : Fin 1) q) = V c main_v198 (ix2 (0 : Fin 1) q : S1x128.Idx) := by
    show V c main_v198 (((cfg13.win 2).blk t).view.emb (ix2 (0 : Fin 1) q)) = _
    refine congrArg (V c main_v198) (funext fun ax => Fin.ext ?_)
    match ax with
    | ⟨0, _⟩ => show win13_2.index t (0 : Fin 2) * 1 + 1 * 0 = 0; omega
    | ⟨1, _⟩ => show win13_2.index t (1 : Fin 2) * 128 + 1 * q.val = q.val; omega
  show k13_pay1 (iblk13 V c 0 t) (iblk13 V c 1 t) (iblk13 V c 2 t) (ix2 p q)
    = result V c (((cfg13.win 3).blk t).view.emb (ix2 p q))
  rw [emb_out, Body.k13_eq, Body.affine9000_pay, rd_2]
  show _ = (∑ k : Fin 3, in0 V c (ix2 r k) * in1 V c (ix2 k q)) + in2 V c (ix2 0 q)
  exact congrArg (· + in2 V c (ix2 0 q)) (Finset.sum_congr rfl fun k _ => by rw [rd_0 k, rd_1 k])

/-- An index of the result array is in point `t`'s block iff each coordinate is in the block's range. -/
theorem mem_blk (t : Fin cfg13.N) (i : S450000x128.Idx) :
    i ∈ ((cfg13.win 3).blk t).view.set ↔ ∀ ax : Fin 2, win13_3.index t ax * S9000x128.size ax ≤ (i ax).val
      ∧ (i ax).val < win13_3.index t ax * S9000x128.size ax + S9000x128.size ax := by
  show i ∈ ((View.whole main_v199).slice (win13_3.rect t)).set ↔ _
  rw [View.set_slice_whole, Rect.mem_set_unit]
  exact Iff.rfl

/-- Every entry of the result array is in the block of the point its row falls to. -/
theorem cover (i : S450000x128.Idx) :
    ∃ t : Fin cfg13.N, (cfg13.win 3).flush t = true ∧ i ∈ ((cfg13.win 3).blk t).view.set := by
  have hi0 : (i 0).val < 450000 := (i 0).isLt
  have hi1 : (i 1).val < 128 := (i 1).isLt
  have hN : grid13.N = 50 := N_13
  have hlt : (i 0).val / 9000 < grid13.N := by rw [hN]; omega
  obtain ⟨e0, e1, e2, e3, e4, e5, e6, e7⟩ := index_maps ⟨(i 0).val / 9000, hlt⟩
  have e_row : win13_3.index ⟨(i 0).val / 9000, hlt⟩ (0 : Fin 2) = (i 0).val / 9000 := e6
  refine ⟨⟨(i 0).val / 9000, hlt⟩, flush13_3 _, ?_⟩
  rw [mem_blk]
  intro ax
  match ax with
  | ⟨0, _⟩ =>
    show win13_3.index ⟨(i 0).val / 9000, hlt⟩ (0 : Fin 2) * 9000 ≤ (i 0).val
      ∧ (i 0).val < win13_3.index ⟨(i 0).val / 9000, hlt⟩ (0 : Fin 2) * 9000 + 9000
    omega
  | ⟨1, _⟩ =>
    show win13_3.index ⟨(i 0).val / 9000, hlt⟩ (1 : Fin 2) * 128 ≤ (i 1).val
      ∧ (i 1).val < win13_3.index ⟨(i 0).val / 9000, hlt⟩ (1 : Fin 2) * 128 + 128
    omega

/-- The result array after the run is `result`. -/
theorem final (c : Dev nD) : (dat13 (F := Ideal) V c).arrAt 3 cfg13.N = result V c :=
  (dat13 V c).arrAt_eq_of_cover 3 (result V c) (fun t _ => flushed_eq V c t) cover

/-- The input arrays end as the region found them: no point writes one back. -/
theorem kept (c : Dev nD) (w : Fin cfg13.W) (hw : w ≠ 3) :
    (dat13 (F := Ideal) V c).arrAt w cfg13.N = V c (Pipeline.arrRef spec13 w) := by
  have hin : (cfg13.win w).isOut = false := by
    match w, hw with
    | ⟨0, _⟩, _ => rfl
    | ⟨1, _⟩, _ => rfl
    | ⟨2, _⟩, _ => rfl
    | ⟨3, _⟩, hw => exact absurd rfl hw
  rw [(dat13 V c).arrAt_in w hin, A_eq13]

/-- The region as ONE host operation: `result`'s function of the input arrays into the result array. -/
def op : HloOp τ sig (Elt Ideal) :=
  StableHlo.ternary main_v11 main_v195 main_v198 main_v199
    (fun x y z => Cert.Spec.affine (M := 450000) (K := 3) (D := 128) x y z)

variable (m : (ℓ : Loc nD τ sig) → Buf (Elt Ideal) ℓ) (ρ : Dev nD → PrngReg)

/-- The buffer contents at the region's exit are the operation's result of the contents at its entry. -/
theorem exit_eq (c : Dev nD) : W36 (F := Ideal) m ρ c = op.result (W35 m ρ c) := by
  unfold W36
  refine Cert.Lib.RegionOp.withArrays_eq_result spec13 launch13.win.arr_inj c (W35 m ρ c) _ op 3 rfl ?_ ?_
  · show (dat13 (V35 m ρ) c).arrAt 3 cfg13.N = op.result (W35 m ρ c) (Proc.devRef .tc main_v199)
    refine (final (V35 m ρ) c).trans ?_
    unfold op
    exact (StableHlo.ternary_result main_v11 main_v195 main_v198 main_v199 _ _ _ _ _ _).symm
  · intro w hw
    exact kept (V35 m ρ) c w hw

end Cert.KernelIdeal.Region13

end
-- ==== Proof.Region14.lean ====
/-
  Region 14: the first stage of layer 4's node update on 50000 rows, 5000 rows to a block.

  Point t reads rows 5000·t … of the aggregated neighbour features and of the aggregated edge features, the two
  128 × 256 halves of the first linear map and the row of biases, and writes the same rows of the result. The blocks
  cover the result array (row r lies in the block of point r / 5000), and what a point writes is its block of ONE
  function of the whole arrays: (r, c) ↦ (∑ k, ax[r,k] · wa[k,c]) + (∑ k, ae[r,k] · wb[k,c]) + b[0,c]. The input arrays
  are never written back; so the region leaves what one host operation computing that function leaves.
-/
import proofs.«132731_j31379031065008_1_alg».proof.Proof.Gen.KernelIdeal.Frame
import proofs.«132731_j31379031065008_1_alg».proof.Proof.Spec
import proofs.«132731_j31379031065008_1_alg».proof.Proof.TwoProductsBody
import proofs.«132731_j31379031065008_1_alg».proof.Proof.LibRegionOp
import Idealize.ShloMosaic.Lib.Pipeline.Value

set_option maxRecDepth 16384

noncomputable section

namespace Cert.KernelIdeal.Region14

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the row-blocked windows move with the point, the others stay. -/
theorem index_maps : ∀ t : Fin cfg14.N,
    win14_0.index t (0 : Fin 2) = t.val
    ∧ win14_0.index t (1 : Fin 2) = 0
    ∧ win14_1.index t (0 : Fin 2) = t.val
    ∧ win14_1.index t (1 : Fin 2) = 0
    ∧ win14_2.index t (0 : Fin 2) = 0
    ∧ win14_2.index t (1 : Fin 2) = 0
    ∧ win14_3.index t (0 : Fin 2) = 0
    ∧ win14_3.index t (1 : Fin 2) = 0
    ∧ win14_4.index t (0 : Fin 2) = 0
    ∧ win14_4.index t (1 : Fin 2) = 0
    ∧ win14_5.index t (0 : Fin 2) = t.val
    ∧ win14_5.index t (1 : Fin 2) = 0 :=
  (by decide +kernel : ∀ t : Fin grid14.N, _)

/-- Input array 0 as the region finds it. -/
abbrev in0 (c : Dev nD) : S50000x128.Idx → EReal := V c main_v209
/-- Input array 1 as the region finds it. -/
abbrev in1 (c : Dev nD) : S50000x128.Idx → EReal := V c main_v212
/-- Input array 2 as the region finds it. -/
abbrev in2 (c : Dev nD) : S128x256.Idx → EReal := V c main_v214
/-- Input array 3 as the region finds it. -/
abbrev in3 (c : Dev nD) : S128x256.Idx → EReal := V c main_v216
/-- Input array 4 as the region finds it. -/
abbrev in4 (c : Dev nD) : S1x256.Idx → EReal := V c main_v219

/-- The whole-array function the region computes, of the arrays as the region finds them. -/
abbrev result (c : Dev nD) : S50000x256.Idx → EReal :=
  Cert.Spec.twoProducts (M := 50000) (K := 128) (D := 256) (in0 V c) (in1 V c) (in2 V c) (in3 V c) (in4 V c)

/-- What point `t` writes back is its block of `result`. -/
theorem flushed_eq (c : Dev nD) (t : Fin cfg14.N) :
    (dat14 (F := Ideal) V c).flushed 5 t = ((cfg14.win 5).blk t).view.read (Elt Ideal) (result V c) := by
  show (cfg14.win 5).cut (grid14.coords t) ((dat14 V c).after 5 t) = _
  rw [after14_5]
  unfold out14_5
  rw [View.canon_unit_zero origin_zero]
  simp only [View.ld_unit_zero (S := S5000x128) origin_zero, View.ld_unit_zero (S := S128x256) origin_zero, View.ld_unit_zero (S := S1x256) origin_zero]
  obtain ⟨e0, e1, e2, e3, e4, e5, e6, e7, e8, e9, e10, e11⟩ := index_maps t
  have hN : grid14.N = 10 := N_14
  have ht : t.val < 10 := hN ▸ t.isLt
  funext j
  obtain ⟨p, q, rfl⟩ : ∃ (p : Fin 5000) (q : Fin 256), j = ix2 p q := ⟨j 0, j 1, eq_ix2 j⟩
  have hp : p.val < 5000 := p.isLt
  let r : Fin 50000 := ⟨t.val * 5000 + p.val, by omega⟩
  have emb_out : ((cfg14.win 5).blk t).view.emb (ix2 p q) = (ix2 r q : S50000x256.Idx) := by
    funext ax; apply Fin.ext
    match ax with
    | ⟨0, _⟩ => show win14_5.index t (0 : Fin 2) * 5000 + 1 * p.val = t.val * 5000 + p.val; omega
    | ⟨1, _⟩ => show win14_5.index t (1 : Fin 2) * 256 + 1 * q.val = q.val; omega
  have rd_0 : ∀ k : Fin 128, iblk14 V c 0 t (ix2 p k) = in0 V c (ix2 r k) := fun k => by
    show V c main_v209 (((cfg14.win 0).blk t).view.emb (ix2 p k)) = _
    refine congrArg (V c main_v209) (funext fun ax => Fin.ext ?_)
    match ax with
    | ⟨0, _⟩ => show win14_0.index t (0 : Fin 2) * 5000 + 1 * p.val = t.val * 5000 + p.val; omega
    | ⟨1, _⟩ => show win14_0.index t (1 : Fin 2) * 128 + 1 * k.val = k.val; omega
  have rd_1 : ∀ k : Fin 128, iblk14 V c 1 t (ix2 p k) = in1 V c (ix2 r k) := fun k => by
    show V c main_v212 (((cfg14.win 1).blk t).view.emb (ix2 p k)) = _
    refine congrArg (V c main_v212) (funext fun ax => Fin.ext ?_)
    match ax with
    | ⟨0, _⟩ => show win14_1.index t (0 : Fin 2) * 5000 + 1 * p.val = t.val * 5000 + p.val; omega
    | ⟨1, _⟩ => show win14_1.index t (1 : Fin 2) * 128 + 1 * k.val = k.val; omega
  have rd_2 : ∀ k : Fin 128, iblk14 V c 2 t (ix2 k q) = in2 V c (ix2 k q) := fun k => by
    show V c main_v214 (((cfg14.win 2).blk t).view.emb (ix2 k q)) = _
    refine congrArg (V c main_v214) (funext fun ax => Fin.ext ?_)
    match ax with
    | ⟨0, _⟩ => show win14_2.index t (0 : Fin 2) * 128 + 1 * k.val = k.val; omega
    | ⟨1, _⟩ => show win14_2.index t (1 : Fin 2) * 256 + 1 * q.val = q.val; omega
  have rd_3 : ∀ k : Fin 128, iblk14 V c 3 t (ix2 k q) = in3 V c (ix2 k q) := fun k => by
    show V c main_v216 (((cfg14.win 3).blk t).view.emb (ix2 k q)) = _
    refine congrArg (V c main_v216) (funext fun ax => Fin.ext ?_)
    match ax with
    | ⟨0, _⟩ => show win14_3.index t (0 : Fin 2) * 128 + 1 * k.val = k.val; omega
    | ⟨1, _⟩ => show win14_3.index t (1 : Fin 2) * 256 + 1 * q.val = q.val; omega
  have rd_4 : iblk14 V c 4 t (ix2 (0 : Fin 1) q) = V c main_v219 (ix2 (0 : Fin 1) q : S1x256.Idx) := by
    show V c main_v219 (((cfg14.win 4).blk t).view.emb (ix2 (0 : Fin 1) q)) = _
    refine congrArg (V c main_v219) (funext fun ax => Fin.ext ?_)
    match ax with
    | ⟨0, _⟩ => show win14_4.index t (0 : Fin 2) * 1 + 1 * 0 = 0; omega
    | ⟨1, _⟩ => show win14_4.index t (1 : Fin 2) * 256 + 1 * q.val = q.val; omega
  show k14_pay1 (iblk14 V c 0 t) (iblk14 V c 1 t) (iblk14 V c 2 t) (iblk14 V c 3 t) (iblk14 V c 4 t) (ix2 p q)
    = result V c (((cfg14.win 5).blk t).view.emb (ix2 p q))
  rw [emb_out, Body1.k14_eq, Body1.twoProducts_pay, rd_4]
  show _ = ((∑ k : Fin 128, in0 V c (ix2 r k) * in2 V c (ix2 k q)) + (∑ k : Fin 128, in1 V c (ix2 r k) * in3 V c (ix2 k q)))
      + in4 V c (ix2 0 q)
  exact congrArg (· + in4 V c (ix2 0 q)) (congrArg₂ (· + ·) (Finset.sum_congr rfl fun k _ => by rw [rd_0 k, rd_2 k])
    (Finset.sum_congr rfl fun k _ => by rw [rd_1 k, rd_3 k]))

/-- An index of the result array is in point `t`'s block iff each coordinate is in the block's range. -/
theorem mem_blk (t : Fin cfg14.N) (i : S50000x256.Idx) :
    i ∈ ((cfg14.win 5).blk t).view.set ↔ ∀ ax : Fin 2, win14_5.index t ax * S5000x256.size ax ≤ (i ax).val
      ∧ (i ax).val < win14_5.index t ax * S5000x256.size ax + S5000x256.size ax := by
  show i ∈ ((View.whole main_v220).slice (win14_5.rect t)).set ↔ _
  rw [View.set_slice_whole, Rect.mem_set_unit]
  exact Iff.rfl

/-- Every entry of the result array is in the block of the point its row falls to. -/
theorem cover (i : S50000x256.Idx) :
    ∃ t : Fin cfg14.N, (cfg14.win 5).flush t = true ∧ i ∈ ((cfg14.win 5).blk t).view.set := by
  have hi0 : (i 0).val < 50000 := (i 0).isLt
  have hi1 : (i 1).val < 256 := (i 1).isLt
  have hN : grid14.N = 10 := N_14
  have hlt : (i 0).val / 5000 < grid14.N := by rw [hN]; omega
  obtain ⟨e0, e1, e2, e3, e4, e5, e6, e7, e8, e9, e10, e11⟩ := index_maps ⟨(i 0).val / 5000, hlt⟩
  have e_row : win14_5.index ⟨(i 0).val / 5000, hlt⟩ (0 : Fin 2) = (i 0).val / 5000 := e10
  refine ⟨⟨(i 0).val / 5000, hlt⟩, flush14_5 _, ?_⟩
  rw [mem_blk]
  intro ax
  match ax with
  | ⟨0, _⟩ =>
    show win14_5.index ⟨(i 0).val / 5000, hlt⟩ (0 : Fin 2) * 5000 ≤ (i 0).val
      ∧ (i 0).val < win14_5.index ⟨(i 0).val / 5000, hlt⟩ (0 : Fin 2) * 5000 + 5000
    omega
  | ⟨1, _⟩ =>
    show win14_5.index ⟨(i 0).val / 5000, hlt⟩ (1 : Fin 2) * 256 ≤ (i 1).val
      ∧ (i 1).val < win14_5.index ⟨(i 0).val / 5000, hlt⟩ (1 : Fin 2) * 256 + 256
    omega

/-- The result array after the run is `result`. -/
theorem final (c : Dev nD) : (dat14 (F := Ideal) V c).arrAt 5 cfg14.N = result V c :=
  (dat14 V c).arrAt_eq_of_cover 5 (result V c) (fun t _ => flushed_eq V c t) cover

/-- The input arrays end as the region found them: no point writes one back. -/
theorem kept (c : Dev nD) (w : Fin cfg14.W) (hw : w ≠ 5) :
    (dat14 (F := Ideal) V c).arrAt w cfg14.N = V c (Pipeline.arrRef spec14 w) := by
  have hin : (cfg14.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, hw => exact absurd rfl hw
  rw [(dat14 V c).arrAt_in w hin, A_eq14]

/-- The region as ONE host operation: `result`'s function of the input arrays into the result array. -/
def op : HloOp τ sig (Elt Ideal) :=
  Cert.Lib.RegionOp.op5 main_v209 main_v212 main_v214 main_v216 main_v219 main_v220
    (fun a b c d e => Cert.Spec.twoProducts (M := 50000) (K := 128) (D := 256) a b c d e) (by decide) ⟨by decide, rfl⟩

variable (m : (ℓ : Loc nD τ sig) → Buf (Elt Ideal) ℓ) (ρ : Dev nD → PrngReg)

/-- The buffer contents at the region's exit are the operation's result of the contents at its entry. -/
theorem exit_eq (c : Dev nD) : W38 (F := Ideal) m ρ c = op.result (W37 m ρ c) := by
  unfold W38
  refine Cert.Lib.RegionOp.withArrays_eq_result spec14 launch14.win.arr_inj c (W37 m ρ c) _ op 5 rfl ?_ ?_
  · show (dat14 (V37 m ρ) c).arrAt 5 cfg14.N = op.result (W37 m ρ c) (Proc.devRef .tc main_v220)
    refine (final (V37 m ρ) c).trans ?_
    unfold op
    rw [Cert.Lib.RegionOp.op5_result']
  · intro w hw
    exact kept (V37 m ρ) c w hw

end Cert.KernelIdeal.Region14

end
-- ==== Proof.Region15.lean ====
/-
  Region 15: the second stage of layer 4's node update on 50000 rows, 5000 rows to a block.

  Point t reads rows 5000·t … of the first stage's output z, the rows of column statistics (mean, variance), of scale
  and shift, the 256 × 128 second linear map and its row of biases, and writes the same rows of the result. The blocks
  cover the result array, and what a point writes is its block of ONE function of the whole arrays: with
  act[r,k] = max (g[0,k] · (z[r,k] − mean[0,k]) · rsqrt (var[0,k] + ε) + β[0,k]) 0, entry (r, c) ↦ (∑ k, act[r,k] · w[k,c]) + b[0,c].
  The input arrays are never written back; so the region leaves what one host operation computing that function leaves.
-/
import proofs.«132731_j31379031065008_1_alg».proof.Proof.Gen.KernelIdeal.Frame
import proofs.«132731_j31379031065008_1_alg».proof.Proof.Spec
import proofs.«132731_j31379031065008_1_alg».proof.Proof.NormProductBody
import proofs.«132731_j31379031065008_1_alg».proof.Proof.LibRegionOp
import Idealize.ShloMosaic.Lib.Pipeline.Value

set_option maxRecDepth 16384

noncomputable section

namespace Cert.KernelIdeal.Region15

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the row-blocked windows move with the point, the others stay. -/
theorem index_maps : ∀ t : Fin cfg15.N,
    win15_0.index t (0 : Fin 2) = t.val
    ∧ win15_0.index t (1 : Fin 2) = 0
    ∧ win15_1.index t (0 : Fin 2) = 0
    ∧ win15_1.index t (1 : Fin 2) = 0
    ∧ win15_2.index t (0 : Fin 2) = 0
    ∧ win15_2.index t (1 : Fin 2) = 0
    ∧ win15_3.index t (0 : Fin 2) = 0
    ∧ win15_3.index t (1 : Fin 2) = 0
    ∧ win15_4.index t (0 : Fin 2) = 0
    ∧ win15_4.index t (1 : Fin 2) = 0
    ∧ win15_5.index t (0 : Fin 2) = 0
    ∧ win15_5.index t (1 : Fin 2) = 0
    ∧ win15_6.index t (0 : Fin 2) = 0
    ∧ win15_6.index t (1 : Fin 2) = 0
    ∧ win15_7.index t (0 : Fin 2) = t.val
    ∧ win15_7.index t (1 : Fin 2) = 0 :=
  (by decide +kernel : ∀ t : Fin grid15.N, _)

/-- Input array 0 as the region finds it. -/
abbrev in0 (c : Dev nD) : S50000x256.Idx → EReal := V c main_v220
/-- Input array 1 as the region finds it. -/
abbrev in1 (c : Dev nD) : S1x256.Idx → EReal := V c main_v233
/-- Input array 2 as the region finds it. -/
abbrev in2 (c : Dev nD) : S1x256.Idx → EReal := V c main_v234
/-- Input array 3 as the region finds it. -/
abbrev in3 (c : Dev nD) : S1x256.Idx → EReal := V c main_v235
/-- Input array 4 as the region finds it. -/
abbrev in4 (c : Dev nD) : S1x256.Idx → EReal := V c main_v236
/-- Input array 5 as the region finds it. -/
abbrev in5 (c : Dev nD) : S256x128.Idx → EReal := V c main_v230
/-- Input array 6 as the region finds it. -/
abbrev in6 (c : Dev nD) : S1x128.Idx → EReal := V c main_v237

/-- The whole-array function the region computes, of the arrays as the region finds them. -/
abbrev result (c : Dev nD) : S50000x128.Idx → EReal :=
  Cert.Spec.normProduct (M := 50000) (K := 256) (D := 128) Cert.Spec.eps Cert.Spec.zero (in0 V c) (in1 V c) (in2 V c) (in3 V c) (in4 V c) (in5 V c) (in6 V c)

/-- What point `t` writes back is its block of `result`. -/
theorem flushed_eq (c : Dev nD) (t : Fin cfg15.N) :
    (dat15 (F := Ideal) V c).flushed 7 t = ((cfg15.win 7).blk t).view.read (Elt Ideal) (result V c) := by
  show (cfg15.win 7).cut (grid15.coords t) ((dat15 V c).after 7 t) = _
  rw [after15_7]
  unfold out15_7
  rw [View.canon_unit_zero origin_zero]
  simp only [View.ld_unit_zero (S := S5000x256) origin_zero, View.ld_unit_zero (S := S1x256) origin_zero, View.ld_unit_zero (S := S256x128) origin_zero, View.ld_unit_zero (S := S1x128) origin_zero]
  obtain ⟨e0, e1, e2, e3, e4, e5, e6, e7, e8, e9, e10, e11, e12, e13, e14, e15⟩ := index_maps t
  have hN : grid15.N = 10 := N_15
  have ht : t.val < 10 := hN ▸ t.isLt
  funext j
  obtain ⟨p, q, rfl⟩ : ∃ (p : Fin 5000) (q : Fin 128), j = ix2 p q := ⟨j 0, j 1, eq_ix2 j⟩
  have hp : p.val < 5000 := p.isLt
  let r : Fin 50000 := ⟨t.val * 5000 + p.val, by omega⟩
  have emb_out : ((cfg15.win 7).blk t).view.emb (ix2 p q) = (ix2 r q : S50000x128.Idx) := by
    funext ax; apply Fin.ext
    match ax with
    | ⟨0, _⟩ => show win15_7.index t (0 : Fin 2) * 5000 + 1 * p.val = t.val * 5000 + p.val; omega
    | ⟨1, _⟩ => show win15_7.index t (1 : Fin 2) * 128 + 1 * q.val = q.val; omega
  have rd_0 : ∀ k : Fin 256, iblk15 V c 0 t (ix2 p k) = in0 V c (ix2 r k) := fun k => by
    show V c main_v220 (((cfg15.win 0).blk t).view.emb (ix2 p k)) = _
    refine congrArg (V c main_v220) (funext fun ax => Fin.ext ?_)
    match ax with
    | ⟨0, _⟩ => show win15_0.index t (0 : Fin 2) * 5000 + 1 * p.val = t.val * 5000 + p.val; omega
    | ⟨1, _⟩ => show win15_0.index t (1 : Fin 2) * 256 + 1 * k.val = k.val; omega
  have rd_1 : ∀ k : Fin 256, iblk15 V c 1 t (ix2 (0 : Fin 1) k) = V c main_v233 (ix2 (0 : Fin 1) k : S1x256.Idx) := fun k => by
    show V c main_v233 (((cfg15.win 1).blk t).view.emb (ix2 (0 : Fin 1) k)) = _
    refine congrArg (V c main_v233) (funext fun ax => Fin.ext ?_)
    match ax with
    | ⟨0, _⟩ => show win15_1.index t (0 : Fin 2) * 1 + 1 * 0 = 0; omega
    | ⟨1, _⟩ => show win15_1.index t (1 : Fin 2) * 256 + 1 * k.val = k.val; omega
  have rd_2 : ∀ k : Fin 256, iblk15 V c 2 t (ix2 (0 : Fin 1) k) = V c main_v234 (ix2 (0 : Fin 1) k : S1x256.Idx) := fun k => by
    show V c main_v234 (((cfg15.win 2).blk t).view.emb (ix2 (0 : Fin 1) k)) = _
    refine congrArg (V c main_v234) (funext fun ax => Fin.ext ?_)
    match ax with
    | ⟨0, _⟩ => show win15_2.index t (0 : Fin 2) * 1 + 1 * 0 = 0; omega
    | ⟨1, _⟩ => show win15_2.index t (1 : Fin 2) * 256 + 1 * k.val = k.val; omega
  have rd_3 : ∀ k : Fin 256, iblk15 V c 3 t (ix2 (0 : Fin 1) k) = V c main_v235 (ix2 (0 : Fin 1) k : S1x256.Idx) := fun k => by
    show V c main_v235 (((cfg15.win 3).blk t).view.emb (ix2 (0 : Fin 1) k)) = _
    refine congrArg (V c main_v235) (funext fun ax => Fin.ext ?_)
    match ax with
    | ⟨0, _⟩ => show win15_3.index t (0 : Fin 2) * 1 + 1 * 0 = 0; omega
    | ⟨1, _⟩ => show win15_3.index t (1 : Fin 2) * 256 + 1 * k.val = k.val; omega
  have rd_4 : ∀ k : Fin 256, iblk15 V c 4 t (ix2 (0 : Fin 1) k) = V c main_v236 (ix2 (0 : Fin 1) k : S1x256.Idx) := fun k => by
    show V c main_v236 (((cfg15.win 4).blk t).view.emb (ix2 (0 : Fin 1) k)) = _
    refine congrArg (V c main_v236) (funext fun ax => Fin.ext ?_)
    match ax with
    | ⟨0, _⟩ => show win15_4.index t (0 : Fin 2) * 1 + 1 * 0 = 0; omega
    | ⟨1, _⟩ => show win15_4.index t (1 : Fin 2) * 256 + 1 * k.val = k.val; omega
  have rd_5 : ∀ k : Fin 256, iblk15 V c 5 t (ix2 k q) = in5 V c (ix2 k q) := fun k => by
    show V c main_v230 (((cfg15.win 5).blk t).view.emb (ix2 k q)) = _
    refine congrArg (V c main_v230) (funext fun ax => Fin.ext ?_)
    match ax with
    | ⟨0, _⟩ => show win15_5.index t (0 : Fin 2) * 256 + 1 * k.val = k.val; omega
    | ⟨1, _⟩ => show win15_5.index t (1 : Fin 2) * 128 + 1 * q.val = q.val; omega
  have rd_6 : iblk15 V c 6 t (ix2 (0 : Fin 1) q) = V c main_v237 (ix2 (0 : Fin 1) q : S1x128.Idx) := by
    show V c main_v237 (((cfg15.win 6).blk t).view.emb (ix2 (0 : Fin 1) q)) = _
    refine congrArg (V c main_v237) (funext fun ax => Fin.ext ?_)
    match ax with
    | ⟨0, _⟩ => show win15_6.index t (0 : Fin 2) * 1 + 1 * 0 = 0; omega
    | ⟨1, _⟩ => show win15_6.index t (1 : Fin 2) * 128 + 1 * q.val = q.val; omega
  show k15_pay1 (iblk15 V c 0 t) (iblk15 V c 2 t) (iblk15 V c 3 t) (iblk15 V c 1 t) (iblk15 V c 4 t) (iblk15 V c 5 t) (iblk15 V c 6 t) (ix2 p q)
    = result V c (((cfg15.win 7).blk t).view.emb (ix2 p q))
  rw [emb_out, Body2.normProduct_pay, rd_6]
  show _ = (∑ k : Fin 256, Cert.Spec.normAct Cert.Spec.eps Cert.Spec.zero (in0 V c) (in1 V c) (in2 V c) (in3 V c) (in4 V c) r k * in5 V c (ix2 k q)) + in6 V c (ix2 0 q)
  refine congrArg (· + in6 V c (ix2 0 q)) (Finset.sum_congr rfl fun k _ => ?_)
  unfold Body2.act Cert.Spec.normAct
  rw [rd_0 k, rd_1 k, rd_2 k, rd_3 k, rd_4 k, rd_5 k]

/-- An index of the result array is in point `t`'s block iff each coordinate is in the block's range. -/
theorem mem_blk (t : Fin cfg15.N) (i : S50000x128.Idx) :
    i ∈ ((cfg15.win 7).blk t).view.set ↔ ∀ ax : Fin 2, win15_7.index t ax * S5000x128.size ax ≤ (i ax).val
      ∧ (i ax).val < win15_7.index t ax * S5000x128.size ax + S5000x128.size ax := by
  show i ∈ ((View.whole main_v238).slice (win15_7.rect t)).set ↔ _
  rw [View.set_slice_whole, Rect.mem_set_unit]
  exact Iff.rfl

/-- Every entry of the result array is in the block of the point its row falls to. -/
theorem cover (i : S50000x128.Idx) :
    ∃ t : Fin cfg15.N, (cfg15.win 7).flush t = true ∧ i ∈ ((cfg15.win 7).blk t).view.set := by
  have hi0 : (i 0).val < 50000 := (i 0).isLt
  have hi1 : (i 1).val < 128 := (i 1).isLt
  have hN : grid15.N = 10 := N_15
  have hlt : (i 0).val / 5000 < grid15.N := by rw [hN]; omega
  obtain ⟨e0, e1, e2, e3, e4, e5, e6, e7, e8, e9, e10, e11, e12, e13, e14, e15⟩ := index_maps ⟨(i 0).val / 5000, hlt⟩
  have e_row : win15_7.index ⟨(i 0).val / 5000, hlt⟩ (0 : Fin 2) = (i 0).val / 5000 := e14
  refine ⟨⟨(i 0).val / 5000, hlt⟩, flush15_7 _, ?_⟩
  rw [mem_blk]
  intro ax
  match ax with
  | ⟨0, _⟩ =>
    show win15_7.index ⟨(i 0).val / 5000, hlt⟩ (0 : Fin 2) * 5000 ≤ (i 0).val
      ∧ (i 0).val < win15_7.index ⟨(i 0).val / 5000, hlt⟩ (0 : Fin 2) * 5000 + 5000
    omega
  | ⟨1, _⟩ =>
    show win15_7.index ⟨(i 0).val / 5000, hlt⟩ (1 : Fin 2) * 128 ≤ (i 1).val
      ∧ (i 1).val < win15_7.index ⟨(i 0).val / 5000, hlt⟩ (1 : Fin 2) * 128 + 128
    omega

/-- The result array after the run is `result`. -/
theorem final (c : Dev nD) : (dat15 (F := Ideal) V c).arrAt 7 cfg15.N = result V c :=
  (dat15 V c).arrAt_eq_of_cover 7 (result V c) (fun t _ => flushed_eq V c t) cover

/-- The input arrays end as the region found them: no point writes one back. -/
theorem kept (c : Dev nD) (w : Fin cfg15.W) (hw : w ≠ 7) :
    (dat15 (F := Ideal) V c).arrAt w cfg15.N = V c (Pipeline.arrRef spec15 w) := by
  have hin : (cfg15.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, hw => exact absurd rfl hw
  rw [(dat15 V c).arrAt_in w hin, A_eq15]

/-- The region as ONE host operation: `result`'s function of the input arrays into the result array. -/
def op : HloOp τ sig (Elt Ideal) :=
  Cert.Lib.RegionOp.op7 main_v220 main_v233 main_v234 main_v235 main_v236 main_v230 main_v237 main_v238
    (fun z mn vr g β w b => Cert.Spec.normProduct (M := 50000) (K := 256) (D := 128) Cert.Spec.eps Cert.Spec.zero z mn vr g β w b) (by decide) ⟨by decide, rfl⟩

variable (m : (ℓ : Loc nD τ sig) → Buf (Elt Ideal) ℓ) (ρ : Dev nD → PrngReg)

/-- The buffer contents at the region's exit are the operation's result of the contents at its entry. -/
theorem exit_eq (c : Dev nD) : W42 (F := Ideal) m ρ c = op.result (W41 m ρ c) := by
  unfold W42
  refine Cert.Lib.RegionOp.withArrays_eq_result spec15 launch15.win.arr_inj c (W41 m ρ c) _ op 7 rfl ?_ ?_
  · show (dat15 (V41 m ρ) c).arrAt 7 cfg15.N = op.result (W41 m ρ c) (Proc.devRef .tc main_v238)
    refine (final (V41 m ρ) c).trans ?_
    unfold op
    rw [Cert.Lib.RegionOp.op7_result']
  · intro w hw
    exact kept (V41 m ρ) c w hw

end Cert.KernelIdeal.Region15

end
-- ==== Proof.KLayer4.lean ====
/-
  Layer 4 of the kernel program, read off the fold of its host stretches and of its three regions taken as single
  operations: the edge embeddings, the first linear stage of the aggregates, and the layer's output, each as the
  shared term of the buffers' contents when the layer is entered; and the buffers the layer leaves alone (the index
  arrays, the extended edge features and the parameters).
-/
import proofs.«132731_j31379031065008_1_alg».proof.Proof.Region13
import proofs.«132731_j31379031065008_1_alg».proof.Proof.Region14
import proofs.«132731_j31379031065008_1_alg».proof.Proof.Region15
import proofs.«132731_j31379031065008_1_alg».proof.Proof.KShared
import proofs.«132731_j31379031065008_1_alg».proof.Proof.KRead
import proofs.«132731_j31379031065008_1_alg».proof.Proof.Canon

set_option maxRecDepth 16384
set_option maxHeartbeats 4000000

noncomputable section

namespace Cert.KernelIdeal.Layer4

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- What the edge stage (its parameter slices and its region) leaves alone. -/
theorem keeps_edge (c : Dev nD) :
    W36 (F := Ideal) m ρ c (Proc.devRef .tc main_v193) = W34 m ρ c (Proc.devRef .tc main_v193)
    ∧ W36 (F := Ideal) m ρ c (Proc.devRef .tc main_v3) = W34 m ρ c (Proc.devRef .tc main_v3)
    ∧ W36 (F := Ideal) m ρ c (Proc.devRef .tc main_v6) = W34 m ρ c (Proc.devRef .tc main_v6)
    ∧ W36 (F := Ideal) m ρ c (Proc.devRef .tc main_v11) = W34 m ρ c (Proc.devRef .tc main_v11)
    ∧ W36 (F := Ideal) m ρ c (Proc.devRef .tc main_arg3) = W34 m ρ c (Proc.devRef .tc main_arg3)
    ∧ W36 (F := Ideal) m ρ c (Proc.devRef .tc main_arg4) = W34 m ρ c (Proc.devRef .tc main_arg4)
    ∧ W36 (F := Ideal) m ρ c (Proc.devRef .tc main_arg5) = W34 m ρ c (Proc.devRef .tc main_arg5)
    ∧ W36 (F := Ideal) m ρ c (Proc.devRef .tc main_arg6) = W34 m ρ c (Proc.devRef .tc main_arg6)
    ∧ W36 (F := Ideal) m ρ c (Proc.devRef .tc main_arg7) = W34 m ρ c (Proc.devRef .tc main_arg7)
    ∧ W36 (F := Ideal) m ρ c (Proc.devRef .tc main_arg8) = W34 m ρ c (Proc.devRef .tc main_arg8)
    ∧ W36 (F := Ideal) m ρ c (Proc.devRef .tc main_arg9) = W34 m ρ c (Proc.devRef .tc main_arg9)
    ∧ W36 (F := Ideal) m ρ c (Proc.devRef .tc main_arg10) = W34 m ρ c (Proc.devRef .tc main_arg10)
    ∧ W36 (F := Ideal) m ρ c (Proc.devRef .tc main_arg11) = W34 m ρ c (Proc.devRef .tc main_arg11)
    ∧ W36 (F := Ideal) m ρ c (Proc.devRef .tc main_arg12) = W34 m ρ c (Proc.devRef .tc main_arg12) := by
  rw [Region13.exit_eq]
  unfold W35
  unfold Region13.op
  simp only [hostOps13]
  refine ⟨?_, ?_, ?_, ?_, ?_, ?_, ?_, ?_, ?_, ?_, ?_, ?_, ?_, ?_⟩ <;> kernel_read

/-- The edge embeddings. -/
theorem eemb_val (c : Dev nD) :
    W36 (F := Ideal) m ρ c (Proc.devRef .tc main_v199) = Shared.eembTerm 4 (W34 m ρ c (Proc.devRef .tc main_v11)) (W34 m ρ c (Proc.devRef .tc main_arg5)) (W34 m ρ c (Proc.devRef .tc main_arg6)) := by
  rw [Region13.exit_eq]
  unfold W35
  unfold Region13.op
  simp only [hostOps13]
  kernel_read
  unfold Shared.eembTerm
  exact Cert.Spec.affine_congr rfl (Cert.Canon.mat_of_slice (4 : Fin 5) _ _ _) (Cert.Canon.row_of_slice (4 : Fin 5) _ _ _ _)

/-- What the aggregation and the first linear stage leave alone. -/
theorem keeps_first (c : Dev nD) :
    W38 (F := Ideal) m ρ c (Proc.devRef .tc main_v3) = W36 m ρ c (Proc.devRef .tc main_v3)
    ∧ W38 (F := Ideal) m ρ c (Proc.devRef .tc main_v6) = W36 m ρ c (Proc.devRef .tc main_v6)
    ∧ W38 (F := Ideal) m ρ c (Proc.devRef .tc main_v11) = W36 m ρ c (Proc.devRef .tc main_v11)
    ∧ W38 (F := Ideal) m ρ c (Proc.devRef .tc main_arg3) = W36 m ρ c (Proc.devRef .tc main_arg3)
    ∧ W38 (F := Ideal) m ρ c (Proc.devRef .tc main_arg4) = W36 m ρ c (Proc.devRef .tc main_arg4)
    ∧ W38 (F := Ideal) m ρ c (Proc.devRef .tc main_arg5) = W36 m ρ c (Proc.devRef .tc main_arg5)
    ∧ W38 (F := Ideal) m ρ c (Proc.devRef .tc main_arg6) = W36 m ρ c (Proc.devRef .tc main_arg6)
    ∧ W38 (F := Ideal) m ρ c (Proc.devRef .tc main_arg7) = W36 m ρ c (Proc.devRef .tc main_arg7)
    ∧ W38 (F := Ideal) m ρ c (Proc.devRef .tc main_arg8) = W36 m ρ c (Proc.devRef .tc main_arg8)
    ∧ W38 (F := Ideal) m ρ c (Proc.devRef .tc main_arg9) = W36 m ρ c (Proc.devRef .tc main_arg9)
    ∧ W38 (F := Ideal) m ρ c (Proc.devRef .tc main_arg10) = W36 m ρ c (Proc.devRef .tc main_arg10)
    ∧ W38 (F := Ideal) m ρ c (Proc.devRef .tc main_arg11) = W36 m ρ c (Proc.devRef .tc main_arg11)
    ∧ W38 (F := Ideal) m ρ c (Proc.devRef .tc main_arg12) = W36 m ρ c (Proc.devRef .tc main_arg12) := by
  rw [Region14.exit_eq]
  unfold W37
  unfold Region14.op
  simp only [hostOps14]
  refine ⟨?_, ?_, ?_, ?_, ?_, ?_, ?_, ?_, ?_, ?_, ?_, ?_, ?_⟩ <;> kernel_read

/-- The first linear stage of the two aggregates. -/
theorem z_val (c : Dev nD) :
    W38 (F := Ideal) m ρ c (Proc.devRef .tc main_v220) = Shared.zTerm 4 (W34 m ρ c (Proc.devRef .tc main_v193)) (W34 m ρ c (Proc.devRef .tc main_v3)) (W34 m ρ c (Proc.devRef .tc main_v6)) (W34 m ρ c (Proc.devRef .tc main_v11)) (W34 m ρ c (Proc.devRef .tc main_arg5)) (W34 m ρ c (Proc.devRef .tc main_arg6)) (W34 m ρ c (Proc.devRef .tc main_arg7)) (W34 m ρ c (Proc.devRef .tc main_arg8)) := by
  rw [Region14.exit_eq]
  unfold W37
  unfold Region14.op
  simp only [hostOps14]
  kernel_read
  obtain ⟨k_v193, k_v3, k_v6, k_v11, k_arg3, k_arg4, k_arg5, k_arg6, k_arg7, k_arg8, k_arg9, k_arg10, k_arg11, k_arg12⟩ := keeps_edge m ρ c
  rw [eemb_val m ρ c, k_v193, k_v3, k_v6, k_arg7, k_arg8]
  unfold Shared.zTerm
  exact Cert.Spec.twoProducts_congr rfl rfl (Cert.Canon.matTop_of_slice (R := 128) (4 : Fin 5) _ _ _) (Cert.Canon.matBot_of_slice (R := 128) (4 : Fin 5) _ _ _) (Cert.Canon.row_of_slice (4 : Fin 5) _ _ _ _)

/-- What the statistics and the second stage leave alone. -/
theorem keeps_second (c : Dev nD) :
    W42 (F := Ideal) m ρ c (Proc.devRef .tc main_v3) = W38 m ρ c (Proc.devRef .tc main_v3)
    ∧ W42 (F := Ideal) m ρ c (Proc.devRef .tc main_v6) = W38 m ρ c (Proc.devRef .tc main_v6)
    ∧ W42 (F := Ideal) m ρ c (Proc.devRef .tc main_v11) = W38 m ρ c (Proc.devRef .tc main_v11)
    ∧ W42 (F := Ideal) m ρ c (Proc.devRef .tc main_arg3) = W38 m ρ c (Proc.devRef .tc main_arg3)
    ∧ W42 (F := Ideal) m ρ c (Proc.devRef .tc main_arg4) = W38 m ρ c (Proc.devRef .tc main_arg4)
    ∧ W42 (F := Ideal) m ρ c (Proc.devRef .tc main_arg5) = W38 m ρ c (Proc.devRef .tc main_arg5)
    ∧ W42 (F := Ideal) m ρ c (Proc.devRef .tc main_arg6) = W38 m ρ c (Proc.devRef .tc main_arg6)
    ∧ W42 (F := Ideal) m ρ c (Proc.devRef .tc main_arg7) = W38 m ρ c (Proc.devRef .tc main_arg7)
    ∧ W42 (F := Ideal) m ρ c (Proc.devRef .tc main_arg8) = W38 m ρ c (Proc.devRef .tc main_arg8)
    ∧ W42 (F := Ideal) m ρ c (Proc.devRef .tc main_arg9) = W38 m ρ c (Proc.devRef .tc main_arg9)
    ∧ W42 (F := Ideal) m ρ c (Proc.devRef .tc main_arg10) = W38 m ρ c (Proc.devRef .tc main_arg10)
    ∧ W42 (F := Ideal) m ρ c (Proc.devRef .tc main_arg11) = W38 m ρ c (Proc.devRef .tc main_arg11)
    ∧ W42 (F := Ideal) m ρ c (Proc.devRef .tc main_arg12) = W38 m ρ c (Proc.devRef .tc main_arg12) := by
  rw [Region15.exit_eq]
  unfold W41 W40 W39
  unfold Region15.op
  simp only [hostOps15, hostOps15_1, hostOps15_2]
  refine ⟨?_, ?_, ?_, ?_, ?_, ?_, ?_, ?_, ?_, ?_, ?_, ?_, ?_⟩ <;> kernel_read

/-- The layer's output. -/
theorem out_val (c : Dev nD) :
    W42 (F := Ideal) m ρ c (Proc.devRef .tc main_v238)
      = Shared.outLast 4 (Shared.zTerm 4 (W34 m ρ c (Proc.devRef .tc main_v193)) (W34 m ρ c (Proc.devRef .tc main_v3)) (W34 m ρ c (Proc.devRef .tc main_v6)) (W34 m ρ c (Proc.devRef .tc main_v11)) (W34 m ρ c (Proc.devRef .tc main_arg5)) (W34 m ρ c (Proc.devRef .tc main_arg6)) (W34 m ρ c (Proc.devRef .tc main_arg7)) (W34 m ρ c (Proc.devRef .tc main_arg8)))
          (W34 m ρ c (Proc.devRef .tc main_arg9)) (W34 m ρ c (Proc.devRef .tc main_arg10)) (W34 m ρ c (Proc.devRef .tc main_arg11)) (W34 m ρ c (Proc.devRef .tc main_arg12)) := by
  rw [Region15.exit_eq]
  unfold W41 W40 W39
  unfold Region15.op
  simp only [hostOps15, hostOps15_1, hostOps15_2]
  kernel_read
  obtain ⟨a_v193, a_v3, a_v6, a_v11, a_arg3, a_arg4, a_arg5, a_arg6, a_arg7, a_arg8, a_arg9, a_arg10, a_arg11, a_arg12⟩ := keeps_edge m ρ c
  obtain ⟨b_v3, b_v6, b_v11, b_arg3, b_arg4, b_arg5, b_arg6, b_arg7, b_arg8, b_arg9, b_arg10, b_arg11, b_arg12⟩ := keeps_first m ρ c
  rw [z_val m ρ c, b_arg9, b_arg10, b_arg11, b_arg12, a_arg9, a_arg10, a_arg11, a_arg12]
  unfold Shared.outLast
  exact Cert.Spec.normProduct_congr rfl (Cert.Canon.row_of_vec _ _) (Cert.Canon.row_of_vec _ _) (Cert.Canon.row_of_slice (4 : Fin 5) _ _ _ _) (Cert.Canon.row_of_slice (4 : Fin 5) _ _ _ _) (Cert.Canon.mat_of_slice (4 : Fin 5) _ _ _) (Cert.Canon.row_of_slice (4 : Fin 5) _ _ _ _)

/-- What the whole layer leaves alone. -/
theorem keeps (c : Dev nD) :
    W42 (F := Ideal) m ρ c (Proc.devRef .tc main_v3) = W34 m ρ c (Proc.devRef .tc main_v3)
    ∧ W42 (F := Ideal) m ρ c (Proc.devRef .tc main_v6) = W34 m ρ c (Proc.devRef .tc main_v6)
    ∧ W42 (F := Ideal) m ρ c (Proc.devRef .tc main_v11) = W34 m ρ c (Proc.devRef .tc main_v11)
    ∧ W42 (F := Ideal) m ρ c (Proc.devRef .tc main_arg3) = W34 m ρ c (Proc.devRef .tc main_arg3)
    ∧ W42 (F := Ideal) m ρ c (Proc.devRef .tc main_arg4) = W34 m ρ c (Proc.devRef .tc main_arg4)
    ∧ W42 (F := Ideal) m ρ c (Proc.devRef .tc main_arg5) = W34 m ρ c (Proc.devRef .tc main_arg5)
    ∧ W42 (F := Ideal) m ρ c (Proc.devRef .tc main_arg6) = W34 m ρ c (Proc.devRef .tc main_arg6)
    ∧ W42 (F := Ideal) m ρ c (Proc.devRef .tc main_arg7) = W34 m ρ c (Proc.devRef .tc main_arg7)
    ∧ W42 (F := Ideal) m ρ c (Proc.devRef .tc main_arg8) = W34 m ρ c (Proc.devRef .tc main_arg8)
    ∧ W42 (F := Ideal) m ρ c (Proc.devRef .tc main_arg9) = W34 m ρ c (Proc.devRef .tc main_arg9)
    ∧ W42 (F := Ideal) m ρ c (Proc.devRef .tc main_arg10) = W34 m ρ c (Proc.devRef .tc main_arg10)
    ∧ W42 (F := Ideal) m ρ c (Proc.devRef .tc main_arg11) = W34 m ρ c (Proc.devRef .tc main_arg11)
    ∧ W42 (F := Ideal) m ρ c (Proc.devRef .tc main_arg12) = W34 m ρ c (Proc.devRef .tc main_arg12) := by
  obtain ⟨a_v193, a_v3, a_v6, a_v11, a_arg3, a_arg4, a_arg5, a_arg6, a_arg7, a_arg8, a_arg9, a_arg10, a_arg11, a_arg12⟩ := keeps_edge m ρ c
  obtain ⟨b_v3, b_v6, b_v11, b_arg3, b_arg4, b_arg5, b_arg6, b_arg7, b_arg8, b_arg9, b_arg10, b_arg11, b_arg12⟩ := keeps_first m ρ c
  obtain ⟨d_v3, d_v6, d_v11, d_arg3, d_arg4, d_arg5, d_arg6, d_arg7, d_arg8, d_arg9, d_arg10, d_arg11, d_arg12⟩ := keeps_second m ρ c
  exact ⟨d_v3.trans (b_v3.trans a_v3), d_v6.trans (b_v6.trans a_v6), d_v11.trans (b_v11.trans a_v11), d_arg3.trans (b_arg3.trans a_arg3), d_arg4.trans (b_arg4.trans a_arg4), d_arg5.trans (b_arg5.trans a_arg5), d_arg6.trans (b_arg6.trans a_arg6), d_arg7.trans (b_arg7.trans a_arg7), d_arg8.trans (b_arg8.trans a_arg8), d_arg9.trans (b_arg9.trans a_arg9), d_arg10.trans (b_arg10.trans a_arg10), d_arg11.trans (b_arg11.trans a_arg11), d_arg12.trans (b_arg12.trans a_arg12)⟩

end Cert.KernelIdeal.Layer4

end
-- ==== Proof.RefPre.lean ====
/- What the layers leave alone, and what the lines before the first layer compute: every layer leaves the edge lists,
   the extended edge attributes and the arguments as they were; the first fifteen operations leave the arguments as
   they were and produce the two edge lists and the edge attributes with the self loops appended. -/
import proofs.«132731_j31379031065008_1_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The buffers no layer writes -/

/-- The two edge lists, the extended edge attributes, and @main's arguments. -/
abbrev keepRefs : List (Ref sig .tc) :=
  [main_v3, main_v6, main_v11, main_arg0, main_arg1, main_arg2, main_arg3, main_arg4, main_arg5, main_arg6, main_arg7, main_arg8, main_arg9, main_arg10, main_arg11, main_arg12]

/-- An operation whose one written buffer is `y`, none of those, writes none of them. -/
theorem nwK {op : HloOp τ sig (Elt F)} (y : Ref sig .tc) (hw : op.writes = {Proc.devRef .tc y}) (hy : y ∉ keepRefs) :
    ∀ r ∈ keepRefs, Proc.devRef (τ := τ) .tc r ∉ op.writes := fun r hr hm => by
  rw [hw, Finset.mem_singleton] at hm
  exact hy (Proc.devRef_injective _ hm ▸ hr)

/-- An operation writes none of them. -/
abbrev Keeps (op : HloOp τ sig (Elt F)) : Prop := ∀ r ∈ keepRefs, Proc.devRef (τ := τ) .tc r ∉ op.writes

set_option maxRecDepth 8192 in
theorem keeps_l0a : (l0a : List (HloOp τ sig (Elt F))).Forall Keeps :=
  ⟨nwK main_v12 rfl (by decide), nwK main_v13 rfl (by decide), nwK main_v14 rfl (by decide), nwK main_v15 rfl (by decide),
    nwK main_v16 rfl (by decide), nwK main_v17 rfl (by decide), nwK main_v18 rfl (by decide), nwK main_v19 rfl (by decide),
    nwK main_v20 rfl (by decide), nwK main_v21 rfl (by decide), nwK main_v22 rfl (by decide), nwK main_v23 rfl (by decide),
    nwK main_c_1 rfl (by decide), nwK main_v24 rfl (by decide), nwK main_v25 rfl (by decide), nwK main_c_2 rfl (by decide),
    nwK main_v26 rfl (by decide), nwK main_v27 rfl (by decide), nwK main_v28 rfl (by decide), nwK main_v29 rfl (by decide),
    nwK main_v30 rfl (by decide), nwK main_cst_3 rfl (by decide), nwK main_v31 rfl (by decide), nwK main_v32 rfl (by decide),
    nwK main_v33 rfl (by decide), nwK main_cst_4 rfl (by decide), nwK main_v34 rfl (by decide), nwK main_v35 rfl (by decide),
    nwK main_v36 rfl (by decide), nwK main_v37 rfl (by decide), nwK main_v38 rfl (by decide), nwK main_v39 rfl (by decide),
    nwK main_v40 rfl (by decide), nwK main_v41 rfl (by decide), nwK main_v42 rfl (by decide), nwK main_v43 rfl (by decide),
    nwK main_v44 rfl (by decide), nwK main_v45 rfl (by decide), nwK main_cst_5 rfl (by decide), nwK main_v46 rfl (by decide),
    nwK main_cst_6 rfl (by decide), nwK main_v47 rfl (by decide), nwK main_v48 rfl (by decide), nwK main_c_7 rfl (by decide),
    nwK main_call0.cst.ref rfl (by decide), nwK main_call0.v0.ref rfl (by decide), nwK main_call0.v1.ref rfl (by decide), nwK main_call0.cst_0.ref rfl (by decide),
    nwK main_call0.v2.ref rfl (by decide), nwK main_call0.v3.ref rfl (by decide), nwK main_call0.v4.ref rfl (by decide), nwK main_call0.v5.ref rfl (by decide),
    nwK main_call0.v6.ref rfl (by decide), nwK main_call0.v7.ref rfl (by decide), nwK main_call0.cst_1.ref rfl (by decide), nwK main_call0.v8.ref rfl (by decide),
    nwK main_call0.cst_2.ref rfl (by decide), nwK main_call0.v9.ref rfl (by decide), nwK main_call0.v10.ref rfl (by decide), nwK main_call0.v11.ref rfl (by decide),
    nwK main_call0.cst_3.ref rfl (by decide), nwK main_call0.v12.ref rfl (by decide), nwK main_call0.cst_4.ref rfl (by decide), nwK main_call0.call0.v0.ref rfl (by decide),
    nwK main_call0.call0.v1.ref rfl (by decide), nwK main_call0.call0.v2.ref rfl (by decide)⟩

set_option maxRecDepth 8192 in
theorem keeps_l0b : (l0b : List (HloOp τ sig (Elt F))).Forall Keeps :=
  ⟨nwK main_v50 rfl (by decide), nwK main_v51 rfl (by decide), nwK main_v52 rfl (by decide), nwK main_v53 rfl (by decide),
    nwK main_v54 rfl (by decide), nwK main_v55 rfl (by decide), nwK main_v56 rfl (by decide), nwK main_v57 rfl (by decide),
    nwK main_cst_8 rfl (by decide), nwK main_v58 rfl (by decide), nwK main_v59 rfl (by decide), nwK main_v60 rfl (by decide),
    nwK main_v61 rfl (by decide), nwK main_v62 rfl (by decide), nwK main_v63 rfl (by decide), nwK main_v64 rfl (by decide),
    nwK main_v65 rfl (by decide), nwK main_v66 rfl (by decide), nwK main_v67 rfl (by decide), nwK main_v68 rfl (by decide),
    nwK main_call1.cst.ref rfl (by decide), nwK main_call1.v0.ref rfl (by decide), nwK main_call1.v1.ref rfl (by decide), nwK main_v70 rfl (by decide),
    nwK main_v71 rfl (by decide), nwK main_v72 rfl (by decide), nwK main_v73 rfl (by decide), nwK main_v74 rfl (by decide),
    nwK main_v75 rfl (by decide), nwK main_v76 rfl (by decide), nwK main_v77 rfl (by decide), nwK main_call2.cst.ref rfl (by decide),
    nwK main_call2.v0.ref rfl (by decide), nwK main_call2.v1.ref rfl (by decide)⟩

set_option maxRecDepth 8192 in
theorem keeps_l1a : (l1a : List (HloOp τ sig (Elt F))).Forall Keeps :=
  ⟨nwK main_v79 rfl (by decide), nwK main_v80 rfl (by decide), nwK main_v81 rfl (by decide), nwK main_v82 rfl (by decide),
    nwK main_v83 rfl (by decide), nwK main_v84 rfl (by decide), nwK main_v85 rfl (by decide), nwK main_v86 rfl (by decide),
    nwK main_c_9 rfl (by decide), nwK main_v87 rfl (by decide), nwK main_v88 rfl (by decide), nwK main_c_10 rfl (by decide),
    nwK main_v89 rfl (by decide), nwK main_v90 rfl (by decide), nwK main_v91 rfl (by decide), nwK main_v92 rfl (by decide),
    nwK main_v93 rfl (by decide), nwK main_cst_11 rfl (by decide), nwK main_v94 rfl (by decide), nwK main_v95 rfl (by decide),
    nwK main_v96 rfl (by decide), nwK main_cst_12 rfl (by decide), nwK main_v97 rfl (by decide), nwK main_v98 rfl (by decide),
    nwK main_v99 rfl (by decide), nwK main_v100 rfl (by decide), nwK main_v101 rfl (by decide), nwK main_v102 rfl (by decide),
    nwK main_v103 rfl (by decide), nwK main_v104 rfl (by decide)⟩

set_option maxRecDepth 8192 in
theorem keeps_l1b : (l1b : List (HloOp τ sig (Elt F))).Forall Keeps :=
  ⟨nwK main_v105 rfl (by decide), nwK main_v106 rfl (by decide), nwK main_v107 rfl (by decide), nwK main_v108 rfl (by decide),
    nwK main_cst_13 rfl (by decide), nwK main_v109 rfl (by decide), nwK main_cst_14 rfl (by decide), nwK main_v110 rfl (by decide),
    nwK main_v111 rfl (by decide), nwK main_c_15 rfl (by decide), nwK main_call3.cst.ref rfl (by decide), nwK main_call3.v0.ref rfl (by decide),
    nwK main_call3.v1.ref rfl (by decide), nwK main_call3.cst_0.ref rfl (by decide), nwK main_call3.v2.ref rfl (by decide), nwK main_call3.v3.ref rfl (by decide),
    nwK main_call3.v4.ref rfl (by decide), nwK main_call3.v5.ref rfl (by decide), nwK main_call3.v6.ref rfl (by decide), nwK main_call3.v7.ref rfl (by decide),
    nwK main_call3.cst_1.ref rfl (by decide), nwK main_call3.v8.ref rfl (by decide), nwK main_call3.cst_2.ref rfl (by decide), nwK main_call3.v9.ref rfl (by decide),
    nwK main_call3.v10.ref rfl (by decide), nwK main_call3.v11.ref rfl (by decide), nwK main_call3.cst_3.ref rfl (by decide), nwK main_call3.v12.ref rfl (by decide),
    nwK main_call3.cst_4.ref rfl (by decide), nwK main_call3.call0.v0.ref rfl (by decide), nwK main_call3.call0.v1.ref rfl (by decide), nwK main_call3.call0.v2.ref rfl (by decide),
    nwK main_v113 rfl (by decide), nwK main_v114 rfl (by decide), nwK main_v115 rfl (by decide), nwK main_v116 rfl (by decide),
    nwK main_v117 rfl (by decide), nwK main_v118 rfl (by decide), nwK main_v119 rfl (by decide), nwK main_v120 rfl (by decide),
    nwK main_cst_16 rfl (by decide), nwK main_v121 rfl (by decide), nwK main_v122 rfl (by decide), nwK main_v123 rfl (by decide),
    nwK main_v124 rfl (by decide), nwK main_v125 rfl (by decide), nwK main_v126 rfl (by decide), nwK main_v127 rfl (by decide),
    nwK main_v128 rfl (by decide), nwK main_v129 rfl (by decide), nwK main_v130 rfl (by decide), nwK main_v131 rfl (by decide),
    nwK main_call4.cst.ref rfl (by decide), nwK main_call4.v0.ref rfl (by decide), nwK main_call4.v1.ref rfl (by decide), nwK main_v133 rfl (by decide),
    nwK main_v134 rfl (by decide), nwK main_v135 rfl (by decide), nwK main_v136 rfl (by decide), nwK main_v137 rfl (by decide),
    nwK main_v138 rfl (by decide), nwK main_v139 rfl (by decide), nwK main_v140 rfl (by decide), nwK main_call5.cst.ref rfl (by decide),
    nwK main_call5.v0.ref rfl (by decide), nwK main_call5.v1.ref rfl (by decide)⟩

set_option maxRecDepth 8192 in
theorem keeps_l2a : (l2a : List (HloOp τ sig (Elt F))).Forall Keeps :=
  ⟨nwK main_v142 rfl (by decide), nwK main_v143 rfl (by decide), nwK main_v144 rfl (by decide), nwK main_v145 rfl (by decide),
    nwK main_v146 rfl (by decide), nwK main_v147 rfl (by decide), nwK main_v148 rfl (by decide), nwK main_v149 rfl (by decide),
    nwK main_c_17 rfl (by decide), nwK main_v150 rfl (by decide), nwK main_v151 rfl (by decide), nwK main_c_18 rfl (by decide),
    nwK main_v152 rfl (by decide), nwK main_v153 rfl (by decide), nwK main_v154 rfl (by decide), nwK main_v155 rfl (by decide),
    nwK main_v156 rfl (by decide), nwK main_cst_19 rfl (by decide), nwK main_v157 rfl (by decide)⟩

set_option maxRecDepth 8192 in
theorem keeps_l2b : (l2b : List (HloOp τ sig (Elt F))).Forall Keeps :=
  ⟨nwK main_v158 rfl (by decide), nwK main_v159 rfl (by decide), nwK main_cst_20 rfl (by decide), nwK main_v160 rfl (by decide),
    nwK main_v161 rfl (by decide), nwK main_v162 rfl (by decide), nwK main_v163 rfl (by decide), nwK main_v164 rfl (by decide),
    nwK main_v165 rfl (by decide), nwK main_v166 rfl (by decide), nwK main_v167 rfl (by decide), nwK main_v168 rfl (by decide),
    nwK main_v169 rfl (by decide), nwK main_v170 rfl (by decide), nwK main_v171 rfl (by decide), nwK main_cst_21 rfl (by decide),
    nwK main_v172 rfl (by decide), nwK main_cst_22 rfl (by decide), nwK main_v173 rfl (by decide), nwK main_v174 rfl (by decide),
    nwK main_c_23 rfl (by decide), nwK main_call6.cst.ref rfl (by decide), nwK main_call6.v0.ref rfl (by decide), nwK main_call6.v1.ref rfl (by decide),
    nwK main_call6.cst_0.ref rfl (by decide), nwK main_call6.v2.ref rfl (by decide), nwK main_call6.v3.ref rfl (by decide), nwK main_call6.v4.ref rfl (by decide),
    nwK main_call6.v5.ref rfl (by decide), nwK main_call6.v6.ref rfl (by decide), nwK main_call6.v7.ref rfl (by decide), nwK main_call6.cst_1.ref rfl (by decide),
    nwK main_call6.v8.ref rfl (by decide), nwK main_call6.cst_2.ref rfl (by decide), nwK main_call6.v9.ref rfl (by decide), nwK main_call6.v10.ref rfl (by decide),
    nwK main_call6.v11.ref rfl (by decide), nwK main_call6.cst_3.ref rfl (by decide), nwK main_call6.v12.ref rfl (by decide), nwK main_call6.cst_4.ref rfl (by decide),
    nwK main_call6.call0.v0.ref rfl (by decide), nwK main_call6.call0.v1.ref rfl (by decide), nwK main_call6.call0.v2.ref rfl (by decide), nwK main_v176 rfl (by decide),
    nwK main_v177 rfl (by decide), nwK main_v178 rfl (by decide), nwK main_v179 rfl (by decide), nwK main_v180 rfl (by decide),
    nwK main_v181 rfl (by decide), nwK main_v182 rfl (by decide), nwK main_v183 rfl (by decide), nwK main_cst_24 rfl (by decide),
    nwK main_v184 rfl (by decide), nwK main_v185 rfl (by decide), nwK main_v186 rfl (by decide), nwK main_v187 rfl (by decide),
    nwK main_v188 rfl (by decide), nwK main_v189 rfl (by decide), nwK main_v190 rfl (by decide), nwK main_v191 rfl (by decide),
    nwK main_v192 rfl (by decide), nwK main_v193 rfl (by decide), nwK main_v194 rfl (by decide), nwK main_call7.cst.ref rfl (by decide),
    nwK main_call7.v0.ref rfl (by decide), nwK main_call7.v1.ref rfl (by decide), nwK main_v196 rfl (by decide), nwK main_v197 rfl (by decide),
    nwK main_v198 rfl (by decide), nwK main_v199 rfl (by decide), nwK main_v200 rfl (by decide), nwK main_v201 rfl (by decide),
    nwK main_v202 rfl (by decide), nwK main_v203 rfl (by decide), nwK main_call8.cst.ref rfl (by decide), nwK main_call8.v0.ref rfl (by decide),
    nwK main_call8.v1.ref rfl (by decide)⟩

set_option maxRecDepth 8192 in
theorem keeps_l3a : (l3a : List (HloOp τ sig (Elt F))).Forall Keeps :=
  ⟨nwK main_v205 rfl (by decide), nwK main_v206 rfl (by decide), nwK main_v207 rfl (by decide), nwK main_v208 rfl (by decide),
    nwK main_v209 rfl (by decide), nwK main_v210 rfl (by decide), nwK main_v211 rfl (by decide), nwK main_v212 rfl (by decide)⟩

set_option maxRecDepth 8192 in
theorem keeps_l3b : (l3b : List (HloOp τ sig (Elt F))).Forall Keeps :=
  ⟨nwK main_c_25 rfl (by decide), nwK main_v213 rfl (by decide), nwK main_v214 rfl (by decide), nwK main_c_26 rfl (by decide),
    nwK main_v215 rfl (by decide), nwK main_v216 rfl (by decide), nwK main_v217 rfl (by decide), nwK main_v218 rfl (by decide),
    nwK main_v219 rfl (by decide), nwK main_cst_27 rfl (by decide), nwK main_v220 rfl (by decide), nwK main_v221 rfl (by decide),
    nwK main_v222 rfl (by decide), nwK main_cst_28 rfl (by decide), nwK main_v223 rfl (by decide), nwK main_v224 rfl (by decide),
    nwK main_v225 rfl (by decide), nwK main_v226 rfl (by decide), nwK main_v227 rfl (by decide), nwK main_v228 rfl (by decide),
    nwK main_v229 rfl (by decide), nwK main_v230 rfl (by decide), nwK main_v231 rfl (by decide), nwK main_v232 rfl (by decide),
    nwK main_v233 rfl (by decide), nwK main_v234 rfl (by decide), nwK main_cst_29 rfl (by decide), nwK main_v235 rfl (by decide),
    nwK main_cst_30 rfl (by decide), nwK main_v236 rfl (by decide), nwK main_v237 rfl (by decide), nwK main_c_31 rfl (by decide),
    nwK main_call9.cst.ref rfl (by decide), nwK main_call9.v0.ref rfl (by decide), nwK main_call9.v1.ref rfl (by decide), nwK main_call9.cst_0.ref rfl (by decide),
    nwK main_call9.v2.ref rfl (by decide), nwK main_call9.v3.ref rfl (by decide), nwK main_call9.v4.ref rfl (by decide), nwK main_call9.v5.ref rfl (by decide),
    nwK main_call9.v6.ref rfl (by decide), nwK main_call9.v7.ref rfl (by decide), nwK main_call9.cst_1.ref rfl (by decide), nwK main_call9.v8.ref rfl (by decide),
    nwK main_call9.cst_2.ref rfl (by decide), nwK main_call9.v9.ref rfl (by decide), nwK main_call9.v10.ref rfl (by decide), nwK main_call9.v11.ref rfl (by decide),
    nwK main_call9.cst_3.ref rfl (by decide), nwK main_call9.v12.ref rfl (by decide), nwK main_call9.cst_4.ref rfl (by decide), nwK main_call9.call0.v0.ref rfl (by decide),
    nwK main_call9.call0.v1.ref rfl (by decide), nwK main_call9.call0.v2.ref rfl (by decide), nwK main_v239 rfl (by decide), nwK main_v240 rfl (by decide),
    nwK main_v241 rfl (by decide), nwK main_v242 rfl (by decide), nwK main_v243 rfl (by decide), nwK main_v244 rfl (by decide),
    nwK main_v245 rfl (by decide), nwK main_v246 rfl (by decide), nwK main_cst_32 rfl (by decide), nwK main_v247 rfl (by decide),
    nwK main_v248 rfl (by decide), nwK main_v249 rfl (by decide), nwK main_v250 rfl (by decide), nwK main_v251 rfl (by decide),
    nwK main_v252 rfl (by decide), nwK main_v253 rfl (by decide), nwK main_v254 rfl (by decide), nwK main_v255 rfl (by decide),
    nwK main_v256 rfl (by decide), nwK main_v257 rfl (by decide), nwK main_call10.cst.ref rfl (by decide), nwK main_call10.v0.ref rfl (by decide),
    nwK main_call10.v1.ref rfl (by decide), nwK main_v259 rfl (by decide), nwK main_v260 rfl (by decide), nwK main_v261 rfl (by decide),
    nwK main_v262 rfl (by decide), nwK main_v263 rfl (by decide), nwK main_v264 rfl (by decide)⟩

set_option maxRecDepth 8192 in
theorem keeps_l3c : (l3c : List (HloOp τ sig (Elt F))).Forall Keeps :=
  ⟨nwK main_v265 rfl (by decide), nwK main_v266 rfl (by decide), nwK main_call11.cst.ref rfl (by decide), nwK main_call11.v0.ref rfl (by decide),
    nwK main_call11.v1.ref rfl (by decide)⟩

set_option maxRecDepth 8192 in
theorem keeps_l4a : (l4a : List (HloOp τ sig (Elt F))).Forall Keeps :=
  ⟨nwK main_v268 rfl (by decide), nwK main_v269 rfl (by decide), nwK main_v270 rfl (by decide), nwK main_v271 rfl (by decide),
    nwK main_v272 rfl (by decide), nwK main_v273 rfl (by decide), nwK main_v274 rfl (by decide), nwK main_v275 rfl (by decide),
    nwK main_c_33 rfl (by decide), nwK main_v276 rfl (by decide), nwK main_v277 rfl (by decide), nwK main_c_34 rfl (by decide),
    nwK main_v278 rfl (by decide), nwK main_v279 rfl (by decide), nwK main_v280 rfl (by decide), nwK main_v281 rfl (by decide),
    nwK main_v282 rfl (by decide), nwK main_cst_35 rfl (by decide), nwK main_v283 rfl (by decide), nwK main_v284 rfl (by decide),
    nwK main_v285 rfl (by decide), nwK main_cst_36 rfl (by decide), nwK main_v286 rfl (by decide), nwK main_v287 rfl (by decide),
    nwK main_v288 rfl (by decide), nwK main_v289 rfl (by decide), nwK main_v290 rfl (by decide), nwK main_v291 rfl (by decide),
    nwK main_v292 rfl (by decide), nwK main_v293 rfl (by decide), nwK main_v294 rfl (by decide), nwK main_v295 rfl (by decide),
    nwK main_v296 rfl (by decide), nwK main_v297 rfl (by decide), nwK main_cst_37 rfl (by decide), nwK main_v298 rfl (by decide),
    nwK main_cst_38 rfl (by decide), nwK main_v299 rfl (by decide), nwK main_v300 rfl (by decide), nwK main_c_39 rfl (by decide),
    nwK main_call12.cst.ref rfl (by decide), nwK main_call12.v0.ref rfl (by decide), nwK main_call12.v1.ref rfl (by decide), nwK main_call12.cst_0.ref rfl (by decide),
    nwK main_call12.v2.ref rfl (by decide), nwK main_call12.v3.ref rfl (by decide), nwK main_call12.v4.ref rfl (by decide), nwK main_call12.v5.ref rfl (by decide),
    nwK main_call12.v6.ref rfl (by decide), nwK main_call12.v7.ref rfl (by decide), nwK main_call12.cst_1.ref rfl (by decide), nwK main_call12.v8.ref rfl (by decide),
    nwK main_call12.cst_2.ref rfl (by decide), nwK main_call12.v9.ref rfl (by decide), nwK main_call12.v10.ref rfl (by decide), nwK main_call12.v11.ref rfl (by decide),
    nwK main_call12.cst_3.ref rfl (by decide), nwK main_call12.v12.ref rfl (by decide), nwK main_call12.cst_4.ref rfl (by decide), nwK main_call12.call0.v0.ref rfl (by decide),
    nwK main_call12.call0.v1.ref rfl (by decide), nwK main_call12.call0.v2.ref rfl (by decide), nwK main_v302 rfl (by decide), nwK main_v303 rfl (by decide),
    nwK main_v304 rfl (by decide), nwK main_v305 rfl (by decide), nwK main_v306 rfl (by decide), nwK main_v307 rfl (by decide),
    nwK main_v308 rfl (by decide), nwK main_v309 rfl (by decide), nwK main_cst_40 rfl (by decide), nwK main_v310 rfl (by decide),
    nwK main_v311 rfl (by decide), nwK main_v312 rfl (by decide), nwK main_v313 rfl (by decide), nwK main_v314 rfl (by decide),
    nwK main_v315 rfl (by decide), nwK main_v316 rfl (by decide)⟩

set_option maxRecDepth 8192 in
theorem keeps_l4b : (l4b : List (HloOp τ sig (Elt F))).Forall Keeps :=
  ⟨nwK main_v317 rfl (by decide), nwK main_v318 rfl (by decide), nwK main_v319 rfl (by decide), nwK main_v320 rfl (by decide),
    nwK main_call13.cst.ref rfl (by decide), nwK main_call13.v0.ref rfl (by decide), nwK main_call13.v1.ref rfl (by decide), nwK main_v322 rfl (by decide),
    nwK main_v323 rfl (by decide), nwK main_v324 rfl (by decide), nwK main_v325 rfl (by decide), nwK main_v326 rfl (by decide),
    nwK main_v327 rfl (by decide), nwK main_v328 rfl (by decide), nwK main_v329 rfl (by decide)⟩

/-- Layer 0 leaves the edge lists, the extended edge attributes and the arguments as they were. -/
theorem layer0_keep (V : Valuation τ sig (Elt F)) {r : Ref sig .tc} (hr : r ∈ keepRefs) :
    after layer0 V (Proc.devRef .tc r) = V (Proc.devRef .tc r) :=
  after_of_forall_not_mem layer0 V (List.forall_iff_forall_mem.1
    (List.Forall.imp (fun _ h => h r hr) (List.forall_append.2 ⟨keeps_l0a, keeps_l0b⟩)))

/-- Layer 1 leaves the edge lists, the extended edge attributes and the arguments as they were. -/
theorem layer1_keep (V : Valuation τ sig (Elt F)) {r : Ref sig .tc} (hr : r ∈ keepRefs) :
    after layer1 V (Proc.devRef .tc r) = V (Proc.devRef .tc r) :=
  after_of_forall_not_mem layer1 V (List.forall_iff_forall_mem.1
    (List.Forall.imp (fun _ h => h r hr) (List.forall_append.2 ⟨keeps_l1a, keeps_l1b⟩)))

/-- Layer 2 leaves the edge lists, the extended edge attributes and the arguments as they were. -/
theorem layer2_keep (V : Valuation τ sig (Elt F)) {r : Ref sig .tc} (hr : r ∈ keepRefs) :
    after layer2 V (Proc.devRef .tc r) = V (Proc.devRef .tc r) :=
  after_of_forall_not_mem layer2 V (List.forall_iff_forall_mem.1
    (List.Forall.imp (fun _ h => h r hr) (List.forall_append.2 ⟨keeps_l2a, keeps_l2b⟩)))

/-- Layer 3 leaves the edge lists, the extended edge attributes and the arguments as they were. -/
theorem layer3_keep (V : Valuation τ sig (Elt F)) {r : Ref sig .tc} (hr : r ∈ keepRefs) :
    after layer3 V (Proc.devRef .tc r) = V (Proc.devRef .tc r) :=
  after_of_forall_not_mem layer3 V (List.forall_iff_forall_mem.1
    (List.Forall.imp (fun _ h => h r hr) (List.forall_append.2 ⟨keeps_l3a, List.forall_append.2 ⟨keeps_l3b, keeps_l3c⟩⟩)))

/-- Layer 4 leaves the edge lists, the extended edge attributes and the arguments as they were. -/
theorem layer4_keep (V : Valuation τ sig (Elt F)) {r : Ref sig .tc} (hr : r ∈ keepRefs) :
    after layer4 V (Proc.devRef .tc r) = V (Proc.devRef .tc r) :=
  after_of_forall_not_mem layer4 V (List.forall_iff_forall_mem.1
    (List.Forall.imp (fun _ h => h r hr) (List.forall_append.2 ⟨keeps_l4a, keeps_l4b⟩)))

/-- The operations before the first layer leave the arguments as they were. -/
theorem opsPre_keep (V : Valuation τ sig (Elt F)) {r : Ref sig .tc} (hr : r ∈ argRefs) :
    after opsPre V (Proc.devRef .tc r) = V (Proc.devRef .tc r) :=
  after_of_forall_not_mem opsPre V (List.forall_iff_forall_mem.1 (good_opsPre.imp fun _ h => h.2.2 r hr))

/-! ## The edge lists and the edge attributes with the self loops appended

Each as the program's own operations compose: a row of the edge index flattened, then the node numbers; the edge
attributes, then one row per node that is zero but for a one in column 1. -/

/-- Two integer vectors end to end, as a function of the vectors. -/
def catI (a : IVec S400000 32) (b : IVec S50000 32) : IVec S450000 32 :=
  concatenate S450000 0 [⟨S400000, a⟩, ⟨S50000, b⟩] concatenates_S400000_S50000_S450000_d0
theorem catI_eq (a : IVec S400000 32) (b : IVec S50000 32) :
    concatenate S450000 0 [⟨S400000, a⟩, ⟨S50000, b⟩] concatenates_S400000_S50000_S450000_d0 = catI a b := rfl

/-- Two blocks of rows one above the other, as a function of the blocks. -/
def catF (a : FVec F S400000x3 .f32) (b : FVec F S50000x3 .f32) : FVec F S450000x3 .f32 :=
  concatenate S450000x3 0 [⟨S400000x3, a⟩, ⟨S50000x3, b⟩] concatenates_S400000x3_S50000x3_S450000x3_d0
theorem catF_eq (a : FVec F S400000x3 .f32) (b : FVec F S50000x3 .f32) :
    concatenate S450000x3 0 [⟨S400000x3, a⟩, ⟨S50000x3, b⟩] concatenates_S400000x3_S50000x3_S450000x3_d0 = catF a b := rfl

theorem pre_src (V : Valuation τ sig (Elt F)) :
    after (opsPre (F := F)) V (Proc.devRef .tc main_v3)
      = concatenate S450000 0
          [⟨S400000, fun i => shapeCast S400000 (extractStridedSlice S1x400000 ![0, 0] (V (Proc.devRef .tc main_arg1)) slices_S2x400000_S1x400000_0_0) shapeCasts_S1x400000_S400000 i⟩,
           ⟨S50000, iotaInDim S50000 32 0⟩] concatenates_S400000_S50000_S450000_d0 := by
  simp (disch := decide) only [after_cons, after_nil, catI_eq, catF_eq,
      nullary_result', unary_result', binary_result', ternary_result', reshape_result',
      nullary_result_ne', unary_result_ne', binary_result_ne', ternary_result_ne', reshape_result_ne']
  rfl

theorem pre_dst (V : Valuation τ sig (Elt F)) :
    after (opsPre (F := F)) V (Proc.devRef .tc main_v6)
      = concatenate S450000 0
          [⟨S400000, fun i => shapeCast S400000 (extractStridedSlice S1x400000 ![1, 0] (V (Proc.devRef .tc main_arg1)) slices_S2x400000_S1x400000_1_0) shapeCasts_S1x400000_S400000 i⟩,
           ⟨S50000, iotaInDim S50000 32 0⟩] concatenates_S400000_S50000_S450000_d0 := by
  simp (disch := decide) only [after_cons, after_nil, catI_eq, catF_eq,
      nullary_result', unary_result', binary_result', ternary_result', reshape_result',
      nullary_result_ne', unary_result_ne', binary_result_ne', ternary_result_ne', reshape_result_ne']
  rfl

theorem pre_ea (V : Valuation τ sig (Elt F)) :
    after (opsPre (F := F)) V (Proc.devRef .tc main_v11)
      = concatenate S450000x3 0
          [⟨S400000x3, V (Proc.devRef .tc main_arg2)⟩,
           ⟨S50000x3, Host.scatter scatter_S50000x3_S1_S50000_0_1_1_0 (fun _ b => b)
              (broadcastInDim S50000x3 ![] bcast_S_S50000x3 (constant S_ .f32 0x00000000#32))
              (broadcastInDim S1 ![] bcast_S_S1 (constantI S_ 32 1#32))
              (broadcastInDim S50000 ![] bcast_S_S50000 (constant S_ .f32 0x3F800000#32))⟩]
          concatenates_S400000x3_S50000x3_S450000x3_d0 := by
  simp (disch := decide) only [after_cons, after_nil, catI_eq, catF_eq,
      nullary_result', unary_result', binary_result', ternary_result', reshape_result',
      nullary_result_ne', unary_result_ne', binary_result_ne', ternary_result_ne', reshape_result_ne']
  rfl

end Cert.ReferenceIdeal.RefValue

end
-- ==== Proof.RefStages.lean ====
/- One layer's value as a term of its inputs: the neighbour sums, column mean and column variance as the program's own
   operations compose, and the three dense stages as the whole-array specifications at the layer's parameters. The
   program's spelling of each dense stage — products over slices of the stacked arguments, biases and statistics
   broadcast along the rows — is shown equal to the specification, entry by entry. -/
import proofs.«132731_j31379031065008_1_alg».proof.Proof.Gen.ReferenceIdeal
import proofs.«132731_j31379031065008_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The parts of a layer that are not dense products

The neighbour sum: rows of `h` gathered at the source indices (a negative index wrapped by the number of rows first),
then added into zeros at the destination indices; the edge embeddings added into zeros at the destination indices;
and a matrix's column mean and column variance. Each is the composition of the program's own operations, as they
stand. -/

/-- The source indices as a column, a negative one moved up by 50000. -/
def gatherIdx (src : IVec S450000 32) : IVec S450000x1 32 :=
  broadcastInDim S450000x1 ![0] bcast_S450000_S450000x1_0
    (select (cmpi .slt src (broadcastInDim S450000 ![] bcast_S_S450000 (constantI S_ 32 0#32)))
      (addi src (broadcastInDim S450000 ![] bcast_S_S450000 (constantI S_ 32 50000#32))) src)

/-- The rows of `h` at the source indices, added into zeros at the destination indices. -/
def aggX (h : FVec Ideal S50000x128 .f32) (src dst : IVec S450000 32) : FVec Ideal S50000x128 .f32 :=
  Host.scatterAdd (F := Ideal) scatter_S50000x128_S450000x1_S450000x128_1_0_0_1
    (broadcastInDim S50000x128 ![] bcast_S_S50000x128 (constant (F := Ideal) S_ .f32 0x00000000#32))
    (broadcastInDim S450000x1 ![0] bcast_S450000_S450000x1_0 dst)
    (Host.gather gather_S50000x128_S450000x1_S450000x128_1_0_n_n_0_1_1128 h (gatherIdx src))

/-- The edge embeddings added into zeros at the destination indices. -/
def aggE (e : FVec Ideal S450000x128 .f32) (dst : IVec S450000 32) : FVec Ideal S50000x128 .f32 :=
  Host.scatterAdd (F := Ideal) scatter_S50000x128_S450000x1_S450000x128_1_0_0_1
    (broadcastInDim S50000x128 ![] bcast_S_S50000x128 (constant (F := Ideal) S_ .f32 0x00000000#32))
    (broadcastInDim S450000x1 ![0] bcast_S450000_S450000x1_0 dst) e

/-- The column sums over 50000. -/
def colMean (z : FVec Ideal S50000x256 .f32) : FVec Ideal S256 .f32 :=
  Host.divf (F := Ideal) (Host.reduceAdd (F := Ideal) z (constant (F := Ideal) S_ .f32 0x00000000#32) reducesTo_S50000x256_S256_d0 h_S_)
    (broadcastInDim S256 ![] bcast_S_S256 (constant (F := Ideal) S_ .f32 0x47435000#32))

/-- The column variances: the column sums of the squared deviations from the column means, over `50000 − 0`, where
    that count is positive. -/
def colVar (z : FVec Ideal S50000x256 .f32) : FVec Ideal S256 .f32 :=
  select
    (broadcastInDim S256 ![] bcast_S_S256
      (cmpf (F := Ideal) .ogt (subf (constant (F := Ideal) S_ .f32 0x47435000#32) (sitofp (F := Ideal) .f32 (constantI S_ 32 0#32))) (constant (F := Ideal) S_ .f32 0x00000000#32)))
    (Host.divf (F := Ideal)
      (Host.reduceAdd
        (mulf
          (subf z (broadcastInDim S50000x256 ![0, 1] bcast_S1x256_S50000x256_0_1
            (Host.divf (F := Ideal) (broadcastInDim S1x256 ![1] bcast_S256_S1x256_1
                (Host.reduceAdd (F := Ideal) z (constant (F := Ideal) S_ .f32 0x00000000#32) reducesTo_S50000x256_S256_d0 h_S_))
              (broadcastInDim S1x256 ![] bcast_S_S1x256 (constant (F := Ideal) S_ .f32 0x47435000#32)))))
          (subf z (broadcastInDim S50000x256 ![0, 1] bcast_S1x256_S50000x256_0_1
            (Host.divf (F := Ideal) (broadcastInDim S1x256 ![1] bcast_S256_S1x256_1
                (Host.reduceAdd (F := Ideal) z (constant (F := Ideal) S_ .f32 0x00000000#32) reducesTo_S50000x256_S256_d0 h_S_))
              (broadcastInDim S1x256 ![] bcast_S_S1x256 (constant (F := Ideal) S_ .f32 0x47435000#32))))))
        (constant (F := Ideal) S_ .f32 0x00000000#32) reducesTo_S50000x256_S256_d0 h_S_)
      (broadcastInDim S256 ![] bcast_S_S256
        (subf (constant (F := Ideal) S_ .f32 0x47435000#32) (sitofp (F := Ideal) .f32 (constantI S_ 32 0#32)))))
    (broadcastInDim S256 ![] bcast_S_S256 (id (constant (F := Ideal) S_ .f32 0x7FC00000#32)))

/-! ## A layer's value -/

/-- Layer `l`'s first product: the neighbour sums of `h` and of the layer's edge embeddings through the two halves
    of the layer's first matrix, plus its biases. -/
def zOf (l : Fin 5) (h : FVec Ideal S50000x128 .f32) (src dst : IVec S450000 32) (ea : FVec Ideal S450000x3 .f32)
    (a5 : FVec Ideal S5x3x128 .f32) (a6 : FVec Ideal S5x128 .f32) (a7 : FVec Ideal S5x256x256 .f32) (a8 : FVec Ideal S5x256 .f32) :
    FVec Ideal S50000x256 .f32 :=
  Cert.Spec.twoProducts (M := 50000) (K := 128) (D := 256) (aggX h src dst)
    (aggE (Cert.Spec.affine (M := 450000) (K := 3) (D := 128) ea (Cert.Spec.layerMat a5 l) (Cert.Spec.layerRow a6 l)) dst)
    (Cert.Spec.layerMatTop a7 l) (Cert.Spec.layerMatBot a7 l) (Cert.Spec.layerRow a8 l)

/-- Layer `l`'s output, `l < 4`: the first product normalized by its own column statistics, rectified, through the
    layer's second matrix, plus its biases, rectified. -/
def layerOut (l : Fin 5) (h : FVec Ideal S50000x128 .f32) (src dst : IVec S450000 32) (ea : FVec Ideal S450000x3 .f32)
    (a5 : FVec Ideal S5x3x128 .f32) (a6 : FVec Ideal S5x128 .f32) (a7 : FVec Ideal S5x256x256 .f32) (a8 a9 a10 : FVec Ideal S5x256 .f32)
    (a11 : FVec Ideal S5x256x128 .f32) (a12 : FVec Ideal S5x128 .f32) : FVec Ideal S50000x128 .f32 :=
  Cert.Spec.normProductPos (M := 50000) (K := 256) (D := 128) Cert.Spec.eps Cert.Spec.zero (zOf l h src dst ea a5 a6 a7 a8)
    (Cert.Spec.asRow (colMean (zOf l h src dst ea a5 a6 a7 a8))) (Cert.Spec.asRow (colVar (zOf l h src dst ea a5 a6 a7 a8)))
    (Cert.Spec.layerRow a9 l) (Cert.Spec.layerRow a10 l) (Cert.Spec.layerMat a11 l) (Cert.Spec.layerRow a12 l)

/-- The last layer's output: the same without the final rectification. -/
def layerOutLast (l : Fin 5) (h : FVec Ideal S50000x128 .f32) (src dst : IVec S450000 32) (ea : FVec Ideal S450000x3 .f32)
    (a5 : FVec Ideal S5x3x128 .f32) (a6 : FVec Ideal S5x128 .f32) (a7 : FVec Ideal S5x256x256 .f32) (a8 a9 a10 : FVec Ideal S5x256 .f32)
    (a11 : FVec Ideal S5x256x128 .f32) (a12 : FVec Ideal S5x128 .f32) : FVec Ideal S50000x128 .f32 :=
  Cert.Spec.normProduct (M := 50000) (K := 256) (D := 128) Cert.Spec.eps Cert.Spec.zero (zOf l h src dst ea a5 a6 a7 a8)
    (Cert.Spec.asRow (colMean (zOf l h src dst ea a5 a6 a7 a8))) (Cert.Spec.asRow (colVar (zOf l h src dst ea a5 a6 a7 a8)))
    (Cert.Spec.layerRow a9 l) (Cert.Spec.layerRow a10 l) (Cert.Spec.layerMat a11 l) (Cert.Spec.layerRow a12 l)

/-! ## The dense stages as the program spells them, and each as its specification -/

/-- The input linear map as the program spells it. -/
def inRaw (x : FVec Ideal S50000x3 .f32) (w : FVec Ideal S3x128 .f32) (b : FVec Ideal S128 .f32) : FVec Ideal S50000x128 .f32 :=
  addf
    (Host.dotGeneral (F := Ideal) dot_S50000x3_S3x128_S50000x128_1_0_0_1_n_n none x w)
    (broadcastInDim S50000x128 ![0, 1] bcast_S1x128_S50000x128_0_1 (broadcastInDim S1x128 ![1] bcast_S128_S1x128_1 b))

theorem inRaw_eq (x : FVec Ideal S50000x3 .f32) (w : FVec Ideal S3x128 .f32) (b : FVec Ideal S128 .f32) :
    inRaw x w b = Cert.Spec.affine (M := 50000) (K := 3) (D := 128) x w (Cert.Spec.asRow b) := by
  funext j
  obtain ⟨r, c, rfl⟩ : ∃ r c, j = ix2 r c := ⟨j 0, j 1, eq_ix2 j⟩
  unfold inRaw Cert.Spec.affine
  rw [addf_apply]
  refine congrArg₂ (· + ·) ?_ ?_
  · simp only [Host.dotGeneral]
    rw [Ideal.dotGeneral_apply]
    rw [← Equiv.sum_comp (contrEquiv1 dot_S50000x3_S3x128_S50000x128_1_0_0_1_n_n 3 rfl rfl).symm]
    refine Finset.sum_congr rfl fun k _ => ?_
    show _ = x (ix2 r k) * w (ix2 k c)
    have hl : dot_S50000x3_S3x128_S50000x128_1_0_0_1_n_n.lhsIdx (ix2 r c) ((contrEquiv1 dot_S50000x3_S3x128_S50000x128_1_0_0_1_n_n 3 rfl rfl).symm k) = ix2 r k := by
      funext a; apply Fin.ext
      match a with
      | ⟨0, _⟩ => rfl
      | ⟨1, _⟩ => rfl
    have hr : dot_S50000x3_S3x128_S50000x128_1_0_0_1_n_n.rhsIdx (ix2 r c) ((contrEquiv1 dot_S50000x3_S3x128_S50000x128_1_0_0_1_n_n 3 rfl rfl).symm k) = ix2 k c := by
      funext a; apply Fin.ext
      match a with
      | ⟨0, _⟩ => rfl
      | ⟨1, _⟩ => rfl
    rw [hl, hr]
  · show _ = b (ix1 c)
    refine (broadcastInDim_apply _ _ _ (ix2 r c) (ix2 (0 : Fin 1) c) ?_).trans ?_
    · intro d
      match d with
      | ⟨0, _⟩ => rfl
      | ⟨1, _⟩ => rfl
    refine (broadcastInDim_apply _ _ _ (ix2 (0 : Fin 1) c) (ix1 c) ?_).trans rfl
    intro d
    match d with
    | ⟨0, _⟩ => rfl

/-- Layer 0's edge embedding as the program spells it. -/
def affRaw0 (a : FVec Ideal S450000x3 .f32) (w : FVec Ideal S5x3x128 .f32) (b : FVec Ideal S5x128 .f32) : FVec Ideal S450000x128 .f32 :=
  addf
    (Host.dotGeneral (F := Ideal) dot_S450000x3_S3x128_S450000x128_1_0_0_1_n_n none a
      (fun i => shapeCast S3x128 (extractStridedSlice S1x3x128 ![0, 0, 0] w slices_S5x3x128_S1x3x128_0_0_0) shapeCasts_S1x3x128_S3x128 i))
    (broadcastInDim S450000x128 ![0, 1] bcast_S1x128_S450000x128_0_1
      (broadcastInDim S1x128 ![1] bcast_S128_S1x128_1
        (fun i => shapeCast S128 (extractStridedSlice S1x128 ![0, 0] b slices_S5x128_S1x128_0_0) shapeCasts_S1x128_S128 i)))

/-- Layer 0's first product as the program spells it. -/
def twoRaw0 (ax ae : FVec Ideal S50000x128 .f32) (w : FVec Ideal S5x256x256 .f32) (b : FVec Ideal S5x256 .f32) : FVec Ideal S50000x256 .f32 :=
  addf
    (Host.dotGeneral (F := Ideal) dot_S50000x256_S256x256_S50000x256_1_0_0_1_n_n none
      (concatenate S50000x256 1 [⟨S50000x128, ax⟩, ⟨S50000x128, ae⟩] concatenates_S50000x128_S50000x128_S50000x256_d1)
      (fun i => shapeCast S256x256 (extractStridedSlice S1x256x256 ![0, 0, 0] w slices_S5x256x256_S1x256x256_0_0_0) shapeCasts_S1x256x256_S256x256 i))
    (broadcastInDim S50000x256 ![0, 1] bcast_S1x256_S50000x256_0_1
      (broadcastInDim S1x256 ![1] bcast_S256_S1x256_1
        (fun i => shapeCast S256 (extractStridedSlice S1x256 ![0, 0] b slices_S5x256_S1x256_0_0) shapeCasts_S1x256_S256 i)))

/-- Layer 0's normalization, positive part and second product as the program spells them. -/
def normRaw0 (z : FVec Ideal S50000x256 .f32) (mean var : FVec Ideal S256 .f32) (g β : FVec Ideal S5x256 .f32)
    (w : FVec Ideal S5x256x128 .f32) (b : FVec Ideal S5x128 .f32) : FVec Ideal S50000x128 .f32 :=
  addf
    (Host.dotGeneral (F := Ideal) dot_S50000x256_S256x128_S50000x128_1_0_0_1_n_n none
      (maximumf
        (addf
          (mulf
            (mulf
              (broadcastInDim S50000x256 ![0, 1] bcast_S1x256_S50000x256_0_1
                (broadcastInDim S1x256 ![1] bcast_S256_S1x256_1
                  (fun i => shapeCast S256 (extractStridedSlice S1x256 ![0, 0] g slices_S5x256_S1x256_0_0) shapeCasts_S1x256_S256 i)))
              (subf z (broadcastInDim S50000x256 ![0, 1] bcast_S1x256_S50000x256_0_1 (broadcastInDim S1x256 ![1] bcast_S256_S1x256_1 mean))))
            (broadcastInDim S50000x256 ![0, 1] bcast_S1x256_S50000x256_0_1
              (broadcastInDim S1x256 ![1] bcast_S256_S1x256_1
                (Host.rsqrt (F := Ideal) (addf var (broadcastInDim S256 ![] bcast_S_S256 (constant (F := Ideal) S_ .f32 0x3727C5AC#32)))))))
          (broadcastInDim S50000x256 ![0, 1] bcast_S1x256_S50000x256_0_1
            (broadcastInDim S1x256 ![1] bcast_S256_S1x256_1
              (fun i => shapeCast S256 (extractStridedSlice S1x256 ![0, 0] β slices_S5x256_S1x256_0_0) shapeCasts_S1x256_S256 i))))
        (broadcastInDim S50000x256 ![] bcast_S_S50000x256 (constant (F := Ideal) S_ .f32 0x00000000#32)))
      (fun i => shapeCast S256x128 (extractStridedSlice S1x256x128 ![0, 0, 0] w slices_S5x256x128_S1x256x128_0_0_0) shapeCasts_S1x256x128_S256x128 i))
    (broadcastInDim S50000x128 ![0, 1] bcast_S1x128_S50000x128_0_1
      (broadcastInDim S1x128 ![1] bcast_S128_S1x128_1
        (fun i => shapeCast S128 (extractStridedSlice S1x128 ![0, 0] b slices_S5x128_S1x128_0_0) shapeCasts_S1x128_S128 i)))

theorem affRaw0_eq (a : FVec Ideal S450000x3 .f32) (w : FVec Ideal S5x3x128 .f32) (b : FVec Ideal S5x128 .f32) :
    affRaw0 a w b = Cert.Spec.affine (M := 450000) (K := 3) (D := 128) a (Cert.Spec.layerMat w 0) (Cert.Spec.layerRow b 0) := by
  funext j
  obtain ⟨r, c, rfl⟩ : ∃ r c, j = ix2 r c := ⟨j 0, j 1, eq_ix2 j⟩
  unfold affRaw0 Cert.Spec.affine
  rw [addf_apply]
  refine congrArg₂ (· + ·) ?_ ?_
  · simp only [Host.dotGeneral]
    rw [Ideal.dotGeneral_apply]
    rw [← Equiv.sum_comp (contrEquiv1 dot_S450000x3_S3x128_S450000x128_1_0_0_1_n_n 3 rfl rfl).symm]
    refine Finset.sum_congr rfl fun k _ => ?_
    show _ = a (ix2 r k) * w (ix3 (0 : Fin 5) k c)
    have hl : dot_S450000x3_S3x128_S450000x128_1_0_0_1_n_n.lhsIdx (ix2 r c) ((contrEquiv1 dot_S450000x3_S3x128_S450000x128_1_0_0_1_n_n 3 rfl rfl).symm k) = ix2 r k := by
      funext a; apply Fin.ext
      match a with
      | ⟨0, _⟩ => rfl
      | ⟨1, _⟩ => rfl
    have hr : dot_S450000x3_S3x128_S450000x128_1_0_0_1_n_n.rhsIdx (ix2 r c) ((contrEquiv1 dot_S450000x3_S3x128_S450000x128_1_0_0_1_n_n 3 rfl rfl).symm k) = ix2 k c := by
      funext a; apply Fin.ext
      match a with
      | ⟨0, _⟩ => rfl
      | ⟨1, _⟩ => rfl
    rw [hl, hr]
    refine congrArg (a (ix2 r k) * ·) ?_
    refine (shapeCast_apply _ _ (ix2 k c) (ix3 (0 : Fin 1) k c) ?_).trans ?_
    · rw [Shape.rowMajor_val_three, Shape.rowMajor_val_two]
      show ((0 * 3 + k.val) * 128 + c.val) = k.val * 128 + c.val
      omega
    · refine (extractStridedSlice_apply _ _ _ (ix3 (0 : Fin 1) k c) (ix3 (0 : Fin 5) k c) ?_).trans rfl
      intro d
      match d with
      | ⟨0, _⟩ => rfl
      | ⟨1, _⟩ => show k.val = 0 + k.val; omega
      | ⟨2, _⟩ => show c.val = 0 + c.val; omega
  · show _ = b (ix2 (0 : Fin 5) c)
    refine (broadcastInDim_apply _ _ _ (ix2 r c) (ix2 (0 : Fin 1) c) ?_).trans ?_
    · intro d
      match d with
      | ⟨0, _⟩ => rfl
      | ⟨1, _⟩ => rfl
    refine (broadcastInDim_apply _ _ _ (ix2 (0 : Fin 1) c) (ix1 c) ?_).trans ?_
    · intro d
      match d with
      | ⟨0, _⟩ => rfl
    refine (shapeCast_apply _ _ (ix1 c) (ix2 (0 : Fin 1) c) ?_).trans ?_
    · rw [Shape.rowMajor_val_two, Shape.rowMajor_val_one]
      show 0 * 128 + c.val = c.val
      omega
    · refine (extractStridedSlice_apply _ _ _ (ix2 (0 : Fin 1) c) (ix2 (0 : Fin 5) c) ?_).trans rfl
      intro d
      match d with
      | ⟨0, _⟩ => rfl
      | ⟨1, _⟩ => show c.val = 0 + c.val; omega

theorem twoRaw0_eq (ax ae : FVec Ideal S50000x128 .f32) (w : FVec Ideal S5x256x256 .f32) (b : FVec Ideal S5x256 .f32) :
    twoRaw0 ax ae w b = Cert.Spec.twoProducts (M := 50000) (K := 128) (D := 256) ax ae
      (Cert.Spec.layerMatTop w 0) (Cert.Spec.layerMatBot w 0) (Cert.Spec.layerRow b 0) := by
  funext j
  obtain ⟨r, c, rfl⟩ : ∃ r c, j = ix2 r c := ⟨j 0, j 1, eq_ix2 j⟩
  unfold twoRaw0 Cert.Spec.twoProducts
  rw [addf_apply]
  refine congrArg₂ (· + ·) ?_ ?_
  · simp only [Host.dotGeneral]
    rw [Ideal.dotGeneral_apply]
    rw [← Equiv.sum_comp (contrEquiv1 dot_S50000x256_S256x256_S50000x256_1_0_0_1_n_n 256 rfl rfl).symm]
    refine (Cert.Spec.sum_halves 128 _).trans ?_
    refine congrArg₂ (· + ·) (Finset.sum_congr rfl fun k _ => ?_) (Finset.sum_congr rfl fun k _ => ?_)
    · show _ = ax (ix2 r k) * Cert.Spec.layerMatTop w 0 (ix2 k c)
      have hl : dot_S50000x256_S256x256_S50000x256_1_0_0_1_n_n.lhsIdx (ix2 r c) ((contrEquiv1 dot_S50000x256_S256x256_S50000x256_1_0_0_1_n_n 256 rfl rfl).symm (Fin.castAdd 128 k)) = ix2 r (Fin.castAdd 128 k) := by
        funext a; apply Fin.ext
        match a with
        | ⟨0, _⟩ => rfl
        | ⟨1, _⟩ => rfl
      have hr : dot_S50000x256_S256x256_S50000x256_1_0_0_1_n_n.rhsIdx (ix2 r c) ((contrEquiv1 dot_S50000x256_S256x256_S50000x256_1_0_0_1_n_n 256 rfl rfl).symm (Fin.castAdd 128 k)) = ix2 (Fin.castAdd 128 k) c := by
        funext a; apply Fin.ext
        match a with
        | ⟨0, _⟩ => rfl
        | ⟨1, _⟩ => rfl
      rw [hl, hr]
      refine congrArg₂ (· * ·) ?_ ?_
      · refine concatenate_pair_apply_left (1 : Fin S50000x256.rank) ax ae _ (ix2 r (Fin.castAdd 128 k)) rfl (ix2 r k) ?_
        intro d
        match d with
        | ⟨0, _⟩ => rfl
        | ⟨1, _⟩ => rfl
      · show _ = w (ix3 (0 : Fin 5) (Fin.castAdd 128 k) c)
        refine (shapeCast_apply _ _ (ix2 (Fin.castAdd 128 k) c) (ix3 (0 : Fin 1) (Fin.castAdd 128 k) c) ?_).trans ?_
        · rw [Shape.rowMajor_val_three, Shape.rowMajor_val_two]
          show ((0 * 256 + (Fin.castAdd 128 k).val) * 256 + c.val) = (Fin.castAdd 128 k).val * 256 + c.val
          omega
        · refine (extractStridedSlice_apply _ _ _ (ix3 (0 : Fin 1) (Fin.castAdd 128 k) c) (ix3 (0 : Fin 5) (Fin.castAdd 128 k) c) ?_).trans rfl
          intro d
          match d with
          | ⟨0, _⟩ => rfl
          | ⟨1, _⟩ => show (Fin.castAdd 128 k).val = 0 + (Fin.castAdd 128 k).val; omega
          | ⟨2, _⟩ => show c.val = 0 + c.val; omega
    · show _ = ae (ix2 r k) * Cert.Spec.layerMatBot w 0 (ix2 k c)
      have hl : dot_S50000x256_S256x256_S50000x256_1_0_0_1_n_n.lhsIdx (ix2 r c) ((contrEquiv1 dot_S50000x256_S256x256_S50000x256_1_0_0_1_n_n 256 rfl rfl).symm (Fin.natAdd 128 k)) = ix2 r (Fin.natAdd 128 k) := by
        funext a; apply Fin.ext
        match a with
        | ⟨0, _⟩ => rfl
        | ⟨1, _⟩ => rfl
      have hr : dot_S50000x256_S256x256_S50000x256_1_0_0_1_n_n.rhsIdx (ix2 r c) ((contrEquiv1 dot_S50000x256_S256x256_S50000x256_1_0_0_1_n_n 256 rfl rfl).symm (Fin.natAdd 128 k)) = ix2 (Fin.natAdd 128 k) c := by
        funext a; apply Fin.ext
        match a with
        | ⟨0, _⟩ => rfl
        | ⟨1, _⟩ => rfl
      rw [hl, hr]
      refine congrArg₂ (· * ·) ?_ ?_
      · refine concatenate_pair_apply_right (1 : Fin S50000x256.rank) ax ae _ (ix2 r (Fin.natAdd 128 k)) rfl rfl (ix2 r k) ?_ ?_
        · intro d
          match d with
          | ⟨0, _⟩ => exact fun _ => rfl
          | ⟨1, _⟩ => exact fun hne => absurd rfl hne
        · show k.val + 128 = 128 + k.val
          omega
      · show _ = w (ix3 (0 : Fin 5) (Fin.natAdd 128 k) c)
        refine (shapeCast_apply _ _ (ix2 (Fin.natAdd 128 k) c) (ix3 (0 : Fin 1) (Fin.natAdd 128 k) c) ?_).trans ?_
        · rw [Shape.rowMajor_val_three, Shape.rowMajor_val_two]
          show ((0 * 256 + (Fin.natAdd 128 k).val) * 256 + c.val) = (Fin.natAdd 128 k).val * 256 + c.val
          omega
        · refine (extractStridedSlice_apply _ _ _ (ix3 (0 : Fin 1) (Fin.natAdd 128 k) c) (ix3 (0 : Fin 5) (Fin.natAdd 128 k) c) ?_).trans rfl
          intro d
          match d with
          | ⟨0, _⟩ => rfl
          | ⟨1, _⟩ => show (Fin.natAdd 128 k).val = 0 + (Fin.natAdd 128 k).val; omega
          | ⟨2, _⟩ => show c.val = 0 + c.val; omega
  · show _ = b (ix2 (0 : Fin 5) c)
    refine (broadcastInDim_apply _ _ _ (ix2 r c) (ix2 (0 : Fin 1) c) ?_).trans ?_
    · intro d
      match d with
      | ⟨0, _⟩ => rfl
      | ⟨1, _⟩ => rfl
    refine (broadcastInDim_apply _ _ _ (ix2 (0 : Fin 1) c) (ix1 c) ?_).trans ?_
    · intro d
      match d with
      | ⟨0, _⟩ => rfl
    refine (shapeCast_apply _ _ (ix1 c) (ix2 (0 : Fin 1) c) ?_).trans ?_
    · rw [Shape.rowMajor_val_two, Shape.rowMajor_val_one]
      show 0 * 256 + c.val = c.val
      omega
    · refine (extractStridedSlice_apply _ _ _ (ix2 (0 : Fin 1) c) (ix2 (0 : Fin 5) c) ?_).trans rfl
      intro d
      match d with
      | ⟨0, _⟩ => rfl
      | ⟨1, _⟩ => show c.val = 0 + c.val; omega

theorem normRaw0_pos_eq (z : FVec Ideal S50000x256 .f32) (mean var : FVec Ideal S256 .f32) (g β : FVec Ideal S5x256 .f32)
    (w : FVec Ideal S5x256x128 .f32) (b : FVec Ideal S5x128 .f32) :
    maximumf (normRaw0 z mean var g β w b) (broadcastInDim S50000x128 ![] bcast_S_S50000x128 (constant (F := Ideal) S_ .f32 0x00000000#32))
      = Cert.Spec.normProductPos (M := 50000) (K := 256) (D := 128) Cert.Spec.eps Cert.Spec.zero z (Cert.Spec.asRow mean) (Cert.Spec.asRow var)
          (Cert.Spec.layerRow g 0) (Cert.Spec.layerRow β 0) (Cert.Spec.layerMat w 0) (Cert.Spec.layerRow b 0) := by
  funext j
  obtain ⟨r, c, rfl⟩ : ∃ r c, j = ix2 r c := ⟨j 0, j 1, eq_ix2 j⟩
  unfold Cert.Spec.normProductPos
  rw [maximumf_apply]
  refine congrArg₂ max ?_ rfl
  unfold normRaw0 Cert.Spec.normProduct
  rw [addf_apply]
  refine congrArg₂ (· + ·) ?_ ?_
  · simp only [Host.dotGeneral]
    rw [Ideal.dotGeneral_apply]
    rw [← Equiv.sum_comp (contrEquiv1 dot_S50000x256_S256x128_S50000x128_1_0_0_1_n_n 256 rfl rfl).symm]
    refine Finset.sum_congr rfl fun k _ => ?_
    show _ = Cert.Spec.normAct Cert.Spec.eps Cert.Spec.zero z (Cert.Spec.asRow mean) (Cert.Spec.asRow var)
      (Cert.Spec.layerRow g 0) (Cert.Spec.layerRow β 0) r k * Cert.Spec.layerMat w 0 (ix2 k c)
    have hl : dot_S50000x256_S256x128_S50000x128_1_0_0_1_n_n.lhsIdx (ix2 r c) ((contrEquiv1 dot_S50000x256_S256x128_S50000x128_1_0_0_1_n_n 256 rfl rfl).symm k) = ix2 r k := by
      funext a; apply Fin.ext
      match a with
      | ⟨0, _⟩ => rfl
      | ⟨1, _⟩ => rfl
    have hr : dot_S50000x256_S256x128_S50000x128_1_0_0_1_n_n.rhsIdx (ix2 r c) ((contrEquiv1 dot_S50000x256_S256x128_S50000x128_1_0_0_1_n_n 256 rfl rfl).symm k) = ix2 k c := by
      funext a; apply Fin.ext
      match a with
      | ⟨0, _⟩ => rfl
      | ⟨1, _⟩ => rfl
    rw [hl, hr]
    refine congrArg₂ (· * ·) ?_ ?_
    · unfold Cert.Spec.normAct
      rw [maximumf_apply, addf_apply, mulf_apply, mulf_apply, subf_apply]
      refine congrArg₂ max (congrArg₂ (· + ·) (congrArg₂ (· * ·) (congrArg₂ (· * ·) ?_ (congrArg₂ (· - ·) rfl ?_)) ?_) ?_) rfl
      · show _ = g (ix2 (0 : Fin 5) k)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans ?_
        · intro d
          match d with
          | ⟨0, _⟩ => rfl
        refine (shapeCast_apply _ _ (ix1 k) (ix2 (0 : Fin 1) k) ?_).trans ?_
        · rw [Shape.rowMajor_val_two, Shape.rowMajor_val_one]
          show 0 * 256 + k.val = k.val
          omega
        · refine (extractStridedSlice_apply _ _ _ (ix2 (0 : Fin 1) k) (ix2 (0 : Fin 5) k) ?_).trans rfl
          intro d
          match d with
          | ⟨0, _⟩ => rfl
          | ⟨1, _⟩ => show k.val = 0 + k.val; omega
      · show _ = mean (ix1 k)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans rfl
        intro d
        match d with
        | ⟨0, _⟩ => rfl
      · show _ = FloatOps.rsqrt (F := Ideal) (φ := .f32) (var (ix1 k) + Cert.Spec.eps)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans rfl
        intro d
        match d with
        | ⟨0, _⟩ => rfl
      · show _ = β (ix2 (0 : Fin 5) k)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans ?_
        · intro d
          match d with
          | ⟨0, _⟩ => rfl
        refine (shapeCast_apply _ _ (ix1 k) (ix2 (0 : Fin 1) k) ?_).trans ?_
        · rw [Shape.rowMajor_val_two, Shape.rowMajor_val_one]
          show 0 * 256 + k.val = k.val
          omega
        · refine (extractStridedSlice_apply _ _ _ (ix2 (0 : Fin 1) k) (ix2 (0 : Fin 5) k) ?_).trans rfl
          intro d
          match d with
          | ⟨0, _⟩ => rfl
          | ⟨1, _⟩ => show k.val = 0 + k.val; omega
    · show _ = w (ix3 (0 : Fin 5) k c)
      refine (shapeCast_apply _ _ (ix2 k c) (ix3 (0 : Fin 1) k c) ?_).trans ?_
      · rw [Shape.rowMajor_val_three, Shape.rowMajor_val_two]
        show ((0 * 256 + k.val) * 128 + c.val) = k.val * 128 + c.val
        omega
      · refine (extractStridedSlice_apply _ _ _ (ix3 (0 : Fin 1) k c) (ix3 (0 : Fin 5) k c) ?_).trans rfl
        intro d
        match d with
        | ⟨0, _⟩ => rfl
        | ⟨1, _⟩ => show k.val = 0 + k.val; omega
        | ⟨2, _⟩ => show c.val = 0 + c.val; omega
  · show _ = b (ix2 (0 : Fin 5) c)
    refine (broadcastInDim_apply _ _ _ (ix2 r c) (ix2 (0 : Fin 1) c) ?_).trans ?_
    · intro d
      match d with
      | ⟨0, _⟩ => rfl
      | ⟨1, _⟩ => rfl
    refine (broadcastInDim_apply _ _ _ (ix2 (0 : Fin 1) c) (ix1 c) ?_).trans ?_
    · intro d
      match d with
      | ⟨0, _⟩ => rfl
    refine (shapeCast_apply _ _ (ix1 c) (ix2 (0 : Fin 1) c) ?_).trans ?_
    · rw [Shape.rowMajor_val_two, Shape.rowMajor_val_one]
      show 0 * 128 + c.val = c.val
      omega
    · refine (extractStridedSlice_apply _ _ _ (ix2 (0 : Fin 1) c) (ix2 (0 : Fin 5) c) ?_).trans rfl
      intro d
      match d with
      | ⟨0, _⟩ => rfl
      | ⟨1, _⟩ => show c.val = 0 + c.val; omega

/-- Layer 1's edge embedding as the program spells it. -/
def affRaw1 (a : FVec Ideal S450000x3 .f32) (w : FVec Ideal S5x3x128 .f32) (b : FVec Ideal S5x128 .f32) : FVec Ideal S450000x128 .f32 :=
  addf
    (Host.dotGeneral (F := Ideal) dot_S450000x3_S3x128_S450000x128_1_0_0_1_n_n none a
      (fun i => shapeCast S3x128 (extractStridedSlice S1x3x128 ![1, 0, 0] w slices_S5x3x128_S1x3x128_1_0_0) shapeCasts_S1x3x128_S3x128 i))
    (broadcastInDim S450000x128 ![0, 1] bcast_S1x128_S450000x128_0_1
      (broadcastInDim S1x128 ![1] bcast_S128_S1x128_1
        (fun i => shapeCast S128 (extractStridedSlice S1x128 ![1, 0] b slices_S5x128_S1x128_1_0) shapeCasts_S1x128_S128 i)))

/-- Layer 1's first product as the program spells it. -/
def twoRaw1 (ax ae : FVec Ideal S50000x128 .f32) (w : FVec Ideal S5x256x256 .f32) (b : FVec Ideal S5x256 .f32) : FVec Ideal S50000x256 .f32 :=
  addf
    (Host.dotGeneral (F := Ideal) dot_S50000x256_S256x256_S50000x256_1_0_0_1_n_n none
      (concatenate S50000x256 1 [⟨S50000x128, ax⟩, ⟨S50000x128, ae⟩] concatenates_S50000x128_S50000x128_S50000x256_d1)
      (fun i => shapeCast S256x256 (extractStridedSlice S1x256x256 ![1, 0, 0] w slices_S5x256x256_S1x256x256_1_0_0) shapeCasts_S1x256x256_S256x256 i))
    (broadcastInDim S50000x256 ![0, 1] bcast_S1x256_S50000x256_0_1
      (broadcastInDim S1x256 ![1] bcast_S256_S1x256_1
        (fun i => shapeCast S256 (extractStridedSlice S1x256 ![1, 0] b slices_S5x256_S1x256_1_0) shapeCasts_S1x256_S256 i)))

/-- Layer 1's normalization, positive part and second product as the program spells them. -/
def normRaw1 (z : FVec Ideal S50000x256 .f32) (mean var : FVec Ideal S256 .f32) (g β : FVec Ideal S5x256 .f32)
    (w : FVec Ideal S5x256x128 .f32) (b : FVec Ideal S5x128 .f32) : FVec Ideal S50000x128 .f32 :=
  addf
    (Host.dotGeneral (F := Ideal) dot_S50000x256_S256x128_S50000x128_1_0_0_1_n_n none
      (maximumf
        (addf
          (mulf
            (mulf
              (broadcastInDim S50000x256 ![0, 1] bcast_S1x256_S50000x256_0_1
                (broadcastInDim S1x256 ![1] bcast_S256_S1x256_1
                  (fun i => shapeCast S256 (extractStridedSlice S1x256 ![1, 0] g slices_S5x256_S1x256_1_0) shapeCasts_S1x256_S256 i)))
              (subf z (broadcastInDim S50000x256 ![0, 1] bcast_S1x256_S50000x256_0_1 (broadcastInDim S1x256 ![1] bcast_S256_S1x256_1 mean))))
            (broadcastInDim S50000x256 ![0, 1] bcast_S1x256_S50000x256_0_1
              (broadcastInDim S1x256 ![1] bcast_S256_S1x256_1
                (Host.rsqrt (F := Ideal) (addf var (broadcastInDim S256 ![] bcast_S_S256 (constant (F := Ideal) S_ .f32 0x3727C5AC#32)))))))
          (broadcastInDim S50000x256 ![0, 1] bcast_S1x256_S50000x256_0_1
            (broadcastInDim S1x256 ![1] bcast_S256_S1x256_1
              (fun i => shapeCast S256 (extractStridedSlice S1x256 ![1, 0] β slices_S5x256_S1x256_1_0) shapeCasts_S1x256_S256 i))))
        (broadcastInDim S50000x256 ![] bcast_S_S50000x256 (constant (F := Ideal) S_ .f32 0x00000000#32)))
      (fun i => shapeCast S256x128 (extractStridedSlice S1x256x128 ![1, 0, 0] w slices_S5x256x128_S1x256x128_1_0_0) shapeCasts_S1x256x128_S256x128 i))
    (broadcastInDim S50000x128 ![0, 1] bcast_S1x128_S50000x128_0_1
      (broadcastInDim S1x128 ![1] bcast_S128_S1x128_1
        (fun i => shapeCast S128 (extractStridedSlice S1x128 ![1, 0] b slices_S5x128_S1x128_1_0) shapeCasts_S1x128_S128 i)))

theorem affRaw1_eq (a : FVec Ideal S450000x3 .f32) (w : FVec Ideal S5x3x128 .f32) (b : FVec Ideal S5x128 .f32) :
    affRaw1 a w b = Cert.Spec.affine (M := 450000) (K := 3) (D := 128) a (Cert.Spec.layerMat w 1) (Cert.Spec.layerRow b 1) := by
  funext j
  obtain ⟨r, c, rfl⟩ : ∃ r c, j = ix2 r c := ⟨j 0, j 1, eq_ix2 j⟩
  unfold affRaw1 Cert.Spec.affine
  rw [addf_apply]
  refine congrArg₂ (· + ·) ?_ ?_
  · simp only [Host.dotGeneral]
    rw [Ideal.dotGeneral_apply]
    rw [← Equiv.sum_comp (contrEquiv1 dot_S450000x3_S3x128_S450000x128_1_0_0_1_n_n 3 rfl rfl).symm]
    refine Finset.sum_congr rfl fun k _ => ?_
    show _ = a (ix2 r k) * w (ix3 (1 : Fin 5) k c)
    have hl : dot_S450000x3_S3x128_S450000x128_1_0_0_1_n_n.lhsIdx (ix2 r c) ((contrEquiv1 dot_S450000x3_S3x128_S450000x128_1_0_0_1_n_n 3 rfl rfl).symm k) = ix2 r k := by
      funext a; apply Fin.ext
      match a with
      | ⟨0, _⟩ => rfl
      | ⟨1, _⟩ => rfl
    have hr : dot_S450000x3_S3x128_S450000x128_1_0_0_1_n_n.rhsIdx (ix2 r c) ((contrEquiv1 dot_S450000x3_S3x128_S450000x128_1_0_0_1_n_n 3 rfl rfl).symm k) = ix2 k c := by
      funext a; apply Fin.ext
      match a with
      | ⟨0, _⟩ => rfl
      | ⟨1, _⟩ => rfl
    rw [hl, hr]
    refine congrArg (a (ix2 r k) * ·) ?_
    refine (shapeCast_apply _ _ (ix2 k c) (ix3 (0 : Fin 1) k c) ?_).trans ?_
    · rw [Shape.rowMajor_val_three, Shape.rowMajor_val_two]
      show ((0 * 3 + k.val) * 128 + c.val) = k.val * 128 + c.val
      omega
    · refine (extractStridedSlice_apply _ _ _ (ix3 (0 : Fin 1) k c) (ix3 (1 : Fin 5) k c) ?_).trans rfl
      intro d
      match d with
      | ⟨0, _⟩ => rfl
      | ⟨1, _⟩ => show k.val = 0 + k.val; omega
      | ⟨2, _⟩ => show c.val = 0 + c.val; omega
  · show _ = b (ix2 (1 : Fin 5) c)
    refine (broadcastInDim_apply _ _ _ (ix2 r c) (ix2 (0 : Fin 1) c) ?_).trans ?_
    · intro d
      match d with
      | ⟨0, _⟩ => rfl
      | ⟨1, _⟩ => rfl
    refine (broadcastInDim_apply _ _ _ (ix2 (0 : Fin 1) c) (ix1 c) ?_).trans ?_
    · intro d
      match d with
      | ⟨0, _⟩ => rfl
    refine (shapeCast_apply _ _ (ix1 c) (ix2 (0 : Fin 1) c) ?_).trans ?_
    · rw [Shape.rowMajor_val_two, Shape.rowMajor_val_one]
      show 0 * 128 + c.val = c.val
      omega
    · refine (extractStridedSlice_apply _ _ _ (ix2 (0 : Fin 1) c) (ix2 (1 : Fin 5) c) ?_).trans rfl
      intro d
      match d with
      | ⟨0, _⟩ => rfl
      | ⟨1, _⟩ => show c.val = 0 + c.val; omega

theorem twoRaw1_eq (ax ae : FVec Ideal S50000x128 .f32) (w : FVec Ideal S5x256x256 .f32) (b : FVec Ideal S5x256 .f32) :
    twoRaw1 ax ae w b = Cert.Spec.twoProducts (M := 50000) (K := 128) (D := 256) ax ae
      (Cert.Spec.layerMatTop w 1) (Cert.Spec.layerMatBot w 1) (Cert.Spec.layerRow b 1) := by
  funext j
  obtain ⟨r, c, rfl⟩ : ∃ r c, j = ix2 r c := ⟨j 0, j 1, eq_ix2 j⟩
  unfold twoRaw1 Cert.Spec.twoProducts
  rw [addf_apply]
  refine congrArg₂ (· + ·) ?_ ?_
  · simp only [Host.dotGeneral]
    rw [Ideal.dotGeneral_apply]
    rw [← Equiv.sum_comp (contrEquiv1 dot_S50000x256_S256x256_S50000x256_1_0_0_1_n_n 256 rfl rfl).symm]
    refine (Cert.Spec.sum_halves 128 _).trans ?_
    refine congrArg₂ (· + ·) (Finset.sum_congr rfl fun k _ => ?_) (Finset.sum_congr rfl fun k _ => ?_)
    · show _ = ax (ix2 r k) * Cert.Spec.layerMatTop w 1 (ix2 k c)
      have hl : dot_S50000x256_S256x256_S50000x256_1_0_0_1_n_n.lhsIdx (ix2 r c) ((contrEquiv1 dot_S50000x256_S256x256_S50000x256_1_0_0_1_n_n 256 rfl rfl).symm (Fin.castAdd 128 k)) = ix2 r (Fin.castAdd 128 k) := by
        funext a; apply Fin.ext
        match a with
        | ⟨0, _⟩ => rfl
        | ⟨1, _⟩ => rfl
      have hr : dot_S50000x256_S256x256_S50000x256_1_0_0_1_n_n.rhsIdx (ix2 r c) ((contrEquiv1 dot_S50000x256_S256x256_S50000x256_1_0_0_1_n_n 256 rfl rfl).symm (Fin.castAdd 128 k)) = ix2 (Fin.castAdd 128 k) c := by
        funext a; apply Fin.ext
        match a with
        | ⟨0, _⟩ => rfl
        | ⟨1, _⟩ => rfl
      rw [hl, hr]
      refine congrArg₂ (· * ·) ?_ ?_
      · refine concatenate_pair_apply_left (1 : Fin S50000x256.rank) ax ae _ (ix2 r (Fin.castAdd 128 k)) rfl (ix2 r k) ?_
        intro d
        match d with
        | ⟨0, _⟩ => rfl
        | ⟨1, _⟩ => rfl
      · show _ = w (ix3 (1 : Fin 5) (Fin.castAdd 128 k) c)
        refine (shapeCast_apply _ _ (ix2 (Fin.castAdd 128 k) c) (ix3 (0 : Fin 1) (Fin.castAdd 128 k) c) ?_).trans ?_
        · rw [Shape.rowMajor_val_three, Shape.rowMajor_val_two]
          show ((0 * 256 + (Fin.castAdd 128 k).val) * 256 + c.val) = (Fin.castAdd 128 k).val * 256 + c.val
          omega
        · refine (extractStridedSlice_apply _ _ _ (ix3 (0 : Fin 1) (Fin.castAdd 128 k) c) (ix3 (1 : Fin 5) (Fin.castAdd 128 k) c) ?_).trans rfl
          intro d
          match d with
          | ⟨0, _⟩ => rfl
          | ⟨1, _⟩ => show (Fin.castAdd 128 k).val = 0 + (Fin.castAdd 128 k).val; omega
          | ⟨2, _⟩ => show c.val = 0 + c.val; omega
    · show _ = ae (ix2 r k) * Cert.Spec.layerMatBot w 1 (ix2 k c)
      have hl : dot_S50000x256_S256x256_S50000x256_1_0_0_1_n_n.lhsIdx (ix2 r c) ((contrEquiv1 dot_S50000x256_S256x256_S50000x256_1_0_0_1_n_n 256 rfl rfl).symm (Fin.natAdd 128 k)) = ix2 r (Fin.natAdd 128 k) := by
        funext a; apply Fin.ext
        match a with
        | ⟨0, _⟩ => rfl
        | ⟨1, _⟩ => rfl
      have hr : dot_S50000x256_S256x256_S50000x256_1_0_0_1_n_n.rhsIdx (ix2 r c) ((contrEquiv1 dot_S50000x256_S256x256_S50000x256_1_0_0_1_n_n 256 rfl rfl).symm (Fin.natAdd 128 k)) = ix2 (Fin.natAdd 128 k) c := by
        funext a; apply Fin.ext
        match a with
        | ⟨0, _⟩ => rfl
        | ⟨1, _⟩ => rfl
      rw [hl, hr]
      refine congrArg₂ (· * ·) ?_ ?_
      · refine concatenate_pair_apply_right (1 : Fin S50000x256.rank) ax ae _ (ix2 r (Fin.natAdd 128 k)) rfl rfl (ix2 r k) ?_ ?_
        · intro d
          match d with
          | ⟨0, _⟩ => exact fun _ => rfl
          | ⟨1, _⟩ => exact fun hne => absurd rfl hne
        · show k.val + 128 = 128 + k.val
          omega
      · show _ = w (ix3 (1 : Fin 5) (Fin.natAdd 128 k) c)
        refine (shapeCast_apply _ _ (ix2 (Fin.natAdd 128 k) c) (ix3 (0 : Fin 1) (Fin.natAdd 128 k) c) ?_).trans ?_
        · rw [Shape.rowMajor_val_three, Shape.rowMajor_val_two]
          show ((0 * 256 + (Fin.natAdd 128 k).val) * 256 + c.val) = (Fin.natAdd 128 k).val * 256 + c.val
          omega
        · refine (extractStridedSlice_apply _ _ _ (ix3 (0 : Fin 1) (Fin.natAdd 128 k) c) (ix3 (1 : Fin 5) (Fin.natAdd 128 k) c) ?_).trans rfl
          intro d
          match d with
          | ⟨0, _⟩ => rfl
          | ⟨1, _⟩ => show (Fin.natAdd 128 k).val = 0 + (Fin.natAdd 128 k).val; omega
          | ⟨2, _⟩ => show c.val = 0 + c.val; omega
  · show _ = b (ix2 (1 : Fin 5) c)
    refine (broadcastInDim_apply _ _ _ (ix2 r c) (ix2 (0 : Fin 1) c) ?_).trans ?_
    · intro d
      match d with
      | ⟨0, _⟩ => rfl
      | ⟨1, _⟩ => rfl
    refine (broadcastInDim_apply _ _ _ (ix2 (0 : Fin 1) c) (ix1 c) ?_).trans ?_
    · intro d
      match d with
      | ⟨0, _⟩ => rfl
    refine (shapeCast_apply _ _ (ix1 c) (ix2 (0 : Fin 1) c) ?_).trans ?_
    · rw [Shape.rowMajor_val_two, Shape.rowMajor_val_one]
      show 0 * 256 + c.val = c.val
      omega
    · refine (extractStridedSlice_apply _ _ _ (ix2 (0 : Fin 1) c) (ix2 (1 : Fin 5) c) ?_).trans rfl
      intro d
      match d with
      | ⟨0, _⟩ => rfl
      | ⟨1, _⟩ => show c.val = 0 + c.val; omega

theorem normRaw1_pos_eq (z : FVec Ideal S50000x256 .f32) (mean var : FVec Ideal S256 .f32) (g β : FVec Ideal S5x256 .f32)
    (w : FVec Ideal S5x256x128 .f32) (b : FVec Ideal S5x128 .f32) :
    maximumf (normRaw1 z mean var g β w b) (broadcastInDim S50000x128 ![] bcast_S_S50000x128 (constant (F := Ideal) S_ .f32 0x00000000#32))
      = Cert.Spec.normProductPos (M := 50000) (K := 256) (D := 128) Cert.Spec.eps Cert.Spec.zero z (Cert.Spec.asRow mean) (Cert.Spec.asRow var)
          (Cert.Spec.layerRow g 1) (Cert.Spec.layerRow β 1) (Cert.Spec.layerMat w 1) (Cert.Spec.layerRow b 1) := by
  funext j
  obtain ⟨r, c, rfl⟩ : ∃ r c, j = ix2 r c := ⟨j 0, j 1, eq_ix2 j⟩
  unfold Cert.Spec.normProductPos
  rw [maximumf_apply]
  refine congrArg₂ max ?_ rfl
  unfold normRaw1 Cert.Spec.normProduct
  rw [addf_apply]
  refine congrArg₂ (· + ·) ?_ ?_
  · simp only [Host.dotGeneral]
    rw [Ideal.dotGeneral_apply]
    rw [← Equiv.sum_comp (contrEquiv1 dot_S50000x256_S256x128_S50000x128_1_0_0_1_n_n 256 rfl rfl).symm]
    refine Finset.sum_congr rfl fun k _ => ?_
    show _ = Cert.Spec.normAct Cert.Spec.eps Cert.Spec.zero z (Cert.Spec.asRow mean) (Cert.Spec.asRow var)
      (Cert.Spec.layerRow g 1) (Cert.Spec.layerRow β 1) r k * Cert.Spec.layerMat w 1 (ix2 k c)
    have hl : dot_S50000x256_S256x128_S50000x128_1_0_0_1_n_n.lhsIdx (ix2 r c) ((contrEquiv1 dot_S50000x256_S256x128_S50000x128_1_0_0_1_n_n 256 rfl rfl).symm k) = ix2 r k := by
      funext a; apply Fin.ext
      match a with
      | ⟨0, _⟩ => rfl
      | ⟨1, _⟩ => rfl
    have hr : dot_S50000x256_S256x128_S50000x128_1_0_0_1_n_n.rhsIdx (ix2 r c) ((contrEquiv1 dot_S50000x256_S256x128_S50000x128_1_0_0_1_n_n 256 rfl rfl).symm k) = ix2 k c := by
      funext a; apply Fin.ext
      match a with
      | ⟨0, _⟩ => rfl
      | ⟨1, _⟩ => rfl
    rw [hl, hr]
    refine congrArg₂ (· * ·) ?_ ?_
    · unfold Cert.Spec.normAct
      rw [maximumf_apply, addf_apply, mulf_apply, mulf_apply, subf_apply]
      refine congrArg₂ max (congrArg₂ (· + ·) (congrArg₂ (· * ·) (congrArg₂ (· * ·) ?_ (congrArg₂ (· - ·) rfl ?_)) ?_) ?_) rfl
      · show _ = g (ix2 (1 : Fin 5) k)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans ?_
        · intro d
          match d with
          | ⟨0, _⟩ => rfl
        refine (shapeCast_apply _ _ (ix1 k) (ix2 (0 : Fin 1) k) ?_).trans ?_
        · rw [Shape.rowMajor_val_two, Shape.rowMajor_val_one]
          show 0 * 256 + k.val = k.val
          omega
        · refine (extractStridedSlice_apply _ _ _ (ix2 (0 : Fin 1) k) (ix2 (1 : Fin 5) k) ?_).trans rfl
          intro d
          match d with
          | ⟨0, _⟩ => rfl
          | ⟨1, _⟩ => show k.val = 0 + k.val; omega
      · show _ = mean (ix1 k)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans rfl
        intro d
        match d with
        | ⟨0, _⟩ => rfl
      · show _ = FloatOps.rsqrt (F := Ideal) (φ := .f32) (var (ix1 k) + Cert.Spec.eps)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans rfl
        intro d
        match d with
        | ⟨0, _⟩ => rfl
      · show _ = β (ix2 (1 : Fin 5) k)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans ?_
        · intro d
          match d with
          | ⟨0, _⟩ => rfl
        refine (shapeCast_apply _ _ (ix1 k) (ix2 (0 : Fin 1) k) ?_).trans ?_
        · rw [Shape.rowMajor_val_two, Shape.rowMajor_val_one]
          show 0 * 256 + k.val = k.val
          omega
        · refine (extractStridedSlice_apply _ _ _ (ix2 (0 : Fin 1) k) (ix2 (1 : Fin 5) k) ?_).trans rfl
          intro d
          match d with
          | ⟨0, _⟩ => rfl
          | ⟨1, _⟩ => show k.val = 0 + k.val; omega
    · show _ = w (ix3 (1 : Fin 5) k c)
      refine (shapeCast_apply _ _ (ix2 k c) (ix3 (0 : Fin 1) k c) ?_).trans ?_
      · rw [Shape.rowMajor_val_three, Shape.rowMajor_val_two]
        show ((0 * 256 + k.val) * 128 + c.val) = k.val * 128 + c.val
        omega
      · refine (extractStridedSlice_apply _ _ _ (ix3 (0 : Fin 1) k c) (ix3 (1 : Fin 5) k c) ?_).trans rfl
        intro d
        match d with
        | ⟨0, _⟩ => rfl
        | ⟨1, _⟩ => show k.val = 0 + k.val; omega
        | ⟨2, _⟩ => show c.val = 0 + c.val; omega
  · show _ = b (ix2 (1 : Fin 5) c)
    refine (broadcastInDim_apply _ _ _ (ix2 r c) (ix2 (0 : Fin 1) c) ?_).trans ?_
    · intro d
      match d with
      | ⟨0, _⟩ => rfl
      | ⟨1, _⟩ => rfl
    refine (broadcastInDim_apply _ _ _ (ix2 (0 : Fin 1) c) (ix1 c) ?_).trans ?_
    · intro d
      match d with
      | ⟨0, _⟩ => rfl
    refine (shapeCast_apply _ _ (ix1 c) (ix2 (0 : Fin 1) c) ?_).trans ?_
    · rw [Shape.rowMajor_val_two, Shape.rowMajor_val_one]
      show 0 * 128 + c.val = c.val
      omega
    · refine (extractStridedSlice_apply _ _ _ (ix2 (0 : Fin 1) c) (ix2 (1 : Fin 5) c) ?_).trans rfl
      intro d
      match d with
      | ⟨0, _⟩ => rfl
      | ⟨1, _⟩ => show c.val = 0 + c.val; omega

/-- Layer 2's edge embedding as the program spells it. -/
def affRaw2 (a : FVec Ideal S450000x3 .f32) (w : FVec Ideal S5x3x128 .f32) (b : FVec Ideal S5x128 .f32) : FVec Ideal S450000x128 .f32 :=
  addf
    (Host.dotGeneral (F := Ideal) dot_S450000x3_S3x128_S450000x128_1_0_0_1_n_n none a
      (fun i => shapeCast S3x128 (extractStridedSlice S1x3x128 ![2, 0, 0] w slices_S5x3x128_S1x3x128_2_0_0) shapeCasts_S1x3x128_S3x128 i))
    (broadcastInDim S450000x128 ![0, 1] bcast_S1x128_S450000x128_0_1
      (broadcastInDim S1x128 ![1] bcast_S128_S1x128_1
        (fun i => shapeCast S128 (extractStridedSlice S1x128 ![2, 0] b slices_S5x128_S1x128_2_0) shapeCasts_S1x128_S128 i)))

/-- Layer 2's first product as the program spells it. -/
def twoRaw2 (ax ae : FVec Ideal S50000x128 .f32) (w : FVec Ideal S5x256x256 .f32) (b : FVec Ideal S5x256 .f32) : FVec Ideal S50000x256 .f32 :=
  addf
    (Host.dotGeneral (F := Ideal) dot_S50000x256_S256x256_S50000x256_1_0_0_1_n_n none
      (concatenate S50000x256 1 [⟨S50000x128, ax⟩, ⟨S50000x128, ae⟩] concatenates_S50000x128_S50000x128_S50000x256_d1)
      (fun i => shapeCast S256x256 (extractStridedSlice S1x256x256 ![2, 0, 0] w slices_S5x256x256_S1x256x256_2_0_0) shapeCasts_S1x256x256_S256x256 i))
    (broadcastInDim S50000x256 ![0, 1] bcast_S1x256_S50000x256_0_1
      (broadcastInDim S1x256 ![1] bcast_S256_S1x256_1
        (fun i => shapeCast S256 (extractStridedSlice S1x256 ![2, 0] b slices_S5x256_S1x256_2_0) shapeCasts_S1x256_S256 i)))

/-- Layer 2's normalization, positive part and second product as the program spells them. -/
def normRaw2 (z : FVec Ideal S50000x256 .f32) (mean var : FVec Ideal S256 .f32) (g β : FVec Ideal S5x256 .f32)
    (w : FVec Ideal S5x256x128 .f32) (b : FVec Ideal S5x128 .f32) : FVec Ideal S50000x128 .f32 :=
  addf
    (Host.dotGeneral (F := Ideal) dot_S50000x256_S256x128_S50000x128_1_0_0_1_n_n none
      (maximumf
        (addf
          (mulf
            (mulf
              (broadcastInDim S50000x256 ![0, 1] bcast_S1x256_S50000x256_0_1
                (broadcastInDim S1x256 ![1] bcast_S256_S1x256_1
                  (fun i => shapeCast S256 (extractStridedSlice S1x256 ![2, 0] g slices_S5x256_S1x256_2_0) shapeCasts_S1x256_S256 i)))
              (subf z (broadcastInDim S50000x256 ![0, 1] bcast_S1x256_S50000x256_0_1 (broadcastInDim S1x256 ![1] bcast_S256_S1x256_1 mean))))
            (broadcastInDim S50000x256 ![0, 1] bcast_S1x256_S50000x256_0_1
              (broadcastInDim S1x256 ![1] bcast_S256_S1x256_1
                (Host.rsqrt (F := Ideal) (addf var (broadcastInDim S256 ![] bcast_S_S256 (constant (F := Ideal) S_ .f32 0x3727C5AC#32)))))))
          (broadcastInDim S50000x256 ![0, 1] bcast_S1x256_S50000x256_0_1
            (broadcastInDim S1x256 ![1] bcast_S256_S1x256_1
              (fun i => shapeCast S256 (extractStridedSlice S1x256 ![2, 0] β slices_S5x256_S1x256_2_0) shapeCasts_S1x256_S256 i))))
        (broadcastInDim S50000x256 ![] bcast_S_S50000x256 (constant (F := Ideal) S_ .f32 0x00000000#32)))
      (fun i => shapeCast S256x128 (extractStridedSlice S1x256x128 ![2, 0, 0] w slices_S5x256x128_S1x256x128_2_0_0) shapeCasts_S1x256x128_S256x128 i))
    (broadcastInDim S50000x128 ![0, 1] bcast_S1x128_S50000x128_0_1
      (broadcastInDim S1x128 ![1] bcast_S128_S1x128_1
        (fun i => shapeCast S128 (extractStridedSlice S1x128 ![2, 0] b slices_S5x128_S1x128_2_0) shapeCasts_S1x128_S128 i)))

theorem affRaw2_eq (a : FVec Ideal S450000x3 .f32) (w : FVec Ideal S5x3x128 .f32) (b : FVec Ideal S5x128 .f32) :
    affRaw2 a w b = Cert.Spec.affine (M := 450000) (K := 3) (D := 128) a (Cert.Spec.layerMat w 2) (Cert.Spec.layerRow b 2) := by
  funext j
  obtain ⟨r, c, rfl⟩ : ∃ r c, j = ix2 r c := ⟨j 0, j 1, eq_ix2 j⟩
  unfold affRaw2 Cert.Spec.affine
  rw [addf_apply]
  refine congrArg₂ (· + ·) ?_ ?_
  · simp only [Host.dotGeneral]
    rw [Ideal.dotGeneral_apply]
    rw [← Equiv.sum_comp (contrEquiv1 dot_S450000x3_S3x128_S450000x128_1_0_0_1_n_n 3 rfl rfl).symm]
    refine Finset.sum_congr rfl fun k _ => ?_
    show _ = a (ix2 r k) * w (ix3 (2 : Fin 5) k c)
    have hl : dot_S450000x3_S3x128_S450000x128_1_0_0_1_n_n.lhsIdx (ix2 r c) ((contrEquiv1 dot_S450000x3_S3x128_S450000x128_1_0_0_1_n_n 3 rfl rfl).symm k) = ix2 r k := by
      funext a; apply Fin.ext
      match a with
      | ⟨0, _⟩ => rfl
      | ⟨1, _⟩ => rfl
    have hr : dot_S450000x3_S3x128_S450000x128_1_0_0_1_n_n.rhsIdx (ix2 r c) ((contrEquiv1 dot_S450000x3_S3x128_S450000x128_1_0_0_1_n_n 3 rfl rfl).symm k) = ix2 k c := by
      funext a; apply Fin.ext
      match a with
      | ⟨0, _⟩ => rfl
      | ⟨1, _⟩ => rfl
    rw [hl, hr]
    refine congrArg (a (ix2 r k) * ·) ?_
    refine (shapeCast_apply _ _ (ix2 k c) (ix3 (0 : Fin 1) k c) ?_).trans ?_
    · rw [Shape.rowMajor_val_three, Shape.rowMajor_val_two]
      show ((0 * 3 + k.val) * 128 + c.val) = k.val * 128 + c.val
      omega
    · refine (extractStridedSlice_apply _ _ _ (ix3 (0 : Fin 1) k c) (ix3 (2 : Fin 5) k c) ?_).trans rfl
      intro d
      match d with
      | ⟨0, _⟩ => rfl
      | ⟨1, _⟩ => show k.val = 0 + k.val; omega
      | ⟨2, _⟩ => show c.val = 0 + c.val; omega
  · show _ = b (ix2 (2 : Fin 5) c)
    refine (broadcastInDim_apply _ _ _ (ix2 r c) (ix2 (0 : Fin 1) c) ?_).trans ?_
    · intro d
      match d with
      | ⟨0, _⟩ => rfl
      | ⟨1, _⟩ => rfl
    refine (broadcastInDim_apply _ _ _ (ix2 (0 : Fin 1) c) (ix1 c) ?_).trans ?_
    · intro d
      match d with
      | ⟨0, _⟩ => rfl
    refine (shapeCast_apply _ _ (ix1 c) (ix2 (0 : Fin 1) c) ?_).trans ?_
    · rw [Shape.rowMajor_val_two, Shape.rowMajor_val_one]
      show 0 * 128 + c.val = c.val
      omega
    · refine (extractStridedSlice_apply _ _ _ (ix2 (0 : Fin 1) c) (ix2 (2 : Fin 5) c) ?_).trans rfl
      intro d
      match d with
      | ⟨0, _⟩ => rfl
      | ⟨1, _⟩ => show c.val = 0 + c.val; omega

theorem twoRaw2_eq (ax ae : FVec Ideal S50000x128 .f32) (w : FVec Ideal S5x256x256 .f32) (b : FVec Ideal S5x256 .f32) :
    twoRaw2 ax ae w b = Cert.Spec.twoProducts (M := 50000) (K := 128) (D := 256) ax ae
      (Cert.Spec.layerMatTop w 2) (Cert.Spec.layerMatBot w 2) (Cert.Spec.layerRow b 2) := by
  funext j
  obtain ⟨r, c, rfl⟩ : ∃ r c, j = ix2 r c := ⟨j 0, j 1, eq_ix2 j⟩
  unfold twoRaw2 Cert.Spec.twoProducts
  rw [addf_apply]
  refine congrArg₂ (· + ·) ?_ ?_
  · simp only [Host.dotGeneral]
    rw [Ideal.dotGeneral_apply]
    rw [← Equiv.sum_comp (contrEquiv1 dot_S50000x256_S256x256_S50000x256_1_0_0_1_n_n 256 rfl rfl).symm]
    refine (Cert.Spec.sum_halves 128 _).trans ?_
    refine congrArg₂ (· + ·) (Finset.sum_congr rfl fun k _ => ?_) (Finset.sum_congr rfl fun k _ => ?_)
    · show _ = ax (ix2 r k) * Cert.Spec.layerMatTop w 2 (ix2 k c)
      have hl : dot_S50000x256_S256x256_S50000x256_1_0_0_1_n_n.lhsIdx (ix2 r c) ((contrEquiv1 dot_S50000x256_S256x256_S50000x256_1_0_0_1_n_n 256 rfl rfl).symm (Fin.castAdd 128 k)) = ix2 r (Fin.castAdd 128 k) := by
        funext a; apply Fin.ext
        match a with
        | ⟨0, _⟩ => rfl
        | ⟨1, _⟩ => rfl
      have hr : dot_S50000x256_S256x256_S50000x256_1_0_0_1_n_n.rhsIdx (ix2 r c) ((contrEquiv1 dot_S50000x256_S256x256_S50000x256_1_0_0_1_n_n 256 rfl rfl).symm (Fin.castAdd 128 k)) = ix2 (Fin.castAdd 128 k) c := by
        funext a; apply Fin.ext
        match a with
        | ⟨0, _⟩ => rfl
        | ⟨1, _⟩ => rfl
      rw [hl, hr]
      refine congrArg₂ (· * ·) ?_ ?_
      · refine concatenate_pair_apply_left (1 : Fin S50000x256.rank) ax ae _ (ix2 r (Fin.castAdd 128 k)) rfl (ix2 r k) ?_
        intro d
        match d with
        | ⟨0, _⟩ => rfl
        | ⟨1, _⟩ => rfl
      · show _ = w (ix3 (2 : Fin 5) (Fin.castAdd 128 k) c)
        refine (shapeCast_apply _ _ (ix2 (Fin.castAdd 128 k) c) (ix3 (0 : Fin 1) (Fin.castAdd 128 k) c) ?_).trans ?_
        · rw [Shape.rowMajor_val_three, Shape.rowMajor_val_two]
          show ((0 * 256 + (Fin.castAdd 128 k).val) * 256 + c.val) = (Fin.castAdd 128 k).val * 256 + c.val
          omega
        · refine (extractStridedSlice_apply _ _ _ (ix3 (0 : Fin 1) (Fin.castAdd 128 k) c) (ix3 (2 : Fin 5) (Fin.castAdd 128 k) c) ?_).trans rfl
          intro d
          match d with
          | ⟨0, _⟩ => rfl
          | ⟨1, _⟩ => show (Fin.castAdd 128 k).val = 0 + (Fin.castAdd 128 k).val; omega
          | ⟨2, _⟩ => show c.val = 0 + c.val; omega
    · show _ = ae (ix2 r k) * Cert.Spec.layerMatBot w 2 (ix2 k c)
      have hl : dot_S50000x256_S256x256_S50000x256_1_0_0_1_n_n.lhsIdx (ix2 r c) ((contrEquiv1 dot_S50000x256_S256x256_S50000x256_1_0_0_1_n_n 256 rfl rfl).symm (Fin.natAdd 128 k)) = ix2 r (Fin.natAdd 128 k) := by
        funext a; apply Fin.ext
        match a with
        | ⟨0, _⟩ => rfl
        | ⟨1, _⟩ => rfl
      have hr : dot_S50000x256_S256x256_S50000x256_1_0_0_1_n_n.rhsIdx (ix2 r c) ((contrEquiv1 dot_S50000x256_S256x256_S50000x256_1_0_0_1_n_n 256 rfl rfl).symm (Fin.natAdd 128 k)) = ix2 (Fin.natAdd 128 k) c := by
        funext a; apply Fin.ext
        match a with
        | ⟨0, _⟩ => rfl
        | ⟨1, _⟩ => rfl
      rw [hl, hr]
      refine congrArg₂ (· * ·) ?_ ?_
      · refine concatenate_pair_apply_right (1 : Fin S50000x256.rank) ax ae _ (ix2 r (Fin.natAdd 128 k)) rfl rfl (ix2 r k) ?_ ?_
        · intro d
          match d with
          | ⟨0, _⟩ => exact fun _ => rfl
          | ⟨1, _⟩ => exact fun hne => absurd rfl hne
        · show k.val + 128 = 128 + k.val
          omega
      · show _ = w (ix3 (2 : Fin 5) (Fin.natAdd 128 k) c)
        refine (shapeCast_apply _ _ (ix2 (Fin.natAdd 128 k) c) (ix3 (0 : Fin 1) (Fin.natAdd 128 k) c) ?_).trans ?_
        · rw [Shape.rowMajor_val_three, Shape.rowMajor_val_two]
          show ((0 * 256 + (Fin.natAdd 128 k).val) * 256 + c.val) = (Fin.natAdd 128 k).val * 256 + c.val
          omega
        · refine (extractStridedSlice_apply _ _ _ (ix3 (0 : Fin 1) (Fin.natAdd 128 k) c) (ix3 (2 : Fin 5) (Fin.natAdd 128 k) c) ?_).trans rfl
          intro d
          match d with
          | ⟨0, _⟩ => rfl
          | ⟨1, _⟩ => show (Fin.natAdd 128 k).val = 0 + (Fin.natAdd 128 k).val; omega
          | ⟨2, _⟩ => show c.val = 0 + c.val; omega
  · show _ = b (ix2 (2 : Fin 5) c)
    refine (broadcastInDim_apply _ _ _ (ix2 r c) (ix2 (0 : Fin 1) c) ?_).trans ?_
    · intro d
      match d with
      | ⟨0, _⟩ => rfl
      | ⟨1, _⟩ => rfl
    refine (broadcastInDim_apply _ _ _ (ix2 (0 : Fin 1) c) (ix1 c) ?_).trans ?_
    · intro d
      match d with
      | ⟨0, _⟩ => rfl
    refine (shapeCast_apply _ _ (ix1 c) (ix2 (0 : Fin 1) c) ?_).trans ?_
    · rw [Shape.rowMajor_val_two, Shape.rowMajor_val_one]
      show 0 * 256 + c.val = c.val
      omega
    · refine (extractStridedSlice_apply _ _ _ (ix2 (0 : Fin 1) c) (ix2 (2 : Fin 5) c) ?_).trans rfl
      intro d
      match d with
      | ⟨0, _⟩ => rfl
      | ⟨1, _⟩ => show c.val = 0 + c.val; omega

theorem normRaw2_pos_eq (z : FVec Ideal S50000x256 .f32) (mean var : FVec Ideal S256 .f32) (g β : FVec Ideal S5x256 .f32)
    (w : FVec Ideal S5x256x128 .f32) (b : FVec Ideal S5x128 .f32) :
    maximumf (normRaw2 z mean var g β w b) (broadcastInDim S50000x128 ![] bcast_S_S50000x128 (constant (F := Ideal) S_ .f32 0x00000000#32))
      = Cert.Spec.normProductPos (M := 50000) (K := 256) (D := 128) Cert.Spec.eps Cert.Spec.zero z (Cert.Spec.asRow mean) (Cert.Spec.asRow var)
          (Cert.Spec.layerRow g 2) (Cert.Spec.layerRow β 2) (Cert.Spec.layerMat w 2) (Cert.Spec.layerRow b 2) := by
  funext j
  obtain ⟨r, c, rfl⟩ : ∃ r c, j = ix2 r c := ⟨j 0, j 1, eq_ix2 j⟩
  unfold Cert.Spec.normProductPos
  rw [maximumf_apply]
  refine congrArg₂ max ?_ rfl
  unfold normRaw2 Cert.Spec.normProduct
  rw [addf_apply]
  refine congrArg₂ (· + ·) ?_ ?_
  · simp only [Host.dotGeneral]
    rw [Ideal.dotGeneral_apply]
    rw [← Equiv.sum_comp (contrEquiv1 dot_S50000x256_S256x128_S50000x128_1_0_0_1_n_n 256 rfl rfl).symm]
    refine Finset.sum_congr rfl fun k _ => ?_
    show _ = Cert.Spec.normAct Cert.Spec.eps Cert.Spec.zero z (Cert.Spec.asRow mean) (Cert.Spec.asRow var)
      (Cert.Spec.layerRow g 2) (Cert.Spec.layerRow β 2) r k * Cert.Spec.layerMat w 2 (ix2 k c)
    have hl : dot_S50000x256_S256x128_S50000x128_1_0_0_1_n_n.lhsIdx (ix2 r c) ((contrEquiv1 dot_S50000x256_S256x128_S50000x128_1_0_0_1_n_n 256 rfl rfl).symm k) = ix2 r k := by
      funext a; apply Fin.ext
      match a with
      | ⟨0, _⟩ => rfl
      | ⟨1, _⟩ => rfl
    have hr : dot_S50000x256_S256x128_S50000x128_1_0_0_1_n_n.rhsIdx (ix2 r c) ((contrEquiv1 dot_S50000x256_S256x128_S50000x128_1_0_0_1_n_n 256 rfl rfl).symm k) = ix2 k c := by
      funext a; apply Fin.ext
      match a with
      | ⟨0, _⟩ => rfl
      | ⟨1, _⟩ => rfl
    rw [hl, hr]
    refine congrArg₂ (· * ·) ?_ ?_
    · unfold Cert.Spec.normAct
      rw [maximumf_apply, addf_apply, mulf_apply, mulf_apply, subf_apply]
      refine congrArg₂ max (congrArg₂ (· + ·) (congrArg₂ (· * ·) (congrArg₂ (· * ·) ?_ (congrArg₂ (· - ·) rfl ?_)) ?_) ?_) rfl
      · show _ = g (ix2 (2 : Fin 5) k)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans ?_
        · intro d
          match d with
          | ⟨0, _⟩ => rfl
        refine (shapeCast_apply _ _ (ix1 k) (ix2 (0 : Fin 1) k) ?_).trans ?_
        · rw [Shape.rowMajor_val_two, Shape.rowMajor_val_one]
          show 0 * 256 + k.val = k.val
          omega
        · refine (extractStridedSlice_apply _ _ _ (ix2 (0 : Fin 1) k) (ix2 (2 : Fin 5) k) ?_).trans rfl
          intro d
          match d with
          | ⟨0, _⟩ => rfl
          | ⟨1, _⟩ => show k.val = 0 + k.val; omega
      · show _ = mean (ix1 k)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans rfl
        intro d
        match d with
        | ⟨0, _⟩ => rfl
      · show _ = FloatOps.rsqrt (F := Ideal) (φ := .f32) (var (ix1 k) + Cert.Spec.eps)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans rfl
        intro d
        match d with
        | ⟨0, _⟩ => rfl
      · show _ = β (ix2 (2 : Fin 5) k)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans ?_
        · intro d
          match d with
          | ⟨0, _⟩ => rfl
        refine (shapeCast_apply _ _ (ix1 k) (ix2 (0 : Fin 1) k) ?_).trans ?_
        · rw [Shape.rowMajor_val_two, Shape.rowMajor_val_one]
          show 0 * 256 + k.val = k.val
          omega
        · refine (extractStridedSlice_apply _ _ _ (ix2 (0 : Fin 1) k) (ix2 (2 : Fin 5) k) ?_).trans rfl
          intro d
          match d with
          | ⟨0, _⟩ => rfl
          | ⟨1, _⟩ => show k.val = 0 + k.val; omega
    · show _ = w (ix3 (2 : Fin 5) k c)
      refine (shapeCast_apply _ _ (ix2 k c) (ix3 (0 : Fin 1) k c) ?_).trans ?_
      · rw [Shape.rowMajor_val_three, Shape.rowMajor_val_two]
        show ((0 * 256 + k.val) * 128 + c.val) = k.val * 128 + c.val
        omega
      · refine (extractStridedSlice_apply _ _ _ (ix3 (0 : Fin 1) k c) (ix3 (2 : Fin 5) k c) ?_).trans rfl
        intro d
        match d with
        | ⟨0, _⟩ => rfl
        | ⟨1, _⟩ => show k.val = 0 + k.val; omega
        | ⟨2, _⟩ => show c.val = 0 + c.val; omega
  · show _ = b (ix2 (2 : Fin 5) c)
    refine (broadcastInDim_apply _ _ _ (ix2 r c) (ix2 (0 : Fin 1) c) ?_).trans ?_
    · intro d
      match d with
      | ⟨0, _⟩ => rfl
      | ⟨1, _⟩ => rfl
    refine (broadcastInDim_apply _ _ _ (ix2 (0 : Fin 1) c) (ix1 c) ?_).trans ?_
    · intro d
      match d with
      | ⟨0, _⟩ => rfl
    refine (shapeCast_apply _ _ (ix1 c) (ix2 (0 : Fin 1) c) ?_).trans ?_
    · rw [Shape.rowMajor_val_two, Shape.rowMajor_val_one]
      show 0 * 128 + c.val = c.val
      omega
    · refine (extractStridedSlice_apply _ _ _ (ix2 (0 : Fin 1) c) (ix2 (2 : Fin 5) c) ?_).trans rfl
      intro d
      match d with
      | ⟨0, _⟩ => rfl
      | ⟨1, _⟩ => show c.val = 0 + c.val; omega

/-- Layer 3's edge embedding as the program spells it. -/
def affRaw3 (a : FVec Ideal S450000x3 .f32) (w : FVec Ideal S5x3x128 .f32) (b : FVec Ideal S5x128 .f32) : FVec Ideal S450000x128 .f32 :=
  addf
    (Host.dotGeneral (F := Ideal) dot_S450000x3_S3x128_S450000x128_1_0_0_1_n_n none a
      (fun i => shapeCast S3x128 (extractStridedSlice S1x3x128 ![3, 0, 0] w slices_S5x3x128_S1x3x128_3_0_0) shapeCasts_S1x3x128_S3x128 i))
    (broadcastInDim S450000x128 ![0, 1] bcast_S1x128_S450000x128_0_1
      (broadcastInDim S1x128 ![1] bcast_S128_S1x128_1
        (fun i => shapeCast S128 (extractStridedSlice S1x128 ![3, 0] b slices_S5x128_S1x128_3_0) shapeCasts_S1x128_S128 i)))

/-- Layer 3's first product as the program spells it. -/
def twoRaw3 (ax ae : FVec Ideal S50000x128 .f32) (w : FVec Ideal S5x256x256 .f32) (b : FVec Ideal S5x256 .f32) : FVec Ideal S50000x256 .f32 :=
  addf
    (Host.dotGeneral (F := Ideal) dot_S50000x256_S256x256_S50000x256_1_0_0_1_n_n none
      (concatenate S50000x256 1 [⟨S50000x128, ax⟩, ⟨S50000x128, ae⟩] concatenates_S50000x128_S50000x128_S50000x256_d1)
      (fun i => shapeCast S256x256 (extractStridedSlice S1x256x256 ![3, 0, 0] w slices_S5x256x256_S1x256x256_3_0_0) shapeCasts_S1x256x256_S256x256 i))
    (broadcastInDim S50000x256 ![0, 1] bcast_S1x256_S50000x256_0_1
      (broadcastInDim S1x256 ![1] bcast_S256_S1x256_1
        (fun i => shapeCast S256 (extractStridedSlice S1x256 ![3, 0] b slices_S5x256_S1x256_3_0) shapeCasts_S1x256_S256 i)))

/-- Layer 3's normalization, positive part and second product as the program spells them. -/
def normRaw3 (z : FVec Ideal S50000x256 .f32) (mean var : FVec Ideal S256 .f32) (g β : FVec Ideal S5x256 .f32)
    (w : FVec Ideal S5x256x128 .f32) (b : FVec Ideal S5x128 .f32) : FVec Ideal S50000x128 .f32 :=
  addf
    (Host.dotGeneral (F := Ideal) dot_S50000x256_S256x128_S50000x128_1_0_0_1_n_n none
      (maximumf
        (addf
          (mulf
            (mulf
              (broadcastInDim S50000x256 ![0, 1] bcast_S1x256_S50000x256_0_1
                (broadcastInDim S1x256 ![1] bcast_S256_S1x256_1
                  (fun i => shapeCast S256 (extractStridedSlice S1x256 ![3, 0] g slices_S5x256_S1x256_3_0) shapeCasts_S1x256_S256 i)))
              (subf z (broadcastInDim S50000x256 ![0, 1] bcast_S1x256_S50000x256_0_1 (broadcastInDim S1x256 ![1] bcast_S256_S1x256_1 mean))))
            (broadcastInDim S50000x256 ![0, 1] bcast_S1x256_S50000x256_0_1
              (broadcastInDim S1x256 ![1] bcast_S256_S1x256_1
                (Host.rsqrt (F := Ideal) (addf var (broadcastInDim S256 ![] bcast_S_S256 (constant (F := Ideal) S_ .f32 0x3727C5AC#32)))))))
          (broadcastInDim S50000x256 ![0, 1] bcast_S1x256_S50000x256_0_1
            (broadcastInDim S1x256 ![1] bcast_S256_S1x256_1
              (fun i => shapeCast S256 (extractStridedSlice S1x256 ![3, 0] β slices_S5x256_S1x256_3_0) shapeCasts_S1x256_S256 i))))
        (broadcastInDim S50000x256 ![] bcast_S_S50000x256 (constant (F := Ideal) S_ .f32 0x00000000#32)))
      (fun i => shapeCast S256x128 (extractStridedSlice S1x256x128 ![3, 0, 0] w slices_S5x256x128_S1x256x128_3_0_0) shapeCasts_S1x256x128_S256x128 i))
    (broadcastInDim S50000x128 ![0, 1] bcast_S1x128_S50000x128_0_1
      (broadcastInDim S1x128 ![1] bcast_S128_S1x128_1
        (fun i => shapeCast S128 (extractStridedSlice S1x128 ![3, 0] b slices_S5x128_S1x128_3_0) shapeCasts_S1x128_S128 i)))

theorem affRaw3_eq (a : FVec Ideal S450000x3 .f32) (w : FVec Ideal S5x3x128 .f32) (b : FVec Ideal S5x128 .f32) :
    affRaw3 a w b = Cert.Spec.affine (M := 450000) (K := 3) (D := 128) a (Cert.Spec.layerMat w 3) (Cert.Spec.layerRow b 3) := by
  funext j
  obtain ⟨r, c, rfl⟩ : ∃ r c, j = ix2 r c := ⟨j 0, j 1, eq_ix2 j⟩
  unfold affRaw3 Cert.Spec.affine
  rw [addf_apply]
  refine congrArg₂ (· + ·) ?_ ?_
  · simp only [Host.dotGeneral]
    rw [Ideal.dotGeneral_apply]
    rw [← Equiv.sum_comp (contrEquiv1 dot_S450000x3_S3x128_S450000x128_1_0_0_1_n_n 3 rfl rfl).symm]
    refine Finset.sum_congr rfl fun k _ => ?_
    show _ = a (ix2 r k) * w (ix3 (3 : Fin 5) k c)
    have hl : dot_S450000x3_S3x128_S450000x128_1_0_0_1_n_n.lhsIdx (ix2 r c) ((contrEquiv1 dot_S450000x3_S3x128_S450000x128_1_0_0_1_n_n 3 rfl rfl).symm k) = ix2 r k := by
      funext a; apply Fin.ext
      match a with
      | ⟨0, _⟩ => rfl
      | ⟨1, _⟩ => rfl
    have hr : dot_S450000x3_S3x128_S450000x128_1_0_0_1_n_n.rhsIdx (ix2 r c) ((contrEquiv1 dot_S450000x3_S3x128_S450000x128_1_0_0_1_n_n 3 rfl rfl).symm k) = ix2 k c := by
      funext a; apply Fin.ext
      match a with
      | ⟨0, _⟩ => rfl
      | ⟨1, _⟩ => rfl
    rw [hl, hr]
    refine congrArg (a (ix2 r k) * ·) ?_
    refine (shapeCast_apply _ _ (ix2 k c) (ix3 (0 : Fin 1) k c) ?_).trans ?_
    · rw [Shape.rowMajor_val_three, Shape.rowMajor_val_two]
      show ((0 * 3 + k.val) * 128 + c.val) = k.val * 128 + c.val
      omega
    · refine (extractStridedSlice_apply _ _ _ (ix3 (0 : Fin 1) k c) (ix3 (3 : Fin 5) k c) ?_).trans rfl
      intro d
      match d with
      | ⟨0, _⟩ => rfl
      | ⟨1, _⟩ => show k.val = 0 + k.val; omega
      | ⟨2, _⟩ => show c.val = 0 + c.val; omega
  · show _ = b (ix2 (3 : Fin 5) c)
    refine (broadcastInDim_apply _ _ _ (ix2 r c) (ix2 (0 : Fin 1) c) ?_).trans ?_
    · intro d
      match d with
      | ⟨0, _⟩ => rfl
      | ⟨1, _⟩ => rfl
    refine (broadcastInDim_apply _ _ _ (ix2 (0 : Fin 1) c) (ix1 c) ?_).trans ?_
    · intro d
      match d with
      | ⟨0, _⟩ => rfl
    refine (shapeCast_apply _ _ (ix1 c) (ix2 (0 : Fin 1) c) ?_).trans ?_
    · rw [Shape.rowMajor_val_two, Shape.rowMajor_val_one]
      show 0 * 128 + c.val = c.val
      omega
    · refine (extractStridedSlice_apply _ _ _ (ix2 (0 : Fin 1) c) (ix2 (3 : Fin 5) c) ?_).trans rfl
      intro d
      match d with
      | ⟨0, _⟩ => rfl
      | ⟨1, _⟩ => show c.val = 0 + c.val; omega

theorem twoRaw3_eq (ax ae : FVec Ideal S50000x128 .f32) (w : FVec Ideal S5x256x256 .f32) (b : FVec Ideal S5x256 .f32) :
    twoRaw3 ax ae w b = Cert.Spec.twoProducts (M := 50000) (K := 128) (D := 256) ax ae
      (Cert.Spec.layerMatTop w 3) (Cert.Spec.layerMatBot w 3) (Cert.Spec.layerRow b 3) := by
  funext j
  obtain ⟨r, c, rfl⟩ : ∃ r c, j = ix2 r c := ⟨j 0, j 1, eq_ix2 j⟩
  unfold twoRaw3 Cert.Spec.twoProducts
  rw [addf_apply]
  refine congrArg₂ (· + ·) ?_ ?_
  · simp only [Host.dotGeneral]
    rw [Ideal.dotGeneral_apply]
    rw [← Equiv.sum_comp (contrEquiv1 dot_S50000x256_S256x256_S50000x256_1_0_0_1_n_n 256 rfl rfl).symm]
    refine (Cert.Spec.sum_halves 128 _).trans ?_
    refine congrArg₂ (· + ·) (Finset.sum_congr rfl fun k _ => ?_) (Finset.sum_congr rfl fun k _ => ?_)
    · show _ = ax (ix2 r k) * Cert.Spec.layerMatTop w 3 (ix2 k c)
      have hl : dot_S50000x256_S256x256_S50000x256_1_0_0_1_n_n.lhsIdx (ix2 r c) ((contrEquiv1 dot_S50000x256_S256x256_S50000x256_1_0_0_1_n_n 256 rfl rfl).symm (Fin.castAdd 128 k)) = ix2 r (Fin.castAdd 128 k) := by
        funext a; apply Fin.ext
        match a with
        | ⟨0, _⟩ => rfl
        | ⟨1, _⟩ => rfl
      have hr : dot_S50000x256_S256x256_S50000x256_1_0_0_1_n_n.rhsIdx (ix2 r c) ((contrEquiv1 dot_S50000x256_S256x256_S50000x256_1_0_0_1_n_n 256 rfl rfl).symm (Fin.castAdd 128 k)) = ix2 (Fin.castAdd 128 k) c := by
        funext a; apply Fin.ext
        match a with
        | ⟨0, _⟩ => rfl
        | ⟨1, _⟩ => rfl
      rw [hl, hr]
      refine congrArg₂ (· * ·) ?_ ?_
      · refine concatenate_pair_apply_left (1 : Fin S50000x256.rank) ax ae _ (ix2 r (Fin.castAdd 128 k)) rfl (ix2 r k) ?_
        intro d
        match d with
        | ⟨0, _⟩ => rfl
        | ⟨1, _⟩ => rfl
      · show _ = w (ix3 (3 : Fin 5) (Fin.castAdd 128 k) c)
        refine (shapeCast_apply _ _ (ix2 (Fin.castAdd 128 k) c) (ix3 (0 : Fin 1) (Fin.castAdd 128 k) c) ?_).trans ?_
        · rw [Shape.rowMajor_val_three, Shape.rowMajor_val_two]
          show ((0 * 256 + (Fin.castAdd 128 k).val) * 256 + c.val) = (Fin.castAdd 128 k).val * 256 + c.val
          omega
        · refine (extractStridedSlice_apply _ _ _ (ix3 (0 : Fin 1) (Fin.castAdd 128 k) c) (ix3 (3 : Fin 5) (Fin.castAdd 128 k) c) ?_).trans rfl
          intro d
          match d with
          | ⟨0, _⟩ => rfl
          | ⟨1, _⟩ => show (Fin.castAdd 128 k).val = 0 + (Fin.castAdd 128 k).val; omega
          | ⟨2, _⟩ => show c.val = 0 + c.val; omega
    · show _ = ae (ix2 r k) * Cert.Spec.layerMatBot w 3 (ix2 k c)
      have hl : dot_S50000x256_S256x256_S50000x256_1_0_0_1_n_n.lhsIdx (ix2 r c) ((contrEquiv1 dot_S50000x256_S256x256_S50000x256_1_0_0_1_n_n 256 rfl rfl).symm (Fin.natAdd 128 k)) = ix2 r (Fin.natAdd 128 k) := by
        funext a; apply Fin.ext
        match a with
        | ⟨0, _⟩ => rfl
        | ⟨1, _⟩ => rfl
      have hr : dot_S50000x256_S256x256_S50000x256_1_0_0_1_n_n.rhsIdx (ix2 r c) ((contrEquiv1 dot_S50000x256_S256x256_S50000x256_1_0_0_1_n_n 256 rfl rfl).symm (Fin.natAdd 128 k)) = ix2 (Fin.natAdd 128 k) c := by
        funext a; apply Fin.ext
        match a with
        | ⟨0, _⟩ => rfl
        | ⟨1, _⟩ => rfl
      rw [hl, hr]
      refine congrArg₂ (· * ·) ?_ ?_
      · refine concatenate_pair_apply_right (1 : Fin S50000x256.rank) ax ae _ (ix2 r (Fin.natAdd 128 k)) rfl rfl (ix2 r k) ?_ ?_
        · intro d
          match d with
          | ⟨0, _⟩ => exact fun _ => rfl
          | ⟨1, _⟩ => exact fun hne => absurd rfl hne
        · show k.val + 128 = 128 + k.val
          omega
      · show _ = w (ix3 (3 : Fin 5) (Fin.natAdd 128 k) c)
        refine (shapeCast_apply _ _ (ix2 (Fin.natAdd 128 k) c) (ix3 (0 : Fin 1) (Fin.natAdd 128 k) c) ?_).trans ?_
        · rw [Shape.rowMajor_val_three, Shape.rowMajor_val_two]
          show ((0 * 256 + (Fin.natAdd 128 k).val) * 256 + c.val) = (Fin.natAdd 128 k).val * 256 + c.val
          omega
        · refine (extractStridedSlice_apply _ _ _ (ix3 (0 : Fin 1) (Fin.natAdd 128 k) c) (ix3 (3 : Fin 5) (Fin.natAdd 128 k) c) ?_).trans rfl
          intro d
          match d with
          | ⟨0, _⟩ => rfl
          | ⟨1, _⟩ => show (Fin.natAdd 128 k).val = 0 + (Fin.natAdd 128 k).val; omega
          | ⟨2, _⟩ => show c.val = 0 + c.val; omega
  · show _ = b (ix2 (3 : Fin 5) c)
    refine (broadcastInDim_apply _ _ _ (ix2 r c) (ix2 (0 : Fin 1) c) ?_).trans ?_
    · intro d
      match d with
      | ⟨0, _⟩ => rfl
      | ⟨1, _⟩ => rfl
    refine (broadcastInDim_apply _ _ _ (ix2 (0 : Fin 1) c) (ix1 c) ?_).trans ?_
    · intro d
      match d with
      | ⟨0, _⟩ => rfl
    refine (shapeCast_apply _ _ (ix1 c) (ix2 (0 : Fin 1) c) ?_).trans ?_
    · rw [Shape.rowMajor_val_two, Shape.rowMajor_val_one]
      show 0 * 256 + c.val = c.val
      omega
    · refine (extractStridedSlice_apply _ _ _ (ix2 (0 : Fin 1) c) (ix2 (3 : Fin 5) c) ?_).trans rfl
      intro d
      match d with
      | ⟨0, _⟩ => rfl
      | ⟨1, _⟩ => show c.val = 0 + c.val; omega

theorem normRaw3_pos_eq (z : FVec Ideal S50000x256 .f32) (mean var : FVec Ideal S256 .f32) (g β : FVec Ideal S5x256 .f32)
    (w : FVec Ideal S5x256x128 .f32) (b : FVec Ideal S5x128 .f32) :
    maximumf (normRaw3 z mean var g β w b) (broadcastInDim S50000x128 ![] bcast_S_S50000x128 (constant (F := Ideal) S_ .f32 0x00000000#32))
      = Cert.Spec.normProductPos (M := 50000) (K := 256) (D := 128) Cert.Spec.eps Cert.Spec.zero z (Cert.Spec.asRow mean) (Cert.Spec.asRow var)
          (Cert.Spec.layerRow g 3) (Cert.Spec.layerRow β 3) (Cert.Spec.layerMat w 3) (Cert.Spec.layerRow b 3) := by
  funext j
  obtain ⟨r, c, rfl⟩ : ∃ r c, j = ix2 r c := ⟨j 0, j 1, eq_ix2 j⟩
  unfold Cert.Spec.normProductPos
  rw [maximumf_apply]
  refine congrArg₂ max ?_ rfl
  unfold normRaw3 Cert.Spec.normProduct
  rw [addf_apply]
  refine congrArg₂ (· + ·) ?_ ?_
  · simp only [Host.dotGeneral]
    rw [Ideal.dotGeneral_apply]
    rw [← Equiv.sum_comp (contrEquiv1 dot_S50000x256_S256x128_S50000x128_1_0_0_1_n_n 256 rfl rfl).symm]
    refine Finset.sum_congr rfl fun k _ => ?_
    show _ = Cert.Spec.normAct Cert.Spec.eps Cert.Spec.zero z (Cert.Spec.asRow mean) (Cert.Spec.asRow var)
      (Cert.Spec.layerRow g 3) (Cert.Spec.layerRow β 3) r k * Cert.Spec.layerMat w 3 (ix2 k c)
    have hl : dot_S50000x256_S256x128_S50000x128_1_0_0_1_n_n.lhsIdx (ix2 r c) ((contrEquiv1 dot_S50000x256_S256x128_S50000x128_1_0_0_1_n_n 256 rfl rfl).symm k) = ix2 r k := by
      funext a; apply Fin.ext
      match a with
      | ⟨0, _⟩ => rfl
      | ⟨1, _⟩ => rfl
    have hr : dot_S50000x256_S256x128_S50000x128_1_0_0_1_n_n.rhsIdx (ix2 r c) ((contrEquiv1 dot_S50000x256_S256x128_S50000x128_1_0_0_1_n_n 256 rfl rfl).symm k) = ix2 k c := by
      funext a; apply Fin.ext
      match a with
      | ⟨0, _⟩ => rfl
      | ⟨1, _⟩ => rfl
    rw [hl, hr]
    refine congrArg₂ (· * ·) ?_ ?_
    · unfold Cert.Spec.normAct
      rw [maximumf_apply, addf_apply, mulf_apply, mulf_apply, subf_apply]
      refine congrArg₂ max (congrArg₂ (· + ·) (congrArg₂ (· * ·) (congrArg₂ (· * ·) ?_ (congrArg₂ (· - ·) rfl ?_)) ?_) ?_) rfl
      · show _ = g (ix2 (3 : Fin 5) k)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans ?_
        · intro d
          match d with
          | ⟨0, _⟩ => rfl
        refine (shapeCast_apply _ _ (ix1 k) (ix2 (0 : Fin 1) k) ?_).trans ?_
        · rw [Shape.rowMajor_val_two, Shape.rowMajor_val_one]
          show 0 * 256 + k.val = k.val
          omega
        · refine (extractStridedSlice_apply _ _ _ (ix2 (0 : Fin 1) k) (ix2 (3 : Fin 5) k) ?_).trans rfl
          intro d
          match d with
          | ⟨0, _⟩ => rfl
          | ⟨1, _⟩ => show k.val = 0 + k.val; omega
      · show _ = mean (ix1 k)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans rfl
        intro d
        match d with
        | ⟨0, _⟩ => rfl
      · show _ = FloatOps.rsqrt (F := Ideal) (φ := .f32) (var (ix1 k) + Cert.Spec.eps)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans rfl
        intro d
        match d with
        | ⟨0, _⟩ => rfl
      · show _ = β (ix2 (3 : Fin 5) k)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans ?_
        · intro d
          match d with
          | ⟨0, _⟩ => rfl
        refine (shapeCast_apply _ _ (ix1 k) (ix2 (0 : Fin 1) k) ?_).trans ?_
        · rw [Shape.rowMajor_val_two, Shape.rowMajor_val_one]
          show 0 * 256 + k.val = k.val
          omega
        · refine (extractStridedSlice_apply _ _ _ (ix2 (0 : Fin 1) k) (ix2 (3 : Fin 5) k) ?_).trans rfl
          intro d
          match d with
          | ⟨0, _⟩ => rfl
          | ⟨1, _⟩ => show k.val = 0 + k.val; omega
    · show _ = w (ix3 (3 : Fin 5) k c)
      refine (shapeCast_apply _ _ (ix2 k c) (ix3 (0 : Fin 1) k c) ?_).trans ?_
      · rw [Shape.rowMajor_val_three, Shape.rowMajor_val_two]
        show ((0 * 256 + k.val) * 128 + c.val) = k.val * 128 + c.val
        omega
      · refine (extractStridedSlice_apply _ _ _ (ix3 (0 : Fin 1) k c) (ix3 (3 : Fin 5) k c) ?_).trans rfl
        intro d
        match d with
        | ⟨0, _⟩ => rfl
        | ⟨1, _⟩ => show k.val = 0 + k.val; omega
        | ⟨2, _⟩ => show c.val = 0 + c.val; omega
  · show _ = b (ix2 (3 : Fin 5) c)
    refine (broadcastInDim_apply _ _ _ (ix2 r c) (ix2 (0 : Fin 1) c) ?_).trans ?_
    · intro d
      match d with
      | ⟨0, _⟩ => rfl
      | ⟨1, _⟩ => rfl
    refine (broadcastInDim_apply _ _ _ (ix2 (0 : Fin 1) c) (ix1 c) ?_).trans ?_
    · intro d
      match d with
      | ⟨0, _⟩ => rfl
    refine (shapeCast_apply _ _ (ix1 c) (ix2 (0 : Fin 1) c) ?_).trans ?_
    · rw [Shape.rowMajor_val_two, Shape.rowMajor_val_one]
      show 0 * 128 + c.val = c.val
      omega
    · refine (extractStridedSlice_apply _ _ _ (ix2 (0 : Fin 1) c) (ix2 (3 : Fin 5) c) ?_).trans rfl
      intro d
      match d with
      | ⟨0, _⟩ => rfl
      | ⟨1, _⟩ => show c.val = 0 + c.val; omega

/-- Layer 4's edge embedding as the program spells it. -/
def affRaw4 (a : FVec Ideal S450000x3 .f32) (w : FVec Ideal S5x3x128 .f32) (b : FVec Ideal S5x128 .f32) : FVec Ideal S450000x128 .f32 :=
  addf
    (Host.dotGeneral (F := Ideal) dot_S450000x3_S3x128_S450000x128_1_0_0_1_n_n none a
      (fun i => shapeCast S3x128 (extractStridedSlice S1x3x128 ![4, 0, 0] w slices_S5x3x128_S1x3x128_4_0_0) shapeCasts_S1x3x128_S3x128 i))
    (broadcastInDim S450000x128 ![0, 1] bcast_S1x128_S450000x128_0_1
      (broadcastInDim S1x128 ![1] bcast_S128_S1x128_1
        (fun i => shapeCast S128 (extractStridedSlice S1x128 ![4, 0] b slices_S5x128_S1x128_4_0) shapeCasts_S1x128_S128 i)))

/-- Layer 4's first product as the program spells it. -/
def twoRaw4 (ax ae : FVec Ideal S50000x128 .f32) (w : FVec Ideal S5x256x256 .f32) (b : FVec Ideal S5x256 .f32) : FVec Ideal S50000x256 .f32 :=
  addf
    (Host.dotGeneral (F := Ideal) dot_S50000x256_S256x256_S50000x256_1_0_0_1_n_n none
      (concatenate S50000x256 1 [⟨S50000x128, ax⟩, ⟨S50000x128, ae⟩] concatenates_S50000x128_S50000x128_S50000x256_d1)
      (fun i => shapeCast S256x256 (extractStridedSlice S1x256x256 ![4, 0, 0] w slices_S5x256x256_S1x256x256_4_0_0) shapeCasts_S1x256x256_S256x256 i))
    (broadcastInDim S50000x256 ![0, 1] bcast_S1x256_S50000x256_0_1
      (broadcastInDim S1x256 ![1] bcast_S256_S1x256_1
        (fun i => shapeCast S256 (extractStridedSlice S1x256 ![4, 0] b slices_S5x256_S1x256_4_0) shapeCasts_S1x256_S256 i)))

/-- Layer 4's normalization, positive part and second product as the program spells them. -/
def normRaw4 (z : FVec Ideal S50000x256 .f32) (mean var : FVec Ideal S256 .f32) (g β : FVec Ideal S5x256 .f32)
    (w : FVec Ideal S5x256x128 .f32) (b : FVec Ideal S5x128 .f32) : FVec Ideal S50000x128 .f32 :=
  addf
    (Host.dotGeneral (F := Ideal) dot_S50000x256_S256x128_S50000x128_1_0_0_1_n_n none
      (maximumf
        (addf
          (mulf
            (mulf
              (broadcastInDim S50000x256 ![0, 1] bcast_S1x256_S50000x256_0_1
                (broadcastInDim S1x256 ![1] bcast_S256_S1x256_1
                  (fun i => shapeCast S256 (extractStridedSlice S1x256 ![4, 0] g slices_S5x256_S1x256_4_0) shapeCasts_S1x256_S256 i)))
              (subf z (broadcastInDim S50000x256 ![0, 1] bcast_S1x256_S50000x256_0_1 (broadcastInDim S1x256 ![1] bcast_S256_S1x256_1 mean))))
            (broadcastInDim S50000x256 ![0, 1] bcast_S1x256_S50000x256_0_1
              (broadcastInDim S1x256 ![1] bcast_S256_S1x256_1
                (Host.rsqrt (F := Ideal) (addf var (broadcastInDim S256 ![] bcast_S_S256 (constant (F := Ideal) S_ .f32 0x3727C5AC#32)))))))
          (broadcastInDim S50000x256 ![0, 1] bcast_S1x256_S50000x256_0_1
            (broadcastInDim S1x256 ![1] bcast_S256_S1x256_1
              (fun i => shapeCast S256 (extractStridedSlice S1x256 ![4, 0] β slices_S5x256_S1x256_4_0) shapeCasts_S1x256_S256 i))))
        (broadcastInDim S50000x256 ![] bcast_S_S50000x256 (constant (F := Ideal) S_ .f32 0x00000000#32)))
      (fun i => shapeCast S256x128 (extractStridedSlice S1x256x128 ![4, 0, 0] w slices_S5x256x128_S1x256x128_4_0_0) shapeCasts_S1x256x128_S256x128 i))
    (broadcastInDim S50000x128 ![0, 1] bcast_S1x128_S50000x128_0_1
      (broadcastInDim S1x128 ![1] bcast_S128_S1x128_1
        (fun i => shapeCast S128 (extractStridedSlice S1x128 ![4, 0] b slices_S5x128_S1x128_4_0) shapeCasts_S1x128_S128 i)))

theorem affRaw4_eq (a : FVec Ideal S450000x3 .f32) (w : FVec Ideal S5x3x128 .f32) (b : FVec Ideal S5x128 .f32) :
    affRaw4 a w b = Cert.Spec.affine (M := 450000) (K := 3) (D := 128) a (Cert.Spec.layerMat w 4) (Cert.Spec.layerRow b 4) := by
  funext j
  obtain ⟨r, c, rfl⟩ : ∃ r c, j = ix2 r c := ⟨j 0, j 1, eq_ix2 j⟩
  unfold affRaw4 Cert.Spec.affine
  rw [addf_apply]
  refine congrArg₂ (· + ·) ?_ ?_
  · simp only [Host.dotGeneral]
    rw [Ideal.dotGeneral_apply]
    rw [← Equiv.sum_comp (contrEquiv1 dot_S450000x3_S3x128_S450000x128_1_0_0_1_n_n 3 rfl rfl).symm]
    refine Finset.sum_congr rfl fun k _ => ?_
    show _ = a (ix2 r k) * w (ix3 (4 : Fin 5) k c)
    have hl : dot_S450000x3_S3x128_S450000x128_1_0_0_1_n_n.lhsIdx (ix2 r c) ((contrEquiv1 dot_S450000x3_S3x128_S450000x128_1_0_0_1_n_n 3 rfl rfl).symm k) = ix2 r k := by
      funext a; apply Fin.ext
      match a with
      | ⟨0, _⟩ => rfl
      | ⟨1, _⟩ => rfl
    have hr : dot_S450000x3_S3x128_S450000x128_1_0_0_1_n_n.rhsIdx (ix2 r c) ((contrEquiv1 dot_S450000x3_S3x128_S450000x128_1_0_0_1_n_n 3 rfl rfl).symm k) = ix2 k c := by
      funext a; apply Fin.ext
      match a with
      | ⟨0, _⟩ => rfl
      | ⟨1, _⟩ => rfl
    rw [hl, hr]
    refine congrArg (a (ix2 r k) * ·) ?_
    refine (shapeCast_apply _ _ (ix2 k c) (ix3 (0 : Fin 1) k c) ?_).trans ?_
    · rw [Shape.rowMajor_val_three, Shape.rowMajor_val_two]
      show ((0 * 3 + k.val) * 128 + c.val) = k.val * 128 + c.val
      omega
    · refine (extractStridedSlice_apply _ _ _ (ix3 (0 : Fin 1) k c) (ix3 (4 : Fin 5) k c) ?_).trans rfl
      intro d
      match d with
      | ⟨0, _⟩ => rfl
      | ⟨1, _⟩ => show k.val = 0 + k.val; omega
      | ⟨2, _⟩ => show c.val = 0 + c.val; omega
  · show _ = b (ix2 (4 : Fin 5) c)
    refine (broadcastInDim_apply _ _ _ (ix2 r c) (ix2 (0 : Fin 1) c) ?_).trans ?_
    · intro d
      match d with
      | ⟨0, _⟩ => rfl
      | ⟨1, _⟩ => rfl
    refine (broadcastInDim_apply _ _ _ (ix2 (0 : Fin 1) c) (ix1 c) ?_).trans ?_
    · intro d
      match d with
      | ⟨0, _⟩ => rfl
    refine (shapeCast_apply _ _ (ix1 c) (ix2 (0 : Fin 1) c) ?_).trans ?_
    · rw [Shape.rowMajor_val_two, Shape.rowMajor_val_one]
      show 0 * 128 + c.val = c.val
      omega
    · refine (extractStridedSlice_apply _ _ _ (ix2 (0 : Fin 1) c) (ix2 (4 : Fin 5) c) ?_).trans rfl
      intro d
      match d with
      | ⟨0, _⟩ => rfl
      | ⟨1, _⟩ => show c.val = 0 + c.val; omega

theorem twoRaw4_eq (ax ae : FVec Ideal S50000x128 .f32) (w : FVec Ideal S5x256x256 .f32) (b : FVec Ideal S5x256 .f32) :
    twoRaw4 ax ae w b = Cert.Spec.twoProducts (M := 50000) (K := 128) (D := 256) ax ae
      (Cert.Spec.layerMatTop w 4) (Cert.Spec.layerMatBot w 4) (Cert.Spec.layerRow b 4) := by
  funext j
  obtain ⟨r, c, rfl⟩ : ∃ r c, j = ix2 r c := ⟨j 0, j 1, eq_ix2 j⟩
  unfold twoRaw4 Cert.Spec.twoProducts
  rw [addf_apply]
  refine congrArg₂ (· + ·) ?_ ?_
  · simp only [Host.dotGeneral]
    rw [Ideal.dotGeneral_apply]
    rw [← Equiv.sum_comp (contrEquiv1 dot_S50000x256_S256x256_S50000x256_1_0_0_1_n_n 256 rfl rfl).symm]
    refine (Cert.Spec.sum_halves 128 _).trans ?_
    refine congrArg₂ (· + ·) (Finset.sum_congr rfl fun k _ => ?_) (Finset.sum_congr rfl fun k _ => ?_)
    · show _ = ax (ix2 r k) * Cert.Spec.layerMatTop w 4 (ix2 k c)
      have hl : dot_S50000x256_S256x256_S50000x256_1_0_0_1_n_n.lhsIdx (ix2 r c) ((contrEquiv1 dot_S50000x256_S256x256_S50000x256_1_0_0_1_n_n 256 rfl rfl).symm (Fin.castAdd 128 k)) = ix2 r (Fin.castAdd 128 k) := by
        funext a; apply Fin.ext
        match a with
        | ⟨0, _⟩ => rfl
        | ⟨1, _⟩ => rfl
      have hr : dot_S50000x256_S256x256_S50000x256_1_0_0_1_n_n.rhsIdx (ix2 r c) ((contrEquiv1 dot_S50000x256_S256x256_S50000x256_1_0_0_1_n_n 256 rfl rfl).symm (Fin.castAdd 128 k)) = ix2 (Fin.castAdd 128 k) c := by
        funext a; apply Fin.ext
        match a with
        | ⟨0, _⟩ => rfl
        | ⟨1, _⟩ => rfl
      rw [hl, hr]
      refine congrArg₂ (· * ·) ?_ ?_
      · refine concatenate_pair_apply_left (1 : Fin S50000x256.rank) ax ae _ (ix2 r (Fin.castAdd 128 k)) rfl (ix2 r k) ?_
        intro d
        match d with
        | ⟨0, _⟩ => rfl
        | ⟨1, _⟩ => rfl
      · show _ = w (ix3 (4 : Fin 5) (Fin.castAdd 128 k) c)
        refine (shapeCast_apply _ _ (ix2 (Fin.castAdd 128 k) c) (ix3 (0 : Fin 1) (Fin.castAdd 128 k) c) ?_).trans ?_
        · rw [Shape.rowMajor_val_three, Shape.rowMajor_val_two]
          show ((0 * 256 + (Fin.castAdd 128 k).val) * 256 + c.val) = (Fin.castAdd 128 k).val * 256 + c.val
          omega
        · refine (extractStridedSlice_apply _ _ _ (ix3 (0 : Fin 1) (Fin.castAdd 128 k) c) (ix3 (4 : Fin 5) (Fin.castAdd 128 k) c) ?_).trans rfl
          intro d
          match d with
          | ⟨0, _⟩ => rfl
          | ⟨1, _⟩ => show (Fin.castAdd 128 k).val = 0 + (Fin.castAdd 128 k).val; omega
          | ⟨2, _⟩ => show c.val = 0 + c.val; omega
    · show _ = ae (ix2 r k) * Cert.Spec.layerMatBot w 4 (ix2 k c)
      have hl : dot_S50000x256_S256x256_S50000x256_1_0_0_1_n_n.lhsIdx (ix2 r c) ((contrEquiv1 dot_S50000x256_S256x256_S50000x256_1_0_0_1_n_n 256 rfl rfl).symm (Fin.natAdd 128 k)) = ix2 r (Fin.natAdd 128 k) := by
        funext a; apply Fin.ext
        match a with
        | ⟨0, _⟩ => rfl
        | ⟨1, _⟩ => rfl
      have hr : dot_S50000x256_S256x256_S50000x256_1_0_0_1_n_n.rhsIdx (ix2 r c) ((contrEquiv1 dot_S50000x256_S256x256_S50000x256_1_0_0_1_n_n 256 rfl rfl).symm (Fin.natAdd 128 k)) = ix2 (Fin.natAdd 128 k) c := by
        funext a; apply Fin.ext
        match a with
        | ⟨0, _⟩ => rfl
        | ⟨1, _⟩ => rfl
      rw [hl, hr]
      refine congrArg₂ (· * ·) ?_ ?_
      · refine concatenate_pair_apply_right (1 : Fin S50000x256.rank) ax ae _ (ix2 r (Fin.natAdd 128 k)) rfl rfl (ix2 r k) ?_ ?_
        · intro d
          match d with
          | ⟨0, _⟩ => exact fun _ => rfl
          | ⟨1, _⟩ => exact fun hne => absurd rfl hne
        · show k.val + 128 = 128 + k.val
          omega
      · show _ = w (ix3 (4 : Fin 5) (Fin.natAdd 128 k) c)
        refine (shapeCast_apply _ _ (ix2 (Fin.natAdd 128 k) c) (ix3 (0 : Fin 1) (Fin.natAdd 128 k) c) ?_).trans ?_
        · rw [Shape.rowMajor_val_three, Shape.rowMajor_val_two]
          show ((0 * 256 + (Fin.natAdd 128 k).val) * 256 + c.val) = (Fin.natAdd 128 k).val * 256 + c.val
          omega
        · refine (extractStridedSlice_apply _ _ _ (ix3 (0 : Fin 1) (Fin.natAdd 128 k) c) (ix3 (4 : Fin 5) (Fin.natAdd 128 k) c) ?_).trans rfl
          intro d
          match d with
          | ⟨0, _⟩ => rfl
          | ⟨1, _⟩ => show (Fin.natAdd 128 k).val = 0 + (Fin.natAdd 128 k).val; omega
          | ⟨2, _⟩ => show c.val = 0 + c.val; omega
  · show _ = b (ix2 (4 : Fin 5) c)
    refine (broadcastInDim_apply _ _ _ (ix2 r c) (ix2 (0 : Fin 1) c) ?_).trans ?_
    · intro d
      match d with
      | ⟨0, _⟩ => rfl
      | ⟨1, _⟩ => rfl
    refine (broadcastInDim_apply _ _ _ (ix2 (0 : Fin 1) c) (ix1 c) ?_).trans ?_
    · intro d
      match d with
      | ⟨0, _⟩ => rfl
    refine (shapeCast_apply _ _ (ix1 c) (ix2 (0 : Fin 1) c) ?_).trans ?_
    · rw [Shape.rowMajor_val_two, Shape.rowMajor_val_one]
      show 0 * 256 + c.val = c.val
      omega
    · refine (extractStridedSlice_apply _ _ _ (ix2 (0 : Fin 1) c) (ix2 (4 : Fin 5) c) ?_).trans rfl
      intro d
      match d with
      | ⟨0, _⟩ => rfl
      | ⟨1, _⟩ => show c.val = 0 + c.val; omega

theorem normRaw4_eq (z : FVec Ideal S50000x256 .f32) (mean var : FVec Ideal S256 .f32) (g β : FVec Ideal S5x256 .f32)
    (w : FVec Ideal S5x256x128 .f32) (b : FVec Ideal S5x128 .f32) :
    normRaw4 z mean var g β w b
      = Cert.Spec.normProduct (M := 50000) (K := 256) (D := 128) Cert.Spec.eps Cert.Spec.zero z (Cert.Spec.asRow mean) (Cert.Spec.asRow var)
          (Cert.Spec.layerRow g 4) (Cert.Spec.layerRow β 4) (Cert.Spec.layerMat w 4) (Cert.Spec.layerRow b 4) := by
  funext j
  obtain ⟨r, c, rfl⟩ : ∃ r c, j = ix2 r c := ⟨j 0, j 1, eq_ix2 j⟩
  unfold normRaw4 Cert.Spec.normProduct
  rw [addf_apply]
  refine congrArg₂ (· + ·) ?_ ?_
  · simp only [Host.dotGeneral]
    rw [Ideal.dotGeneral_apply]
    rw [← Equiv.sum_comp (contrEquiv1 dot_S50000x256_S256x128_S50000x128_1_0_0_1_n_n 256 rfl rfl).symm]
    refine Finset.sum_congr rfl fun k _ => ?_
    show _ = Cert.Spec.normAct Cert.Spec.eps Cert.Spec.zero z (Cert.Spec.asRow mean) (Cert.Spec.asRow var)
      (Cert.Spec.layerRow g 4) (Cert.Spec.layerRow β 4) r k * Cert.Spec.layerMat w 4 (ix2 k c)
    have hl : dot_S50000x256_S256x128_S50000x128_1_0_0_1_n_n.lhsIdx (ix2 r c) ((contrEquiv1 dot_S50000x256_S256x128_S50000x128_1_0_0_1_n_n 256 rfl rfl).symm k) = ix2 r k := by
      funext a; apply Fin.ext
      match a with
      | ⟨0, _⟩ => rfl
      | ⟨1, _⟩ => rfl
    have hr : dot_S50000x256_S256x128_S50000x128_1_0_0_1_n_n.rhsIdx (ix2 r c) ((contrEquiv1 dot_S50000x256_S256x128_S50000x128_1_0_0_1_n_n 256 rfl rfl).symm k) = ix2 k c := by
      funext a; apply Fin.ext
      match a with
      | ⟨0, _⟩ => rfl
      | ⟨1, _⟩ => rfl
    rw [hl, hr]
    refine congrArg₂ (· * ·) ?_ ?_
    · unfold Cert.Spec.normAct
      rw [maximumf_apply, addf_apply, mulf_apply, mulf_apply, subf_apply]
      refine congrArg₂ max (congrArg₂ (· + ·) (congrArg₂ (· * ·) (congrArg₂ (· * ·) ?_ (congrArg₂ (· - ·) rfl ?_)) ?_) ?_) rfl
      · show _ = g (ix2 (4 : Fin 5) k)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans ?_
        · intro d
          match d with
          | ⟨0, _⟩ => rfl
        refine (shapeCast_apply _ _ (ix1 k) (ix2 (0 : Fin 1) k) ?_).trans ?_
        · rw [Shape.rowMajor_val_two, Shape.rowMajor_val_one]
          show 0 * 256 + k.val = k.val
          omega
        · refine (extractStridedSlice_apply _ _ _ (ix2 (0 : Fin 1) k) (ix2 (4 : Fin 5) k) ?_).trans rfl
          intro d
          match d with
          | ⟨0, _⟩ => rfl
          | ⟨1, _⟩ => show k.val = 0 + k.val; omega
      · show _ = mean (ix1 k)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans rfl
        intro d
        match d with
        | ⟨0, _⟩ => rfl
      · show _ = FloatOps.rsqrt (F := Ideal) (φ := .f32) (var (ix1 k) + Cert.Spec.eps)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans rfl
        intro d
        match d with
        | ⟨0, _⟩ => rfl
      · show _ = β (ix2 (4 : Fin 5) k)
        refine (broadcastInDim_apply _ _ _ (ix2 r k) (ix2 (0 : Fin 1) k) ?_).trans ?_
        · intro d
          match d with
          | ⟨0, _⟩ => rfl
          | ⟨1, _⟩ => rfl
        refine (broadcastInDim_apply _ _ _ (ix2 (0 : Fin 1) k) (ix1 k) ?_).trans ?_
        · intro d
          match d with
          | ⟨0, _⟩ => rfl
        refine (shapeCast_apply _ _ (ix1 k) (ix2 (0 : Fin 1) k) ?_).trans ?_
        · rw [Shape.rowMajor_val_two, Shape.rowMajor_val_one]
          show 0 * 256 + k.val = k.val
          omega
        · refine (extractStridedSlice_apply _ _ _ (ix2 (0 : Fin 1) k) (ix2 (4 : Fin 5) k) ?_).trans rfl
          intro d
          match d with
          | ⟨0, _⟩ => rfl
          | ⟨1, _⟩ => show k.val = 0 + k.val; omega
    · show _ = w (ix3 (4 : Fin 5) k c)
      refine (shapeCast_apply _ _ (ix2 k c) (ix3 (0 : Fin 1) k c) ?_).trans ?_
      · rw [Shape.rowMajor_val_three, Shape.rowMajor_val_two]
        show ((0 * 256 + k.val) * 128 + c.val) = k.val * 128 + c.val
        omega
      · refine (extractStridedSlice_apply _ _ _ (ix3 (0 : Fin 1) k c) (ix3 (4 : Fin 5) k c) ?_).trans rfl
        intro d
        match d with
        | ⟨0, _⟩ => rfl
        | ⟨1, _⟩ => show k.val = 0 + k.val; omega
        | ⟨2, _⟩ => show c.val = 0 + c.val; omega
  · show _ = b (ix2 (4 : Fin 5) c)
    refine (broadcastInDim_apply _ _ _ (ix2 r c) (ix2 (0 : Fin 1) c) ?_).trans ?_
    · intro d
      match d with
      | ⟨0, _⟩ => rfl
      | ⟨1, _⟩ => rfl
    refine (broadcastInDim_apply _ _ _ (ix2 (0 : Fin 1) c) (ix1 c) ?_).trans ?_
    · intro d
      match d with
      | ⟨0, _⟩ => rfl
    refine (shapeCast_apply _ _ (ix1 c) (ix2 (0 : Fin 1) c) ?_).trans ?_
    · rw [Shape.rowMajor_val_two, Shape.rowMajor_val_one]
      show 0 * 128 + c.val = c.val
      omega
    · refine (extractStridedSlice_apply _ _ _ (ix2 (0 : Fin 1) c) (ix2 (4 : Fin 5) c) ?_).trans rfl
      intro d
      match d with
      | ⟨0, _⟩ => rfl
      | ⟨1, _⟩ => show c.val = 0 + c.val; omega

end Cert.ReferenceIdeal.RefValue

end
-- ==== Proof.RefLayers.lean ====
/- Each layer's output buffer, after the layer's operations from any contents, as the layer's value at those contents:
   the operations' fold is read back operation by operation, the dense stages appear in the program's spelling, and
   each is replaced by its specification. -/
import proofs.«132731_j31379031065008_1_alg».proof.Proof.RefRun
import proofs.«132731_j31379031065008_1_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- Two blocks side by side, as a function of the blocks (a rewriting step reaches the blocks there). -/
def cat2 (a b : FVec Ideal S50000x128 .f32) : FVec Ideal S50000x256 .f32 :=
  concatenate S50000x256 1 [⟨S50000x128, a⟩, ⟨S50000x128, b⟩] concatenates_S50000x128_S50000x128_S50000x256_d1
theorem cat2_eq (a b : FVec Ideal S50000x128 .f32) :
    concatenate S50000x256 1 [⟨S50000x128, a⟩, ⟨S50000x128, b⟩] concatenates_S50000x128_S50000x128_S50000x256_d1 = cat2 a b := rfl

/-- A value written through a typed reference and read back through it is the value. -/
theorem ofBuf_toBuf {T : BufTy} {Val : EltTy → Type} (x : TRef sig T) (v : T.Contents Val) : x.ofBuf (x.toBuf v) = v := by
  simp only [TRef.ofBuf, TRef.toBuf, cast_cast, cast_eq]

/-- Layer 0's output buffer after its operations, with the dense stages as the program spells them. -/
theorem layer0_raw (V : Valuation τ sig (Elt Ideal)) :
    after (layer0 (F := Ideal)) V (Proc.devRef .tc main_v78)
      = maximumf (normRaw0 (twoRaw0 (aggX (inRaw (V (Proc.devRef .tc main_arg0)) (V (Proc.devRef .tc main_arg3)) (V (Proc.devRef .tc main_arg4))) (V (Proc.devRef .tc main_v3)) (V (Proc.devRef .tc main_v6))) (aggE (affRaw0 (V (Proc.devRef .tc main_v11)) (V (Proc.devRef .tc main_arg5)) (V (Proc.devRef .tc main_arg6))) (V (Proc.devRef .tc main_v6))) (V (Proc.devRef .tc main_arg7)) (V (Proc.devRef .tc main_arg8))) (colMean (twoRaw0 (aggX (inRaw (V (Proc.devRef .tc main_arg0)) (V (Proc.devRef .tc main_arg3)) (V (Proc.devRef .tc main_arg4))) (V (Proc.devRef .tc main_v3)) (V (Proc.devRef .tc main_v6))) (aggE (affRaw0 (V (Proc.devRef .tc main_v11)) (V (Proc.devRef .tc main_arg5)) (V (Proc.devRef .tc main_arg6))) (V (Proc.devRef .tc main_v6))) (V (Proc.devRef .tc main_arg7)) (V (Proc.devRef .tc main_arg8)))) (colVar (twoRaw0 (aggX (inRaw (V (Proc.devRef .tc main_arg0)) (V (Proc.devRef .tc main_arg3)) (V (Proc.devRef .tc main_arg4))) (V (Proc.devRef .tc main_v3)) (V (Proc.devRef .tc main_v6))) (aggE (affRaw0 (V (Proc.devRef .tc main_v11)) (V (Proc.devRef .tc main_arg5)) (V (Proc.devRef .tc main_arg6))) (V (Proc.devRef .tc main_v6))) (V (Proc.devRef .tc main_arg7)) (V (Proc.devRef .tc main_arg8)))) (V (Proc.devRef .tc main_arg9)) (V (Proc.devRef .tc main_arg10)) (V (Proc.devRef .tc main_arg11)) (V (Proc.devRef .tc main_arg12)))
          (broadcastInDim S50000x128 ![] bcast_S_S50000x128 (constant (F := Ideal) S_ .f32 0x00000000#32)) := by
  rw [after_append]
  simp (disch := decide) only [after_cons, after_nil, cat2_eq,
      ofBuf_toBuf, nullary_result', unary_result', binary_result', ternary_result', reshape_result',
      nullary_result_ne', unary_result_ne', binary_result_ne', ternary_result_ne', reshape_result_ne']
  rfl

/-- Layer 0's output buffer after its operations is the layer's value at the contents before. -/
theorem layer0_val (V : Valuation τ sig (Elt Ideal)) :
    after (layer0 (F := Ideal)) V (Proc.devRef .tc main_v78)
      = layerOut 0 (Cert.Spec.affine (M := 50000) (K := 3) (D := 128) (V (Proc.devRef .tc main_arg0)) (V (Proc.devRef .tc main_arg3)) (Cert.Spec.asRow (V (Proc.devRef .tc main_arg4)))) (V (Proc.devRef .tc main_v3)) (V (Proc.devRef .tc main_v6)) (V (Proc.devRef .tc main_v11)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [layer0_raw, inRaw_eq, affRaw0_eq, twoRaw0_eq, normRaw0_pos_eq]
  rfl

/-- Layer 1's output buffer after its operations, with the dense stages as the program spells them. -/
theorem layer1_raw (V : Valuation τ sig (Elt Ideal)) :
    after (layer1 (F := Ideal)) V (Proc.devRef .tc main_v141)
      = maximumf (normRaw1 (twoRaw1 (aggX (V (Proc.devRef .tc main_v78)) (V (Proc.devRef .tc main_v3)) (V (Proc.devRef .tc main_v6))) (aggE (affRaw1 (V (Proc.devRef .tc main_v11)) (V (Proc.devRef .tc main_arg5)) (V (Proc.devRef .tc main_arg6))) (V (Proc.devRef .tc main_v6))) (V (Proc.devRef .tc main_arg7)) (V (Proc.devRef .tc main_arg8))) (colMean (twoRaw1 (aggX (V (Proc.devRef .tc main_v78)) (V (Proc.devRef .tc main_v3)) (V (Proc.devRef .tc main_v6))) (aggE (affRaw1 (V (Proc.devRef .tc main_v11)) (V (Proc.devRef .tc main_arg5)) (V (Proc.devRef .tc main_arg6))) (V (Proc.devRef .tc main_v6))) (V (Proc.devRef .tc main_arg7)) (V (Proc.devRef .tc main_arg8)))) (colVar (twoRaw1 (aggX (V (Proc.devRef .tc main_v78)) (V (Proc.devRef .tc main_v3)) (V (Proc.devRef .tc main_v6))) (aggE (affRaw1 (V (Proc.devRef .tc main_v11)) (V (Proc.devRef .tc main_arg5)) (V (Proc.devRef .tc main_arg6))) (V (Proc.devRef .tc main_v6))) (V (Proc.devRef .tc main_arg7)) (V (Proc.devRef .tc main_arg8)))) (V (Proc.devRef .tc main_arg9)) (V (Proc.devRef .tc main_arg10)) (V (Proc.devRef .tc main_arg11)) (V (Proc.devRef .tc main_arg12)))
          (broadcastInDim S50000x128 ![] bcast_S_S50000x128 (constant (F := Ideal) S_ .f32 0x00000000#32)) := by
  rw [after_append]
  simp (disch := decide) only [after_cons, after_nil, cat2_eq,
      ofBuf_toBuf, nullary_result', unary_result', binary_result', ternary_result', reshape_result',
      nullary_result_ne', unary_result_ne', binary_result_ne', ternary_result_ne', reshape_result_ne']
  rfl

/-- Layer 1's output buffer after its operations is the layer's value at the contents before. -/
theorem layer1_val (V : Valuation τ sig (Elt Ideal)) :
    after (layer1 (F := Ideal)) V (Proc.devRef .tc main_v141)
      = layerOut 1 (V (Proc.devRef .tc main_v78)) (V (Proc.devRef .tc main_v3)) (V (Proc.devRef .tc main_v6)) (V (Proc.devRef .tc main_v11)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [layer1_raw, affRaw1_eq, twoRaw1_eq, normRaw1_pos_eq]
  rfl

/-- Layer 2's output buffer after its operations, with the dense stages as the program spells them. -/
theorem layer2_raw (V : Valuation τ sig (Elt Ideal)) :
    after (layer2 (F := Ideal)) V (Proc.devRef .tc main_v204)
      = maximumf (normRaw2 (twoRaw2 (aggX (V (Proc.devRef .tc main_v141)) (V (Proc.devRef .tc main_v3)) (V (Proc.devRef .tc main_v6))) (aggE (affRaw2 (V (Proc.devRef .tc main_v11)) (V (Proc.devRef .tc main_arg5)) (V (Proc.devRef .tc main_arg6))) (V (Proc.devRef .tc main_v6))) (V (Proc.devRef .tc main_arg7)) (V (Proc.devRef .tc main_arg8))) (colMean (twoRaw2 (aggX (V (Proc.devRef .tc main_v141)) (V (Proc.devRef .tc main_v3)) (V (Proc.devRef .tc main_v6))) (aggE (affRaw2 (V (Proc.devRef .tc main_v11)) (V (Proc.devRef .tc main_arg5)) (V (Proc.devRef .tc main_arg6))) (V (Proc.devRef .tc main_v6))) (V (Proc.devRef .tc main_arg7)) (V (Proc.devRef .tc main_arg8)))) (colVar (twoRaw2 (aggX (V (Proc.devRef .tc main_v141)) (V (Proc.devRef .tc main_v3)) (V (Proc.devRef .tc main_v6))) (aggE (affRaw2 (V (Proc.devRef .tc main_v11)) (V (Proc.devRef .tc main_arg5)) (V (Proc.devRef .tc main_arg6))) (V (Proc.devRef .tc main_v6))) (V (Proc.devRef .tc main_arg7)) (V (Proc.devRef .tc main_arg8)))) (V (Proc.devRef .tc main_arg9)) (V (Proc.devRef .tc main_arg10)) (V (Proc.devRef .tc main_arg11)) (V (Proc.devRef .tc main_arg12)))
          (broadcastInDim S50000x128 ![] bcast_S_S50000x128 (constant (F := Ideal) S_ .f32 0x00000000#32)) := by
  rw [after_append]
  simp (disch := decide) only [after_cons, after_nil, cat2_eq,
      ofBuf_toBuf, nullary_result', unary_result', binary_result', ternary_result', reshape_result',
      nullary_result_ne', unary_result_ne', binary_result_ne', ternary_result_ne', reshape_result_ne']
  rfl

/-- Layer 2's output buffer after its operations is the layer's value at the contents before. -/
theorem layer2_val (V : Valuation τ sig (Elt Ideal)) :
    after (layer2 (F := Ideal)) V (Proc.devRef .tc main_v204)
      = layerOut 2 (V (Proc.devRef .tc main_v141)) (V (Proc.devRef .tc main_v3)) (V (Proc.devRef .tc main_v6)) (V (Proc.devRef .tc main_v11)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [layer2_raw, affRaw2_eq, twoRaw2_eq, normRaw2_pos_eq]
  rfl

/-- Layer 3's output buffer after its operations, with the dense stages as the program spells them. -/
theorem layer3_raw (V : Valuation τ sig (Elt Ideal)) :
    after (layer3 (F := Ideal)) V (Proc.devRef .tc main_v267)
      = maximumf (normRaw3 (twoRaw3 (aggX (V (Proc.devRef .tc main_v204)) (V (Proc.devRef .tc main_v3)) (V (Proc.devRef .tc main_v6))) (aggE (affRaw3 (V (Proc.devRef .tc main_v11)) (V (Proc.devRef .tc main_arg5)) (V (Proc.devRef .tc main_arg6))) (V (Proc.devRef .tc main_v6))) (V (Proc.devRef .tc main_arg7)) (V (Proc.devRef .tc main_arg8))) (colMean (twoRaw3 (aggX (V (Proc.devRef .tc main_v204)) (V (Proc.devRef .tc main_v3)) (V (Proc.devRef .tc main_v6))) (aggE (affRaw3 (V (Proc.devRef .tc main_v11)) (V (Proc.devRef .tc main_arg5)) (V (Proc.devRef .tc main_arg6))) (V (Proc.devRef .tc main_v6))) (V (Proc.devRef .tc main_arg7)) (V (Proc.devRef .tc main_arg8)))) (colVar (twoRaw3 (aggX (V (Proc.devRef .tc main_v204)) (V (Proc.devRef .tc main_v3)) (V (Proc.devRef .tc main_v6))) (aggE (affRaw3 (V (Proc.devRef .tc main_v11)) (V (Proc.devRef .tc main_arg5)) (V (Proc.devRef .tc main_arg6))) (V (Proc.devRef .tc main_v6))) (V (Proc.devRef .tc main_arg7)) (V (Proc.devRef .tc main_arg8)))) (V (Proc.devRef .tc main_arg9)) (V (Proc.devRef .tc main_arg10)) (V (Proc.devRef .tc main_arg11)) (V (Proc.devRef .tc main_arg12)))
          (broadcastInDim S50000x128 ![] bcast_S_S50000x128 (constant (F := Ideal) S_ .f32 0x00000000#32)) := by
  rw [after_append, after_append]
  simp (disch := decide) only [after_cons, after_nil, cat2_eq,
      ofBuf_toBuf, nullary_result', unary_result', binary_result', ternary_result', reshape_result',
      nullary_result_ne', unary_result_ne', binary_result_ne', ternary_result_ne', reshape_result_ne']
  rfl

/-- Layer 3's output buffer after its operations is the layer's value at the contents before. -/
theorem layer3_val (V : Valuation τ sig (Elt Ideal)) :
    after (layer3 (F := Ideal)) V (Proc.devRef .tc main_v267)
      = layerOut 3 (V (Proc.devRef .tc main_v204)) (V (Proc.devRef .tc main_v3)) (V (Proc.devRef .tc main_v6)) (V (Proc.devRef .tc main_v11)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [layer3_raw, affRaw3_eq, twoRaw3_eq, normRaw3_pos_eq]
  rfl

/-- Layer 4's output buffer after its operations, with the dense stages as the program spells them. -/
theorem layer4_raw (V : Valuation τ sig (Elt Ideal)) :
    after (layer4 (F := Ideal)) V (Proc.devRef .tc main_v329)
      = normRaw4 (twoRaw4 (aggX (V (Proc.devRef .tc main_v267)) (V (Proc.devRef .tc main_v3)) (V (Proc.devRef .tc main_v6))) (aggE (affRaw4 (V (Proc.devRef .tc main_v11)) (V (Proc.devRef .tc main_arg5)) (V (Proc.devRef .tc main_arg6))) (V (Proc.devRef .tc main_v6))) (V (Proc.devRef .tc main_arg7)) (V (Proc.devRef .tc main_arg8))) (colMean (twoRaw4 (aggX (V (Proc.devRef .tc main_v267)) (V (Proc.devRef .tc main_v3)) (V (Proc.devRef .tc main_v6))) (aggE (affRaw4 (V (Proc.devRef .tc main_v11)) (V (Proc.devRef .tc main_arg5)) (V (Proc.devRef .tc main_arg6))) (V (Proc.devRef .tc main_v6))) (V (Proc.devRef .tc main_arg7)) (V (Proc.devRef .tc main_arg8)))) (colVar (twoRaw4 (aggX (V (Proc.devRef .tc main_v267)) (V (Proc.devRef .tc main_v3)) (V (Proc.devRef .tc main_v6))) (aggE (affRaw4 (V (Proc.devRef .tc main_v11)) (V (Proc.devRef .tc main_arg5)) (V (Proc.devRef .tc main_arg6))) (V (Proc.devRef .tc main_v6))) (V (Proc.devRef .tc main_arg7)) (V (Proc.devRef .tc main_arg8)))) (V (Proc.devRef .tc main_arg9)) (V (Proc.devRef .tc main_arg10)) (V (Proc.devRef .tc main_arg11)) (V (Proc.devRef .tc main_arg12)) := by
  rw [after_append]
  simp (disch := decide) only [after_cons, after_nil, cat2_eq,
      ofBuf_toBuf, nullary_result', unary_result', binary_result', ternary_result', reshape_result',
      nullary_result_ne', unary_result_ne', binary_result_ne', ternary_result_ne', reshape_result_ne']
  rfl

/-- Layer 4's output buffer after its operations is the layer's value at the contents before. -/
theorem layer4_val (V : Valuation τ sig (Elt Ideal)) :
    after (layer4 (F := Ideal)) V (Proc.devRef .tc main_v329)
      = layerOutLast 4 (V (Proc.devRef .tc main_v267)) (V (Proc.devRef .tc main_v3)) (V (Proc.devRef .tc main_v6)) (V (Proc.devRef .tc main_v11)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [layer4_raw, affRaw4_eq, twoRaw4_eq, normRaw4_eq]
  rfl

end Cert.ReferenceIdeal.RefValue

end
-- ==== Proof.Bridge.lean ====
/-
  The two idealized programs compute the same node features, layer by layer.

  Both runs are folds of host operations over the launch memory (the kernel program's regions taken as single
  operations). After each layer, the buffer holding the layer's output is, on both sides, the same term of: the
  previous layer's output, the index arrays with the self loops appended, the edge features with the self loops'
  features appended, and the parameters — the edge embedding (an affine map), the two scatter-additions, the first
  linear map applied to the two aggregates (the reference applies it to their concatenation: a sum over 256 positions
  is the sum over the first 128 plus the sum over the last 128), the column statistics, the normalisation, the
  positive part and the second linear map. The shared parts (gather, scatter-additions, column mean and variance) are
  the same operations in both programs, compared once over arbitrary arrays. Every leaf of the two terms is read back
  to the contents after the programs' common first stretch, where they agree because the launch memories agree on the
  arguments. So the outputs agree after layer 0, hence after layer 1, …, hence at the end.
-/
import proofs.«132731_j31379031065008_1_alg».proof.Proof.KLayer0
import proofs.«132731_j31379031065008_1_alg».proof.Proof.KLayer1
import proofs.«132731_j31379031065008_1_alg».proof.Proof.KLayer2
import proofs.«132731_j31379031065008_1_alg».proof.Proof.KLayer3
import proofs.«132731_j31379031065008_1_alg».proof.Proof.KLayer4
import proofs.«132731_j31379031065008_1_alg».proof.Proof.RefPre
import proofs.«132731_j31379031065008_1_alg».proof.Proof.RefLayers

set_option maxRecDepth 16384
set_option maxHeartbeats 4000000

noncomputable section

namespace Cert.Bridge

open Idealize.ShloMosaic Idealize.ShloMosaic.TcCoe Idealize.SL.Sem

/-! ### The shared parts of a layer are the same functions in both programs -/

theorem aggX_eq (h : FVec Ideal Cert.ReferenceIdeal.S50000x128 .f32) (src dst : IVec Cert.ReferenceIdeal.S450000 32) :
    Cert.ReferenceIdeal.RefValue.aggX h src dst = Cert.KernelIdeal.Shared.aggX h src dst := rfl
theorem aggE_eq (e : FVec Ideal Cert.ReferenceIdeal.S450000x128 .f32) (dst : IVec Cert.ReferenceIdeal.S450000 32) :
    Cert.ReferenceIdeal.RefValue.aggE e dst = Cert.KernelIdeal.Shared.aggE e dst := rfl
theorem colMean_eq (z : FVec Ideal Cert.ReferenceIdeal.S50000x256 .f32) : Cert.ReferenceIdeal.RefValue.colMean z = Cert.KernelIdeal.Shared.colMean z := rfl
theorem colVar_eq (z : FVec Ideal Cert.ReferenceIdeal.S50000x256 .f32) : Cert.ReferenceIdeal.RefValue.colVar z = Cert.KernelIdeal.Shared.colVar z := rfl

/-- A layer's output as the reference side names it is the kernel side's term. -/
theorem layerOut_eq (l : Fin 5) (h : FVec Ideal Cert.ReferenceIdeal.S50000x128 .f32) (src dst : IVec Cert.ReferenceIdeal.S450000 32) (ea : FVec Ideal Cert.ReferenceIdeal.S450000x3 .f32)
    (a5 : FVec Ideal Cert.ReferenceIdeal.S5x3x128 .f32) (a6 : FVec Ideal Cert.ReferenceIdeal.S5x128 .f32) (a7 : FVec Ideal Cert.ReferenceIdeal.S5x256x256 .f32) (a8 a9 a10 : FVec Ideal Cert.ReferenceIdeal.S5x256 .f32)
    (a11 : FVec Ideal Cert.ReferenceIdeal.S5x256x128 .f32) (a12 : FVec Ideal Cert.ReferenceIdeal.S5x128 .f32) :
    Cert.ReferenceIdeal.RefValue.layerOut l h src dst ea a5 a6 a7 a8 a9 a10 a11 a12
      = Cert.KernelIdeal.Shared.outPos l (Cert.KernelIdeal.Shared.zTerm l h src dst ea a5 a6 a7 a8) a9 a10 a11 a12 := by
  unfold Cert.ReferenceIdeal.RefValue.layerOut Cert.ReferenceIdeal.RefValue.zOf Cert.KernelIdeal.Shared.outPos Cert.KernelIdeal.Shared.zTerm Cert.KernelIdeal.Shared.eembTerm
  simp only [aggX_eq, aggE_eq, colMean_eq, colVar_eq]

theorem layerOutLast_eq (l : Fin 5) (h : FVec Ideal Cert.ReferenceIdeal.S50000x128 .f32) (src dst : IVec Cert.ReferenceIdeal.S450000 32) (ea : FVec Ideal Cert.ReferenceIdeal.S450000x3 .f32)
    (a5 : FVec Ideal Cert.ReferenceIdeal.S5x3x128 .f32) (a6 : FVec Ideal Cert.ReferenceIdeal.S5x128 .f32) (a7 : FVec Ideal Cert.ReferenceIdeal.S5x256x256 .f32) (a8 a9 a10 : FVec Ideal Cert.ReferenceIdeal.S5x256 .f32)
    (a11 : FVec Ideal Cert.ReferenceIdeal.S5x256x128 .f32) (a12 : FVec Ideal Cert.ReferenceIdeal.S5x128 .f32) :
    Cert.ReferenceIdeal.RefValue.layerOutLast l h src dst ea a5 a6 a7 a8 a9 a10 a11 a12
      = Cert.KernelIdeal.Shared.outLast l (Cert.KernelIdeal.Shared.zTerm l h src dst ea a5 a6 a7 a8) a9 a10 a11 a12 := by
  unfold Cert.ReferenceIdeal.RefValue.layerOutLast Cert.ReferenceIdeal.RefValue.zOf Cert.KernelIdeal.Shared.outLast Cert.KernelIdeal.Shared.zTerm Cert.KernelIdeal.Shared.eembTerm
  simp only [aggX_eq, aggE_eq, colMean_eq, colVar_eq]

/-! ### The reference's layers leave the index arrays, the edge features and the parameters alone -/

theorem keep0 (V : Valuation Cert.ReferenceIdeal.τ Cert.ReferenceIdeal.sig (Elt Ideal)) {r : Ref Cert.ReferenceIdeal.sig .tc} (hr : r ∈ Cert.ReferenceIdeal.RefValue.keepRefs) :
    StableHlo.after Cert.ReferenceIdeal.RefValue.layer0 V (no_index (Proc.devRef .tc r)) = V (Proc.devRef .tc r) := Cert.ReferenceIdeal.RefValue.layer0_keep V hr
theorem keep1 (V : Valuation Cert.ReferenceIdeal.τ Cert.ReferenceIdeal.sig (Elt Ideal)) {r : Ref Cert.ReferenceIdeal.sig .tc} (hr : r ∈ Cert.ReferenceIdeal.RefValue.keepRefs) :
    StableHlo.after Cert.ReferenceIdeal.RefValue.layer1 V (no_index (Proc.devRef .tc r)) = V (Proc.devRef .tc r) := Cert.ReferenceIdeal.RefValue.layer1_keep V hr
theorem keep2 (V : Valuation Cert.ReferenceIdeal.τ Cert.ReferenceIdeal.sig (Elt Ideal)) {r : Ref Cert.ReferenceIdeal.sig .tc} (hr : r ∈ Cert.ReferenceIdeal.RefValue.keepRefs) :
    StableHlo.after Cert.ReferenceIdeal.RefValue.layer2 V (no_index (Proc.devRef .tc r)) = V (Proc.devRef .tc r) := Cert.ReferenceIdeal.RefValue.layer2_keep V hr
theorem keep3 (V : Valuation Cert.ReferenceIdeal.τ Cert.ReferenceIdeal.sig (Elt Ideal)) {r : Ref Cert.ReferenceIdeal.sig .tc} (hr : r ∈ Cert.ReferenceIdeal.RefValue.keepRefs) :
    StableHlo.after Cert.ReferenceIdeal.RefValue.layer3 V (no_index (Proc.devRef .tc r)) = V (Proc.devRef .tc r) := Cert.ReferenceIdeal.RefValue.layer3_keep V hr
theorem keep4 (V : Valuation Cert.ReferenceIdeal.τ Cert.ReferenceIdeal.sig (Elt Ideal)) {r : Ref Cert.ReferenceIdeal.sig .tc} (hr : r ∈ Cert.ReferenceIdeal.RefValue.keepRefs) :
    StableHlo.after Cert.ReferenceIdeal.RefValue.layer4 V (no_index (Proc.devRef .tc r)) = V (Proc.devRef .tc r) := Cert.ReferenceIdeal.RefValue.layer4_keep V hr

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-! ### After the common first stretch the buffers both programs go on reading agree -/

theorem pre_leaves (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (StableHlo.after Cert.ReferenceIdeal.RefValue.opsPre (StableHlo.launchContents m' c)) (Proc.devRef (τ := Cert.ReferenceIdeal.τ) .tc Cert.ReferenceIdeal.main_v3) = Cert.KernelIdeal.Layer0.U1 m ρ c (Proc.devRef (τ := Cert.KernelIdeal.τ) .tc Cert.KernelIdeal.main_v3)
    ∧ (StableHlo.after Cert.ReferenceIdeal.RefValue.opsPre (StableHlo.launchContents m' c)) (Proc.devRef (τ := Cert.ReferenceIdeal.τ) .tc Cert.ReferenceIdeal.main_v6) = Cert.KernelIdeal.Layer0.U1 m ρ c (Proc.devRef (τ := Cert.KernelIdeal.τ) .tc Cert.KernelIdeal.main_v6)
    ∧ (StableHlo.after Cert.ReferenceIdeal.RefValue.opsPre (StableHlo.launchContents m' c)) (Proc.devRef (τ := Cert.ReferenceIdeal.τ) .tc Cert.ReferenceIdeal.main_v11) = Cert.KernelIdeal.Layer0.U1 m ρ c (Proc.devRef (τ := Cert.KernelIdeal.τ) .tc Cert.KernelIdeal.main_v11)
    ∧ (StableHlo.after Cert.ReferenceIdeal.RefValue.opsPre (StableHlo.launchContents m' c)) (Proc.devRef (τ := Cert.ReferenceIdeal.τ) .tc Cert.ReferenceIdeal.main_arg0) = Cert.KernelIdeal.Layer0.U1 m ρ c (Proc.devRef (τ := Cert.KernelIdeal.τ) .tc Cert.KernelIdeal.main_arg0)
    ∧ (StableHlo.after Cert.ReferenceIdeal.RefValue.opsPre (StableHlo.launchContents m' c)) (Proc.devRef (τ := Cert.ReferenceIdeal.τ) .tc Cert.ReferenceIdeal.main_arg1) = Cert.KernelIdeal.Layer0.U1 m ρ c (Proc.devRef (τ := Cert.KernelIdeal.τ) .tc Cert.KernelIdeal.main_arg1)
    ∧ (StableHlo.after Cert.ReferenceIdeal.RefValue.opsPre (StableHlo.launchContents m' c)) (Proc.devRef (τ := Cert.ReferenceIdeal.τ) .tc Cert.ReferenceIdeal.main_arg2) = Cert.KernelIdeal.Layer0.U1 m ρ c (Proc.devRef (τ := Cert.KernelIdeal.τ) .tc Cert.KernelIdeal.main_arg2)
    ∧ (StableHlo.after Cert.ReferenceIdeal.RefValue.opsPre (StableHlo.launchContents m' c)) (Proc.devRef (τ := Cert.ReferenceIdeal.τ) .tc Cert.ReferenceIdeal.main_arg3) = Cert.KernelIdeal.Layer0.U1 m ρ c (Proc.devRef (τ := Cert.KernelIdeal.τ) .tc Cert.KernelIdeal.main_arg3)
    ∧ (StableHlo.after Cert.ReferenceIdeal.RefValue.opsPre (StableHlo.launchContents m' c)) (Proc.devRef (τ := Cert.ReferenceIdeal.τ) .tc Cert.ReferenceIdeal.main_arg4) = Cert.KernelIdeal.Layer0.U1 m ρ c (Proc.devRef (τ := Cert.KernelIdeal.τ) .tc Cert.KernelIdeal.main_arg4)
    ∧ (StableHlo.after Cert.ReferenceIdeal.RefValue.opsPre (StableHlo.launchContents m' c)) (Proc.devRef (τ := Cert.ReferenceIdeal.τ) .tc Cert.ReferenceIdeal.main_arg5) = Cert.KernelIdeal.Layer0.U1 m ρ c (Proc.devRef (τ := Cert.KernelIdeal.τ) .tc Cert.KernelIdeal.main_arg5)
    ∧ (StableHlo.after Cert.ReferenceIdeal.RefValue.opsPre (StableHlo.launchContents m' c)) (Proc.devRef (τ := Cert.ReferenceIdeal.τ) .tc Cert.ReferenceIdeal.main_arg6) = Cert.KernelIdeal.Layer0.U1 m ρ c (Proc.devRef (τ := Cert.KernelIdeal.τ) .tc Cert.KernelIdeal.main_arg6)
    ∧ (StableHlo.after Cert.ReferenceIdeal.RefValue.opsPre (StableHlo.launchContents m' c)) (Proc.devRef (τ := Cert.ReferenceIdeal.τ) .tc Cert.ReferenceIdeal.main_arg7) = Cert.KernelIdeal.Layer0.U1 m ρ c (Proc.devRef (τ := Cert.KernelIdeal.τ) .tc Cert.KernelIdeal.main_arg7)
    ∧ (StableHlo.after Cert.ReferenceIdeal.RefValue.opsPre (StableHlo.launchContents m' c)) (Proc.devRef (τ := Cert.ReferenceIdeal.τ) .tc Cert.ReferenceIdeal.main_arg8) = Cert.KernelIdeal.Layer0.U1 m ρ c (Proc.devRef (τ := Cert.KernelIdeal.τ) .tc Cert.KernelIdeal.main_arg8)
    ∧ (StableHlo.after Cert.ReferenceIdeal.RefValue.opsPre (StableHlo.launchContents m' c)) (Proc.devRef (τ := Cert.ReferenceIdeal.τ) .tc Cert.ReferenceIdeal.main_arg9) = Cert.KernelIdeal.Layer0.U1 m ρ c (Proc.devRef (τ := Cert.KernelIdeal.τ) .tc Cert.KernelIdeal.main_arg9)
    ∧ (StableHlo.after Cert.ReferenceIdeal.RefValue.opsPre (StableHlo.launchContents m' c)) (Proc.devRef (τ := Cert.ReferenceIdeal.τ) .tc Cert.ReferenceIdeal.main_arg10) = Cert.KernelIdeal.Layer0.U1 m ρ c (Proc.devRef (τ := Cert.KernelIdeal.τ) .tc Cert.KernelIdeal.main_arg10)
    ∧ (StableHlo.after Cert.ReferenceIdeal.RefValue.opsPre (StableHlo.launchContents m' c)) (Proc.devRef (τ := Cert.ReferenceIdeal.τ) .tc Cert.ReferenceIdeal.main_arg11) = Cert.KernelIdeal.Layer0.U1 m ρ c (Proc.devRef (τ := Cert.KernelIdeal.τ) .tc Cert.KernelIdeal.main_arg11)
    ∧ (StableHlo.after Cert.ReferenceIdeal.RefValue.opsPre (StableHlo.launchContents m' c)) (Proc.devRef (τ := Cert.ReferenceIdeal.τ) .tc Cert.ReferenceIdeal.main_arg12) = Cert.KernelIdeal.Layer0.U1 m ρ c (Proc.devRef (τ := Cert.KernelIdeal.τ) .tc Cert.KernelIdeal.main_arg12) := by
  have g0 : StableHlo.launchContents m' c (Proc.devRef (τ := Cert.ReferenceIdeal.τ) .tc Cert.ReferenceIdeal.main_arg0) = m ((c.tc : Thread Cert.KernelIdeal.nD Cert.KernelIdeal.τ).loc Cert.KernelIdeal.main_arg0) := hag.1
  have g1 : StableHlo.launchContents m' c (Proc.devRef (τ := Cert.ReferenceIdeal.τ) .tc Cert.ReferenceIdeal.main_arg1) = m ((c.tc : Thread Cert.KernelIdeal.nD Cert.KernelIdeal.τ).loc Cert.KernelIdeal.main_arg1) := hag.2.1
  have g2 : StableHlo.launchContents m' c (Proc.devRef (τ := Cert.ReferenceIdeal.τ) .tc Cert.ReferenceIdeal.main_arg2) = m ((c.tc : Thread Cert.KernelIdeal.nD Cert.KernelIdeal.τ).loc Cert.KernelIdeal.main_arg2) := hag.2.2.1
  have g3 : StableHlo.launchContents m' c (Proc.devRef (τ := Cert.ReferenceIdeal.τ) .tc Cert.ReferenceIdeal.main_arg3) = m ((c.tc : Thread Cert.KernelIdeal.nD Cert.KernelIdeal.τ).loc Cert.KernelIdeal.main_arg3) := hag.2.2.2.1
  have g4 : StableHlo.launchContents m' c (Proc.devRef (τ := Cert.ReferenceIdeal.τ) .tc Cert.ReferenceIdeal.main_arg4) = m ((c.tc : Thread Cert.KernelIdeal.nD Cert.KernelIdeal.τ).loc Cert.KernelIdeal.main_arg4) := hag.2.2.2.2.1
  have g5 : StableHlo.launchContents m' c (Proc.devRef (τ := Cert.ReferenceIdeal.τ) .tc Cert.ReferenceIdeal.main_arg5) = m ((c.tc : Thread Cert.KernelIdeal.nD Cert.KernelIdeal.τ).loc Cert.KernelIdeal.main_arg5) := hag.2.2.2.2.2.1
  have g6 : StableHlo.launchContents m' c (Proc.devRef (τ := Cert.ReferenceIdeal.τ) .tc Cert.ReferenceIdeal.main_arg6) = m ((c.tc : Thread Cert.KernelIdeal.nD Cert.KernelIdeal.τ).loc Cert.KernelIdeal.main_arg6) := hag.2.2.2.2.2.2.1
  have g7 : StableHlo.launchContents m' c (Proc.devRef (τ := Cert.ReferenceIdeal.τ) .tc Cert.ReferenceIdeal.main_arg7) = m ((c.tc : Thread Cert.KernelIdeal.nD Cert.KernelIdeal.τ).loc Cert.KernelIdeal.main_arg7) := hag.2.2.2.2.2.2.2.1
  have g8 : StableHlo.launchContents m' c (Proc.devRef (τ := Cert.ReferenceIdeal.τ) .tc Cert.ReferenceIdeal.main_arg8) = m ((c.tc : Thread Cert.KernelIdeal.nD Cert.KernelIdeal.τ).loc Cert.KernelIdeal.main_arg8) := hag.2.2.2.2.2.2.2.2.1
  have g9 : StableHlo.launchContents m' c (Proc.devRef (τ := Cert.ReferenceIdeal.τ) .tc Cert.ReferenceIdeal.main_arg9) = m ((c.tc : Thread Cert.KernelIdeal.nD Cert.KernelIdeal.τ).loc Cert.KernelIdeal.main_arg9) := hag.2.2.2.2.2.2.2.2.2.1
  have g10 : StableHlo.launchContents m' c (Proc.devRef (τ := Cert.ReferenceIdeal.τ) .tc Cert.ReferenceIdeal.main_arg10) = m ((c.tc : Thread Cert.KernelIdeal.nD Cert.KernelIdeal.τ).loc Cert.KernelIdeal.main_arg10) := hag.2.2.2.2.2.2.2.2.2.2.1
  have g11 : StableHlo.launchContents m' c (Proc.devRef (τ := Cert.ReferenceIdeal.τ) .tc Cert.ReferenceIdeal.main_arg11) = m ((c.tc : Thread Cert.KernelIdeal.nD Cert.KernelIdeal.τ).loc Cert.KernelIdeal.main_arg11) := hag.2.2.2.2.2.2.2.2.2.2.2.1
  have g12 : StableHlo.launchContents m' c (Proc.devRef (τ := Cert.ReferenceIdeal.τ) .tc Cert.ReferenceIdeal.main_arg12) = m ((c.tc : Thread Cert.KernelIdeal.nD Cert.KernelIdeal.τ).loc Cert.KernelIdeal.main_arg12) := hag.2.2.2.2.2.2.2.2.2.2.2.2
  obtain ⟨pa0, pa1, pa2, pa3, pa4, pa5, pa6, pa7, pa8, pa9, pa10, pa11, pa12⟩ := Cert.KernelIdeal.Layer0.pre_args m ρ c
  refine ⟨?_, ?_, ?_, ?_, ?_, ?_, ?_, ?_, ?_, ?_, ?_, ?_, ?_, ?_, ?_, ?_⟩
  · rw [Cert.ReferenceIdeal.RefValue.pre_src, Cert.KernelIdeal.Layer0.pre_src, g1]; rfl
  · rw [Cert.ReferenceIdeal.RefValue.pre_dst, Cert.KernelIdeal.Layer0.pre_dst, g1]; rfl
  · rw [Cert.ReferenceIdeal.RefValue.pre_ea, Cert.KernelIdeal.Layer0.pre_ea, g2]; rfl
  · rw [Cert.ReferenceIdeal.RefValue.opsPre_keep _ (r := Cert.ReferenceIdeal.main_arg0) (by decide), g0, pa0]
  · rw [Cert.ReferenceIdeal.RefValue.opsPre_keep _ (r := Cert.ReferenceIdeal.main_arg1) (by decide), g1, pa1]
  · rw [Cert.ReferenceIdeal.RefValue.opsPre_keep _ (r := Cert.ReferenceIdeal.main_arg2) (by decide), g2, pa2]
  · rw [Cert.ReferenceIdeal.RefValue.opsPre_keep _ (r := Cert.ReferenceIdeal.main_arg3) (by decide), g3, pa3]
  · rw [Cert.ReferenceIdeal.RefValue.opsPre_keep _ (r := Cert.ReferenceIdeal.main_arg4) (by decide), g4, pa4]
  · rw [Cert.ReferenceIdeal.RefValue.opsPre_keep _ (r := Cert.ReferenceIdeal.main_arg5) (by decide), g5, pa5]
  · rw [Cert.ReferenceIdeal.RefValue.opsPre_keep _ (r := Cert.ReferenceIdeal.main_arg6) (by decide), g6, pa6]
  · rw [Cert.ReferenceIdeal.RefValue.opsPre_keep _ (r := Cert.ReferenceIdeal.main_arg7) (by decide), g7, pa7]
  · rw [Cert.ReferenceIdeal.RefValue.opsPre_keep _ (r := Cert.ReferenceIdeal.main_arg8) (by decide), g8, pa8]
  · rw [Cert.ReferenceIdeal.RefValue.opsPre_keep _ (r := Cert.ReferenceIdeal.main_arg9) (by decide), g9, pa9]
  · rw [Cert.ReferenceIdeal.RefValue.opsPre_keep _ (r := Cert.ReferenceIdeal.main_arg10) (by decide), g10, pa10]
  · rw [Cert.ReferenceIdeal.RefValue.opsPre_keep _ (r := Cert.ReferenceIdeal.main_arg11) (by decide), g11, pa11]
  · rw [Cert.ReferenceIdeal.RefValue.opsPre_keep _ (r := Cert.ReferenceIdeal.main_arg12) (by decide), g12, pa12]

variable {m ρ m' c}

/-- After layer 0 the two programs' node features agree. -/
theorem layer0_eq (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (StableHlo.after Cert.ReferenceIdeal.RefValue.layer0 (StableHlo.after Cert.ReferenceIdeal.RefValue.opsPre (StableHlo.launchContents m' c))) (Proc.devRef (τ := Cert.ReferenceIdeal.τ) .tc Cert.ReferenceIdeal.main_v78) = Cert.KernelIdeal.Gen.W10 (F := Ideal) m ρ c (Proc.devRef (τ := Cert.KernelIdeal.τ) .tc Cert.KernelIdeal.main_v58) := by
  obtain ⟨l_v3, l_v6, l_v11, l_arg0, l_arg1, l_arg2, l_arg3, l_arg4, l_arg5, l_arg6, l_arg7, l_arg8, l_arg9, l_arg10, l_arg11, l_arg12⟩ := pre_leaves m ρ m' c hag
  rw [Cert.ReferenceIdeal.RefValue.layer0_val, layerOut_eq, Cert.KernelIdeal.Layer0.out_val]

  simp (disch := decide) only [keep0, keep1, keep2, keep3, keep4,
    l_v3, l_v6, l_v11, l_arg0, l_arg1, l_arg2, l_arg3, l_arg4, l_arg5, l_arg6, l_arg7, l_arg8, l_arg9, l_arg10, l_arg11, l_arg12]

/-- After layer 1 the two programs' node features agree. -/
theorem layer1_eq (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (StableHlo.after Cert.ReferenceIdeal.RefValue.layer1 (StableHlo.after Cert.ReferenceIdeal.RefValue.layer0 (StableHlo.after Cert.ReferenceIdeal.RefValue.opsPre (StableHlo.launchContents m' c)))) (Proc.devRef (τ := Cert.ReferenceIdeal.τ) .tc Cert.ReferenceIdeal.main_v141) = Cert.KernelIdeal.Gen.W18 (F := Ideal) m ρ c (Proc.devRef (τ := Cert.KernelIdeal.τ) .tc Cert.KernelIdeal.main_v103) := by
  obtain ⟨l_v3, l_v6, l_v11, l_arg0, l_arg1, l_arg2, l_arg3, l_arg4, l_arg5, l_arg6, l_arg7, l_arg8, l_arg9, l_arg10, l_arg11, l_arg12⟩ := pre_leaves m ρ m' c hag
  rw [Cert.ReferenceIdeal.RefValue.layer1_val, layerOut_eq, Cert.KernelIdeal.Layer1.out_val, layer0_eq (ρ := ρ) hag]
  obtain ⟨k0_v3, k0_v6, k0_v11, k0_arg3, k0_arg4, k0_arg5, k0_arg6, k0_arg7, k0_arg8, k0_arg9, k0_arg10, k0_arg11, k0_arg12⟩ := Cert.KernelIdeal.Layer0.keeps m ρ c
  simp (disch := decide) only [keep0, keep1, keep2, keep3, keep4,
    l_v3, l_v6, l_v11, l_arg0, l_arg1, l_arg2, l_arg3, l_arg4, l_arg5, l_arg6, l_arg7, l_arg8, l_arg9, l_arg10, l_arg11, l_arg12,
    k0_v3, k0_v6, k0_v11, k0_arg3, k0_arg4, k0_arg5, k0_arg6, k0_arg7, k0_arg8, k0_arg9, k0_arg10, k0_arg11, k0_arg12]

/-- After layer 2 the two programs' node features agree. -/
theorem layer2_eq (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (StableHlo.after Cert.ReferenceIdeal.RefValue.layer2 (StableHlo.after Cert.ReferenceIdeal.RefValue.layer1 (StableHlo.after Cert.ReferenceIdeal.RefValue.layer0 (StableHlo.after Cert.ReferenceIdeal.RefValue.opsPre (StableHlo.launchContents m' c))))) (Proc.devRef (τ := Cert.ReferenceIdeal.τ) .tc Cert.ReferenceIdeal.main_v204) = Cert.KernelIdeal.Gen.W26 (F := Ideal) m ρ c (Proc.devRef (τ := Cert.KernelIdeal.τ) .tc Cert.KernelIdeal.main_v148) := by
  obtain ⟨l_v3, l_v6, l_v11, l_arg0, l_arg1, l_arg2, l_arg3, l_arg4, l_arg5, l_arg6, l_arg7, l_arg8, l_arg9, l_arg10, l_arg11, l_arg12⟩ := pre_leaves m ρ m' c hag
  rw [Cert.ReferenceIdeal.RefValue.layer2_val, layerOut_eq, Cert.KernelIdeal.Layer2.out_val, layer1_eq (ρ := ρ) hag]
  obtain ⟨k1_v3, k1_v6, k1_v11, k1_arg3, k1_arg4, k1_arg5, k1_arg6, k1_arg7, k1_arg8, k1_arg9, k1_arg10, k1_arg11, k1_arg12⟩ := Cert.KernelIdeal.Layer1.keeps m ρ c
  obtain ⟨k0_v3, k0_v6, k0_v11, k0_arg3, k0_arg4, k0_arg5, k0_arg6, k0_arg7, k0_arg8, k0_arg9, k0_arg10, k0_arg11, k0_arg12⟩ := Cert.KernelIdeal.Layer0.keeps m ρ c
  simp (disch := decide) only [keep0, keep1, keep2, keep3, keep4,
    l_v3, l_v6, l_v11, l_arg0, l_arg1, l_arg2, l_arg3, l_arg4, l_arg5, l_arg6, l_arg7, l_arg8, l_arg9, l_arg10, l_arg11, l_arg12,
    k1_v3, k1_v6, k1_v11, k1_arg3, k1_arg4, k1_arg5, k1_arg6, k1_arg7, k1_arg8, k1_arg9, k1_arg10, k1_arg11, k1_arg12, k0_v3, k0_v6, k0_v11, k0_arg3, k0_arg4, k0_arg5, k0_arg6, k0_arg7, k0_arg8, k0_arg9, k0_arg10, k0_arg11, k0_arg12]

/-- After layer 3 the two programs' node features agree. -/
theorem layer3_eq (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (StableHlo.after Cert.ReferenceIdeal.RefValue.layer3 (StableHlo.after Cert.ReferenceIdeal.RefValue.layer2 (StableHlo.after Cert.ReferenceIdeal.RefValue.layer1 (StableHlo.after Cert.ReferenceIdeal.RefValue.layer0 (StableHlo.after Cert.ReferenceIdeal.RefValue.opsPre (StableHlo.launchContents m' c)))))) (Proc.devRef (τ := Cert.ReferenceIdeal.τ) .tc Cert.ReferenceIdeal.main_v267) = Cert.KernelIdeal.Gen.W34 (F := Ideal) m ρ c (Proc.devRef (τ := Cert.KernelIdeal.τ) .tc Cert.KernelIdeal.main_v193) := by
  obtain ⟨l_v3, l_v6, l_v11, l_arg0, l_arg1, l_arg2, l_arg3, l_arg4, l_arg5, l_arg6, l_arg7, l_arg8, l_arg9, l_arg10, l_arg11, l_arg12⟩ := pre_leaves m ρ m' c hag
  rw [Cert.ReferenceIdeal.RefValue.layer3_val, layerOut_eq, Cert.KernelIdeal.Layer3.out_val, layer2_eq (ρ := ρ) hag]
  obtain ⟨k2_v3, k2_v6, k2_v11, k2_arg3, k2_arg4, k2_arg5, k2_arg6, k2_arg7, k2_arg8, k2_arg9, k2_arg10, k2_arg11, k2_arg12⟩ := Cert.KernelIdeal.Layer2.keeps m ρ c
  obtain ⟨k1_v3, k1_v6, k1_v11, k1_arg3, k1_arg4, k1_arg5, k1_arg6, k1_arg7, k1_arg8, k1_arg9, k1_arg10, k1_arg11, k1_arg12⟩ := Cert.KernelIdeal.Layer1.keeps m ρ c
  obtain ⟨k0_v3, k0_v6, k0_v11, k0_arg3, k0_arg4, k0_arg5, k0_arg6, k0_arg7, k0_arg8, k0_arg9, k0_arg10, k0_arg11, k0_arg12⟩ := Cert.KernelIdeal.Layer0.keeps m ρ c
  simp (disch := decide) only [keep0, keep1, keep2, keep3, keep4,
    l_v3, l_v6, l_v11, l_arg0, l_arg1, l_arg2, l_arg3, l_arg4, l_arg5, l_arg6, l_arg7, l_arg8, l_arg9, l_arg10, l_arg11, l_arg12,
    k2_v3, k2_v6, k2_v11, k2_arg3, k2_arg4, k2_arg5, k2_arg6, k2_arg7, k2_arg8, k2_arg9, k2_arg10, k2_arg11, k2_arg12, k1_v3, k1_v6, k1_v11, k1_arg3, k1_arg4, k1_arg5, k1_arg6, k1_arg7, k1_arg8, k1_arg9, k1_arg10, k1_arg11, k1_arg12, k0_v3, k0_v6, k0_v11, k0_arg3, k0_arg4, k0_arg5, k0_arg6, k0_arg7, k0_arg8, k0_arg9, k0_arg10, k0_arg11, k0_arg12]

/-- After layer 4 the two programs' node features agree. -/
theorem layer4_eq (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (StableHlo.after Cert.ReferenceIdeal.RefValue.layer4 (StableHlo.after Cert.ReferenceIdeal.RefValue.layer3 (StableHlo.after Cert.ReferenceIdeal.RefValue.layer2 (StableHlo.after Cert.ReferenceIdeal.RefValue.layer1 (StableHlo.after Cert.ReferenceIdeal.RefValue.layer0 (StableHlo.after Cert.ReferenceIdeal.RefValue.opsPre (StableHlo.launchContents m' c))))))) (Proc.devRef (τ := Cert.ReferenceIdeal.τ) .tc Cert.ReferenceIdeal.main_v329) = Cert.KernelIdeal.Gen.W42 (F := Ideal) m ρ c (Proc.devRef (τ := Cert.KernelIdeal.τ) .tc Cert.KernelIdeal.main_v238) := by
  obtain ⟨l_v3, l_v6, l_v11, l_arg0, l_arg1, l_arg2, l_arg3, l_arg4, l_arg5, l_arg6, l_arg7, l_arg8, l_arg9, l_arg10, l_arg11, l_arg12⟩ := pre_leaves m ρ m' c hag
  rw [Cert.ReferenceIdeal.RefValue.layer4_val, layerOutLast_eq, Cert.KernelIdeal.Layer4.out_val, layer3_eq (ρ := ρ) hag]
  obtain ⟨k3_v3, k3_v6, k3_v11, k3_arg3, k3_arg4, k3_arg5, k3_arg6, k3_arg7, k3_arg8, k3_arg9, k3_arg10, k3_arg11, k3_arg12⟩ := Cert.KernelIdeal.Layer3.keeps m ρ c
  obtain ⟨k2_v3, k2_v6, k2_v11, k2_arg3, k2_arg4, k2_arg5, k2_arg6, k2_arg7, k2_arg8, k2_arg9, k2_arg10, k2_arg11, k2_arg12⟩ := Cert.KernelIdeal.Layer2.keeps m ρ c
  obtain ⟨k1_v3, k1_v6, k1_v11, k1_arg3, k1_arg4, k1_arg5, k1_arg6, k1_arg7, k1_arg8, k1_arg9, k1_arg10, k1_arg11, k1_arg12⟩ := Cert.KernelIdeal.Layer1.keeps m ρ c
  obtain ⟨k0_v3, k0_v6, k0_v11, k0_arg3, k0_arg4, k0_arg5, k0_arg6, k0_arg7, k0_arg8, k0_arg9, k0_arg10, k0_arg11, k0_arg12⟩ := Cert.KernelIdeal.Layer0.keeps m ρ c
  simp (disch := decide) only [keep0, keep1, keep2, keep3, keep4,
    l_v3, l_v6, l_v11, l_arg0, l_arg1, l_arg2, l_arg3, l_arg4, l_arg5, l_arg6, l_arg7, l_arg8, l_arg9, l_arg10, l_arg11, l_arg12,
    k3_v3, k3_v6, k3_v11, k3_arg3, k3_arg4, k3_arg5, k3_arg6, k3_arg7, k3_arg8, k3_arg9, k3_arg10, k3_arg11, k3_arg12, k2_v3, k2_v6, k2_v11, k2_arg3, k2_arg4, k2_arg5, k2_arg6, k2_arg7, k2_arg8, k2_arg9, k2_arg10, k2_arg11, k2_arg12, k1_v3, k1_v6, k1_v11, k1_arg3, k1_arg4, k1_arg5, k1_arg6, k1_arg7, k1_arg8, k1_arg9, k1_arg10, k1_arg11, k1_arg12, k0_v3, k0_v6, k0_v11, k0_arg3, k0_arg4, k0_arg5, k0_arg6, k0_arg7, k0_arg8, k0_arg9, k0_arg10, k0_arg11, k0_arg12]

/-- The reference's result buffer after its whole run holds what the kernel program's result buffer holds. -/
theorem result_eq (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    StableHlo.after Cert.ReferenceIdeal.RefValue.ops (StableHlo.launchContents m' c) (Proc.devRef (τ := Cert.ReferenceIdeal.τ) .tc Cert.ReferenceIdeal.main_v329)
      = Cert.KernelIdeal.Gen.W42 (F := Ideal) m ρ c (Proc.devRef (τ := Cert.KernelIdeal.τ) .tc Cert.KernelIdeal.main_v238) := by
  rw [Cert.ReferenceIdeal.RefValue.after_ops]
  exact layer4_eq (ρ := ρ) hag

end Cert.Bridge

end
-- ==== Proof.lean ====
/-
  A five-layer message-passing network on a graph of 50000 nodes and 400000 edges (plus one self loop per node):
  the kernel program against its reference, over the extended reals.

  Per layer both programs embed the edge features (an affine map), gather the node features at the edges' sources,
  add the gathered rows and the edge embeddings into their destination nodes, apply a linear map to the pair of
  aggregates, normalise each column by its mean and variance over the nodes, take the positive part, apply a second
  linear map and (except in the last layer) take the positive part again; layer 0 first projects the node features.
  The kernel program runs the dense stages as sixteen tiled regions (row blocks of 9000 or 5000 rows; products of
  values converted to a narrower float format, which is the identity on extended reals) and everything else as
  the same host operations the reference runs. Each region's output array is one function of its whole input arrays
  (Region0 … Region15), so the region is one more operation of the fold of host operations (KernelRun, KLayer0 …
  KLayer4); the reference's run is a fold of host operations outright (RefRun, RefPre, RefStages, RefLayers); layer
  by layer the two folds leave the same node features (Bridge). The only law of arithmetic used is that a sum over
  256 positions is the sum over the first 128 plus the sum over the last 128 — the kernel multiplies the two
  aggregates by the two halves of the first linear map, the reference multiplies their concatenation by the whole
  map — which holds for extended reals including the infinities, so the precondition (finite inputs) is not used.

  The three frame claims: the kernel programs' are the generated frames; the reference's is its run with the value
  dropped. The ideal pass rewrote no operation, so there is nothing to preserve.
-/
import proofs.«132731_j31379031065008_1_alg».proof.Defs
import proofs.«132731_j31379031065008_1_alg».proof.Proof.Gen.Kernel
import proofs.«132731_j31379031065008_1_alg».proof.Proof.Gen.Kernel.Skeleton
import proofs.«132731_j31379031065008_1_alg».proof.Proof.Gen.Kernel.Launch
import proofs.«132731_j31379031065008_1_alg».proof.Proof.Gen.Kernel.Points
import proofs.«132731_j31379031065008_1_alg».proof.Proof.Gen.Kernel.Frame
import proofs.«132731_j31379031065008_1_alg».proof.Proof.Gen.KernelIdeal
import proofs.«132731_j31379031065008_1_alg».proof.Proof.Gen.KernelIdeal.Skeleton
import proofs.«132731_j31379031065008_1_alg».proof.Proof.Gen.KernelIdeal.Launch
import proofs.«132731_j31379031065008_1_alg».proof.Proof.Gen.KernelIdeal.Points
import proofs.«132731_j31379031065008_1_alg».proof.Proof.Gen.KernelIdeal.Frame
import proofs.«132731_j31379031065008_1_alg».proof.Proof.Gen.ReferenceIdeal
import proofs.«132731_j31379031065008_1_alg».proof.Proof.Gen.Pre_finite_inputs
import proofs.«132731_j31379031065008_1_alg».proof.Proof.KernelRun
import proofs.«132731_j31379031065008_1_alg».proof.Proof.RefRun
import proofs.«132731_j31379031065008_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates without a fault and leaves its arguments alone: its run, the value dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- From memories agreeing on the arguments both programs run, and the reference's result is the kernel program's. -/
theorem algebraic : Cert.algebraic_KernelIdeal_ReferenceIdeal := by
  intro m ρ m' ρ' _ hagree
  refine ⟨fun c => Cert.KernelIdeal.Gen.W42 (F := Ideal) m ρ c (Proc.devRef .tc Cert.KernelIdeal.main_v238),
    Cert.KernelIdeal.RunValue.run_result (F := Ideal) m ρ, ?_⟩
  exact (θ_run Cert.ReferenceIdeal.defs _ _).mono
    (fun _ h c => ⟨(h c).1.trans (Cert.Bridge.result_eq (m := m) (ρ := ρ) (m' := m') (c := c) (hagree c)), (h c).2⟩)
    (Cert.ReferenceIdeal.RefValue.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
